-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v121)) (v1 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_v122) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2x50000x216 : Shape := ⟨4, ![1, 2, 50000, 216]⟩
abbrev S216x64 : Shape := ⟨2, ![216, 64]⟩
abbrev S64 : Shape := ⟨1, ![64]⟩
abbrev S64x8 : Shape := ⟨2, ![64, 8]⟩
abbrev S8 : Shape := ⟨1, ![8]⟩
abbrev S8x3 : Shape := ⟨2, ![8, 3]⟩
abbrev S3 : Shape := ⟨1, ![3]⟩
abbrev S2x800000 : Shape := ⟨2, ![2, 800000]⟩
abbrev S_ : Shape := ⟨0, ![]⟩

class Facts : Prop where
  bcast_S_S1x2x50000x216 : S_.BroadcastsInDim S1x2x50000x216 (![] : Fin 0 → Fin S1x2x50000x216.rank)
  reducesTo_S1x2x50000x216_S_d0_1_2_3 : S1x2x50000x216.ReducesTo [0, 1, 2, 3] S_
  h_S_ : 0 < S_.numel
  bcast_S_S216x64 : S_.BroadcastsInDim S216x64 (![] : Fin 0 → Fin S216x64.rank)
  reducesTo_S216x64_S_d0_1 : S216x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S8x3 : S_.BroadcastsInDim S8x3 (![] : Fin 0 → Fin S8x3.rank)
  reducesTo_S8x3_S_d0_1 : S8x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg7 : FVec F S8 .f32) (main_arg8 : FVec F S8 .f32) (main_arg9 : FVec F S8x3 .f32) (main_arg10 : FVec F S3 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x3 .f32 := Host.absf main_arg9
  let main_cst_16 : FVec F S_ .f32 := constant S_ .f32 0x7F800000#32
  let main_v45 : FVec F S8x3 .f32 := broadcastInDim S8x3 ![] bcast_S_S8x3 main_cst_16
  let main_v46 : IVec S8x3 1 := cmpf .olt main_v44 main_v45
  let main_c_17 : IVec S_ 1 := constantI S_ 1 1#1
  let main_v47 : IVec S_ 1 := (fun x v => Host.reduce IntOp.andi x v reducesTo_S8x3_S_d0_1 h_S_) main_v46 main_c_17
  let main_v48 : IVec S_ 1 := andi main_v43 main_v47
  let main_v49 : FVec F S3 .f32 := Host.absf main_arg10
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg4 : FVec F S64 .f32) (main_arg5 : FVec F S64x8 .f32) (main_arg6 : FVec F S8 .f32) (main_arg7 : FVec F S8 .f32) (main_arg8 : FVec F S8 .f32) (main_arg9 : FVec F S8x3 .f32) (main_arg10 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x8 .f32 := Host.absf main_arg5
  let main_cst_8 : FVec F S_ .f32 := constant S_ .f32 0x7F800000#32
  let main_v25 : FVec F S64x8 .f32 := broadcastInDim S64x8 ![] bcast_S_S64x8 main_cst_8
  let main_v26 : IVec S64x8 1 := cmpf .olt main_v24 main_v25
  let main_c_9 : IVec S_ 1 := constantI S_ 1 1#1
  let main_v27 : IVec S_ 1 := (fun x v => Host.reduce IntOp.andi x v reducesTo_S64x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1x2x50000x216 .f32) (main_arg1 : FVec F S216x64 .f32) (main_arg2 : FVec F S64 .f32) (main_arg3 : FVec F S64 .f32) (main_arg4 : FVec F S64 .f32) (main_arg5 : FVec F S64x8 .f32) (main_arg6 : FVec F S8 .f32) (main_arg7 : FVec F S8 .f32) (main_arg8 : FVec F S8 .f32) (main_arg9 : FVec F S8x3 .f32) (main_arg10 : FVec F S3 .f32) (main_arg11 : IVec S2x800000 32) : IVec S_ 1 :=
  let main_v0 : FVec F S1x2x50000x216 .f32 := Host.absf main_arg0
  let main_cst : FVec F S_ .f32 := constant S_ .f32 0x7F800000#32
  let main_v1 : FVec F S1x2x50000x216 .f32 := broadcastInDim S1x2x50000x216 ![] bcast_S_S1x2x50000x216 main_cst
  let main_v2 : IVec S1x2x50000x216 1 := cmpf .olt main_v0 main_v1
  let main_c : IVec S_ 1 := constantI S_ 1 1#1
  let main_v3 : IVec S_ 1 := (fun x v => Host.reduce IntOp.andi x v reducesTo_S1x2x50000x216_S_d0_1_2_3 h_S_) main_v2 main_c
  let main_v4 : FVec F S216x64 .f32 := Host.absf main_arg1
  let main_cst_0 : FVec F S_ .f32 := constant S_ .f32 0x7F800000#32
  let main_v5 : FVec F S216x64 .f32 := broadcastInDim S216x64 ![] bcast_S_S216x64 main_cst_0
  let main_v6 : IVec S216x64 1 := cmpf .olt main_v4 main_v5
  let main_c_1 : IVec S_ 1 := constantI S_ 1 1#1
  let main_v7 : IVec S_ 1 := (fun x v => Host.reduce IntOp.andi x v reducesTo_S216x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_v13 main_v16
-- ==== Kernel.lean ====
abbrev S1x2x50000x216 : Shape := ⟨4, ![1, 2, 50000, 216]⟩
abbrev S216x64 : Shape := ⟨2, ![216, 64]⟩
abbrev S64 : Shape := ⟨1, ![64]⟩
abbrev S64x8 : Shape := ⟨2, ![64, 8]⟩
abbrev S8 : Shape := ⟨1, ![8]⟩
abbrev S8x3 : Shape := ⟨2, ![8, 3]⟩
abbrev S3 : Shape := ⟨1, ![3]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2x50000x216 : Shape := ⟨3, ![2, 50000, 216]⟩
abbrev S100000x216 : Shape := ⟨2, ![100000, 216]⟩
abbrev S100000x64 : Shape := ⟨2, ![100000, 64]⟩
abbrev S4000x216 : Shape := ⟨2, ![4000, 216]⟩
abbrev S4000x64 : Shape := ⟨2, ![4000, 64]⟩
abbrev S2x50000x64 : Shape := ⟨3, ![2, 50000, 64]⟩
abbrev S2x850000x64 : Shape := ⟨3, ![2, 850000, 64]⟩
abbrev S1x850000x1 : Shape := ⟨3, ![1, 850000, 1]⟩
abbrev S1x1x64 : Shape := ⟨3, ![1, 1, 64]⟩
abbrev S2x2000x64 : Shape := ⟨3, ![2, 2000, 64]⟩
abbrev S100000x8 : Shape := ⟨2, ![100000, 8]⟩
abbrev S4000x8 : Shape := ⟨2, ![4000, 8]⟩
abbrev S2x50000x8 : Shape := ⟨3, ![2, 50000, 8]⟩
abbrev S2x850000x8 : Shape := ⟨3, ![2, 850000, 8]⟩
abbrev S1x1x8 : Shape := ⟨3, ![1, 1, 8]⟩
abbrev S2x2000x8 : Shape := ⟨3, ![2, 2000, 8]⟩
abbrev S100000x3 : Shape := ⟨2, ![100000, 3]⟩
abbrev S4000x3 : Shape := ⟨2, ![4000, 3]⟩
abbrev S2x50000x3 : Shape := ⟨3, ![2, 50000, 3]⟩
abbrev S2x850000x3 : Shape := ⟨3, ![2, 850000, 3]⟩
abbrev S1x1x3 : Shape := ⟨3, ![1, 1, 3]⟩
abbrev S2x2000x3 : Shape := ⟨3, ![2, 2000, 3]⟩
abbrev S1x2x50000x3 : Shape := ⟨4, ![1, 2, 50000, 3]⟩
abbrev S1x2x50000x8 : Shape := ⟨4, ![1, 2, 50000, 8]⟩

abbrev nBuf : Space → Nat
  | .hbm => 214
  | .vmem => 50
  | .smem => 0
  | _ => 0

abbrev hbmTy0_0 (i : Nat) : BufTy := match i % 128 with
  | 0 => ⟨S1x2x50000x216, .f32⟩
  | 1 => ⟨S216x64, .f32⟩
  | 2 => ⟨S64, .f32⟩
  | 3 => ⟨S64, .f32⟩
  | 4 => ⟨S64, .f32⟩
  | 5 => ⟨S64x8, .f32⟩
  | 6 => ⟨S8, .f32⟩
  | 7 => ⟨S8, .f32⟩
  | 8 => ⟨S8, .f32⟩
  | 9 => ⟨S8x3, .f32⟩
  | 10 => ⟨S3, .f32⟩
  | 11 => ⟨S2x800000, .i32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S50000, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S_, .f32⟩
  | 30 => ⟨S850000, .f32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S2x50000x216, .f32⟩
  | 60 => ⟨S100000x216, .f32⟩
  | 61 => ⟨S100000x64, .f32⟩
  | 62 => ⟨S2x50000x64, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S2x850000x64, .f32⟩
  | 72 => ⟨S1x850000x1, .f32⟩
  | 73 => ⟨S2x850000x64, .f32⟩
  | 74 => ⟨S2x850000x64, .f32⟩
  | 75 => ⟨S_, .f32⟩
  | 76 => ⟨S2x50000x64, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S2x50000x64, .f32⟩
  | 86 => ⟨S1x1x64, .f32⟩
  | 87 => ⟨S2x50000x64, .f32⟩
  | 88 => ⟨S2x50000x64, .f32⟩
  | 89 => ⟨S_, .f32⟩
  | 90 => ⟨S64, .f32⟩
  | 91 => ⟨S1x1x64, .f32⟩
  | 92 => ⟨S_, .f32⟩
  | 93 => ⟨S1x1x64, .f32⟩
  | 94 => ⟨S1x1x64, .f32⟩
  | 95 => ⟨S_, .i32⟩
  | 96 => ⟨S_, .f32⟩
  | 97 => ⟨S64, .f32⟩
  | 98 => ⟨S1x1x64, .f32⟩
  | 99 => ⟨S_, .f32⟩
  | 100 => ⟨S1x1x64, .f32⟩
  | 101 => ⟨S1x1x64, .f32⟩
  | 102 => ⟨S2x50000x64, .f32⟩
  | 103 => ⟨S2x50000x64, .f32⟩
  | 104 => ⟨S2x50000x64, .f32⟩
  | 105 => ⟨S_, .f32⟩
  | 106 => ⟨S_, .f32⟩
  | 107 => ⟨S_, .f32⟩
  | 108 => ⟨S_, .f32⟩
  | 109 => ⟨S64, .f32⟩
  | 110 => ⟨S1x1x64, .f32⟩
  | 111 => ⟨S1x1x64, .f32⟩
  | 112 => ⟨S1x1x64, .f32⟩
  | 113 => ⟨S_, .f32⟩
  | 114 => ⟨S_, .i1⟩
  | 115 => ⟨S_, .f32⟩
  | 116 => ⟨S_, .f32⟩
  | 117 => ⟨S1x1x64, .f32⟩
  | 118 => ⟨S1x1x64, .f32⟩
  | 119 => ⟨S1x1x64, .f32⟩
  | 120 => ⟨S1x1x64, .f32⟩
  | 121 => ⟨S2x50000x64, .f32⟩
  | 122 => ⟨S100000x64, .f32⟩
  | 123 => ⟨S100000x8, .f32⟩
  | 124 => ⟨S2x50000x8, .f32⟩
  | 125 => ⟨S_, .i32⟩
  | 126 => ⟨S850000, .i32⟩
  | 127 => ⟨S850000, .i1⟩
  | _ => ⟨S1x2x50000x216, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S2x850000x8, .f32⟩
  | 6 => ⟨S1x850000x1, .f32⟩
  | 7 => ⟨S2x850000x8, .f32⟩
  | 8 => ⟨S2x850000x8, .f32⟩
  | 9 => ⟨S_, .f32⟩
  | 10 => ⟨S2x50000x8, .f32⟩
  | 11 => ⟨S_, .i32⟩
  | 12 => ⟨S850000, .i32⟩
  | 13 => ⟨S850000, .i1⟩
  | 14 => ⟨S_, .i32⟩
  | 15 => ⟨S850000, .i32⟩
  | 16 => ⟨S850000, .i32⟩
  | 17 => ⟨S850000, .i32⟩
  | 18 => ⟨S850000x1, .i32⟩
  | 19 => ⟨S2x50000x8, .f32⟩
  | 20 => ⟨S1x1x8, .f32⟩
  | 21 => ⟨S2x50000x8, .f32⟩
  | 22 => ⟨S2x50000x8, .f32⟩
  | 23 => ⟨S_, .f32⟩
  | 24 => ⟨S8, .f32⟩
  | 25 => ⟨S1x1x8, .f32⟩
  | 26 => ⟨S_, .f32⟩
  | 27 => ⟨S1x1x8, .f32⟩
  | 28 => ⟨S1x1x8, .f32⟩
  | 29 => ⟨S_, .i32⟩
  | 30 => ⟨S_, .f32⟩
  | 31 => ⟨S8, .f32⟩
  | 32 => ⟨S1x1x8, .f32⟩
  | 33 => ⟨S_, .f32⟩
  | 34 => ⟨S1x1x8, .f32⟩
  | 35 => ⟨S1x1x8, .f32⟩
  | 36 => ⟨S2x50000x8, .f32⟩
  | 37 => ⟨S2x50000x8, .f32⟩
  | 38 => ⟨S2x50000x8, .f32⟩
  | 39 => ⟨S_, .f32⟩
  | 40 => ⟨S_, .f32⟩
  | 41 => ⟨S_, .f32⟩
  | 42 => ⟨S_, .f32⟩
  | 43 => ⟨S8, .f32⟩
  | 44 => ⟨S1x1x8, .f32⟩
  | 45 => ⟨S1x1x8, .f32⟩
  | 46 => ⟨S1x1x8, .f32⟩
  | 47 => ⟨S_, .f32⟩
  | 48 => ⟨S_, .i1⟩
  | 49 => ⟨S_, .f32⟩
  | 50 => ⟨S_, .f32⟩
  | 51 => ⟨S1x1x8, .f32⟩
  | 52 => ⟨S1x1x8, .f32⟩
  | 53 => ⟨S1x1x8, .f32⟩
  | 54 => ⟨S1x1x8, .f32⟩
  | 55 => ⟨S2x50000x8, .f32⟩
  | 56 => ⟨S100000x8, .f32⟩
  | 57 => ⟨S100000x3, .f32⟩
  | 58 => ⟨S2x50000x3, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S2x850000x3, .f32⟩
  | 68 => ⟨S1x850000x1, .f32⟩
  | 69 => ⟨S2x850000x3, .f32⟩
  | 70 => ⟨S2x850000x3, .f32⟩
  | 71 => ⟨S_, .f32⟩
  | 72 => ⟨S2x50000x3, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S2x50000x3, .f32⟩
  | 82 => ⟨S1x1x3, .f32⟩
  | 83 => ⟨S2x50000x3, .f32⟩
  | 84 => ⟨S1x2x50000x3, .f32⟩
  | 85 => ⟨S1x2x50000x8, .f32⟩
  | _ => ⟨S1x2x50000x216, .f32⟩

abbrev hbmTy (i : Nat) : BufTy := match i / 128 with
  | 0 => hbmTy0_0 i
  | 1 => hbmTy0_1 i
  | _ => ⟨S1x2x50000x216, .f32⟩

abbrev bufTy : (tb : Table) → Fin (tcTables nBuf tb) → BufTy
  | .hbm, ⟨i, _⟩ => hbmTy i
  | .local _ .vmem, ⟨0, _⟩ => ⟨S4000x216, .f32⟩
  | .local _ .vmem, ⟨1, _⟩ => ⟨S4000x216, .f32⟩
  | .local _ .vmem, ⟨2, _⟩ => ⟨S216x64, .f32⟩
  | .local _ .vmem, ⟨3, _⟩ => ⟨S4000x64, .f32⟩
  | .local _ .vmem, ⟨4, _⟩ => ⟨S4000x64, .f32⟩
  | .local _ .vmem, ⟨5, _⟩ => ⟨S2x2000x64, .f32⟩
  | .local _ .vmem, ⟨6, _⟩ => ⟨S2x2000x64, .f32⟩
  | .local _ .vmem, ⟨7, _⟩ => ⟨S1x1x64, .f32⟩
  | .local _ .vmem, ⟨8, _⟩ => ⟨S2x2000x64, .f32⟩
  | .local _ .vmem, ⟨9, _⟩ => ⟨S2x2000x64, .f32⟩
  | .local _ .vmem, ⟨10, _⟩ => ⟨S2x2000x64, .f32⟩
  | .local _ .vmem, ⟨11, _⟩ => ⟨S2x2000x64, .f32⟩
  | .local _ .vmem, ⟨12, _⟩ => ⟨S2x2000x64, .f32⟩
  | .local _ .vmem, ⟨13, _⟩ => ⟨S2x2000x64, .f32⟩
  | .local _ .vmem, ⟨14, _⟩ => ⟨S1x1x64, .f32⟩
  | .local _ .vmem, ⟨15, _⟩ => ⟨S1x1x64, .f32⟩
  | .local _ .vmem, ⟨16, _⟩ => ⟨S1x1x64, .f32⟩
  | .local _ .vmem, ⟨17, _⟩ => ⟨S1x1x64, .f32⟩
  | .local _ .vmem, ⟨18, _⟩ => ⟨S2x2000x64, .f32⟩
  | .local _ .vmem, ⟨19, _⟩ => ⟨S2x2000x64, .f32⟩
  | .local _ .vmem, ⟨20, _⟩ => ⟨S4000x64, .f32⟩
  | .local _ .vmem, ⟨21, _⟩ => ⟨S4000x64, .f32⟩
  | .local _ .vmem, ⟨22, _⟩ => ⟨S64x8, .f32⟩
  | .local _ .vmem, ⟨23, _⟩ => ⟨S4000x8, .f32⟩
  | .local _ .vmem, ⟨24, _⟩ => ⟨S4000x8, .f32⟩
  | .local _ .vmem, ⟨25, _⟩ => ⟨S2x2000x8, .f32⟩
  | .local _ .vmem, ⟨26, _⟩ => ⟨S2x2000x8, .f32⟩
  | .local _ .vmem, ⟨27, _⟩ => ⟨S1x1x8, .f32⟩
  | .local _ .vmem, ⟨28, _⟩ => ⟨S2x2000x8, .f32⟩
  | .local _ .vmem, ⟨29, _⟩ => ⟨S2x2000x8, .f32⟩
  | .local _ .vmem, ⟨30, _⟩ => ⟨S2x2000x8, .f32⟩
  | .local _ .vmem, ⟨31, _⟩ => ⟨S2x2000x8, .f32⟩
  | .local _ .vmem, ⟨32, _⟩ => ⟨S2x2000x8, .f32⟩
  | .local _ .vmem, ⟨33, _⟩ => ⟨S2x2000x8, .f32⟩
  | .local _ .vmem, ⟨34, _⟩ => ⟨S1x1x8, .f32⟩
  | .local _ .vmem, ⟨35, _⟩ => ⟨S1x1x8, .f32⟩
  | .local _ .vmem, ⟨36, _⟩ => ⟨S1x1x8, .f32⟩
  | .local _ .vmem, ⟨37, _⟩ => ⟨S1x1x8, .f32⟩
  | .local _ .vmem, ⟨38, _⟩ => ⟨S2x2000x8, .f32⟩
  | .local _ .vmem, ⟨39, _⟩ => ⟨S2x2000x8, .f32⟩
  | .local _ .vmem, ⟨40, _⟩ => ⟨S4000x8, .f32⟩
  | .local _ .vmem, ⟨41, _⟩ => ⟨S4000x8, .f32⟩
  | .local _ .vmem, ⟨42, _⟩ => ⟨S8x3, .f32⟩
  | .local _ .vmem, ⟨43, _⟩ => ⟨S4000x3, .f32⟩
  | .local _ .vmem, ⟨44, _⟩ => ⟨S4000x3, .f32⟩
  | .local _ .vmem, ⟨45, _⟩ => ⟨S2x2000x3, .f32⟩
  | .local _ .vmem, ⟨46, _⟩ => ⟨S2x2000x3, .f32⟩
  | .local _ .vmem, ⟨47, _⟩ => ⟨S1x1x3, .f32⟩
  | .local _ .vmem, ⟨48, _⟩ => ⟨S2x2000x3, .f32⟩
  | .local _ .vmem, ⟨49, _⟩ => ⟨S2x2000x3, .f32⟩
  | _, _ => ⟨S1x2x50000x216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_v39 : Ref sig .tc := ⟨.hbm, 64, rfl⟩
abbrev main_v40 : Ref sig .tc := ⟨.hbm, 65, rfl⟩
abbrev main_c_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_c_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58_0 : Ref sig .tc := ⟨.hbm, 87, rfl⟩
abbrev main_v58_1 : Ref sig .tc := ⟨.hbm, 88, rfl⟩
abbrev main_cst_13 : Ref sig .tc := ⟨.hbm, 89, rfl⟩
abbrev main_v59 : Ref sig .tc := ⟨.hbm, 90, rfl⟩
abbrev main_v60 : Ref sig .tc := ⟨.hbm, 91, rfl⟩
abbrev main_cst_14 : Ref sig .tc := ⟨.hbm, 92, rfl⟩
abbrev main_v61 : Ref sig .tc := ⟨.hbm, 93, rfl⟩
abbrev main_v62 : Ref sig .tc := ⟨.hbm, 94, rfl⟩
abbrev main_c_15 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_cst_0 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_v7 : Ref sig .tc := ⟨.hbm, 105, rfl⟩
abbrev main_call1_cst_1 : Ref sig .tc := ⟨.hbm, 106, rfl⟩
abbrev main_call1_v8 : Ref sig .tc := ⟨.hbm, 107, rfl⟩
abbrev main_call1_cst_2 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_call1_v12 : Ref sig .tc := ⟨.hbm, 112, rfl⟩
abbrev main_call1_cst_3 : Ref sig .tc := ⟨.hbm, 113, rfl⟩
abbrev main_call1_v13 : Ref sig .tc := ⟨.hbm, 114, rfl⟩
abbrev main_call1_cst_4 : Ref sig .tc := ⟨.hbm, 115, rfl⟩
abbrev main_call1_call0_v0 : Ref sig .tc := ⟨.hbm, 116, rfl⟩
abbrev main_call1_call0_v1 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_c_16 : Ref sig .tc := ⟨.hbm, 125, rfl⟩
abbrev main_v70 : Ref sig .tc := ⟨.hbm, 126, rfl⟩
abbrev main_v71 : Ref sig .tc := ⟨.hbm, 127, rfl⟩
abbrev main_c_17 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_cst_18 : Ref sig .tc := ⟨.hbm, 137, rfl⟩
abbrev main_v80 : Ref sig .tc := ⟨.hbm, 138, rfl⟩
abbrev main_c_19 : Ref sig .tc := ⟨.hbm, 139, rfl⟩
abbrev main_v81 : Ref sig .tc := ⟨.hbm, 140, rfl⟩
abbrev main_v82 : Ref sig .tc := ⟨.hbm, 141, rfl⟩
abbrev main_c_20 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89_0 : Ref sig .tc := ⟨.hbm, 149, rfl⟩
abbrev main_v89_1 : Ref sig .tc := ⟨.hbm, 150, rfl⟩
abbrev main_cst_21 : Ref sig .tc := ⟨.hbm, 151, rfl⟩
abbrev main_v90 : Ref sig .tc := ⟨.hbm, 152, rfl⟩
abbrev main_v91 : Ref sig .tc := ⟨.hbm, 153, rfl⟩
abbrev main_cst_22 : Ref sig .tc := ⟨.hbm, 154, rfl⟩
abbrev main_v92 : Ref sig .tc := ⟨.hbm, 155, rfl⟩
abbrev main_v93 : Ref sig .tc := ⟨.hbm, 156, rfl⟩
abbrev main_c_23 : Ref sig .tc := ⟨.hbm, 157, rfl⟩
abbrev main_call2_cst : Ref sig .tc := ⟨.hbm, 158, rfl⟩
abbrev main_call2_v0 : Ref sig .tc := ⟨.hbm, 159, rfl⟩
abbrev main_call2_v1 : Ref sig .tc := ⟨.hbm, 160, rfl⟩
abbrev main_call2_cst_0 : Ref sig .tc := ⟨.hbm, 161, rfl⟩
abbrev main_call2_v2 : Ref sig .tc := ⟨.hbm, 162, rfl⟩
abbrev main_call2_v3 : Ref sig .tc := ⟨.hbm, 163, rfl⟩
abbrev main_call2_v4 : Ref sig .tc := ⟨.hbm, 164, rfl⟩
abbrev main_call2_v5 : Ref sig .tc := ⟨.hbm, 165, rfl⟩
abbrev main_call2_v6 : Ref sig .tc := ⟨.hbm, 166, rfl⟩
abbrev main_call2_v7 : Ref sig .tc := ⟨.hbm, 167, rfl⟩
abbrev main_call2_cst_1 : Ref sig .tc := ⟨.hbm, 168, rfl⟩
abbrev main_call2_v8 : Ref sig .tc := ⟨.hbm, 169, rfl⟩
abbrev main_call2_cst_2 : Ref sig .tc := ⟨.hbm, 170, rfl⟩
abbrev main_call2_v9 : Ref sig .tc := ⟨.hbm, 171, rfl⟩
abbrev main_call2_v10 : Ref sig .tc := ⟨.hbm, 172, rfl⟩
abbrev main_call2_v11 : Ref sig .tc := ⟨.hbm, 173, rfl⟩
abbrev main_call2_v12 : Ref sig .tc := ⟨.hbm, 174, rfl⟩
abbrev main_call2_cst_3 : Ref sig .tc := ⟨.hbm, 175, rfl⟩
abbrev main_call2_v13 : Ref sig .tc := ⟨.hbm, 176, rfl⟩
abbrev main_call2_cst_4 : Ref sig .tc := ⟨.hbm, 177, rfl⟩
abbrev main_call2_call0_v0 : Ref sig .tc := ⟨.hbm, 178, rfl⟩
abbrev main_call2_call0_v1 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_c_24 : Ref sig .tc := ⟨.hbm, 187, rfl⟩
abbrev main_v101 : Ref sig .tc := ⟨.hbm, 188, rfl⟩
abbrev main_v102 : Ref sig .tc := ⟨.hbm, 189, rfl⟩
abbrev main_c_25 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_cst_26 : Ref sig .tc := ⟨.hbm, 199, rfl⟩
abbrev main_v111 : Ref sig .tc := ⟨.hbm, 200, rfl⟩
abbrev main_c_27 : Ref sig .tc := ⟨.hbm, 201, rfl⟩
abbrev main_v112 : Ref sig .tc := ⟨.hbm, 202, rfl⟩
abbrev main_v113 : Ref sig .tc := ⟨.hbm, 203, rfl⟩
abbrev main_c_28 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S216x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2x2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2x2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S2x2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2x2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage4_0 : Fin 2 → Memref sig .tc .vmem S2x2000x8 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1x8 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2x2000x8 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2x2000x8 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage5_0 : Fin 2 → Memref sig .tc .vmem S2x2000x8 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1x8 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1x8 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1x8 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1x8 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2x2000x8 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x8 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8x3 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4000x3 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage7_0 : Fin 2 → Memref sig .tc .vmem S2x2000x3 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x1x3 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2x2000x3 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  shapeCasts_S1x2x50000x216_S2x50000x216 : S1x2x50000x216.ShapeCasts S2x50000x216
  shapeCasts_S2x50000x216_S100000x216 : S2x50000x216.ShapeCasts S100000x216
  inb_S4000x216_S4000x216_0_0 : ∀ a, (![0, 0] : Fin 2 → Nat) a + S4000x216.size a ≤ S4000x216.size a
  h_S4000x216 : 0 < S4000x216.numel
  shapeCasts_S4000x216_S4000x216 : S4000x216.ShapeCasts S4000x216
  bitsLt_bf16_f32 : FTy.bits .bf16 < FTy.bits .f32
  inb_S216x64_S216x64_0_0 : ∀ a, (![0, 0] : Fin 2 → Nat) a + S216x64.size a ≤ S216x64.size a
  h_S216x64 : 0 < S216x64.numel
  inb_S4000x64_S4000x64_0_0 : ∀ a, (![0, 0] : Fin 2 → Nat) a + S4000x64.size a ≤ S4000x64.size a
  h_S4000x64 : 0 < S4000x64.numel
  shapeCasts_S100000x64_S2x50000x64 : S100000x64.ShapeCasts S2x50000x64
  bcast_S850000_S1x850000x1_1 : S850000.BroadcastsInDim S1x850000x1 (![1] : Fin 1 → Fin S1x850000x1.rank)
  bcast_S1x850000x1_S2x850000x64_0_1_2 : S1x850000x1.BroadcastsInDim S2x850000x64 (![0, 1, 2] : Fin 3 → Fin S2x850000x64.rank)
  bcast_S_S2x50000x64 : S_.BroadcastsInDim S2x50000x64 (![] : Fin 0 → Fin S2x50000x64.rank)
  shapeCasts_S64_S1x1x64 : S64.ShapeCasts S1x1x64
  inb_S2x2000x64_S2x2000x64_0_0_0 : ∀ a, (![0, 0, 0] : Fin 3 → Nat) a + S2x2000x64.size a ≤ S2x2000x64.size a
  h_S2x2000x64 : 0 < S2x2000x64.numel
  shapeCasts_S2x2000x64_S2x2000x64 : S2x2000x64.ShapeCasts S2x2000x64
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  broadcasts_S1x1x64_S2x2000x64 : S1x1x64.Broadcasts S2x2000x64
  reducesTo_S2x50000x64_S64_d0_1 : S2x50000x64.ReducesTo [0, 1] S64
  h_S_ : 0 < S_.numel
  bcast_S64_S1x1x64_2 : S64.BroadcastsInDim S1x1x64 (![2] : Fin 1 → Fin S1x1x64.rank)
  bcast_S_S1x1x64 : S_.BroadcastsInDim S1x1x64 (![] : Fin 0 → Fin S1x1x64.rank)
  bcast_S1x1x64_S2x50000x64_0_1_2 : S1x1x64.BroadcastsInDim S2x50000x64 (![0, 1, 2] : Fin 3 → Fin S2x50000x64.rank)
  shapeCasts_S2x50000x64_S100000x64 : S2x50000x64.ShapeCasts S100000x64
  shapeCasts_S4000x64_S4000x64 : S4000x64.ShapeCasts S4000x64
  inb_S64x8_S64x8_0_0 : ∀ a, (![0, 0] : Fin 2 → Nat) a + S64x8.size a ≤ S64x8.size a
  h_S64x8 : 0 < S64x8.numel
  inb_S4000x8_S4000x8_0_0 : ∀ a, (![0, 0] : Fin 2 → Nat) a + S4000x8.size a ≤ S4000x8.size a
  h_S4000x8 : 0 < S4000x8.numel
  shapeCasts_S100000x8_S2x50000x8 : S100000x8.ShapeCasts S2x50000x8
  bcast_S1x850000x1_S2x850000x8_0_1_2 : S1x850000x1.BroadcastsInDim S2x850000x8 (![0, 1, 2] : Fin 3 → Fin S2x850000x8.rank)
  bcast_S_S2x50000x8 : S_.BroadcastsInDim S2x50000x8 (![] : Fin 0 → Fin S2x50000x8.rank)
  shapeCasts_S8_S1x1x8 : S8.ShapeCasts S1x1x8
  inb_S2x2000x8_S2x2000x8_0_0_0 : ∀ a, (![0, 0, 0] : Fin 3 → Nat) a + S2x2000x8.size a ≤ S2x2000x8.size a
  h_S2x2000x8 : 0 < S2x2000x8.numel
  shapeCasts_S2x2000x8_S2x2000x8 : S2x2000x8.ShapeCasts S2x2000x8
  inb_S1x1x8_S1x1x8_0_0_0 : ∀ a, (![0, 0, 0] : Fin 3 → Nat) a + S1x1x8.size a ≤ S1x1x8.size a
  h_S1x1x8 : 0 < S1x1x8.numel
  shapeCasts_S1x1x8_S1x1x8 : S1x1x8.ShapeCasts S1x1x8
  broadcasts_S1x1x8_S2x2000x8 : S1x1x8.Broadcasts S2x2000x8
  reducesTo_S2x50000x8_S8_d0_1 : S2x50000x8.ReducesTo [0, 1] S8
  bcast_S8_S1x1x8_2 : S8.BroadcastsInDim S1x1x8 (![2] : Fin 1 → Fin S1x1x8.rank)
  bcast_S_S1x1x8 : S_.BroadcastsInDim S1x1x8 (![] : Fin 0 → Fin S1x1x8.rank)
  bcast_S1x1x8_S2x50000x8_0_1_2 : S1x1x8.BroadcastsInDim S2x50000x8 (![0, 1, 2] : Fin 3 → Fin S2x50000x8.rank)
  shapeCasts_S2x50000x8_S100000x8 : S2x50000x8.ShapeCasts S100000x8
  shapeCasts_S4000x8_S4000x8 : S4000x8.ShapeCasts S4000x8
  inb_S8x3_S8x3_0_0 : ∀ a, (![0, 0] : Fin 2 → Nat) a + S8x3.size a ≤ S8x3.size a
  h_S8x3 : 0 < S8x3.numel
  inb_S4000x3_S4000x3_0_0 : ∀ a, (![0, 0] : Fin 2 → Nat) a + S4000x3.size a ≤ S4000x3.size a
  h_S4000x3 : 0 < S4000x3.numel
  shapeCasts_S100000x3_S2x50000x3 : S100000x3.ShapeCasts S2x50000x3
  bcast_S1x850000x1_S2x850000x3_0_1_2 : S1x850000x1.BroadcastsInDim S2x850000x3 (![0, 1, 2] : Fin 3 → Fin S2x850000x3.rank)
  bcast_S_S2x50000x3 : S_.BroadcastsInDim S2x50000x3 (![] : Fin 0 → Fin S2x50000x3.rank)
  shapeCasts_S3_S1x1x3 : S3.ShapeCasts S1x1x3
  inb_S2x2000x3_S2x2000x3_0_0_0 : ∀ a, (![0, 0, 0] : Fin 3 → Nat) a + S2x2000x3.size a ≤ S2x2000x3.size a
  h_S2x2000x3 : 0 < S2x2000x3.numel
  shapeCasts_S2x2000x3_S2x2000x3 : S2x2000x3.ShapeCasts S2x2000x3
  inb_S1x1x3_S1x1x3_0_0_0 : ∀ a, (![0, 0, 0] : Fin 3 → Nat) a + S1x1x3.size a ≤ S1x1x3.size a
  h_S1x1x3 : 0 < S1x1x3.numel
  shapeCasts_S1x1x3_S1x1x3 : S1x1x3.ShapeCasts S1x1x3
  broadcasts_S1x1x3_S2x2000x3 : S1x1x3.Broadcasts S2x2000x3
  bcast_S2x50000x3_S1x2x50000x3_1_2_3 : S2x50000x3.BroadcastsInDim S1x2x50000x3 (![1, 2, 3] : Fin 3 → Fin S1x2x50000x3.rank)
  bcast_S2x50000x8_S1x2x50000x8_1_2_3 : S2x50000x8.BroadcastsInDim S1x2x50000x8 (![1, 2, 3] : Fin 3 → Fin S1x2x50000x8.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S4000x216_S216x64_S4000x64_1_0_0_1_n_n_wf : DotDims.WF S4000x216 S216x64 S4000x64 [1] [0] [0] [1] [] []
  gather_S2x50000x64_S850000x1_S2x850000x64_02_1_n_n_1_1_2164_wf : GatherDims.WF S2x50000x64 S850000x1 S2x850000x64 [0, 2] [1] [] [1] [] 1 ![2, 1, 64]
  scatter_S2x50000x64_S850000x1_S2x850000x64_02_1_1_1_wf : ScatterDims.WF S2x50000x64 S850000x1 S2x850000x64 [0, 2] [1] [1] 1
  dot_S4000x64_S64x8_S4000x8_1_0_0_1_n_n_wf : DotDims.WF S4000x64 S64x8 S4000x8 [1] [0] [0] [1] [] []
  gather_S2x50000x8_S850000x1_S2x850000x8_02_1_n_n_1_1_218_wf : GatherDims.WF S2x50000x8 S850000x1 S2x850000x8 [0, 2] [1] [] [1] [] 1 ![2, 1, 8]
  scatter_S2x50000x8_S850000x1_S2x850000x8_02_1_1_1_wf : ScatterDims.WF S2x50000x8 S850000x1 S2x850000x8 [0, 2] [1] [1] 1
  dot_S4000x8_S8x3_S4000x3_1_0_0_1_n_n_wf : DotDims.WF S4000x8 S8x3 S4000x3 [1] [0] [0] [1] [] []
  gather_S2x50000x3_S850000x1_S2x850000x3_02_1_n_n_1_1_213_wf : GatherDims.WF S2x50000x3 S850000x1 S2x850000x3 [0, 2] [1] [] [1] [] 1 ![2, 1, 3]
  scatter_S2x50000x3_S850000x1_S2x850000x3_02_1_1_1_wf : ScatterDims.WF S2x50000x3 S850000x1 S2x850000x3 [0, 2] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x216.size a ≤ S100000x216.size a
  hwx0_0 : ∀ i : grid0.Coords, EltTy.bits .f32 = 32 ∨ (Rect.block (s := S100000x216) S4000x216.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S216x64.size a ≤ S216x64.size a
  hwx0_1 : ∀ i : grid0.Coords, EltTy.bits .f32 = 32 ∨ (Rect.block (s := S216x64) S216x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x2000x64.size a ≤ S2x50000x64.size a
  hwx1_0 : ∀ i : grid1.Coords, EltTy.bits .f32 = 32 ∨ (Rect.block (s := S2x50000x64) S2x2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1x64.size a ≤ S1x1x64.size a
  hwx1_1 : ∀ i : grid1.Coords, EltTy.bits .f32 = 32 ∨ (Rect.block (s := S1x1x64) S1x1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x2000x64.size a ≤ S2x50000x64.size a
  hwx1_2 : ∀ i : grid1.Coords, EltTy.bits .f32 = 32 ∨ (Rect.block (s := S2x50000x64) S2x2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x2000x64.size a ≤ S2x50000x64.size a
  hwx1_3 : ∀ i : grid1.Coords, EltTy.bits .f32 = 32 ∨ (Rect.block (s := S2x50000x64) S2x2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x2000x64.size a ≤ S2x50000x64.size a
  hwx2_0 : ∀ i : grid2.Coords, EltTy.bits .f32 = 32 ∨ (Rect.block (s := S2x50000x64) S2x2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1x64.size a ≤ S1x1x64.size a
  hwx2_1 : ∀ i : grid2.Coords, EltTy.bits .f32 = 32 ∨ (Rect.block (s := S1x1x64) S1x1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1x64.size a ≤ S1x1x64.size a
  hwx2_2 : ∀ i : grid2.Coords, EltTy.bits .f32 = 32 ∨ (Rect.block (s := S1x1x64) S1x1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1x64.size a ≤ S1x1x64.size a
  hwx2_3 : ∀ i : grid2.Coords, EltTy.bits .f32 = 32 ∨ (Rect.block (s := S1x1x64) S1x1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1x64.size a ≤ S1x1x64.size a
  hwx2_4 : ∀ i : grid2.Coords, EltTy.bits .f32 = 32 ∨ (Rect.block (s := S1x1x64) S1x1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2x2000x64.size a ≤ S2x50000x64.size a
  hwx2_5 : ∀ i : grid2.Coords, EltTy.bits .f32 = 32 ∨ (Rect.block (s := S2x50000x64) S2x2000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x8.size a ≤ S64x8.size a
  hwx3_1 : ∀ i : grid3.Coords, EltTy.bits .f32 = 32 ∨ (Rect.block (s := S64x8) S64x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x8.size a ≤ S100000x8.size a
  hwx3_2 : ∀ i : grid3.Coords, EltTy.bits .f32 = 32 ∨ (Rect.block (s := S100000x8) S4000x8.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2x2000x8.size a ≤ S2x50000x8.size a
  hwx4_0 : ∀ i : grid4.Coords, EltTy.bits .f32 = 32 ∨ (Rect.block (s := S2x50000x8) S2x2000x8.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1x8.size a ≤ S1x1x8.size a
  hwx4_1 : ∀ i : grid4.Coords, EltTy.bits .f32 = 32 ∨ (Rect.block (s := S1x1x8) S1x1x8.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2x2000x8.size a ≤ S2x50000x8.size a
  hwx4_2 : ∀ i : grid4.Coords, EltTy.bits .f32 = 32 ∨ (Rect.block (s := S2x50000x8) S2x2000x8.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2x2000x8.size a ≤ S2x50000x8.size a
  hwx4_3 : ∀ i : grid4.Coords, EltTy.bits .f32 = 32 ∨ (Rect.block (s := S2x50000x8) S2x2000x8.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2x2000x8.size a ≤ S2x50000x8.size a
  hwx5_0 : ∀ i : grid5.Coords, EltTy.bits .f32 = 32 ∨ (Rect.block (s := S2x50000x8) S2x2000x8.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1x8.size a ≤ S1x1x8.size a
  hwx5_1 : ∀ i : grid5.Coords, EltTy.bits .f32 = 32 ∨ (Rect.block (s := S1x1x8) S1x1x8.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1x8.size a ≤ S1x1x8.size a
  hwx5_2 : ∀ i : grid5.Coords, EltTy.bits .f32 = 32 ∨ (Rect.block (s := S1x1x8) S1x1x8.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1x8.size a ≤ S1x1x8.size a
  hwx5_3 : ∀ i : grid5.Coords, EltTy.bits .f32 = 32 ∨ (Rect.block (s := S1x1x8) S1x1x8.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1x8.size a ≤ S1x1x8.size a
  hwx5_4 : ∀ i : grid5.Coords, EltTy.bits .f32 = 32 ∨ (Rect.block (s := S1x1x8) S1x1x8.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2x2000x8.size a ≤ S2x50000x8.size a
  hwx5_5 : ∀ i : grid5.Coords, EltTy.bits .f32 = 32 ∨ (Rect.block (s := S2x50000x8) S2x2000x8.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x8.size a ≤ S100000x8.size a
  hwx6_0 : ∀ i : grid6.Coords, EltTy.bits .f32 = 32 ∨ (Rect.block (s := S100000x8) S4000x8.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S8x3.size a ≤ S8x3.size a
  hwx6_1 : ∀ i : grid6.Coords, EltTy.bits .f32 = 32 ∨ (Rect.block (s := S8x3) S8x3.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x3.size a ≤ S100000x3.size a
  hwx6_2 : ∀ i : grid6.Coords, EltTy.bits .f32 = 32 ∨ (Rect.block (s := S100000x3) S4000x3.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2x2000x3.size a ≤ S2x50000x3.size a
  hwx7_0 : ∀ i : grid7.Coords, EltTy.bits .f32 = 32 ∨ (Rect.block (s := S2x50000x3) S2x2000x3.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x1x3.size a ≤ S1x1x3.size a
  hwx7_1 : ∀ i : grid7.Coords, EltTy.bits .f32 = 32 ∨ (Rect.block (s := S1x1x3) S1x1x3.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2x2000x3.size a ≤ S2x50000x3.size a
  hwx7_2 : ∀ i : grid7.Coords, EltTy.bits .f32 = 32 ∨ (Rect.block (s := S2x50000x3) S2x2000x3.size (cc7_transform_2 i) (hinb7_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S4000x216_S216x64_S4000x64_1_0_0_1_n_n : DotDims S4000x216 S216x64 S4000x64 where
  lhsContracting := [1]
  rhsContracting := [0]
  lhsNonContracting := [0]
  rhsNonContracting := [1]
  lhsBatch := []
  rhsBatch := []
  wf := dot_S4000x216_S216x64_S4000x64_1_0_0_1_n_n_wf
def gather_S2x50000x64_S850000x1_S2x850000x64_02_1_n_n_1_1_2164 : GatherDims S2x50000x64 S850000x1 S2x850000x64 where
  offsetDims := [0, 2]
  collapsedSliceDims := [1]
  operandBatchingDims := []
  startIndicesBatchingDims := []
  startIndexMap := [1]
  indexVectorDim := 1
  sliceSizes := ![2, 1, 64]
  wf := gather_S2x50000x64_S850000x1_S2x850000x64_02_1_n_n_1_1_2164_wf
def scatter_S2x50000x64_S850000x1_S2x850000x64_02_1_1_1 : ScatterDims S2x50000x64 S850000x1 S2x850000x64 where
  updateWindowDims := [0, 2]
  insertedWindowDims := [1]
  scatterDimsToOperandDims := [1]
  indexVectorDim := 1
  wf := scatter_S2x50000x64_S850000x1_S2x850000x64_02_1_1_1_wf
def dot_S4000x64_S64x8_S4000x8_1_0_0_1_n_n : DotDims S4000x64 S64x8 S4000x8 where
  lhsContracting := [1]
  rhsContracting := [0]
  lhsNonContracting := [0]
  rhsNonContracting := [1]
  lhsBatch := []
  rhsBatch := []
  wf := dot_S4000x64_S64x8_S4000x8_1_0_0_1_n_n_wf
def gather_S2x50000x8_S850000x1_S2x850000x8_02_1_n_n_1_1_218 : GatherDims S2x50000x8 S850000x1 S2x850000x8 where
  offsetDims := [0, 2]
  collapsedSliceDims := [1]
  operandBatchingDims := []
  startIndicesBatchingDims := []
  startIndexMap := [1]
  indexVectorDim := 1
  sliceSizes := ![2, 1, 8]
  wf := gather_S2x50000x8_S850000x1_S2x850000x8_02_1_n_n_1_1_218_wf
def scatter_S2x50000x8_S850000x1_S2x850000x8_02_1_1_1 : ScatterDims S2x50000x8 S850000x1 S2x850000x8 where
  updateWindowDims := [0, 2]
  insertedWindowDims := [1]
  scatterDimsToOperandDims := [1]
  indexVectorDim := 1
  wf := scatter_S2x50000x8_S850000x1_S2x850000x8_02_1_1_1_wf
def dot_S4000x8_S8x3_S4000x3_1_0_0_1_n_n : DotDims S4000x8 S8x3 S4000x3 where
  lhsContracting := [1]
  rhsContracting := [0]
  lhsNonContracting := [0]
  rhsNonContracting := [1]
  lhsBatch := []
  rhsBatch := []
  wf := dot_S4000x8_S8x3_S4000x3_1_0_0_1_n_n_wf
def gather_S2x50000x3_S850000x1_S2x850000x3_02_1_n_n_1_1_213 : GatherDims S2x50000x3 S850000x1 S2x850000x3 where
  offsetDims := [0, 2]
  collapsedSliceDims := [1]
  operandBatchingDims := []
  startIndicesBatchingDims := []
  startIndexMap := [1]
  indexVectorDim := 1
  sliceSizes := ![2, 1, 3]
  wf := gather_S2x50000x3_S850000x1_S2x850000x3_02_1_n_n_1_1_213_wf
def scatter_S2x50000x3_S850000x1_S2x850000x3_02_1_1_1 : ScatterDims S2x50000x3 S850000x1 S2x850000x3 where
  updateWindowDims := [0, 2]
  insertedWindowDims := [1]
  scatterDimsToOperandDims := [1]
  indexVectorDim := 1
  wf := scatter_S2x50000x3_S850000x1_S2x850000x3_02_1_1_1_wf

abbrev win0_0 : Pipeline.Window sig grid0 :=
  Pipeline.Window.ofSpec (Memref.whole main_v36) S4000x216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S216x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S2x2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S1x1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58_0) S2x2000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58_1) S2x2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58_1) S2x2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S2x2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v67) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S4000x8.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v87) S2x2000x8.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S1x1x8.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v89_0) S2x2000x8.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v89_1) S2x2000x8.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v89_1) S2x2000x8.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S1x1x8.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v94) S1x1x8.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v95) S1x1x8.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v96) S1x1x8.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v97) S2x2000x8.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v98) S4000x8.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S8x3.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v99) S4000x3.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v118) S2x2000x3.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v119) S1x1x3.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v120) S2x2000x3.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S1x2x50000x216 : Shape := ⟨4, ![1, 2, 50000, 216]⟩
abbrev S216x64 : Shape := ⟨2, ![216, 64]⟩
abbrev S64 : Shape := ⟨1, ![64]⟩
abbrev S64x8 : Shape := ⟨2, ![64, 8]⟩
abbrev S8 : Shape := ⟨1, ![8]⟩
abbrev S8x3 : Shape := ⟨2, ![8, 3]⟩
abbrev S3 : Shape := ⟨1, ![3]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x2x50000x64 : Shape := ⟨4, ![1, 2, 50000, 64]⟩
abbrev S1x2x850000x64 : Shape := ⟨4, ![1, 2, 850000, 64]⟩
abbrev S1x1x850000x1 : Shape := ⟨4, ![1, 1, 850000, 1]⟩
abbrev S1x1x1x64 : Shape := ⟨4, ![1, 1, 1, 64]⟩
abbrev S2x50000x64 : Shape := ⟨3, ![2, 50000, 64]⟩
abbrev S2x64x50000 : Shape := ⟨3, ![2, 64, 50000]⟩
abbrev S1x64x1 : Shape := ⟨3, ![1, 64, 1]⟩
abbrev S1x2x50000x8 : Shape := ⟨4, ![1, 2, 50000, 8]⟩
abbrev S1x2x850000x8 : Shape := ⟨4, ![1, 2, 850000, 8]⟩
abbrev S1x1x1x8 : Shape := ⟨4, ![1, 1, 1, 8]⟩
abbrev S2x50000x8 : Shape := ⟨3, ![2, 50000, 8]⟩
abbrev S2x8x50000 : Shape := ⟨3, ![2, 8, 50000]⟩
abbrev S1x8x1 : Shape := ⟨3, ![1, 8, 1]⟩
abbrev S1x2x50000x3 : Shape := ⟨4, ![1, 2, 50000, 3]⟩
abbrev S1x2x850000x3 : Shape := ⟨4, ![1, 2, 850000, 3]⟩
abbrev S1x1x1x3 : Shape := ⟨4, ![1, 1, 1, 3]⟩

abbrev nBuf : Space → Nat
  | .hbm => 242
  | .vmem => 0
  | .smem => 0
  | _ => 0

abbrev hbmTy0_0 (i : Nat) : BufTy := match i % 128 with
  | 0 => ⟨S1x2x50000x216, .f32⟩
  | 1 => ⟨S216x64, .f32⟩
  | 2 => ⟨S64, .f32⟩
  | 3 => ⟨S64, .f32⟩
  | 4 => ⟨S64, .f32⟩
  | 5 => ⟨S64x8, .f32⟩
  | 6 => ⟨S8, .f32⟩
  | 7 => ⟨S8, .f32⟩
  | 8 => ⟨S8, .f32⟩
  | 9 => ⟨S8x3, .f32⟩
  | 10 => ⟨S3, .f32⟩
  | 11 => ⟨S2x800000, .i32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S50000, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S_, .f32⟩
  | 30 => ⟨S850000, .f32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S1x2x50000x64, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S1x2x850000x64, .f32⟩
  | 69 => ⟨S1x1x850000x1, .f32⟩
  | 70 => ⟨S1x2x850000x64, .f32⟩
  | 71 => ⟨S1x2x850000x64, .f32⟩
  | 72 => ⟨S_, .f32⟩
  | 73 => ⟨S1x2x50000x64, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S1x2x50000x64, .f32⟩
  | 83 => ⟨S1x1x1x64, .f32⟩
  | 84 => ⟨S1x2x50000x64, .f32⟩
  | 85 => ⟨S1x2x50000x64, .f32⟩
  | 86 => ⟨S_, .f32⟩
  | 87 => ⟨S1x2x50000x64, .f32⟩
  | 88 => ⟨S1x2x50000x64, .f32⟩
  | 89 => ⟨S2x50000x64, .f32⟩
  | 90 => ⟨S2x64x50000, .f32⟩
  | 91 => ⟨S_, .f32⟩
  | 92 => ⟨S64, .f32⟩
  | 93 => ⟨S1x64x1, .f32⟩
  | 94 => ⟨S_, .f32⟩
  | 95 => ⟨S1x64x1, .f32⟩
  | 96 => ⟨S1x64x1, .f32⟩
  | 97 => ⟨S_, .i32⟩
  | 98 => ⟨S_, .f32⟩
  | 99 => ⟨S64, .f32⟩
  | 100 => ⟨S1x64x1, .f32⟩
  | 101 => ⟨S_, .f32⟩
  | 102 => ⟨S1x64x1, .f32⟩
  | 103 => ⟨S1x64x1, .f32⟩
  | 104 => ⟨S2x64x50000, .f32⟩
  | 105 => ⟨S2x64x50000, .f32⟩
  | 106 => ⟨S2x64x50000, .f32⟩
  | 107 => ⟨S_, .f32⟩
  | 108 => ⟨S_, .f32⟩
  | 109 => ⟨S_, .f32⟩
  | 110 => ⟨S_, .f32⟩
  | 111 => ⟨S64, .f32⟩
  | 112 => ⟨S1x64x1, .f32⟩
  | 113 => ⟨S1x64x1, .f32⟩
  | 114 => ⟨S1x64x1, .f32⟩
  | 115 => ⟨S_, .f32⟩
  | 116 => ⟨S_, .i1⟩
  | 117 => ⟨S_, .f32⟩
  | 118 => ⟨S_, .f32⟩
  | 119 => ⟨S1x64x1, .f32⟩
  | 120 => ⟨S1x64x1, .f32⟩
  | 121 => ⟨S2x64x50000, .f32⟩
  | 122 => ⟨S2x64x50000, .f32⟩
  | 123 => ⟨S_, .f32⟩
  | 124 => ⟨S1x64x1, .f32⟩
  | 125 => ⟨S1x64x1, .f32⟩
  | 126 => ⟨S1x64x1, .f32⟩
  | 127 => ⟨S2x64x50000, .f32⟩
  | _ => ⟨S1x2x50000x216, .f32⟩

abbrev hbmTy0_1 (i : Nat) : BufTy := match i % 128 with
  | 0 => ⟨S2x64x50000, .f32⟩
  | 1 => ⟨S1x64x1, .f32⟩
  | 2 => ⟨S2x64x50000, .f32⟩
  | 3 => ⟨S2x64x50000, .f32⟩
  | 4 => ⟨S1x64x1, .f32⟩
  | 5 => ⟨S2x64x50000, .f32⟩
  | 6 => ⟨S2x64x50000, .f32⟩
  | 7 => ⟨S2x50000x64, .f32⟩
  | 8 => ⟨S1x2x50000x64, .f32⟩
  | 9 => ⟨S1x2x50000x8, .f32⟩
  | 10 => ⟨S_, .i32⟩
  | 11 => ⟨S850000, .i32⟩
  | 12 => ⟨S850000, .i1⟩
  | 13 => ⟨S_, .i32⟩
  | 14 => ⟨S850000, .i32⟩
  | 15 => ⟨S850000, .i32⟩
  | 16 => ⟨S850000, .i32⟩
  | 17 => ⟨S850000x1, .i32⟩
  | 18 => ⟨S1x2x850000x8, .f32⟩
  | 19 => ⟨S1x1x850000x1, .f32⟩
  | 20 => ⟨S1x2x850000x8, .f32⟩
  | 21 => ⟨S1x2x850000x8, .f32⟩
  | 22 => ⟨S_, .f32⟩
  | 23 => ⟨S1x2x50000x8, .f32⟩
  | 24 => ⟨S_, .i32⟩
  | 25 => ⟨S850000, .i32⟩
  | 26 => ⟨S850000, .i1⟩
  | 27 => ⟨S_, .i32⟩
  | 28 => ⟨S850000, .i32⟩
  | 29 => ⟨S850000, .i32⟩
  | 30 => ⟨S850000, .i32⟩
  | 31 => ⟨S850000x1, .i32⟩
  | 32 => ⟨S1x2x50000x8, .f32⟩
  | 33 => ⟨S1x1x1x8, .f32⟩
  | 34 => ⟨S1x2x50000x8, .f32⟩
  | 35 => ⟨S1x2x50000x8, .f32⟩
  | 36 => ⟨S_, .f32⟩
  | 37 => ⟨S1x2x50000x8, .f32⟩
  | 38 => ⟨S1x2x50000x8, .f32⟩
  | 39 => ⟨S2x50000x8, .f32⟩
  | 40 => ⟨S2x8x50000, .f32⟩
  | 41 => ⟨S_, .f32⟩
  | 42 => ⟨S8, .f32⟩
  | 43 => ⟨S1x8x1, .f32⟩
  | 44 => ⟨S_, .f32⟩
  | 45 => ⟨S1x8x1, .f32⟩
  | 46 => ⟨S1x8x1, .f32⟩
  | 47 => ⟨S_, .i32⟩
  | 48 => ⟨S_, .f32⟩
  | 49 => ⟨S8, .f32⟩
  | 50 => ⟨S1x8x1, .f32⟩
  | 51 => ⟨S_, .f32⟩
  | 52 => ⟨S1x8x1, .f32⟩
  | 53 => ⟨S1x8x1, .f32⟩
  | 54 => ⟨S2x8x50000, .f32⟩
  | 55 => ⟨S2x8x50000, .f32⟩
  | 56 => ⟨S2x8x50000, .f32⟩
  | 57 => ⟨S_, .f32⟩
  | 58 => ⟨S_, .f32⟩
  | 59 => ⟨S_, .f32⟩
  | 60 => ⟨S_, .f32⟩
  | 61 => ⟨S8, .f32⟩
  | 62 => ⟨S1x8x1, .f32⟩
  | 63 => ⟨S1x8x1, .f32⟩
  | 64 => ⟨S1x8x1, .f32⟩
  | 65 => ⟨S_, .f32⟩
  | 66 => ⟨S_, .i1⟩
  | 67 => ⟨S_, .f32⟩
  | 68 => ⟨S_, .f32⟩
  | 69 => ⟨S1x8x1, .f32⟩
  | 70 => ⟨S1x8x1, .f32⟩
  | 71 => ⟨S2x8x50000, .f32⟩
  | 72 => ⟨S2x8x50000, .f32⟩
  | 73 => ⟨S_, .f32⟩
  | 74 => ⟨S1x8x1, .f32⟩
  | 75 => ⟨S1x8x1, .f32⟩
  | 76 => ⟨S1x8x1, .f32⟩
  | 77 => ⟨S2x8x50000, .f32⟩
  | 78 => ⟨S2x8x50000, .f32⟩
  | 79 => ⟨S1x8x1, .f32⟩
  | 80 => ⟨S2x8x50000, .f32⟩
  | 81 => ⟨S2x8x50000, .f32⟩
  | 82 => ⟨S1x8x1, .f32⟩
  | 83 => ⟨S2x8x50000, .f32⟩
  | 84 => ⟨S2x8x50000, .f32⟩
  | 85 => ⟨S2x50000x8, .f32⟩
  | 86 => ⟨S1x2x50000x8, .f32⟩
  | 87 => ⟨S1x2x50000x3, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S1x2x850000x3, .f32⟩
  | 97 => ⟨S1x1x850000x1, .f32⟩
  | 98 => ⟨S1x2x850000x3, .f32⟩
  | 99 => ⟨S1x2x850000x3, .f32⟩
  | 100 => ⟨S_, .f32⟩
  | 101 => ⟨S1x2x50000x3, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S1x2x50000x3, .f32⟩
  | 111 => ⟨S1x1x1x3, .f32⟩
  | 112 => ⟨S1x2x50000x3, .f32⟩
  | 113 => ⟨S1x2x50000x3, .f32⟩
  | _ => ⟨S1x2x50000x216, .f32⟩

abbrev hbmTy (i : Nat) : BufTy := match i / 128 with
  | 0 => hbmTy0_0 i
  | 1 => hbmTy0_1 i
  | _ => ⟨S1x2x50000x216, .f32⟩

abbrev bufTy : (tb : Table) → Fin (tcTables nBuf tb) → BufTy
  | .hbm, ⟨i, _⟩ => hbmTy i
  | _, _ => ⟨S1x2x50000x216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_c_11 : Ref sig .tc := ⟨.hbm, 74, rfl⟩
abbrev main_v47 : Ref sig .tc := ⟨.hbm, 75, rfl⟩
abbrev main_v48 : Ref sig .tc := ⟨.hbm, 76, rfl⟩
abbrev main_c_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call1_cst : Ref sig .tc := ⟨.hbm, 86, rfl⟩
abbrev main_call1_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_13 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_c_15 : Ref sig .tc := ⟨.hbm, 97, rfl⟩
abbrev main_call2_cst : Ref sig .tc := ⟨.hbm, 98, rfl⟩
abbrev main_call2_v0 : Ref sig .tc := ⟨.hbm, 99, rfl⟩
abbrev main_call2_v1 : Ref sig .tc := ⟨.hbm, 100, rfl⟩
abbrev main_call2_cst_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_v7 : Ref sig .tc := ⟨.hbm, 107, rfl⟩
abbrev main_call2_cst_1 : Ref sig .tc := ⟨.hbm, 108, rfl⟩
abbrev main_call2_v8 : Ref sig .tc := ⟨.hbm, 109, rfl⟩
abbrev main_call2_cst_2 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_v12 : Ref sig .tc := ⟨.hbm, 114, rfl⟩
abbrev main_call2_cst_3 : Ref sig .tc := ⟨.hbm, 115, rfl⟩
abbrev main_call2_v13 : Ref sig .tc := ⟨.hbm, 116, rfl⟩
abbrev main_call2_cst_4 : Ref sig .tc := ⟨.hbm, 117, rfl⟩
abbrev main_call2_call0_v0 : Ref sig .tc := ⟨.hbm, 118, rfl⟩
abbrev main_call2_call0_v1 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_cst_16 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_c_17 : Ref sig .tc := ⟨.hbm, 138, rfl⟩
abbrev main_v81 : Ref sig .tc := ⟨.hbm, 139, rfl⟩
abbrev main_v82 : Ref sig .tc := ⟨.hbm, 140, rfl⟩
abbrev main_c_18 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_cst_19 : Ref sig .tc := ⟨.hbm, 150, rfl⟩
abbrev main_v91 : Ref sig .tc := ⟨.hbm, 151, rfl⟩
abbrev main_c_20 : Ref sig .tc := ⟨.hbm, 152, rfl⟩
abbrev main_v92 : Ref sig .tc := ⟨.hbm, 153, rfl⟩
abbrev main_v93 : Ref sig .tc := ⟨.hbm, 154, rfl⟩
abbrev main_c_21 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_call3_cst : Ref sig .tc := ⟨.hbm, 164, rfl⟩
abbrev main_call3_v0 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_cst_22 : Ref sig .tc := ⟨.hbm, 169, rfl⟩
abbrev main_v105 : Ref sig .tc := ⟨.hbm, 170, rfl⟩
abbrev main_v106 : Ref sig .tc := ⟨.hbm, 171, rfl⟩
abbrev main_cst_23 : Ref sig .tc := ⟨.hbm, 172, rfl⟩
abbrev main_v107 : Ref sig .tc := ⟨.hbm, 173, rfl⟩
abbrev main_v108 : Ref sig .tc := ⟨.hbm, 174, rfl⟩
abbrev main_c_24 : Ref sig .tc := ⟨.hbm, 175, rfl⟩
abbrev main_call4_cst : Ref sig .tc := ⟨.hbm, 176, rfl⟩
abbrev main_call4_v0 : Ref sig .tc := ⟨.hbm, 177, rfl⟩
abbrev main_call4_v1 : Ref sig .tc := ⟨.hbm, 178, rfl⟩
abbrev main_call4_cst_0 : Ref sig .tc := ⟨.hbm, 179, rfl⟩
abbrev main_call4_v2 : Ref sig .tc := ⟨.hbm, 180, rfl⟩
abbrev main_call4_v3 : Ref sig .tc := ⟨.hbm, 181, rfl⟩
abbrev main_call4_v4 : Ref sig .tc := ⟨.hbm, 182, rfl⟩
abbrev main_call4_v5 : Ref sig .tc := ⟨.hbm, 183, rfl⟩
abbrev main_call4_v6 : Ref sig .tc := ⟨.hbm, 184, rfl⟩
abbrev main_call4_v7 : Ref sig .tc := ⟨.hbm, 185, rfl⟩
abbrev main_call4_cst_1 : Ref sig .tc := ⟨.hbm, 186, rfl⟩
abbrev main_call4_v8 : Ref sig .tc := ⟨.hbm, 187, rfl⟩
abbrev main_call4_cst_2 : Ref sig .tc := ⟨.hbm, 188, rfl⟩
abbrev main_call4_v9 : Ref sig .tc := ⟨.hbm, 189, rfl⟩
abbrev main_call4_v10 : Ref sig .tc := ⟨.hbm, 190, rfl⟩
abbrev main_call4_v11 : Ref sig .tc := ⟨.hbm, 191, rfl⟩
abbrev main_call4_v12 : Ref sig .tc := ⟨.hbm, 192, rfl⟩
abbrev main_call4_cst_3 : Ref sig .tc := ⟨.hbm, 193, rfl⟩
abbrev main_call4_v13 : Ref sig .tc := ⟨.hbm, 194, rfl⟩
abbrev main_call4_cst_4 : Ref sig .tc := ⟨.hbm, 195, rfl⟩
abbrev main_call4_call0_v0 : Ref sig .tc := ⟨.hbm, 196, rfl⟩
abbrev main_call4_call0_v1 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_cst_25 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_c_26 : Ref sig .tc := ⟨.hbm, 216, rfl⟩
abbrev main_v126 : Ref sig .tc := ⟨.hbm, 217, rfl⟩
abbrev main_v127 : Ref sig .tc := ⟨.hbm, 218, rfl⟩
abbrev main_c_27 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_cst_28 : Ref sig .tc := ⟨.hbm, 228, rfl⟩
abbrev main_v136 : Ref sig .tc := ⟨.hbm, 229, rfl⟩
abbrev main_c_29 : Ref sig .tc := ⟨.hbm, 230, rfl⟩
abbrev main_v137 : Ref sig .tc := ⟨.hbm, 231, rfl⟩
abbrev main_v138 : Ref sig .tc := ⟨.hbm, 232, rfl⟩
abbrev main_c_30 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000_S1x1x850000x1_2 : S850000.BroadcastsInDim S1x1x850000x1 (![2] : Fin 1 → Fin S1x1x850000x1.rank)
  bcast_S1x1x850000x1_S1x2x850000x64_0_1_2_3 : S1x1x850000x1.BroadcastsInDim S1x2x850000x64 (![0, 1, 2, 3] : Fin 4 → Fin S1x2x850000x64.rank)
  bcast_S_S1x2x50000x64 : S_.BroadcastsInDim S1x2x50000x64 (![] : Fin 0 → Fin S1x2x50000x64.rank)
  bcast_S64_S1x1x1x64_3 : S64.BroadcastsInDim S1x1x1x64 (![3] : Fin 1 → Fin S1x1x1x64.rank)
  bcast_S1x1x1x64_S1x2x50000x64_0_1_2_3 : S1x1x1x64.BroadcastsInDim S1x2x50000x64 (![0, 1, 2, 3] : Fin 4 → Fin S1x2x50000x64.rank)
  shapeCasts_S1x2x50000x64_S2x50000x64 : S1x2x50000x64.ShapeCasts S2x50000x64
  transposes_S2x50000x64_S2x64x50000_0_2_1 : S2x50000x64.Transposes [0, 2, 1] S2x64x50000
  reducesTo_S2x64x50000_S64_d0_2 : S2x64x50000.ReducesTo [0, 2] S64
  h_S_ : 0 < S_.numel
  bcast_S64_S1x64x1_1 : S64.BroadcastsInDim S1x64x1 (![1] : Fin 1 → Fin S1x64x1.rank)
  bcast_S_S1x64x1 : S_.BroadcastsInDim S1x64x1 (![] : Fin 0 → Fin S1x64x1.rank)
  bcast_S1x64x1_S2x64x50000_0_1_2 : S1x64x1.BroadcastsInDim S2x64x50000 (![0, 1, 2] : Fin 3 → Fin S2x64x50000.rank)
  transposes_S2x64x50000_S2x50000x64_0_2_1 : S2x64x50000.Transposes [0, 2, 1] S2x50000x64
  bcast_S2x50000x64_S1x2x50000x64_1_2_3 : S2x50000x64.BroadcastsInDim S1x2x50000x64 (![1, 2, 3] : Fin 3 → Fin S1x2x50000x64.rank)
  bcast_S1x1x850000x1_S1x2x850000x8_0_1_2_3 : S1x1x850000x1.BroadcastsInDim S1x2x850000x8 (![0, 1, 2, 3] : Fin 4 → Fin S1x2x850000x8.rank)
  bcast_S_S1x2x50000x8 : S_.BroadcastsInDim S1x2x50000x8 (![] : Fin 0 → Fin S1x2x50000x8.rank)
  bcast_S8_S1x1x1x8_3 : S8.BroadcastsInDim S1x1x1x8 (![3] : Fin 1 → Fin S1x1x1x8.rank)
  bcast_S1x1x1x8_S1x2x50000x8_0_1_2_3 : S1x1x1x8.BroadcastsInDim S1x2x50000x8 (![0, 1, 2, 3] : Fin 4 → Fin S1x2x50000x8.rank)
  shapeCasts_S1x2x50000x8_S2x50000x8 : S1x2x50000x8.ShapeCasts S2x50000x8
  transposes_S2x50000x8_S2x8x50000_0_2_1 : S2x50000x8.Transposes [0, 2, 1] S2x8x50000
  reducesTo_S2x8x50000_S8_d0_2 : S2x8x50000.ReducesTo [0, 2] S8
  bcast_S8_S1x8x1_1 : S8.BroadcastsInDim S1x8x1 (![1] : Fin 1 → Fin S1x8x1.rank)
  bcast_S_S1x8x1 : S_.BroadcastsInDim S1x8x1 (![] : Fin 0 → Fin S1x8x1.rank)
  bcast_S1x8x1_S2x8x50000_0_1_2 : S1x8x1.BroadcastsInDim S2x8x50000 (![0, 1, 2] : Fin 3 → Fin S2x8x50000.rank)
  transposes_S2x8x50000_S2x50000x8_0_2_1 : S2x8x50000.Transposes [0, 2, 1] S2x50000x8
  bcast_S2x50000x8_S1x2x50000x8_1_2_3 : S2x50000x8.BroadcastsInDim S1x2x50000x8 (![1, 2, 3] : Fin 3 → Fin S1x2x50000x8.rank)
  bcast_S1x1x850000x1_S1x2x850000x3_0_1_2_3 : S1x1x850000x1.BroadcastsInDim S1x2x850000x3 (![0, 1, 2, 3] : Fin 4 → Fin S1x2x850000x3.rank)
  bcast_S_S1x2x50000x3 : S_.BroadcastsInDim S1x2x50000x3 (![] : Fin 0 → Fin S1x2x50000x3.rank)
  bcast_S3_S1x1x1x3_3 : S3.BroadcastsInDim S1x1x1x3 (![3] : Fin 1 → Fin S1x1x1x3.rank)
  bcast_S1x1x1x3_S1x2x50000x3_0_1_2_3 : S1x1x1x3.BroadcastsInDim S1x2x50000x3 (![0, 1, 2, 3] : Fin 4 → Fin S1x2x50000x3.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1x2x50000x216_S216x64_S1x2x50000x64_3_0_012_1_n_n_wf : DotDims.WF S1x2x50000x216 S216x64 S1x2x50000x64 [3] [0] [0, 1, 2] [1] [] []
  gather_S1x2x50000x64_S850000x1_S1x2x850000x64_013_2_n_n_2_1_12164_wf : GatherDims.WF S1x2x50000x64 S850000x1 S1x2x850000x64 [0, 1, 3] [2] [] [2] [] 1 ![1, 2, 1, 64]
  scatter_S1x2x50000x64_S850000x1_S1x2x850000x64_013_2_2_1_wf : ScatterDims.WF S1x2x50000x64 S850000x1 S1x2x850000x64 [0, 1, 3] [2] [2] 1
  dot_S1x2x50000x64_S64x8_S1x2x50000x8_3_0_012_1_n_n_wf : DotDims.WF S1x2x50000x64 S64x8 S1x2x50000x8 [3] [0] [0, 1, 2] [1] [] []
  gather_S1x2x50000x8_S850000x1_S1x2x850000x8_013_2_n_n_2_1_1218_wf : GatherDims.WF S1x2x50000x8 S850000x1 S1x2x850000x8 [0, 1, 3] [2] [] [2] [] 1 ![1, 2, 1, 8]
  scatter_S1x2x50000x8_S850000x1_S1x2x850000x8_013_2_2_1_wf : ScatterDims.WF S1x2x50000x8 S850000x1 S1x2x850000x8 [0, 1, 3] [2] [2] 1
  dot_S1x2x50000x8_S8x3_S1x2x50000x3_3_0_012_1_n_n_wf : DotDims.WF S1x2x50000x8 S8x3 S1x2x50000x3 [3] [0] [0, 1, 2] [1] [] []
  gather_S1x2x50000x3_S850000x1_S1x2x850000x3_013_2_n_n_2_1_1213_wf : GatherDims.WF S1x2x50000x3 S850000x1 S1x2x850000x3 [0, 1, 3] [2] [] [2] [] 1 ![1, 2, 1, 3]
  scatter_S1x2x50000x3_S850000x1_S1x2x850000x3_013_2_2_1_wf : ScatterDims.WF S1x2x50000x3 S850000x1 S1x2x850000x3 [0, 1, 3] [2] [2] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1x2x50000x216_S216x64_S1x2x50000x64_3_0_012_1_n_n : DotDims S1x2x50000x216 S216x64 S1x2x50000x64 where
  lhsContracting := [3]
  rhsContracting := [0]
  lhsNonContracting := [0, 1, 2]
  rhsNonContracting := [1]
  lhsBatch := []
  rhsBatch := []
  wf := dot_S1x2x50000x216_S216x64_S1x2x50000x64_3_0_012_1_n_n_wf
def gather_S1x2x50000x64_S850000x1_S1x2x850000x64_013_2_n_n_2_1_12164 : GatherDims S1x2x50000x64 S850000x1 S1x2x850000x64 where
  offsetDims := [0, 1, 3]
  collapsedSliceDims := [2]
  operandBatchingDims := []
  startIndicesBatchingDims := []
  startIndexMap := [2]
  indexVectorDim := 1
  sliceSizes := ![1, 2, 1, 64]
  wf := gather_S1x2x50000x64_S850000x1_S1x2x850000x64_013_2_n_n_2_1_12164_wf
def scatter_S1x2x50000x64_S850000x1_S1x2x850000x64_013_2_2_1 : ScatterDims S1x2x50000x64 S850000x1 S1x2x850000x64 where
  updateWindowDims := [0, 1, 3]
  insertedWindowDims := [2]
  scatterDimsToOperandDims := [2]
  indexVectorDim := 1
  wf := scatter_S1x2x50000x64_S850000x1_S1x2x850000x64_013_2_2_1_wf
def dot_S1x2x50000x64_S64x8_S1x2x50000x8_3_0_012_1_n_n : DotDims S1x2x50000x64 S64x8 S1x2x50000x8 where
  lhsContracting := [3]
  rhsContracting := [0]
  lhsNonContracting := [0, 1, 2]
  rhsNonContracting := [1]
  lhsBatch := []
  rhsBatch := []
  wf := dot_S1x2x50000x64_S64x8_S1x2x50000x8_3_0_012_1_n_n_wf
def gather_S1x2x50000x8_S850000x1_S1x2x850000x8_013_2_n_n_2_1_1218 : GatherDims S1x2x50000x8 S850000x1 S1x2x850000x8 where
  offsetDims := [0, 1, 3]
  collapsedSliceDims := [2]
  operandBatchingDims := []
  startIndicesBatchingDims := []
  startIndexMap := [2]
  indexVectorDim := 1
  sliceSizes := ![1, 2, 1, 8]
  wf := gather_S1x2x50000x8_S850000x1_S1x2x850000x8_013_2_n_n_2_1_1218_wf
def scatter_S1x2x50000x8_S850000x1_S1x2x850000x8_013_2_2_1 : ScatterDims S1x2x50000x8 S850000x1 S1x2x850000x8 where
  updateWindowDims := [0, 1, 3]
  insertedWindowDims := [2]
  scatterDimsToOperandDims := [2]
  indexVectorDim := 1
  wf := scatter_S1x2x50000x8_S850000x1_S1x2x850000x8_013_2_2_1_wf
def dot_S1x2x50000x8_S8x3_S1x2x50000x3_3_0_012_1_n_n : DotDims S1x2x50000x8 S8x3 S1x2x50000x3 where
  lhsContracting := [3]
  rhsContracting := [0]
  lhsNonContracting := [0, 1, 2]
  rhsNonContracting := [1]
  lhsBatch := []
  rhsBatch := []
  wf := dot_S1x2x50000x8_S8x3_S1x2x50000x3_3_0_012_1_n_n_wf
def gather_S1x2x50000x3_S850000x1_S1x2x850000x3_013_2_n_n_2_1_1213 : GatherDims S1x2x50000x3 S850000x1 S1x2x850000x3 where
  offsetDims := [0, 1, 3]
  collapsedSliceDims := [2]
  operandBatchingDims := []
  startIndicesBatchingDims := []
  startIndexMap := [2]
  indexVectorDim := 1
  sliceSizes := ![1, 2, 1, 3]
  wf := gather_S1x2x50000x3_S850000x1_S1x2x850000x3_013_2_n_n_2_1_1213_wf
def scatter_S1x2x50000x3_S850000x1_S1x2x850000x3_013_2_2_1 : ScatterDims S1x2x50000x3 S850000x1 S1x2x850000x3 where
  updateWindowDims := [0, 1, 3]
  insertedWindowDims := [2]
  scatterDimsToOperandDims := [2]
  indexVectorDim := 1
  wf := scatter_S1x2x50000x3_S850000x1_S1x2x850000x3_013_2_2_1_wf

class Facts : Prop extends Facts₀ where

variable [Facts]
-- ==== Proof.KernelRun.lean ====
/-
  The run of the idealized kernel program with its results named.

  The program is eight kernel regions among stretches of host operations. Its buffer contents at every boundary are a fold
  from the launch memory: a stretch applies its operations in order; a region leaves each of its arrays at what its
  write-backs leave and every other buffer as it found it. The thread state carried from segment to segment is "every buffer
  that outlives the program at the boundary's contents, the generator register at some state, nothing owed".

  Four facts feed the launch theorem for a list of segments:
  * the launch's ghost element is the pipelines' own, and no further ghost state is dealt (`launch_ghost`);
  * each segment ends in the state the next one starts from, and the last one ends in the final state (`chained`);
  * what the launch deals a core is the first state (`first_state`);
  * the final state, held beside the machine's memory, says what that memory holds at every such buffer (`read_final`).
  From the last one, read at the two result buffers and at the twelve arguments, `run` follows.
-/
import proofs.«172352_j22454089024045_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The ghost element the launch starts from. -/
abbrev u₀ : UR sig nD τ := initOf (Pipeline.cells cfgs cellOf_inj) (Pipeline.launchToks cfgs cellOf_inj)

/-- The state a core is in before the first segment: its buffers as launched, and what rides along. -/
abbrev T₀ (c : Dev nD) : sProp 𝕄 :=
  iprop(StableHlo.held (c : Thread nD τ) (Pipeline.ucRefs τ sig) (W0 m ρ c) ∗ R (F := F) c)

/-- Where the program's buffers end: at the last boundary's contents. -/
abbrev Final (c : Dev nD) (s : MemSt nD τ sig (Elt F)) : Prop :=
  ∀ b ∈ Pipeline.ucRefs τ sig, s.mem (((c : Thread nD τ)).1, b) = W23 m ρ c b

/-- Owning the launch element is owning the pipelines' ghost state; nothing else is dealt to the cores. -/
theorem launch_ghost : (ownU (u₀ : UR sig nD τ) : sProp 𝕄)
    ⊢ |={Set.univ}=> iprop(BI.own (emb₁ (u₀ : UR sig nD τ)) ∗ bigSep Finset.univ (fun _ : Dev nD => (BI.emp : sProp 𝕄))) := by
  rw [BI.bigSep_emp_const, ownU_emb₁]
  iintro H
  imodintro
  isplitl [H]
  · iexact H
  · iempintro

/-- The last segment's end state regrouped: the buffers and the generator register on one side, the core owing nothing
    on the other. -/
theorem last_state (c : Dev nD) :
    iprop(StableHlo.held (c : Thread nD τ) (Pipeline.ucRefs τ sig) (StableHlo.after hostOps8 (W22 m ρ c)) ∗ R (F := F) c)
      ⊢ iprop(Tₙ m ρ c ∗ ∃ W, owes (c : Thread nD τ) (0 : CellTallies nD τ sig Unit) W) := by
  iintro ⟨Hbuf, Hreg, Howe⟩
  isplitr [Howe]
  · isplitl [Hbuf]
    · iexact Hbuf
    · iexact Hreg
  · iexact Howe

/-- What the launch deals a core — its buffers as launched, its generator register, nothing owed — is the first state. -/
theorem first_state (c : Dev nD) :
    iprop(iprop(unscopedBufs c (fun b => m ((c : Thread nD τ).loc b)) ∗ unscopedSems0 c
        ∗ owes (c : Thread nD τ) ((0 : Dev nD → CellTallies nD τ sig Unit) c) ∅ ∗ Pipeline.launchCred (0 : Dev nD → CellTallies nD τ sig Unit) c
        ∗ prngReg c (ρ c) ∗ (BI.emp : sProp 𝕄)) ∗ levAts L lv)
      ⊢ |={Set.univ}=> T₀ m ρ c := by
  have hb : (unscopedBufs c (fun b => m ((c : Thread nD τ).loc b)) : sProp 𝕄)
      = StableHlo.held (c : Thread nD τ) (Pipeline.ucRefs τ sig) (W0 m ρ c) := Pipeline.unscopedBufs_held c (W0 m ρ c)
  rw [hb]
  iintro ⟨⟨Hbuf, -, Howe, -, Hreg, -⟩, -⟩
  imodintro
  isplitl [Hbuf]
  · iexact Hbuf
  · isplitl [Hreg]
    · iexists (ρ c); iexact Hreg
    · iexists ∅; iexact Howe

/-- The final state beside the machine's memory: that memory holds the last boundary's contents at every buffer that
    outlives the program. -/
theorem read_final (c : Dev nD) (s' : Phys nD τ sig (Elt F)) :
    iprop(Tₙ m ρ c ∗ SI s') ⊢ |={Set.univ}=> iprop(⌜Final m ρ c s'.mem⌝ ∗ SI s') := by
  iintro ⟨⟨Hbuf, -⟩, HSI⟩
  imodintro
  unfold StableHlo.held
  iapply (pointsTo_read_all (Pipeline.ucRefs τ sig) (fun b => (((c : Thread nD τ)).1, b)) (W23 m ρ c) s')
  isplitl [Hbuf]
  · iexact Hbuf
  · iexact HSI

set_option backward.isDefEq.respectTransparency.types false in
/-- Each segment ends in the state the next starts from — a stretch's end contents ARE the next boundary's, a region is
    entered and left at boundaries' contents — and the last ends in the final state. -/
theorem chained : Pipeline.Seg.Chains (T₀ m ρ) (segs m ρ)
    (fun c => iprop(Tₙ m ρ c ∗ ∃ W, owes (c : Thread nD τ) (0 : CellTallies nD τ sig Unit) W)) := by
  iterate 23 refine ⟨fun _ => BI.Entails.refl _, ?_⟩
  exact fun c => last_state m ρ c

set_option backward.isDefEq.respectTransparency.types false in
/-- Every weakly fair execution of the program from a memory with zero counters terminates, nothing faulting; each result
    buffer ends at the last boundary's contents and each argument array ends as launched. -/
theorem run : θ_run defs (onTc (τ := τ) (main (F := F))) ⟨m, fun _ => 0, ρ⟩ (fun r => ∀ c : Dev nD,
      r.2.mem ((c.tc : Thread nD τ).loc main_v121) = W23 m ρ c (Proc.devRef .tc main_v121)
      ∧ r.2.mem ((c.tc : Thread nD τ).loc main_v122) = W23 m ρ c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := u₀) (hu₀ := launch_ghost)
    (T₀ := T₀ m ρ) (Tₙ := Tₙ m ρ) (hch := chained m ρ)
    (hinit := Pipeline.initEach L lv fun c => first_state m ρ c)
    (QY := Final m ρ) (hfin := read_final m ρ)
    (hQ := fun s h c =>
      ⟨h c _ (mem_uc main_v121 (by decide)), h c _ (mem_uc main_v122 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c),
       (h c _ (mem_uc main_arg9 (by decide))).trans (W23_main_arg9 m ρ c),
       (h c _ (mem_uc main_arg10 (by decide))).trans (W23_main_arg10 m ρ c),
       (h c _ (mem_uc main_arg11 (by decide))).trans (W23_main_arg11 m ρ c)⟩)

end Cert.KernelIdeal.KRun

end
-- ==== Proof.RefRunOps.lean ====
/- The reference program's @main, operation by operation: 230 operations in 13 stretches. A stretch is the text between two calls
   of module-local functions, or one call's body: a call executes the callee's body on the operands, so the callee's
   operations are listed over that call's own buffers (each a typed reference to the literal buffer the call's record names).
   With each list: every operation touches TensorCore references only, and none leaves a result undetermined. -/
import proofs.«172352_j22454089024045_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 25 consecutive operations of @main (window 0), in order. -/
abbrev ops0_0 : List (HloOp τ sig (Elt F)) :=
  [ StableHlo.nullary main_v0 (iotaInDim S50000 32 0),
    StableHlo.unary main_arg11 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg11 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x00000000#32),
    StableHlo.unary main_cst main_v7 (broadcastInDim S50000 ![] bcast_S_S50000 : (⟨S_, .f32⟩ : BufTy).Contents (Elt F) → (⟨S50000, .f32⟩ : BufTy).Contents (Elt F)),
    StableHlo.nullary main_c (constantI S_ 32 0#32),
    StableHlo.unary main_c main_v8 (broadcastInDim S850000 ![] bcast_S_S850000 : (⟨S_, .i32⟩ : BufTy).Contents (Elt F) → (⟨S850000, .i32⟩ : BufTy).Contents (Elt F)),
    StableHlo.binary main_v6 main_v8 main_v9 (cmpi .slt : (⟨S850000, .i32⟩ : BufTy).Contents (Elt F) → (⟨S850000, .i32⟩ : BufTy).Contents (Elt F) → (⟨S850000, .i1⟩ : BufTy).Contents (Elt F)),
    StableHlo.nullary main_c_0 (constantI S_ 32 50000#32),
    StableHlo.unary main_c_0 main_v10 (broadcastInDim S850000 ![] bcast_S_S850000 : (⟨S_, .i32⟩ : BufTy).Contents (Elt F) → (⟨S850000, .i32⟩ : BufTy).Contents (Elt F)),
    StableHlo.binary main_v6 main_v10 main_v11 (addi : (⟨S850000, .i32⟩ : BufTy).Contents (Elt F) → (⟨S850000, .i32⟩ : BufTy).Contents (Elt F) → (⟨S850000, .i32⟩ : BufTy).Contents (Elt F)),
    StableHlo.ternary main_v9 main_v11 main_v6 main_v12 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v12 main_v13 (broadcastInDim S850000x1 ![0] bcast_S850000_S850000x1_0 : (⟨S850000, .i32⟩ : BufTy).Contents (Elt F) → (⟨S850000x1, .i32⟩ : BufTy).Contents (Elt F)),
    StableHlo.nullary main_cst_1 (constant S_ .f32 0x3F800000#32),
    StableHlo.unary main_cst_1 main_v14 (broadcastInDim S850000 ![] bcast_S_S850000 : (⟨S_, .f32⟩ : BufTy).Contents (Elt F) → (⟨S850000, .f32⟩ : BufTy).Contents (Elt F)),
    StableHlo.ternary main_v7 main_v13 main_v14 main_v15 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_2 (constant S_ .f32 0x00000000#32),
    StableHlo.unary main_cst_2 main_v16 (broadcastInDim S50000 ![] bcast_S_S50000 : (⟨S_, .f32⟩ : BufTy).Contents (Elt F) → (⟨S50000, .f32⟩ : BufTy).Contents (Elt F)),
    StableHlo.binary main_v15 main_v16 main_v17 (cmpf .ogt : (⟨S50000, .f32⟩ : BufTy).Contents (Elt F) → (⟨S50000, .f32⟩ : BufTy).Contents (Elt F) → (⟨S50000, .i1⟩ : BufTy).Contents (Elt F)),
    StableHlo.unary main_v15 main_v18 (Host.rsqrt : (⟨S50000, .f32⟩ : BufTy).Contents (Elt F) → (⟨S50000, .f32⟩ : BufTy).Contents (Elt F)),
    StableHlo.nullary main_cst_3 (constant S_ .f32 0x00000000#32) ]
/-- Each touches TensorCore references only. -/
theorem ops0_0_sub : (ops0_0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub ..⟩
/-- Each determines every buffer it writes. -/
theorem ops0_0_fresh : (ops0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The 3 operations of fn_where's body at its call in window 0 of @main, over that call's own buffers, in order (a call nested in it inlined in turn). -/
abbrev ops0_1 : List (HloOp τ sig (Elt F)) :=
  [ StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v17 : StableHlo.TRef sig ⟨S50000, .i1⟩) (.of main_v18 : StableHlo.TRef sig ⟨S50000, .f32⟩) (.of main_call0_v1 : StableHlo.TRef sig ⟨S50000, .f32⟩) (.of main_v19 : StableHlo.TRef sig ⟨S50000, .f32⟩) select ]
/-- Each touches TensorCore references only. -/
theorem ops0_1_sub : (ops0_1 : List (HloOp τ sig (Elt F))).Forall fun op => op.bufs ⊆ tcRefs τ sig :=
  ⟨unary_bufs_sub .., unary_bufs_sub .., ternary_bufs_sub ..⟩
/-- Each determines every buffer it writes. -/
theorem ops0_1_fresh : (ops0_1 : List (HloOp τ sig (Elt F))).Forall fun op => op.fresh = ∅ :=
  ⟨rfl, rfl, rfl⟩

/-- 34 consecutive operations of @main (window 0), in order. -/
abbrev ops0_2 : List (HloOp τ sig (Elt F)) :=
  [ StableHlo.nullary main_c_4 (constantI S_ 32 0#32),
    StableHlo.unary main_c_4 main_v20 (broadcastInDim S850000 ![] bcast_S_S850000 : (⟨S_, .i32⟩ : BufTy).Contents (Elt F) → (⟨S850000, .i32⟩ : BufTy).Contents (Elt F)),
    StableHlo.binary main_v3 main_v20 main_v21 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v22 (broadcastInDim S850000 ![] bcast_S_S850000 : (⟨S_, .i32⟩ : BufTy).Contents (Elt F) → (⟨S850000, .i32⟩ : BufTy).Contents (Elt F)),
    StableHlo.binary main_v3 main_v22 main_v23 (addi : (⟨S850000, .i32⟩ : BufTy).Contents (Elt F) → (⟨S850000, .i32⟩ : BufTy).Contents (Elt F) → (⟨S850000, .i32⟩ : BufTy).Contents (Elt F)),
    StableHlo.ternary main_v21 main_v23 main_v3 main_v24 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v24 main_v25 (broadcastInDim S850000x1 ![0] bcast_S850000_S850000x1_0 : (⟨S850000, .i32⟩ : BufTy).Contents (Elt F) → (⟨S850000x1, .i32⟩ : BufTy).Contents (Elt F)),
    StableHlo.binary main_v19 main_v25 main_v26 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_6 (constantI S_ 32 0#32),
    StableHlo.unary main_c_6 main_v27 (broadcastInDim S850000 ![] bcast_S_S850000 : (⟨S_, .i32⟩ : BufTy).Contents (Elt F) → (⟨S850000, .i32⟩ : BufTy).Contents (Elt F)),
    StableHlo.binary main_v6 main_v27 main_v28 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v29 (broadcastInDim S850000 ![] bcast_S_S850000 : (⟨S_, .i32⟩ : BufTy).Contents (Elt F) → (⟨S850000, .i32⟩ : BufTy).Contents (Elt F)),
    StableHlo.binary main_v6 main_v29 main_v30 (addi : (⟨S850000, .i32⟩ : BufTy).Contents (Elt F) → (⟨S850000, .i32⟩ : BufTy).Contents (Elt F) → (⟨S850000, .i32⟩ : BufTy).Contents (Elt F)),
    StableHlo.ternary main_v28 main_v30 main_v6 main_v31 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v31 main_v32 (broadcastInDim S850000x1 ![0] bcast_S850000_S850000x1_0 : (⟨S850000, .i32⟩ : BufTy).Contents (Elt F) → (⟨S850000x1, .i32⟩ : BufTy).Contents (Elt F)),
    StableHlo.binary main_v19 main_v32 main_v33 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v26 main_v33 main_v34 (mulf : (⟨S850000, .f32⟩ : BufTy).Contents (Elt F) → (⟨S850000, .f32⟩ : BufTy).Contents (Elt F) → (⟨S850000, .f32⟩ : BufTy).Contents (Elt F)),
    StableHlo.binary main_arg0 main_arg1 main_v35 ((fun l r => Host.dotGeneral dot_S1x2x50000x216_S216x64_S1x2x50000x64_3_0_012_1_n_n none l r) : (⟨S1x2x50000x216, .f32⟩ : BufTy).Contents (Elt F) → (⟨S216x64, .f32⟩ : BufTy).Contents (Elt F) → (⟨S1x2x50000x64, .f32⟩ : BufTy).Contents (Elt F)),
    StableHlo.nullary main_c_8 (constantI S_ 32 0#32),
    StableHlo.unary main_c_8 main_v36 (broadcastInDim S850000 ![] bcast_S_S850000 : (⟨S_, .i32⟩ : BufTy).Contents (Elt F) → (⟨S850000, .i32⟩ : BufTy).Contents (Elt F)),
    StableHlo.binary main_v3 main_v36 main_v37 (cmpi .slt : (⟨S850000, .i32⟩ : BufTy).Contents (Elt F) → (⟨S850000, .i32⟩ : BufTy).Contents (Elt F) → (⟨S850000, .i1⟩ : BufTy).Contents (Elt F)),
    StableHlo.nullary main_c_9 (constantI S_ 32 50000#32),
    StableHlo.unary main_c_9 main_v38 (broadcastInDim S850000 ![] bcast_S_S850000 : (⟨S_, .i32⟩ : BufTy).Contents (Elt F) → (⟨S850000, .i32⟩ : BufTy).Contents (Elt F)),
    StableHlo.binary main_v3 main_v38 main_v39 (addi : (⟨S850000, .i32⟩ : BufTy).Contents (Elt F) → (⟨S850000, .i32⟩ : BufTy).Contents (Elt F) → (⟨S850000, .i32⟩ : BufTy).Contents (Elt F)),
    StableHlo.ternary main_v37 main_v39 main_v3 main_v40 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v40 main_v41 (broadcastInDim S850000x1 ![0] bcast_S850000_S850000x1_0 : (⟨S850000, .i32⟩ : BufTy).Contents (Elt F) → (⟨S850000x1, .i32⟩ : BufTy).Contents (Elt F)),
    StableHlo.binary main_v35 main_v41 main_v42 ((fun x i => Host.gather gather_S1x2x50000x64_S850000x1_S1x2x850000x64_013_2_n_n_2_1_12164 x i) : (⟨S1x2x50000x64, .f32⟩ : BufTy).Contents (Elt F) → (⟨S850000x1, .i32⟩ : BufTy).Contents (Elt F) → (⟨S1x2x850000x64, .f32⟩ : BufTy).Contents (Elt F)),
    StableHlo.unary main_v34 main_v43 (broadcastInDim S1x1x850000x1 ![2] bcast_S850000_S1x1x850000x1_2 : (⟨S850000, .f32⟩ : BufTy).Contents (Elt F) → (⟨S1x1x850000x1, .f32⟩ : BufTy).Contents (Elt F)),
    StableHlo.unary main_v43 main_v44 (broadcastInDim S1x2x850000x64 ![0, 1, 2, 3] bcast_S1x1x850000x1_S1x2x850000x64_0_1_2_3 : (⟨S1x1x850000x1, .f32⟩ : BufTy).Contents (Elt F) → (⟨S1x2x850000x64, .f32⟩ : BufTy).Contents (Elt F)),
    StableHlo.binary main_v42 main_v44 main_v45 (mulf : (⟨S1x2x850000x64, .f32⟩ : BufTy).Contents (Elt F) → (⟨S1x2x850000x64, .f32⟩ : BufTy).Contents (Elt F) → (⟨S1x2x850000x64, .f32⟩ : BufTy).Contents (Elt F)),
    StableHlo.nullary main_cst_10 (constant S_ .f32 0x00000000#32),
    StableHlo.unary main_cst_10 main_v46 (broadcastInDim S1x2x50000x64 ![] bcast_S_S1x2x50000x64 : (⟨S_, .f32⟩ : BufTy).Contents (Elt F) → (⟨S1x2x50000x64, .f32⟩ : BufTy).Contents (Elt F)) ]
/-- Each touches TensorCore references only. -/
theorem ops0_2_sub : (ops0_2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub ..⟩
/-- Each determines every buffer it writes. -/
theorem ops0_2_fresh : (ops0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- 12 consecutive operations of @main (window 1), in order. -/
abbrev ops1_0 : List (HloOp τ sig (Elt F)) :=
  [ StableHlo.nullary main_c_11 (constantI S_ 32 0#32),
    StableHlo.unary main_c_11 main_v47 (broadcastInDim S850000 ![] bcast_S_S850000 : (⟨S_, .i32⟩ : BufTy).Contents (Elt F) → (⟨S850000, .i32⟩ : BufTy).Contents (Elt F)),
    StableHlo.binary main_v6 main_v47 main_v48 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v49 (broadcastInDim S850000 ![] bcast_S_S850000 : (⟨S_, .i32⟩ : BufTy).Contents (Elt F) → (⟨S850000, .i32⟩ : BufTy).Contents (Elt F)),
    StableHlo.binary main_v6 main_v49 main_v50 (addi : (⟨S850000, .i32⟩ : BufTy).Contents (Elt F) → (⟨S850000, .i32⟩ : BufTy).Contents (Elt F) → (⟨S850000, .i32⟩ : BufTy).Contents (Elt F)),
    StableHlo.ternary main_v48 main_v50 main_v6 main_v51 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v51 main_v52 (broadcastInDim S850000x1 ![0] bcast_S850000_S850000x1_0 : (⟨S850000, .i32⟩ : BufTy).Contents (Elt F) → (⟨S850000x1, .i32⟩ : BufTy).Contents (Elt F)),
    StableHlo.ternary main_v46 main_v52 main_v45 main_v53 ((fun x i u => Host.scatterAdd scatter_S1x2x50000x64_S850000x1_S1x2x850000x64_013_2_2_1 x i u) : (⟨S1x2x50000x64, .f32⟩ : BufTy).Contents (Elt F) → (⟨S850000x1, .i32⟩ : BufTy).Contents (Elt F) → (⟨S1x2x850000x64, .f32⟩ : BufTy).Contents (Elt F) → (⟨S1x2x50000x64, .f32⟩ : BufTy).Contents (Elt F)),
    StableHlo.unary main_arg2 main_v54 (broadcastInDim S1x1x1x64 ![3] bcast_S64_S1x1x1x64_3 : (⟨S64, .f32⟩ : BufTy).Contents (Elt F) → (⟨S1x1x1x64, .f32⟩ : BufTy).Contents (Elt F)),
    StableHlo.unary main_v54 main_v55 (broadcastInDim S1x2x50000x64 ![0, 1, 2, 3] bcast_S1x1x1x64_S1x2x50000x64_0_1_2_3 : (⟨S1x1x1x64, .f32⟩ : BufTy).Contents (Elt F) → (⟨S1x2x50000x64, .f32⟩ : BufTy).Contents (Elt F)),
    StableHlo.binary main_v53 main_v55 main_v56 (addf : (⟨S1x2x50000x64, .f32⟩ : BufTy).Contents (Elt F) → (⟨S1x2x50000x64, .f32⟩ : BufTy).Contents (Elt F) → (⟨S1x2x50000x64, .f32⟩ : BufTy).Contents (Elt F)) ]
/-- Each touches TensorCore references only. -/
theorem ops1_0_sub : (ops1_0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub ..⟩
/-- Each determines every buffer it writes. -/
theorem ops1_0_fresh : (ops1_0 : List (HloOp τ sig (Elt F))).Forall fun op => op.fresh = ∅ :=
  ⟨rfl, rfl, rfl, rfl, rfl, rfl, rfl, rfl, rfl, rfl, rfl, rfl⟩

/-- The 3 operations of fn_relu's body at its call in window 1 of @main, over that call's own buffers, in order (a call nested in it inlined in turn). -/
abbrev ops1_1 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S1x2x50000x64, .f32⟩) (broadcastInDim S1x2x50000x64 ![] bcast_S_S1x2x50000x64),
    StableHlo.TRef.binary (.of main_v56 : StableHlo.TRef sig ⟨S1x2x50000x64, .f32⟩) (.of main_call1_v0 : StableHlo.TRef sig ⟨S1x2x50000x64, .f32⟩) (.of main_v57 : StableHlo.TRef sig ⟨S1x2x50000x64, .f32⟩) maximumf ]
/-- Each touches TensorCore references only. -/
theorem ops1_1_sub : (ops1_1 : List (HloOp τ sig (Elt F))).Forall fun op => op.bufs ⊆ tcRefs τ sig :=
  ⟨nullary_bufs_sub .., unary_bufs_sub .., binary_bufs_sub ..⟩
/-- Each determines every buffer it writes. -/
theorem ops1_1_fresh : (ops1_1 : List (HloOp τ sig (Elt F))).Forall fun op => op.fresh = ∅ :=
  ⟨rfl, rfl, rfl⟩

/-- 9 consecutive operations of @main (window 1), in order. -/
abbrev ops1_2 : List (HloOp τ sig (Elt F)) :=
  [ StableHlo.reshape main_v57 main_v58 rfl shapeCasts_S1x2x50000x64_S2x50000x64,
    StableHlo.unary main_v58 main_v59 ((transpose S2x64x50000 [0, 2, 1] · transposes_S2x50000x64_S2x64x50000_0_2_1) : (⟨S2x50000x64, .f32⟩ : BufTy).Contents (Elt F) → (⟨S2x64x50000, .f32⟩ : BufTy).Contents (Elt F)),
    StableHlo.nullary main_cst_13 (constant S_ .f32 0x00000000#32),
    StableHlo.binary main_v59 main_cst_13 main_v60 ((fun x v => Host.reduceAdd x v reducesTo_S2x64x50000_S64_d0_2 h_S_) : (⟨S2x64x50000, .f32⟩ : BufTy).Contents (Elt F) → (⟨S_, .f32⟩ : BufTy).Contents (Elt F) → (⟨S64, .f32⟩ : BufTy).Contents (Elt F)),
    StableHlo.unary main_v60 main_v61 (broadcastInDim S1x64x1 ![1] bcast_S64_S1x64x1_1 : (⟨S64, .f32⟩ : BufTy).Contents (Elt F) → (⟨S1x64x1, .f32⟩ : BufTy).Contents (Elt F)),
    StableHlo.nullary main_cst_14 (constant S_ .f32 0x47C35000#32),
    StableHlo.unary main_cst_14 main_v62 (broadcastInDim S1x64x1 ![] bcast_S_S1x64x1 : (⟨S_, .f32⟩ : BufTy).Contents (Elt F) → (⟨S1x64x1, .f32⟩ : BufTy).Contents (Elt F)),
    StableHlo.binary main_v61 main_v62 main_v63 (Host.divf : (⟨S1x64x1, .f32⟩ : BufTy).Contents (Elt F) → (⟨S1x64x1, .f32⟩ : BufTy).Contents (Elt F) → (⟨S1x64x1, .f32⟩ : BufTy).Contents (Elt F)),
    StableHlo.nullary main_c_15 (constantI S_ 32 0#32) ]
/-- Each touches TensorCore references only. -/
theorem ops1_2_sub : (ops1_2 : List (HloOp τ sig (Elt F))).Forall fun op => op.bufs ⊆ tcRefs τ sig :=
  ⟨reshape_bufs_sub .., unary_bufs_sub .., nullary_bufs_sub .., binary_bufs_sub .., unary_bufs_sub .., nullary_bufs_sub .., unary_bufs_sub .., binary_bufs_sub .., nullary_bufs_sub ..⟩
/-- Each determines every buffer it writes. -/
theorem ops1_2_fresh : (ops1_2 : List (HloOp τ sig (Elt F))).Forall fun op => op.fresh = ∅ :=
  ⟨rfl, rfl, rfl, rfl, rfl, rfl, rfl, rfl, rfl⟩

/-- The 23 operations of fn_var's body at its call in window 1 of @main, over that call's own buffers, in order (a call nested in it inlined in turn). -/
abbrev ops1_3 : List (HloOp τ sig (Elt F)) :=
  [ StableHlo.TRef.nullary (.of main_call2_cst : StableHlo.TRef sig ⟨S_, .f32⟩) (constant S_ .f32 0x00000000#32),
    StableHlo.TRef.binary (.of main_v59 : StableHlo.TRef sig ⟨S2x64x50000, .f32⟩) (.of main_call2_cst : StableHlo.TRef sig ⟨S_, .f32⟩) (.of main_call2_v0 : StableHlo.TRef sig ⟨S64, .f32⟩) (fun x v => Host.reduceAdd x v reducesTo_S2x64x50000_S64_d0_2 h_S_),
    StableHlo.TRef.unary (.of main_call2_v0 : StableHlo.TRef sig ⟨S64, .f32⟩) (.of main_call2_v1 : StableHlo.TRef sig ⟨S1x64x1, .f32⟩) (broadcastInDim S1x64x1 ![1] bcast_S64_S1x64x1_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x64x1, .f32⟩) (broadcastInDim S1x64x1 ![] bcast_S_S1x64x1),
    StableHlo.TRef.binary (.of main_call2_v1 : StableHlo.TRef sig ⟨S1x64x1, .f32⟩) (.of main_call2_v2 : StableHlo.TRef sig ⟨S1x64x1, .f32⟩) (.of main_call2_v3 : StableHlo.TRef sig ⟨S1x64x1, .f32⟩) Host.divf,
    StableHlo.TRef.unary (.of main_call2_v3 : StableHlo.TRef sig ⟨S1x64x1, .f32⟩) (.of main_call2_v4 : StableHlo.TRef sig ⟨S2x64x50000, .f32⟩) (broadcastInDim S2x64x50000 ![0, 1, 2] bcast_S1x64x1_S2x64x50000_0_1_2),
    StableHlo.TRef.binary (.of main_v59 : StableHlo.TRef sig ⟨S2x64x50000, .f32⟩) (.of main_call2_v4 : StableHlo.TRef sig ⟨S2x64x50000, .f32⟩) (.of main_call2_v5 : StableHlo.TRef sig ⟨S2x64x50000, .f32⟩) subf,
    StableHlo.TRef.binary (.of main_call2_v5 : StableHlo.TRef sig ⟨S2x64x50000, .f32⟩) (.of main_call2_v5 : StableHlo.TRef sig ⟨S2x64x50000, .f32⟩) (.of main_call2_v6 : StableHlo.TRef sig ⟨S2x64x50000, .f32⟩) mulf,
    StableHlo.TRef.unary (.of main_c_15 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S2x64x50000, .f32⟩) (.of main_call2_cst_2 : StableHlo.TRef sig ⟨S_, .f32⟩) (.of main_call2_v9 : StableHlo.TRef sig ⟨S64, .f32⟩) (fun x v => Host.reduceAdd x v reducesTo_S2x64x50000_S64_d0_2 h_S_),
    StableHlo.TRef.unary (.of main_call2_v9 : StableHlo.TRef sig ⟨S64, .f32⟩) (.of main_call2_v10 : StableHlo.TRef sig ⟨S1x64x1, .f32⟩) (broadcastInDim S1x64x1 ![1] bcast_S64_S1x64x1_1),
    StableHlo.TRef.unary (.of main_call2_v8 : StableHlo.TRef sig ⟨S_, .f32⟩) (.of main_call2_v11 : StableHlo.TRef sig ⟨S1x64x1, .f32⟩) (broadcastInDim S1x64x1 ![] bcast_S_S1x64x1),
    StableHlo.TRef.binary (.of main_call2_v10 : StableHlo.TRef sig ⟨S1x64x1, .f32⟩) (.of main_call2_v11 : StableHlo.TRef sig ⟨S1x64x1, .f32⟩) (.of main_call2_v12 : StableHlo.TRef sig ⟨S1x64x1, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S1x64x1, .f32⟩) (broadcastInDim S1x64x1 ![] bcast_S_S1x64x1),
    StableHlo.TRef.ternary (.of main_call2_v13 : StableHlo.TRef sig ⟨S_, .i1⟩) (.of main_call2_v12 : StableHlo.TRef sig ⟨S1x64x1, .f32⟩) (.of main_call2_call0_v1 : StableHlo.TRef sig ⟨S1x64x1, .f32⟩) (.of main_v64 : StableHlo.TRef sig ⟨S1x64x1, .f32⟩) (fun p a b => select (broadcastInDim S1x64x1 ![] bcast_S_S1x64x1 p) a b) ]
/-- Each touches TensorCore references only. -/
theorem ops1_3_sub : (ops1_3 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
/-- Each determines every buffer it writes. -/
theorem ops1_3_fresh : (ops1_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- 37 consecutive operations of @main (window 1), in order. -/
abbrev ops1_4 : List (HloOp τ sig (Elt F)) :=
  [ StableHlo.unary main_v63 main_v65 (broadcastInDim S2x64x50000 ![0, 1, 2] bcast_S1x64x1_S2x64x50000_0_1_2 : (⟨S1x64x1, .f32⟩ : BufTy).Contents (Elt F) → (⟨S2x64x50000, .f32⟩ : BufTy).Contents (Elt F)),
    StableHlo.binary main_v59 main_v65 main_v66 (subf : (⟨S2x64x50000, .f32⟩ : BufTy).Contents (Elt F) → (⟨S2x64x50000, .f32⟩ : BufTy).Contents (Elt F) → (⟨S2x64x50000, .f32⟩ : BufTy).Contents (Elt F)),
    StableHlo.nullary main_cst_16 (constant S_ .f32 0x3727C5AC#32),
    StableHlo.unary main_cst_16 main_v67 (broadcastInDim S1x64x1 ![] bcast_S_S1x64x1 : (⟨S_, .f32⟩ : BufTy).Contents (Elt F) → (⟨S1x64x1, .f32⟩ : BufTy).Contents (Elt F)),
    StableHlo.binary main_v64 main_v67 main_v68 (addf : (⟨S1x64x1, .f32⟩ : BufTy).Contents (Elt F) → (⟨S1x64x1, .f32⟩ : BufTy).Contents (Elt F) → (⟨S1x64x1, .f32⟩ : BufTy).Contents (Elt F)),
    StableHlo.unary main_v68 main_v69 (Host.rsqrt : (⟨S1x64x1, .f32⟩ : BufTy).Contents (Elt F) → (⟨S1x64x1, .f32⟩ : BufTy).Contents (Elt F)),
    StableHlo.unary main_v69 main_v70 (broadcastInDim S2x64x50000 ![0, 1, 2] bcast_S1x64x1_S2x64x50000_0_1_2 : (⟨S1x64x1, .f32⟩ : BufTy).Contents (Elt F) → (⟨S2x64x50000, .f32⟩ : BufTy).Contents (Elt F)),
    StableHlo.binary main_v66 main_v70 main_v71 (mulf : (⟨S2x64x50000, .f32⟩ : BufTy).Contents (Elt F) → (⟨S2x64x50000, .f32⟩ : BufTy).Contents (Elt F) → (⟨S2x64x50000, .f32⟩ : BufTy).Contents (Elt F)),
    StableHlo.unary main_arg3 main_v72 (broadcastInDim S1x64x1 ![1] bcast_S64_S1x64x1_1 : (⟨S64, .f32⟩ : BufTy).Contents (Elt F) → (⟨S1x64x1, .f32⟩ : BufTy).Contents (Elt F)),
    StableHlo.unary main_v72 main_v73 (broadcastInDim S2x64x50000 ![0, 1, 2] bcast_S1x64x1_S2x64x50000_0_1_2 : (⟨S1x64x1, .f32⟩ : BufTy).Contents (Elt F) → (⟨S2x64x50000, .f32⟩ : BufTy).Contents (Elt F)),
    StableHlo.binary main_v71 main_v73 main_v74 (mulf : (⟨S2x64x50000, .f32⟩ : BufTy).Contents (Elt F) → (⟨S2x64x50000, .f32⟩ : BufTy).Contents (Elt F) → (⟨S2x64x50000, .f32⟩ : BufTy).Contents (Elt F)),
    StableHlo.unary main_arg4 main_v75 (broadcastInDim S1x64x1 ![1] bcast_S64_S1x64x1_1 : (⟨S64, .f32⟩ : BufTy).Contents (Elt F) → (⟨S1x64x1, .f32⟩ : BufTy).Contents (Elt F)),
    StableHlo.unary main_v75 main_v76 (broadcastInDim S2x64x50000 ![0, 1, 2] bcast_S1x64x1_S2x64x50000_0_1_2 : (⟨S1x64x1, .f32⟩ : BufTy).Contents (Elt F) → (⟨S2x64x50000, .f32⟩ : BufTy).Contents (Elt F)),
    StableHlo.binary main_v74 main_v76 main_v77 (addf : (⟨S2x64x50000, .f32⟩ : BufTy).Contents (Elt F) → (⟨S2x64x50000, .f32⟩ : BufTy).Contents (Elt F) → (⟨S2x64x50000, .f32⟩ : BufTy).Contents (Elt F)),
    StableHlo.unary main_v77 main_v78 ((transpose S2x50000x64 [0, 2, 1] · transposes_S2x64x50000_S2x50000x64_0_2_1) : (⟨S2x64x50000, .f32⟩ : BufTy).Contents (Elt F) → (⟨S2x50000x64, .f32⟩ : BufTy).Contents (Elt F)),
    StableHlo.unary main_v78 main_v79 (broadcastInDim S1x2x50000x64 ![1, 2, 3] bcast_S2x50000x64_S1x2x50000x64_1_2_3 : (⟨S2x50000x64, .f32⟩ : BufTy).Contents (Elt F) → (⟨S1x2x50000x64, .f32⟩ : BufTy).Contents (Elt F)),
    StableHlo.binary main_v79 main_arg5 main_v80 ((fun l r => Host.dotGeneral dot_S1x2x50000x64_S64x8_S1x2x50000x8_3_0_012_1_n_n none l r) : (⟨S1x2x50000x64, .f32⟩ : BufTy).Contents (Elt F) → (⟨S64x8, .f32⟩ : BufTy).Contents (Elt F) → (⟨S1x2x50000x8, .f32⟩ : BufTy).Contents (Elt F)),
    StableHlo.nullary main_c_17 (constantI S_ 32 0#32),
    StableHlo.unary main_c_17 main_v81 (broadcastInDim S850000 ![] bcast_S_S850000 : (⟨S_, .i32⟩ : BufTy).Contents (Elt F) → (⟨S850000, .i32⟩ : BufTy).Contents (Elt F)),
    StableHlo.binary main_v3 main_v81 main_v82 (cmpi .slt : (⟨S850000, .i32⟩ : BufTy).Contents (Elt F) → (⟨S850000, .i32⟩ : BufTy).Contents (Elt F) → (⟨S850000, .i1⟩ : BufTy).Contents (Elt F)),
    StableHlo.nullary main_c_18 (constantI S_ 32 50000#32),
    StableHlo.unary main_c_18 main_v83 (broadcastInDim S850000 ![] bcast_S_S850000 : (⟨S_, .i32⟩ : BufTy).Contents (Elt F) → (⟨S850000, .i32⟩ : BufTy).Contents (Elt F)),
    StableHlo.binary main_v3 main_v83 main_v84 (addi : (⟨S850000, .i32⟩ : BufTy).Contents (Elt F) → (⟨S850000, .i32⟩ : BufTy).Contents (Elt F) → (⟨S850000, .i32⟩ : BufTy).Contents (Elt F)),
    StableHlo.ternary main_v82 main_v84 main_v3 main_v85 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v85 main_v86 (broadcastInDim S850000x1 ![0] bcast_S850000_S850000x1_0 : (⟨S850000, .i32⟩ : BufTy).Contents (Elt F) → (⟨S850000x1, .i32⟩ : BufTy).Contents (Elt F)),
    StableHlo.binary main_v80 main_v86 main_v87 ((fun x i => Host.gather gather_S1x2x50000x8_S850000x1_S1x2x850000x8_013_2_n_n_2_1_1218 x i) : (⟨S1x2x50000x8, .f32⟩ : BufTy).Contents (Elt F) → (⟨S850000x1, .i32⟩ : BufTy).Contents (Elt F) → (⟨S1x2x850000x8, .f32⟩ : BufTy).Contents (Elt F)),
    StableHlo.unary main_v34 main_v88 (broadcastInDim S1x1x850000x1 ![2] bcast_S850000_S1x1x850000x1_2 : (⟨S850000, .f32⟩ : BufTy).Contents (Elt F) → (⟨S1x1x850000x1, .f32⟩ : BufTy).Contents (Elt F)),
    StableHlo.unary main_v88 main_v89 (broadcastInDim S1x2x850000x8 ![0, 1, 2, 3] bcast_S1x1x850000x1_S1x2x850000x8_0_1_2_3 : (⟨S1x1x850000x1, .f32⟩ : BufTy).Contents (Elt F) → (⟨S1x2x850000x8, .f32⟩ : BufTy).Contents (Elt F)),
    StableHlo.binary main_v87 main_v89 main_v90 (mulf : (⟨S1x2x850000x8, .f32⟩ : BufTy).Contents (Elt F) → (⟨S1x2x850000x8, .f32⟩ : BufTy).Contents (Elt F) → (⟨S1x2x850000x8, .f32⟩ : BufTy).Contents (Elt F)),
    StableHlo.nullary main_cst_19 (constant S_ .f32 0x00000000#32),
    StableHlo.unary main_cst_19 main_v91 (broadcastInDim S1x2x50000x8 ![] bcast_S_S1x2x50000x8 : (⟨S_, .f32⟩ : BufTy).Contents (Elt F) → (⟨S1x2x50000x8, .f32⟩ : BufTy).Contents (Elt F)),
    StableHlo.nullary main_c_20 (constantI S_ 32 0#32),
    StableHlo.unary main_c_20 main_v92 (broadcastInDim S850000 ![] bcast_S_S850000 : (⟨S_, .i32⟩ : BufTy).Contents (Elt F) → (⟨S850000, .i32⟩ : BufTy).Contents (Elt F)),
    StableHlo.binary main_v6 main_v92 main_v93 (cmpi .slt : (⟨S850000, .i32⟩ : BufTy).Contents (Elt F) → (⟨S850000, .i32⟩ : BufTy).Contents (Elt F) → (⟨S850000, .i1⟩ : BufTy).Contents (Elt F)),
    StableHlo.nullary main_c_21 (constantI S_ 32 50000#32),
    StableHlo.unary main_c_21 main_v94 (broadcastInDim S850000 ![] bcast_S_S850000 : (⟨S_, .i32⟩ : BufTy).Contents (Elt F) → (⟨S850000, .i32⟩ : BufTy).Contents (Elt F)),
    StableHlo.binary main_v6 main_v94 main_v95 (addi : (⟨S850000, .i32⟩ : BufTy).Contents (Elt F) → (⟨S850000, .i32⟩ : BufTy).Contents (Elt F) → (⟨S850000, .i32⟩ : BufTy).Contents (Elt F)) ]
/-- Each touches TensorCore references only. -/
theorem ops1_4_sub : (ops1_4 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub ..⟩
/-- Each determines every buffer it writes. -/
theorem ops1_4_fresh : (ops1_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- 6 consecutive operations of @main (window 2), in order. -/
abbrev ops2_0 : List (HloOp τ sig (Elt F)) :=
  [ StableHlo.ternary main_v93 main_v95 main_v6 main_v96 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v96 main_v97 (broadcastInDim S850000x1 ![0] bcast_S850000_S850000x1_0 : (⟨S850000, .i32⟩ : BufTy).Contents (Elt F) → (⟨S850000x1, .i32⟩ : BufTy).Contents (Elt F)),
    StableHlo.ternary main_v91 main_v97 main_v90 main_v98 ((fun x i u => Host.scatterAdd scatter_S1x2x50000x8_S850000x1_S1x2x850000x8_013_2_2_1 x i u) : (⟨S1x2x50000x8, .f32⟩ : BufTy).Contents (Elt F) → (⟨S850000x1, .i32⟩ : BufTy).Contents (Elt F) → (⟨S1x2x850000x8, .f32⟩ : BufTy).Contents (Elt F) → (⟨S1x2x50000x8, .f32⟩ : BufTy).Contents (Elt F)),
    StableHlo.unary main_arg6 main_v99 (broadcastInDim S1x1x1x8 ![3] bcast_S8_S1x1x1x8_3 : (⟨S8, .f32⟩ : BufTy).Contents (Elt F) → (⟨S1x1x1x8, .f32⟩ : BufTy).Contents (Elt F)),
    StableHlo.unary main_v99 main_v100 (broadcastInDim S1x2x50000x8 ![0, 1, 2, 3] bcast_S1x1x1x8_S1x2x50000x8_0_1_2_3 : (⟨S1x1x1x8, .f32⟩ : BufTy).Contents (Elt F) → (⟨S1x2x50000x8, .f32⟩ : BufTy).Contents (Elt F)),
    StableHlo.binary main_v98 main_v100 main_v101 (addf : (⟨S1x2x50000x8, .f32⟩ : BufTy).Contents (Elt F) → (⟨S1x2x50000x8, .f32⟩ : BufTy).Contents (Elt F) → (⟨S1x2x50000x8, .f32⟩ : BufTy).Contents (Elt F)) ]
/-- Each touches TensorCore references only. -/
theorem ops2_0_sub : (ops2_0 : List (HloOp τ sig (Elt F))).Forall fun op => op.bufs ⊆ tcRefs τ sig :=
  ⟨ternary_bufs_sub .., unary_bufs_sub .., ternary_bufs_sub .., unary_bufs_sub .., unary_bufs_sub .., binary_bufs_sub ..⟩
/-- Each determines every buffer it writes. -/
theorem ops2_0_fresh : (ops2_0 : List (HloOp τ sig (Elt F))).Forall fun op => op.fresh = ∅ :=
  ⟨rfl, rfl, rfl, rfl, rfl, rfl⟩

/-- The 3 operations of fn_relu_1's body at its call in window 2 of @main, over that call's own buffers, in order (a call nested in it inlined in turn). -/
abbrev ops2_1 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S1x2x50000x8, .f32⟩) (broadcastInDim S1x2x50000x8 ![] bcast_S_S1x2x50000x8),
    StableHlo.TRef.binary (.of main_v101 : StableHlo.TRef sig ⟨S1x2x50000x8, .f32⟩) (.of main_call3_v0 : StableHlo.TRef sig ⟨S1x2x50000x8, .f32⟩) (.of main_v102 : StableHlo.TRef sig ⟨S1x2x50000x8, .f32⟩) maximumf ]
/-- Each touches TensorCore references only. -/
theorem ops2_1_sub : (ops2_1 : List (HloOp τ sig (Elt F))).Forall fun op => op.bufs ⊆ tcRefs τ sig :=
  ⟨nullary_bufs_sub .., unary_bufs_sub .., binary_bufs_sub ..⟩
/-- Each determines every buffer it writes. -/
theorem ops2_1_fresh : (ops2_1 : List (HloOp τ sig (Elt F))).Forall fun op => op.fresh = ∅ :=
  ⟨rfl, rfl, rfl⟩

/-- 9 consecutive operations of @main (window 2), in order. -/
abbrev ops2_2 : List (HloOp τ sig (Elt F)) :=
  [ StableHlo.reshape main_v102 main_v103 rfl shapeCasts_S1x2x50000x8_S2x50000x8,
    StableHlo.unary main_v103 main_v104 ((transpose S2x8x50000 [0, 2, 1] · transposes_S2x50000x8_S2x8x50000_0_2_1) : (⟨S2x50000x8, .f32⟩ : BufTy).Contents (Elt F) → (⟨S2x8x50000, .f32⟩ : BufTy).Contents (Elt F)),
    StableHlo.nullary main_cst_22 (constant S_ .f32 0x00000000#32),
    StableHlo.binary main_v104 main_cst_22 main_v105 ((fun x v => Host.reduceAdd x v reducesTo_S2x8x50000_S8_d0_2 h_S_) : (⟨S2x8x50000, .f32⟩ : BufTy).Contents (Elt F) → (⟨S_, .f32⟩ : BufTy).Contents (Elt F) → (⟨S8, .f32⟩ : BufTy).Contents (Elt F)),
    StableHlo.unary main_v105 main_v106 (broadcastInDim S1x8x1 ![1] bcast_S8_S1x8x1_1 : (⟨S8, .f32⟩ : BufTy).Contents (Elt F) → (⟨S1x8x1, .f32⟩ : BufTy).Contents (Elt F)),
    StableHlo.nullary main_cst_23 (constant S_ .f32 0x47C35000#32),
    StableHlo.unary main_cst_23 main_v107 (broadcastInDim S1x8x1 ![] bcast_S_S1x8x1 : (⟨S_, .f32⟩ : BufTy).Contents (Elt F) → (⟨S1x8x1, .f32⟩ : BufTy).Contents (Elt F)),
    StableHlo.binary main_v106 main_v107 main_v108 (Host.divf : (⟨S1x8x1, .f32⟩ : BufTy).Contents (Elt F) → (⟨S1x8x1, .f32⟩ : BufTy).Contents (Elt F) → (⟨S1x8x1, .f32⟩ : BufTy).Contents (Elt F)),
    StableHlo.nullary main_c_24 (constantI S_ 32 0#32) ]
/-- Each touches TensorCore references only. -/
theorem ops2_2_sub : (ops2_2 : List (HloOp τ sig (Elt F))).Forall fun op => op.bufs ⊆ tcRefs τ sig :=
  ⟨reshape_bufs_sub .., unary_bufs_sub .., nullary_bufs_sub .., binary_bufs_sub .., unary_bufs_sub .., nullary_bufs_sub .., unary_bufs_sub .., binary_bufs_sub .., nullary_bufs_sub ..⟩
/-- Each determines every buffer it writes. -/
theorem ops2_2_fresh : (ops2_2 : List (HloOp τ sig (Elt F))).Forall fun op => op.fresh = ∅ :=
  ⟨rfl, rfl, rfl, rfl, rfl, rfl, rfl, rfl, rfl⟩

/-- The 23 operations of fn_var_2's body at its call in window 2 of @main, over that call's own buffers, in order (a call nested in it inlined in turn). -/
abbrev ops2_3 : List (HloOp τ sig (Elt F)) :=
  [ StableHlo.TRef.nullary (.of main_call4_cst : StableHlo.TRef sig ⟨S_, .f32⟩) (constant S_ .f32 0x00000000#32),
    StableHlo.TRef.binary (.of main_v104 : StableHlo.TRef sig ⟨S2x8x50000, .f32⟩) (.of main_call4_cst : StableHlo.TRef sig ⟨S_, .f32⟩) (.of main_call4_v0 : StableHlo.TRef sig ⟨S8, .f32⟩) (fun x v => Host.reduceAdd x v reducesTo_S2x8x50000_S8_d0_2 h_S_),
    StableHlo.TRef.unary (.of main_call4_v0 : StableHlo.TRef sig ⟨S8, .f32⟩) (.of main_call4_v1 : StableHlo.TRef sig ⟨S1x8x1, .f32⟩) (broadcastInDim S1x8x1 ![1] bcast_S8_S1x8x1_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x8x1, .f32⟩) (broadcastInDim S1x8x1 ![] bcast_S_S1x8x1),
    StableHlo.TRef.binary (.of main_call4_v1 : StableHlo.TRef sig ⟨S1x8x1, .f32⟩) (.of main_call4_v2 : StableHlo.TRef sig ⟨S1x8x1, .f32⟩) (.of main_call4_v3 : StableHlo.TRef sig ⟨S1x8x1, .f32⟩) Host.divf,
    StableHlo.TRef.unary (.of main_call4_v3 : StableHlo.TRef sig ⟨S1x8x1, .f32⟩) (.of main_call4_v4 : StableHlo.TRef sig ⟨S2x8x50000, .f32⟩) (broadcastInDim S2x8x50000 ![0, 1, 2] bcast_S1x8x1_S2x8x50000_0_1_2),
    StableHlo.TRef.binary (.of main_v104 : StableHlo.TRef sig ⟨S2x8x50000, .f32⟩) (.of main_call4_v4 : StableHlo.TRef sig ⟨S2x8x50000, .f32⟩) (.of main_call4_v5 : StableHlo.TRef sig ⟨S2x8x50000, .f32⟩) subf,
    StableHlo.TRef.binary (.of main_call4_v5 : StableHlo.TRef sig ⟨S2x8x50000, .f32⟩) (.of main_call4_v5 : StableHlo.TRef sig ⟨S2x8x50000, .f32⟩) (.of main_call4_v6 : StableHlo.TRef sig ⟨S2x8x50000, .f32⟩) mulf,
    StableHlo.TRef.unary (.of main_c_24 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S2x8x50000, .f32⟩) (.of main_call4_cst_2 : StableHlo.TRef sig ⟨S_, .f32⟩) (.of main_call4_v9 : StableHlo.TRef sig ⟨S8, .f32⟩) (fun x v => Host.reduceAdd x v reducesTo_S2x8x50000_S8_d0_2 h_S_),
    StableHlo.TRef.unary (.of main_call4_v9 : StableHlo.TRef sig ⟨S8, .f32⟩) (.of main_call4_v10 : StableHlo.TRef sig ⟨S1x8x1, .f32⟩) (broadcastInDim S1x8x1 ![1] bcast_S8_S1x8x1_1),
    StableHlo.TRef.unary (.of main_call4_v8 : StableHlo.TRef sig ⟨S_, .f32⟩) (.of main_call4_v11 : StableHlo.TRef sig ⟨S1x8x1, .f32⟩) (broadcastInDim S1x8x1 ![] bcast_S_S1x8x1),
    StableHlo.TRef.binary (.of main_call4_v10 : StableHlo.TRef sig ⟨S1x8x1, .f32⟩) (.of main_call4_v11 : StableHlo.TRef sig ⟨S1x8x1, .f32⟩) (.of main_call4_v12 : StableHlo.TRef sig ⟨S1x8x1, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v13 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S1x8x1, .f32⟩) (broadcastInDim S1x8x1 ![] bcast_S_S1x8x1),
    StableHlo.TRef.ternary (.of main_call4_v13 : StableHlo.TRef sig ⟨S_, .i1⟩) (.of main_call4_v12 : StableHlo.TRef sig ⟨S1x8x1, .f32⟩) (.of main_call4_call0_v1 : StableHlo.TRef sig ⟨S1x8x1, .f32⟩) (.of main_v109 : StableHlo.TRef sig ⟨S1x8x1, .f32⟩) (fun p a b => select (broadcastInDim S1x8x1 ![] bcast_S_S1x8x1 p) a b) ]
/-- Each touches TensorCore references only. -/
theorem ops2_3_sub : (ops2_3 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
/-- Each determines every buffer it writes. -/
theorem ops2_3_fresh : (ops2_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- 43 consecutive operations of @main (window 2), in order. -/
abbrev ops2_4 : List (HloOp τ sig (Elt F)) :=
  [ StableHlo.unary main_v108 main_v110 (broadcastInDim S2x8x50000 ![0, 1, 2] bcast_S1x8x1_S2x8x50000_0_1_2 : (⟨S1x8x1, .f32⟩ : BufTy).Contents (Elt F) → (⟨S2x8x50000, .f32⟩ : BufTy).Contents (Elt F)),
    StableHlo.binary main_v104 main_v110 main_v111 (subf : (⟨S2x8x50000, .f32⟩ : BufTy).Contents (Elt F) → (⟨S2x8x50000, .f32⟩ : BufTy).Contents (Elt F) → (⟨S2x8x50000, .f32⟩ : BufTy).Contents (Elt F)),
    StableHlo.nullary main_cst_25 (constant S_ .f32 0x3727C5AC#32),
    StableHlo.unary main_cst_25 main_v112 (broadcastInDim S1x8x1 ![] bcast_S_S1x8x1 : (⟨S_, .f32⟩ : BufTy).Contents (Elt F) → (⟨S1x8x1, .f32⟩ : BufTy).Contents (Elt F)),
    StableHlo.binary main_v109 main_v112 main_v113 (addf : (⟨S1x8x1, .f32⟩ : BufTy).Contents (Elt F) → (⟨S1x8x1, .f32⟩ : BufTy).Contents (Elt F) → (⟨S1x8x1, .f32⟩ : BufTy).Contents (Elt F)),
    StableHlo.unary main_v113 main_v114 (Host.rsqrt : (⟨S1x8x1, .f32⟩ : BufTy).Contents (Elt F) → (⟨S1x8x1, .f32⟩ : BufTy).Contents (Elt F)),
    StableHlo.unary main_v114 main_v115 (broadcastInDim S2x8x50000 ![0, 1, 2] bcast_S1x8x1_S2x8x50000_0_1_2 : (⟨S1x8x1, .f32⟩ : BufTy).Contents (Elt F) → (⟨S2x8x50000, .f32⟩ : BufTy).Contents (Elt F)),
    StableHlo.binary main_v111 main_v115 main_v116 (mulf : (⟨S2x8x50000, .f32⟩ : BufTy).Contents (Elt F) → (⟨S2x8x50000, .f32⟩ : BufTy).Contents (Elt F) → (⟨S2x8x50000, .f32⟩ : BufTy).Contents (Elt F)),
    StableHlo.unary main_arg7 main_v117 (broadcastInDim S1x8x1 ![1] bcast_S8_S1x8x1_1 : (⟨S8, .f32⟩ : BufTy).Contents (Elt F) → (⟨S1x8x1, .f32⟩ : BufTy).Contents (Elt F)),
    StableHlo.unary main_v117 main_v118 (broadcastInDim S2x8x50000 ![0, 1, 2] bcast_S1x8x1_S2x8x50000_0_1_2 : (⟨S1x8x1, .f32⟩ : BufTy).Contents (Elt F) → (⟨S2x8x50000, .f32⟩ : BufTy).Contents (Elt F)),
    StableHlo.binary main_v116 main_v118 main_v119 (mulf : (⟨S2x8x50000, .f32⟩ : BufTy).Contents (Elt F) → (⟨S2x8x50000, .f32⟩ : BufTy).Contents (Elt F) → (⟨S2x8x50000, .f32⟩ : BufTy).Contents (Elt F)),
    StableHlo.unary main_arg8 main_v120 (broadcastInDim S1x8x1 ![1] bcast_S8_S1x8x1_1 : (⟨S8, .f32⟩ : BufTy).Contents (Elt F) → (⟨S1x8x1, .f32⟩ : BufTy).Contents (Elt F)),
    StableHlo.unary main_v120 main_v121 (broadcastInDim S2x8x50000 ![0, 1, 2] bcast_S1x8x1_S2x8x50000_0_1_2 : (⟨S1x8x1, .f32⟩ : BufTy).Contents (Elt F) → (⟨S2x8x50000, .f32⟩ : BufTy).Contents (Elt F)),
    StableHlo.binary main_v119 main_v121 main_v122 (addf : (⟨S2x8x50000, .f32⟩ : BufTy).Contents (Elt F) → (⟨S2x8x50000, .f32⟩ : BufTy).Contents (Elt F) → (⟨S2x8x50000, .f32⟩ : BufTy).Contents (Elt F)),
    StableHlo.unary main_v122 main_v123 ((transpose S2x50000x8 [0, 2, 1] · transposes_S2x8x50000_S2x50000x8_0_2_1) : (⟨S2x8x50000, .f32⟩ : BufTy).Contents (Elt F) → (⟨S2x50000x8, .f32⟩ : BufTy).Contents (Elt F)),
    StableHlo.unary main_v123 main_v124 (broadcastInDim S1x2x50000x8 ![1, 2, 3] bcast_S2x50000x8_S1x2x50000x8_1_2_3 : (⟨S2x50000x8, .f32⟩ : BufTy).Contents (Elt F) → (⟨S1x2x50000x8, .f32⟩ : BufTy).Contents (Elt F)),
    StableHlo.binary main_v124 main_arg9 main_v125 ((fun l r => Host.dotGeneral dot_S1x2x50000x8_S8x3_S1x2x50000x3_3_0_012_1_n_n none l r) : (⟨S1x2x50000x8, .f32⟩ : BufTy).Contents (Elt F) → (⟨S8x3, .f32⟩ : BufTy).Contents (Elt F) → (⟨S1x2x50000x3, .f32⟩ : BufTy).Contents (Elt F)),
    StableHlo.nullary main_c_26 (constantI S_ 32 0#32),
    StableHlo.unary main_c_26 main_v126 (broadcastInDim S850000 ![] bcast_S_S850000 : (⟨S_, .i32⟩ : BufTy).Contents (Elt F) → (⟨S850000, .i32⟩ : BufTy).Contents (Elt F)),
    StableHlo.binary main_v3 main_v126 main_v127 (cmpi .slt : (⟨S850000, .i32⟩ : BufTy).Contents (Elt F) → (⟨S850000, .i32⟩ : BufTy).Contents (Elt F) → (⟨S850000, .i1⟩ : BufTy).Contents (Elt F)),
    StableHlo.nullary main_c_27 (constantI S_ 32 50000#32),
    StableHlo.unary main_c_27 main_v128 (broadcastInDim S850000 ![] bcast_S_S850000 : (⟨S_, .i32⟩ : BufTy).Contents (Elt F) → (⟨S850000, .i32⟩ : BufTy).Contents (Elt F)),
    StableHlo.binary main_v3 main_v128 main_v129 (addi : (⟨S850000, .i32⟩ : BufTy).Contents (Elt F) → (⟨S850000, .i32⟩ : BufTy).Contents (Elt F) → (⟨S850000, .i32⟩ : BufTy).Contents (Elt F)),
    StableHlo.ternary main_v127 main_v129 main_v3 main_v130 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v130 main_v131 (broadcastInDim S850000x1 ![0] bcast_S850000_S850000x1_0 : (⟨S850000, .i32⟩ : BufTy).Contents (Elt F) → (⟨S850000x1, .i32⟩ : BufTy).Contents (Elt F)),
    StableHlo.binary main_v125 main_v131 main_v132 ((fun x i => Host.gather gather_S1x2x50000x3_S850000x1_S1x2x850000x3_013_2_n_n_2_1_1213 x i) : (⟨S1x2x50000x3, .f32⟩ : BufTy).Contents (Elt F) → (⟨S850000x1, .i32⟩ : BufTy).Contents (Elt F) → (⟨S1x2x850000x3, .f32⟩ : BufTy).Contents (Elt F)),
    StableHlo.unary main_v34 main_v133 (broadcastInDim S1x1x850000x1 ![2] bcast_S850000_S1x1x850000x1_2 : (⟨S850000, .f32⟩ : BufTy).Contents (Elt F) → (⟨S1x1x850000x1, .f32⟩ : BufTy).Contents (Elt F)),
    StableHlo.unary main_v133 main_v134 (broadcastInDim S1x2x850000x3 ![0, 1, 2, 3] bcast_S1x1x850000x1_S1x2x850000x3_0_1_2_3 : (⟨S1x1x850000x1, .f32⟩ : BufTy).Contents (Elt F) → (⟨S1x2x850000x3, .f32⟩ : BufTy).Contents (Elt F)),
    StableHlo.binary main_v132 main_v134 main_v135 (mulf : (⟨S1x2x850000x3, .f32⟩ : BufTy).Contents (Elt F) → (⟨S1x2x850000x3, .f32⟩ : BufTy).Contents (Elt F) → (⟨S1x2x850000x3, .f32⟩ : BufTy).Contents (Elt F)),
    StableHlo.nullary main_cst_28 (constant S_ .f32 0x00000000#32),
    StableHlo.unary main_cst_28 main_v136 (broadcastInDim S1x2x50000x3 ![] bcast_S_S1x2x50000x3 : (⟨S_, .f32⟩ : BufTy).Contents (Elt F) → (⟨S1x2x50000x3, .f32⟩ : BufTy).Contents (Elt F)),
    StableHlo.nullary main_c_29 (constantI S_ 32 0#32),
    StableHlo.unary main_c_29 main_v137 (broadcastInDim S850000 ![] bcast_S_S850000 : (⟨S_, .i32⟩ : BufTy).Contents (Elt F) → (⟨S850000, .i32⟩ : BufTy).Contents (Elt F)),
    StableHlo.binary main_v6 main_v137 main_v138 (cmpi .slt : (⟨S850000, .i32⟩ : BufTy).Contents (Elt F) → (⟨S850000, .i32⟩ : BufTy).Contents (Elt F) → (⟨S850000, .i1⟩ : BufTy).Contents (Elt F)),
    StableHlo.nullary main_c_30 (constantI S_ 32 50000#32),
    StableHlo.unary main_c_30 main_v139 (broadcastInDim S850000 ![] bcast_S_S850000 : (⟨S_, .i32⟩ : BufTy).Contents (Elt F) → (⟨S850000, .i32⟩ : BufTy).Contents (Elt F)),
    StableHlo.binary main_v6 main_v139 main_v140 (addi : (⟨S850000, .i32⟩ : BufTy).Contents (Elt F) → (⟨S850000, .i32⟩ : BufTy).Contents (Elt F) → (⟨S850000, .i32⟩ : BufTy).Contents (Elt F)),
    StableHlo.ternary main_v138 main_v140 main_v6 main_v141 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v141 main_v142 (broadcastInDim S850000x1 ![0] bcast_S850000_S850000x1_0 : (⟨S850000, .i32⟩ : BufTy).Contents (Elt F) → (⟨S850000x1, .i32⟩ : BufTy).Contents (Elt F)),
    StableHlo.ternary main_v136 main_v142 main_v135 main_v143 ((fun x i u => Host.scatterAdd scatter_S1x2x50000x3_S850000x1_S1x2x850000x3_013_2_2_1 x i u) : (⟨S1x2x50000x3, .f32⟩ : BufTy).Contents (Elt F) → (⟨S850000x1, .i32⟩ : BufTy).Contents (Elt F) → (⟨S1x2x850000x3, .f32⟩ : BufTy).Contents (Elt F) → (⟨S1x2x50000x3, .f32⟩ : BufTy).Contents (Elt F)),
    StableHlo.unary main_arg10 main_v144 (broadcastInDim S1x1x1x3 ![3] bcast_S3_S1x1x1x3_3 : (⟨S3, .f32⟩ : BufTy).Contents (Elt F) → (⟨S1x1x1x3, .f32⟩ : BufTy).Contents (Elt F)),
    StableHlo.unary main_v144 main_v145 (broadcastInDim S1x2x50000x3 ![0, 1, 2, 3] bcast_S1x1x1x3_S1x2x50000x3_0_1_2_3 : (⟨S1x1x1x3, .f32⟩ : BufTy).Contents (Elt F) → (⟨S1x2x50000x3, .f32⟩ : BufTy).Contents (Elt F)),
    StableHlo.binary main_v143 main_v145 main_v146 (addf : (⟨S1x2x50000x3, .f32⟩ : BufTy).Contents (Elt F) → (⟨S1x2x50000x3, .f32⟩ : BufTy).Contents (Elt F) → (⟨S1x2x50000x3, .f32⟩ : BufTy).Contents (Elt F)) ]
/-- Each touches TensorCore references only. -/
theorem ops2_4_sub : (ops2_4 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub ..⟩
/-- Each determines every buffer it writes. -/
theorem ops2_4_fresh : (ops2_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefRun.lean ====
/- The reference program's @main as ONE straight line of host operations, its run, and the one-hop reading of the result.

   @main is printed in consecutive windows, and it calls module-local functions (a masked select, two rectifiers, two
   variances, each variance calling a masked select of its own). A call executes the callee's body on the operands, so
   at each call the line has the callee's operations over that call's own buffers, in order. The imported table lists the
   thirteen stretches (the text between two calls, or one call's body); `ops` is their concatenation; `main_eq` says
   @main is `seq ops`: each window is the chain of its stretches by unfolding (`main_partN_chain`), the windows compose
   (`main_chain`), and a chain of lines is the line of the concatenation (`chain_map_seq`, from `seq_append`).
   `run` is then `run_seq`: every weakly fair execution of @main terminates, and each TensorCore buffer ends at the
   fold `after ops` of the operations over the launch contents — named `A m c b`. The fold is NOT evaluated here:
   the last section gives, for a line in static single assignment form, the fold at an operation's result as the
   operation's function of the fold at its operands (`hop_nullary` … `hop_reshape`, `hop_arg`). -/
import proofs.«172352_j22454089024045_1_alg».proof.Proof.RefRunOps
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the line of its operations -/

/-- Window 0 is the chain of its three stretches: the operations before the masked select's call, the call's body, the
    operations after it (the last in tail position). By unfolding, checked by the kernel. -/
theorem main_part0_chain (c : Dev nD) : main_part0 (F := F) c = (Pipeline.chainK [seq ops0_0, seq ops0_1] (seq ops0_2) : Prog (TpuEff nD τ sig (Elt F) (Pipeline.Sig Λ₀ (Fin 0) fun p => (pcfgs (F := F) p).Adm) .tc) PUnit) := by
  chain_rfl

/-- Window 1: up to the rectifier's call, its body, up to the variance's call, its body (its own masked select inlined), the rest. -/
theorem main_part1_chain (c : Dev nD) : main_part1 (F := F) c = (Pipeline.chainK [seq ops1_0, seq ops1_1, seq ops1_2, seq ops1_3] (seq ops1_4) : Prog (TpuEff nD τ sig (Elt F) (Pipeline.Sig Λ₀ (Fin 0) fun p => (pcfgs (F := F) p).Adm) .tc) PUnit) := by
  chain_rfl

/-- Window 2: the same shape as window 1, for the second layer. -/
theorem main_part2_chain (c : Dev nD) : main_part2 (F := F) c = (Pipeline.chainK [seq ops2_0, seq ops2_1, seq ops2_2, seq ops2_3] (seq ops2_4) : Prog (TpuEff nD τ sig (Elt F) (Pipeline.Sig Λ₀ (Fin 0) fun p => (pcfgs (F := F) p).Adm) .tc) PUnit) := by
  chain_rfl

/-- The chain of the lines of a list of stretches is the one line of their concatenation. -/
theorem chain_map_seq {nD : Nat} {τ : Topo} {sig : RefSig} {Val : EltTy → Type} {Λ : Labels} (L : List (List (HloOp τ sig Val))) :
    (Pipeline.chain (L.map seq) : Prog (TpuEff nD τ sig Val Λ .tc) PUnit) = seq L.flatten := by
  induction L with
  | nil => rfl
  | cons a L ih => simp only [List.map_cons, Pipeline.chain_cons, List.flatten_cons, seq_append, ih]

/-- A property of every element of every list holds of every element of their concatenation. -/
theorem forall_flatten {α : Type} {p : α → Prop} {L : List (List α)} (h : L.Forall fun l => l.Forall p) : L.flatten.Forall p := by
  rw [List.forall_iff_forall_mem] at h ⊢
  intro x hx
  obtain ⟨l, hl, hxl⟩ := List.mem_flatten.mp hx
  exact List.forall_iff_forall_mem.mp (h l hl) x hxl

/-- @main's 230 operations, in order, the functions it calls inlined at their calls: the stretches between the calls
    and the calls' bodies, concatenated. -/
abbrev ops : List (HloOp τ sig (Elt F)) :=
  List.flatten [ops0_0, ops0_1, ops0_2, ops1_0, ops1_1, ops1_2, ops1_3, ops1_4, ops2_0, ops2_1, ops2_2, ops2_3, ops2_4]

/-- @main is the chain of its windows' stretches (the fourth window is empty). -/
theorem main_chain (c : Dev nD) : main (F := F) c = (Pipeline.chain [seq ops0_0, seq ops0_1, seq ops0_2, seq ops1_0, seq ops1_1, seq ops1_2, seq ops1_3, seq ops1_4, seq ops2_0, seq ops2_1, seq ops2_2, seq ops2_3, seq ops2_4] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => Pipeline.chain []) = _
  rewrite [main_part2_chain, Pipeline.chainK_bind_chain, main_part1_chain, Pipeline.chainK_bind_chain, main_part0_chain, Pipeline.chainK_bind_chain]
  chain_rfl

/-- @main is the straight line of its operations. -/
theorem main_eq (c : Dev nD) : main (F := F) c = seq ops :=
  (main_chain c).trans (chain_map_seq [ops0_0, ops0_1, ops0_2, ops1_0, ops1_1, ops1_2, ops1_3, ops1_4, ops2_0, ops2_1, ops2_2, ops2_3, ops2_4])

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_flatten ⟨ops0_0_sub, ops0_1_sub, ops0_2_sub, ops1_0_sub, ops1_1_sub, ops1_2_sub, ops1_3_sub, ops1_4_sub, ops2_0_sub, ops2_1_sub, ops2_2_sub, ops2_3_sub, ops2_4_sub⟩

/-- No operation leaves a result undetermined. -/
theorem ops_fresh : ∀ op ∈ (ops : List (HloOp τ sig (Elt F))), op.fresh = ∅ :=
  List.forall_iff_forall_mem.mp (forall_flatten ⟨ops0_0_fresh, ops0_1_fresh, ops0_2_fresh, ops1_0_fresh, ops1_1_fresh, ops1_2_fresh, ops1_3_fresh, ops1_4_fresh, ops2_0_fresh, ops2_1_fresh, ops2_2_fresh, ops2_3_fresh, ops2_4_fresh⟩)

/-- On every device, for any float values, from any memory with zero counters: every weakly fair execution of @main
    terminates, and every final state has each TensorCore buffer at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- Device `c`'s buffer `b` once @main has run from launch memory `m`: the fold of the operations over the launch
    contents, at `b`. A definition, so that nothing evaluates the fold by accident; `A_def` opens it. -/
def A (m : (ℓ : Loc nD τ sig) → Buf (Elt F) ℓ) (c : Dev nD) (b : Ref sig .tc) : (Proc.devRef (τ := τ) .tc b).ty.Contents (Elt F) :=
  after ops (launchContents m c) (Proc.devRef .tc b)

theorem A_def (m : (ℓ : Loc nD τ sig) → Buf (Elt F) ℓ) (c : Dev nD) (b : Ref sig .tc) :
    A m c b = after ops (launchContents m c) (Proc.devRef .tc b) := rfl

/-- The run, with the final contents named. -/
theorem run_A (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = A m c b :=
  run m ρ

/-! ## One hop back

In a line where every operation writes one buffer, each buffer at most once, and no operation reads a buffer written
at or after it (static single assignment, the order the program is printed in), the fold at an operation's result is
the operation's function of the FOLD at its operands: the operations after it leave its result alone, and the
operations from it on leave its operands alone. The side conditions are decided over the ordered list of the
written references. -/

section Hop

variable {nD : Nat} {τ : Topo} {sig : RefSig} {Val : EltTy → Type}

/-- The fold over a concatenation is the fold over the second from the fold over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Operation by operation, the one buffer each writes. -/
def Writes (ops : List (HloOp τ sig Val)) (wl : List (Ref sig .tc)) : Prop :=
  List.Forall₂ (fun op w => op.writes = {Proc.devRef (τ := τ) .tc w}) ops wl

theorem Writes.sub : ∀ {ops : List (HloOp τ sig Val)} {wl : List (Ref sig .tc)}, Writes ops wl →
    ∀ op ∈ ops, op.writes ⊆ (wl.map (Proc.devRef (τ := τ) .tc)).toFinset
  | _, _, .nil, _, h => nomatch h
  | _, _, .cons (b := w) hw h, op, hop => by
    rcases List.mem_cons.mp hop with rfl | hop
    · intro b hb
      rw [hw, Finset.mem_singleton] at hb
      subst hb
      exact List.mem_toFinset.mpr (List.mem_map.mpr ⟨w, List.mem_cons_self, rfl⟩)
    · intro b hb
      obtain ⟨y, hy, he⟩ := List.mem_map.mp (List.mem_toFinset.mp (Writes.sub h op hop hb))
      exact List.mem_toFinset.mpr (List.mem_map.mpr ⟨y, List.mem_cons_of_mem _ hy, he⟩)

/-- A reference no operation of a line writes keeps its contents through it. -/
theorem after_keep {ops : List (HloOp τ sig Val)} {wl : List (Ref sig .tc)} (h : Writes ops wl) {r : Ref sig .tc}
    (hr : r ∉ wl) (V : Valuation τ sig Val) : after ops V (Proc.devRef .tc r) = V (Proc.devRef .tc r) :=
  after_of_writes_sub ops V (List.forall_iff_forall_mem.mpr (Writes.sub h)) hr

theorem split_at {α : Type} {l : List α} {k : Nat} {x : α} (h : l[k]? = some x) : l = l.take k ++ x :: l.drop (k + 1) := by
  obtain ⟨hk, rfl⟩ := List.getElem?_eq_some_iff.mp h
  rw [← List.drop_eq_getElem_cons hk, List.take_append_drop]

/-- Around operation `k`: its result buffer, unless written later, holds the operation's result from the fold of
    the operations before it; a buffer not written from `k` on holds what that fold left. -/
theorem after_at {ops : List (HloOp τ sig Val)} {wl : List (Ref sig .tc)} (hW : Writes ops wl) {k : Nat} {op : HloOp τ sig Val}
    (hk : ops[k]? = some op) (V : Valuation τ sig Val) :
    (∀ y : Ref sig .tc, y ∉ wl.drop (k + 1) →
        after ops V (Proc.devRef .tc y) = op.result (after (ops.take k) V) (Proc.devRef .tc y))
      ∧ (∀ x : Ref sig .tc, x ∉ wl.drop k → after ops V (Proc.devRef .tc x) = after (ops.take k) V (Proc.devRef .tc x)) := by
  constructor
  · intro y hy
    conv_lhs => rw [split_at hk, after_append, after_cons]
    exact after_keep (List.forall₂_drop (k + 1) hW) hy _
  · intro x hx
    conv_lhs => rw [← List.take_append_drop k ops, after_append]
    exact after_keep (List.forall₂_drop k hW) hx _

variable {ops : List (HloOp τ sig Val)} {wl : List (Ref sig .tc)}

theorem hop_nullary (hW : Writes ops wl) (k : Nat) (y : Ref sig .tc) (v : y.ty.Contents Val) (hy)
    (hk : ops[k]? = some (nullary y v hy)) (hyw : y ∉ wl.drop (k + 1)) (V : Valuation τ sig Val) :
    after ops V (Proc.devRef .tc y) = v := by
  rw [(after_at hW hk V).1 y hyw]
  generalize after (ops.take k) V = W
  exact nullary_result y v hy W

theorem hop_unary (hW : Writes ops wl) (k : Nat) (x y : Ref sig .tc) (f : x.ty.Contents Val → y.ty.Contents Val) (hx hy)
    (hk : ops[k]? = some (unary x y f hx hy)) (hyw : y ∉ wl.drop (k + 1)) (hxw : x ∉ wl.drop k) (V : Valuation τ sig Val) :
    after ops V (Proc.devRef .tc y) = f (after ops V (Proc.devRef .tc x)) := by
  rw [(after_at hW hk V).1 y hyw, (after_at hW hk V).2 x hxw]
  generalize after (ops.take k) V = W
  exact unary_result x y f hx hy W

theorem hop_binary (hW : Writes ops wl) (k : Nat) (a b y : Ref sig .tc)
    (f : a.ty.Contents Val → b.ty.Contents Val → y.ty.Contents Val) (ha hb hy)
    (hk : ops[k]? = some (binary a b y f ha hb hy)) (hyw : y ∉ wl.drop (k + 1)) (haw : a ∉ wl.drop k) (hbw : b ∉ wl.drop k)
    (V : Valuation τ sig Val) :
    after ops V (Proc.devRef .tc y) = f (after ops V (Proc.devRef .tc a)) (after ops V (Proc.devRef .tc b)) := by
  rw [(after_at hW hk V).1 y hyw, (after_at hW hk V).2 a haw, (after_at hW hk V).2 b hbw]
  generalize after (ops.take k) V = W
  exact binary_result a b y f ha hb hy W

theorem hop_ternary (hW : Writes ops wl) (k : Nat) (c a b y : Ref sig .tc)
    (f : c.ty.Contents Val → a.ty.Contents Val → b.ty.Contents Val → y.ty.Contents Val) (hc ha hb hy)
    (hk : ops[k]? = some (ternary c a b y f hc ha hb hy)) (hyw : y ∉ wl.drop (k + 1)) (hcw : c ∉ wl.drop k)
    (haw : a ∉ wl.drop k) (hbw : b ∉ wl.drop k) (V : Valuation τ sig Val) :
    after ops V (Proc.devRef .tc y)
      = f (after ops V (Proc.devRef .tc c)) (after ops V (Proc.devRef .tc a)) (after ops V (Proc.devRef .tc b)) := by
  rw [(after_at hW hk V).1 y hyw, (after_at hW hk V).2 c hcw, (after_at hW hk V).2 a haw, (after_at hW hk V).2 b hbw]
  generalize after (ops.take k) V = W
  exact ternary_result c a b y f hc ha hb hy W

theorem hop_reshape (hW : Writes ops wl) (k : Nat) (x y : Ref sig .tc) (he : x.ty.elt = y.ty.elt)
    (hn : x.ty.shape.ShapeCasts y.ty.shape) (hx hy)
    (hk : ops[k]? = some (reshape x y he hn hx hy)) (hyw : y ∉ wl.drop (k + 1)) (hxw : x ∉ wl.drop k) (V : Valuation τ sig Val) :
    after ops V (Proc.devRef .tc y) = fun i => he ▸ shapeCast y.ty.shape (after ops V (Proc.devRef .tc x)) hn i := by
  rw [(after_at hW hk V).1 y hyw, (after_at hW hk V).2 x hxw]
  generalize after (ops.take k) V = W
  exact reshape_result x y he hn hx hy W

/-- A buffer the line never writes (an argument) keeps its launch contents. -/
theorem hop_arg (hW : Writes ops wl) (x : Ref sig .tc) (hxw : x ∉ wl) (V : Valuation τ sig Val) :
    after ops V (Proc.devRef .tc x) = V (Proc.devRef .tc x) := after_keep hW hxw V

end Hop

end Cert.ReferenceIdeal.RefRun

end
-- ==== Proof.RefRunStages.lean ====
/- What each buffer holds once the reference's @main has run, one hop back: for the result of operation k, the operation's
   pure function of what its OPERAND buffers hold at the end ('A m c', the fold of all the operations over the launch contents;
   never composed further); for an argument, its launch contents. Each by the one-hop lemma of the operation's arity: the
   operation stands at position k of the line, no later operation writes its result, and no operation from k on writes an
   operand — decided over 'wl', the references written, in order (each operation writes exactly its result: 'ops_writes'). -/
import proofs.«172352_j22454089024045_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The written references, stretch by stretch -/

abbrev wl0_0 : List (Ref sig .tc) :=
  [main_v0, main_v1, main_v2, main_v3, main_v4, main_v5, main_v6, main_cst, main_v7, main_c, main_v8, main_v9, main_c_0, main_v10, main_v11, main_v12, main_v13, main_cst_1, main_v14, main_v15, main_cst_2, main_v16, main_v17, main_v18, main_cst_3]
theorem ops0_0_writes : Writes (τ := τ) (ops0_0 : List (HloOp τ sig (Elt F))) wl0_0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))

abbrev wl0_1 : List (Ref sig .tc) :=
  [main_call0_v0, main_call0_v1, main_v19]
theorem ops0_1_writes : Writes (τ := τ) (ops0_1 : List (HloOp τ sig (Elt F))) wl0_1 :=
  .cons rfl (.cons rfl (.cons rfl (.nil)))

abbrev wl0_2 : List (Ref sig .tc) :=
  [main_c_4, main_v20, main_v21, main_c_5, main_v22, main_v23, main_v24, main_v25, main_v26, main_c_6, main_v27, main_v28, main_c_7, main_v29, main_v30, main_v31, main_v32, main_v33, main_v34, main_v35, main_c_8, main_v36, main_v37, main_c_9, main_v38, main_v39, main_v40, main_v41, main_v42, main_v43, main_v44, main_v45, main_cst_10, main_v46]
theorem ops0_2_writes : Writes (τ := τ) (ops0_2 : List (HloOp τ sig (Elt F))) wl0_2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))

abbrev wl1_0 : List (Ref sig .tc) :=
  [main_c_11, main_v47, main_v48, main_c_12, main_v49, main_v50, main_v51, main_v52, main_v53, main_v54, main_v55, main_v56]
theorem ops1_0_writes : Writes (τ := τ) (ops1_0 : List (HloOp τ sig (Elt F))) wl1_0 :=
  .cons rfl (.cons rfl (.cons rfl (.cons rfl (.cons rfl (.cons rfl (.cons rfl (.cons rfl (.cons rfl (.cons rfl (.cons rfl (.cons rfl (.nil))))))))))))

abbrev wl1_1 : List (Ref sig .tc) :=
  [main_call1_cst, main_call1_v0, main_v57]
theorem ops1_1_writes : Writes (τ := τ) (ops1_1 : List (HloOp τ sig (Elt F))) wl1_1 :=
  .cons rfl (.cons rfl (.cons rfl (.nil)))

abbrev wl1_2 : List (Ref sig .tc) :=
  [main_v58, main_v59, main_cst_13, main_v60, main_v61, main_cst_14, main_v62, main_v63, main_c_15]
theorem ops1_2_writes : Writes (τ := τ) (ops1_2 : List (HloOp τ sig (Elt F))) wl1_2 :=
  .cons rfl (.cons rfl (.cons rfl (.cons rfl (.cons rfl (.cons rfl (.cons rfl (.cons rfl (.cons rfl (.nil)))))))))

abbrev wl1_3 : List (Ref sig .tc) :=
  [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v64]
theorem ops1_3_writes : Writes (τ := τ) (ops1_3 : List (HloOp τ sig (Elt F))) wl1_3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))

abbrev wl1_4 : List (Ref sig .tc) :=
  [main_v65, main_v66, main_cst_16, main_v67, main_v68, main_v69, main_v70, main_v71, main_v72, main_v73, main_v74, main_v75, main_v76, main_v77, main_v78, main_v79, main_v80, main_c_17, main_v81, main_v82, main_c_18, main_v83, main_v84, main_v85, main_v86, main_v87, main_v88, main_v89, main_v90, main_cst_19, main_v91, main_c_20, main_v92, main_v93, main_c_21, main_v94, main_v95]
theorem ops1_4_writes : Writes (τ := τ) (ops1_4 : List (HloOp τ sig (Elt F))) wl1_4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))

abbrev wl2_0 : List (Ref sig .tc) :=
  [main_v96, main_v97, main_v98, main_v99, main_v100, main_v101]
theorem ops2_0_writes : Writes (τ := τ) (ops2_0 : List (HloOp τ sig (Elt F))) wl2_0 :=
  .cons rfl (.cons rfl (.cons rfl (.cons rfl (.cons rfl (.cons rfl (.nil))))))

abbrev wl2_1 : List (Ref sig .tc) :=
  [main_call3_cst, main_call3_v0, main_v102]
theorem ops2_1_writes : Writes (τ := τ) (ops2_1 : List (HloOp τ sig (Elt F))) wl2_1 :=
  .cons rfl (.cons rfl (.cons rfl (.nil)))

abbrev wl2_2 : List (Ref sig .tc) :=
  [main_v103, main_v104, main_cst_22, main_v105, main_v106, main_cst_23, main_v107, main_v108, main_c_24]
theorem ops2_2_writes : Writes (τ := τ) (ops2_2 : List (HloOp τ sig (Elt F))) wl2_2 :=
  .cons rfl (.cons rfl (.cons rfl (.cons rfl (.cons rfl (.cons rfl (.cons rfl (.cons rfl (.cons rfl (.nil)))))))))

abbrev wl2_3 : List (Ref sig .tc) :=
  [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v109]
theorem ops2_3_writes : Writes (τ := τ) (ops2_3 : List (HloOp τ sig (Elt F))) wl2_3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))

abbrev wl2_4 : List (Ref sig .tc) :=
  [main_v110, main_v111, main_cst_25, main_v112, main_v113, main_v114, main_v115, main_v116, main_v117, main_v118, main_v119, main_v120, main_v121, main_v122, main_v123, main_v124, main_v125, main_c_26, main_v126, main_v127, main_c_27, main_v128, main_v129, main_v130, main_v131, main_v132, main_v133, main_v134, main_v135, main_cst_28, main_v136, main_c_29, main_v137, main_v138, main_c_30, main_v139, main_v140, main_v141, main_v142, main_v143, main_v144, main_v145, main_v146]
theorem ops2_4_writes : Writes (τ := τ) (ops2_4 : List (HloOp τ sig (Elt F))) wl2_4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))

/-- The buffers @main's operations write, in order. -/
abbrev wl : List (Ref sig .tc) :=
  List.flatten [wl0_0, wl0_1, wl0_2, wl1_0, wl1_1, wl1_2, wl1_3, wl1_4, wl2_0, wl2_1, wl2_2, wl2_3, wl2_4]

/-- Operation by operation, @main writes exactly these. -/
theorem ops_writes : Writes (τ := τ) (ops : List (HloOp τ sig (Elt F))) wl :=
  List.rel_flatten (.cons ops0_0_writes (.cons ops0_1_writes (.cons ops0_2_writes (.cons ops1_0_writes (.cons ops1_1_writes (.cons ops1_2_writes (.cons ops1_3_writes (.cons ops1_4_writes (.cons ops2_0_writes (.cons ops2_1_writes (.cons ops2_2_writes (.cons ops2_3_writes (.cons ops2_4_writes (.nil))))))))))))))

/-! ## The arguments -/

theorem st_main_arg0 (m : (ℓ : Loc nD τ sig) → Buf (Elt F) ℓ) (c : Dev nD) :
    A m c main_arg0 = m ((c.tc : Thread nD τ).loc main_arg0) := by
  unfold A; exact hop_arg ops_writes main_arg0 (by decide) _

theorem st_main_arg1 (m : (ℓ : Loc nD τ sig) → Buf (Elt F) ℓ) (c : Dev nD) :
    A m c main_arg1 = m ((c.tc : Thread nD τ).loc main_arg1) := by
  unfold A; exact hop_arg ops_writes main_arg1 (by decide) _

theorem st_main_arg2 (m : (ℓ : Loc nD τ sig) → Buf (Elt F) ℓ) (c : Dev nD) :
    A m c main_arg2 = m ((c.tc : Thread nD τ).loc main_arg2) := by
  unfold A; exact hop_arg ops_writes main_arg2 (by decide) _

theorem st_main_arg3 (m : (ℓ : Loc nD τ sig) → Buf (Elt F) ℓ) (c : Dev nD) :
    A m c main_arg3 = m ((c.tc : Thread nD τ).loc main_arg3) := by
  unfold A; exact hop_arg ops_writes main_arg3 (by decide) _

theorem st_main_arg4 (m : (ℓ : Loc nD τ sig) → Buf (Elt F) ℓ) (c : Dev nD) :
    A m c main_arg4 = m ((c.tc : Thread nD τ).loc main_arg4) := by
  unfold A; exact hop_arg ops_writes main_arg4 (by decide) _

theorem st_main_arg5 (m : (ℓ : Loc nD τ sig) → Buf (Elt F) ℓ) (c : Dev nD) :
    A m c main_arg5 = m ((c.tc : Thread nD τ).loc main_arg5) := by
  unfold A; exact hop_arg ops_writes main_arg5 (by decide) _

theorem st_main_arg6 (m : (ℓ : Loc nD τ sig) → Buf (Elt F) ℓ) (c : Dev nD) :
    A m c main_arg6 = m ((c.tc : Thread nD τ).loc main_arg6) := by
  unfold A; exact hop_arg ops_writes main_arg6 (by decide) _

theorem st_main_arg7 (m : (ℓ : Loc nD τ sig) → Buf (Elt F) ℓ) (c : Dev nD) :
    A m c main_arg7 = m ((c.tc : Thread nD τ).loc main_arg7) := by
  unfold A; exact hop_arg ops_writes main_arg7 (by decide) _

theorem st_main_arg8 (m : (ℓ : Loc nD τ sig) → Buf (Elt F) ℓ) (c : Dev nD) :
    A m c main_arg8 = m ((c.tc : Thread nD τ).loc main_arg8) := by
  unfold A; exact hop_arg ops_writes main_arg8 (by decide) _

theorem st_main_arg9 (m : (ℓ : Loc nD τ sig) → Buf (Elt F) ℓ) (c : Dev nD) :
    A m c main_arg9 = m ((c.tc : Thread nD τ).loc main_arg9) := by
  unfold A; exact hop_arg ops_writes main_arg9 (by decide) _

theorem st_main_arg10 (m : (ℓ : Loc nD τ sig) → Buf (Elt F) ℓ) (c : Dev nD) :
    A m c main_arg10 = m ((c.tc : Thread nD τ).loc main_arg10) := by
  unfold A; exact hop_arg ops_writes main_arg10 (by decide) _

theorem st_main_arg11 (m : (ℓ : Loc nD τ sig) → Buf (Elt F) ℓ) (c : Dev nD) :
    A m c main_arg11 = m ((c.tc : Thread nD τ).loc main_arg11) := by
  unfold A; exact hop_arg ops_writes main_arg11 (by decide) _

/-! ## The results, in program order -/

theorem st_main_v0 (m : (ℓ : Loc nD τ sig) → Buf (Elt F) ℓ) (c : Dev nD) :
    A m c main_v0 = (iotaInDim S50000 32 0 : (⟨S50000, .i32⟩ : BufTy).Contents (Elt F)) := by
  unfold A; exact hop_nullary ops_writes 0 main_v0 _ _ rfl (by decide) _

theorem st_main_v1 (m : (ℓ : Loc nD τ sig) → Buf (Elt F) ℓ) (c : Dev nD) :
    A m c main_v1 = beta% ((extractStridedSlice S1x800000 ![0, 0] · slices_S2x800000_S1x800000_0_0) : (⟨S2x800000, .i32⟩ : BufTy).Contents (Elt F) → (⟨S1x800000, .i32⟩ : BufTy).Contents (Elt F)) (A m c main_arg11) := by
  unfold A; exact hop_unary ops_writes 1 main_arg11 main_v1 _ _ _ rfl (by decide) (by decide) _

theorem st_main_v2 (m : (ℓ : Loc nD τ sig) → Buf (Elt F) ℓ) (c : Dev nD) :
    A m c main_v2 = beta% (fun v => shapeCast S800000 v shapeCasts_S1x800000_S800000 : (⟨S1x800000, .i32⟩ : BufTy).Contents (Elt F) → (⟨S800000, .i32⟩ : BufTy).Contents (Elt F)) (A m c main_v1) := by
  unfold A; exact hop_reshape ops_writes 2 main_v1 main_v2 _ _ _ _ rfl (by decide) (by decide) _

theorem st_main_v3 (m : (ℓ : Loc nD τ sig) → Buf (Elt F) ℓ) (c : Dev nD) :
    A m c main_v3 = beta% ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) (A m c main_v2) (A m c main_v0) := by
  unfold A; exact hop_binary ops_writes 3 main_v2 main_v0 main_v3 _ _ _ _ rfl (by decide) (by decide) (by decide) _

theorem st_main_v4 (m : (ℓ : Loc nD τ sig) → Buf (Elt F) ℓ) (c : Dev nD) :
    A m c main_v4 = beta% ((extractStridedSlice S1x800000 ![1, 0] · slices_S2x800000_S1x800000_1_0) : (⟨S2x800000, .i32⟩ : BufTy).Contents (Elt F) → (⟨S1x800000, .i32⟩ : BufTy).Contents (Elt F)) (A m c main_arg11) := by
  unfold A; exact hop_unary ops_writes 4 main_arg11 main_v4 _ _ _ rfl (by decide) (by decide) _

theorem st_main_v5 (m : (ℓ : Loc nD τ sig) → Buf (Elt F) ℓ) (c : Dev nD) :
    A m c main_v5 = beta% (fun v => shapeCast S800000 v shapeCasts_S1x800000_S800000 : (⟨S1x800000, .i32⟩ : BufTy).Contents (Elt F) → (⟨S800000, .i32⟩ : BufTy).Contents (Elt F)) (A m c main_v4) := by
  unfold A; exact hop_reshape ops_writes 5 main_v4 main_v5 _ _ _ _ rfl (by decide) (by decide) _

theorem st_main_v6 (m : (ℓ : Loc nD τ sig) → Buf (Elt F) ℓ) (c : Dev nD) :
    A m c main_v6 = beta% ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) (A m c main_v5) (A m c main_v0) := by
  unfold A; exact hop_binary ops_writes 6 main_v5 main_v0 main_v6 _ _ _ _ rfl (by decide) (by decide) (by decide) _

theorem st_main_cst (m : (ℓ : Loc nD τ sig) → Buf (Elt F) ℓ) (c : Dev nD) :
    A m c main_cst = (constant S_ .f32 0x00000000#32 : (⟨S_, .f32⟩ : BufTy).Contents (Elt F)) := by
  unfold A; exact hop_nullary ops_writes 7 main_cst _ _ rfl (by decide) _

theorem st_main_v7 (m : (ℓ : Loc nD τ sig) → Buf (Elt F) ℓ) (c : Dev nD) :
    A m c main_v7 = beta% (broadcastInDim S50000 ![] bcast_S_S50000 : (⟨S_, .f32⟩ : BufTy).Contents (Elt F) → (⟨S50000, .f32⟩ : BufTy).Contents (Elt F)) (A m c main_cst) := by
  unfold A; exact hop_unary ops_writes 8 main_cst main_v7 _ _ _ rfl (by decide) (by decide) _

theorem st_main_c (m : (ℓ : Loc nD τ sig) → Buf (Elt F) ℓ) (c : Dev nD) :
    A m c main_c = (constantI S_ 32 0#32 : (⟨S_, .i32⟩ : BufTy).Contents (Elt F)) := by
  unfold A; exact hop_nullary ops_writes 9 main_c _ _ rfl (by decide) _

theorem st_main_v8 (m : (ℓ : Loc nD τ sig) → Buf (Elt F) ℓ) (c : Dev nD) :
    A m c main_v8 = beta% (broadcastInDim S850000 ![] bcast_S_S850000 : (⟨S_, .i32⟩ : BufTy).Contents (Elt F) → (⟨S850000, .i32⟩ : BufTy).Contents (Elt F)) (A m c main_c) := by
  unfold A; exact hop_unary ops_writes 10 main_c main_v8 _ _ _ rfl (by decide) (by decide) _

theorem st_main_v9 (m : (ℓ : Loc nD τ sig) → Buf (Elt F) ℓ) (c : Dev nD) :
    A m c main_v9 = beta% (cmpi .slt : (⟨S850000, .i32⟩ : BufTy).Contents (Elt F) → (⟨S850000, .i32⟩ : BufTy).Contents (Elt F) → (⟨S850000, .i1⟩ : BufTy).Contents (Elt F)) (A m c main_v6) (A m c main_v8) := by
  unfold A; exact hop_binary ops_writes 11 main_v6 main_v8 main_v9 _ _ _ _ rfl (by decide) (by decide) (by decide) _

theorem st_main_c_0 (m : (ℓ : Loc nD τ sig) → Buf (Elt F) ℓ) (c : Dev nD) :
    A m c main_c_0 = (constantI S_ 32 50000#32 : (⟨S_, .i32⟩ : BufTy).Contents (Elt F)) := by
  unfold A; exact hop_nullary ops_writes 12 main_c_0 _ _ rfl (by decide) _

theorem st_main_v10 (m : (ℓ : Loc nD τ sig) → Buf (Elt F) ℓ) (c : Dev nD) :
    A m c main_v10 = beta% (broadcastInDim S850000 ![] bcast_S_S850000 : (⟨S_, .i32⟩ : BufTy).Contents (Elt F) → (⟨S850000, .i32⟩ : BufTy).Contents (Elt F)) (A m c main_c_0) := by
  unfold A; exact hop_unary ops_writes 13 main_c_0 main_v10 _ _ _ rfl (by decide) (by decide) _

theorem st_main_v11 (m : (ℓ : Loc nD τ sig) → Buf (Elt F) ℓ) (c : Dev nD) :
    A m c main_v11 = beta% (addi : (⟨S850000, .i32⟩ : BufTy).Contents (Elt F) → (⟨S850000, .i32⟩ : BufTy).Contents (Elt F) → (⟨S850000, .i32⟩ : BufTy).Contents (Elt F)) (A m c main_v6) (A m c main_v10) := by
  unfold A; exact hop_binary ops_writes 14 main_v6 main_v10 main_v11 _ _ _ _ rfl (by decide) (by decide) (by decide) _

theorem st_main_v12 (m : (ℓ : Loc nD τ sig) → Buf (Elt F) ℓ) (c : Dev nD) :
    A m c main_v12 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A m c main_v9) (A m c main_v11) (A m c main_v6) := by
  unfold A; exact hop_ternary ops_writes 15 main_v9 main_v11 main_v6 main_v12 _ _ _ _ _ rfl (by decide) (by decide) (by decide) (by decide) _

theorem st_main_v13 (m : (ℓ : Loc nD τ sig) → Buf (Elt F) ℓ) (c : Dev nD) :
    A m c main_v13 = beta% (broadcastInDim S850000x1 ![0] bcast_S850000_S850000x1_0 : (⟨S850000, .i32⟩ : BufTy).Contents (Elt F) → (⟨S850000x1, .i32⟩ : BufTy).Contents (Elt F)) (A m c main_v12) := by
  unfold A; exact hop_unary ops_writes 16 main_v12 main_v13 _ _ _ rfl (by decide) (by decide) _

theorem st_main_cst_1 (m : (ℓ : Loc nD τ sig) → Buf (Elt F) ℓ) (c : Dev nD) :
    A m c main_cst_1 = (constant S_ .f32 0x3F800000#32 : (⟨S_, .f32⟩ : BufTy).Contents (Elt F)) := by
  unfold A; exact hop_nullary ops_writes 17 main_cst_1 _ _ rfl (by decide) _

theorem st_main_v14 (m : (ℓ : Loc nD τ sig) → Buf (Elt F) ℓ) (c : Dev nD) :
    A m c main_v14 = beta% (broadcastInDim S850000 ![] bcast_S_S850000 : (⟨S_, .f32⟩ : BufTy).Contents (Elt F) → (⟨S850000, .f32⟩ : BufTy).Contents (Elt F)) (A m c main_cst_1) := by
  unfold A; exact hop_unary ops_writes 18 main_cst_1 main_v14 _ _ _ rfl (by decide) (by decide) _

theorem st_main_v15 (m : (ℓ : Loc nD τ sig) → Buf (Elt F) ℓ) (c : Dev nD) :
    A m c main_v15 = beta% ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) (A m c main_v7) (A m c main_v13) (A m c main_v14) := by
  unfold A; exact hop_ternary ops_writes 19 main_v7 main_v13 main_v14 main_v15 _ _ _ _ _ rfl (by decide) (by decide) (by decide) (by decide) _

theorem st_main_cst_2 (m : (ℓ : Loc nD τ sig) → Buf (Elt F) ℓ) (c : Dev nD) :
    A m c main_cst_2 = (constant S_ .f32 0x00000000#32 : (⟨S_, .f32⟩ : BufTy).Contents (Elt F)) := by
  unfold A; exact hop_nullary ops_writes 20 main_cst_2 _ _ rfl (by decide) _

theorem st_main_v16 (m : (ℓ : Loc nD τ sig) → Buf (Elt F) ℓ) (c : Dev nD) :
    A m c main_v16 = beta% (broadcastInDim S50000 ![] bcast_S_S50000 : (⟨S_, .f32⟩ : BufTy).Contents (Elt F) → (⟨S50000, .f32⟩ : BufTy).Contents (Elt F)) (A m c main_cst_2) := by
  unfold A; exact hop_unary ops_writes 21 main_cst_2 main_v16 _ _ _ rfl (by decide) (by decide) _

theorem st_main_v17 (m : (ℓ : Loc nD τ sig) → Buf (Elt F) ℓ) (c : Dev nD) :
    A m c main_v17 = beta% (cmpf .ogt : (⟨S50000, .f32⟩ : BufTy).Contents (Elt F) → (⟨S50000, .f32⟩ : BufTy).Contents (Elt F) → (⟨S50000, .i1⟩ : BufTy).Contents (Elt F)) (A m c main_v15) (A m c main_v16) := by
  unfold A; exact hop_binary ops_writes 22 main_v15 main_v16 main_v17 _ _ _ _ rfl (by decide) (by decide) (by decide) _

theorem st_main_v18 (m : (ℓ : Loc nD τ sig) → Buf (Elt F) ℓ) (c : Dev nD) :
    A m c main_v18 = beta% (Host.rsqrt : (⟨S50000, .f32⟩ : BufTy).Contents (Elt F) → (⟨S50000, .f32⟩ : BufTy).Contents (Elt F)) (A m c main_v15) := by
  unfold A; exact hop_unary ops_writes 23 main_v15 main_v18 _ _ _ rfl (by decide) (by decide) _

theorem st_main_cst_3 (m : (ℓ : Loc nD τ sig) → Buf (Elt F) ℓ) (c : Dev nD) :
    A m c main_cst_3 = (constant S_ .f32 0x00000000#32 : (⟨S_, .f32⟩ : BufTy).Contents (Elt F)) := by
  unfold A; exact hop_nullary ops_writes 24 main_cst_3 _ _ rfl (by decide) _

theorem st_main_call0_v0 (m : (ℓ : Loc nD τ sig) → Buf (Elt F) ℓ) (c : Dev nD) :
    A m c main_call0_v0 = (A m c main_cst_3) := by
  unfold A; exact hop_unary ops_writes 25 main_cst_3 main_call0_v0 _ _ _ rfl (by decide) (by decide) _

theorem st_main_call0_v1 (m : (ℓ : Loc nD τ sig) → Buf (Elt F) ℓ) (c : Dev nD) :
    A m c main_call0_v1 = beta% (broadcastInDim S50000 ![] bcast_S_S50000 : (⟨S_, .f32⟩ : BufTy).Contents (Elt F) → (⟨S50000, .f32⟩ : BufTy).Contents (Elt F)) (A m c main_call0_v0) := by
  unfold A; exact hop_unary ops_writes 26 main_call0_v0 main_call0_v1 _ _ _ rfl (by decide) (by decide) _

theorem st_main_v19 (m : (ℓ : Loc nD τ sig) → Buf (Elt F) ℓ) (c : Dev nD) :
    A m c main_v19 = beta% (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) (A m c main_v17) (A m c main_v18) (A m c main_call0_v1) := by
  unfold A; exact hop_ternary ops_writes 27 main_v17 main_v18 main_call0_v1 main_v19 _ _ _ _ _ rfl (by decide) (by decide) (by decide) (by decide) _

theorem st_main_c_4 (m : (ℓ : Loc nD τ sig) → Buf (Elt F) ℓ) (c : Dev nD) :
    A m c main_c_4 = (constantI S_ 32 0#32 : (⟨S_, .i32⟩ : BufTy).Contents (Elt F)) := by
  unfold A; exact hop_nullary ops_writes 28 main_c_4 _ _ rfl (by decide) _

theorem st_main_v20 (m : (ℓ : Loc nD τ sig) → Buf (Elt F) ℓ) (c : Dev nD) :
    A m c main_v20 = beta% (broadcastInDim S850000 ![] bcast_S_S850000 : (⟨S_, .i32⟩ : BufTy).Contents (Elt F) → (⟨S850000, .i32⟩ : BufTy).Contents (Elt F)) (A m c main_c_4) := by
  unfold A; exact hop_unary ops_writes 29 main_c_4 main_v20 _ _ _ rfl (by decide) (by decide) _

theorem st_main_v21 (m : (ℓ : Loc nD τ sig) → Buf (Elt F) ℓ) (c : Dev nD) :
    A m c main_v21 = beta% (cmpi .slt : (⟨S850000, .i32⟩ : BufTy).Contents (Elt F) → (⟨S850000, .i32⟩ : BufTy).Contents (Elt F) → (⟨S850000, .i1⟩ : BufTy).Contents (Elt F)) (A m c main_v3) (A m c main_v20) := by
  unfold A; exact hop_binary ops_writes 30 main_v3 main_v20 main_v21 _ _ _ _ rfl (by decide) (by decide) (by decide) _

theorem st_main_c_5 (m : (ℓ : Loc nD τ sig) → Buf (Elt F) ℓ) (c : Dev nD) :
    A m c main_c_5 = (constantI S_ 32 50000#32 : (⟨S_, .i32⟩ : BufTy).Contents (Elt F)) := by
  unfold A; exact hop_nullary ops_writes 31 main_c_5 _ _ rfl (by decide) _

theorem st_main_v22 (m : (ℓ : Loc nD τ sig) → Buf (Elt F) ℓ) (c : Dev nD) :
    A m c main_v22 = beta% (broadcastInDim S850000 ![] bcast_S_S850000 : (⟨S_, .i32⟩ : BufTy).Contents (Elt F) → (⟨S850000, .i32⟩ : BufTy).Contents (Elt F)) (A m c main_c_5) := by
  unfold A; exact hop_unary ops_writes 32 main_c_5 main_v22 _ _ _ rfl (by decide) (by decide) _

theorem st_main_v23 (m : (ℓ : Loc nD τ sig) → Buf (Elt F) ℓ) (c : Dev nD) :
    A m c main_v23 = beta% (addi : (⟨S850000, .i32⟩ : BufTy).Contents (Elt F) → (⟨S850000, .i32⟩ : BufTy).Contents (Elt F) → (⟨S850000, .i32⟩ : BufTy).Contents (Elt F)) (A m c main_v3) (A m c main_v22) := by
  unfold A; exact hop_binary ops_writes 33 main_v3 main_v22 main_v23 _ _ _ _ rfl (by decide) (by decide) (by decide) _

theorem st_main_v24 (m : (ℓ : Loc nD τ sig) → Buf (Elt F) ℓ) (c : Dev nD) :
    A m c main_v24 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A m c main_v21) (A m c main_v23) (A m c main_v3) := by
  unfold A; exact hop_ternary ops_writes 34 main_v21 main_v23 main_v3 main_v24 _ _ _ _ _ rfl (by decide) (by decide) (by decide) (by decide) _

theorem st_main_v25 (m : (ℓ : Loc nD τ sig) → Buf (Elt F) ℓ) (c : Dev nD) :
    A m c main_v25 = beta% (broadcastInDim S850000x1 ![0] bcast_S850000_S850000x1_0 : (⟨S850000, .i32⟩ : BufTy).Contents (Elt F) → (⟨S850000x1, .i32⟩ : BufTy).Contents (Elt F)) (A m c main_v24) := by
  unfold A; exact hop_unary ops_writes 35 main_v24 main_v25 _ _ _ rfl (by decide) (by decide) _

theorem st_main_v26 (m : (ℓ : Loc nD τ sig) → Buf (Elt F) ℓ) (c : Dev nD) :
    A m c main_v26 = beta% ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (A m c main_v19) (A m c main_v25) := by
  unfold A; exact hop_binary ops_writes 36 main_v19 main_v25 main_v26 _ _ _ _ rfl (by decide) (by decide) (by decide) _

theorem st_main_c_6 (m : (ℓ : Loc nD τ sig) → Buf (Elt F) ℓ) (c : Dev nD) :
    A m c main_c_6 = (constantI S_ 32 0#32 : (⟨S_, .i32⟩ : BufTy).Contents (Elt F)) := by
  unfold A; exact hop_nullary ops_writes 37 main_c_6 _ _ rfl (by decide) _

theorem st_main_v27 (m : (ℓ : Loc nD τ sig) → Buf (Elt F) ℓ) (c : Dev nD) :
    A m c main_v27 = beta% (broadcastInDim S850000 ![] bcast_S_S850000 : (⟨S_, .i32⟩ : BufTy).Contents (Elt F) → (⟨S850000, .i32⟩ : BufTy).Contents (Elt F)) (A m c main_c_6) := by
  unfold A; exact hop_unary ops_writes 38 main_c_6 main_v27 _ _ _ rfl (by decide) (by decide) _

theorem st_main_v28 (m : (ℓ : Loc nD τ sig) → Buf (Elt F) ℓ) (c : Dev nD) :
    A m c main_v28 = beta% (cmpi .slt : (⟨S850000, .i32⟩ : BufTy).Contents (Elt F) → (⟨S850000, .i32⟩ : BufTy).Contents (Elt F) → (⟨S850000, .i1⟩ : BufTy).Contents (Elt F)) (A m c main_v6) (A m c main_v27) := by
  unfold A; exact hop_binary ops_writes 39 main_v6 main_v27 main_v28 _ _ _ _ rfl (by decide) (by decide) (by decide) _

theorem st_main_c_7 (m : (ℓ : Loc nD τ sig) → Buf (Elt F) ℓ) (c : Dev nD) :
    A m c main_c_7 = (constantI S_ 32 50000#32 : (⟨S_, .i32⟩ : BufTy).Contents (Elt F)) := by
  unfold A; exact hop_nullary ops_writes 40 main_c_7 _ _ rfl (by decide) _

theorem st_main_v29 (m : (ℓ : Loc nD τ sig) → Buf (Elt F) ℓ) (c : Dev nD) :
    A m c main_v29 = beta% (broadcastInDim S850000 ![] bcast_S_S850000 : (⟨S_, .i32⟩ : BufTy).Contents (Elt F) → (⟨S850000, .i32⟩ : BufTy).Contents (Elt F)) (A m c main_c_7) := by
  unfold A; exact hop_unary ops_writes 41 main_c_7 main_v29 _ _ _ rfl (by decide) (by decide) _

theorem st_main_v30 (m : (ℓ : Loc nD τ sig) → Buf (Elt F) ℓ) (c : Dev nD) :
    A m c main_v30 = beta% (addi : (⟨S850000, .i32⟩ : BufTy).Contents (Elt F) → (⟨S850000, .i32⟩ : BufTy).Contents (Elt F) → (⟨S850000, .i32⟩ : BufTy).Contents (Elt F)) (A m c main_v6) (A m c main_v29) := by
  unfold A; exact hop_binary ops_writes 42 main_v6 main_v29 main_v30 _ _ _ _ rfl (by decide) (by decide) (by decide) _

theorem st_main_v31 (m : (ℓ : Loc nD τ sig) → Buf (Elt F) ℓ) (c : Dev nD) :
    A m c main_v31 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A m c main_v28) (A m c main_v30) (A m c main_v6) := by
  unfold A; exact hop_ternary ops_writes 43 main_v28 main_v30 main_v6 main_v31 _ _ _ _ _ rfl (by decide) (by decide) (by decide) (by decide) _

theorem st_main_v32 (m : (ℓ : Loc nD τ sig) → Buf (Elt F) ℓ) (c : Dev nD) :
    A m c main_v32 = beta% (broadcastInDim S850000x1 ![0] bcast_S850000_S850000x1_0 : (⟨S850000, .i32⟩ : BufTy).Contents (Elt F) → (⟨S850000x1, .i32⟩ : BufTy).Contents (Elt F)) (A m c main_v31) := by
  unfold A; exact hop_unary ops_writes 44 main_v31 main_v32 _ _ _ rfl (by decide) (by decide) _

theorem st_main_v33 (m : (ℓ : Loc nD τ sig) → Buf (Elt F) ℓ) (c : Dev nD) :
    A m c main_v33 = beta% ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (A m c main_v19) (A m c main_v32) := by
  unfold A; exact hop_binary ops_writes 45 main_v19 main_v32 main_v33 _ _ _ _ rfl (by decide) (by decide) (by decide) _

theorem st_main_v34 (m : (ℓ : Loc nD τ sig) → Buf (Elt F) ℓ) (c : Dev nD) :
    A m c main_v34 = beta% (mulf : (⟨S850000, .f32⟩ : BufTy).Contents (Elt F) → (⟨S850000, .f32⟩ : BufTy).Contents (Elt F) → (⟨S850000, .f32⟩ : BufTy).Contents (Elt F)) (A m c main_v26) (A m c main_v33) := by
  unfold A; exact hop_binary ops_writes 46 main_v26 main_v33 main_v34 _ _ _ _ rfl (by decide) (by decide) (by decide) _

theorem st_main_v35 (m : (ℓ : Loc nD τ sig) → Buf (Elt F) ℓ) (c : Dev nD) :
    A m c main_v35 = beta% ((fun l r => Host.dotGeneral dot_S1x2x50000x216_S216x64_S1x2x50000x64_3_0_012_1_n_n none l r) : (⟨S1x2x50000x216, .f32⟩ : BufTy).Contents (Elt F) → (⟨S216x64, .f32⟩ : BufTy).Contents (Elt F) → (⟨S1x2x50000x64, .f32⟩ : BufTy).Contents (Elt F)) (A m c main_arg0) (A m c main_arg1) := by
  unfold A; exact hop_binary ops_writes 47 main_arg0 main_arg1 main_v35 _ _ _ _ rfl (by decide) (by decide) (by decide) _

theorem st_main_c_8 (m : (ℓ : Loc nD τ sig) → Buf (Elt F) ℓ) (c : Dev nD) :
    A m c main_c_8 = (constantI S_ 32 0#32 : (⟨S_, .i32⟩ : BufTy).Contents (Elt F)) := by
  unfold A; exact hop_nullary ops_writes 48 main_c_8 _ _ rfl (by decide) _

theorem st_main_v36 (m : (ℓ : Loc nD τ sig) → Buf (Elt F) ℓ) (c : Dev nD) :
    A m c main_v36 = beta% (broadcastInDim S850000 ![] bcast_S_S850000 : (⟨S_, .i32⟩ : BufTy).Contents (Elt F) → (⟨S850000, .i32⟩ : BufTy).Contents (Elt F)) (A m c main_c_8) := by
  unfold A; exact hop_unary ops_writes 49 main_c_8 main_v36 _ _ _ rfl (by decide) (by decide) _

theorem st_main_v37 (m : (ℓ : Loc nD τ sig) → Buf (Elt F) ℓ) (c : Dev nD) :
    A m c main_v37 = beta% (cmpi .slt : (⟨S850000, .i32⟩ : BufTy).Contents (Elt F) → (⟨S850000, .i32⟩ : BufTy).Contents (Elt F) → (⟨S850000, .i1⟩ : BufTy).Contents (Elt F)) (A m c main_v3) (A m c main_v36) := by
  unfold A; exact hop_binary ops_writes 50 main_v3 main_v36 main_v37 _ _ _ _ rfl (by decide) (by decide) (by decide) _

theorem st_main_c_9 (m : (ℓ : Loc nD τ sig) → Buf (Elt F) ℓ) (c : Dev nD) :
    A m c main_c_9 = (constantI S_ 32 50000#32 : (⟨S_, .i32⟩ : BufTy).Contents (Elt F)) := by
  unfold A; exact hop_nullary ops_writes 51 main_c_9 _ _ rfl (by decide) _

theorem st_main_v38 (m : (ℓ : Loc nD τ sig) → Buf (Elt F) ℓ) (c : Dev nD) :
    A m c main_v38 = beta% (broadcastInDim S850000 ![] bcast_S_S850000 : (⟨S_, .i32⟩ : BufTy).Contents (Elt F) → (⟨S850000, .i32⟩ : BufTy).Contents (Elt F)) (A m c main_c_9) := by
  unfold A; exact hop_unary ops_writes 52 main_c_9 main_v38 _ _ _ rfl (by decide) (by decide) _

theorem st_main_v39 (m : (ℓ : Loc nD τ sig) → Buf (Elt F) ℓ) (c : Dev nD) :
    A m c main_v39 = beta% (addi : (⟨S850000, .i32⟩ : BufTy).Contents (Elt F) → (⟨S850000, .i32⟩ : BufTy).Contents (Elt F) → (⟨S850000, .i32⟩ : BufTy).Contents (Elt F)) (A m c main_v3) (A m c main_v38) := by
  unfold A; exact hop_binary ops_writes 53 main_v3 main_v38 main_v39 _ _ _ _ rfl (by decide) (by decide) (by decide) _

theorem st_main_v40 (m : (ℓ : Loc nD τ sig) → Buf (Elt F) ℓ) (c : Dev nD) :
    A m c main_v40 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A m c main_v37) (A m c main_v39) (A m c main_v3) := by
  unfold A; exact hop_ternary ops_writes 54 main_v37 main_v39 main_v3 main_v40 _ _ _ _ _ rfl (by decide) (by decide) (by decide) (by decide) _

theorem st_main_v41 (m : (ℓ : Loc nD τ sig) → Buf (Elt F) ℓ) (c : Dev nD) :
    A m c main_v41 = beta% (broadcastInDim S850000x1 ![0] bcast_S850000_S850000x1_0 : (⟨S850000, .i32⟩ : BufTy).Contents (Elt F) → (⟨S850000x1, .i32⟩ : BufTy).Contents (Elt F)) (A m c main_v40) := by
  unfold A; exact hop_unary ops_writes 55 main_v40 main_v41 _ _ _ rfl (by decide) (by decide) _

theorem st_main_v42 (m : (ℓ : Loc nD τ sig) → Buf (Elt F) ℓ) (c : Dev nD) :
    A m c main_v42 = beta% ((fun x i => Host.gather gather_S1x2x50000x64_S850000x1_S1x2x850000x64_013_2_n_n_2_1_12164 x i) : (⟨S1x2x50000x64, .f32⟩ : BufTy).Contents (Elt F) → (⟨S850000x1, .i32⟩ : BufTy).Contents (Elt F) → (⟨S1x2x850000x64, .f32⟩ : BufTy).Contents (Elt F)) (A m c main_v35) (A m c main_v41) := by
  unfold A; exact hop_binary ops_writes 56 main_v35 main_v41 main_v42 _ _ _ _ rfl (by decide) (by decide) (by decide) _

theorem st_main_v43 (m : (ℓ : Loc nD τ sig) → Buf (Elt F) ℓ) (c : Dev nD) :
    A m c main_v43 = beta% (broadcastInDim S1x1x850000x1 ![2] bcast_S850000_S1x1x850000x1_2 : (⟨S850000, .f32⟩ : BufTy).Contents (Elt F) → (⟨S1x1x850000x1, .f32⟩ : BufTy).Contents (Elt F)) (A m c main_v34) := by
  unfold A; exact hop_unary ops_writes 57 main_v34 main_v43 _ _ _ rfl (by decide) (by decide) _

theorem st_main_v44 (m : (ℓ : Loc nD τ sig) → Buf (Elt F) ℓ) (c : Dev nD) :
    A m c main_v44 = beta% (broadcastInDim S1x2x850000x64 ![0, 1, 2, 3] bcast_S1x1x850000x1_S1x2x850000x64_0_1_2_3 : (⟨S1x1x850000x1, .f32⟩ : BufTy).Contents (Elt F) → (⟨S1x2x850000x64, .f32⟩ : BufTy).Contents (Elt F)) (A m c main_v43) := by
  unfold A; exact hop_unary ops_writes 58 main_v43 main_v44 _ _ _ rfl (by decide) (by decide) _

theorem st_main_v45 (m : (ℓ : Loc nD τ sig) → Buf (Elt F) ℓ) (c : Dev nD) :
    A m c main_v45 = beta% (mulf : (⟨S1x2x850000x64, .f32⟩ : BufTy).Contents (Elt F) → (⟨S1x2x850000x64, .f32⟩ : BufTy).Contents (Elt F) → (⟨S1x2x850000x64, .f32⟩ : BufTy).Contents (Elt F)) (A m c main_v42) (A m c main_v44) := by
  unfold A; exact hop_binary ops_writes 59 main_v42 main_v44 main_v45 _ _ _ _ rfl (by decide) (by decide) (by decide) _

theorem st_main_cst_10 (m : (ℓ : Loc nD τ sig) → Buf (Elt F) ℓ) (c : Dev nD) :
    A m c main_cst_10 = (constant S_ .f32 0x00000000#32 : (⟨S_, .f32⟩ : BufTy).Contents (Elt F)) := by
  unfold A; exact hop_nullary ops_writes 60 main_cst_10 _ _ rfl (by decide) _

theorem st_main_v46 (m : (ℓ : Loc nD τ sig) → Buf (Elt F) ℓ) (c : Dev nD) :
    A m c main_v46 = beta% (broadcastInDim S1x2x50000x64 ![] bcast_S_S1x2x50000x64 : (⟨S_, .f32⟩ : BufTy).Contents (Elt F) → (⟨S1x2x50000x64, .f32⟩ : BufTy).Contents (Elt F)) (A m c main_cst_10) := by
  unfold A; exact hop_unary ops_writes 61 main_cst_10 main_v46 _ _ _ rfl (by decide) (by decide) _

theorem st_main_c_11 (m : (ℓ : Loc nD τ sig) → Buf (Elt F) ℓ) (c : Dev nD) :
    A m c main_c_11 = (constantI S_ 32 0#32 : (⟨S_, .i32⟩ : BufTy).Contents (Elt F)) := by
  unfold A; exact hop_nullary ops_writes 62 main_c_11 _ _ rfl (by decide) _

theorem st_main_v47 (m : (ℓ : Loc nD τ sig) → Buf (Elt F) ℓ) (c : Dev nD) :
    A m c main_v47 = beta% (broadcastInDim S850000 ![] bcast_S_S850000 : (⟨S_, .i32⟩ : BufTy).Contents (Elt F) → (⟨S850000, .i32⟩ : BufTy).Contents (Elt F)) (A m c main_c_11) := by
  unfold A; exact hop_unary ops_writes 63 main_c_11 main_v47 _ _ _ rfl (by decide) (by decide) _

theorem st_main_v48 (m : (ℓ : Loc nD τ sig) → Buf (Elt F) ℓ) (c : Dev nD) :
    A m c main_v48 = beta% (cmpi .slt : (⟨S850000, .i32⟩ : BufTy).Contents (Elt F) → (⟨S850000, .i32⟩ : BufTy).Contents (Elt F) → (⟨S850000, .i1⟩ : BufTy).Contents (Elt F)) (A m c main_v6) (A m c main_v47) := by
  unfold A; exact hop_binary ops_writes 64 main_v6 main_v47 main_v48 _ _ _ _ rfl (by decide) (by decide) (by decide) _

theorem st_main_c_12 (m : (ℓ : Loc nD τ sig) → Buf (Elt F) ℓ) (c : Dev nD) :
    A m c main_c_12 = (constantI S_ 32 50000#32 : (⟨S_, .i32⟩ : BufTy).Contents (Elt F)) := by
  unfold A; exact hop_nullary ops_writes 65 main_c_12 _ _ rfl (by decide) _

theorem st_main_v49 (m : (ℓ : Loc nD τ sig) → Buf (Elt F) ℓ) (c : Dev nD) :
    A m c main_v49 = beta% (broadcastInDim S850000 ![] bcast_S_S850000 : (⟨S_, .i32⟩ : BufTy).Contents (Elt F) → (⟨S850000, .i32⟩ : BufTy).Contents (Elt F)) (A m c main_c_12) := by
  unfold A; exact hop_unary ops_writes 66 main_c_12 main_v49 _ _ _ rfl (by decide) (by decide) _

theorem st_main_v50 (m : (ℓ : Loc nD τ sig) → Buf (Elt F) ℓ) (c : Dev nD) :
    A m c main_v50 = beta% (addi : (⟨S850000, .i32⟩ : BufTy).Contents (Elt F) → (⟨S850000, .i32⟩ : BufTy).Contents (Elt F) → (⟨S850000, .i32⟩ : BufTy).Contents (Elt F)) (A m c main_v6) (A m c main_v49) := by
  unfold A; exact hop_binary ops_writes 67 main_v6 main_v49 main_v50 _ _ _ _ rfl (by decide) (by decide) (by decide) _

theorem st_main_v51 (m : (ℓ : Loc nD τ sig) → Buf (Elt F) ℓ) (c : Dev nD) :
    A m c main_v51 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A m c main_v48) (A m c main_v50) (A m c main_v6) := by
  unfold A; exact hop_ternary ops_writes 68 main_v48 main_v50 main_v6 main_v51 _ _ _ _ _ rfl (by decide) (by decide) (by decide) (by decide) _

theorem st_main_v52 (m : (ℓ : Loc nD τ sig) → Buf (Elt F) ℓ) (c : Dev nD) :
    A m c main_v52 = beta% (broadcastInDim S850000x1 ![0] bcast_S850000_S850000x1_0 : (⟨S850000, .i32⟩ : BufTy).Contents (Elt F) → (⟨S850000x1, .i32⟩ : BufTy).Contents (Elt F)) (A m c main_v51) := by
  unfold A; exact hop_unary ops_writes 69 main_v51 main_v52 _ _ _ rfl (by decide) (by decide) _

theorem st_main_v53 (m : (ℓ : Loc nD τ sig) → Buf (Elt F) ℓ) (c : Dev nD) :
    A m c main_v53 = beta% ((fun x i u => Host.scatterAdd scatter_S1x2x50000x64_S850000x1_S1x2x850000x64_013_2_2_1 x i u) : (⟨S1x2x50000x64, .f32⟩ : BufTy).Contents (Elt F) → (⟨S850000x1, .i32⟩ : BufTy).Contents (Elt F) → (⟨S1x2x850000x64, .f32⟩ : BufTy).Contents (Elt F) → (⟨S1x2x50000x64, .f32⟩ : BufTy).Contents (Elt F)) (A m c main_v46) (A m c main_v52) (A m c main_v45) := by
  unfold A; exact hop_ternary ops_writes 70 main_v46 main_v52 main_v45 main_v53 _ _ _ _ _ rfl (by decide) (by decide) (by decide) (by decide) _

theorem st_main_v54 (m : (ℓ : Loc nD τ sig) → Buf (Elt F) ℓ) (c : Dev nD) :
    A m c main_v54 = beta% (broadcastInDim S1x1x1x64 ![3] bcast_S64_S1x1x1x64_3 : (⟨S64, .f32⟩ : BufTy).Contents (Elt F) → (⟨S1x1x1x64, .f32⟩ : BufTy).Contents (Elt F)) (A m c main_arg2) := by
  unfold A; exact hop_unary ops_writes 71 main_arg2 main_v54 _ _ _ rfl (by decide) (by decide) _

theorem st_main_v55 (m : (ℓ : Loc nD τ sig) → Buf (Elt F) ℓ) (c : Dev nD) :
    A m c main_v55 = beta% (broadcastInDim S1x2x50000x64 ![0, 1, 2, 3] bcast_S1x1x1x64_S1x2x50000x64_0_1_2_3 : (⟨S1x1x1x64, .f32⟩ : BufTy).Contents (Elt F) → (⟨S1x2x50000x64, .f32⟩ : BufTy).Contents (Elt F)) (A m c main_v54) := by
  unfold A; exact hop_unary ops_writes 72 main_v54 main_v55 _ _ _ rfl (by decide) (by decide) _

theorem st_main_v56 (m : (ℓ : Loc nD τ sig) → Buf (Elt F) ℓ) (c : Dev nD) :
    A m c main_v56 = beta% (addf : (⟨S1x2x50000x64, .f32⟩ : BufTy).Contents (Elt F) → (⟨S1x2x50000x64, .f32⟩ : BufTy).Contents (Elt F) → (⟨S1x2x50000x64, .f32⟩ : BufTy).Contents (Elt F)) (A m c main_v53) (A m c main_v55) := by
  unfold A; exact hop_binary ops_writes 73 main_v53 main_v55 main_v56 _ _ _ _ rfl (by decide) (by decide) (by decide) _

theorem st_main_call1_cst (m : (ℓ : Loc nD τ sig) → Buf (Elt F) ℓ) (c : Dev nD) :
    A m c main_call1_cst = (constant S_ .f32 0x00000000#32 : (⟨S_, .f32⟩ : BufTy).Contents (Elt F)) := by
  unfold A; exact hop_nullary ops_writes 74 main_call1_cst _ _ rfl (by decide) _

theorem st_main_call1_v0 (m : (ℓ : Loc nD τ sig) → Buf (Elt F) ℓ) (c : Dev nD) :
    A m c main_call1_v0 = beta% (broadcastInDim S1x2x50000x64 ![] bcast_S_S1x2x50000x64 : (⟨S_, .f32⟩ : BufTy).Contents (Elt F) → (⟨S1x2x50000x64, .f32⟩ : BufTy).Contents (Elt F)) (A m c main_call1_cst) := by
  unfold A; exact hop_unary ops_writes 75 main_call1_cst main_call1_v0 _ _ _ rfl (by decide) (by decide) _

theorem st_main_v57 (m : (ℓ : Loc nD τ sig) → Buf (Elt F) ℓ) (c : Dev nD) :
    A m c main_v57 = beta% (maximumf : (⟨S1x2x50000x64, .f32⟩ : BufTy).Contents (Elt F) → (⟨S1x2x50000x64, .f32⟩ : BufTy).Contents (Elt F) → (⟨S1x2x50000x64, .f32⟩ : BufTy).Contents (Elt F)) (A m c main_v56) (A m c main_call1_v0) := by
  unfold A; exact hop_binary ops_writes 76 main_v56 main_call1_v0 main_v57 _ _ _ _ rfl (by decide) (by decide) (by decide) _

theorem st_main_v58 (m : (ℓ : Loc nD τ sig) → Buf (Elt F) ℓ) (c : Dev nD) :
    A m c main_v58 = beta% (fun v => shapeCast S2x50000x64 v shapeCasts_S1x2x50000x64_S2x50000x64 : (⟨S1x2x50000x64, .f32⟩ : BufTy).Contents (Elt F) → (⟨S2x50000x64, .f32⟩ : BufTy).Contents (Elt F)) (A m c main_v57) := by
  unfold A; exact hop_reshape ops_writes 77 main_v57 main_v58 _ _ _ _ rfl (by decide) (by decide) _

theorem st_main_v59 (m : (ℓ : Loc nD τ sig) → Buf (Elt F) ℓ) (c : Dev nD) :
    A m c main_v59 = beta% ((transpose S2x64x50000 [0, 2, 1] · transposes_S2x50000x64_S2x64x50000_0_2_1) : (⟨S2x50000x64, .f32⟩ : BufTy).Contents (Elt F) → (⟨S2x64x50000, .f32⟩ : BufTy).Contents (Elt F)) (A m c main_v58) := by
  unfold A; exact hop_unary ops_writes 78 main_v58 main_v59 _ _ _ rfl (by decide) (by decide) _

theorem st_main_cst_13 (m : (ℓ : Loc nD τ sig) → Buf (Elt F) ℓ) (c : Dev nD) :
    A m c main_cst_13 = (constant S_ .f32 0x00000000#32 : (⟨S_, .f32⟩ : BufTy).Contents (Elt F)) := by
  unfold A; exact hop_nullary ops_writes 79 main_cst_13 _ _ rfl (by decide) _

theorem st_main_v60 (m : (ℓ : Loc nD τ sig) → Buf (Elt F) ℓ) (c : Dev nD) :
    A m c main_v60 = beta% ((fun x v => Host.reduceAdd x v reducesTo_S2x64x50000_S64_d0_2 h_S_) : (⟨S2x64x50000, .f32⟩ : BufTy).Contents (Elt F) → (⟨S_, .f32⟩ : BufTy).Contents (Elt F) → (⟨S64, .f32⟩ : BufTy).Contents (Elt F)) (A m c main_v59) (A m c main_cst_13) := by
  unfold A; exact hop_binary ops_writes 80 main_v59 main_cst_13 main_v60 _ _ _ _ rfl (by decide) (by decide) (by decide) _

theorem st_main_v61 (m : (ℓ : Loc nD τ sig) → Buf (Elt F) ℓ) (c : Dev nD) :
    A m c main_v61 = beta% (broadcastInDim S1x64x1 ![1] bcast_S64_S1x64x1_1 : (⟨S64, .f32⟩ : BufTy).Contents (Elt F) → (⟨S1x64x1, .f32⟩ : BufTy).Contents (Elt F)) (A m c main_v60) := by
  unfold A; exact hop_unary ops_writes 81 main_v60 main_v61 _ _ _ rfl (by decide) (by decide) _

theorem st_main_cst_14 (m : (ℓ : Loc nD τ sig) → Buf (Elt F) ℓ) (c : Dev nD) :
    A m c main_cst_14 = (constant S_ .f32 0x47C35000#32 : (⟨S_, .f32⟩ : BufTy).Contents (Elt F)) := by
  unfold A; exact hop_nullary ops_writes 82 main_cst_14 _ _ rfl (by decide) _

theorem st_main_v62 (m : (ℓ : Loc nD τ sig) → Buf (Elt F) ℓ) (c : Dev nD) :
    A m c main_v62 = beta% (broadcastInDim S1x64x1 ![] bcast_S_S1x64x1 : (⟨S_, .f32⟩ : BufTy).Contents (Elt F) → (⟨S1x64x1, .f32⟩ : BufTy).Contents (Elt F)) (A m c main_cst_14) := by
  unfold A; exact hop_unary ops_writes 83 main_cst_14 main_v62 _ _ _ rfl (by decide) (by decide) _

theorem st_main_v63 (m : (ℓ : Loc nD τ sig) → Buf (Elt F) ℓ) (c : Dev nD) :
    A m c main_v63 = beta% (Host.divf : (⟨S1x64x1, .f32⟩ : BufTy).Contents (Elt F) → (⟨S1x64x1, .f32⟩ : BufTy).Contents (Elt F) → (⟨S1x64x1, .f32⟩ : BufTy).Contents (Elt F)) (A m c main_v61) (A m c main_v62) := by
  unfold A; exact hop_binary ops_writes 84 main_v61 main_v62 main_v63 _ _ _ _ rfl (by decide) (by decide) (by decide) _

theorem st_main_c_15 (m : (ℓ : Loc nD τ sig) → Buf (Elt F) ℓ) (c : Dev nD) :
    A m c main_c_15 = (constantI S_ 32 0#32 : (⟨S_, .i32⟩ : BufTy).Contents (Elt F)) := by
  unfold A; exact hop_nullary ops_writes 85 main_c_15 _ _ rfl (by decide) _

theorem st_main_call2_cst (m : (ℓ : Loc nD τ sig) → Buf (Elt F) ℓ) (c : Dev nD) :
    A m c main_call2_cst = (constant S_ .f32 0x00000000#32 : (⟨S_, .f32⟩ : BufTy).Contents (Elt F)) := by
  unfold A; exact hop_nullary ops_writes 86 main_call2_cst _ _ rfl (by decide) _

theorem st_main_call2_v0 (m : (ℓ : Loc nD τ sig) → Buf (Elt F) ℓ) (c : Dev nD) :
    A m c main_call2_v0 = beta% (fun x v => Host.reduceAdd x v reducesTo_S2x64x50000_S64_d0_2 h_S_ : (⟨S2x64x50000, .f32⟩ : BufTy).Contents (Elt F) → (⟨S_, .f32⟩ : BufTy).Contents (Elt F) → (⟨S64, .f32⟩ : BufTy).Contents (Elt F)) (A m c main_v59) (A m c main_call2_cst) := by
  unfold A; exact hop_binary ops_writes 87 main_v59 main_call2_cst main_call2_v0 _ _ _ _ rfl (by decide) (by decide) (by decide) _

theorem st_main_call2_v1 (m : (ℓ : Loc nD τ sig) → Buf (Elt F) ℓ) (c : Dev nD) :
    A m c main_call2_v1 = beta% (broadcastInDim S1x64x1 ![1] bcast_S64_S1x64x1_1 : (⟨S64, .f32⟩ : BufTy).Contents (Elt F) → (⟨S1x64x1, .f32⟩ : BufTy).Contents (Elt F)) (A m c main_call2_v0) := by
  unfold A; exact hop_unary ops_writes 88 main_call2_v0 main_call2_v1 _ _ _ rfl (by decide) (by decide) _

theorem st_main_call2_cst_0 (m : (ℓ : Loc nD τ sig) → Buf (Elt F) ℓ) (c : Dev nD) :
    A m c main_call2_cst_0 = (constant S_ .f32 0x47C35000#32 : (⟨S_, .f32⟩ : BufTy).Contents (Elt F)) := by
  unfold A; exact hop_nullary ops_writes 89 main_call2_cst_0 _ _ rfl (by decide) _

theorem st_main_call2_v2 (m : (ℓ : Loc nD τ sig) → Buf (Elt F) ℓ) (c : Dev nD) :
    A m c main_call2_v2 = beta% (broadcastInDim S1x64x1 ![] bcast_S_S1x64x1 : (⟨S_, .f32⟩ : BufTy).Contents (Elt F) → (⟨S1x64x1, .f32⟩ : BufTy).Contents (Elt F)) (A m c main_call2_cst_0) := by
  unfold A; exact hop_unary ops_writes 90 main_call2_cst_0 main_call2_v2 _ _ _ rfl (by decide) (by decide) _

theorem st_main_call2_v3 (m : (ℓ : Loc nD τ sig) → Buf (Elt F) ℓ) (c : Dev nD) :
    A m c main_call2_v3 = beta% (Host.divf : (⟨S1x64x1, .f32⟩ : BufTy).Contents (Elt F) → (⟨S1x64x1, .f32⟩ : BufTy).Contents (Elt F) → (⟨S1x64x1, .f32⟩ : BufTy).Contents (Elt F)) (A m c main_call2_v1) (A m c main_call2_v2) := by
  unfold A; exact hop_binary ops_writes 91 main_call2_v1 main_call2_v2 main_call2_v3 _ _ _ _ rfl (by decide) (by decide) (by decide) _

theorem st_main_call2_v4 (m : (ℓ : Loc nD τ sig) → Buf (Elt F) ℓ) (c : Dev nD) :
    A m c main_call2_v4 = beta% (broadcastInDim S2x64x50000 ![0, 1, 2] bcast_S1x64x1_S2x64x50000_0_1_2 : (⟨S1x64x1, .f32⟩ : BufTy).Contents (Elt F) → (⟨S2x64x50000, .f32⟩ : BufTy).Contents (Elt F)) (A m c main_call2_v3) := by
  unfold A; exact hop_unary ops_writes 92 main_call2_v3 main_call2_v4 _ _ _ rfl (by decide) (by decide) _

theorem st_main_call2_v5 (m : (ℓ : Loc nD τ sig) → Buf (Elt F) ℓ) (c : Dev nD) :
    A m c main_call2_v5 = beta% (subf : (⟨S2x64x50000, .f32⟩ : BufTy).Contents (Elt F) → (⟨S2x64x50000, .f32⟩ : BufTy).Contents (Elt F) → (⟨S2x64x50000, .f32⟩ : BufTy).Contents (Elt F)) (A m c main_v59) (A m c main_call2_v4) := by
  unfold A; exact hop_binary ops_writes 93 main_v59 main_call2_v4 main_call2_v5 _ _ _ _ rfl (by decide) (by decide) (by decide) _

theorem st_main_call2_v6 (m : (ℓ : Loc nD τ sig) → Buf (Elt F) ℓ) (c : Dev nD) :
    A m c main_call2_v6 = beta% (mulf : (⟨S2x64x50000, .f32⟩ : BufTy).Contents (Elt F) → (⟨S2x64x50000, .f32⟩ : BufTy).Contents (Elt F) → (⟨S2x64x50000, .f32⟩ : BufTy).Contents (Elt F)) (A m c main_call2_v5) (A m c main_call2_v5) := by
  unfold A; exact hop_binary ops_writes 94 main_call2_v5 main_call2_v5 main_call2_v6 _ _ _ _ rfl (by decide) (by decide) (by decide) _

theorem st_main_call2_v7 (m : (ℓ : Loc nD τ sig) → Buf (Elt F) ℓ) (c : Dev nD) :
    A m c main_call2_v7 = beta% (sitofp .f32 : (⟨S_, .i32⟩ : BufTy).Contents (Elt F) → (⟨S_, .f32⟩ : BufTy).Contents (Elt F)) (A m c main_c_15) := by
  unfold A; exact hop_unary ops_writes 95 main_c_15 main_call2_v7 _ _ _ rfl (by decide) (by decide) _

theorem st_main_call2_cst_1 (m : (ℓ : Loc nD τ sig) → Buf (Elt F) ℓ) (c : Dev nD) :
    A m c main_call2_cst_1 = (constant S_ .f32 0x47C35000#32 : (⟨S_, .f32⟩ : BufTy).Contents (Elt F)) := by
  unfold A; exact hop_nullary ops_writes 96 main_call2_cst_1 _ _ rfl (by decide) _

theorem st_main_call2_v8 (m : (ℓ : Loc nD τ sig) → Buf (Elt F) ℓ) (c : Dev nD) :
    A m c main_call2_v8 = beta% (subf : (⟨S_, .f32⟩ : BufTy).Contents (Elt F) → (⟨S_, .f32⟩ : BufTy).Contents (Elt F) → (⟨S_, .f32⟩ : BufTy).Contents (Elt F)) (A m c main_call2_cst_1) (A m c main_call2_v7) := by
  unfold A; exact hop_binary ops_writes 97 main_call2_cst_1 main_call2_v7 main_call2_v8 _ _ _ _ rfl (by decide) (by decide) (by decide) _

theorem st_main_call2_cst_2 (m : (ℓ : Loc nD τ sig) → Buf (Elt F) ℓ) (c : Dev nD) :
    A m c main_call2_cst_2 = (constant S_ .f32 0x00000000#32 : (⟨S_, .f32⟩ : BufTy).Contents (Elt F)) := by
  unfold A; exact hop_nullary ops_writes 98 main_call2_cst_2 _ _ rfl (by decide) _

theorem st_main_call2_v9 (m : (ℓ : Loc nD τ sig) → Buf (Elt F) ℓ) (c : Dev nD) :
    A m c main_call2_v9 = beta% (fun x v => Host.reduceAdd x v reducesTo_S2x64x50000_S64_d0_2 h_S_ : (⟨S2x64x50000, .f32⟩ : BufTy).Contents (Elt F) → (⟨S_, .f32⟩ : BufTy).Contents (Elt F) → (⟨S64, .f32⟩ : BufTy).Contents (Elt F)) (A m c main_call2_v6) (A m c main_call2_cst_2) := by
  unfold A; exact hop_binary ops_writes 99 main_call2_v6 main_call2_cst_2 main_call2_v9 _ _ _ _ rfl (by decide) (by decide) (by decide) _

theorem st_main_call2_v10 (m : (ℓ : Loc nD τ sig) → Buf (Elt F) ℓ) (c : Dev nD) :
    A m c main_call2_v10 = beta% (broadcastInDim S1x64x1 ![1] bcast_S64_S1x64x1_1 : (⟨S64, .f32⟩ : BufTy).Contents (Elt F) → (⟨S1x64x1, .f32⟩ : BufTy).Contents (Elt F)) (A m c main_call2_v9) := by
  unfold A; exact hop_unary ops_writes 100 main_call2_v9 main_call2_v10 _ _ _ rfl (by decide) (by decide) _

theorem st_main_call2_v11 (m : (ℓ : Loc nD τ sig) → Buf (Elt F) ℓ) (c : Dev nD) :
    A m c main_call2_v11 = beta% (broadcastInDim S1x64x1 ![] bcast_S_S1x64x1 : (⟨S_, .f32⟩ : BufTy).Contents (Elt F) → (⟨S1x64x1, .f32⟩ : BufTy).Contents (Elt F)) (A m c main_call2_v8) := by
  unfold A; exact hop_unary ops_writes 101 main_call2_v8 main_call2_v11 _ _ _ rfl (by decide) (by decide) _

theorem st_main_call2_v12 (m : (ℓ : Loc nD τ sig) → Buf (Elt F) ℓ) (c : Dev nD) :
    A m c main_call2_v12 = beta% (Host.divf : (⟨S1x64x1, .f32⟩ : BufTy).Contents (Elt F) → (⟨S1x64x1, .f32⟩ : BufTy).Contents (Elt F) → (⟨S1x64x1, .f32⟩ : BufTy).Contents (Elt F)) (A m c main_call2_v10) (A m c main_call2_v11) := by
  unfold A; exact hop_binary ops_writes 102 main_call2_v10 main_call2_v11 main_call2_v12 _ _ _ _ rfl (by decide) (by decide) (by decide) _

theorem st_main_call2_cst_3 (m : (ℓ : Loc nD τ sig) → Buf (Elt F) ℓ) (c : Dev nD) :
    A m c main_call2_cst_3 = (constant S_ .f32 0x00000000#32 : (⟨S_, .f32⟩ : BufTy).Contents (Elt F)) := by
  unfold A; exact hop_nullary ops_writes 103 main_call2_cst_3 _ _ rfl (by decide) _

theorem st_main_call2_v13 (m : (ℓ : Loc nD τ sig) → Buf (Elt F) ℓ) (c : Dev nD) :
    A m c main_call2_v13 = beta% (cmpf .ogt : (⟨S_, .f32⟩ : BufTy).Contents (Elt F) → (⟨S_, .f32⟩ : BufTy).Contents (Elt F) → (⟨S_, .i1⟩ : BufTy).Contents (Elt F)) (A m c main_call2_v8) (A m c main_call2_cst_3) := by
  unfold A; exact hop_binary ops_writes 104 main_call2_v8 main_call2_cst_3 main_call2_v13 _ _ _ _ rfl (by decide) (by decide) (by decide) _

theorem st_main_call2_cst_4 (m : (ℓ : Loc nD τ sig) → Buf (Elt F) ℓ) (c : Dev nD) :
    A m c main_call2_cst_4 = (constant S_ .f32 0x7FC00000#32 : (⟨S_, .f32⟩ : BufTy).Contents (Elt F)) := by
  unfold A; exact hop_nullary ops_writes 105 main_call2_cst_4 _ _ rfl (by decide) _

theorem st_main_call2_call0_v0 (m : (ℓ : Loc nD τ sig) → Buf (Elt F) ℓ) (c : Dev nD) :
    A m c main_call2_call0_v0 = (A m c main_call2_cst_4) := by
  unfold A; exact hop_unary ops_writes 106 main_call2_cst_4 main_call2_call0_v0 _ _ _ rfl (by decide) (by decide) _

theorem st_main_call2_call0_v1 (m : (ℓ : Loc nD τ sig) → Buf (Elt F) ℓ) (c : Dev nD) :
    A m c main_call2_call0_v1 = beta% (broadcastInDim S1x64x1 ![] bcast_S_S1x64x1 : (⟨S_, .f32⟩ : BufTy).Contents (Elt F) → (⟨S1x64x1, .f32⟩ : BufTy).Contents (Elt F)) (A m c main_call2_call0_v0) := by
  unfold A; exact hop_unary ops_writes 107 main_call2_call0_v0 main_call2_call0_v1 _ _ _ rfl (by decide) (by decide) _

theorem st_main_v64 (m : (ℓ : Loc nD τ sig) → Buf (Elt F) ℓ) (c : Dev nD) :
    A m c main_v64 = beta% (fun p a b => select (broadcastInDim S1x64x1 ![] bcast_S_S1x64x1 p) a b : (⟨S_, .i1⟩ : BufTy).Contents (Elt F) → (⟨S1x64x1, .f32⟩ : BufTy).Contents (Elt F) → (⟨S1x64x1, .f32⟩ : BufTy).Contents (Elt F) → (⟨S1x64x1, .f32⟩ : BufTy).Contents (Elt F)) (A m c main_call2_v13) (A m c main_call2_v12) (A m c main_call2_call0_v1) := by
  unfold A; exact hop_ternary ops_writes 108 main_call2_v13 main_call2_v12 main_call2_call0_v1 main_v64 _ _ _ _ _ rfl (by decide) (by decide) (by decide) (by decide) _

theorem st_main_v65 (m : (ℓ : Loc nD τ sig) → Buf (Elt F) ℓ) (c : Dev nD) :
    A m c main_v65 = beta% (broadcastInDim S2x64x50000 ![0, 1, 2] bcast_S1x64x1_S2x64x50000_0_1_2 : (⟨S1x64x1, .f32⟩ : BufTy).Contents (Elt F) → (⟨S2x64x50000, .f32⟩ : BufTy).Contents (Elt F)) (A m c main_v63) := by
  unfold A; exact hop_unary ops_writes 109 main_v63 main_v65 _ _ _ rfl (by decide) (by decide) _

theorem st_main_v66 (m : (ℓ : Loc nD τ sig) → Buf (Elt F) ℓ) (c : Dev nD) :
    A m c main_v66 = beta% (subf : (⟨S2x64x50000, .f32⟩ : BufTy).Contents (Elt F) → (⟨S2x64x50000, .f32⟩ : BufTy).Contents (Elt F) → (⟨S2x64x50000, .f32⟩ : BufTy).Contents (Elt F)) (A m c main_v59) (A m c main_v65) := by
  unfold A; exact hop_binary ops_writes 110 main_v59 main_v65 main_v66 _ _ _ _ rfl (by decide) (by decide) (by decide) _

theorem st_main_cst_16 (m : (ℓ : Loc nD τ sig) → Buf (Elt F) ℓ) (c : Dev nD) :
    A m c main_cst_16 = (constant S_ .f32 0x3727C5AC#32 : (⟨S_, .f32⟩ : BufTy).Contents (Elt F)) := by
  unfold A; exact hop_nullary ops_writes 111 main_cst_16 _ _ rfl (by decide) _

theorem st_main_v67 (m : (ℓ : Loc nD τ sig) → Buf (Elt F) ℓ) (c : Dev nD) :
    A m c main_v67 = beta% (broadcastInDim S1x64x1 ![] bcast_S_S1x64x1 : (⟨S_, .f32⟩ : BufTy).Contents (Elt F) → (⟨S1x64x1, .f32⟩ : BufTy).Contents (Elt F)) (A m c main_cst_16) := by
  unfold A; exact hop_unary ops_writes 112 main_cst_16 main_v67 _ _ _ rfl (by decide) (by decide) _

theorem st_main_v68 (m : (ℓ : Loc nD τ sig) → Buf (Elt F) ℓ) (c : Dev nD) :
    A m c main_v68 = beta% (addf : (⟨S1x64x1, .f32⟩ : BufTy).Contents (Elt F) → (⟨S1x64x1, .f32⟩ : BufTy).Contents (Elt F) → (⟨S1x64x1, .f32⟩ : BufTy).Contents (Elt F)) (A m c main_v64) (A m c main_v67) := by
  unfold A; exact hop_binary ops_writes 113 main_v64 main_v67 main_v68 _ _ _ _ rfl (by decide) (by decide) (by decide) _

theorem st_main_v69 (m : (ℓ : Loc nD τ sig) → Buf (Elt F) ℓ) (c : Dev nD) :
    A m c main_v69 = beta% (Host.rsqrt : (⟨S1x64x1, .f32⟩ : BufTy).Contents (Elt F) → (⟨S1x64x1, .f32⟩ : BufTy).Contents (Elt F)) (A m c main_v68) := by
  unfold A; exact hop_unary ops_writes 114 main_v68 main_v69 _ _ _ rfl (by decide) (by decide) _

theorem st_main_v70 (m : (ℓ : Loc nD τ sig) → Buf (Elt F) ℓ) (c : Dev nD) :
    A m c main_v70 = beta% (broadcastInDim S2x64x50000 ![0, 1, 2] bcast_S1x64x1_S2x64x50000_0_1_2 : (⟨S1x64x1, .f32⟩ : BufTy).Contents (Elt F) → (⟨S2x64x50000, .f32⟩ : BufTy).Contents (Elt F)) (A m c main_v69) := by
  unfold A; exact hop_unary ops_writes 115 main_v69 main_v70 _ _ _ rfl (by decide) (by decide) _

theorem st_main_v71 (m : (ℓ : Loc nD τ sig) → Buf (Elt F) ℓ) (c : Dev nD) :
    A m c main_v71 = beta% (mulf : (⟨S2x64x50000, .f32⟩ : BufTy).Contents (Elt F) → (⟨S2x64x50000, .f32⟩ : BufTy).Contents (Elt F) → (⟨S2x64x50000, .f32⟩ : BufTy).Contents (Elt F)) (A m c main_v66) (A m c main_v70) := by
  unfold A; exact hop_binary ops_writes 116 main_v66 main_v70 main_v71 _ _ _ _ rfl (by decide) (by decide) (by decide) _

theorem st_main_v72 (m : (ℓ : Loc nD τ sig) → Buf (Elt F) ℓ) (c : Dev nD) :
    A m c main_v72 = beta% (broadcastInDim S1x64x1 ![1] bcast_S64_S1x64x1_1 : (⟨S64, .f32⟩ : BufTy).Contents (Elt F) → (⟨S1x64x1, .f32⟩ : BufTy).Contents (Elt F)) (A m c main_arg3) := by
  unfold A; exact hop_unary ops_writes 117 main_arg3 main_v72 _ _ _ rfl (by decide) (by decide) _

theorem st_main_v73 (m : (ℓ : Loc nD τ sig) → Buf (Elt F) ℓ) (c : Dev nD) :
    A m c main_v73 = beta% (broadcastInDim S2x64x50000 ![0, 1, 2] bcast_S1x64x1_S2x64x50000_0_1_2 : (⟨S1x64x1, .f32⟩ : BufTy).Contents (Elt F) → (⟨S2x64x50000, .f32⟩ : BufTy).Contents (Elt F)) (A m c main_v72) := by
  unfold A; exact hop_unary ops_writes 118 main_v72 main_v73 _ _ _ rfl (by decide) (by decide) _

theorem st_main_v74 (m : (ℓ : Loc nD τ sig) → Buf (Elt F) ℓ) (c : Dev nD) :
    A m c main_v74 = beta% (mulf : (⟨S2x64x50000, .f32⟩ : BufTy).Contents (Elt F) → (⟨S2x64x50000, .f32⟩ : BufTy).Contents (Elt F) → (⟨S2x64x50000, .f32⟩ : BufTy).Contents (Elt F)) (A m c main_v71) (A m c main_v73) := by
  unfold A; exact hop_binary ops_writes 119 main_v71 main_v73 main_v74 _ _ _ _ rfl (by decide) (by decide) (by decide) _

theorem st_main_v75 (m : (ℓ : Loc nD τ sig) → Buf (Elt F) ℓ) (c : Dev nD) :
    A m c main_v75 = beta% (broadcastInDim S1x64x1 ![1] bcast_S64_S1x64x1_1 : (⟨S64, .f32⟩ : BufTy).Contents (Elt F) → (⟨S1x64x1, .f32⟩ : BufTy).Contents (Elt F)) (A m c main_arg4) := by
  unfold A; exact hop_unary ops_writes 120 main_arg4 main_v75 _ _ _ rfl (by decide) (by decide) _

theorem st_main_v76 (m : (ℓ : Loc nD τ sig) → Buf (Elt F) ℓ) (c : Dev nD) :
    A m c main_v76 = beta% (broadcastInDim S2x64x50000 ![0, 1, 2] bcast_S1x64x1_S2x64x50000_0_1_2 : (⟨S1x64x1, .f32⟩ : BufTy).Contents (Elt F) → (⟨S2x64x50000, .f32⟩ : BufTy).Contents (Elt F)) (A m c main_v75) := by
  unfold A; exact hop_unary ops_writes 121 main_v75 main_v76 _ _ _ rfl (by decide) (by decide) _

theorem st_main_v77 (m : (ℓ : Loc nD τ sig) → Buf (Elt F) ℓ) (c : Dev nD) :
    A m c main_v77 = beta% (addf : (⟨S2x64x50000, .f32⟩ : BufTy).Contents (Elt F) → (⟨S2x64x50000, .f32⟩ : BufTy).Contents (Elt F) → (⟨S2x64x50000, .f32⟩ : BufTy).Contents (Elt F)) (A m c main_v74) (A m c main_v76) := by
  unfold A; exact hop_binary ops_writes 122 main_v74 main_v76 main_v77 _ _ _ _ rfl (by decide) (by decide) (by decide) _

theorem st_main_v78 (m : (ℓ : Loc nD τ sig) → Buf (Elt F) ℓ) (c : Dev nD) :
    A m c main_v78 = beta% ((transpose S2x50000x64 [0, 2, 1] · transposes_S2x64x50000_S2x50000x64_0_2_1) : (⟨S2x64x50000, .f32⟩ : BufTy).Contents (Elt F) → (⟨S2x50000x64, .f32⟩ : BufTy).Contents (Elt F)) (A m c main_v77) := by
  unfold A; exact hop_unary ops_writes 123 main_v77 main_v78 _ _ _ rfl (by decide) (by decide) _

theorem st_main_v79 (m : (ℓ : Loc nD τ sig) → Buf (Elt F) ℓ) (c : Dev nD) :
    A m c main_v79 = beta% (broadcastInDim S1x2x50000x64 ![1, 2, 3] bcast_S2x50000x64_S1x2x50000x64_1_2_3 : (⟨S2x50000x64, .f32⟩ : BufTy).Contents (Elt F) → (⟨S1x2x50000x64, .f32⟩ : BufTy).Contents (Elt F)) (A m c main_v78) := by
  unfold A; exact hop_unary ops_writes 124 main_v78 main_v79 _ _ _ rfl (by decide) (by decide) _

theorem st_main_v80 (m : (ℓ : Loc nD τ sig) → Buf (Elt F) ℓ) (c : Dev nD) :
    A m c main_v80 = beta% ((fun l r => Host.dotGeneral dot_S1x2x50000x64_S64x8_S1x2x50000x8_3_0_012_1_n_n none l r) : (⟨S1x2x50000x64, .f32⟩ : BufTy).Contents (Elt F) → (⟨S64x8, .f32⟩ : BufTy).Contents (Elt F) → (⟨S1x2x50000x8, .f32⟩ : BufTy).Contents (Elt F)) (A m c main_v79) (A m c main_arg5) := by
  unfold A; exact hop_binary ops_writes 125 main_v79 main_arg5 main_v80 _ _ _ _ rfl (by decide) (by decide) (by decide) _

theorem st_main_c_17 (m : (ℓ : Loc nD τ sig) → Buf (Elt F) ℓ) (c : Dev nD) :
    A m c main_c_17 = (constantI S_ 32 0#32 : (⟨S_, .i32⟩ : BufTy).Contents (Elt F)) := by
  unfold A; exact hop_nullary ops_writes 126 main_c_17 _ _ rfl (by decide) _

theorem st_main_v81 (m : (ℓ : Loc nD τ sig) → Buf (Elt F) ℓ) (c : Dev nD) :
    A m c main_v81 = beta% (broadcastInDim S850000 ![] bcast_S_S850000 : (⟨S_, .i32⟩ : BufTy).Contents (Elt F) → (⟨S850000, .i32⟩ : BufTy).Contents (Elt F)) (A m c main_c_17) := by
  unfold A; exact hop_unary ops_writes 127 main_c_17 main_v81 _ _ _ rfl (by decide) (by decide) _

theorem st_main_v82 (m : (ℓ : Loc nD τ sig) → Buf (Elt F) ℓ) (c : Dev nD) :
    A m c main_v82 = beta% (cmpi .slt : (⟨S850000, .i32⟩ : BufTy).Contents (Elt F) → (⟨S850000, .i32⟩ : BufTy).Contents (Elt F) → (⟨S850000, .i1⟩ : BufTy).Contents (Elt F)) (A m c main_v3) (A m c main_v81) := by
  unfold A; exact hop_binary ops_writes 128 main_v3 main_v81 main_v82 _ _ _ _ rfl (by decide) (by decide) (by decide) _

theorem st_main_c_18 (m : (ℓ : Loc nD τ sig) → Buf (Elt F) ℓ) (c : Dev nD) :
    A m c main_c_18 = (constantI S_ 32 50000#32 : (⟨S_, .i32⟩ : BufTy).Contents (Elt F)) := by
  unfold A; exact hop_nullary ops_writes 129 main_c_18 _ _ rfl (by decide) _

theorem st_main_v83 (m : (ℓ : Loc nD τ sig) → Buf (Elt F) ℓ) (c : Dev nD) :
    A m c main_v83 = beta% (broadcastInDim S850000 ![] bcast_S_S850000 : (⟨S_, .i32⟩ : BufTy).Contents (Elt F) → (⟨S850000, .i32⟩ : BufTy).Contents (Elt F)) (A m c main_c_18) := by
  unfold A; exact hop_unary ops_writes 130 main_c_18 main_v83 _ _ _ rfl (by decide) (by decide) _

theorem st_main_v84 (m : (ℓ : Loc nD τ sig) → Buf (Elt F) ℓ) (c : Dev nD) :
    A m c main_v84 = beta% (addi : (⟨S850000, .i32⟩ : BufTy).Contents (Elt F) → (⟨S850000, .i32⟩ : BufTy).Contents (Elt F) → (⟨S850000, .i32⟩ : BufTy).Contents (Elt F)) (A m c main_v3) (A m c main_v83) := by
  unfold A; exact hop_binary ops_writes 131 main_v3 main_v83 main_v84 _ _ _ _ rfl (by decide) (by decide) (by decide) _

theorem st_main_v85 (m : (ℓ : Loc nD τ sig) → Buf (Elt F) ℓ) (c : Dev nD) :
    A m c main_v85 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A m c main_v82) (A m c main_v84) (A m c main_v3) := by
  unfold A; exact hop_ternary ops_writes 132 main_v82 main_v84 main_v3 main_v85 _ _ _ _ _ rfl (by decide) (by decide) (by decide) (by decide) _

theorem st_main_v86 (m : (ℓ : Loc nD τ sig) → Buf (Elt F) ℓ) (c : Dev nD) :
    A m c main_v86 = beta% (broadcastInDim S850000x1 ![0] bcast_S850000_S850000x1_0 : (⟨S850000, .i32⟩ : BufTy).Contents (Elt F) → (⟨S850000x1, .i32⟩ : BufTy).Contents (Elt F)) (A m c main_v85) := by
  unfold A; exact hop_unary ops_writes 133 main_v85 main_v86 _ _ _ rfl (by decide) (by decide) _

theorem st_main_v87 (m : (ℓ : Loc nD τ sig) → Buf (Elt F) ℓ) (c : Dev nD) :
    A m c main_v87 = beta% ((fun x i => Host.gather gather_S1x2x50000x8_S850000x1_S1x2x850000x8_013_2_n_n_2_1_1218 x i) : (⟨S1x2x50000x8, .f32⟩ : BufTy).Contents (Elt F) → (⟨S850000x1, .i32⟩ : BufTy).Contents (Elt F) → (⟨S1x2x850000x8, .f32⟩ : BufTy).Contents (Elt F)) (A m c main_v80) (A m c main_v86) := by
  unfold A; exact hop_binary ops_writes 134 main_v80 main_v86 main_v87 _ _ _ _ rfl (by decide) (by decide) (by decide) _

theorem st_main_v88 (m : (ℓ : Loc nD τ sig) → Buf (Elt F) ℓ) (c : Dev nD) :
    A m c main_v88 = beta% (broadcastInDim S1x1x850000x1 ![2] bcast_S850000_S1x1x850000x1_2 : (⟨S850000, .f32⟩ : BufTy).Contents (Elt F) → (⟨S1x1x850000x1, .f32⟩ : BufTy).Contents (Elt F)) (A m c main_v34) := by
  unfold A; exact hop_unary ops_writes 135 main_v34 main_v88 _ _ _ rfl (by decide) (by decide) _

theorem st_main_v89 (m : (ℓ : Loc nD τ sig) → Buf (Elt F) ℓ) (c : Dev nD) :
    A m c main_v89 = beta% (broadcastInDim S1x2x850000x8 ![0, 1, 2, 3] bcast_S1x1x850000x1_S1x2x850000x8_0_1_2_3 : (⟨S1x1x850000x1, .f32⟩ : BufTy).Contents (Elt F) → (⟨S1x2x850000x8, .f32⟩ : BufTy).Contents (Elt F)) (A m c main_v88) := by
  unfold A; exact hop_unary ops_writes 136 main_v88 main_v89 _ _ _ rfl (by decide) (by decide) _

theorem st_main_v90 (m : (ℓ : Loc nD τ sig) → Buf (Elt F) ℓ) (c : Dev nD) :
    A m c main_v90 = beta% (mulf : (⟨S1x2x850000x8, .f32⟩ : BufTy).Contents (Elt F) → (⟨S1x2x850000x8, .f32⟩ : BufTy).Contents (Elt F) → (⟨S1x2x850000x8, .f32⟩ : BufTy).Contents (Elt F)) (A m c main_v87) (A m c main_v89) := by
  unfold A; exact hop_binary ops_writes 137 main_v87 main_v89 main_v90 _ _ _ _ rfl (by decide) (by decide) (by decide) _

theorem st_main_cst_19 (m : (ℓ : Loc nD τ sig) → Buf (Elt F) ℓ) (c : Dev nD) :
    A m c main_cst_19 = (constant S_ .f32 0x00000000#32 : (⟨S_, .f32⟩ : BufTy).Contents (Elt F)) := by
  unfold A; exact hop_nullary ops_writes 138 main_cst_19 _ _ rfl (by decide) _

theorem st_main_v91 (m : (ℓ : Loc nD τ sig) → Buf (Elt F) ℓ) (c : Dev nD) :
    A m c main_v91 = beta% (broadcastInDim S1x2x50000x8 ![] bcast_S_S1x2x50000x8 : (⟨S_, .f32⟩ : BufTy).Contents (Elt F) → (⟨S1x2x50000x8, .f32⟩ : BufTy).Contents (Elt F)) (A m c main_cst_19) := by
  unfold A; exact hop_unary ops_writes 139 main_cst_19 main_v91 _ _ _ rfl (by decide) (by decide) _

theorem st_main_c_20 (m : (ℓ : Loc nD τ sig) → Buf (Elt F) ℓ) (c : Dev nD) :
    A m c main_c_20 = (constantI S_ 32 0#32 : (⟨S_, .i32⟩ : BufTy).Contents (Elt F)) := by
  unfold A; exact hop_nullary ops_writes 140 main_c_20 _ _ rfl (by decide) _

theorem st_main_v92 (m : (ℓ : Loc nD τ sig) → Buf (Elt F) ℓ) (c : Dev nD) :
    A m c main_v92 = beta% (broadcastInDim S850000 ![] bcast_S_S850000 : (⟨S_, .i32⟩ : BufTy).Contents (Elt F) → (⟨S850000, .i32⟩ : BufTy).Contents (Elt F)) (A m c main_c_20) := by
  unfold A; exact hop_unary ops_writes 141 main_c_20 main_v92 _ _ _ rfl (by decide) (by decide) _

theorem st_main_v93 (m : (ℓ : Loc nD τ sig) → Buf (Elt F) ℓ) (c : Dev nD) :
    A m c main_v93 = beta% (cmpi .slt : (⟨S850000, .i32⟩ : BufTy).Contents (Elt F) → (⟨S850000, .i32⟩ : BufTy).Contents (Elt F) → (⟨S850000, .i1⟩ : BufTy).Contents (Elt F)) (A m c main_v6) (A m c main_v92) := by
  unfold A; exact hop_binary ops_writes 142 main_v6 main_v92 main_v93 _ _ _ _ rfl (by decide) (by decide) (by decide) _

theorem st_main_c_21 (m : (ℓ : Loc nD τ sig) → Buf (Elt F) ℓ) (c : Dev nD) :
    A m c main_c_21 = (constantI S_ 32 50000#32 : (⟨S_, .i32⟩ : BufTy).Contents (Elt F)) := by
  unfold A; exact hop_nullary ops_writes 143 main_c_21 _ _ rfl (by decide) _

theorem st_main_v94 (m : (ℓ : Loc nD τ sig) → Buf (Elt F) ℓ) (c : Dev nD) :
    A m c main_v94 = beta% (broadcastInDim S850000 ![] bcast_S_S850000 : (⟨S_, .i32⟩ : BufTy).Contents (Elt F) → (⟨S850000, .i32⟩ : BufTy).Contents (Elt F)) (A m c main_c_21) := by
  unfold A; exact hop_unary ops_writes 144 main_c_21 main_v94 _ _ _ rfl (by decide) (by decide) _

theorem st_main_v95 (m : (ℓ : Loc nD τ sig) → Buf (Elt F) ℓ) (c : Dev nD) :
    A m c main_v95 = beta% (addi : (⟨S850000, .i32⟩ : BufTy).Contents (Elt F) → (⟨S850000, .i32⟩ : BufTy).Contents (Elt F) → (⟨S850000, .i32⟩ : BufTy).Contents (Elt F)) (A m c main_v6) (A m c main_v94) := by
  unfold A; exact hop_binary ops_writes 145 main_v6 main_v94 main_v95 _ _ _ _ rfl (by decide) (by decide) (by decide) _

theorem st_main_v96 (m : (ℓ : Loc nD τ sig) → Buf (Elt F) ℓ) (c : Dev nD) :
    A m c main_v96 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A m c main_v93) (A m c main_v95) (A m c main_v6) := by
  unfold A; exact hop_ternary ops_writes 146 main_v93 main_v95 main_v6 main_v96 _ _ _ _ _ rfl (by decide) (by decide) (by decide) (by decide) _

theorem st_main_v97 (m : (ℓ : Loc nD τ sig) → Buf (Elt F) ℓ) (c : Dev nD) :
    A m c main_v97 = beta% (broadcastInDim S850000x1 ![0] bcast_S850000_S850000x1_0 : (⟨S850000, .i32⟩ : BufTy).Contents (Elt F) → (⟨S850000x1, .i32⟩ : BufTy).Contents (Elt F)) (A m c main_v96) := by
  unfold A; exact hop_unary ops_writes 147 main_v96 main_v97 _ _ _ rfl (by decide) (by decide) _

theorem st_main_v98 (m : (ℓ : Loc nD τ sig) → Buf (Elt F) ℓ) (c : Dev nD) :
    A m c main_v98 = beta% ((fun x i u => Host.scatterAdd scatter_S1x2x50000x8_S850000x1_S1x2x850000x8_013_2_2_1 x i u) : (⟨S1x2x50000x8, .f32⟩ : BufTy).Contents (Elt F) → (⟨S850000x1, .i32⟩ : BufTy).Contents (Elt F) → (⟨S1x2x850000x8, .f32⟩ : BufTy).Contents (Elt F) → (⟨S1x2x50000x8, .f32⟩ : BufTy).Contents (Elt F)) (A m c main_v91) (A m c main_v97) (A m c main_v90) := by
  unfold A; exact hop_ternary ops_writes 148 main_v91 main_v97 main_v90 main_v98 _ _ _ _ _ rfl (by decide) (by decide) (by decide) (by decide) _

theorem st_main_v99 (m : (ℓ : Loc nD τ sig) → Buf (Elt F) ℓ) (c : Dev nD) :
    A m c main_v99 = beta% (broadcastInDim S1x1x1x8 ![3] bcast_S8_S1x1x1x8_3 : (⟨S8, .f32⟩ : BufTy).Contents (Elt F) → (⟨S1x1x1x8, .f32⟩ : BufTy).Contents (Elt F)) (A m c main_arg6) := by
  unfold A; exact hop_unary ops_writes 149 main_arg6 main_v99 _ _ _ rfl (by decide) (by decide) _

theorem st_main_v100 (m : (ℓ : Loc nD τ sig) → Buf (Elt F) ℓ) (c : Dev nD) :
    A m c main_v100 = beta% (broadcastInDim S1x2x50000x8 ![0, 1, 2, 3] bcast_S1x1x1x8_S1x2x50000x8_0_1_2_3 : (⟨S1x1x1x8, .f32⟩ : BufTy).Contents (Elt F) → (⟨S1x2x50000x8, .f32⟩ : BufTy).Contents (Elt F)) (A m c main_v99) := by
  unfold A; exact hop_unary ops_writes 150 main_v99 main_v100 _ _ _ rfl (by decide) (by decide) _

theorem st_main_v101 (m : (ℓ : Loc nD τ sig) → Buf (Elt F) ℓ) (c : Dev nD) :
    A m c main_v101 = beta% (addf : (⟨S1x2x50000x8, .f32⟩ : BufTy).Contents (Elt F) → (⟨S1x2x50000x8, .f32⟩ : BufTy).Contents (Elt F) → (⟨S1x2x50000x8, .f32⟩ : BufTy).Contents (Elt F)) (A m c main_v98) (A m c main_v100) := by
  unfold A; exact hop_binary ops_writes 151 main_v98 main_v100 main_v101 _ _ _ _ rfl (by decide) (by decide) (by decide) _

theorem st_main_call3_cst (m : (ℓ : Loc nD τ sig) → Buf (Elt F) ℓ) (c : Dev nD) :
    A m c main_call3_cst = (constant S_ .f32 0x00000000#32 : (⟨S_, .f32⟩ : BufTy).Contents (Elt F)) := by
  unfold A; exact hop_nullary ops_writes 152 main_call3_cst _ _ rfl (by decide) _

theorem st_main_call3_v0 (m : (ℓ : Loc nD τ sig) → Buf (Elt F) ℓ) (c : Dev nD) :
    A m c main_call3_v0 = beta% (broadcastInDim S1x2x50000x8 ![] bcast_S_S1x2x50000x8 : (⟨S_, .f32⟩ : BufTy).Contents (Elt F) → (⟨S1x2x50000x8, .f32⟩ : BufTy).Contents (Elt F)) (A m c main_call3_cst) := by
  unfold A; exact hop_unary ops_writes 153 main_call3_cst main_call3_v0 _ _ _ rfl (by decide) (by decide) _

theorem st_main_v102 (m : (ℓ : Loc nD τ sig) → Buf (Elt F) ℓ) (c : Dev nD) :
    A m c main_v102 = beta% (maximumf : (⟨S1x2x50000x8, .f32⟩ : BufTy).Contents (Elt F) → (⟨S1x2x50000x8, .f32⟩ : BufTy).Contents (Elt F) → (⟨S1x2x50000x8, .f32⟩ : BufTy).Contents (Elt F)) (A m c main_v101) (A m c main_call3_v0) := by
  unfold A; exact hop_binary ops_writes 154 main_v101 main_call3_v0 main_v102 _ _ _ _ rfl (by decide) (by decide) (by decide) _

theorem st_main_v103 (m : (ℓ : Loc nD τ sig) → Buf (Elt F) ℓ) (c : Dev nD) :
    A m c main_v103 = beta% (fun v => shapeCast S2x50000x8 v shapeCasts_S1x2x50000x8_S2x50000x8 : (⟨S1x2x50000x8, .f32⟩ : BufTy).Contents (Elt F) → (⟨S2x50000x8, .f32⟩ : BufTy).Contents (Elt F)) (A m c main_v102) := by
  unfold A; exact hop_reshape ops_writes 155 main_v102 main_v103 _ _ _ _ rfl (by decide) (by decide) _

theorem st_main_v104 (m : (ℓ : Loc nD τ sig) → Buf (Elt F) ℓ) (c : Dev nD) :
    A m c main_v104 = beta% ((transpose S2x8x50000 [0, 2, 1] · transposes_S2x50000x8_S2x8x50000_0_2_1) : (⟨S2x50000x8, .f32⟩ : BufTy).Contents (Elt F) → (⟨S2x8x50000, .f32⟩ : BufTy).Contents (Elt F)) (A m c main_v103) := by
  unfold A; exact hop_unary ops_writes 156 main_v103 main_v104 _ _ _ rfl (by decide) (by decide) _

theorem st_main_cst_22 (m : (ℓ : Loc nD τ sig) → Buf (Elt F) ℓ) (c : Dev nD) :
    A m c main_cst_22 = (constant S_ .f32 0x00000000#32 : (⟨S_, .f32⟩ : BufTy).Contents (Elt F)) := by
  unfold A; exact hop_nullary ops_writes 157 main_cst_22 _ _ rfl (by decide) _

theorem st_main_v105 (m : (ℓ : Loc nD τ sig) → Buf (Elt F) ℓ) (c : Dev nD) :
    A m c main_v105 = beta% ((fun x v => Host.reduceAdd x v reducesTo_S2x8x50000_S8_d0_2 h_S_) : (⟨S2x8x50000, .f32⟩ : BufTy).Contents (Elt F) → (⟨S_, .f32⟩ : BufTy).Contents (Elt F) → (⟨S8, .f32⟩ : BufTy).Contents (Elt F)) (A m c main_v104) (A m c main_cst_22) := by
  unfold A; exact hop_binary ops_writes 158 main_v104 main_cst_22 main_v105 _ _ _ _ rfl (by decide) (by decide) (by decide) _

theorem st_main_v106 (m : (ℓ : Loc nD τ sig) → Buf (Elt F) ℓ) (c : Dev nD) :
    A m c main_v106 = beta% (broadcastInDim S1x8x1 ![1] bcast_S8_S1x8x1_1 : (⟨S8, .f32⟩ : BufTy).Contents (Elt F) → (⟨S1x8x1, .f32⟩ : BufTy).Contents (Elt F)) (A m c main_v105) := by
  unfold A; exact hop_unary ops_writes 159 main_v105 main_v106 _ _ _ rfl (by decide) (by decide) _

theorem st_main_cst_23 (m : (ℓ : Loc nD τ sig) → Buf (Elt F) ℓ) (c : Dev nD) :
    A m c main_cst_23 = (constant S_ .f32 0x47C35000#32 : (⟨S_, .f32⟩ : BufTy).Contents (Elt F)) := by
  unfold A; exact hop_nullary ops_writes 160 main_cst_23 _ _ rfl (by decide) _

theorem st_main_v107 (m : (ℓ : Loc nD τ sig) → Buf (Elt F) ℓ) (c : Dev nD) :
    A m c main_v107 = beta% (broadcastInDim S1x8x1 ![] bcast_S_S1x8x1 : (⟨S_, .f32⟩ : BufTy).Contents (Elt F) → (⟨S1x8x1, .f32⟩ : BufTy).Contents (Elt F)) (A m c main_cst_23) := by
  unfold A; exact hop_unary ops_writes 161 main_cst_23 main_v107 _ _ _ rfl (by decide) (by decide) _

theorem st_main_v108 (m : (ℓ : Loc nD τ sig) → Buf (Elt F) ℓ) (c : Dev nD) :
    A m c main_v108 = beta% (Host.divf : (⟨S1x8x1, .f32⟩ : BufTy).Contents (Elt F) → (⟨S1x8x1, .f32⟩ : BufTy).Contents (Elt F) → (⟨S1x8x1, .f32⟩ : BufTy).Contents (Elt F)) (A m c main_v106) (A m c main_v107) := by
  unfold A; exact hop_binary ops_writes 162 main_v106 main_v107 main_v108 _ _ _ _ rfl (by decide) (by decide) (by decide) _

theorem st_main_c_24 (m : (ℓ : Loc nD τ sig) → Buf (Elt F) ℓ) (c : Dev nD) :
    A m c main_c_24 = (constantI S_ 32 0#32 : (⟨S_, .i32⟩ : BufTy).Contents (Elt F)) := by
  unfold A; exact hop_nullary ops_writes 163 main_c_24 _ _ rfl (by decide) _

theorem st_main_call4_cst (m : (ℓ : Loc nD τ sig) → Buf (Elt F) ℓ) (c : Dev nD) :
    A m c main_call4_cst = (constant S_ .f32 0x00000000#32 : (⟨S_, .f32⟩ : BufTy).Contents (Elt F)) := by
  unfold A; exact hop_nullary ops_writes 164 main_call4_cst _ _ rfl (by decide) _

theorem st_main_call4_v0 (m : (ℓ : Loc nD τ sig) → Buf (Elt F) ℓ) (c : Dev nD) :
    A m c main_call4_v0 = beta% (fun x v => Host.reduceAdd x v reducesTo_S2x8x50000_S8_d0_2 h_S_ : (⟨S2x8x50000, .f32⟩ : BufTy).Contents (Elt F) → (⟨S_, .f32⟩ : BufTy).Contents (Elt F) → (⟨S8, .f32⟩ : BufTy).Contents (Elt F)) (A m c main_v104) (A m c main_call4_cst) := by
  unfold A; exact hop_binary ops_writes 165 main_v104 main_call4_cst main_call4_v0 _ _ _ _ rfl (by decide) (by decide) (by decide) _

theorem st_main_call4_v1 (m : (ℓ : Loc nD τ sig) → Buf (Elt F) ℓ) (c : Dev nD) :
    A m c main_call4_v1 = beta% (broadcastInDim S1x8x1 ![1] bcast_S8_S1x8x1_1 : (⟨S8, .f32⟩ : BufTy).Contents (Elt F) → (⟨S1x8x1, .f32⟩ : BufTy).Contents (Elt F)) (A m c main_call4_v0) := by
  unfold A; exact hop_unary ops_writes 166 main_call4_v0 main_call4_v1 _ _ _ rfl (by decide) (by decide) _

theorem st_main_call4_cst_0 (m : (ℓ : Loc nD τ sig) → Buf (Elt F) ℓ) (c : Dev nD) :
    A m c main_call4_cst_0 = (constant S_ .f32 0x47C35000#32 : (⟨S_, .f32⟩ : BufTy).Contents (Elt F)) := by
  unfold A; exact hop_nullary ops_writes 167 main_call4_cst_0 _ _ rfl (by decide) _

theorem st_main_call4_v2 (m : (ℓ : Loc nD τ sig) → Buf (Elt F) ℓ) (c : Dev nD) :
    A m c main_call4_v2 = beta% (broadcastInDim S1x8x1 ![] bcast_S_S1x8x1 : (⟨S_, .f32⟩ : BufTy).Contents (Elt F) → (⟨S1x8x1, .f32⟩ : BufTy).Contents (Elt F)) (A m c main_call4_cst_0) := by
  unfold A; exact hop_unary ops_writes 168 main_call4_cst_0 main_call4_v2 _ _ _ rfl (by decide) (by decide) _

theorem st_main_call4_v3 (m : (ℓ : Loc nD τ sig) → Buf (Elt F) ℓ) (c : Dev nD) :
    A m c main_call4_v3 = beta% (Host.divf : (⟨S1x8x1, .f32⟩ : BufTy).Contents (Elt F) → (⟨S1x8x1, .f32⟩ : BufTy).Contents (Elt F) → (⟨S1x8x1, .f32⟩ : BufTy).Contents (Elt F)) (A m c main_call4_v1) (A m c main_call4_v2) := by
  unfold A; exact hop_binary ops_writes 169 main_call4_v1 main_call4_v2 main_call4_v3 _ _ _ _ rfl (by decide) (by decide) (by decide) _

theorem st_main_call4_v4 (m : (ℓ : Loc nD τ sig) → Buf (Elt F) ℓ) (c : Dev nD) :
    A m c main_call4_v4 = beta% (broadcastInDim S2x8x50000 ![0, 1, 2] bcast_S1x8x1_S2x8x50000_0_1_2 : (⟨S1x8x1, .f32⟩ : BufTy).Contents (Elt F) → (⟨S2x8x50000, .f32⟩ : BufTy).Contents (Elt F)) (A m c main_call4_v3) := by
  unfold A; exact hop_unary ops_writes 170 main_call4_v3 main_call4_v4 _ _ _ rfl (by decide) (by decide) _

theorem st_main_call4_v5 (m : (ℓ : Loc nD τ sig) → Buf (Elt F) ℓ) (c : Dev nD) :
    A m c main_call4_v5 = beta% (subf : (⟨S2x8x50000, .f32⟩ : BufTy).Contents (Elt F) → (⟨S2x8x50000, .f32⟩ : BufTy).Contents (Elt F) → (⟨S2x8x50000, .f32⟩ : BufTy).Contents (Elt F)) (A m c main_v104) (A m c main_call4_v4) := by
  unfold A; exact hop_binary ops_writes 171 main_v104 main_call4_v4 main_call4_v5 _ _ _ _ rfl (by decide) (by decide) (by decide) _

theorem st_main_call4_v6 (m : (ℓ : Loc nD τ sig) → Buf (Elt F) ℓ) (c : Dev nD) :
    A m c main_call4_v6 = beta% (mulf : (⟨S2x8x50000, .f32⟩ : BufTy).Contents (Elt F) → (⟨S2x8x50000, .f32⟩ : BufTy).Contents (Elt F) → (⟨S2x8x50000, .f32⟩ : BufTy).Contents (Elt F)) (A m c main_call4_v5) (A m c main_call4_v5) := by
  unfold A; exact hop_binary ops_writes 172 main_call4_v5 main_call4_v5 main_call4_v6 _ _ _ _ rfl (by decide) (by decide) (by decide) _

theorem st_main_call4_v7 (m : (ℓ : Loc nD τ sig) → Buf (Elt F) ℓ) (c : Dev nD) :
    A m c main_call4_v7 = beta% (sitofp .f32 : (⟨S_, .i32⟩ : BufTy).Contents (Elt F) → (⟨S_, .f32⟩ : BufTy).Contents (Elt F)) (A m c main_c_24) := by
  unfold A; exact hop_unary ops_writes 173 main_c_24 main_call4_v7 _ _ _ rfl (by decide) (by decide) _

theorem st_main_call4_cst_1 (m : (ℓ : Loc nD τ sig) → Buf (Elt F) ℓ) (c : Dev nD) :
    A m c main_call4_cst_1 = (constant S_ .f32 0x47C35000#32 : (⟨S_, .f32⟩ : BufTy).Contents (Elt F)) := by
  unfold A; exact hop_nullary ops_writes 174 main_call4_cst_1 _ _ rfl (by decide) _

theorem st_main_call4_v8 (m : (ℓ : Loc nD τ sig) → Buf (Elt F) ℓ) (c : Dev nD) :
    A m c main_call4_v8 = beta% (subf : (⟨S_, .f32⟩ : BufTy).Contents (Elt F) → (⟨S_, .f32⟩ : BufTy).Contents (Elt F) → (⟨S_, .f32⟩ : BufTy).Contents (Elt F)) (A m c main_call4_cst_1) (A m c main_call4_v7) := by
  unfold A; exact hop_binary ops_writes 175 main_call4_cst_1 main_call4_v7 main_call4_v8 _ _ _ _ rfl (by decide) (by decide) (by decide) _

theorem st_main_call4_cst_2 (m : (ℓ : Loc nD τ sig) → Buf (Elt F) ℓ) (c : Dev nD) :
    A m c main_call4_cst_2 = (constant S_ .f32 0x00000000#32 : (⟨S_, .f32⟩ : BufTy).Contents (Elt F)) := by
  unfold A; exact hop_nullary ops_writes 176 main_call4_cst_2 _ _ rfl (by decide) _

theorem st_main_call4_v9 (m : (ℓ : Loc nD τ sig) → Buf (Elt F) ℓ) (c : Dev nD) :
    A m c main_call4_v9 = beta% (fun x v => Host.reduceAdd x v reducesTo_S2x8x50000_S8_d0_2 h_S_ : (⟨S2x8x50000, .f32⟩ : BufTy).Contents (Elt F) → (⟨S_, .f32⟩ : BufTy).Contents (Elt F) → (⟨S8, .f32⟩ : BufTy).Contents (Elt F)) (A m c main_call4_v6) (A m c main_call4_cst_2) := by
  unfold A; exact hop_binary ops_writes 177 main_call4_v6 main_call4_cst_2 main_call4_v9 _ _ _ _ rfl (by decide) (by decide) (by decide) _

theorem st_main_call4_v10 (m : (ℓ : Loc nD τ sig) → Buf (Elt F) ℓ) (c : Dev nD) :
    A m c main_call4_v10 = beta% (broadcastInDim S1x8x1 ![1] bcast_S8_S1x8x1_1 : (⟨S8, .f32⟩ : BufTy).Contents (Elt F) → (⟨S1x8x1, .f32⟩ : BufTy).Contents (Elt F)) (A m c main_call4_v9) := by
  unfold A; exact hop_unary ops_writes 178 main_call4_v9 main_call4_v10 _ _ _ rfl (by decide) (by decide) _

theorem st_main_call4_v11 (m : (ℓ : Loc nD τ sig) → Buf (Elt F) ℓ) (c : Dev nD) :
    A m c main_call4_v11 = beta% (broadcastInDim S1x8x1 ![] bcast_S_S1x8x1 : (⟨S_, .f32⟩ : BufTy).Contents (Elt F) → (⟨S1x8x1, .f32⟩ : BufTy).Contents (Elt F)) (A m c main_call4_v8) := by
  unfold A; exact hop_unary ops_writes 179 main_call4_v8 main_call4_v11 _ _ _ rfl (by decide) (by decide) _

theorem st_main_call4_v12 (m : (ℓ : Loc nD τ sig) → Buf (Elt F) ℓ) (c : Dev nD) :
    A m c main_call4_v12 = beta% (Host.divf : (⟨S1x8x1, .f32⟩ : BufTy).Contents (Elt F) → (⟨S1x8x1, .f32⟩ : BufTy).Contents (Elt F) → (⟨S1x8x1, .f32⟩ : BufTy).Contents (Elt F)) (A m c main_call4_v10) (A m c main_call4_v11) := by
  unfold A; exact hop_binary ops_writes 180 main_call4_v10 main_call4_v11 main_call4_v12 _ _ _ _ rfl (by decide) (by decide) (by decide) _

theorem st_main_call4_cst_3 (m : (ℓ : Loc nD τ sig) → Buf (Elt F) ℓ) (c : Dev nD) :
    A m c main_call4_cst_3 = (constant S_ .f32 0x00000000#32 : (⟨S_, .f32⟩ : BufTy).Contents (Elt F)) := by
  unfold A; exact hop_nullary ops_writes 181 main_call4_cst_3 _ _ rfl (by decide) _

theorem st_main_call4_v13 (m : (ℓ : Loc nD τ sig) → Buf (Elt F) ℓ) (c : Dev nD) :
    A m c main_call4_v13 = beta% (cmpf .ogt : (⟨S_, .f32⟩ : BufTy).Contents (Elt F) → (⟨S_, .f32⟩ : BufTy).Contents (Elt F) → (⟨S_, .i1⟩ : BufTy).Contents (Elt F)) (A m c main_call4_v8) (A m c main_call4_cst_3) := by
  unfold A; exact hop_binary ops_writes 182 main_call4_v8 main_call4_cst_3 main_call4_v13 _ _ _ _ rfl (by decide) (by decide) (by decide) _

theorem st_main_call4_cst_4 (m : (ℓ : Loc nD τ sig) → Buf (Elt F) ℓ) (c : Dev nD) :
    A m c main_call4_cst_4 = (constant S_ .f32 0x7FC00000#32 : (⟨S_, .f32⟩ : BufTy).Contents (Elt F)) := by
  unfold A; exact hop_nullary ops_writes 183 main_call4_cst_4 _ _ rfl (by decide) _

theorem st_main_call4_call0_v0 (m : (ℓ : Loc nD τ sig) → Buf (Elt F) ℓ) (c : Dev nD) :
    A m c main_call4_call0_v0 = (A m c main_call4_cst_4) := by
  unfold A; exact hop_unary ops_writes 184 main_call4_cst_4 main_call4_call0_v0 _ _ _ rfl (by decide) (by decide) _

theorem st_main_call4_call0_v1 (m : (ℓ : Loc nD τ sig) → Buf (Elt F) ℓ) (c : Dev nD) :
    A m c main_call4_call0_v1 = beta% (broadcastInDim S1x8x1 ![] bcast_S_S1x8x1 : (⟨S_, .f32⟩ : BufTy).Contents (Elt F) → (⟨S1x8x1, .f32⟩ : BufTy).Contents (Elt F)) (A m c main_call4_call0_v0) := by
  unfold A; exact hop_unary ops_writes 185 main_call4_call0_v0 main_call4_call0_v1 _ _ _ rfl (by decide) (by decide) _

theorem st_main_v109 (m : (ℓ : Loc nD τ sig) → Buf (Elt F) ℓ) (c : Dev nD) :
    A m c main_v109 = beta% (fun p a b => select (broadcastInDim S1x8x1 ![] bcast_S_S1x8x1 p) a b : (⟨S_, .i1⟩ : BufTy).Contents (Elt F) → (⟨S1x8x1, .f32⟩ : BufTy).Contents (Elt F) → (⟨S1x8x1, .f32⟩ : BufTy).Contents (Elt F) → (⟨S1x8x1, .f32⟩ : BufTy).Contents (Elt F)) (A m c main_call4_v13) (A m c main_call4_v12) (A m c main_call4_call0_v1) := by
  unfold A; exact hop_ternary ops_writes 186 main_call4_v13 main_call4_v12 main_call4_call0_v1 main_v109 _ _ _ _ _ rfl (by decide) (by decide) (by decide) (by decide) _

theorem st_main_v110 (m : (ℓ : Loc nD τ sig) → Buf (Elt F) ℓ) (c : Dev nD) :
    A m c main_v110 = beta% (broadcastInDim S2x8x50000 ![0, 1, 2] bcast_S1x8x1_S2x8x50000_0_1_2 : (⟨S1x8x1, .f32⟩ : BufTy).Contents (Elt F) → (⟨S2x8x50000, .f32⟩ : BufTy).Contents (Elt F)) (A m c main_v108) := by
  unfold A; exact hop_unary ops_writes 187 main_v108 main_v110 _ _ _ rfl (by decide) (by decide) _

theorem st_main_v111 (m : (ℓ : Loc nD τ sig) → Buf (Elt F) ℓ) (c : Dev nD) :
    A m c main_v111 = beta% (subf : (⟨S2x8x50000, .f32⟩ : BufTy).Contents (Elt F) → (⟨S2x8x50000, .f32⟩ : BufTy).Contents (Elt F) → (⟨S2x8x50000, .f32⟩ : BufTy).Contents (Elt F)) (A m c main_v104) (A m c main_v110) := by
  unfold A; exact hop_binary ops_writes 188 main_v104 main_v110 main_v111 _ _ _ _ rfl (by decide) (by decide) (by decide) _

theorem st_main_cst_25 (m : (ℓ : Loc nD τ sig) → Buf (Elt F) ℓ) (c : Dev nD) :
    A m c main_cst_25 = (constant S_ .f32 0x3727C5AC#32 : (⟨S_, .f32⟩ : BufTy).Contents (Elt F)) := by
  unfold A; exact hop_nullary ops_writes 189 main_cst_25 _ _ rfl (by decide) _

theorem st_main_v112 (m : (ℓ : Loc nD τ sig) → Buf (Elt F) ℓ) (c : Dev nD) :
    A m c main_v112 = beta% (broadcastInDim S1x8x1 ![] bcast_S_S1x8x1 : (⟨S_, .f32⟩ : BufTy).Contents (Elt F) → (⟨S1x8x1, .f32⟩ : BufTy).Contents (Elt F)) (A m c main_cst_25) := by
  unfold A; exact hop_unary ops_writes 190 main_cst_25 main_v112 _ _ _ rfl (by decide) (by decide) _

theorem st_main_v113 (m : (ℓ : Loc nD τ sig) → Buf (Elt F) ℓ) (c : Dev nD) :
    A m c main_v113 = beta% (addf : (⟨S1x8x1, .f32⟩ : BufTy).Contents (Elt F) → (⟨S1x8x1, .f32⟩ : BufTy).Contents (Elt F) → (⟨S1x8x1, .f32⟩ : BufTy).Contents (Elt F)) (A m c main_v109) (A m c main_v112) := by
  unfold A; exact hop_binary ops_writes 191 main_v109 main_v112 main_v113 _ _ _ _ rfl (by decide) (by decide) (by decide) _

theorem st_main_v114 (m : (ℓ : Loc nD τ sig) → Buf (Elt F) ℓ) (c : Dev nD) :
    A m c main_v114 = beta% (Host.rsqrt : (⟨S1x8x1, .f32⟩ : BufTy).Contents (Elt F) → (⟨S1x8x1, .f32⟩ : BufTy).Contents (Elt F)) (A m c main_v113) := by
  unfold A; exact hop_unary ops_writes 192 main_v113 main_v114 _ _ _ rfl (by decide) (by decide) _

theorem st_main_v115 (m : (ℓ : Loc nD τ sig) → Buf (Elt F) ℓ) (c : Dev nD) :
    A m c main_v115 = beta% (broadcastInDim S2x8x50000 ![0, 1, 2] bcast_S1x8x1_S2x8x50000_0_1_2 : (⟨S1x8x1, .f32⟩ : BufTy).Contents (Elt F) → (⟨S2x8x50000, .f32⟩ : BufTy).Contents (Elt F)) (A m c main_v114) := by
  unfold A; exact hop_unary ops_writes 193 main_v114 main_v115 _ _ _ rfl (by decide) (by decide) _

theorem st_main_v116 (m : (ℓ : Loc nD τ sig) → Buf (Elt F) ℓ) (c : Dev nD) :
    A m c main_v116 = beta% (mulf : (⟨S2x8x50000, .f32⟩ : BufTy).Contents (Elt F) → (⟨S2x8x50000, .f32⟩ : BufTy).Contents (Elt F) → (⟨S2x8x50000, .f32⟩ : BufTy).Contents (Elt F)) (A m c main_v111) (A m c main_v115) := by
  unfold A; exact hop_binary ops_writes 194 main_v111 main_v115 main_v116 _ _ _ _ rfl (by decide) (by decide) (by decide) _

theorem st_main_v117 (m : (ℓ : Loc nD τ sig) → Buf (Elt F) ℓ) (c : Dev nD) :
    A m c main_v117 = beta% (broadcastInDim S1x8x1 ![1] bcast_S8_S1x8x1_1 : (⟨S8, .f32⟩ : BufTy).Contents (Elt F) → (⟨S1x8x1, .f32⟩ : BufTy).Contents (Elt F)) (A m c main_arg7) := by
  unfold A; exact hop_unary ops_writes 195 main_arg7 main_v117 _ _ _ rfl (by decide) (by decide) _

theorem st_main_v118 (m : (ℓ : Loc nD τ sig) → Buf (Elt F) ℓ) (c : Dev nD) :
    A m c main_v118 = beta% (broadcastInDim S2x8x50000 ![0, 1, 2] bcast_S1x8x1_S2x8x50000_0_1_2 : (⟨S1x8x1, .f32⟩ : BufTy).Contents (Elt F) → (⟨S2x8x50000, .f32⟩ : BufTy).Contents (Elt F)) (A m c main_v117) := by
  unfold A; exact hop_unary ops_writes 196 main_v117 main_v118 _ _ _ rfl (by decide) (by decide) _

theorem st_main_v119 (m : (ℓ : Loc nD τ sig) → Buf (Elt F) ℓ) (c : Dev nD) :
    A m c main_v119 = beta% (mulf : (⟨S2x8x50000, .f32⟩ : BufTy).Contents (Elt F) → (⟨S2x8x50000, .f32⟩ : BufTy).Contents (Elt F) → (⟨S2x8x50000, .f32⟩ : BufTy).Contents (Elt F)) (A m c main_v116) (A m c main_v118) := by
  unfold A; exact hop_binary ops_writes 197 main_v116 main_v118 main_v119 _ _ _ _ rfl (by decide) (by decide) (by decide) _

theorem st_main_v120 (m : (ℓ : Loc nD τ sig) → Buf (Elt F) ℓ) (c : Dev nD) :
    A m c main_v120 = beta% (broadcastInDim S1x8x1 ![1] bcast_S8_S1x8x1_1 : (⟨S8, .f32⟩ : BufTy).Contents (Elt F) → (⟨S1x8x1, .f32⟩ : BufTy).Contents (Elt F)) (A m c main_arg8) := by
  unfold A; exact hop_unary ops_writes 198 main_arg8 main_v120 _ _ _ rfl (by decide) (by decide) _

theorem st_main_v121 (m : (ℓ : Loc nD τ sig) → Buf (Elt F) ℓ) (c : Dev nD) :
    A m c main_v121 = beta% (broadcastInDim S2x8x50000 ![0, 1, 2] bcast_S1x8x1_S2x8x50000_0_1_2 : (⟨S1x8x1, .f32⟩ : BufTy).Contents (Elt F) → (⟨S2x8x50000, .f32⟩ : BufTy).Contents (Elt F)) (A m c main_v120) := by
  unfold A; exact hop_unary ops_writes 199 main_v120 main_v121 _ _ _ rfl (by decide) (by decide) _

theorem st_main_v122 (m : (ℓ : Loc nD τ sig) → Buf (Elt F) ℓ) (c : Dev nD) :
    A m c main_v122 = beta% (addf : (⟨S2x8x50000, .f32⟩ : BufTy).Contents (Elt F) → (⟨S2x8x50000, .f32⟩ : BufTy).Contents (Elt F) → (⟨S2x8x50000, .f32⟩ : BufTy).Contents (Elt F)) (A m c main_v119) (A m c main_v121) := by
  unfold A; exact hop_binary ops_writes 200 main_v119 main_v121 main_v122 _ _ _ _ rfl (by decide) (by decide) (by decide) _

theorem st_main_v123 (m : (ℓ : Loc nD τ sig) → Buf (Elt F) ℓ) (c : Dev nD) :
    A m c main_v123 = beta% ((transpose S2x50000x8 [0, 2, 1] · transposes_S2x8x50000_S2x50000x8_0_2_1) : (⟨S2x8x50000, .f32⟩ : BufTy).Contents (Elt F) → (⟨S2x50000x8, .f32⟩ : BufTy).Contents (Elt F)) (A m c main_v122) := by
  unfold A; exact hop_unary ops_writes 201 main_v122 main_v123 _ _ _ rfl (by decide) (by decide) _

theorem st_main_v124 (m : (ℓ : Loc nD τ sig) → Buf (Elt F) ℓ) (c : Dev nD) :
    A m c main_v124 = beta% (broadcastInDim S1x2x50000x8 ![1, 2, 3] bcast_S2x50000x8_S1x2x50000x8_1_2_3 : (⟨S2x50000x8, .f32⟩ : BufTy).Contents (Elt F) → (⟨S1x2x50000x8, .f32⟩ : BufTy).Contents (Elt F)) (A m c main_v123) := by
  unfold A; exact hop_unary ops_writes 202 main_v123 main_v124 _ _ _ rfl (by decide) (by decide) _

theorem st_main_v125 (m : (ℓ : Loc nD τ sig) → Buf (Elt F) ℓ) (c : Dev nD) :
    A m c main_v125 = beta% ((fun l r => Host.dotGeneral dot_S1x2x50000x8_S8x3_S1x2x50000x3_3_0_012_1_n_n none l r) : (⟨S1x2x50000x8, .f32⟩ : BufTy).Contents (Elt F) → (⟨S8x3, .f32⟩ : BufTy).Contents (Elt F) → (⟨S1x2x50000x3, .f32⟩ : BufTy).Contents (Elt F)) (A m c main_v124) (A m c main_arg9) := by
  unfold A; exact hop_binary ops_writes 203 main_v124 main_arg9 main_v125 _ _ _ _ rfl (by decide) (by decide) (by decide) _

theorem st_main_c_26 (m : (ℓ : Loc nD τ sig) → Buf (Elt F) ℓ) (c : Dev nD) :
    A m c main_c_26 = (constantI S_ 32 0#32 : (⟨S_, .i32⟩ : BufTy).Contents (Elt F)) := by
  unfold A; exact hop_nullary ops_writes 204 main_c_26 _ _ rfl (by decide) _

theorem st_main_v126 (m : (ℓ : Loc nD τ sig) → Buf (Elt F) ℓ) (c : Dev nD) :
    A m c main_v126 = beta% (broadcastInDim S850000 ![] bcast_S_S850000 : (⟨S_, .i32⟩ : BufTy).Contents (Elt F) → (⟨S850000, .i32⟩ : BufTy).Contents (Elt F)) (A m c main_c_26) := by
  unfold A; exact hop_unary ops_writes 205 main_c_26 main_v126 _ _ _ rfl (by decide) (by decide) _

theorem st_main_v127 (m : (ℓ : Loc nD τ sig) → Buf (Elt F) ℓ) (c : Dev nD) :
    A m c main_v127 = beta% (cmpi .slt : (⟨S850000, .i32⟩ : BufTy).Contents (Elt F) → (⟨S850000, .i32⟩ : BufTy).Contents (Elt F) → (⟨S850000, .i1⟩ : BufTy).Contents (Elt F)) (A m c main_v3) (A m c main_v126) := by
  unfold A; exact hop_binary ops_writes 206 main_v3 main_v126 main_v127 _ _ _ _ rfl (by decide) (by decide) (by decide) _

theorem st_main_c_27 (m : (ℓ : Loc nD τ sig) → Buf (Elt F) ℓ) (c : Dev nD) :
    A m c main_c_27 = (constantI S_ 32 50000#32 : (⟨S_, .i32⟩ : BufTy).Contents (Elt F)) := by
  unfold A; exact hop_nullary ops_writes 207 main_c_27 _ _ rfl (by decide) _

theorem st_main_v128 (m : (ℓ : Loc nD τ sig) → Buf (Elt F) ℓ) (c : Dev nD) :
    A m c main_v128 = beta% (broadcastInDim S850000 ![] bcast_S_S850000 : (⟨S_, .i32⟩ : BufTy).Contents (Elt F) → (⟨S850000, .i32⟩ : BufTy).Contents (Elt F)) (A m c main_c_27) := by
  unfold A; exact hop_unary ops_writes 208 main_c_27 main_v128 _ _ _ rfl (by decide) (by decide) _

theorem st_main_v129 (m : (ℓ : Loc nD τ sig) → Buf (Elt F) ℓ) (c : Dev nD) :
    A m c main_v129 = beta% (addi : (⟨S850000, .i32⟩ : BufTy).Contents (Elt F) → (⟨S850000, .i32⟩ : BufTy).Contents (Elt F) → (⟨S850000, .i32⟩ : BufTy).Contents (Elt F)) (A m c main_v3) (A m c main_v128) := by
  unfold A; exact hop_binary ops_writes 209 main_v3 main_v128 main_v129 _ _ _ _ rfl (by decide) (by decide) (by decide) _

theorem st_main_v130 (m : (ℓ : Loc nD τ sig) → Buf (Elt F) ℓ) (c : Dev nD) :
    A m c main_v130 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A m c main_v127) (A m c main_v129) (A m c main_v3) := by
  unfold A; exact hop_ternary ops_writes 210 main_v127 main_v129 main_v3 main_v130 _ _ _ _ _ rfl (by decide) (by decide) (by decide) (by decide) _

theorem st_main_v131 (m : (ℓ : Loc nD τ sig) → Buf (Elt F) ℓ) (c : Dev nD) :
    A m c main_v131 = beta% (broadcastInDim S850000x1 ![0] bcast_S850000_S850000x1_0 : (⟨S850000, .i32⟩ : BufTy).Contents (Elt F) → (⟨S850000x1, .i32⟩ : BufTy).Contents (Elt F)) (A m c main_v130) := by
  unfold A; exact hop_unary ops_writes 211 main_v130 main_v131 _ _ _ rfl (by decide) (by decide) _

theorem st_main_v132 (m : (ℓ : Loc nD τ sig) → Buf (Elt F) ℓ) (c : Dev nD) :
    A m c main_v132 = beta% ((fun x i => Host.gather gather_S1x2x50000x3_S850000x1_S1x2x850000x3_013_2_n_n_2_1_1213 x i) : (⟨S1x2x50000x3, .f32⟩ : BufTy).Contents (Elt F) → (⟨S850000x1, .i32⟩ : BufTy).Contents (Elt F) → (⟨S1x2x850000x3, .f32⟩ : BufTy).Contents (Elt F)) (A m c main_v125) (A m c main_v131) := by
  unfold A; exact hop_binary ops_writes 212 main_v125 main_v131 main_v132 _ _ _ _ rfl (by decide) (by decide) (by decide) _

theorem st_main_v133 (m : (ℓ : Loc nD τ sig) → Buf (Elt F) ℓ) (c : Dev nD) :
    A m c main_v133 = beta% (broadcastInDim S1x1x850000x1 ![2] bcast_S850000_S1x1x850000x1_2 : (⟨S850000, .f32⟩ : BufTy).Contents (Elt F) → (⟨S1x1x850000x1, .f32⟩ : BufTy).Contents (Elt F)) (A m c main_v34) := by
  unfold A; exact hop_unary ops_writes 213 main_v34 main_v133 _ _ _ rfl (by decide) (by decide) _

theorem st_main_v134 (m : (ℓ : Loc nD τ sig) → Buf (Elt F) ℓ) (c : Dev nD) :
    A m c main_v134 = beta% (broadcastInDim S1x2x850000x3 ![0, 1, 2, 3] bcast_S1x1x850000x1_S1x2x850000x3_0_1_2_3 : (⟨S1x1x850000x1, .f32⟩ : BufTy).Contents (Elt F) → (⟨S1x2x850000x3, .f32⟩ : BufTy).Contents (Elt F)) (A m c main_v133) := by
  unfold A; exact hop_unary ops_writes 214 main_v133 main_v134 _ _ _ rfl (by decide) (by decide) _

theorem st_main_v135 (m : (ℓ : Loc nD τ sig) → Buf (Elt F) ℓ) (c : Dev nD) :
    A m c main_v135 = beta% (mulf : (⟨S1x2x850000x3, .f32⟩ : BufTy).Contents (Elt F) → (⟨S1x2x850000x3, .f32⟩ : BufTy).Contents (Elt F) → (⟨S1x2x850000x3, .f32⟩ : BufTy).Contents (Elt F)) (A m c main_v132) (A m c main_v134) := by
  unfold A; exact hop_binary ops_writes 215 main_v132 main_v134 main_v135 _ _ _ _ rfl (by decide) (by decide) (by decide) _

theorem st_main_cst_28 (m : (ℓ : Loc nD τ sig) → Buf (Elt F) ℓ) (c : Dev nD) :
    A m c main_cst_28 = (constant S_ .f32 0x00000000#32 : (⟨S_, .f32⟩ : BufTy).Contents (Elt F)) := by
  unfold A; exact hop_nullary ops_writes 216 main_cst_28 _ _ rfl (by decide) _

theorem st_main_v136 (m : (ℓ : Loc nD τ sig) → Buf (Elt F) ℓ) (c : Dev nD) :
    A m c main_v136 = beta% (broadcastInDim S1x2x50000x3 ![] bcast_S_S1x2x50000x3 : (⟨S_, .f32⟩ : BufTy).Contents (Elt F) → (⟨S1x2x50000x3, .f32⟩ : BufTy).Contents (Elt F)) (A m c main_cst_28) := by
  unfold A; exact hop_unary ops_writes 217 main_cst_28 main_v136 _ _ _ rfl (by decide) (by decide) _

theorem st_main_c_29 (m : (ℓ : Loc nD τ sig) → Buf (Elt F) ℓ) (c : Dev nD) :
    A m c main_c_29 = (constantI S_ 32 0#32 : (⟨S_, .i32⟩ : BufTy).Contents (Elt F)) := by
  unfold A; exact hop_nullary ops_writes 218 main_c_29 _ _ rfl (by decide) _

theorem st_main_v137 (m : (ℓ : Loc nD τ sig) → Buf (Elt F) ℓ) (c : Dev nD) :
    A m c main_v137 = beta% (broadcastInDim S850000 ![] bcast_S_S850000 : (⟨S_, .i32⟩ : BufTy).Contents (Elt F) → (⟨S850000, .i32⟩ : BufTy).Contents (Elt F)) (A m c main_c_29) := by
  unfold A; exact hop_unary ops_writes 219 main_c_29 main_v137 _ _ _ rfl (by decide) (by decide) _

theorem st_main_v138 (m : (ℓ : Loc nD τ sig) → Buf (Elt F) ℓ) (c : Dev nD) :
    A m c main_v138 = beta% (cmpi .slt : (⟨S850000, .i32⟩ : BufTy).Contents (Elt F) → (⟨S850000, .i32⟩ : BufTy).Contents (Elt F) → (⟨S850000, .i1⟩ : BufTy).Contents (Elt F)) (A m c main_v6) (A m c main_v137) := by
  unfold A; exact hop_binary ops_writes 220 main_v6 main_v137 main_v138 _ _ _ _ rfl (by decide) (by decide) (by decide) _

theorem st_main_c_30 (m : (ℓ : Loc nD τ sig) → Buf (Elt F) ℓ) (c : Dev nD) :
    A m c main_c_30 = (constantI S_ 32 50000#32 : (⟨S_, .i32⟩ : BufTy).Contents (Elt F)) := by
  unfold A; exact hop_nullary ops_writes 221 main_c_30 _ _ rfl (by decide) _

theorem st_main_v139 (m : (ℓ : Loc nD τ sig) → Buf (Elt F) ℓ) (c : Dev nD) :
    A m c main_v139 = beta% (broadcastInDim S850000 ![] bcast_S_S850000 : (⟨S_, .i32⟩ : BufTy).Contents (Elt F) → (⟨S850000, .i32⟩ : BufTy).Contents (Elt F)) (A m c main_c_30) := by
  unfold A; exact hop_unary ops_writes 222 main_c_30 main_v139 _ _ _ rfl (by decide) (by decide) _

theorem st_main_v140 (m : (ℓ : Loc nD τ sig) → Buf (Elt F) ℓ) (c : Dev nD) :
    A m c main_v140 = beta% (addi : (⟨S850000, .i32⟩ : BufTy).Contents (Elt F) → (⟨S850000, .i32⟩ : BufTy).Contents (Elt F) → (⟨S850000, .i32⟩ : BufTy).Contents (Elt F)) (A m c main_v6) (A m c main_v139) := by
  unfold A; exact hop_binary ops_writes 223 main_v6 main_v139 main_v140 _ _ _ _ rfl (by decide) (by decide) (by decide) _

theorem st_main_v141 (m : (ℓ : Loc nD τ sig) → Buf (Elt F) ℓ) (c : Dev nD) :
    A m c main_v141 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A m c main_v138) (A m c main_v140) (A m c main_v6) := by
  unfold A; exact hop_ternary ops_writes 224 main_v138 main_v140 main_v6 main_v141 _ _ _ _ _ rfl (by decide) (by decide) (by decide) (by decide) _

theorem st_main_v142 (m : (ℓ : Loc nD τ sig) → Buf (Elt F) ℓ) (c : Dev nD) :
    A m c main_v142 = beta% (broadcastInDim S850000x1 ![0] bcast_S850000_S850000x1_0 : (⟨S850000, .i32⟩ : BufTy).Contents (Elt F) → (⟨S850000x1, .i32⟩ : BufTy).Contents (Elt F)) (A m c main_v141) := by
  unfold A; exact hop_unary ops_writes 225 main_v141 main_v142 _ _ _ rfl (by decide) (by decide) _

theorem st_main_v143 (m : (ℓ : Loc nD τ sig) → Buf (Elt F) ℓ) (c : Dev nD) :
    A m c main_v143 = beta% ((fun x i u => Host.scatterAdd scatter_S1x2x50000x3_S850000x1_S1x2x850000x3_013_2_2_1 x i u) : (⟨S1x2x50000x3, .f32⟩ : BufTy).Contents (Elt F) → (⟨S850000x1, .i32⟩ : BufTy).Contents (Elt F) → (⟨S1x2x850000x3, .f32⟩ : BufTy).Contents (Elt F) → (⟨S1x2x50000x3, .f32⟩ : BufTy).Contents (Elt F)) (A m c main_v136) (A m c main_v142) (A m c main_v135) := by
  unfold A; exact hop_ternary ops_writes 226 main_v136 main_v142 main_v135 main_v143 _ _ _ _ _ rfl (by decide) (by decide) (by decide) (by decide) _

theorem st_main_v144 (m : (ℓ : Loc nD τ sig) → Buf (Elt F) ℓ) (c : Dev nD) :
    A m c main_v144 = beta% (broadcastInDim S1x1x1x3 ![3] bcast_S3_S1x1x1x3_3 : (⟨S3, .f32⟩ : BufTy).Contents (Elt F) → (⟨S1x1x1x3, .f32⟩ : BufTy).Contents (Elt F)) (A m c main_arg10) := by
  unfold A; exact hop_unary ops_writes 227 main_arg10 main_v144 _ _ _ rfl (by decide) (by decide) _

theorem st_main_v145 (m : (ℓ : Loc nD τ sig) → Buf (Elt F) ℓ) (c : Dev nD) :
    A m c main_v145 = beta% (broadcastInDim S1x2x50000x3 ![0, 1, 2, 3] bcast_S1x1x1x3_S1x2x50000x3_0_1_2_3 : (⟨S1x1x1x3, .f32⟩ : BufTy).Contents (Elt F) → (⟨S1x2x50000x3, .f32⟩ : BufTy).Contents (Elt F)) (A m c main_v144) := by
  unfold A; exact hop_unary ops_writes 228 main_v144 main_v145 _ _ _ rfl (by decide) (by decide) _

theorem st_main_v146 (m : (ℓ : Loc nD τ sig) → Buf (Elt F) ℓ) (c : Dev nD) :
    A m c main_v146 = beta% (addf : (⟨S1x2x50000x3, .f32⟩ : BufTy).Contents (Elt F) → (⟨S1x2x50000x3, .f32⟩ : BufTy).Contents (Elt F) → (⟨S1x2x50000x3, .f32⟩ : BufTy).Contents (Elt F)) (A m c main_v143) (A m c main_v145) := by
  unfold A; exact hop_binary ops_writes 229 main_v143 main_v145 main_v146 _ _ _ _ rfl (by decide) (by decide) (by decide) _

end Cert.ReferenceIdeal.RefRun

end
-- ==== Proof.LibRowScatter.lean ====
/-
  A gather of rows and a scatter-add of rows, read at an index, at the ideal values.

  Let `x` be an `N × C` array and `idx` a column of `E` integers (an `E × 1` array of words read as signed integers).

  The ROW GATHER of `x` at `idx` is the `E × C` array whose row `e` is row `idx e` of `x`, the integer first
  clamped into `[0, N − 1]`: entry `(e, c)` is `x (rowOf idx e, c)`, where the row `rowOf idx e` depends on the index
  column and on `e` only — not on the column `c`, nor on `x`.

  The ROW SCATTER-ADD of an `E × C` array `upd` into `x` along `idx` adds row `e` of `upd` to row `idx e` of `x`,
  for every `e`; a row whose integer is outside `[0, N − 1]` is dropped, not clamped. The update entry `(e, c')`
  lands on the entry `(n, c)` exactly when `idx e = n` as integers and `c' = c`. At the ideal values the colliding
  updates are summed exactly, so entry `(n, c)` of the result is `x (n, c)` plus the sum of `upd (e, c)` over the
  `e` with `idx e = n`.

  Scattering the constant `1` into zeros counts the updates that land on each entry: the result is a natural number.
-/
import Idealize.ShloMosaic.PureOps.Ideal.Laws
import Idealize.ShloMosaic.Lib.ValueIdx

noncomputable section

namespace Cert.LibRowScatter

open Idealize.ShloMosaic Idealize.ShloMosaic.ValueIdx

variable {N E C w : Nat}

/-! ### The row scatter -/

section Scatter

variable (d : ScatterDims ⟨2, ![N, C]⟩ ⟨2, ![E, 1]⟩ ⟨2, ![E, C]⟩)

/-- On the row axis the window starts at the update row's integer, read signed. -/
theorem start_row (huw : d.updateWindowDims = [1]) (hiw : d.insertedWindowDims = [0])
    (hsd : d.scatterDimsToOperandDims = [0]) (hiv : d.indexVectorDim = 1) (idx : IVec ⟨2, ![E, 1]⟩ w)
    (j : (⟨2, ![E, C]⟩ : Shape).Idx) : d.start j idx 0 = (idx (ix2 (j 0) (0 : Fin 1))).toInt := by
  obtain ⟨uw, iw, sd, iv, wf⟩ := d
  dsimp only at huw hiw hsd hiv
  subst huw hiw hsd hiv
  unfold ScatterDims.start
  rw [dif_pos (List.mem_singleton.mpr rfl)]
  congr 2
  funext b
  refine Fin.ext ?_
  match b with
  | ⟨0, _⟩ => rfl
  | ⟨1, _⟩ => rfl

/-- On the column axis the window starts at `0`: the scatter index names the row axis only. -/
theorem start_col (huw : d.updateWindowDims = [1]) (hiw : d.insertedWindowDims = [0])
    (hsd : d.scatterDimsToOperandDims = [0]) (hiv : d.indexVectorDim = 1) (idx : IVec ⟨2, ![E, 1]⟩ w)
    (j : (⟨2, ![E, C]⟩ : Shape).Idx) : d.start j idx 1 = 0 := by
  obtain ⟨uw, iw, sd, iv, wf⟩ := d
  dsimp only at huw hiw hsd hiv
  subst huw hiw hsd hiv
  unfold ScatterDims.start
  rw [dif_neg (show (1 : Fin 2) ∉ ([0] : List (Fin 2)) by decide)]

/-- The row axis is inserted: no window coordinate on it. -/
theorem window_row (huw : d.updateWindowDims = [1]) (hiw : d.insertedWindowDims = [0])
    (hsd : d.scatterDimsToOperandDims = [0]) (hiv : d.indexVectorDim = 1)
    (j : (⟨2, ![E, C]⟩ : Shape).Idx) : d.window j 0 = 0 := by
  obtain ⟨uw, iw, sd, iv, wf⟩ := d
  dsimp only at huw hiw hsd hiv
  subst huw hiw hsd hiv
  unfold ScatterDims.window
  exact dif_neg (show (0 : Fin 2) ∉ ([1] : List (Fin 2)) by decide)

/-- On the column axis the window coordinate is the update's column. -/
theorem window_col (huw : d.updateWindowDims = [1]) (hiw : d.insertedWindowDims = [0])
    (hsd : d.scatterDimsToOperandDims = [0]) (hiv : d.indexVectorDim = 1)
    (j : (⟨2, ![E, C]⟩ : Shape).Idx) : d.window j 1 = (j 1).val := by
  obtain ⟨uw, iw, sd, iv, wf⟩ := d
  dsimp only at huw hiw hsd hiv
  subst huw hiw hsd hiv
  unfold ScatterDims.window
  exact (dif_pos (show (1 : Fin 2) ∈ ([1] : List (Fin 2)) by decide)).trans rfl

/-- Update entry `j` lands on entry `i` exactly when its row's integer is `i`'s row and the columns agree. -/
theorem rowScatter_resultIdx?_eq_some_iff (huw : d.updateWindowDims = [1]) (hiw : d.insertedWindowDims = [0])
    (hsd : d.scatterDimsToOperandDims = [0]) (hiv : d.indexVectorDim = 1) (idx : IVec ⟨2, ![E, 1]⟩ w)
    (j : (⟨2, ![E, C]⟩ : Shape).Idx) (i : (⟨2, ![N, C]⟩ : Shape).Idx) :
    d.resultIdx? j idx = some i ↔
      (idx (ix2 (j 0) (0 : Fin 1))).toInt = ((i 0).val : Int) ∧ (j 1).val = (i 1).val := by
  have hs0 := start_row d huw hiw hsd hiv idx j
  have hs1 := start_col d huw hiw hsd hiv idx j
  have hw0 := window_row d huw hiw hsd hiv j
  have hw1 := window_col d huw hiw hsd hiv j
  have hi0 := idx2_lt0 i
  have hi1 := idx2_lt1 i
  have hj1 := idx2_lt1 j
  unfold ScatterDims.resultIdx?
  constructor
  · intro h
    split at h
    · rename_i hr
      have hi := Option.some.inj h
      have e0 := congrArg (fun f => (f 0).val) hi
      have e1 := congrArg (fun f => (f 1).val) hi
      have r0 := hr 0
      simp only [hs0, hs1, hw0, hw1] at e0 e1 r0
      omega
    · exact absurd h (by simp)
  · rintro ⟨h0, h1⟩
    have hr : ∀ a, 0 ≤ d.start j idx a + d.window j a ∧
        d.start j idx a + d.window j a < (⟨2, ![N, C]⟩ : Shape).size a := by
      intro a
      match a with
      | ⟨0, _⟩ =>
        show 0 ≤ d.start j idx 0 + d.window j 0 ∧ d.start j idx 0 + d.window j 0 < ((N : Nat) : Int)
        rw [hs0, hw0]; omega
      | ⟨1, _⟩ =>
        show 0 ≤ d.start j idx 1 + d.window j 1 ∧ d.start j idx 1 + d.window j 1 < ((C : Nat) : Int)
        rw [hs1, hw1]; omega
    rw [dif_pos hr]
    congr 1
    funext a
    refine Fin.ext ?_
    match a with
    | ⟨0, _⟩ =>
      show (d.start j idx 0 + d.window j 0).toNat = (i 0).val
      rw [hs0, hw0]; omega
    | ⟨1, _⟩ =>
      show (d.start j idx 1 + d.window j 1).toNat = (i 1).val
      rw [hs1, hw1]; omega

/-- THE ROW SCATTER-ADD READ AT `(n, c)`: the operand's entry plus the sum, over the update rows `e` whose integer is
    `n`, of the update's entry `(e, c)`. -/
theorem hostScatterAdd_rows_apply (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c) = x (ix2 n c) +
      ∑ e ∈ Finset.univ.filter (fun e : Fin E => (idx (ix2 e (0 : Fin 1))).toInt = (n.val : Int)), upd (ix2 e c) := by
  unfold Ideal.hostScatterAdd
  congr 1
  -- both sums as sums of indicator terms; the left one split into rows and columns
  rw [Finset.sum_filter, Finset.sum_filter, sum_idx2]
  refine Finset.sum_congr rfl fun e _ => ?_
  simp only [rowScatter_resultIdx?_eq_some_iff d huw hiw hsd hiv]
  -- in row `e` only the column `c` can contribute
  by_cases hA : (idx (ix2 e (0 : Fin 1))).toInt = (n.val : Int)
  · rw [if_pos hA, Finset.sum_eq_single c]
    · exact if_pos ⟨hA, rfl⟩
    · intro b _ hb
      exact if_neg fun h => hb (Fin.ext h.2)
    · intro h
      exact absurd (Finset.mem_univ c) h
  · rw [if_neg hA]
    exact Finset.sum_eq_zero fun b _ => if_neg fun h => hA h.1

end Scatter

/-! ### Counting the updates -/

/-- Scattering ones into zeros, with an `add` body, gives at every entry a natural number: how many updates land
    there. For any shapes and any dimension numbers. -/
theorem hostScatterAdd_zero_one_nat {s si u : Shape} (d : ScatterDims s si u) {w : Nat} (idx : IVec si w) (i : s.Idx) :
    ∃ k : ℕ, Ideal.hostScatterAdd d (fun _ => (0 : EReal)) idx (fun _ => (1 : EReal)) i = (k : EReal) := by
  refine ⟨(Finset.univ.filter (fun j => d.resultIdx? j idx = some i)).card, ?_⟩
  unfold Ideal.hostScatterAdd
  rw [zero_add, Finset.sum_const, nsmul_one]

/-! ### The row gather -/

/-- The row of the operand that row `e` of a gather reads: the integer `idx e`, clamped into `[0, N − 1]`. -/
def rowOf (hN : 0 < N) (idx : IVec ⟨2, ![E, 1]⟩ w) (e : Fin E) : Fin N :=
  ⟨min (idx (ix2 e (0 : Fin 1))).toInt.toNat (N - 1), by omega⟩

theorem rowOf_val (hN : 0 < N) (idx : IVec ⟨2, ![E, 1]⟩ w) (e : Fin E) :
    (rowOf hN idx e).val = min (idx (ix2 e (0 : Fin 1))).toInt.toNat (N - 1) := rfl

section Gather

variable {α : Type} (g : GatherDims ⟨2, ![N, C]⟩ ⟨2, ![E, 1]⟩ ⟨2, ![E, C]⟩)

/-- On the row axis the slice starts at the result row's integer, read signed and clamped into `[0, N − 1]`. -/
theorem gather_start_row (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (idx : IVec ⟨2, ![E, 1]⟩ w)
    (j : (⟨2, ![E, C]⟩ : Shape).Idx) :
    g.start j idx 0 = min (idx (ix2 (j 0) (0 : Fin 1))).toInt.toNat (N - 1) := by
  obtain ⟨od, cd, ob, sb, sm, iv, ss, wf⟩ := g
  dsimp only at hod hcd hob hsb hsm hiv hss
  subst hod hcd hob hsb hsm hiv hss
  unfold GatherDims.start
  rw [dif_pos (List.mem_singleton.mpr rfl)]
  refine congrArg₂ min (congrArg (fun v => (idx v).toInt.toNat) ?_) rfl
  funext b
  refine Fin.ext ?_
  match b with
  | ⟨0, _⟩ => rfl
  | ⟨1, _⟩ => rfl

/-- On the column axis the slice starts at `0`: the start index names the row axis only. -/
theorem gather_start_col (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (idx : IVec ⟨2, ![E, 1]⟩ w)
    (j : (⟨2, ![E, C]⟩ : Shape).Idx) : g.start j idx 1 = 0 := by
  obtain ⟨od, cd, ob, sb, sm, iv, ss, wf⟩ := g
  dsimp only at hod hcd hob hsb hsm hiv hss
  subst hod hcd hob hsb hsm hiv hss
  unfold GatherDims.start
  exact dif_neg (show (1 : Fin 2) ∉ ([0] : List (Fin 2)) by decide)

/-- The row axis is collapsed: no offset coordinate on it. -/
theorem gather_off_row (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C])
    (j : (⟨2, ![E, C]⟩ : Shape).Idx) : g.offCoord j 0 = 0 := by
  obtain ⟨od, cd, ob, sb, sm, iv, ss, wf⟩ := g
  dsimp only at hod hcd hob hsb hsm hiv hss
  subst hod hcd hob hsb hsm hiv hss
  unfold GatherDims.offCoord
  exact dif_neg (show (0 : Fin 2) ∉ ([1] : List (Fin 2)) by decide)

/-- On the column axis the offset coordinate is the result's column. -/
theorem gather_off_col (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C])
    (j : (⟨2, ![E, C]⟩ : Shape).Idx) : g.offCoord j 1 = (j 1).val := by
  obtain ⟨od, cd, ob, sb, sm, iv, ss, wf⟩ := g
  dsimp only at hod hcd hob hsb hsm hiv hss
  subst hod hcd hob hsb hsm hiv hss
  unfold GatherDims.offCoord
  exact (dif_pos (show (1 : Fin 2) ∈ ([1] : List (Fin 2)) by decide)).trans rfl

/-- THE ROW GATHER READ AT `(e, c)`: the operand at row `rowOf idx e`, column `c`. -/
theorem gather_rows_apply (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (hN : 0 < N)
    (x : (⟨2, ![N, C]⟩ : Shape).Idx → α) (idx : IVec ⟨2, ![E, 1]⟩ w) (e : Fin E) (c : Fin C) :
    Host.gather g x idx (ix2 e c) = x (ix2 (rowOf hN idx e) c) := by
  have hb : ∀ a, g.batchCoord (ix2 e c) a = 0 := fun a =>
    g.batchCoord_eq_zero _ a (by rw [hob]; exact List.not_mem_nil)
  unfold Host.gather
  congr 1
  funext a
  refine Fin.ext ?_
  match a with
  | ⟨0, _⟩ =>
    show g.start (ix2 e c) idx 0 + g.batchCoord (ix2 e c) 0 + g.offCoord (ix2 e c) 0 = _
    rw [hb, gather_start_row g hod hcd hob hsb hsm hiv hss, gather_off_row g hod hcd hob hsb hsm hiv hss]
    rfl
  | ⟨1, _⟩ =>
    show g.start (ix2 e c) idx 1 + g.batchCoord (ix2 e c) 1 + g.offCoord (ix2 e c) 1 = _
    rw [hb, gather_start_col g hod hcd hob hsb hsm hiv hss, gather_off_col g hod hcd hob hsb hsm hiv hss]
    show 0 + 0 + c.val = c.val
    omega

/-- The same, with the clamped row written out. -/
theorem gather_rows_apply_min (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (hN : 0 < N)
    (x : (⟨2, ![N, C]⟩ : Shape).Idx → α) (idx : IVec ⟨2, ![E, 1]⟩ w) (e : Fin E) (c : Fin C) :
    Host.gather g x idx (ix2 e c)
      = x (ix2 (⟨min (idx (ix2 e (0 : Fin 1))).toInt.toNat (N - 1), by omega⟩ : Fin N) c) :=
  gather_rows_apply g hod hcd hob hsb hsm hiv hss hN x idx e c

end Gather

end Cert.LibRowScatter

end
-- ==== Proof.Spec.lean ====
/-
  The three-layer graph convolution both programs compute, entry by entry, over the extended reals.

  A feature map is a function of a batch index, a node and a channel. The edge list (self-loops appended) is given by two
  columns of `850000` signed words — the source column `src` and the target column `tgt`, already shifted into range where
  negative — and a weight `nrm e` per edge.

  * `lin h W`   — every node's features times a weight matrix: entry `(b, n, o)` is `∑ k, h b n k * W k o`.
  * `prop`      — message passing: entry `(b, n, c)` is the sum, over the edges `e` whose target word is `n`, of the source
                  node's entry `xw b (row e) c` times `nrm e`; the source row is the source word clamped into `[0, 49999]`,
                  a target word outside that range contributes nowhere.
  * `bias`, `relu` — add a per-channel vector; the positive part.
  * `mean`, `var` — per channel over the `100000` (batch, node) pairs: the sum divided by the count, and the mean of the
                  squared deviations from that mean. The count is the word `0x47C35000` (the float `100000`), kept as a word.
  * `bn`        — `((h − mean) · rsqrt (var + ε)) · γ + β`, with `ε` the word `0x3727C5AC`, kept as a word.

  Only sums, products and differences in a fixed association occur: the two programs differ from this text by the layout of
  their arrays and by the order of their sums, never by an algebraic law that needs finiteness.
-/
import Idealize.ShloMosaic.PureOps.Ideal
import Idealize.ShloMosaic.Lib.ValueIdx
import proofs.«172352_j22454089024045_1_alg».proof.Proof.LibRowScatter

noncomputable section

namespace Cert.GcnSpec

open Idealize.ShloMosaic Idealize.ShloMosaic.ValueIdx

/-- A feature map: batch index, node, channel. -/
abbrev Feat (C : Nat) : Type := Fin 2 → Fin 50000 → Fin C → EReal

/-- A column of `850000` signed 32-bit words, one per edge. -/
abbrev EdgeCol : Type := IVec ⟨2, ![850000, 1]⟩ 32

/-- The number of (batch, node) pairs, as the float word both programs divide by. -/
def cnt : EReal := Ideal.ofBits .f32 0x47C35000#32

/-- The variance offset, as the float word both programs add. -/
def eps : EReal := Ideal.ofBits .f32 0x3727C5AC#32

/-- The source row of edge `e`: its source word clamped into `[0, 49999]`. -/
def row (src : EdgeCol) (e : Fin 850000) : Fin 50000 :=
  Cert.LibRowScatter.rowOf (N := 50000) (by decide) src e

/-- Edge `e` lands on node `n`: its target word, read signed, is `n`. -/
def lands (tgt : EdgeCol) (e : Fin 850000) (n : Fin 50000) : Prop :=
  (tgt (ix2 e (0 : Fin 1))).toInt = (n.val : Int)

instance (tgt : EdgeCol) (e : Fin 850000) (n : Fin 50000) : Decidable (lands tgt e n) := by
  unfold lands; infer_instance

/-- Every node's features times a weight matrix. -/
def lin {Ci Co : Nat} (h : Feat Ci) (W : Fin Ci → Fin Co → EReal) : Feat Co :=
  fun b n o => ∑ k : Fin Ci, h b n k * W k o

/-- Message passing along the edges: gather at the sources, weigh, add up at the targets. -/
def prop {C : Nat} (src tgt : EdgeCol) (nrm : Fin 850000 → EReal) (xw : Feat C) : Feat C :=
  fun b n c => ∑ e ∈ Finset.univ.filter (fun e : Fin 850000 => lands tgt e n), xw b (row src e) c * nrm e

/-- Add a per-channel vector. -/
def bias {C : Nat} (h : Feat C) (bv : Fin C → EReal) : Feat C := fun b n c => h b n c + bv c

/-- The positive part. -/
def relu {C : Nat} (h : Feat C) : Feat C := fun b n c => max (h b n c) 0

/-- The per-channel mean over all (batch, node) pairs. -/
def mean {C : Nat} (h : Feat C) (c : Fin C) : EReal := Ideal.div (∑ b : Fin 2, ∑ n : Fin 50000, h b n c) cnt

/-- The per-channel mean squared deviation from the mean. -/
def var {C : Nat} (h : Feat C) (c : Fin C) : EReal :=
  Ideal.div (∑ b : Fin 2, ∑ n : Fin 50000, (h b n c - mean h c) * (h b n c - mean h c)) cnt

/-- Batch normalization with scale `g` and shift `be`. -/
def bn {C : Nat} (h : Feat C) (g be : Fin C → EReal) : Feat C :=
  fun b n c => ((h b n c - mean h c) * Ideal.rsqrt (var h c + eps)) * g c + be c

/-- One graph convolution: transform, propagate, add the bias. -/
def conv {Ci Co : Nat} (src tgt : EdgeCol) (nrm : Fin 850000 → EReal) (h : Feat Ci) (W : Fin Ci → Fin Co → EReal)
    (bv : Fin Co → EReal) : Feat Co :=
  bias (prop src tgt nrm (lin h W)) bv

section Net

variable (src tgt : EdgeCol) (nrm : Fin 850000 → EReal)
  (x : Feat 216) (W1 : Fin 216 → Fin 64 → EReal) (b1 g1 be1 : Fin 64 → EReal)
  (W2 : Fin 64 → Fin 8 → EReal) (b2 g2 be2 : Fin 8 → EReal) (W3 : Fin 8 → Fin 3 → EReal) (b3 : Fin 3 → EReal)

/-- The first layer's normalized activations. -/
def h1 : Feat 64 := bn (relu (conv src tgt nrm x W1 b1)) g1 be1

/-- The second result: the second convolution before its activation. -/
def x1 : Feat 8 := conv src tgt nrm (h1 src tgt nrm x W1 b1 g1 be1) W2 b2

/-- The second layer's normalized activations. -/
def h2 : Feat 8 := bn (relu (x1 src tgt nrm x W1 b1 g1 be1 W2 b2)) g2 be2

/-- The first result: the third convolution. -/
def out : Feat 3 := conv src tgt nrm (h2 src tgt nrm x W1 b1 g1 be1 W2 b2 g2 be2) W3 b3

end Net

end Cert.GcnSpec

end
-- ==== Proof.LibBatchRows.lean ====
/-
  A gather of rows and a scatter-add of rows WITH LEADING BATCH AXES, read at an index, at the ideal values.

  Let `x` be a `B × N × C` array (a batch of `B` arrays of `N` rows and `C` columns) and `idx` a column of `E`
  integers (an `E × 1` array of words read as signed integers). The same column serves every batch entry.

  The BATCHED ROW GATHER of `x` at `idx` is the `B × E × C` array whose entry `(b, e, c)` is `x (b, rowOf idx e, c)`:
  in every batch entry, row `e` of the result is row `idx e` of the operand, the integer clamped into `[0, N − 1]`.

  The BATCHED ROW SCATTER-ADD of a `B × E × C` array `upd` into `x` along `idx` adds, in every batch entry, row `e` of
  `upd` to row `idx e` of `x`; a row whose integer is outside `[0, N − 1]` is dropped. The update entry `(b', e, c')`
  lands on the entry `(b, n, c)` exactly when `b' = b`, `idx e = n` as integers, and `c' = c`. At the ideal values the
  colliding updates are summed exactly, so entry `(b, n, c)` of the result is `x (b, n, c)` plus the sum of
  `upd (b, e, c)` over the `e` with `idx e = n`.

  The second half states the same for arrays with one more leading axis of extent `1`: `1 × B × N × C`.
-/
import Idealize.ShloMosaic.PureOps.Ideal.Laws
import Idealize.ShloMosaic.Lib.ValueIdx
import proofs.«172352_j22454089024045_1_alg».proof.Proof.LibRowScatter

noncomputable section

namespace Cert.LibBatchRows

open Idealize.ShloMosaic Idealize.ShloMosaic.ValueIdx
open Cert.LibRowScatter (rowOf)

variable {B N E C w : Nat}

/-! ### Sums over a rank-3 and a rank-4 index set, by coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A rank-3 index's coordinates are below the extents, written as the extents themselves. -/
theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt
/-- A rank-4 index's coordinates are below the extents, written as the extents themselves. -/
theorem idx4_lt0 {n0 n1 n2 n3 : Nat} (j : (⟨4, ![n0, n1, n2, n3]⟩ : Shape).Idx) : (j 0).val < n0 := (j 0).isLt
theorem idx4_lt1 {n0 n1 n2 n3 : Nat} (j : (⟨4, ![n0, n1, n2, n3]⟩ : Shape).Idx) : (j 1).val < n1 := (j 1).isLt
theorem idx4_lt2 {n0 n1 n2 n3 : Nat} (j : (⟨4, ![n0, n1, n2, n3]⟩ : Shape).Idx) : (j 2).val < n2 := (j 2).isLt
theorem idx4_lt3 {n0 n1 n2 n3 : Nat} (j : (⟨4, ![n0, n1, n2, n3]⟩ : Shape).Idx) : (j 3).val < n3 := (j 3).isLt

/-! ### The batched row scatter, one batch axis -/

section Scatter3

variable (d : ScatterDims ⟨3, ![B, N, C]⟩ ⟨2, ![E, 1]⟩ ⟨3, ![B, E, C]⟩)

/-- On the batch axis the window starts at `0`: the scatter index names the row axis only. -/
theorem start3_batch (huw : d.updateWindowDims = [0, 2]) (hiw : d.insertedWindowDims = [1])
    (hsd : d.scatterDimsToOperandDims = [1]) (hiv : d.indexVectorDim = 1) (idx : IVec ⟨2, ![E, 1]⟩ w)
    (j : (⟨3, ![B, E, C]⟩ : Shape).Idx) : d.start j idx 0 = 0 := by
  obtain ⟨uw, iw, sd, iv, wf⟩ := d
  dsimp only at huw hiw hsd hiv
  subst huw hiw hsd hiv
  unfold ScatterDims.start
  rw [dif_neg (show (0 : Fin 3) ∉ ([1] : List (Fin 3)) by decide)]

/-- On the row axis the window starts at the update row's integer, read signed. -/
theorem start3_row (huw : d.updateWindowDims = [0, 2]) (hiw : d.insertedWindowDims = [1])
    (hsd : d.scatterDimsToOperandDims = [1]) (hiv : d.indexVectorDim = 1) (idx : IVec ⟨2, ![E, 1]⟩ w)
    (j : (⟨3, ![B, E, C]⟩ : Shape).Idx) : d.start j idx 1 = (idx (ix2 (j 1) (0 : Fin 1))).toInt := by
  obtain ⟨uw, iw, sd, iv, wf⟩ := d
  dsimp only at huw hiw hsd hiv
  subst huw hiw hsd hiv
  unfold ScatterDims.start
  rw [dif_pos (List.mem_singleton.mpr rfl)]
  congr 2
  funext b
  refine Fin.ext ?_
  match b with
  | ⟨0, _⟩ => rfl
  | ⟨1, _⟩ => rfl

/-- On the column axis the window starts at `0`. -/
theorem start3_col (huw : d.updateWindowDims = [0, 2]) (hiw : d.insertedWindowDims = [1])
    (hsd : d.scatterDimsToOperandDims = [1]) (hiv : d.indexVectorDim = 1) (idx : IVec ⟨2, ![E, 1]⟩ w)
    (j : (⟨3, ![B, E, C]⟩ : Shape).Idx) : d.start j idx 2 = 0 := by
  obtain ⟨uw, iw, sd, iv, wf⟩ := d
  dsimp only at huw hiw hsd hiv
  subst huw hiw hsd hiv
  unfold ScatterDims.start
  rw [dif_neg (show (2 : Fin 3) ∉ ([1] : List (Fin 3)) by decide)]

/-- On the batch axis the window coordinate is the update's batch entry. -/
theorem window3_batch (huw : d.updateWindowDims = [0, 2]) (hiw : d.insertedWindowDims = [1])
    (hsd : d.scatterDimsToOperandDims = [1]) (hiv : d.indexVectorDim = 1)
    (j : (⟨3, ![B, E, C]⟩ : Shape).Idx) : d.window j 0 = (j 0).val := by
  obtain ⟨uw, iw, sd, iv, wf⟩ := d
  dsimp only at huw hiw hsd hiv
  subst huw hiw hsd hiv
  unfold ScatterDims.window
  exact (dif_pos (show (0 : Fin 3) ∈ ([0, 2] : List (Fin 3)) by decide)).trans rfl

/-- The row axis is inserted: no window coordinate on it. -/
theorem window3_row (huw : d.updateWindowDims = [0, 2]) (hiw : d.insertedWindowDims = [1])
    (hsd : d.scatterDimsToOperandDims = [1]) (hiv : d.indexVectorDim = 1)
    (j : (⟨3, ![B, E, C]⟩ : Shape).Idx) : d.window j 1 = 0 := by
  obtain ⟨uw, iw, sd, iv, wf⟩ := d
  dsimp only at huw hiw hsd hiv
  subst huw hiw hsd hiv
  unfold ScatterDims.window
  exact dif_neg (show (1 : Fin 3) ∉ ([0, 2] : List (Fin 3)) by decide)

/-- On the column axis the window coordinate is the update's column. -/
theorem window3_col (huw : d.updateWindowDims = [0, 2]) (hiw : d.insertedWindowDims = [1])
    (hsd : d.scatterDimsToOperandDims = [1]) (hiv : d.indexVectorDim = 1)
    (j : (⟨3, ![B, E, C]⟩ : Shape).Idx) : d.window j 2 = (j 2).val := by
  obtain ⟨uw, iw, sd, iv, wf⟩ := d
  dsimp only at huw hiw hsd hiv
  subst huw hiw hsd hiv
  unfold ScatterDims.window
  exact (dif_pos (show (2 : Fin 3) ∈ ([0, 2] : List (Fin 3)) by decide)).trans rfl

/-- Update entry `j` lands on entry `i` exactly when its row's integer is `i`'s row and the batch entries and the
    columns agree. -/
theorem scatter3_resultIdx?_eq_some_iff (huw : d.updateWindowDims = [0, 2]) (hiw : d.insertedWindowDims = [1])
    (hsd : d.scatterDimsToOperandDims = [1]) (hiv : d.indexVectorDim = 1) (idx : IVec ⟨2, ![E, 1]⟩ w)
    (j : (⟨3, ![B, E, C]⟩ : Shape).Idx) (i : (⟨3, ![B, N, C]⟩ : Shape).Idx) :
    d.resultIdx? j idx = some i ↔
      (idx (ix2 (j 1) (0 : Fin 1))).toInt = ((i 1).val : Int) ∧ (j 0).val = (i 0).val ∧ (j 2).val = (i 2).val := by
  have hs0 := start3_batch d huw hiw hsd hiv idx j
  have hs1 := start3_row d huw hiw hsd hiv idx j
  have hs2 := start3_col d huw hiw hsd hiv idx j
  have hw0 := window3_batch d huw hiw hsd hiv j
  have hw1 := window3_row d huw hiw hsd hiv j
  have hw2 := window3_col d huw hiw hsd hiv j
  have hi0 := idx3_lt0 i
  have hi1 := idx3_lt1 i
  have hi2 := idx3_lt2 i
  have hj0 := idx3_lt0 j
  have hj2 := idx3_lt2 j
  unfold ScatterDims.resultIdx?
  constructor
  · intro h
    split at h
    · rename_i hr
      have hi := Option.some.inj h
      have e0 := congrArg (fun f => (f 0).val) hi
      have e1 := congrArg (fun f => (f 1).val) hi
      have e2 := congrArg (fun f => (f 2).val) hi
      have r1 := hr 1
      simp only [hs0, hs1, hs2, hw0, hw1, hw2] at e0 e1 e2 r1
      omega
    · exact absurd h (by simp)
  · rintro ⟨h1, h0, h2⟩
    have hr : ∀ a, 0 ≤ d.start j idx a + d.window j a ∧
        d.start j idx a + d.window j a < (⟨3, ![B, N, C]⟩ : Shape).size a := by
      intro a
      match a with
      | ⟨0, _⟩ =>
        show 0 ≤ d.start j idx 0 + d.window j 0 ∧ d.start j idx 0 + d.window j 0 < ((B : Nat) : Int)
        rw [hs0, hw0]; omega
      | ⟨1, _⟩ =>
        show 0 ≤ d.start j idx 1 + d.window j 1 ∧ d.start j idx 1 + d.window j 1 < ((N : Nat) : Int)
        rw [hs1, hw1]; omega
      | ⟨2, _⟩ =>
        show 0 ≤ d.start j idx 2 + d.window j 2 ∧ d.start j idx 2 + d.window j 2 < ((C : Nat) : Int)
        rw [hs2, hw2]; omega
    rw [dif_pos hr]
    congr 1
    funext a
    refine Fin.ext ?_
    match a with
    | ⟨0, _⟩ =>
      show (d.start j idx 0 + d.window j 0).toNat = (i 0).val
      rw [hs0, hw0]; omega
    | ⟨1, _⟩ =>
      show (d.start j idx 1 + d.window j 1).toNat = (i 1).val
      rw [hs1, hw1]; omega
    | ⟨2, _⟩ =>
      show (d.start j idx 2 + d.window j 2).toNat = (i 2).val
      rw [hs2, hw2]; omega

/-- THE BATCHED ROW SCATTER-ADD READ AT `(b, n, c)`: the operand's entry plus the sum, over the update rows `e` whose
    integer is `n`, of the update's entry `(b, e, c)`. -/
theorem scatterAdd3_apply (huw : d.updateWindowDims = [0, 2]) (hiw : d.insertedWindowDims = [1])
    (hsd : d.scatterDimsToOperandDims = [1]) (hiv : d.indexVectorDim = 1)
    (x : (⟨3, ![B, N, C]⟩ : Shape).Idx → EReal) (idx : IVec ⟨2, ![E, 1]⟩ w)
    (upd : (⟨3, ![B, E, C]⟩ : Shape).Idx → EReal) (b : Fin B) (n : Fin N) (c : Fin C) :
    Ideal.hostScatterAdd d x idx upd (ix3 b n c) = x (ix3 b n c) +
      ∑ e ∈ Finset.univ.filter (fun e : Fin E => (idx (ix2 e (0 : Fin 1))).toInt = (n.val : Int)), upd (ix3 b e c) := by
  unfold Ideal.hostScatterAdd
  congr 1
  -- both sums as sums of indicator terms; the left one split into batch entries, rows and columns
  rw [Finset.sum_filter, Finset.sum_filter, sum_idx3]
  simp only [scatter3_resultIdx?_eq_some_iff d huw hiw hsd hiv]
  -- only the batch entry `b` can contribute
  rw [Finset.sum_eq_single b]
  · refine Finset.sum_congr rfl fun e _ => ?_
    -- in row `e` only the column `c` can contribute
    by_cases hA : (idx (ix2 e (0 : Fin 1))).toInt = (n.val : Int)
    · rw [if_pos hA, Finset.sum_eq_single c]
      · exact if_pos ⟨hA, rfl, rfl⟩
      · intro c' _ hc'
        exact if_neg fun h => hc' (Fin.ext h.2.2)
      · intro h
        exact absurd (Finset.mem_univ c) h
    · rw [if_neg hA]
      exact Finset.sum_eq_zero fun c' _ => if_neg fun h => hA h.1
  · intro b' _ hb'
    exact Finset.sum_eq_zero fun e _ => Finset.sum_eq_zero fun c' _ => if_neg fun h => hb' (Fin.ext h.2.1)
  · intro h
    exact absurd (Finset.mem_univ b) h

end Scatter3

/-! ### The batched row gather, one batch axis -/

section Gather3

variable {α : Type} (g : GatherDims ⟨3, ![B, N, C]⟩ ⟨2, ![E, 1]⟩ ⟨3, ![B, E, C]⟩)

/-- On the batch axis the slice starts at `0`: the start index names the row axis only. -/
theorem gather3_start_batch (hod : g.offsetDims = [0, 2]) (hcd : g.collapsedSliceDims = [1])
    (hob : g.operandBatchingDims = []) (hsb : g.startIndicesBatchingDims = []) (hsm : g.startIndexMap = [1])
    (hiv : g.indexVectorDim = 1) (hss : g.sliceSizes = ![B, 1, C]) (idx : IVec ⟨2, ![E, 1]⟩ w)
    (j : (⟨3, ![B, E, C]⟩ : Shape).Idx) : g.start j idx 0 = 0 := by
  obtain ⟨od, cd, ob, sb, sm, iv, ss, wf⟩ := g
  dsimp only at hod hcd hob hsb hsm hiv hss
  subst hod hcd hob hsb hsm hiv hss
  unfold GatherDims.start
  exact dif_neg (show (0 : Fin 3) ∉ ([1] : List (Fin 3)) by decide)

/-- On the row axis the slice starts at the result row's integer, read signed and clamped into `[0, N − 1]`. -/
theorem gather3_start_row (hod : g.offsetDims = [0, 2]) (hcd : g.collapsedSliceDims = [1])
    (hob : g.operandBatchingDims = []) (hsb : g.startIndicesBatchingDims = []) (hsm : g.startIndexMap = [1])
    (hiv : g.indexVectorDim = 1) (hss : g.sliceSizes = ![B, 1, C]) (idx : IVec ⟨2, ![E, 1]⟩ w)
    (j : (⟨3, ![B, E, C]⟩ : Shape).Idx) :
    g.start j idx 1 = min (idx (ix2 (j 1) (0 : Fin 1))).toInt.toNat (N - 1) := by
  obtain ⟨od, cd, ob, sb, sm, iv, ss, wf⟩ := g
  dsimp only at hod hcd hob hsb hsm hiv hss
  subst hod hcd hob hsb hsm hiv hss
  unfold GatherDims.start
  rw [dif_pos (List.mem_singleton.mpr rfl)]
  refine congrArg₂ min (congrArg (fun v => (idx v).toInt.toNat) ?_) rfl
  funext b
  refine Fin.ext ?_
  match b with
  | ⟨0, _⟩ => rfl
  | ⟨1, _⟩ => rfl

/-- On the column axis the slice starts at `0`. -/
theorem gather3_start_col (hod : g.offsetDims = [0, 2]) (hcd : g.collapsedSliceDims = [1])
    (hob : g.operandBatchingDims = []) (hsb : g.startIndicesBatchingDims = []) (hsm : g.startIndexMap = [1])
    (hiv : g.indexVectorDim = 1) (hss : g.sliceSizes = ![B, 1, C]) (idx : IVec ⟨2, ![E, 1]⟩ w)
    (j : (⟨3, ![B, E, C]⟩ : Shape).Idx) : g.start j idx 2 = 0 := by
  obtain ⟨od, cd, ob, sb, sm, iv, ss, wf⟩ := g
  dsimp only at hod hcd hob hsb hsm hiv hss
  subst hod hcd hob hsb hsm hiv hss
  unfold GatherDims.start
  exact dif_neg (show (2 : Fin 3) ∉ ([1] : List (Fin 3)) by decide)

/-- On the batch axis the offset coordinate is the result's batch entry. -/
theorem gather3_off_batch (hod : g.offsetDims = [0, 2]) (hcd : g.collapsedSliceDims = [1])
    (hob : g.operandBatchingDims = []) (hsb : g.startIndicesBatchingDims = []) (hsm : g.startIndexMap = [1])
    (hiv : g.indexVectorDim = 1) (hss : g.sliceSizes = ![B, 1, C])
    (j : (⟨3, ![B, E, C]⟩ : Shape).Idx) : g.offCoord j 0 = (j 0).val := by
  obtain ⟨od, cd, ob, sb, sm, iv, ss, wf⟩ := g
  dsimp only at hod hcd hob hsb hsm hiv hss
  subst hod hcd hob hsb hsm hiv hss
  unfold GatherDims.offCoord
  exact (dif_pos (show (0 : Fin 3) ∈ ([0, 2] : List (Fin 3)) by decide)).trans rfl

/-- The row axis is collapsed: no offset coordinate on it. -/
theorem gather3_off_row (hod : g.offsetDims = [0, 2]) (hcd : g.collapsedSliceDims = [1])
    (hob : g.operandBatchingDims = []) (hsb : g.startIndicesBatchingDims = []) (hsm : g.startIndexMap = [1])
    (hiv : g.indexVectorDim = 1) (hss : g.sliceSizes = ![B, 1, C])
    (j : (⟨3, ![B, E, C]⟩ : Shape).Idx) : g.offCoord j 1 = 0 := by
  obtain ⟨od, cd, ob, sb, sm, iv, ss, wf⟩ := g
  dsimp only at hod hcd hob hsb hsm hiv hss
  subst hod hcd hob hsb hsm hiv hss
  unfold GatherDims.offCoord
  exact dif_neg (show (1 : Fin 3) ∉ ([0, 2] : List (Fin 3)) by decide)

/-- On the column axis the offset coordinate is the result's column. -/
theorem gather3_off_col (hod : g.offsetDims = [0, 2]) (hcd : g.collapsedSliceDims = [1])
    (hob : g.operandBatchingDims = []) (hsb : g.startIndicesBatchingDims = []) (hsm : g.startIndexMap = [1])
    (hiv : g.indexVectorDim = 1) (hss : g.sliceSizes = ![B, 1, C])
    (j : (⟨3, ![B, E, C]⟩ : Shape).Idx) : g.offCoord j 2 = (j 2).val := by
  obtain ⟨od, cd, ob, sb, sm, iv, ss, wf⟩ := g
  dsimp only at hod hcd hob hsb hsm hiv hss
  subst hod hcd hob hsb hsm hiv hss
  unfold GatherDims.offCoord
  exact (dif_pos (show (2 : Fin 3) ∈ ([0, 2] : List (Fin 3)) by decide)).trans rfl

/-- THE BATCHED ROW GATHER READ AT `(b, e, c)`: the operand at batch entry `b`, row `rowOf idx e`, column `c`. -/
theorem gather3_apply (hod : g.offsetDims = [0, 2]) (hcd : g.collapsedSliceDims = [1])
    (hob : g.operandBatchingDims = []) (hsb : g.startIndicesBatchingDims = []) (hsm : g.startIndexMap = [1])
    (hiv : g.indexVectorDim = 1) (hss : g.sliceSizes = ![B, 1, C]) (hN : 0 < N)
    (x : (⟨3, ![B, N, C]⟩ : Shape).Idx → α) (idx : IVec ⟨2, ![E, 1]⟩ w) (b : Fin B) (e : Fin E) (c : Fin C) :
    Host.gather g x idx (ix3 b e c) = x (ix3 b (rowOf hN idx e) c) := by
  have hb : ∀ a, g.batchCoord (ix3 b e c) a = 0 := fun a =>
    g.batchCoord_eq_zero _ a (by rw [hob]; exact List.not_mem_nil)
  unfold Host.gather
  congr 1
  funext a
  refine Fin.ext ?_
  match a with
  | ⟨0, _⟩ =>
    show g.start (ix3 b e c) idx 0 + g.batchCoord (ix3 b e c) 0 + g.offCoord (ix3 b e c) 0 = _
    rw [hb, gather3_start_batch g hod hcd hob hsb hsm hiv hss, gather3_off_batch g hod hcd hob hsb hsm hiv hss]
    show 0 + 0 + b.val = b.val
    omega
  | ⟨1, _⟩ =>
    show g.start (ix3 b e c) idx 1 + g.batchCoord (ix3 b e c) 1 + g.offCoord (ix3 b e c) 1 = _
    rw [hb, gather3_start_row g hod hcd hob hsb hsm hiv hss, gather3_off_row g hod hcd hob hsb hsm hiv hss]
    rfl
  | ⟨2, _⟩ =>
    show g.start (ix3 b e c) idx 2 + g.batchCoord (ix3 b e c) 2 + g.offCoord (ix3 b e c) 2 = _
    rw [hb, gather3_start_col g hod hcd hob hsb hsm hiv hss, gather3_off_col g hod hcd hob hsb hsm hiv hss]
    show 0 + 0 + c.val = c.val
    omega

end Gather3

/-! ### The batched row scatter, a unit axis and a batch axis in front -/

section Scatter4

variable (d : ScatterDims ⟨4, ![1, B, N, C]⟩ ⟨2, ![E, 1]⟩ ⟨4, ![1, B, E, C]⟩)

/-- On the unit axis the window starts at `0`: the scatter index names the row axis only. -/
theorem start4_unit (huw : d.updateWindowDims = [0, 1, 3]) (hiw : d.insertedWindowDims = [2])
    (hsd : d.scatterDimsToOperandDims = [2]) (hiv : d.indexVectorDim = 1) (idx : IVec ⟨2, ![E, 1]⟩ w)
    (j : (⟨4, ![1, B, E, C]⟩ : Shape).Idx) : d.start j idx 0 = 0 := by
  obtain ⟨uw, iw, sd, iv, wf⟩ := d
  dsimp only at huw hiw hsd hiv
  subst huw hiw hsd hiv
  unfold ScatterDims.start
  rw [dif_neg (show (0 : Fin 4) ∉ ([2] : List (Fin 4)) by decide)]

/-- On the batch axis the window starts at `0`. -/
theorem start4_batch (huw : d.updateWindowDims = [0, 1, 3]) (hiw : d.insertedWindowDims = [2])
    (hsd : d.scatterDimsToOperandDims = [2]) (hiv : d.indexVectorDim = 1) (idx : IVec ⟨2, ![E, 1]⟩ w)
    (j : (⟨4, ![1, B, E, C]⟩ : Shape).Idx) : d.start j idx 1 = 0 := by
  obtain ⟨uw, iw, sd, iv, wf⟩ := d
  dsimp only at huw hiw hsd hiv
  subst huw hiw hsd hiv
  unfold ScatterDims.start
  rw [dif_neg (show (1 : Fin 4) ∉ ([2] : List (Fin 4)) by decide)]

/-- On the row axis the window starts at the update row's integer, read signed. -/
theorem start4_row (huw : d.updateWindowDims = [0, 1, 3]) (hiw : d.insertedWindowDims = [2])
    (hsd : d.scatterDimsToOperandDims = [2]) (hiv : d.indexVectorDim = 1) (idx : IVec ⟨2, ![E, 1]⟩ w)
    (j : (⟨4, ![1, B, E, C]⟩ : Shape).Idx) : d.start j idx 2 = (idx (ix2 (j 2) (0 : Fin 1))).toInt := by
  obtain ⟨uw, iw, sd, iv, wf⟩ := d
  dsimp only at huw hiw hsd hiv
  subst huw hiw hsd hiv
  unfold ScatterDims.start
  rw [dif_pos (List.mem_singleton.mpr rfl)]
  congr 2
  funext b
  refine Fin.ext ?_
  match b with
  | ⟨0, _⟩ => rfl
  | ⟨1, _⟩ => rfl

/-- On the column axis the window starts at `0`. -/
theorem start4_col (huw : d.updateWindowDims = [0, 1, 3]) (hiw : d.insertedWindowDims = [2])
    (hsd : d.scatterDimsToOperandDims = [2]) (hiv : d.indexVectorDim = 1) (idx : IVec ⟨2, ![E, 1]⟩ w)
    (j : (⟨4, ![1, B, E, C]⟩ : Shape).Idx) : d.start j idx 3 = 0 := by
  obtain ⟨uw, iw, sd, iv, wf⟩ := d
  dsimp only at huw hiw hsd hiv
  subst huw hiw hsd hiv
  unfold ScatterDims.start
  rw [dif_neg (show (3 : Fin 4) ∉ ([2] : List (Fin 4)) by decide)]

/-- On the unit axis the window coordinate is the update's. -/
theorem window4_unit (huw : d.updateWindowDims = [0, 1, 3]) (hiw : d.insertedWindowDims = [2])
    (hsd : d.scatterDimsToOperandDims = [2]) (hiv : d.indexVectorDim = 1)
    (j : (⟨4, ![1, B, E, C]⟩ : Shape).Idx) : d.window j 0 = (j 0).val := by
  obtain ⟨uw, iw, sd, iv, wf⟩ := d
  dsimp only at huw hiw hsd hiv
  subst huw hiw hsd hiv
  unfold ScatterDims.window
  exact (dif_pos (show (0 : Fin 4) ∈ ([0, 1, 3] : List (Fin 4)) by decide)).trans rfl

/-- On the batch axis the window coordinate is the update's batch entry. -/
theorem window4_batch (huw : d.updateWindowDims = [0, 1, 3]) (hiw : d.insertedWindowDims = [2])
    (hsd : d.scatterDimsToOperandDims = [2]) (hiv : d.indexVectorDim = 1)
    (j : (⟨4, ![1, B, E, C]⟩ : Shape).Idx) : d.window j 1 = (j 1).val := by
  obtain ⟨uw, iw, sd, iv, wf⟩ := d
  dsimp only at huw hiw hsd hiv
  subst huw hiw hsd hiv
  unfold ScatterDims.window
  exact (dif_pos (show (1 : Fin 4) ∈ ([0, 1, 3] : List (Fin 4)) by decide)).trans rfl

/-- The row axis is inserted: no window coordinate on it. -/
theorem window4_row (huw : d.updateWindowDims = [0, 1, 3]) (hiw : d.insertedWindowDims = [2])
    (hsd : d.scatterDimsToOperandDims = [2]) (hiv : d.indexVectorDim = 1)
    (j : (⟨4, ![1, B, E, C]⟩ : Shape).Idx) : d.window j 2 = 0 := by
  obtain ⟨uw, iw, sd, iv, wf⟩ := d
  dsimp only at huw hiw hsd hiv
  subst huw hiw hsd hiv
  unfold ScatterDims.window
  exact dif_neg (show (2 : Fin 4) ∉ ([0, 1, 3] : List (Fin 4)) by decide)

/-- On the column axis the window coordinate is the update's column. -/
theorem window4_col (huw : d.updateWindowDims = [0, 1, 3]) (hiw : d.insertedWindowDims = [2])
    (hsd : d.scatterDimsToOperandDims = [2]) (hiv : d.indexVectorDim = 1)
    (j : (⟨4, ![1, B, E, C]⟩ : Shape).Idx) : d.window j 3 = (j 3).val := by
  obtain ⟨uw, iw, sd, iv, wf⟩ := d
  dsimp only at huw hiw hsd hiv
  subst huw hiw hsd hiv
  unfold ScatterDims.window
  exact (dif_pos (show (3 : Fin 4) ∈ ([0, 1, 3] : List (Fin 4)) by decide)).trans rfl

/-- Update entry `j` lands on entry `i` exactly when its row's integer is `i`'s row and the other three coordinates
    agree. -/
theorem scatter4_resultIdx?_eq_some_iff (huw : d.updateWindowDims = [0, 1, 3]) (hiw : d.insertedWindowDims = [2])
    (hsd : d.scatterDimsToOperandDims = [2]) (hiv : d.indexVectorDim = 1) (idx : IVec ⟨2, ![E, 1]⟩ w)
    (j : (⟨4, ![1, B, E, C]⟩ : Shape).Idx) (i : (⟨4, ![1, B, N, C]⟩ : Shape).Idx) :
    d.resultIdx? j idx = some i ↔
      (idx (ix2 (j 2) (0 : Fin 1))).toInt = ((i 2).val : Int) ∧ (j 0).val = (i 0).val ∧ (j 1).val = (i 1).val ∧
        (j 3).val = (i 3).val := by
  have hs0 := start4_unit d huw hiw hsd hiv idx j
  have hs1 := start4_batch d huw hiw hsd hiv idx j
  have hs2 := start4_row d huw hiw hsd hiv idx j
  have hs3 := start4_col d huw hiw hsd hiv idx j
  have hw0 := window4_unit d huw hiw hsd hiv j
  have hw1 := window4_batch d huw hiw hsd hiv j
  have hw2 := window4_row d huw hiw hsd hiv j
  have hw3 := window4_col d huw hiw hsd hiv j
  have hi0 := idx4_lt0 i
  have hi1 := idx4_lt1 i
  have hi2 := idx4_lt2 i
  have hi3 := idx4_lt3 i
  have hj0 := idx4_lt0 j
  have hj1 := idx4_lt1 j
  have hj3 := idx4_lt3 j
  unfold ScatterDims.resultIdx?
  constructor
  · intro h
    split at h
    · rename_i hr
      have hi := Option.some.inj h
      have e0 := congrArg (fun f => (f 0).val) hi
      have e1 := congrArg (fun f => (f 1).val) hi
      have e2 := congrArg (fun f => (f 2).val) hi
      have e3 := congrArg (fun f => (f 3).val) hi
      have r2 := hr 2
      simp only [hs0, hs1, hs2, hs3, hw0, hw1, hw2, hw3] at e0 e1 e2 e3 r2
      omega
    · exact absurd h (by simp)
  · rintro ⟨h2, h0, h1, h3⟩
    have hr : ∀ a, 0 ≤ d.start j idx a + d.window j a ∧
        d.start j idx a + d.window j a < (⟨4, ![1, B, N, C]⟩ : Shape).size a := by
      intro a
      match a with
      | ⟨0, _⟩ =>
        show 0 ≤ d.start j idx 0 + d.window j 0 ∧ d.start j idx 0 + d.window j 0 < ((1 : Nat) : Int)
        rw [hs0, hw0]; omega
      | ⟨1, _⟩ =>
        show 0 ≤ d.start j idx 1 + d.window j 1 ∧ d.start j idx 1 + d.window j 1 < ((B : Nat) : Int)
        rw [hs1, hw1]; omega
      | ⟨2, _⟩ =>
        show 0 ≤ d.start j idx 2 + d.window j 2 ∧ d.start j idx 2 + d.window j 2 < ((N : Nat) : Int)
        rw [hs2, hw2]; omega
      | ⟨3, _⟩ =>
        show 0 ≤ d.start j idx 3 + d.window j 3 ∧ d.start j idx 3 + d.window j 3 < ((C : Nat) : Int)
        rw [hs3, hw3]; omega
    rw [dif_pos hr]
    congr 1
    funext a
    refine Fin.ext ?_
    match a with
    | ⟨0, _⟩ =>
      show (d.start j idx 0 + d.window j 0).toNat = (i 0).val
      rw [hs0, hw0]; omega
    | ⟨1, _⟩ =>
      show (d.start j idx 1 + d.window j 1).toNat = (i 1).val
      rw [hs1, hw1]; omega
    | ⟨2, _⟩ =>
      show (d.start j idx 2 + d.window j 2).toNat = (i 2).val
      rw [hs2, hw2]; omega
    | ⟨3, _⟩ =>
      show (d.start j idx 3 + d.window j 3).toNat = (i 3).val
      rw [hs3, hw3]; omega

/-- THE BATCHED ROW SCATTER-ADD READ AT `(0, b, n, c)`: the operand's entry plus the sum, over the update rows `e`
    whose integer is `n`, of the update's entry `(0, b, e, c)`. -/
theorem scatterAdd4_apply (huw : d.updateWindowDims = [0, 1, 3]) (hiw : d.insertedWindowDims = [2])
    (hsd : d.scatterDimsToOperandDims = [2]) (hiv : d.indexVectorDim = 1)
    (x : (⟨4, ![1, B, N, C]⟩ : Shape).Idx → EReal) (idx : IVec ⟨2, ![E, 1]⟩ w)
    (upd : (⟨4, ![1, B, E, C]⟩ : Shape).Idx → EReal) (b : Fin B) (n : Fin N) (c : Fin C) :
    Ideal.hostScatterAdd d x idx upd (ix4 (0 : Fin 1) b n c) = x (ix4 (0 : Fin 1) b n c) +
      ∑ e ∈ Finset.univ.filter (fun e : Fin E => (idx (ix2 e (0 : Fin 1))).toInt = (n.val : Int)),
        upd (ix4 (0 : Fin 1) b e c) := by
  unfold Ideal.hostScatterAdd
  congr 1
  -- both sums as sums of indicator terms; the left one split by its four coordinates
  rw [Finset.sum_filter, Finset.sum_filter, sum_idx4]
  simp only [scatter4_resultIdx?_eq_some_iff d huw hiw hsd hiv]
  -- the unit axis has the one entry `0`, and only the batch entry `b` can contribute
  rw [Finset.sum_eq_single (0 : Fin 1), Finset.sum_eq_single b]
  · refine Finset.sum_congr rfl fun e _ => ?_
    -- in row `e` only the column `c` can contribute
    by_cases hA : (idx (ix2 e (0 : Fin 1))).toInt = (n.val : Int)
    · rw [if_pos hA, Finset.sum_eq_single c]
      · exact if_pos ⟨hA, rfl, rfl, rfl⟩
      · intro c' _ hc'
        exact if_neg fun h => hc' (Fin.ext h.2.2.2)
      · intro h
        exact absurd (Finset.mem_univ c) h
    · rw [if_neg hA]
      exact Finset.sum_eq_zero fun c' _ => if_neg fun h => hA h.1
  · intro b' _ hb'
    exact Finset.sum_eq_zero fun e _ => Finset.sum_eq_zero fun c' _ => if_neg fun h => hb' (Fin.ext h.2.2.1)
  · intro h
    exact absurd (Finset.mem_univ b) h
  · intro a' _ ha'
    exact absurd (Subsingleton.elim a' 0) ha'
  · intro h
    exact absurd (Finset.mem_univ (0 : Fin 1)) h

end Scatter4

/-! ### The batched row gather, a unit axis and a batch axis in front -/

section Gather4

variable {α : Type} (g : GatherDims ⟨4, ![1, B, N, C]⟩ ⟨2, ![E, 1]⟩ ⟨4, ![1, B, E, C]⟩)

/-- On the unit axis the slice starts at `0`: the start index names the row axis only. -/
theorem gather4_start_unit (hod : g.offsetDims = [0, 1, 3]) (hcd : g.collapsedSliceDims = [2])
    (hob : g.operandBatchingDims = []) (hsb : g.startIndicesBatchingDims = []) (hsm : g.startIndexMap = [2])
    (hiv : g.indexVectorDim = 1) (hss : g.sliceSizes = ![1, B, 1, C]) (idx : IVec ⟨2, ![E, 1]⟩ w)
    (j : (⟨4, ![1, B, E, C]⟩ : Shape).Idx) : g.start j idx 0 = 0 := by
  obtain ⟨od, cd, ob, sb, sm, iv, ss, wf⟩ := g
  dsimp only at hod hcd hob hsb hsm hiv hss
  subst hod hcd hob hsb hsm hiv hss
  unfold GatherDims.start
  exact dif_neg (show (0 : Fin 4) ∉ ([2] : List (Fin 4)) by decide)

/-- On the batch axis the slice starts at `0`. -/
theorem gather4_start_batch (hod : g.offsetDims = [0, 1, 3]) (hcd : g.collapsedSliceDims = [2])
    (hob : g.operandBatchingDims = []) (hsb : g.startIndicesBatchingDims = []) (hsm : g.startIndexMap = [2])
    (hiv : g.indexVectorDim = 1) (hss : g.sliceSizes = ![1, B, 1, C]) (idx : IVec ⟨2, ![E, 1]⟩ w)
    (j : (⟨4, ![1, B, E, C]⟩ : Shape).Idx) : g.start j idx 1 = 0 := by
  obtain ⟨od, cd, ob, sb, sm, iv, ss, wf⟩ := g
  dsimp only at hod hcd hob hsb hsm hiv hss
  subst hod hcd hob hsb hsm hiv hss
  unfold GatherDims.start
  exact dif_neg (show (1 : Fin 4) ∉ ([2] : List (Fin 4)) by decide)

/-- On the row axis the slice starts at the result row's integer, read signed and clamped into `[0, N − 1]`. -/
theorem gather4_start_row (hod : g.offsetDims = [0, 1, 3]) (hcd : g.collapsedSliceDims = [2])
    (hob : g.operandBatchingDims = []) (hsb : g.startIndicesBatchingDims = []) (hsm : g.startIndexMap = [2])
    (hiv : g.indexVectorDim = 1) (hss : g.sliceSizes = ![1, B, 1, C]) (idx : IVec ⟨2, ![E, 1]⟩ w)
    (j : (⟨4, ![1, B, E, C]⟩ : Shape).Idx) :
    g.start j idx 2 = min (idx (ix2 (j 2) (0 : Fin 1))).toInt.toNat (N - 1) := by
  obtain ⟨od, cd, ob, sb, sm, iv, ss, wf⟩ := g
  dsimp only at hod hcd hob hsb hsm hiv hss
  subst hod hcd hob hsb hsm hiv hss
  unfold GatherDims.start
  rw [dif_pos (List.mem_singleton.mpr rfl)]
  refine congrArg₂ min (congrArg (fun v => (idx v).toInt.toNat) ?_) rfl
  funext b
  refine Fin.ext ?_
  match b with
  | ⟨0, _⟩ => rfl
  | ⟨1, _⟩ => rfl

/-- On the column axis the slice starts at `0`. -/
theorem gather4_start_col (hod : g.offsetDims = [0, 1, 3]) (hcd : g.collapsedSliceDims = [2])
    (hob : g.operandBatchingDims = []) (hsb : g.startIndicesBatchingDims = []) (hsm : g.startIndexMap = [2])
    (hiv : g.indexVectorDim = 1) (hss : g.sliceSizes = ![1, B, 1, C]) (idx : IVec ⟨2, ![E, 1]⟩ w)
    (j : (⟨4, ![1, B, E, C]⟩ : Shape).Idx) : g.start j idx 3 = 0 := by
  obtain ⟨od, cd, ob, sb, sm, iv, ss, wf⟩ := g
  dsimp only at hod hcd hob hsb hsm hiv hss
  subst hod hcd hob hsb hsm hiv hss
  unfold GatherDims.start
  exact dif_neg (show (3 : Fin 4) ∉ ([2] : List (Fin 4)) by decide)

/-- On the unit axis the offset coordinate is the result's. -/
theorem gather4_off_unit (hod : g.offsetDims = [0, 1, 3]) (hcd : g.collapsedSliceDims = [2])
    (hob : g.operandBatchingDims = []) (hsb : g.startIndicesBatchingDims = []) (hsm : g.startIndexMap = [2])
    (hiv : g.indexVectorDim = 1) (hss : g.sliceSizes = ![1, B, 1, C])
    (j : (⟨4, ![1, B, E, C]⟩ : Shape).Idx) : g.offCoord j 0 = (j 0).val := by
  obtain ⟨od, cd, ob, sb, sm, iv, ss, wf⟩ := g
  dsimp only at hod hcd hob hsb hsm hiv hss
  subst hod hcd hob hsb hsm hiv hss
  unfold GatherDims.offCoord
  exact (dif_pos (show (0 : Fin 4) ∈ ([0, 1, 3] : List (Fin 4)) by decide)).trans rfl

/-- On the batch axis the offset coordinate is the result's batch entry. -/
theorem gather4_off_batch (hod : g.offsetDims = [0, 1, 3]) (hcd : g.collapsedSliceDims = [2])
    (hob : g.operandBatchingDims = []) (hsb : g.startIndicesBatchingDims = []) (hsm : g.startIndexMap = [2])
    (hiv : g.indexVectorDim = 1) (hss : g.sliceSizes = ![1, B, 1, C])
    (j : (⟨4, ![1, B, E, C]⟩ : Shape).Idx) : g.offCoord j 1 = (j 1).val := by
  obtain ⟨od, cd, ob, sb, sm, iv, ss, wf⟩ := g
  dsimp only at hod hcd hob hsb hsm hiv hss
  subst hod hcd hob hsb hsm hiv hss
  unfold GatherDims.offCoord
  exact (dif_pos (show (1 : Fin 4) ∈ ([0, 1, 3] : List (Fin 4)) by decide)).trans rfl

/-- The row axis is collapsed: no offset coordinate on it. -/
theorem gather4_off_row (hod : g.offsetDims = [0, 1, 3]) (hcd : g.collapsedSliceDims = [2])
    (hob : g.operandBatchingDims = []) (hsb : g.startIndicesBatchingDims = []) (hsm : g.startIndexMap = [2])
    (hiv : g.indexVectorDim = 1) (hss : g.sliceSizes = ![1, B, 1, C])
    (j : (⟨4, ![1, B, E, C]⟩ : Shape).Idx) : g.offCoord j 2 = 0 := by
  obtain ⟨od, cd, ob, sb, sm, iv, ss, wf⟩ := g
  dsimp only at hod hcd hob hsb hsm hiv hss
  subst hod hcd hob hsb hsm hiv hss
  unfold GatherDims.offCoord
  exact dif_neg (show (2 : Fin 4) ∉ ([0, 1, 3] : List (Fin 4)) by decide)

/-- On the column axis the offset coordinate is the result's column. -/
theorem gather4_off_col (hod : g.offsetDims = [0, 1, 3]) (hcd : g.collapsedSliceDims = [2])
    (hob : g.operandBatchingDims = []) (hsb : g.startIndicesBatchingDims = []) (hsm : g.startIndexMap = [2])
    (hiv : g.indexVectorDim = 1) (hss : g.sliceSizes = ![1, B, 1, C])
    (j : (⟨4, ![1, B, E, C]⟩ : Shape).Idx) : g.offCoord j 3 = (j 3).val := by
  obtain ⟨od, cd, ob, sb, sm, iv, ss, wf⟩ := g
  dsimp only at hod hcd hob hsb hsm hiv hss
  subst hod hcd hob hsb hsm hiv hss
  unfold GatherDims.offCoord
  exact (dif_pos (show (3 : Fin 4) ∈ ([0, 1, 3] : List (Fin 4)) by decide)).trans rfl

/-- THE BATCHED ROW GATHER READ AT `(0, b, e, c)`: the operand at `(0, b, rowOf idx e, c)`. -/
theorem gather4_apply (hod : g.offsetDims = [0, 1, 3]) (hcd : g.collapsedSliceDims = [2])
    (hob : g.operandBatchingDims = []) (hsb : g.startIndicesBatchingDims = []) (hsm : g.startIndexMap = [2])
    (hiv : g.indexVectorDim = 1) (hss : g.sliceSizes = ![1, B, 1, C]) (hN : 0 < N)
    (x : (⟨4, ![1, B, N, C]⟩ : Shape).Idx → α) (idx : IVec ⟨2, ![E, 1]⟩ w) (b : Fin B) (e : Fin E) (c : Fin C) :
    Host.gather g x idx (ix4 (0 : Fin 1) b e c) = x (ix4 (0 : Fin 1) b (rowOf hN idx e) c) := by
  have hb : ∀ a, g.batchCoord (ix4 (0 : Fin 1) b e c) a = 0 := fun a =>
    g.batchCoord_eq_zero _ a (by rw [hob]; exact List.not_mem_nil)
  unfold Host.gather
  congr 1
  funext a
  refine Fin.ext ?_
  match a with
  | ⟨0, _⟩ =>
    show g.start (ix4 (0 : Fin 1) b e c) idx 0 + g.batchCoord (ix4 (0 : Fin 1) b e c) 0
      + g.offCoord (ix4 (0 : Fin 1) b e c) 0 = _
    rw [hb, gather4_start_unit g hod hcd hob hsb hsm hiv hss, gather4_off_unit g hod hcd hob hsb hsm hiv hss]
    rfl
  | ⟨1, _⟩ =>
    show g.start (ix4 (0 : Fin 1) b e c) idx 1 + g.batchCoord (ix4 (0 : Fin 1) b e c) 1
      + g.offCoord (ix4 (0 : Fin 1) b e c) 1 = _
    rw [hb, gather4_start_batch g hod hcd hob hsb hsm hiv hss, gather4_off_batch g hod hcd hob hsb hsm hiv hss]
    show 0 + 0 + b.val = b.val
    omega
  | ⟨2, _⟩ =>
    show g.start (ix4 (0 : Fin 1) b e c) idx 2 + g.batchCoord (ix4 (0 : Fin 1) b e c) 2
      + g.offCoord (ix4 (0 : Fin 1) b e c) 2 = _
    rw [hb, gather4_start_row g hod hcd hob hsb hsm hiv hss, gather4_off_row g hod hcd hob hsb hsm hiv hss]
    rfl
  | ⟨3, _⟩ =>
    show g.start (ix4 (0 : Fin 1) b e c) idx 3 + g.batchCoord (ix4 (0 : Fin 1) b e c) 3
      + g.offCoord (ix4 (0 : Fin 1) b e c) 3 = _
    rw [hb, gather4_start_col g hod hcd hob hsb hsm hiv hss, gather4_off_col g hod hcd hob hsb hsm hiv hss]
    show 0 + 0 + c.val = c.val
    omega

end Gather4

end Cert.LibBatchRows

end
-- ==== Proof.Steps.lean ====
/-
  How "this array holds that feature map" passes through the host operations of the two programs.

  A feature map `H` (batch, node, channel) is held by the kernel program in an array of shape `[2, 50000, C]` (`IsK`), by the
  reference in one of shape `[1, 2, 50000, C]` (`IsR`) and, inside its batch normalization, in the transposed shape
  `[2, C, 50000]` (`IsT`); the matrix products of the kernel program see it as the `100000` rows `b · 50000 + n` (`IsRows`).

  Message passing is one gather, one product and one scatter-add in both programs: gathered at the source rows, weighed by the
  edge weights, added up at the target rows, starting from zeros. Read at an entry, the scatter-add is the sum over the edges
  that land on the node; each summand is the source node's entry times the edge's weight. So the result holds `prop` of the
  feature map, whatever the layout.
-/
import Idealize.ShloMosaic.PureOps.Ideal.Laws
import Idealize.ShloMosaic.Lib.ValueIdx
import Idealize.ShloMosaic.Lib.Pipeline.Value
import proofs.«172352_j22454089024045_1_alg».proof.Proof.Spec
import proofs.«172352_j22454089024045_1_alg».proof.Proof.LibBatchRows

noncomputable section

namespace Cert.GcnSteps

open Idealize.ShloMosaic Idealize.ShloMosaic.ValueIdx Cert.GcnSpec

variable {C : Nat}

/-- The array `A : [2, 50000, C]` holds the feature map `H`. -/
def IsK (A : (⟨3, ![2, 50000, C]⟩ : Shape).Idx → EReal) (H : Feat C) : Prop := ∀ b n c, A (ix3 b n c) = H b n c

/-- The array `A : [1, 2, 50000, C]` holds the feature map `H`. -/
def IsR (A : (⟨4, ![1, 2, 50000, C]⟩ : Shape).Idx → EReal) (H : Feat C) : Prop :=
  ∀ b n c, A (ix4 (0 : Fin 1) b n c) = H b n c

/-- The array `A : [2, C, 50000]` holds the feature map `H`, transposed. -/
def IsT (A : (⟨3, ![2, C, 50000]⟩ : Shape).Idx → EReal) (H : Feat C) : Prop := ∀ b n c, A (ix3 b c n) = H b n c

/-- Row `b · 50000 + n` of the flattened `(batch, node)` axis. -/
def flatRow (b : Fin 2) (n : Fin 50000) : Fin 100000 := ⟨b.val * 50000 + n.val, by omega⟩

/-- The array `A : [100000, C]` holds the feature map `H`, its `(batch, node)` pairs flattened into rows. -/
def IsRows (A : (⟨2, ![100000, C]⟩ : Shape).Idx → EReal) (H : Feat C) : Prop :=
  ∀ b n c, A (ix2 (flatRow b n) c) = H b n c

/-- Message passing on the layout `[2, 50000, C]`: scatter-add, from zeros, of the gathered rows times the edge weights. -/
theorem prop_isK (g : GatherDims ⟨3, ![2, 50000, C]⟩ ⟨2, ![850000, 1]⟩ ⟨3, ![2, 850000, C]⟩)
    (hod : g.offsetDims = [0, 2]) (hcd : g.collapsedSliceDims = [1]) (hob : g.operandBatchingDims = [])
    (hsb : g.startIndicesBatchingDims = []) (hsm : g.startIndexMap = [1]) (hiv : g.indexVectorDim = 1)
    (hss : g.sliceSizes = ![2, 1, C])
    (d : ScatterDims ⟨3, ![2, 50000, C]⟩ ⟨2, ![850000, 1]⟩ ⟨3, ![2, 850000, C]⟩)
    (huw : d.updateWindowDims = [0, 2]) (hiw : d.insertedWindowDims = [1]) (hsd : d.scatterDimsToOperandDims = [1])
    (hiv' : d.indexVectorDim = 1)
    (xw : (⟨3, ![2, 50000, C]⟩ : Shape).Idx → EReal) (H : Feat C) (hxw : IsK xw H)
    (src tgt : EdgeCol) (nrm : Fin 850000 → EReal)
    (wts : (⟨3, ![2, 850000, C]⟩ : Shape).Idx → EReal) (hw : ∀ b e c, wts (ix3 b e c) = nrm e)
    (z : (⟨3, ![2, 50000, C]⟩ : Shape).Idx → EReal) (hz : ∀ i, z i = 0) :
    IsK (Ideal.hostScatterAdd d z tgt (fun i => Host.gather g xw src i * wts i)) (prop src tgt nrm H) := by
  intro b n c
  rw [Cert.LibBatchRows.scatterAdd3_apply d huw hiw hsd hiv' z tgt _ b n c, hz, zero_add]
  unfold prop
  refine Finset.sum_congr rfl fun e _ => ?_
  rw [Cert.LibBatchRows.gather3_apply g hod hcd hob hsb hsm hiv hss (by decide) xw src b e c, hxw, hw]
  rfl

end Cert.GcnSteps

end
-- ==== Proof.StepsFinal.lean ====
/-
  Two arrays of shape `[1, 2, 50000, C]` that hold the same feature map are the same array: every index is
  `(0, b, n, c)`, the leading axis having one coordinate.
-/
import proofs.«172352_j22454089024045_1_alg».proof.Proof.Steps

noncomputable section

namespace Cert.GcnSteps

open Idealize.ShloMosaic Idealize.ShloMosaic.ValueIdx Cert.GcnSpec

variable {C : Nat}

theorem IsR.unique {A B : (⟨4, ![1, 2, 50000, C]⟩ : Shape).Idx → EReal} {H H' : Feat C}
    (hA : IsR A H) (hB : IsR B H') (hH : H = H') : A = B := by
  subst hH
  funext i
  have h0 : i 0 = (0 : Fin 1) := Fin.ext (show (i 0).val = 0 from by have h : (i 0).val < 1 := (i 0).isLt; omega)
  have hi : i = ix4 (0 : Fin 1) (i 1) (i 2) (i 3) := by
    have := eq_ix4 i
    rw [h0] at this
    exact this
  rw [hi]
  exact (hA _ _ _).trans (hB _ _ _).symm

end Cert.GcnSteps

end
-- ==== Proof.KernelPersist.lean ====
/- The host plumbing of @main, part 1: a buffer's contents persist across the segments that do not write it, and the
   final contents of one operation's result buffer are the operation's function of the final contents of its operands. -/
import proofs.«172352_j22454089024045_1_alg».proof.Proof.Gen.KernelIdeal.Frame

set_option maxRecDepth 16384

noncomputable section

namespace Cert.KernelIdeal.Stages

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

/-! # A buffer's contents persist across the segments that do not write it

Every buffer of @main is written once: by one host operation, or as an output array of one region. A stretch of host
operations leaves each buffer it does not write as it found it; a region leaves each buffer that is not one of its
output arrays as it found it (an input array is only read: none of its blocks is flushed, so the array the region
leaves is the array it entered with). Chained from the last boundary back: a buffer that nothing writes after boundary
`k` ends holding what it held at boundary `k`. The final contents of an operation's result buffer are then the
operation's function of the final contents of its operand buffers. -/

/-- The singleton of a listed reference lies inside the list's image among the device's buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Across a region: if every buffer that is none of the region's arrays keeps its contents (`hne`), and so does every
    array of the region outside the list `outs` (`hin`: the input arrays), then every buffer outside `outs` keeps its
    contents. -/
theorem keep_of_region {Val : EltTy → Type} {n : Nat} (arr : Fin n → Ref sig .tc) (outs : List (Ref sig .tc))
    (V' V : Valuation τ sig Val)
    (hne : ∀ b : Ref sig .tc, (∀ w, arr w ≠ b) → V' (Proc.devRef .tc b) = V (Proc.devRef .tc b))
    (hin : ∀ w, arr w ∉ outs → V' (Proc.devRef .tc (arr w)) = V (Proc.devRef .tc (arr w)))
    (b : Ref sig .tc) (hb : b ∉ outs) : V' (Proc.devRef .tc b) = V (Proc.devRef .tc b) := by
  by_cases h : ∃ w, arr w = b
  · obtain ⟨w, rfl⟩ := h
    exact hin w hb
  · exact hne b fun w e => h ⟨w, e⟩

/-- Two steps back: nothing in `L₁ ++ L₂` is `b`, the first step asks for `b ∉ L₂` and the second for `b ∉ L₁`. -/
theorem trans_of_not_mem_append {α : Type} {x y z : α} {L₁ L₂ : List (Ref sig .tc)} {b : Ref sig .tc}
    (hb : b ∉ L₁ ++ L₂) (h₂ : b ∉ L₂ → x = y) (h₁ : b ∉ L₁ → y = z) : x = z :=
  (h₂ fun h => hb (List.mem_append_right _ h)).trans (h₁ fun h => hb (List.mem_append_left _ h))

/-- Core `c`'s final contents of buffer `b`: what the last boundary of @main's fold holds there. -/
abbrev A (c : Dev nD) (b : Ref sig .tc) := Gen.W23 (F := F) m ρ c (Proc.devRef .tc b)

/-- One operation's equation at the final contents. `rs` carry the result's and the operands' final contents back to the
    boundary `W` right after the operation's stretch; there the stretch's fold is evaluated at the result buffer and at
    the operand buffers over the contents `V₀` the stretch starts from, kept opaque. -/
syntax "stage_hop " ident term:max " [" term,* "]" : tactic
macro_rules
  | `(tactic| stage_hop $W:ident $V0:term [$[$rs:term],*]) =>
    `(tactic| (unfold A; rw [$[$rs:term],*]; dsimp only [$W:ident]; generalize $V0 = V; after_results_simp; all_goals rfl))
/-- The same for an operation of the last stretch: nothing to carry back. -/
syntax "stage_hop_last " ident term:max : tactic
macro_rules
  | `(tactic| stage_hop_last $W:ident $V0:term) =>
    `(tactic| (unfold A; dsimp only [$W:ident]; generalize $V0 = V; after_results_simp; all_goals rfl))

end Cert.KernelIdeal.Stages

end
-- ==== Proof.KernelStages.lean ====
/- One case per boundary k = 23 … 1 of @main's fold: the references written between boundaries k-1 and k
   (a stretch's result buffers, in order; a region's output arrays), that every other buffer holds at k what it
   held at k-1, and, chained from the last boundary, that a buffer nothing writes after k-1 ends as it was there. -/
import proofs.«172352_j22454089024045_1_alg».proof.Proof.KernelPersist

set_option maxRecDepth 16384

noncomputable section

namespace Cert.KernelIdeal.Stages

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

/-- The references written between boundaries 22 and 23. -/
abbrev wr23 : List (Ref sig .tc) := [main_v121, main_v122]
theorem step23 (c : Dev nD) (b : Ref sig .tc) (hb : b ∉ wr23) :
    Gen.W23 m ρ c (Proc.devRef .tc b) = Gen.W22 m ρ c (Proc.devRef .tc b) :=
  StableHlo.after_of_writes_sub (Gen.hostOps8 (F := F)) (Gen.W22 m ρ c) (W := wr23)
    ⟨sub_of_mem (y := main_v121) (by decide),
      sub_of_mem (y := main_v122) (by decide)⟩ hb
/-- The references written after boundary 22. -/
abbrev wa22 : List (Ref sig .tc) := wr23
theorem to22 (c : Dev nD) (b : Ref sig .tc) (hb : b ∉ wa22) :
    Gen.W23 m ρ c (Proc.devRef .tc b) = Gen.W22 m ρ c (Proc.devRef .tc b) := step23 m ρ c b hb

/-- The references written between boundaries 21 and 22. -/
abbrev wr22 : List (Ref sig .tc) := [main_v120]
theorem step22 (c : Dev nD) (b : Ref sig .tc) (hb : b ∉ wr22) :
    Gen.W22 m ρ c (Proc.devRef .tc b) = Gen.W21 m ρ c (Proc.devRef .tc b) :=
  keep_of_region (Pipeline.arrRef spec7) wr22 (Gen.W22 m ρ c) (Gen.W21 m ρ c) (Gen.W22_of_ne m ρ c)
    (fun w => match w with
      | ⟨0, _⟩ => fun _ => (Gen.W22_arr m ρ c 0).trans (((Gen.dat7 (Gen.V21 m ρ) c).arrAt_in 0 rfl _).trans (Gen.A_eq7 (Gen.V21 m ρ) c 0))
      | ⟨1, _⟩ => fun _ => (Gen.W22_arr m ρ c 1).trans (((Gen.dat7 (Gen.V21 m ρ) c).arrAt_in 1 rfl _).trans (Gen.A_eq7 (Gen.V21 m ρ) c 1))
      | ⟨2, _⟩ => fun h => absurd (show Pipeline.arrRef spec7 2 ∈ wr22 by decide) h
      | ⟨_ + 3, h⟩ => absurd h (Nat.not_lt.2 (Nat.le_add_left _ _)))
    b hb
/-- The references written after boundary 21. -/
abbrev wa21 : List (Ref sig .tc) := wr22 ++ wa22
theorem to21 (c : Dev nD) (b : Ref sig .tc) (hb : b ∉ wa21) :
    Gen.W23 m ρ c (Proc.devRef .tc b) = Gen.W21 m ρ c (Proc.devRef .tc b) :=
  trans_of_not_mem_append hb (to22 m ρ c b) (step22 m ρ c b)

/-- The references written between boundaries 20 and 21. -/
abbrev wr21 : List (Ref sig .tc) := [main_v100, main_c_24, main_v101, main_v102, main_c_25, main_v103, main_v104, main_v105, main_v106, main_v107, main_v108, main_v109, main_v110, main_cst_26, main_v111, main_c_27, main_v112, main_v113, main_c_28, main_v114, main_v115, main_v116, main_v117, main_v118, main_v119]
theorem step21 (c : Dev nD) (b : Ref sig .tc) (hb : b ∉ wr21) :
    Gen.W21 m ρ c (Proc.devRef .tc b) = Gen.W20 m ρ c (Proc.devRef .tc b) :=
  StableHlo.after_of_writes_sub (Gen.hostOps7 (F := F)) (Gen.W20 m ρ c) (W := wr21)
    ⟨sub_of_mem (y := main_v100) (by decide),
      sub_of_mem (y := main_c_24) (by decide),
      sub_of_mem (y := main_v101) (by decide),
      sub_of_mem (y := main_v102) (by decide),
      sub_of_mem (y := main_c_25) (by decide),
      sub_of_mem (y := main_v103) (by decide),
      sub_of_mem (y := main_v104) (by decide),
      sub_of_mem (y := main_v105) (by decide),
      sub_of_mem (y := main_v106) (by decide),
      sub_of_mem (y := main_v107) (by decide),
      sub_of_mem (y := main_v108) (by decide),
      sub_of_mem (y := main_v109) (by decide),
      sub_of_mem (y := main_v110) (by decide),
      sub_of_mem (y := main_cst_26) (by decide),
      sub_of_mem (y := main_v111) (by decide),
      sub_of_mem (y := main_c_27) (by decide),
      sub_of_mem (y := main_v112) (by decide),
      sub_of_mem (y := main_v113) (by decide),
      sub_of_mem (y := main_c_28) (by decide),
      sub_of_mem (y := main_v114) (by decide),
      sub_of_mem (y := main_v115) (by decide),
      sub_of_mem (y := main_v116) (by decide),
      sub_of_mem (y := main_v117) (by decide),
      sub_of_mem (y := main_v118) (by decide),
      sub_of_mem (y := main_v119) (by decide)⟩ hb
/-- The references written after boundary 20. -/
abbrev wa20 : List (Ref sig .tc) := wr21 ++ wa21
theorem to20 (c : Dev nD) (b : Ref sig .tc) (hb : b ∉ wa20) :
    Gen.W23 m ρ c (Proc.devRef .tc b) = Gen.W20 m ρ c (Proc.devRef .tc b) :=
  trans_of_not_mem_append hb (to21 m ρ c b) (step21 m ρ c b)

/-- The references written between boundaries 19 and 20. -/
abbrev wr20 : List (Ref sig .tc) := [main_v99]
theorem step20 (c : Dev nD) (b : Ref sig .tc) (hb : b ∉ wr20) :
    Gen.W20 m ρ c (Proc.devRef .tc b) = Gen.W19 m ρ c (Proc.devRef .tc b) :=
  keep_of_region (Pipeline.arrRef spec6) wr20 (Gen.W20 m ρ c) (Gen.W19 m ρ c) (Gen.W20_of_ne m ρ c)
    (fun w => match w with
      | ⟨0, _⟩ => fun _ => (Gen.W20_arr m ρ c 0).trans (((Gen.dat6 (Gen.V19 m ρ) c).arrAt_in 0 rfl _).trans (Gen.A_eq6 (Gen.V19 m ρ) c 0))
      | ⟨1, _⟩ => fun _ => (Gen.W20_arr m ρ c 1).trans (((Gen.dat6 (Gen.V19 m ρ) c).arrAt_in 1 rfl _).trans (Gen.A_eq6 (Gen.V19 m ρ) c 1))
      | ⟨2, _⟩ => fun h => absurd (show Pipeline.arrRef spec6 2 ∈ wr20 by decide) h
      | ⟨_ + 3, h⟩ => absurd h (Nat.not_lt.2 (Nat.le_add_left _ _)))
    b hb
/-- The references written after boundary 19. -/
abbrev wa19 : List (Ref sig .tc) := wr20 ++ wa20
theorem to19 (c : Dev nD) (b : Ref sig .tc) (hb : b ∉ wa19) :
    Gen.W23 m ρ c (Proc.devRef .tc b) = Gen.W19 m ρ c (Proc.devRef .tc b) :=
  trans_of_not_mem_append hb (to20 m ρ c b) (step20 m ρ c b)

/-- The references written between boundaries 18 and 19. -/
abbrev wr19 : List (Ref sig .tc) := [main_v98]
theorem step19 (c : Dev nD) (b : Ref sig .tc) (hb : b ∉ wr19) :
    Gen.W19 m ρ c (Proc.devRef .tc b) = Gen.W18 m ρ c (Proc.devRef .tc b) :=
  StableHlo.after_of_writes_sub (Gen.hostOps6 (F := F)) (Gen.W18 m ρ c) (W := wr19)
    (sub_of_mem (y := main_v98) (by decide)) hb
/-- The references written after boundary 18. -/
abbrev wa18 : List (Ref sig .tc) := wr19 ++ wa19
theorem to18 (c : Dev nD) (b : Ref sig .tc) (hb : b ∉ wa18) :
    Gen.W23 m ρ c (Proc.devRef .tc b) = Gen.W18 m ρ c (Proc.devRef .tc b) :=
  trans_of_not_mem_append hb (to19 m ρ c b) (step19 m ρ c b)

/-- The references written between boundaries 17 and 18. -/
abbrev wr18 : List (Ref sig .tc) := [main_v97]
theorem step18 (c : Dev nD) (b : Ref sig .tc) (hb : b ∉ wr18) :
    Gen.W18 m ρ c (Proc.devRef .tc b) = Gen.W17 m ρ c (Proc.devRef .tc b) :=
  keep_of_region (Pipeline.arrRef spec5) wr18 (Gen.W18 m ρ c) (Gen.W17 m ρ c) (Gen.W18_of_ne m ρ c)
    (fun w => match w with
      | ⟨0, _⟩ => fun _ => (Gen.W18_arr m ρ c 0).trans (((Gen.dat5 (Gen.V17 m ρ) c).arrAt_in 0 rfl _).trans (Gen.A_eq5 (Gen.V17 m ρ) c 0))
      | ⟨1, _⟩ => fun _ => (Gen.W18_arr m ρ c 1).trans (((Gen.dat5 (Gen.V17 m ρ) c).arrAt_in 1 rfl _).trans (Gen.A_eq5 (Gen.V17 m ρ) c 1))
      | ⟨2, _⟩ => fun _ => (Gen.W18_arr m ρ c 2).trans (((Gen.dat5 (Gen.V17 m ρ) c).arrAt_in 2 rfl _).trans (Gen.A_eq5 (Gen.V17 m ρ) c 2))
      | ⟨3, _⟩ => fun _ => (Gen.W18_arr m ρ c 3).trans (((Gen.dat5 (Gen.V17 m ρ) c).arrAt_in 3 rfl _).trans (Gen.A_eq5 (Gen.V17 m ρ) c 3))
      | ⟨4, _⟩ => fun _ => (Gen.W18_arr m ρ c 4).trans (((Gen.dat5 (Gen.V17 m ρ) c).arrAt_in 4 rfl _).trans (Gen.A_eq5 (Gen.V17 m ρ) c 4))
      | ⟨5, _⟩ => fun h => absurd (show Pipeline.arrRef spec5 5 ∈ wr18 by decide) h
      | ⟨_ + 6, h⟩ => absurd h (Nat.not_lt.2 (Nat.le_add_left _ _)))
    b hb
/-- The references written after boundary 17. -/
abbrev wa17 : List (Ref sig .tc) := wr18 ++ wa18
theorem to17 (c : Dev nD) (b : Ref sig .tc) (hb : b ∉ wa17) :
    Gen.W23 m ρ c (Proc.devRef .tc b) = Gen.W17 m ρ c (Proc.devRef .tc b) :=
  trans_of_not_mem_append hb (to18 m ρ c b) (step18 m ρ c b)

/-- The references written between boundaries 16 and 17. -/
abbrev wr17 : List (Ref sig .tc) := [main_v95, main_v96]
theorem step17 (c : Dev nD) (b : Ref sig .tc) (hb : b ∉ wr17) :
    Gen.W17 m ρ c (Proc.devRef .tc b) = Gen.W16 m ρ c (Proc.devRef .tc b) :=
  StableHlo.after_of_writes_sub (Gen.hostOps5_2 (F := F)) (Gen.W16 m ρ c) (W := wr17)
    ⟨sub_of_mem (y := main_v95) (by decide),
      sub_of_mem (y := main_v96) (by decide)⟩ hb
/-- The references written after boundary 16. -/
abbrev wa16 : List (Ref sig .tc) := wr17 ++ wa17
theorem to16 (c : Dev nD) (b : Ref sig .tc) (hb : b ∉ wa16) :
    Gen.W23 m ρ c (Proc.devRef .tc b) = Gen.W16 m ρ c (Proc.devRef .tc b) :=
  trans_of_not_mem_append hb (to17 m ρ c b) (step17 m ρ c b)

/-- The references written between boundaries 15 and 16. -/
abbrev wr16 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v94]
theorem step16 (c : Dev nD) (b : Ref sig .tc) (hb : b ∉ wr16) :
    Gen.W16 m ρ c (Proc.devRef .tc b) = Gen.W15 m ρ c (Proc.devRef .tc b) :=
  StableHlo.after_of_writes_sub (Gen.hostOps5_1 (F := F)) (Gen.W15 m ρ c) (W := wr16)
    ⟨sub_of_mem (y := main_call2_cst) (by decide),
      sub_of_mem (y := main_call2_v0) (by decide),
      sub_of_mem (y := main_call2_v1) (by decide),
      sub_of_mem (y := main_call2_cst_0) (by decide),
      sub_of_mem (y := main_call2_v2) (by decide),
      sub_of_mem (y := main_call2_v3) (by decide),
      sub_of_mem (y := main_call2_v4) (by decide),
      sub_of_mem (y := main_call2_v5) (by decide),
      sub_of_mem (y := main_call2_v6) (by decide),
      sub_of_mem (y := main_call2_v7) (by decide),
      sub_of_mem (y := main_call2_cst_1) (by decide),
      sub_of_mem (y := main_call2_v8) (by decide),
      sub_of_mem (y := main_call2_cst_2) (by decide),
      sub_of_mem (y := main_call2_v9) (by decide),
      sub_of_mem (y := main_call2_v10) (by decide),
      sub_of_mem (y := main_call2_v11) (by decide),
      sub_of_mem (y := main_call2_v12) (by decide),
      sub_of_mem (y := main_call2_cst_3) (by decide),
      sub_of_mem (y := main_call2_v13) (by decide),
      sub_of_mem (y := main_call2_cst_4) (by decide),
      sub_of_mem (y := main_call2_call0_v0) (by decide),
      sub_of_mem (y := main_call2_call0_v1) (by decide),
      sub_of_mem (y := main_v94) (by decide)⟩ hb
/-- The references written after boundary 15. -/
abbrev wa15 : List (Ref sig .tc) := wr16 ++ wa16
theorem to15 (c : Dev nD) (b : Ref sig .tc) (hb : b ∉ wa15) :
    Gen.W23 m ρ c (Proc.devRef .tc b) = Gen.W15 m ρ c (Proc.devRef .tc b) :=
  trans_of_not_mem_append hb (to16 m ρ c b) (step16 m ρ c b)

/-- The references written between boundaries 14 and 15. -/
abbrev wr15 : List (Ref sig .tc) := [main_cst_21, main_v90, main_v91, main_cst_22, main_v92, main_v93, main_c_23]
theorem step15 (c : Dev nD) (b : Ref sig .tc) (hb : b ∉ wr15) :
    Gen.W15 m ρ c (Proc.devRef .tc b) = Gen.W14 m ρ c (Proc.devRef .tc b) :=
  StableHlo.after_of_writes_sub (Gen.hostOps5 (F := F)) (Gen.W14 m ρ c) (W := wr15)
    ⟨sub_of_mem (y := main_cst_21) (by decide),
      sub_of_mem (y := main_v90) (by decide),
      sub_of_mem (y := main_v91) (by decide),
      sub_of_mem (y := main_cst_22) (by decide),
      sub_of_mem (y := main_v92) (by decide),
      sub_of_mem (y := main_v93) (by decide),
      sub_of_mem (y := main_c_23) (by decide)⟩ hb
/-- The references written after boundary 14. -/
abbrev wa14 : List (Ref sig .tc) := wr15 ++ wa15
theorem to14 (c : Dev nD) (b : Ref sig .tc) (hb : b ∉ wa14) :
    Gen.W23 m ρ c (Proc.devRef .tc b) = Gen.W14 m ρ c (Proc.devRef .tc b) :=
  trans_of_not_mem_append hb (to15 m ρ c b) (step15 m ρ c b)

/-- The references written between boundaries 13 and 14. -/
abbrev wr14 : List (Ref sig .tc) := [main_v89_0, main_v89_1]
theorem step14 (c : Dev nD) (b : Ref sig .tc) (hb : b ∉ wr14) :
    Gen.W14 m ρ c (Proc.devRef .tc b) = Gen.W13 m ρ c (Proc.devRef .tc b) :=
  keep_of_region (Pipeline.arrRef spec4) wr14 (Gen.W14 m ρ c) (Gen.W13 m ρ c) (Gen.W14_of_ne m ρ c)
    (fun w => match w with
      | ⟨0, _⟩ => fun _ => (Gen.W14_arr m ρ c 0).trans (((Gen.dat4 (Gen.V13 m ρ) c).arrAt_in 0 rfl _).trans (Gen.A_eq4 (Gen.V13 m ρ) c 0))
      | ⟨1, _⟩ => fun _ => (Gen.W14_arr m ρ c 1).trans (((Gen.dat4 (Gen.V13 m ρ) c).arrAt_in 1 rfl _).trans (Gen.A_eq4 (Gen.V13 m ρ) c 1))
      | ⟨2, _⟩ => fun h => absurd (show Pipeline.arrRef spec4 2 ∈ wr14 by decide) h
      | ⟨3, _⟩ => fun h => absurd (show Pipeline.arrRef spec4 3 ∈ wr14 by decide) h
      | ⟨_ + 4, h⟩ => absurd h (Nat.not_lt.2 (Nat.le_add_left _ _)))
    b hb
/-- The references written after boundary 13. -/
abbrev wa13 : List (Ref sig .tc) := wr14 ++ wa14
theorem to13 (c : Dev nD) (b : Ref sig .tc) (hb : b ∉ wa13) :
    Gen.W23 m ρ c (Proc.devRef .tc b) = Gen.W13 m ρ c (Proc.devRef .tc b) :=
  trans_of_not_mem_append hb (to14 m ρ c b) (step14 m ρ c b)

/-- The references written between boundaries 12 and 13. -/
abbrev wr13 : List (Ref sig .tc) := [main_v69, main_c_16, main_v70, main_v71, main_c_17, main_v72, main_v73, main_v74, main_v75, main_v76, main_v77, main_v78, main_v79, main_cst_18, main_v80, main_c_19, main_v81, main_v82, main_c_20, main_v83, main_v84, main_v85, main_v86, main_v87, main_v88]
theorem step13 (c : Dev nD) (b : Ref sig .tc) (hb : b ∉ wr13) :
    Gen.W13 m ρ c (Proc.devRef .tc b) = Gen.W12 m ρ c (Proc.devRef .tc b) :=
  StableHlo.after_of_writes_sub (Gen.hostOps4 (F := F)) (Gen.W12 m ρ c) (W := wr13)
    ⟨sub_of_mem (y := main_v69) (by decide),
      sub_of_mem (y := main_c_16) (by decide),
      sub_of_mem (y := main_v70) (by decide),
      sub_of_mem (y := main_v71) (by decide),
      sub_of_mem (y := main_c_17) (by decide),
      sub_of_mem (y := main_v72) (by decide),
      sub_of_mem (y := main_v73) (by decide),
      sub_of_mem (y := main_v74) (by decide),
      sub_of_mem (y := main_v75) (by decide),
      sub_of_mem (y := main_v76) (by decide),
      sub_of_mem (y := main_v77) (by decide),
      sub_of_mem (y := main_v78) (by decide),
      sub_of_mem (y := main_v79) (by decide),
      sub_of_mem (y := main_cst_18) (by decide),
      sub_of_mem (y := main_v80) (by decide),
      sub_of_mem (y := main_c_19) (by decide),
      sub_of_mem (y := main_v81) (by decide),
      sub_of_mem (y := main_v82) (by decide),
      sub_of_mem (y := main_c_20) (by decide),
      sub_of_mem (y := main_v83) (by decide),
      sub_of_mem (y := main_v84) (by decide),
      sub_of_mem (y := main_v85) (by decide),
      sub_of_mem (y := main_v86) (by decide),
      sub_of_mem (y := main_v87) (by decide),
      sub_of_mem (y := main_v88) (by decide)⟩ hb
/-- The references written after boundary 12. -/
abbrev wa12 : List (Ref sig .tc) := wr13 ++ wa13
theorem to12 (c : Dev nD) (b : Ref sig .tc) (hb : b ∉ wa12) :
    Gen.W23 m ρ c (Proc.devRef .tc b) = Gen.W12 m ρ c (Proc.devRef .tc b) :=
  trans_of_not_mem_append hb (to13 m ρ c b) (step13 m ρ c b)

/-- The references written between boundaries 11 and 12. -/
abbrev wr12 : List (Ref sig .tc) := [main_v68]
theorem step12 (c : Dev nD) (b : Ref sig .tc) (hb : b ∉ wr12) :
    Gen.W12 m ρ c (Proc.devRef .tc b) = Gen.W11 m ρ c (Proc.devRef .tc b) :=
  keep_of_region (Pipeline.arrRef spec3) wr12 (Gen.W12 m ρ c) (Gen.W11 m ρ c) (Gen.W12_of_ne m ρ c)
    (fun w => match w with
      | ⟨0, _⟩ => fun _ => (Gen.W12_arr m ρ c 0).trans (((Gen.dat3 (Gen.V11 m ρ) c).arrAt_in 0 rfl _).trans (Gen.A_eq3 (Gen.V11 m ρ) c 0))
      | ⟨1, _⟩ => fun _ => (Gen.W12_arr m ρ c 1).trans (((Gen.dat3 (Gen.V11 m ρ) c).arrAt_in 1 rfl _).trans (Gen.A_eq3 (Gen.V11 m ρ) c 1))
      | ⟨2, _⟩ => fun h => absurd (show Pipeline.arrRef spec3 2 ∈ wr12 by decide) h
      | ⟨_ + 3, h⟩ => absurd h (Nat.not_lt.2 (Nat.le_add_left _ _)))
    b hb
/-- The references written after boundary 11. -/
abbrev wa11 : List (Ref sig .tc) := wr12 ++ wa12
theorem to11 (c : Dev nD) (b : Ref sig .tc) (hb : b ∉ wa11) :
    Gen.W23 m ρ c (Proc.devRef .tc b) = Gen.W11 m ρ c (Proc.devRef .tc b) :=
  trans_of_not_mem_append hb (to12 m ρ c b) (step12 m ρ c b)

/-- The references written between boundaries 10 and 11. -/
abbrev wr11 : List (Ref sig .tc) := [main_v67]
theorem step11 (c : Dev nD) (b : Ref sig .tc) (hb : b ∉ wr11) :
    Gen.W11 m ρ c (Proc.devRef .tc b) = Gen.W10 m ρ c (Proc.devRef .tc b) :=
  StableHlo.after_of_writes_sub (Gen.hostOps3 (F := F)) (Gen.W10 m ρ c) (W := wr11)
    (sub_of_mem (y := main_v67) (by decide)) hb
/-- The references written after boundary 10. -/
abbrev wa10 : List (Ref sig .tc) := wr11 ++ wa11
theorem to10 (c : Dev nD) (b : Ref sig .tc) (hb : b ∉ wa10) :
    Gen.W23 m ρ c (Proc.devRef .tc b) = Gen.W10 m ρ c (Proc.devRef .tc b) :=
  trans_of_not_mem_append hb (to11 m ρ c b) (step11 m ρ c b)

/-- The references written between boundaries 9 and 10. -/
abbrev wr10 : List (Ref sig .tc) := [main_v66]
theorem step10 (c : Dev nD) (b : Ref sig .tc) (hb : b ∉ wr10) :
    Gen.W10 m ρ c (Proc.devRef .tc b) = Gen.W9 m ρ c (Proc.devRef .tc b) :=
  keep_of_region (Pipeline.arrRef spec2) wr10 (Gen.W10 m ρ c) (Gen.W9 m ρ c) (Gen.W10_of_ne m ρ c)
    (fun w => match w with
      | ⟨0, _⟩ => fun _ => (Gen.W10_arr m ρ c 0).trans (((Gen.dat2 (Gen.V9 m ρ) c).arrAt_in 0 rfl _).trans (Gen.A_eq2 (Gen.V9 m ρ) c 0))
      | ⟨1, _⟩ => fun _ => (Gen.W10_arr m ρ c 1).trans (((Gen.dat2 (Gen.V9 m ρ) c).arrAt_in 1 rfl _).trans (Gen.A_eq2 (Gen.V9 m ρ) c 1))
      | ⟨2, _⟩ => fun _ => (Gen.W10_arr m ρ c 2).trans (((Gen.dat2 (Gen.V9 m ρ) c).arrAt_in 2 rfl _).trans (Gen.A_eq2 (Gen.V9 m ρ) c 2))
      | ⟨3, _⟩ => fun _ => (Gen.W10_arr m ρ c 3).trans (((Gen.dat2 (Gen.V9 m ρ) c).arrAt_in 3 rfl _).trans (Gen.A_eq2 (Gen.V9 m ρ) c 3))
      | ⟨4, _⟩ => fun _ => (Gen.W10_arr m ρ c 4).trans (((Gen.dat2 (Gen.V9 m ρ) c).arrAt_in 4 rfl _).trans (Gen.A_eq2 (Gen.V9 m ρ) c 4))
      | ⟨5, _⟩ => fun h => absurd (show Pipeline.arrRef spec2 5 ∈ wr10 by decide) h
      | ⟨_ + 6, h⟩ => absurd h (Nat.not_lt.2 (Nat.le_add_left _ _)))
    b hb
/-- The references written after boundary 9. -/
abbrev wa9 : List (Ref sig .tc) := wr10 ++ wa10
theorem to9 (c : Dev nD) (b : Ref sig .tc) (hb : b ∉ wa9) :
    Gen.W23 m ρ c (Proc.devRef .tc b) = Gen.W9 m ρ c (Proc.devRef .tc b) :=
  trans_of_not_mem_append hb (to10 m ρ c b) (step10 m ρ c b)

/-- The references written between boundaries 8 and 9. -/
abbrev wr9 : List (Ref sig .tc) := [main_v64, main_v65]
theorem step9 (c : Dev nD) (b : Ref sig .tc) (hb : b ∉ wr9) :
    Gen.W9 m ρ c (Proc.devRef .tc b) = Gen.W8 m ρ c (Proc.devRef .tc b) :=
  StableHlo.after_of_writes_sub (Gen.hostOps2_2 (F := F)) (Gen.W8 m ρ c) (W := wr9)
    ⟨sub_of_mem (y := main_v64) (by decide),
      sub_of_mem (y := main_v65) (by decide)⟩ hb
/-- The references written after boundary 8. -/
abbrev wa8 : List (Ref sig .tc) := wr9 ++ wa9
theorem to8 (c : Dev nD) (b : Ref sig .tc) (hb : b ∉ wa8) :
    Gen.W23 m ρ c (Proc.devRef .tc b) = Gen.W8 m ρ c (Proc.devRef .tc b) :=
  trans_of_not_mem_append hb (to9 m ρ c b) (step9 m ρ c b)

/-- The references written between boundaries 7 and 8. -/
abbrev wr8 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v63]
theorem step8 (c : Dev nD) (b : Ref sig .tc) (hb : b ∉ wr8) :
    Gen.W8 m ρ c (Proc.devRef .tc b) = Gen.W7 m ρ c (Proc.devRef .tc b) :=
  StableHlo.after_of_writes_sub (Gen.hostOps2_1 (F := F)) (Gen.W7 m ρ c) (W := wr8)
    ⟨sub_of_mem (y := main_call1_cst) (by decide),
      sub_of_mem (y := main_call1_v0) (by decide),
      sub_of_mem (y := main_call1_v1) (by decide),
      sub_of_mem (y := main_call1_cst_0) (by decide),
      sub_of_mem (y := main_call1_v2) (by decide),
      sub_of_mem (y := main_call1_v3) (by decide),
      sub_of_mem (y := main_call1_v4) (by decide),
      sub_of_mem (y := main_call1_v5) (by decide),
      sub_of_mem (y := main_call1_v6) (by decide),
      sub_of_mem (y := main_call1_v7) (by decide),
      sub_of_mem (y := main_call1_cst_1) (by decide),
      sub_of_mem (y := main_call1_v8) (by decide),
      sub_of_mem (y := main_call1_cst_2) (by decide),
      sub_of_mem (y := main_call1_v9) (by decide),
      sub_of_mem (y := main_call1_v10) (by decide),
      sub_of_mem (y := main_call1_v11) (by decide),
      sub_of_mem (y := main_call1_v12) (by decide),
      sub_of_mem (y := main_call1_cst_3) (by decide),
      sub_of_mem (y := main_call1_v13) (by decide),
      sub_of_mem (y := main_call1_cst_4) (by decide),
      sub_of_mem (y := main_call1_call0_v0) (by decide),
      sub_of_mem (y := main_call1_call0_v1) (by decide),
      sub_of_mem (y := main_v63) (by decide)⟩ hb
/-- The references written after boundary 7. -/
abbrev wa7 : List (Ref sig .tc) := wr8 ++ wa8
theorem to7 (c : Dev nD) (b : Ref sig .tc) (hb : b ∉ wa7) :
    Gen.W23 m ρ c (Proc.devRef .tc b) = Gen.W7 m ρ c (Proc.devRef .tc b) :=
  trans_of_not_mem_append hb (to8 m ρ c b) (step8 m ρ c b)

/-- The references written between boundaries 6 and 7. -/
abbrev wr7 : List (Ref sig .tc) := [main_cst_13, main_v59, main_v60, main_cst_14, main_v61, main_v62, main_c_15]
theorem step7 (c : Dev nD) (b : Ref sig .tc) (hb : b ∉ wr7) :
    Gen.W7 m ρ c (Proc.devRef .tc b) = Gen.W6 m ρ c (Proc.devRef .tc b) :=
  StableHlo.after_of_writes_sub (Gen.hostOps2 (F := F)) (Gen.W6 m ρ c) (W := wr7)
    ⟨sub_of_mem (y := main_cst_13) (by decide),
      sub_of_mem (y := main_v59) (by decide),
      sub_of_mem (y := main_v60) (by decide),
      sub_of_mem (y := main_cst_14) (by decide),
      sub_of_mem (y := main_v61) (by decide),
      sub_of_mem (y := main_v62) (by decide),
      sub_of_mem (y := main_c_15) (by decide)⟩ hb
/-- The references written after boundary 6. -/
abbrev wa6 : List (Ref sig .tc) := wr7 ++ wa7
theorem to6 (c : Dev nD) (b : Ref sig .tc) (hb : b ∉ wa6) :
    Gen.W23 m ρ c (Proc.devRef .tc b) = Gen.W6 m ρ c (Proc.devRef .tc b) :=
  trans_of_not_mem_append hb (to7 m ρ c b) (step7 m ρ c b)

/-- The references written between boundaries 5 and 6. -/
abbrev wr6 : List (Ref sig .tc) := [main_v58_0, main_v58_1]
theorem step6 (c : Dev nD) (b : Ref sig .tc) (hb : b ∉ wr6) :
    Gen.W6 m ρ c (Proc.devRef .tc b) = Gen.W5 m ρ c (Proc.devRef .tc b) :=
  keep_of_region (Pipeline.arrRef spec1) wr6 (Gen.W6 m ρ c) (Gen.W5 m ρ c) (Gen.W6_of_ne m ρ c)
    (fun w => match w with
      | ⟨0, _⟩ => fun _ => (Gen.W6_arr m ρ c 0).trans (((Gen.dat1 (Gen.V5 m ρ) c).arrAt_in 0 rfl _).trans (Gen.A_eq1 (Gen.V5 m ρ) c 0))
      | ⟨1, _⟩ => fun _ => (Gen.W6_arr m ρ c 1).trans (((Gen.dat1 (Gen.V5 m ρ) c).arrAt_in 1 rfl _).trans (Gen.A_eq1 (Gen.V5 m ρ) c 1))
      | ⟨2, _⟩ => fun h => absurd (show Pipeline.arrRef spec1 2 ∈ wr6 by decide) h
      | ⟨3, _⟩ => fun h => absurd (show Pipeline.arrRef spec1 3 ∈ wr6 by decide) h
      | ⟨_ + 4, h⟩ => absurd h (Nat.not_lt.2 (Nat.le_add_left _ _)))
    b hb
/-- The references written after boundary 5. -/
abbrev wa5 : List (Ref sig .tc) := wr6 ++ wa6
theorem to5 (c : Dev nD) (b : Ref sig .tc) (hb : b ∉ wa5) :
    Gen.W23 m ρ c (Proc.devRef .tc b) = Gen.W5 m ρ c (Proc.devRef .tc b) :=
  trans_of_not_mem_append hb (to6 m ρ c b) (step6 m ρ c b)

/-- The references written between boundaries 4 and 5. -/
abbrev wr5 : List (Ref sig .tc) := [main_v38, main_c_8, main_v39, main_v40, main_c_9, main_v41, main_v42, main_v43, main_v44, main_v45, main_v46, main_v47, main_v48, main_cst_10, main_v49, main_c_11, main_v50, main_v51, main_c_12, main_v52, main_v53, main_v54, main_v55, main_v56, main_v57]
theorem step5 (c : Dev nD) (b : Ref sig .tc) (hb : b ∉ wr5) :
    Gen.W5 m ρ c (Proc.devRef .tc b) = Gen.W4 m ρ c (Proc.devRef .tc b) :=
  StableHlo.after_of_writes_sub (Gen.hostOps1 (F := F)) (Gen.W4 m ρ c) (W := wr5)
    ⟨sub_of_mem (y := main_v38) (by decide),
      sub_of_mem (y := main_c_8) (by decide),
      sub_of_mem (y := main_v39) (by decide),
      sub_of_mem (y := main_v40) (by decide),
      sub_of_mem (y := main_c_9) (by decide),
      sub_of_mem (y := main_v41) (by decide),
      sub_of_mem (y := main_v42) (by decide),
      sub_of_mem (y := main_v43) (by decide),
      sub_of_mem (y := main_v44) (by decide),
      sub_of_mem (y := main_v45) (by decide),
      sub_of_mem (y := main_v46) (by decide),
      sub_of_mem (y := main_v47) (by decide),
      sub_of_mem (y := main_v48) (by decide),
      sub_of_mem (y := main_cst_10) (by decide),
      sub_of_mem (y := main_v49) (by decide),
      sub_of_mem (y := main_c_11) (by decide),
      sub_of_mem (y := main_v50) (by decide),
      sub_of_mem (y := main_v51) (by decide),
      sub_of_mem (y := main_c_12) (by decide),
      sub_of_mem (y := main_v52) (by decide),
      sub_of_mem (y := main_v53) (by decide),
      sub_of_mem (y := main_v54) (by decide),
      sub_of_mem (y := main_v55) (by decide),
      sub_of_mem (y := main_v56) (by decide),
      sub_of_mem (y := main_v57) (by decide)⟩ hb
/-- The references written after boundary 4. -/
abbrev wa4 : List (Ref sig .tc) := wr5 ++ wa5
theorem to4 (c : Dev nD) (b : Ref sig .tc) (hb : b ∉ wa4) :
    Gen.W23 m ρ c (Proc.devRef .tc b) = Gen.W4 m ρ c (Proc.devRef .tc b) :=
  trans_of_not_mem_append hb (to5 m ρ c b) (step5 m ρ c b)

/-- The references written between boundaries 3 and 4. -/
abbrev wr4 : List (Ref sig .tc) := [main_v37]
theorem step4 (c : Dev nD) (b : Ref sig .tc) (hb : b ∉ wr4) :
    Gen.W4 m ρ c (Proc.devRef .tc b) = Gen.W3 m ρ c (Proc.devRef .tc b) :=
  keep_of_region (Pipeline.arrRef spec0) wr4 (Gen.W4 m ρ c) (Gen.W3 m ρ c) (Gen.W4_of_ne m ρ c)
    (fun w => match w with
      | ⟨0, _⟩ => fun _ => (Gen.W4_arr m ρ c 0).trans (((Gen.dat0 (Gen.V3 m ρ) c).arrAt_in 0 rfl _).trans (Gen.A_eq0 (Gen.V3 m ρ) c 0))
      | ⟨1, _⟩ => fun _ => (Gen.W4_arr m ρ c 1).trans (((Gen.dat0 (Gen.V3 m ρ) c).arrAt_in 1 rfl _).trans (Gen.A_eq0 (Gen.V3 m ρ) c 1))
      | ⟨2, _⟩ => fun h => absurd (show Pipeline.arrRef spec0 2 ∈ wr4 by decide) h
      | ⟨_ + 3, h⟩ => absurd h (Nat.not_lt.2 (Nat.le_add_left _ _)))
    b hb
/-- The references written after boundary 3. -/
abbrev wa3 : List (Ref sig .tc) := wr4 ++ wa4
theorem to3 (c : Dev nD) (b : Ref sig .tc) (hb : b ∉ wa3) :
    Gen.W23 m ρ c (Proc.devRef .tc b) = Gen.W3 m ρ c (Proc.devRef .tc b) :=
  trans_of_not_mem_append hb (to4 m ρ c b) (step4 m ρ c b)

/-- The references written between boundaries 2 and 3. -/
abbrev wr3 : List (Ref sig .tc) := [main_c_4, main_v20, main_v21, main_c_5, main_v22, main_v23, main_v24, main_v25, main_v26, main_c_6, main_v27, main_v28, main_c_7, main_v29, main_v30, main_v31, main_v32, main_v33, main_v34, main_v35, main_v36]
theorem step3 (c : Dev nD) (b : Ref sig .tc) (hb : b ∉ wr3) :
    Gen.W3 m ρ c (Proc.devRef .tc b) = Gen.W2 m ρ c (Proc.devRef .tc b) :=
  StableHlo.after_of_writes_sub (Gen.hostOps0_2 (F := F)) (Gen.W2 m ρ c) (W := wr3)
    ⟨sub_of_mem (y := main_c_4) (by decide),
      sub_of_mem (y := main_v20) (by decide),
      sub_of_mem (y := main_v21) (by decide),
      sub_of_mem (y := main_c_5) (by decide),
      sub_of_mem (y := main_v22) (by decide),
      sub_of_mem (y := main_v23) (by decide),
      sub_of_mem (y := main_v24) (by decide),
      sub_of_mem (y := main_v25) (by decide),
      sub_of_mem (y := main_v26) (by decide),
      sub_of_mem (y := main_c_6) (by decide),
      sub_of_mem (y := main_v27) (by decide),
      sub_of_mem (y := main_v28) (by decide),
      sub_of_mem (y := main_c_7) (by decide),
      sub_of_mem (y := main_v29) (by decide),
      sub_of_mem (y := main_v30) (by decide),
      sub_of_mem (y := main_v31) (by decide),
      sub_of_mem (y := main_v32) (by decide),
      sub_of_mem (y := main_v33) (by decide),
      sub_of_mem (y := main_v34) (by decide),
      sub_of_mem (y := main_v35) (by decide),
      sub_of_mem (y := main_v36) (by decide)⟩ hb
/-- The references written after boundary 2. -/
abbrev wa2 : List (Ref sig .tc) := wr3 ++ wa3
theorem to2 (c : Dev nD) (b : Ref sig .tc) (hb : b ∉ wa2) :
    Gen.W23 m ρ c (Proc.devRef .tc b) = Gen.W2 m ρ c (Proc.devRef .tc b) :=
  trans_of_not_mem_append hb (to3 m ρ c b) (step3 m ρ c b)

/-- The references written between boundaries 1 and 2. -/
abbrev wr2 : List (Ref sig .tc) := [main_call0_v0, main_call0_v1, main_v19]
theorem step2 (c : Dev nD) (b : Ref sig .tc) (hb : b ∉ wr2) :
    Gen.W2 m ρ c (Proc.devRef .tc b) = Gen.W1 m ρ c (Proc.devRef .tc b) :=
  StableHlo.after_of_writes_sub (Gen.hostOps0_1 (F := F)) (Gen.W1 m ρ c) (W := wr2)
    ⟨sub_of_mem (y := main_call0_v0) (by decide),
      sub_of_mem (y := main_call0_v1) (by decide),
      sub_of_mem (y := main_v19) (by decide)⟩ hb
/-- The references written after boundary 1. -/
abbrev wa1 : List (Ref sig .tc) := wr2 ++ wa2
theorem to1 (c : Dev nD) (b : Ref sig .tc) (hb : b ∉ wa1) :
    Gen.W23 m ρ c (Proc.devRef .tc b) = Gen.W1 m ρ c (Proc.devRef .tc b) :=
  trans_of_not_mem_append hb (to2 m ρ c b) (step2 m ρ c b)

/-- The references written between boundaries 0 and 1. -/
abbrev wr1 : List (Ref sig .tc) := [main_v0, main_v1, main_v2, main_v3, main_v4, main_v5, main_v6, main_cst, main_v7, main_c, main_v8, main_v9, main_c_0, main_v10, main_v11, main_v12, main_v13, main_cst_1, main_v14, main_v15, main_cst_2, main_v16, main_v17, main_v18, main_cst_3]
theorem step1 (c : Dev nD) (b : Ref sig .tc) (hb : b ∉ wr1) :
    Gen.W1 m ρ c (Proc.devRef .tc b) = Gen.W0 m ρ c (Proc.devRef .tc b) :=
  StableHlo.after_of_writes_sub (Gen.hostOps0 (F := F)) (Gen.W0 m ρ c) (W := wr1)
    ⟨sub_of_mem (y := main_v0) (by decide),
      sub_of_mem (y := main_v1) (by decide),
      sub_of_mem (y := main_v2) (by decide),
      sub_of_mem (y := main_v3) (by decide),
      sub_of_mem (y := main_v4) (by decide),
      sub_of_mem (y := main_v5) (by decide),
      sub_of_mem (y := main_v6) (by decide),
      sub_of_mem (y := main_cst) (by decide),
      sub_of_mem (y := main_v7) (by decide),
      sub_of_mem (y := main_c) (by decide),
      sub_of_mem (y := main_v8) (by decide),
      sub_of_mem (y := main_v9) (by decide),
      sub_of_mem (y := main_c_0) (by decide),
      sub_of_mem (y := main_v10) (by decide),
      sub_of_mem (y := main_v11) (by decide),
      sub_of_mem (y := main_v12) (by decide),
      sub_of_mem (y := main_v13) (by decide),
      sub_of_mem (y := main_cst_1) (by decide),
      sub_of_mem (y := main_v14) (by decide),
      sub_of_mem (y := main_v15) (by decide),
      sub_of_mem (y := main_cst_2) (by decide),
      sub_of_mem (y := main_v16) (by decide),
      sub_of_mem (y := main_v17) (by decide),
      sub_of_mem (y := main_v18) (by decide),
      sub_of_mem (y := main_cst_3) (by decide)⟩ hb
/-- The references written after boundary 0. -/
abbrev wa0 : List (Ref sig .tc) := wr1 ++ wa1
theorem to0 (c : Dev nD) (b : Ref sig .tc) (hb : b ∉ wa0) :
    Gen.W23 m ρ c (Proc.devRef .tc b) = Gen.W0 m ρ c (Proc.devRef .tc b) :=
  trans_of_not_mem_append hb (to1 m ρ c b) (step1 m ρ c b)

end Cert.KernelIdeal.Stages

end
-- ==== Proof.KernelStages0.lean ====
/- One case per host operation of the stretches between boundaries 0 and 10 of @main's fold — the final contents of
   its result buffer are its function, as printed, of the final contents of its operand buffers — and per window of
   the regions between them: the window's array named, an input window's entry contents as the array's final
   contents, an output window's final contents as the array the region leaves. -/
import proofs.«172352_j22454089024045_1_alg».proof.Proof.KernelStages

set_option maxRecDepth 16384

noncomputable section

namespace Cert.KernelIdeal.Stages

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

/-! ## Region 2 (entered at boundary 9, left at boundary 10): its windows' arrays, what each input window finds, what each output array ends holding -/

theorem arr2_0 : Pipeline.arrRef spec2 0 = main_v58_1 := rfl
theorem arr2_1 : Pipeline.arrRef spec2 1 = main_v62 := rfl
theorem arr2_2 : Pipeline.arrRef spec2 2 = main_v63 := rfl
theorem arr2_3 : Pipeline.arrRef spec2 3 = main_v64 := rfl
theorem arr2_4 : Pipeline.arrRef spec2 4 = main_v65 := rfl
theorem arr2_5 : Pipeline.arrRef spec2 5 = main_v66 := rfl
theorem V9_v58_1 (c : Dev nD) : Gen.V9 m ρ c (Pipeline.arrRef spec2 0) = A m ρ c main_v58_1 :=
  (to9 m ρ c main_v58_1 (by decide)).symm
theorem V9_v62 (c : Dev nD) : Gen.V9 m ρ c (Pipeline.arrRef spec2 1) = A m ρ c main_v62 :=
  (to9 m ρ c main_v62 (by decide)).symm
theorem V9_v63 (c : Dev nD) : Gen.V9 m ρ c (Pipeline.arrRef spec2 2) = A m ρ c main_v63 :=
  (to9 m ρ c main_v63 (by decide)).symm
theorem V9_v64 (c : Dev nD) : Gen.V9 m ρ c (Pipeline.arrRef spec2 3) = A m ρ c main_v64 :=
  (to9 m ρ c main_v64 (by decide)).symm
theorem V9_v65 (c : Dev nD) : Gen.V9 m ρ c (Pipeline.arrRef spec2 4) = A m ρ c main_v65 :=
  (to9 m ρ c main_v65 (by decide)).symm
theorem A_v66_region (c : Dev nD) : A m ρ c main_v66 = (Gen.dat2 (Gen.V9 m ρ) c).arrAt 5 cfg2.N :=
  (to10 m ρ c main_v66 (by decide)).trans (Gen.W10_arr m ρ c 5)

/-! ## The stretch hostOps2_2 (boundary 8 to boundary 9) -/

theorem A_v64 (c : Dev nD) :
    A m ρ c main_v64 = shapeCast S1x1x64 (A m ρ c main_arg3) shapeCasts_S64_S1x1x64 := by
  stage_hop Gen.W9 (Gen.W8 m ρ c) [to9 m ρ c main_v64 (by decide), to9 m ρ c main_arg3 (by decide)]
theorem A_v65 (c : Dev nD) :
    A m ρ c main_v65 = shapeCast S1x1x64 (A m ρ c main_arg4) shapeCasts_S64_S1x1x64 := by
  stage_hop Gen.W9 (Gen.W8 m ρ c) [to9 m ρ c main_v65 (by decide), to9 m ρ c main_arg4 (by decide)]

/-! ## The stretch hostOps2_1 (boundary 7 to boundary 8) -/

theorem A_call1_cst (c : Dev nD) :
    A m ρ c main_call1_cst = ((constant S_ .f32 0x00000000#32) : (⟨S_, .f32⟩ : BufTy).Contents (Elt F)) := by
  stage_hop Gen.W8 (Gen.W7 m ρ c) [to8 m ρ c main_call1_cst (by decide)]
theorem A_call1_v0 (c : Dev nD) :
    A m ρ c main_call1_v0 = ((fun x v => Host.reduceAdd x v reducesTo_S2x50000x64_S64_d0_1 h_S_) : (⟨S2x50000x64, .f32⟩ : BufTy).Contents (Elt F) → (⟨S_, .f32⟩ : BufTy).Contents (Elt F) → (⟨S64, .f32⟩ : BufTy).Contents (Elt F)) (A m ρ c main_v58_1) (A m ρ c main_call1_cst) := by
  stage_hop Gen.W8 (Gen.W7 m ρ c) [to8 m ρ c main_call1_v0 (by decide), to8 m ρ c main_v58_1 (by decide), to8 m ρ c main_call1_cst (by decide)]
theorem A_call1_v1 (c : Dev nD) :
    A m ρ c main_call1_v1 = ((broadcastInDim S1x1x64 ![2] bcast_S64_S1x1x64_2) : (⟨S64, .f32⟩ : BufTy).Contents (Elt F) → (⟨S1x1x64, .f32⟩ : BufTy).Contents (Elt F)) (A m ρ c main_call1_v0) := by
  stage_hop Gen.W8 (Gen.W7 m ρ c) [to8 m ρ c main_call1_v1 (by decide), to8 m ρ c main_call1_v0 (by decide)]
theorem A_call1_cst_0 (c : Dev nD) :
    A m ρ c main_call1_cst_0 = ((constant S_ .f32 0x47C35000#32) : (⟨S_, .f32⟩ : BufTy).Contents (Elt F)) := by
  stage_hop Gen.W8 (Gen.W7 m ρ c) [to8 m ρ c main_call1_cst_0 (by decide)]
theorem A_call1_v2 (c : Dev nD) :
    A m ρ c main_call1_v2 = ((broadcastInDim S1x1x64 ![] bcast_S_S1x1x64) : (⟨S_, .f32⟩ : BufTy).Contents (Elt F) → (⟨S1x1x64, .f32⟩ : BufTy).Contents (Elt F)) (A m ρ c main_call1_cst_0) := by
  stage_hop Gen.W8 (Gen.W7 m ρ c) [to8 m ρ c main_call1_v2 (by decide), to8 m ρ c main_call1_cst_0 (by decide)]
theorem A_call1_v3 (c : Dev nD) :
    A m ρ c main_call1_v3 = (Host.divf : (⟨S1x1x64, .f32⟩ : BufTy).Contents (Elt F) → (⟨S1x1x64, .f32⟩ : BufTy).Contents (Elt F) → (⟨S1x1x64, .f32⟩ : BufTy).Contents (Elt F)) (A m ρ c main_call1_v1) (A m ρ c main_call1_v2) := by
  stage_hop Gen.W8 (Gen.W7 m ρ c) [to8 m ρ c main_call1_v3 (by decide), to8 m ρ c main_call1_v1 (by decide), to8 m ρ c main_call1_v2 (by decide)]
theorem A_call1_v4 (c : Dev nD) :
    A m ρ c main_call1_v4 = ((broadcastInDim S2x50000x64 ![0, 1, 2] bcast_S1x1x64_S2x50000x64_0_1_2) : (⟨S1x1x64, .f32⟩ : BufTy).Contents (Elt F) → (⟨S2x50000x64, .f32⟩ : BufTy).Contents (Elt F)) (A m ρ c main_call1_v3) := by
  stage_hop Gen.W8 (Gen.W7 m ρ c) [to8 m ρ c main_call1_v4 (by decide), to8 m ρ c main_call1_v3 (by decide)]
theorem A_call1_v5 (c : Dev nD) :
    A m ρ c main_call1_v5 = (subf : (⟨S2x50000x64, .f32⟩ : BufTy).Contents (Elt F) → (⟨S2x50000x64, .f32⟩ : BufTy).Contents (Elt F) → (⟨S2x50000x64, .f32⟩ : BufTy).Contents (Elt F)) (A m ρ c main_v58_1) (A m ρ c main_call1_v4) := by
  stage_hop Gen.W8 (Gen.W7 m ρ c) [to8 m ρ c main_call1_v5 (by decide), to8 m ρ c main_v58_1 (by decide), to8 m ρ c main_call1_v4 (by decide)]
theorem A_call1_v6 (c : Dev nD) :
    A m ρ c main_call1_v6 = (mulf : (⟨S2x50000x64, .f32⟩ : BufTy).Contents (Elt F) → (⟨S2x50000x64, .f32⟩ : BufTy).Contents (Elt F) → (⟨S2x50000x64, .f32⟩ : BufTy).Contents (Elt F)) (A m ρ c main_call1_v5) (A m ρ c main_call1_v5) := by
  stage_hop Gen.W8 (Gen.W7 m ρ c) [to8 m ρ c main_call1_v6 (by decide), to8 m ρ c main_call1_v5 (by decide)]
theorem A_call1_v7 (c : Dev nD) :
    A m ρ c main_call1_v7 = ((sitofp .f32) : (⟨S_, .i32⟩ : BufTy).Contents (Elt F) → (⟨S_, .f32⟩ : BufTy).Contents (Elt F)) (A m ρ c main_c_15) := by
  stage_hop Gen.W8 (Gen.W7 m ρ c) [to8 m ρ c main_call1_v7 (by decide), to8 m ρ c main_c_15 (by decide)]
theorem A_call1_cst_1 (c : Dev nD) :
    A m ρ c main_call1_cst_1 = ((constant S_ .f32 0x47C35000#32) : (⟨S_, .f32⟩ : BufTy).Contents (Elt F)) := by
  stage_hop Gen.W8 (Gen.W7 m ρ c) [to8 m ρ c main_call1_cst_1 (by decide)]
theorem A_call1_v8 (c : Dev nD) :
    A m ρ c main_call1_v8 = (subf : (⟨S_, .f32⟩ : BufTy).Contents (Elt F) → (⟨S_, .f32⟩ : BufTy).Contents (Elt F) → (⟨S_, .f32⟩ : BufTy).Contents (Elt F)) (A m ρ c main_call1_cst_1) (A m ρ c main_call1_v7) := by
  stage_hop Gen.W8 (Gen.W7 m ρ c) [to8 m ρ c main_call1_v8 (by decide), to8 m ρ c main_call1_cst_1 (by decide), to8 m ρ c main_call1_v7 (by decide)]
theorem A_call1_cst_2 (c : Dev nD) :
    A m ρ c main_call1_cst_2 = ((constant S_ .f32 0x00000000#32) : (⟨S_, .f32⟩ : BufTy).Contents (Elt F)) := by
  stage_hop Gen.W8 (Gen.W7 m ρ c) [to8 m ρ c main_call1_cst_2 (by decide)]
theorem A_call1_v9 (c : Dev nD) :
    A m ρ c main_call1_v9 = ((fun x v => Host.reduceAdd x v reducesTo_S2x50000x64_S64_d0_1 h_S_) : (⟨S2x50000x64, .f32⟩ : BufTy).Contents (Elt F) → (⟨S_, .f32⟩ : BufTy).Contents (Elt F) → (⟨S64, .f32⟩ : BufTy).Contents (Elt F)) (A m ρ c main_call1_v6) (A m ρ c main_call1_cst_2) := by
  stage_hop Gen.W8 (Gen.W7 m ρ c) [to8 m ρ c main_call1_v9 (by decide), to8 m ρ c main_call1_v6 (by decide), to8 m ρ c main_call1_cst_2 (by decide)]
theorem A_call1_v10 (c : Dev nD) :
    A m ρ c main_call1_v10 = ((broadcastInDim S1x1x64 ![2] bcast_S64_S1x1x64_2) : (⟨S64, .f32⟩ : BufTy).Contents (Elt F) → (⟨S1x1x64, .f32⟩ : BufTy).Contents (Elt F)) (A m ρ c main_call1_v9) := by
  stage_hop Gen.W8 (Gen.W7 m ρ c) [to8 m ρ c main_call1_v10 (by decide), to8 m ρ c main_call1_v9 (by decide)]
theorem A_call1_v11 (c : Dev nD) :
    A m ρ c main_call1_v11 = ((broadcastInDim S1x1x64 ![] bcast_S_S1x1x64) : (⟨S_, .f32⟩ : BufTy).Contents (Elt F) → (⟨S1x1x64, .f32⟩ : BufTy).Contents (Elt F)) (A m ρ c main_call1_v8) := by
  stage_hop Gen.W8 (Gen.W7 m ρ c) [to8 m ρ c main_call1_v11 (by decide), to8 m ρ c main_call1_v8 (by decide)]
theorem A_call1_v12 (c : Dev nD) :
    A m ρ c main_call1_v12 = (Host.divf : (⟨S1x1x64, .f32⟩ : BufTy).Contents (Elt F) → (⟨S1x1x64, .f32⟩ : BufTy).Contents (Elt F) → (⟨S1x1x64, .f32⟩ : BufTy).Contents (Elt F)) (A m ρ c main_call1_v10) (A m ρ c main_call1_v11) := by
  stage_hop Gen.W8 (Gen.W7 m ρ c) [to8 m ρ c main_call1_v12 (by decide), to8 m ρ c main_call1_v10 (by decide), to8 m ρ c main_call1_v11 (by decide)]
theorem A_call1_cst_3 (c : Dev nD) :
    A m ρ c main_call1_cst_3 = ((constant S_ .f32 0x00000000#32) : (⟨S_, .f32⟩ : BufTy).Contents (Elt F)) := by
  stage_hop Gen.W8 (Gen.W7 m ρ c) [to8 m ρ c main_call1_cst_3 (by decide)]
theorem A_call1_v13 (c : Dev nD) :
    A m ρ c main_call1_v13 = ((cmpf .ogt) : (⟨S_, .f32⟩ : BufTy).Contents (Elt F) → (⟨S_, .f32⟩ : BufTy).Contents (Elt F) → (⟨S_, .i1⟩ : BufTy).Contents (Elt F)) (A m ρ c main_call1_v8) (A m ρ c main_call1_cst_3) := by
  stage_hop Gen.W8 (Gen.W7 m ρ c) [to8 m ρ c main_call1_v13 (by decide), to8 m ρ c main_call1_v8 (by decide), to8 m ρ c main_call1_cst_3 (by decide)]
theorem A_call1_cst_4 (c : Dev nD) :
    A m ρ c main_call1_cst_4 = ((constant S_ .f32 0x7FC00000#32) : (⟨S_, .f32⟩ : BufTy).Contents (Elt F)) := by
  stage_hop Gen.W8 (Gen.W7 m ρ c) [to8 m ρ c main_call1_cst_4 (by decide)]
theorem A_call1_call0_v0 (c : Dev nD) :
    A m ρ c main_call1_call0_v0 = (id : (⟨S_, .f32⟩ : BufTy).Contents (Elt F) → (⟨S_, .f32⟩ : BufTy).Contents (Elt F)) (A m ρ c main_call1_cst_4) := by
  stage_hop Gen.W8 (Gen.W7 m ρ c) [to8 m ρ c main_call1_call0_v0 (by decide), to8 m ρ c main_call1_cst_4 (by decide)]
theorem A_call1_call0_v1 (c : Dev nD) :
    A m ρ c main_call1_call0_v1 = ((broadcastInDim S1x1x64 ![] bcast_S_S1x1x64) : (⟨S_, .f32⟩ : BufTy).Contents (Elt F) → (⟨S1x1x64, .f32⟩ : BufTy).Contents (Elt F)) (A m ρ c main_call1_call0_v0) := by
  stage_hop Gen.W8 (Gen.W7 m ρ c) [to8 m ρ c main_call1_call0_v1 (by decide), to8 m ρ c main_call1_call0_v0 (by decide)]
theorem A_v63 (c : Dev nD) :
    A m ρ c main_v63 = ((fun p a b => select (broadcastInDim S1x1x64 ![] bcast_S_S1x1x64 p) a b) : (⟨S_, .i1⟩ : BufTy).Contents (Elt F) → (⟨S1x1x64, .f32⟩ : BufTy).Contents (Elt F) → (⟨S1x1x64, .f32⟩ : BufTy).Contents (Elt F) → (⟨S1x1x64, .f32⟩ : BufTy).Contents (Elt F)) (A m ρ c main_call1_v13) (A m ρ c main_call1_v12) (A m ρ c main_call1_call0_v1) := by
  stage_hop Gen.W8 (Gen.W7 m ρ c) [to8 m ρ c main_v63 (by decide), to8 m ρ c main_call1_v13 (by decide), to8 m ρ c main_call1_v12 (by decide), to8 m ρ c main_call1_call0_v1 (by decide)]

/-! ## The stretch hostOps2 (boundary 6 to boundary 7) -/

theorem A_cst_13 (c : Dev nD) :
    A m ρ c main_cst_13 = (constant S_ .f32 0x00000000#32 : (⟨S_, .f32⟩ : BufTy).Contents (Elt F)) := by
  stage_hop Gen.W7 (Gen.W6 m ρ c) [to7 m ρ c main_cst_13 (by decide)]
theorem A_v59 (c : Dev nD) :
    A m ρ c main_v59 = ((fun x v => Host.reduceAdd x v reducesTo_S2x50000x64_S64_d0_1 h_S_) : (⟨S2x50000x64, .f32⟩ : BufTy).Contents (Elt F) → (⟨S_, .f32⟩ : BufTy).Contents (Elt F) → (⟨S64, .f32⟩ : BufTy).Contents (Elt F)) (A m ρ c main_v58_1) (A m ρ c main_cst_13) := by
  stage_hop Gen.W7 (Gen.W6 m ρ c) [to7 m ρ c main_v59 (by decide), to7 m ρ c main_v58_1 (by decide), to7 m ρ c main_cst_13 (by decide)]
theorem A_v60 (c : Dev nD) :
    A m ρ c main_v60 = (broadcastInDim S1x1x64 ![2] bcast_S64_S1x1x64_2 : (⟨S64, .f32⟩ : BufTy).Contents (Elt F) → (⟨S1x1x64, .f32⟩ : BufTy).Contents (Elt F)) (A m ρ c main_v59) := by
  stage_hop Gen.W7 (Gen.W6 m ρ c) [to7 m ρ c main_v60 (by decide), to7 m ρ c main_v59 (by decide)]
theorem A_cst_14 (c : Dev nD) :
    A m ρ c main_cst_14 = (constant S_ .f32 0x47C35000#32 : (⟨S_, .f32⟩ : BufTy).Contents (Elt F)) := by
  stage_hop Gen.W7 (Gen.W6 m ρ c) [to7 m ρ c main_cst_14 (by decide)]
theorem A_v61 (c : Dev nD) :
    A m ρ c main_v61 = (broadcastInDim S1x1x64 ![] bcast_S_S1x1x64 : (⟨S_, .f32⟩ : BufTy).Contents (Elt F) → (⟨S1x1x64, .f32⟩ : BufTy).Contents (Elt F)) (A m ρ c main_cst_14) := by
  stage_hop Gen.W7 (Gen.W6 m ρ c) [to7 m ρ c main_v61 (by decide), to7 m ρ c main_cst_14 (by decide)]
theorem A_v62 (c : Dev nD) :
    A m ρ c main_v62 = (Host.divf : (⟨S1x1x64, .f32⟩ : BufTy).Contents (Elt F) → (⟨S1x1x64, .f32⟩ : BufTy).Contents (Elt F) → (⟨S1x1x64, .f32⟩ : BufTy).Contents (Elt F)) (A m ρ c main_v60) (A m ρ c main_v61) := by
  stage_hop Gen.W7 (Gen.W6 m ρ c) [to7 m ρ c main_v62 (by decide), to7 m ρ c main_v60 (by decide), to7 m ρ c main_v61 (by decide)]
theorem A_c_15 (c : Dev nD) :
    A m ρ c main_c_15 = (constantI S_ 32 0#32 : (⟨S_, .i32⟩ : BufTy).Contents (Elt F)) := by
  stage_hop Gen.W7 (Gen.W6 m ρ c) [to7 m ρ c main_c_15 (by decide)]

/-! ## Region 1 (entered at boundary 5, left at boundary 6): its windows' arrays, what each input window finds, what each output array ends holding -/

theorem arr1_0 : Pipeline.arrRef spec1 0 = main_v56 := rfl
theorem arr1_1 : Pipeline.arrRef spec1 1 = main_v57 := rfl
theorem arr1_2 : Pipeline.arrRef spec1 2 = main_v58_0 := rfl
theorem arr1_3 : Pipeline.arrRef spec1 3 = main_v58_1 := rfl
theorem V5_v56 (c : Dev nD) : Gen.V5 m ρ c (Pipeline.arrRef spec1 0) = A m ρ c main_v56 :=
  (to5 m ρ c main_v56 (by decide)).symm
theorem V5_v57 (c : Dev nD) : Gen.V5 m ρ c (Pipeline.arrRef spec1 1) = A m ρ c main_v57 :=
  (to5 m ρ c main_v57 (by decide)).symm
theorem A_v58_0_region (c : Dev nD) : A m ρ c main_v58_0 = (Gen.dat1 (Gen.V5 m ρ) c).arrAt 2 cfg1.N :=
  (to6 m ρ c main_v58_0 (by decide)).trans (Gen.W6_arr m ρ c 2)
theorem A_v58_1_region (c : Dev nD) : A m ρ c main_v58_1 = (Gen.dat1 (Gen.V5 m ρ) c).arrAt 3 cfg1.N :=
  (to6 m ρ c main_v58_1 (by decide)).trans (Gen.W6_arr m ρ c 3)

/-! ## The stretch hostOps1 (boundary 4 to boundary 5) -/

theorem A_v38 (c : Dev nD) :
    A m ρ c main_v38 = shapeCast S2x50000x64 (A m ρ c main_v37) shapeCasts_S100000x64_S2x50000x64 := by
  stage_hop Gen.W5 (Gen.W4 m ρ c) [to5 m ρ c main_v38 (by decide), to5 m ρ c main_v37 (by decide)]
theorem A_c_8 (c : Dev nD) :
    A m ρ c main_c_8 = (constantI S_ 32 0#32 : (⟨S_, .i32⟩ : BufTy).Contents (Elt F)) := by
  stage_hop Gen.W5 (Gen.W4 m ρ c) [to5 m ρ c main_c_8 (by decide)]
theorem A_v39 (c : Dev nD) :
    A m ρ c main_v39 = (broadcastInDim S850000 ![] bcast_S_S850000 : (⟨S_, .i32⟩ : BufTy).Contents (Elt F) → (⟨S850000, .i32⟩ : BufTy).Contents (Elt F)) (A m ρ c main_c_8) := by
  stage_hop Gen.W5 (Gen.W4 m ρ c) [to5 m ρ c main_v39 (by decide), to5 m ρ c main_c_8 (by decide)]
theorem A_v40 (c : Dev nD) :
    A m ρ c main_v40 = (cmpi .slt : (⟨S850000, .i32⟩ : BufTy).Contents (Elt F) → (⟨S850000, .i32⟩ : BufTy).Contents (Elt F) → (⟨S850000, .i1⟩ : BufTy).Contents (Elt F)) (A m ρ c main_v3) (A m ρ c main_v39) := by
  stage_hop Gen.W5 (Gen.W4 m ρ c) [to5 m ρ c main_v40 (by decide), to5 m ρ c main_v3 (by decide), to5 m ρ c main_v39 (by decide)]
theorem A_c_9 (c : Dev nD) :
    A m ρ c main_c_9 = (constantI S_ 32 50000#32 : (⟨S_, .i32⟩ : BufTy).Contents (Elt F)) := by
  stage_hop Gen.W5 (Gen.W4 m ρ c) [to5 m ρ c main_c_9 (by decide)]
theorem A_v41 (c : Dev nD) :
    A m ρ c main_v41 = (broadcastInDim S850000 ![] bcast_S_S850000 : (⟨S_, .i32⟩ : BufTy).Contents (Elt F) → (⟨S850000, .i32⟩ : BufTy).Contents (Elt F)) (A m ρ c main_c_9) := by
  stage_hop Gen.W5 (Gen.W4 m ρ c) [to5 m ρ c main_v41 (by decide), to5 m ρ c main_c_9 (by decide)]
theorem A_v42 (c : Dev nD) :
    A m ρ c main_v42 = (addi : (⟨S850000, .i32⟩ : BufTy).Contents (Elt F) → (⟨S850000, .i32⟩ : BufTy).Contents (Elt F) → (⟨S850000, .i32⟩ : BufTy).Contents (Elt F)) (A m ρ c main_v3) (A m ρ c main_v41) := by
  stage_hop Gen.W5 (Gen.W4 m ρ c) [to5 m ρ c main_v42 (by decide), to5 m ρ c main_v3 (by decide), to5 m ρ c main_v41 (by decide)]
theorem A_v43 (c : Dev nD) :
    A m ρ c main_v43 = (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A m ρ c main_v40) (A m ρ c main_v42) (A m ρ c main_v3) := by
  stage_hop Gen.W5 (Gen.W4 m ρ c) [to5 m ρ c main_v43 (by decide), to5 m ρ c main_v40 (by decide), to5 m ρ c main_v42 (by decide), to5 m ρ c main_v3 (by decide)]
theorem A_v44 (c : Dev nD) :
    A m ρ c main_v44 = (broadcastInDim S850000x1 ![0] bcast_S850000_S850000x1_0 : (⟨S850000, .i32⟩ : BufTy).Contents (Elt F) → (⟨S850000x1, .i32⟩ : BufTy).Contents (Elt F)) (A m ρ c main_v43) := by
  stage_hop Gen.W5 (Gen.W4 m ρ c) [to5 m ρ c main_v44 (by decide), to5 m ρ c main_v43 (by decide)]
theorem A_v45 (c : Dev nD) :
    A m ρ c main_v45 = ((fun x i => Host.gather gather_S2x50000x64_S850000x1_S2x850000x64_02_1_n_n_1_1_2164 x i) : (⟨S2x50000x64, .f32⟩ : BufTy).Contents (Elt F) → (⟨S850000x1, .i32⟩ : BufTy).Contents (Elt F) → (⟨S2x850000x64, .f32⟩ : BufTy).Contents (Elt F)) (A m ρ c main_v38) (A m ρ c main_v44) := by
  stage_hop Gen.W5 (Gen.W4 m ρ c) [to5 m ρ c main_v45 (by decide), to5 m ρ c main_v38 (by decide), to5 m ρ c main_v44 (by decide)]
theorem A_v46 (c : Dev nD) :
    A m ρ c main_v46 = (broadcastInDim S1x850000x1 ![1] bcast_S850000_S1x850000x1_1 : (⟨S850000, .f32⟩ : BufTy).Contents (Elt F) → (⟨S1x850000x1, .f32⟩ : BufTy).Contents (Elt F)) (A m ρ c main_v34) := by
  stage_hop Gen.W5 (Gen.W4 m ρ c) [to5 m ρ c main_v46 (by decide), to5 m ρ c main_v34 (by decide)]
theorem A_v47 (c : Dev nD) :
    A m ρ c main_v47 = (broadcastInDim S2x850000x64 ![0, 1, 2] bcast_S1x850000x1_S2x850000x64_0_1_2 : (⟨S1x850000x1, .f32⟩ : BufTy).Contents (Elt F) → (⟨S2x850000x64, .f32⟩ : BufTy).Contents (Elt F)) (A m ρ c main_v46) := by
  stage_hop Gen.W5 (Gen.W4 m ρ c) [to5 m ρ c main_v47 (by decide), to5 m ρ c main_v46 (by decide)]
theorem A_v48 (c : Dev nD) :
    A m ρ c main_v48 = (mulf : (⟨S2x850000x64, .f32⟩ : BufTy).Contents (Elt F) → (⟨S2x850000x64, .f32⟩ : BufTy).Contents (Elt F) → (⟨S2x850000x64, .f32⟩ : BufTy).Contents (Elt F)) (A m ρ c main_v45) (A m ρ c main_v47) := by
  stage_hop Gen.W5 (Gen.W4 m ρ c) [to5 m ρ c main_v48 (by decide), to5 m ρ c main_v45 (by decide), to5 m ρ c main_v47 (by decide)]
theorem A_cst_10 (c : Dev nD) :
    A m ρ c main_cst_10 = (constant S_ .f32 0x00000000#32 : (⟨S_, .f32⟩ : BufTy).Contents (Elt F)) := by
  stage_hop Gen.W5 (Gen.W4 m ρ c) [to5 m ρ c main_cst_10 (by decide)]
theorem A_v49 (c : Dev nD) :
    A m ρ c main_v49 = (broadcastInDim S2x50000x64 ![] bcast_S_S2x50000x64 : (⟨S_, .f32⟩ : BufTy).Contents (Elt F) → (⟨S2x50000x64, .f32⟩ : BufTy).Contents (Elt F)) (A m ρ c main_cst_10) := by
  stage_hop Gen.W5 (Gen.W4 m ρ c) [to5 m ρ c main_v49 (by decide), to5 m ρ c main_cst_10 (by decide)]
theorem A_c_11 (c : Dev nD) :
    A m ρ c main_c_11 = (constantI S_ 32 0#32 : (⟨S_, .i32⟩ : BufTy).Contents (Elt F)) := by
  stage_hop Gen.W5 (Gen.W4 m ρ c) [to5 m ρ c main_c_11 (by decide)]
theorem A_v50 (c : Dev nD) :
    A m ρ c main_v50 = (broadcastInDim S850000 ![] bcast_S_S850000 : (⟨S_, .i32⟩ : BufTy).Contents (Elt F) → (⟨S850000, .i32⟩ : BufTy).Contents (Elt F)) (A m ρ c main_c_11) := by
  stage_hop Gen.W5 (Gen.W4 m ρ c) [to5 m ρ c main_v50 (by decide), to5 m ρ c main_c_11 (by decide)]
theorem A_v51 (c : Dev nD) :
    A m ρ c main_v51 = (cmpi .slt : (⟨S850000, .i32⟩ : BufTy).Contents (Elt F) → (⟨S850000, .i32⟩ : BufTy).Contents (Elt F) → (⟨S850000, .i1⟩ : BufTy).Contents (Elt F)) (A m ρ c main_v6) (A m ρ c main_v50) := by
  stage_hop Gen.W5 (Gen.W4 m ρ c) [to5 m ρ c main_v51 (by decide), to5 m ρ c main_v6 (by decide), to5 m ρ c main_v50 (by decide)]
theorem A_c_12 (c : Dev nD) :
    A m ρ c main_c_12 = (constantI S_ 32 50000#32 : (⟨S_, .i32⟩ : BufTy).Contents (Elt F)) := by
  stage_hop Gen.W5 (Gen.W4 m ρ c) [to5 m ρ c main_c_12 (by decide)]
theorem A_v52 (c : Dev nD) :
    A m ρ c main_v52 = (broadcastInDim S850000 ![] bcast_S_S850000 : (⟨S_, .i32⟩ : BufTy).Contents (Elt F) → (⟨S850000, .i32⟩ : BufTy).Contents (Elt F)) (A m ρ c main_c_12) := by
  stage_hop Gen.W5 (Gen.W4 m ρ c) [to5 m ρ c main_v52 (by decide), to5 m ρ c main_c_12 (by decide)]
theorem A_v53 (c : Dev nD) :
    A m ρ c main_v53 = (addi : (⟨S850000, .i32⟩ : BufTy).Contents (Elt F) → (⟨S850000, .i32⟩ : BufTy).Contents (Elt F) → (⟨S850000, .i32⟩ : BufTy).Contents (Elt F)) (A m ρ c main_v6) (A m ρ c main_v52) := by
  stage_hop Gen.W5 (Gen.W4 m ρ c) [to5 m ρ c main_v53 (by decide), to5 m ρ c main_v6 (by decide), to5 m ρ c main_v52 (by decide)]
theorem A_v54 (c : Dev nD) :
    A m ρ c main_v54 = (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A m ρ c main_v51) (A m ρ c main_v53) (A m ρ c main_v6) := by
  stage_hop Gen.W5 (Gen.W4 m ρ c) [to5 m ρ c main_v54 (by decide), to5 m ρ c main_v51 (by decide), to5 m ρ c main_v53 (by decide), to5 m ρ c main_v6 (by decide)]
theorem A_v55 (c : Dev nD) :
    A m ρ c main_v55 = (broadcastInDim S850000x1 ![0] bcast_S850000_S850000x1_0 : (⟨S850000, .i32⟩ : BufTy).Contents (Elt F) → (⟨S850000x1, .i32⟩ : BufTy).Contents (Elt F)) (A m ρ c main_v54) := by
  stage_hop Gen.W5 (Gen.W4 m ρ c) [to5 m ρ c main_v55 (by decide), to5 m ρ c main_v54 (by decide)]
theorem A_v56 (c : Dev nD) :
    A m ρ c main_v56 = ((fun x i u => Host.scatterAdd scatter_S2x50000x64_S850000x1_S2x850000x64_02_1_1_1 x i u) : (⟨S2x50000x64, .f32⟩ : BufTy).Contents (Elt F) → (⟨S850000x1, .i32⟩ : BufTy).Contents (Elt F) → (⟨S2x850000x64, .f32⟩ : BufTy).Contents (Elt F) → (⟨S2x50000x64, .f32⟩ : BufTy).Contents (Elt F)) (A m ρ c main_v49) (A m ρ c main_v55) (A m ρ c main_v48) := by
  stage_hop Gen.W5 (Gen.W4 m ρ c) [to5 m ρ c main_v56 (by decide), to5 m ρ c main_v49 (by decide), to5 m ρ c main_v55 (by decide), to5 m ρ c main_v48 (by decide)]
theorem A_v57 (c : Dev nD) :
    A m ρ c main_v57 = shapeCast S1x1x64 (A m ρ c main_arg2) shapeCasts_S64_S1x1x64 := by
  stage_hop Gen.W5 (Gen.W4 m ρ c) [to5 m ρ c main_v57 (by decide), to5 m ρ c main_arg2 (by decide)]

/-! ## Region 0 (entered at boundary 3, left at boundary 4): its windows' arrays, what each input window finds, what each output array ends holding -/

theorem arr0_0 : Pipeline.arrRef spec0 0 = main_v36 := rfl
theorem arr0_1 : Pipeline.arrRef spec0 1 = main_arg1 := rfl
theorem arr0_2 : Pipeline.arrRef spec0 2 = main_v37 := rfl
theorem V3_v36 (c : Dev nD) : Gen.V3 m ρ c (Pipeline.arrRef spec0 0) = A m ρ c main_v36 :=
  (to3 m ρ c main_v36 (by decide)).symm
theorem V3_arg1 (c : Dev nD) : Gen.V3 m ρ c (Pipeline.arrRef spec0 1) = A m ρ c main_arg1 :=
  (to3 m ρ c main_arg1 (by decide)).symm
theorem A_v37_region (c : Dev nD) : A m ρ c main_v37 = (Gen.dat0 (Gen.V3 m ρ) c).arrAt 2 cfg0.N :=
  (to4 m ρ c main_v37 (by decide)).trans (Gen.W4_arr m ρ c 2)

/-! ## The stretch hostOps0_2 (boundary 2 to boundary 3) -/

theorem A_c_4 (c : Dev nD) :
    A m ρ c main_c_4 = (constantI S_ 32 0#32 : (⟨S_, .i32⟩ : BufTy).Contents (Elt F)) := by
  stage_hop Gen.W3 (Gen.W2 m ρ c) [to3 m ρ c main_c_4 (by decide)]
theorem A_v20 (c : Dev nD) :
    A m ρ c main_v20 = (broadcastInDim S850000 ![] bcast_S_S850000 : (⟨S_, .i32⟩ : BufTy).Contents (Elt F) → (⟨S850000, .i32⟩ : BufTy).Contents (Elt F)) (A m ρ c main_c_4) := by
  stage_hop Gen.W3 (Gen.W2 m ρ c) [to3 m ρ c main_v20 (by decide), to3 m ρ c main_c_4 (by decide)]
theorem A_v21 (c : Dev nD) :
    A m ρ c main_v21 = (cmpi .slt : (⟨S850000, .i32⟩ : BufTy).Contents (Elt F) → (⟨S850000, .i32⟩ : BufTy).Contents (Elt F) → (⟨S850000, .i1⟩ : BufTy).Contents (Elt F)) (A m ρ c main_v3) (A m ρ c main_v20) := by
  stage_hop Gen.W3 (Gen.W2 m ρ c) [to3 m ρ c main_v21 (by decide), to3 m ρ c main_v3 (by decide), to3 m ρ c main_v20 (by decide)]
theorem A_c_5 (c : Dev nD) :
    A m ρ c main_c_5 = (constantI S_ 32 50000#32 : (⟨S_, .i32⟩ : BufTy).Contents (Elt F)) := by
  stage_hop Gen.W3 (Gen.W2 m ρ c) [to3 m ρ c main_c_5 (by decide)]
theorem A_v22 (c : Dev nD) :
    A m ρ c main_v22 = (broadcastInDim S850000 ![] bcast_S_S850000 : (⟨S_, .i32⟩ : BufTy).Contents (Elt F) → (⟨S850000, .i32⟩ : BufTy).Contents (Elt F)) (A m ρ c main_c_5) := by
  stage_hop Gen.W3 (Gen.W2 m ρ c) [to3 m ρ c main_v22 (by decide), to3 m ρ c main_c_5 (by decide)]
theorem A_v23 (c : Dev nD) :
    A m ρ c main_v23 = (addi : (⟨S850000, .i32⟩ : BufTy).Contents (Elt F) → (⟨S850000, .i32⟩ : BufTy).Contents (Elt F) → (⟨S850000, .i32⟩ : BufTy).Contents (Elt F)) (A m ρ c main_v3) (A m ρ c main_v22) := by
  stage_hop Gen.W3 (Gen.W2 m ρ c) [to3 m ρ c main_v23 (by decide), to3 m ρ c main_v3 (by decide), to3 m ρ c main_v22 (by decide)]
theorem A_v24 (c : Dev nD) :
    A m ρ c main_v24 = (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A m ρ c main_v21) (A m ρ c main_v23) (A m ρ c main_v3) := by
  stage_hop Gen.W3 (Gen.W2 m ρ c) [to3 m ρ c main_v24 (by decide), to3 m ρ c main_v21 (by decide), to3 m ρ c main_v23 (by decide), to3 m ρ c main_v3 (by decide)]
theorem A_v25 (c : Dev nD) :
    A m ρ c main_v25 = (broadcastInDim S850000x1 ![0] bcast_S850000_S850000x1_0 : (⟨S850000, .i32⟩ : BufTy).Contents (Elt F) → (⟨S850000x1, .i32⟩ : BufTy).Contents (Elt F)) (A m ρ c main_v24) := by
  stage_hop Gen.W3 (Gen.W2 m ρ c) [to3 m ρ c main_v25 (by decide), to3 m ρ c main_v24 (by decide)]
theorem A_v26 (c : Dev nD) :
    A m ρ c main_v26 = ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (A m ρ c main_v19) (A m ρ c main_v25) := by
  stage_hop Gen.W3 (Gen.W2 m ρ c) [to3 m ρ c main_v26 (by decide), to3 m ρ c main_v19 (by decide), to3 m ρ c main_v25 (by decide)]
theorem A_c_6 (c : Dev nD) :
    A m ρ c main_c_6 = (constantI S_ 32 0#32 : (⟨S_, .i32⟩ : BufTy).Contents (Elt F)) := by
  stage_hop Gen.W3 (Gen.W2 m ρ c) [to3 m ρ c main_c_6 (by decide)]
theorem A_v27 (c : Dev nD) :
    A m ρ c main_v27 = (broadcastInDim S850000 ![] bcast_S_S850000 : (⟨S_, .i32⟩ : BufTy).Contents (Elt F) → (⟨S850000, .i32⟩ : BufTy).Contents (Elt F)) (A m ρ c main_c_6) := by
  stage_hop Gen.W3 (Gen.W2 m ρ c) [to3 m ρ c main_v27 (by decide), to3 m ρ c main_c_6 (by decide)]
theorem A_v28 (c : Dev nD) :
    A m ρ c main_v28 = (cmpi .slt : (⟨S850000, .i32⟩ : BufTy).Contents (Elt F) → (⟨S850000, .i32⟩ : BufTy).Contents (Elt F) → (⟨S850000, .i1⟩ : BufTy).Contents (Elt F)) (A m ρ c main_v6) (A m ρ c main_v27) := by
  stage_hop Gen.W3 (Gen.W2 m ρ c) [to3 m ρ c main_v28 (by decide), to3 m ρ c main_v6 (by decide), to3 m ρ c main_v27 (by decide)]
theorem A_c_7 (c : Dev nD) :
    A m ρ c main_c_7 = (constantI S_ 32 50000#32 : (⟨S_, .i32⟩ : BufTy).Contents (Elt F)) := by
  stage_hop Gen.W3 (Gen.W2 m ρ c) [to3 m ρ c main_c_7 (by decide)]
theorem A_v29 (c : Dev nD) :
    A m ρ c main_v29 = (broadcastInDim S850000 ![] bcast_S_S850000 : (⟨S_, .i32⟩ : BufTy).Contents (Elt F) → (⟨S850000, .i32⟩ : BufTy).Contents (Elt F)) (A m ρ c main_c_7) := by
  stage_hop Gen.W3 (Gen.W2 m ρ c) [to3 m ρ c main_v29 (by decide), to3 m ρ c main_c_7 (by decide)]
theorem A_v30 (c : Dev nD) :
    A m ρ c main_v30 = (addi : (⟨S850000, .i32⟩ : BufTy).Contents (Elt F) → (⟨S850000, .i32⟩ : BufTy).Contents (Elt F) → (⟨S850000, .i32⟩ : BufTy).Contents (Elt F)) (A m ρ c main_v6) (A m ρ c main_v29) := by
  stage_hop Gen.W3 (Gen.W2 m ρ c) [to3 m ρ c main_v30 (by decide), to3 m ρ c main_v6 (by decide), to3 m ρ c main_v29 (by decide)]
theorem A_v31 (c : Dev nD) :
    A m ρ c main_v31 = (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A m ρ c main_v28) (A m ρ c main_v30) (A m ρ c main_v6) := by
  stage_hop Gen.W3 (Gen.W2 m ρ c) [to3 m ρ c main_v31 (by decide), to3 m ρ c main_v28 (by decide), to3 m ρ c main_v30 (by decide), to3 m ρ c main_v6 (by decide)]
theorem A_v32 (c : Dev nD) :
    A m ρ c main_v32 = (broadcastInDim S850000x1 ![0] bcast_S850000_S850000x1_0 : (⟨S850000, .i32⟩ : BufTy).Contents (Elt F) → (⟨S850000x1, .i32⟩ : BufTy).Contents (Elt F)) (A m ρ c main_v31) := by
  stage_hop Gen.W3 (Gen.W2 m ρ c) [to3 m ρ c main_v32 (by decide), to3 m ρ c main_v31 (by decide)]
theorem A_v33 (c : Dev nD) :
    A m ρ c main_v33 = ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (A m ρ c main_v19) (A m ρ c main_v32) := by
  stage_hop Gen.W3 (Gen.W2 m ρ c) [to3 m ρ c main_v33 (by decide), to3 m ρ c main_v19 (by decide), to3 m ρ c main_v32 (by decide)]
theorem A_v34 (c : Dev nD) :
    A m ρ c main_v34 = (mulf : (⟨S850000, .f32⟩ : BufTy).Contents (Elt F) → (⟨S850000, .f32⟩ : BufTy).Contents (Elt F) → (⟨S850000, .f32⟩ : BufTy).Contents (Elt F)) (A m ρ c main_v26) (A m ρ c main_v33) := by
  stage_hop Gen.W3 (Gen.W2 m ρ c) [to3 m ρ c main_v34 (by decide), to3 m ρ c main_v26 (by decide), to3 m ρ c main_v33 (by decide)]
theorem A_v35 (c : Dev nD) :
    A m ρ c main_v35 = shapeCast S2x50000x216 (A m ρ c main_arg0) shapeCasts_S1x2x50000x216_S2x50000x216 := by
  stage_hop Gen.W3 (Gen.W2 m ρ c) [to3 m ρ c main_v35 (by decide), to3 m ρ c main_arg0 (by decide)]
theorem A_v36 (c : Dev nD) :
    A m ρ c main_v36 = shapeCast S100000x216 (A m ρ c main_v35) shapeCasts_S2x50000x216_S100000x216 := by
  stage_hop Gen.W3 (Gen.W2 m ρ c) [to3 m ρ c main_v36 (by decide), to3 m ρ c main_v35 (by decide)]

/-! ## The stretch hostOps0_1 (boundary 1 to boundary 2) -/

theorem A_call0_v0 (c : Dev nD) :
    A m ρ c main_call0_v0 = (id : (⟨S_, .f32⟩ : BufTy).Contents (Elt F) → (⟨S_, .f32⟩ : BufTy).Contents (Elt F)) (A m ρ c main_cst_3) := by
  stage_hop Gen.W2 (Gen.W1 m ρ c) [to2 m ρ c main_call0_v0 (by decide), to2 m ρ c main_cst_3 (by decide)]
theorem A_call0_v1 (c : Dev nD) :
    A m ρ c main_call0_v1 = ((broadcastInDim S50000 ![] bcast_S_S50000) : (⟨S_, .f32⟩ : BufTy).Contents (Elt F) → (⟨S50000, .f32⟩ : BufTy).Contents (Elt F)) (A m ρ c main_call0_v0) := by
  stage_hop Gen.W2 (Gen.W1 m ρ c) [to2 m ρ c main_call0_v1 (by decide), to2 m ρ c main_call0_v0 (by decide)]
theorem A_v19 (c : Dev nD) :
    A m ρ c main_v19 = (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) (A m ρ c main_v17) (A m ρ c main_v18) (A m ρ c main_call0_v1) := by
  stage_hop Gen.W2 (Gen.W1 m ρ c) [to2 m ρ c main_v19 (by decide), to2 m ρ c main_v17 (by decide), to2 m ρ c main_v18 (by decide), to2 m ρ c main_call0_v1 (by decide)]

/-! ## The stretch hostOps0 (boundary 0 to boundary 1) -/

theorem A_v0 (c : Dev nD) :
    A m ρ c main_v0 = (iotaInDim S50000 32 0 : (⟨S50000, .i32⟩ : BufTy).Contents (Elt F)) := by
  stage_hop Gen.W1 (Gen.W0 m ρ c) [to1 m ρ c main_v0 (by decide)]
theorem A_v1 (c : Dev nD) :
    A m ρ c main_v1 = ((extractStridedSlice S1x800000 ![0, 0] · slices_S2x800000_S1x800000_0_0) : (⟨S2x800000, .i32⟩ : BufTy).Contents (Elt F) → (⟨S1x800000, .i32⟩ : BufTy).Contents (Elt F)) (A m ρ c main_arg11) := by
  stage_hop Gen.W1 (Gen.W0 m ρ c) [to1 m ρ c main_v1 (by decide), to1 m ρ c main_arg11 (by decide)]
theorem A_v2 (c : Dev nD) :
    A m ρ c main_v2 = shapeCast S800000 (A m ρ c main_v1) shapeCasts_S1x800000_S800000 := by
  stage_hop Gen.W1 (Gen.W0 m ρ c) [to1 m ρ c main_v2 (by decide), to1 m ρ c main_v1 (by decide)]
theorem A_v3 (c : Dev nD) :
    A m ρ c main_v3 = ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) (A m ρ c main_v2) (A m ρ c main_v0) := by
  stage_hop Gen.W1 (Gen.W0 m ρ c) [to1 m ρ c main_v3 (by decide), to1 m ρ c main_v2 (by decide), to1 m ρ c main_v0 (by decide)]
theorem A_v4 (c : Dev nD) :
    A m ρ c main_v4 = ((extractStridedSlice S1x800000 ![1, 0] · slices_S2x800000_S1x800000_1_0) : (⟨S2x800000, .i32⟩ : BufTy).Contents (Elt F) → (⟨S1x800000, .i32⟩ : BufTy).Contents (Elt F)) (A m ρ c main_arg11) := by
  stage_hop Gen.W1 (Gen.W0 m ρ c) [to1 m ρ c main_v4 (by decide), to1 m ρ c main_arg11 (by decide)]
theorem A_v5 (c : Dev nD) :
    A m ρ c main_v5 = shapeCast S800000 (A m ρ c main_v4) shapeCasts_S1x800000_S800000 := by
  stage_hop Gen.W1 (Gen.W0 m ρ c) [to1 m ρ c main_v5 (by decide), to1 m ρ c main_v4 (by decide)]
theorem A_v6 (c : Dev nD) :
    A m ρ c main_v6 = ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) (A m ρ c main_v5) (A m ρ c main_v0) := by
  stage_hop Gen.W1 (Gen.W0 m ρ c) [to1 m ρ c main_v6 (by decide), to1 m ρ c main_v5 (by decide), to1 m ρ c main_v0 (by decide)]
theorem A_cst (c : Dev nD) :
    A m ρ c main_cst = (constant S_ .f32 0x00000000#32 : (⟨S_, .f32⟩ : BufTy).Contents (Elt F)) := by
  stage_hop Gen.W1 (Gen.W0 m ρ c) [to1 m ρ c main_cst (by decide)]
theorem A_v7 (c : Dev nD) :
    A m ρ c main_v7 = (broadcastInDim S50000 ![] bcast_S_S50000 : (⟨S_, .f32⟩ : BufTy).Contents (Elt F) → (⟨S50000, .f32⟩ : BufTy).Contents (Elt F)) (A m ρ c main_cst) := by
  stage_hop Gen.W1 (Gen.W0 m ρ c) [to1 m ρ c main_v7 (by decide), to1 m ρ c main_cst (by decide)]
theorem A_c (c : Dev nD) :
    A m ρ c main_c = (constantI S_ 32 0#32 : (⟨S_, .i32⟩ : BufTy).Contents (Elt F)) := by
  stage_hop Gen.W1 (Gen.W0 m ρ c) [to1 m ρ c main_c (by decide)]
theorem A_v8 (c : Dev nD) :
    A m ρ c main_v8 = (broadcastInDim S850000 ![] bcast_S_S850000 : (⟨S_, .i32⟩ : BufTy).Contents (Elt F) → (⟨S850000, .i32⟩ : BufTy).Contents (Elt F)) (A m ρ c main_c) := by
  stage_hop Gen.W1 (Gen.W0 m ρ c) [to1 m ρ c main_v8 (by decide), to1 m ρ c main_c (by decide)]
theorem A_v9 (c : Dev nD) :
    A m ρ c main_v9 = (cmpi .slt : (⟨S850000, .i32⟩ : BufTy).Contents (Elt F) → (⟨S850000, .i32⟩ : BufTy).Contents (Elt F) → (⟨S850000, .i1⟩ : BufTy).Contents (Elt F)) (A m ρ c main_v6) (A m ρ c main_v8) := by
  stage_hop Gen.W1 (Gen.W0 m ρ c) [to1 m ρ c main_v9 (by decide), to1 m ρ c main_v6 (by decide), to1 m ρ c main_v8 (by decide)]
theorem A_c_0 (c : Dev nD) :
    A m ρ c main_c_0 = (constantI S_ 32 50000#32 : (⟨S_, .i32⟩ : BufTy).Contents (Elt F)) := by
  stage_hop Gen.W1 (Gen.W0 m ρ c) [to1 m ρ c main_c_0 (by decide)]
theorem A_v10 (c : Dev nD) :
    A m ρ c main_v10 = (broadcastInDim S850000 ![] bcast_S_S850000 : (⟨S_, .i32⟩ : BufTy).Contents (Elt F) → (⟨S850000, .i32⟩ : BufTy).Contents (Elt F)) (A m ρ c main_c_0) := by
  stage_hop Gen.W1 (Gen.W0 m ρ c) [to1 m ρ c main_v10 (by decide), to1 m ρ c main_c_0 (by decide)]
theorem A_v11 (c : Dev nD) :
    A m ρ c main_v11 = (addi : (⟨S850000, .i32⟩ : BufTy).Contents (Elt F) → (⟨S850000, .i32⟩ : BufTy).Contents (Elt F) → (⟨S850000, .i32⟩ : BufTy).Contents (Elt F)) (A m ρ c main_v6) (A m ρ c main_v10) := by
  stage_hop Gen.W1 (Gen.W0 m ρ c) [to1 m ρ c main_v11 (by decide), to1 m ρ c main_v6 (by decide), to1 m ρ c main_v10 (by decide)]
theorem A_v12 (c : Dev nD) :
    A m ρ c main_v12 = (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A m ρ c main_v9) (A m ρ c main_v11) (A m ρ c main_v6) := by
  stage_hop Gen.W1 (Gen.W0 m ρ c) [to1 m ρ c main_v12 (by decide), to1 m ρ c main_v9 (by decide), to1 m ρ c main_v11 (by decide), to1 m ρ c main_v6 (by decide)]
theorem A_v13 (c : Dev nD) :
    A m ρ c main_v13 = (broadcastInDim S850000x1 ![0] bcast_S850000_S850000x1_0 : (⟨S850000, .i32⟩ : BufTy).Contents (Elt F) → (⟨S850000x1, .i32⟩ : BufTy).Contents (Elt F)) (A m ρ c main_v12) := by
  stage_hop Gen.W1 (Gen.W0 m ρ c) [to1 m ρ c main_v13 (by decide), to1 m ρ c main_v12 (by decide)]
theorem A_cst_1 (c : Dev nD) :
    A m ρ c main_cst_1 = (constant S_ .f32 0x3F800000#32 : (⟨S_, .f32⟩ : BufTy).Contents (Elt F)) := by
  stage_hop Gen.W1 (Gen.W0 m ρ c) [to1 m ρ c main_cst_1 (by decide)]
theorem A_v14 (c : Dev nD) :
    A m ρ c main_v14 = (broadcastInDim S850000 ![] bcast_S_S850000 : (⟨S_, .f32⟩ : BufTy).Contents (Elt F) → (⟨S850000, .f32⟩ : BufTy).Contents (Elt F)) (A m ρ c main_cst_1) := by
  stage_hop Gen.W1 (Gen.W0 m ρ c) [to1 m ρ c main_v14 (by decide), to1 m ρ c main_cst_1 (by decide)]
theorem A_v15 (c : Dev nD) :
    A m ρ c main_v15 = ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) (A m ρ c main_v7) (A m ρ c main_v13) (A m ρ c main_v14) := by
  stage_hop Gen.W1 (Gen.W0 m ρ c) [to1 m ρ c main_v15 (by decide), to1 m ρ c main_v7 (by decide), to1 m ρ c main_v13 (by decide), to1 m ρ c main_v14 (by decide)]
theorem A_cst_2 (c : Dev nD) :
    A m ρ c main_cst_2 = (constant S_ .f32 0x00000000#32 : (⟨S_, .f32⟩ : BufTy).Contents (Elt F)) := by
  stage_hop Gen.W1 (Gen.W0 m ρ c) [to1 m ρ c main_cst_2 (by decide)]
theorem A_v16 (c : Dev nD) :
    A m ρ c main_v16 = (broadcastInDim S50000 ![] bcast_S_S50000 : (⟨S_, .f32⟩ : BufTy).Contents (Elt F) → (⟨S50000, .f32⟩ : BufTy).Contents (Elt F)) (A m ρ c main_cst_2) := by
  stage_hop Gen.W1 (Gen.W0 m ρ c) [to1 m ρ c main_v16 (by decide), to1 m ρ c main_cst_2 (by decide)]
theorem A_v17 (c : Dev nD) :
    A m ρ c main_v17 = (cmpf .ogt : (⟨S50000, .f32⟩ : BufTy).Contents (Elt F) → (⟨S50000, .f32⟩ : BufTy).Contents (Elt F) → (⟨S50000, .i1⟩ : BufTy).Contents (Elt F)) (A m ρ c main_v15) (A m ρ c main_v16) := by
  stage_hop Gen.W1 (Gen.W0 m ρ c) [to1 m ρ c main_v17 (by decide), to1 m ρ c main_v15 (by decide), to1 m ρ c main_v16 (by decide)]
theorem A_v18 (c : Dev nD) :
    A m ρ c main_v18 = (Host.rsqrt : (⟨S50000, .f32⟩ : BufTy).Contents (Elt F) → (⟨S50000, .f32⟩ : BufTy).Contents (Elt F)) (A m ρ c main_v15) := by
  stage_hop Gen.W1 (Gen.W0 m ρ c) [to1 m ρ c main_v18 (by decide), to1 m ρ c main_v15 (by decide)]
theorem A_cst_3 (c : Dev nD) :
    A m ρ c main_cst_3 = (constant S_ .f32 0x00000000#32 : (⟨S_, .f32⟩ : BufTy).Contents (Elt F)) := by
  stage_hop Gen.W1 (Gen.W0 m ρ c) [to1 m ρ c main_cst_3 (by decide)]

/-! ## The arguments end as launched -/

theorem A_arg0 (c : Dev nD) : A m ρ c main_arg0 = m ((c : Thread nD τ).loc main_arg0) := Gen.W23_main_arg0 m ρ c
theorem A_arg1 (c : Dev nD) : A m ρ c main_arg1 = m ((c : Thread nD τ).loc main_arg1) := Gen.W23_main_arg1 m ρ c
theorem A_arg2 (c : Dev nD) : A m ρ c main_arg2 = m ((c : Thread nD τ).loc main_arg2) := Gen.W23_main_arg2 m ρ c
theorem A_arg3 (c : Dev nD) : A m ρ c main_arg3 = m ((c : Thread nD τ).loc main_arg3) := Gen.W23_main_arg3 m ρ c
theorem A_arg4 (c : Dev nD) : A m ρ c main_arg4 = m ((c : Thread nD τ).loc main_arg4) := Gen.W23_main_arg4 m ρ c
theorem A_arg5 (c : Dev nD) : A m ρ c main_arg5 = m ((c : Thread nD τ).loc main_arg5) := Gen.W23_main_arg5 m ρ c
theorem A_arg6 (c : Dev nD) : A m ρ c main_arg6 = m ((c : Thread nD τ).loc main_arg6) := Gen.W23_main_arg6 m ρ c
theorem A_arg7 (c : Dev nD) : A m ρ c main_arg7 = m ((c : Thread nD τ).loc main_arg7) := Gen.W23_main_arg7 m ρ c
theorem A_arg8 (c : Dev nD) : A m ρ c main_arg8 = m ((c : Thread nD τ).loc main_arg8) := Gen.W23_main_arg8 m ρ c
theorem A_arg9 (c : Dev nD) : A m ρ c main_arg9 = m ((c : Thread nD τ).loc main_arg9) := Gen.W23_main_arg9 m ρ c
theorem A_arg10 (c : Dev nD) : A m ρ c main_arg10 = m ((c : Thread nD τ).loc main_arg10) := Gen.W23_main_arg10 m ρ c
theorem A_arg11 (c : Dev nD) : A m ρ c main_arg11 = m ((c : Thread nD τ).loc main_arg11) := Gen.W23_main_arg11 m ρ c

end Cert.KernelIdeal.Stages

end
-- ==== Proof.KernelStages1.lean ====
/- One case per host operation of the stretches between boundaries 10 and 18 of @main's fold — the final contents of
   its result buffer are its function, as printed, of the final contents of its operand buffers — and per window of
   the regions between them: the window's array named, an input window's entry contents as the array's final
   contents, an output window's final contents as the array the region leaves. -/
import proofs.«172352_j22454089024045_1_alg».proof.Proof.KernelStages

set_option maxRecDepth 16384

noncomputable section

namespace Cert.KernelIdeal.Stages

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

/-! ## Region 5 (entered at boundary 17, left at boundary 18): its windows' arrays, what each input window finds, what each output array ends holding -/

theorem arr5_0 : Pipeline.arrRef spec5 0 = main_v89_1 := rfl
theorem arr5_1 : Pipeline.arrRef spec5 1 = main_v93 := rfl
theorem arr5_2 : Pipeline.arrRef spec5 2 = main_v94 := rfl
theorem arr5_3 : Pipeline.arrRef spec5 3 = main_v95 := rfl
theorem arr5_4 : Pipeline.arrRef spec5 4 = main_v96 := rfl
theorem arr5_5 : Pipeline.arrRef spec5 5 = main_v97 := rfl
theorem V17_v89_1 (c : Dev nD) : Gen.V17 m ρ c (Pipeline.arrRef spec5 0) = A m ρ c main_v89_1 :=
  (to17 m ρ c main_v89_1 (by decide)).symm
theorem V17_v93 (c : Dev nD) : Gen.V17 m ρ c (Pipeline.arrRef spec5 1) = A m ρ c main_v93 :=
  (to17 m ρ c main_v93 (by decide)).symm
theorem V17_v94 (c : Dev nD) : Gen.V17 m ρ c (Pipeline.arrRef spec5 2) = A m ρ c main_v94 :=
  (to17 m ρ c main_v94 (by decide)).symm
theorem V17_v95 (c : Dev nD) : Gen.V17 m ρ c (Pipeline.arrRef spec5 3) = A m ρ c main_v95 :=
  (to17 m ρ c main_v95 (by decide)).symm
theorem V17_v96 (c : Dev nD) : Gen.V17 m ρ c (Pipeline.arrRef spec5 4) = A m ρ c main_v96 :=
  (to17 m ρ c main_v96 (by decide)).symm
theorem A_v97_region (c : Dev nD) : A m ρ c main_v97 = (Gen.dat5 (Gen.V17 m ρ) c).arrAt 5 cfg5.N :=
  (to18 m ρ c main_v97 (by decide)).trans (Gen.W18_arr m ρ c 5)

/-! ## The stretch hostOps5_2 (boundary 16 to boundary 17) -/

theorem A_v95 (c : Dev nD) :
    A m ρ c main_v95 = shapeCast S1x1x8 (A m ρ c main_arg7) shapeCasts_S8_S1x1x8 := by
  stage_hop Gen.W17 (Gen.W16 m ρ c) [to17 m ρ c main_v95 (by decide), to17 m ρ c main_arg7 (by decide)]
theorem A_v96 (c : Dev nD) :
    A m ρ c main_v96 = shapeCast S1x1x8 (A m ρ c main_arg8) shapeCasts_S8_S1x1x8 := by
  stage_hop Gen.W17 (Gen.W16 m ρ c) [to17 m ρ c main_v96 (by decide), to17 m ρ c main_arg8 (by decide)]

/-! ## The stretch hostOps5_1 (boundary 15 to boundary 16) -/

theorem A_call2_cst (c : Dev nD) :
    A m ρ c main_call2_cst = ((constant S_ .f32 0x00000000#32) : (⟨S_, .f32⟩ : BufTy).Contents (Elt F)) := by
  stage_hop Gen.W16 (Gen.W15 m ρ c) [to16 m ρ c main_call2_cst (by decide)]
theorem A_call2_v0 (c : Dev nD) :
    A m ρ c main_call2_v0 = ((fun x v => Host.reduceAdd x v reducesTo_S2x50000x8_S8_d0_1 h_S_) : (⟨S2x50000x8, .f32⟩ : BufTy).Contents (Elt F) → (⟨S_, .f32⟩ : BufTy).Contents (Elt F) → (⟨S8, .f32⟩ : BufTy).Contents (Elt F)) (A m ρ c main_v89_1) (A m ρ c main_call2_cst) := by
  stage_hop Gen.W16 (Gen.W15 m ρ c) [to16 m ρ c main_call2_v0 (by decide), to16 m ρ c main_v89_1 (by decide), to16 m ρ c main_call2_cst (by decide)]
theorem A_call2_v1 (c : Dev nD) :
    A m ρ c main_call2_v1 = ((broadcastInDim S1x1x8 ![2] bcast_S8_S1x1x8_2) : (⟨S8, .f32⟩ : BufTy).Contents (Elt F) → (⟨S1x1x8, .f32⟩ : BufTy).Contents (Elt F)) (A m ρ c main_call2_v0) := by
  stage_hop Gen.W16 (Gen.W15 m ρ c) [to16 m ρ c main_call2_v1 (by decide), to16 m ρ c main_call2_v0 (by decide)]
theorem A_call2_cst_0 (c : Dev nD) :
    A m ρ c main_call2_cst_0 = ((constant S_ .f32 0x47C35000#32) : (⟨S_, .f32⟩ : BufTy).Contents (Elt F)) := by
  stage_hop Gen.W16 (Gen.W15 m ρ c) [to16 m ρ c main_call2_cst_0 (by decide)]
theorem A_call2_v2 (c : Dev nD) :
    A m ρ c main_call2_v2 = ((broadcastInDim S1x1x8 ![] bcast_S_S1x1x8) : (⟨S_, .f32⟩ : BufTy).Contents (Elt F) → (⟨S1x1x8, .f32⟩ : BufTy).Contents (Elt F)) (A m ρ c main_call2_cst_0) := by
  stage_hop Gen.W16 (Gen.W15 m ρ c) [to16 m ρ c main_call2_v2 (by decide), to16 m ρ c main_call2_cst_0 (by decide)]
theorem A_call2_v3 (c : Dev nD) :
    A m ρ c main_call2_v3 = (Host.divf : (⟨S1x1x8, .f32⟩ : BufTy).Contents (Elt F) → (⟨S1x1x8, .f32⟩ : BufTy).Contents (Elt F) → (⟨S1x1x8, .f32⟩ : BufTy).Contents (Elt F)) (A m ρ c main_call2_v1) (A m ρ c main_call2_v2) := by
  stage_hop Gen.W16 (Gen.W15 m ρ c) [to16 m ρ c main_call2_v3 (by decide), to16 m ρ c main_call2_v1 (by decide), to16 m ρ c main_call2_v2 (by decide)]
theorem A_call2_v4 (c : Dev nD) :
    A m ρ c main_call2_v4 = ((broadcastInDim S2x50000x8 ![0, 1, 2] bcast_S1x1x8_S2x50000x8_0_1_2) : (⟨S1x1x8, .f32⟩ : BufTy).Contents (Elt F) → (⟨S2x50000x8, .f32⟩ : BufTy).Contents (Elt F)) (A m ρ c main_call2_v3) := by
  stage_hop Gen.W16 (Gen.W15 m ρ c) [to16 m ρ c main_call2_v4 (by decide), to16 m ρ c main_call2_v3 (by decide)]
theorem A_call2_v5 (c : Dev nD) :
    A m ρ c main_call2_v5 = (subf : (⟨S2x50000x8, .f32⟩ : BufTy).Contents (Elt F) → (⟨S2x50000x8, .f32⟩ : BufTy).Contents (Elt F) → (⟨S2x50000x8, .f32⟩ : BufTy).Contents (Elt F)) (A m ρ c main_v89_1) (A m ρ c main_call2_v4) := by
  stage_hop Gen.W16 (Gen.W15 m ρ c) [to16 m ρ c main_call2_v5 (by decide), to16 m ρ c main_v89_1 (by decide), to16 m ρ c main_call2_v4 (by decide)]
theorem A_call2_v6 (c : Dev nD) :
    A m ρ c main_call2_v6 = (mulf : (⟨S2x50000x8, .f32⟩ : BufTy).Contents (Elt F) → (⟨S2x50000x8, .f32⟩ : BufTy).Contents (Elt F) → (⟨S2x50000x8, .f32⟩ : BufTy).Contents (Elt F)) (A m ρ c main_call2_v5) (A m ρ c main_call2_v5) := by
  stage_hop Gen.W16 (Gen.W15 m ρ c) [to16 m ρ c main_call2_v6 (by decide), to16 m ρ c main_call2_v5 (by decide)]
theorem A_call2_v7 (c : Dev nD) :
    A m ρ c main_call2_v7 = ((sitofp .f32) : (⟨S_, .i32⟩ : BufTy).Contents (Elt F) → (⟨S_, .f32⟩ : BufTy).Contents (Elt F)) (A m ρ c main_c_23) := by
  stage_hop Gen.W16 (Gen.W15 m ρ c) [to16 m ρ c main_call2_v7 (by decide), to16 m ρ c main_c_23 (by decide)]
theorem A_call2_cst_1 (c : Dev nD) :
    A m ρ c main_call2_cst_1 = ((constant S_ .f32 0x47C35000#32) : (⟨S_, .f32⟩ : BufTy).Contents (Elt F)) := by
  stage_hop Gen.W16 (Gen.W15 m ρ c) [to16 m ρ c main_call2_cst_1 (by decide)]
theorem A_call2_v8 (c : Dev nD) :
    A m ρ c main_call2_v8 = (subf : (⟨S_, .f32⟩ : BufTy).Contents (Elt F) → (⟨S_, .f32⟩ : BufTy).Contents (Elt F) → (⟨S_, .f32⟩ : BufTy).Contents (Elt F)) (A m ρ c main_call2_cst_1) (A m ρ c main_call2_v7) := by
  stage_hop Gen.W16 (Gen.W15 m ρ c) [to16 m ρ c main_call2_v8 (by decide), to16 m ρ c main_call2_cst_1 (by decide), to16 m ρ c main_call2_v7 (by decide)]
theorem A_call2_cst_2 (c : Dev nD) :
    A m ρ c main_call2_cst_2 = ((constant S_ .f32 0x00000000#32) : (⟨S_, .f32⟩ : BufTy).Contents (Elt F)) := by
  stage_hop Gen.W16 (Gen.W15 m ρ c) [to16 m ρ c main_call2_cst_2 (by decide)]
theorem A_call2_v9 (c : Dev nD) :
    A m ρ c main_call2_v9 = ((fun x v => Host.reduceAdd x v reducesTo_S2x50000x8_S8_d0_1 h_S_) : (⟨S2x50000x8, .f32⟩ : BufTy).Contents (Elt F) → (⟨S_, .f32⟩ : BufTy).Contents (Elt F) → (⟨S8, .f32⟩ : BufTy).Contents (Elt F)) (A m ρ c main_call2_v6) (A m ρ c main_call2_cst_2) := by
  stage_hop Gen.W16 (Gen.W15 m ρ c) [to16 m ρ c main_call2_v9 (by decide), to16 m ρ c main_call2_v6 (by decide), to16 m ρ c main_call2_cst_2 (by decide)]
theorem A_call2_v10 (c : Dev nD) :
    A m ρ c main_call2_v10 = ((broadcastInDim S1x1x8 ![2] bcast_S8_S1x1x8_2) : (⟨S8, .f32⟩ : BufTy).Contents (Elt F) → (⟨S1x1x8, .f32⟩ : BufTy).Contents (Elt F)) (A m ρ c main_call2_v9) := by
  stage_hop Gen.W16 (Gen.W15 m ρ c) [to16 m ρ c main_call2_v10 (by decide), to16 m ρ c main_call2_v9 (by decide)]
theorem A_call2_v11 (c : Dev nD) :
    A m ρ c main_call2_v11 = ((broadcastInDim S1x1x8 ![] bcast_S_S1x1x8) : (⟨S_, .f32⟩ : BufTy).Contents (Elt F) → (⟨S1x1x8, .f32⟩ : BufTy).Contents (Elt F)) (A m ρ c main_call2_v8) := by
  stage_hop Gen.W16 (Gen.W15 m ρ c) [to16 m ρ c main_call2_v11 (by decide), to16 m ρ c main_call2_v8 (by decide)]
theorem A_call2_v12 (c : Dev nD) :
    A m ρ c main_call2_v12 = (Host.divf : (⟨S1x1x8, .f32⟩ : BufTy).Contents (Elt F) → (⟨S1x1x8, .f32⟩ : BufTy).Contents (Elt F) → (⟨S1x1x8, .f32⟩ : BufTy).Contents (Elt F)) (A m ρ c main_call2_v10) (A m ρ c main_call2_v11) := by
  stage_hop Gen.W16 (Gen.W15 m ρ c) [to16 m ρ c main_call2_v12 (by decide), to16 m ρ c main_call2_v10 (by decide), to16 m ρ c main_call2_v11 (by decide)]
theorem A_call2_cst_3 (c : Dev nD) :
    A m ρ c main_call2_cst_3 = ((constant S_ .f32 0x00000000#32) : (⟨S_, .f32⟩ : BufTy).Contents (Elt F)) := by
  stage_hop Gen.W16 (Gen.W15 m ρ c) [to16 m ρ c main_call2_cst_3 (by decide)]
theorem A_call2_v13 (c : Dev nD) :
    A m ρ c main_call2_v13 = ((cmpf .ogt) : (⟨S_, .f32⟩ : BufTy).Contents (Elt F) → (⟨S_, .f32⟩ : BufTy).Contents (Elt F) → (⟨S_, .i1⟩ : BufTy).Contents (Elt F)) (A m ρ c main_call2_v8) (A m ρ c main_call2_cst_3) := by
  stage_hop Gen.W16 (Gen.W15 m ρ c) [to16 m ρ c main_call2_v13 (by decide), to16 m ρ c main_call2_v8 (by decide), to16 m ρ c main_call2_cst_3 (by decide)]
theorem A_call2_cst_4 (c : Dev nD) :
    A m ρ c main_call2_cst_4 = ((constant S_ .f32 0x7FC00000#32) : (⟨S_, .f32⟩ : BufTy).Contents (Elt F)) := by
  stage_hop Gen.W16 (Gen.W15 m ρ c) [to16 m ρ c main_call2_cst_4 (by decide)]
theorem A_call2_call0_v0 (c : Dev nD) :
    A m ρ c main_call2_call0_v0 = (id : (⟨S_, .f32⟩ : BufTy).Contents (Elt F) → (⟨S_, .f32⟩ : BufTy).Contents (Elt F)) (A m ρ c main_call2_cst_4) := by
  stage_hop Gen.W16 (Gen.W15 m ρ c) [to16 m ρ c main_call2_call0_v0 (by decide), to16 m ρ c main_call2_cst_4 (by decide)]
theorem A_call2_call0_v1 (c : Dev nD) :
    A m ρ c main_call2_call0_v1 = ((broadcastInDim S1x1x8 ![] bcast_S_S1x1x8) : (⟨S_, .f32⟩ : BufTy).Contents (Elt F) → (⟨S1x1x8, .f32⟩ : BufTy).Contents (Elt F)) (A m ρ c main_call2_call0_v0) := by
  stage_hop Gen.W16 (Gen.W15 m ρ c) [to16 m ρ c main_call2_call0_v1 (by decide), to16 m ρ c main_call2_call0_v0 (by decide)]
theorem A_v94 (c : Dev nD) :
    A m ρ c main_v94 = ((fun p a b => select (broadcastInDim S1x1x8 ![] bcast_S_S1x1x8 p) a b) : (⟨S_, .i1⟩ : BufTy).Contents (Elt F) → (⟨S1x1x8, .f32⟩ : BufTy).Contents (Elt F) → (⟨S1x1x8, .f32⟩ : BufTy).Contents (Elt F) → (⟨S1x1x8, .f32⟩ : BufTy).Contents (Elt F)) (A m ρ c main_call2_v13) (A m ρ c main_call2_v12) (A m ρ c main_call2_call0_v1) := by
  stage_hop Gen.W16 (Gen.W15 m ρ c) [to16 m ρ c main_v94 (by decide), to16 m ρ c main_call2_v13 (by decide), to16 m ρ c main_call2_v12 (by decide), to16 m ρ c main_call2_call0_v1 (by decide)]

/-! ## The stretch hostOps5 (boundary 14 to boundary 15) -/

theorem A_cst_21 (c : Dev nD) :
    A m ρ c main_cst_21 = (constant S_ .f32 0x00000000#32 : (⟨S_, .f32⟩ : BufTy).Contents (Elt F)) := by
  stage_hop Gen.W15 (Gen.W14 m ρ c) [to15 m ρ c main_cst_21 (by decide)]
theorem A_v90 (c : Dev nD) :
    A m ρ c main_v90 = ((fun x v => Host.reduceAdd x v reducesTo_S2x50000x8_S8_d0_1 h_S_) : (⟨S2x50000x8, .f32⟩ : BufTy).Contents (Elt F) → (⟨S_, .f32⟩ : BufTy).Contents (Elt F) → (⟨S8, .f32⟩ : BufTy).Contents (Elt F)) (A m ρ c main_v89_1) (A m ρ c main_cst_21) := by
  stage_hop Gen.W15 (Gen.W14 m ρ c) [to15 m ρ c main_v90 (by decide), to15 m ρ c main_v89_1 (by decide), to15 m ρ c main_cst_21 (by decide)]
theorem A_v91 (c : Dev nD) :
    A m ρ c main_v91 = (broadcastInDim S1x1x8 ![2] bcast_S8_S1x1x8_2 : (⟨S8, .f32⟩ : BufTy).Contents (Elt F) → (⟨S1x1x8, .f32⟩ : BufTy).Contents (Elt F)) (A m ρ c main_v90) := by
  stage_hop Gen.W15 (Gen.W14 m ρ c) [to15 m ρ c main_v91 (by decide), to15 m ρ c main_v90 (by decide)]
theorem A_cst_22 (c : Dev nD) :
    A m ρ c main_cst_22 = (constant S_ .f32 0x47C35000#32 : (⟨S_, .f32⟩ : BufTy).Contents (Elt F)) := by
  stage_hop Gen.W15 (Gen.W14 m ρ c) [to15 m ρ c main_cst_22 (by decide)]
theorem A_v92 (c : Dev nD) :
    A m ρ c main_v92 = (broadcastInDim S1x1x8 ![] bcast_S_S1x1x8 : (⟨S_, .f32⟩ : BufTy).Contents (Elt F) → (⟨S1x1x8, .f32⟩ : BufTy).Contents (Elt F)) (A m ρ c main_cst_22) := by
  stage_hop Gen.W15 (Gen.W14 m ρ c) [to15 m ρ c main_v92 (by decide), to15 m ρ c main_cst_22 (by decide)]
theorem A_v93 (c : Dev nD) :
    A m ρ c main_v93 = (Host.divf : (⟨S1x1x8, .f32⟩ : BufTy).Contents (Elt F) → (⟨S1x1x8, .f32⟩ : BufTy).Contents (Elt F) → (⟨S1x1x8, .f32⟩ : BufTy).Contents (Elt F)) (A m ρ c main_v91) (A m ρ c main_v92) := by
  stage_hop Gen.W15 (Gen.W14 m ρ c) [to15 m ρ c main_v93 (by decide), to15 m ρ c main_v91 (by decide), to15 m ρ c main_v92 (by decide)]
theorem A_c_23 (c : Dev nD) :
    A m ρ c main_c_23 = (constantI S_ 32 0#32 : (⟨S_, .i32⟩ : BufTy).Contents (Elt F)) := by
  stage_hop Gen.W15 (Gen.W14 m ρ c) [to15 m ρ c main_c_23 (by decide)]

/-! ## Region 4 (entered at boundary 13, left at boundary 14): its windows' arrays, what each input window finds, what each output array ends holding -/

theorem arr4_0 : Pipeline.arrRef spec4 0 = main_v87 := rfl
theorem arr4_1 : Pipeline.arrRef spec4 1 = main_v88 := rfl
theorem arr4_2 : Pipeline.arrRef spec4 2 = main_v89_0 := rfl
theorem arr4_3 : Pipeline.arrRef spec4 3 = main_v89_1 := rfl
theorem V13_v87 (c : Dev nD) : Gen.V13 m ρ c (Pipeline.arrRef spec4 0) = A m ρ c main_v87 :=
  (to13 m ρ c main_v87 (by decide)).symm
theorem V13_v88 (c : Dev nD) : Gen.V13 m ρ c (Pipeline.arrRef spec4 1) = A m ρ c main_v88 :=
  (to13 m ρ c main_v88 (by decide)).symm
theorem A_v89_0_region (c : Dev nD) : A m ρ c main_v89_0 = (Gen.dat4 (Gen.V13 m ρ) c).arrAt 2 cfg4.N :=
  (to14 m ρ c main_v89_0 (by decide)).trans (Gen.W14_arr m ρ c 2)
theorem A_v89_1_region (c : Dev nD) : A m ρ c main_v89_1 = (Gen.dat4 (Gen.V13 m ρ) c).arrAt 3 cfg4.N :=
  (to14 m ρ c main_v89_1 (by decide)).trans (Gen.W14_arr m ρ c 3)

/-! ## The stretch hostOps4 (boundary 12 to boundary 13) -/

theorem A_v69 (c : Dev nD) :
    A m ρ c main_v69 = shapeCast S2x50000x8 (A m ρ c main_v68) shapeCasts_S100000x8_S2x50000x8 := by
  stage_hop Gen.W13 (Gen.W12 m ρ c) [to13 m ρ c main_v69 (by decide), to13 m ρ c main_v68 (by decide)]
theorem A_c_16 (c : Dev nD) :
    A m ρ c main_c_16 = (constantI S_ 32 0#32 : (⟨S_, .i32⟩ : BufTy).Contents (Elt F)) := by
  stage_hop Gen.W13 (Gen.W12 m ρ c) [to13 m ρ c main_c_16 (by decide)]
theorem A_v70 (c : Dev nD) :
    A m ρ c main_v70 = (broadcastInDim S850000 ![] bcast_S_S850000 : (⟨S_, .i32⟩ : BufTy).Contents (Elt F) → (⟨S850000, .i32⟩ : BufTy).Contents (Elt F)) (A m ρ c main_c_16) := by
  stage_hop Gen.W13 (Gen.W12 m ρ c) [to13 m ρ c main_v70 (by decide), to13 m ρ c main_c_16 (by decide)]
theorem A_v71 (c : Dev nD) :
    A m ρ c main_v71 = (cmpi .slt : (⟨S850000, .i32⟩ : BufTy).Contents (Elt F) → (⟨S850000, .i32⟩ : BufTy).Contents (Elt F) → (⟨S850000, .i1⟩ : BufTy).Contents (Elt F)) (A m ρ c main_v3) (A m ρ c main_v70) := by
  stage_hop Gen.W13 (Gen.W12 m ρ c) [to13 m ρ c main_v71 (by decide), to13 m ρ c main_v3 (by decide), to13 m ρ c main_v70 (by decide)]
theorem A_c_17 (c : Dev nD) :
    A m ρ c main_c_17 = (constantI S_ 32 50000#32 : (⟨S_, .i32⟩ : BufTy).Contents (Elt F)) := by
  stage_hop Gen.W13 (Gen.W12 m ρ c) [to13 m ρ c main_c_17 (by decide)]
theorem A_v72 (c : Dev nD) :
    A m ρ c main_v72 = (broadcastInDim S850000 ![] bcast_S_S850000 : (⟨S_, .i32⟩ : BufTy).Contents (Elt F) → (⟨S850000, .i32⟩ : BufTy).Contents (Elt F)) (A m ρ c main_c_17) := by
  stage_hop Gen.W13 (Gen.W12 m ρ c) [to13 m ρ c main_v72 (by decide), to13 m ρ c main_c_17 (by decide)]
theorem A_v73 (c : Dev nD) :
    A m ρ c main_v73 = (addi : (⟨S850000, .i32⟩ : BufTy).Contents (Elt F) → (⟨S850000, .i32⟩ : BufTy).Contents (Elt F) → (⟨S850000, .i32⟩ : BufTy).Contents (Elt F)) (A m ρ c main_v3) (A m ρ c main_v72) := by
  stage_hop Gen.W13 (Gen.W12 m ρ c) [to13 m ρ c main_v73 (by decide), to13 m ρ c main_v3 (by decide), to13 m ρ c main_v72 (by decide)]
theorem A_v74 (c : Dev nD) :
    A m ρ c main_v74 = (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A m ρ c main_v71) (A m ρ c main_v73) (A m ρ c main_v3) := by
  stage_hop Gen.W13 (Gen.W12 m ρ c) [to13 m ρ c main_v74 (by decide), to13 m ρ c main_v71 (by decide), to13 m ρ c main_v73 (by decide), to13 m ρ c main_v3 (by decide)]
theorem A_v75 (c : Dev nD) :
    A m ρ c main_v75 = (broadcastInDim S850000x1 ![0] bcast_S850000_S850000x1_0 : (⟨S850000, .i32⟩ : BufTy).Contents (Elt F) → (⟨S850000x1, .i32⟩ : BufTy).Contents (Elt F)) (A m ρ c main_v74) := by
  stage_hop Gen.W13 (Gen.W12 m ρ c) [to13 m ρ c main_v75 (by decide), to13 m ρ c main_v74 (by decide)]
theorem A_v76 (c : Dev nD) :
    A m ρ c main_v76 = ((fun x i => Host.gather gather_S2x50000x8_S850000x1_S2x850000x8_02_1_n_n_1_1_218 x i) : (⟨S2x50000x8, .f32⟩ : BufTy).Contents (Elt F) → (⟨S850000x1, .i32⟩ : BufTy).Contents (Elt F) → (⟨S2x850000x8, .f32⟩ : BufTy).Contents (Elt F)) (A m ρ c main_v69) (A m ρ c main_v75) := by
  stage_hop Gen.W13 (Gen.W12 m ρ c) [to13 m ρ c main_v76 (by decide), to13 m ρ c main_v69 (by decide), to13 m ρ c main_v75 (by decide)]
theorem A_v77 (c : Dev nD) :
    A m ρ c main_v77 = (broadcastInDim S1x850000x1 ![1] bcast_S850000_S1x850000x1_1 : (⟨S850000, .f32⟩ : BufTy).Contents (Elt F) → (⟨S1x850000x1, .f32⟩ : BufTy).Contents (Elt F)) (A m ρ c main_v34) := by
  stage_hop Gen.W13 (Gen.W12 m ρ c) [to13 m ρ c main_v77 (by decide), to13 m ρ c main_v34 (by decide)]
theorem A_v78 (c : Dev nD) :
    A m ρ c main_v78 = (broadcastInDim S2x850000x8 ![0, 1, 2] bcast_S1x850000x1_S2x850000x8_0_1_2 : (⟨S1x850000x1, .f32⟩ : BufTy).Contents (Elt F) → (⟨S2x850000x8, .f32⟩ : BufTy).Contents (Elt F)) (A m ρ c main_v77) := by
  stage_hop Gen.W13 (Gen.W12 m ρ c) [to13 m ρ c main_v78 (by decide), to13 m ρ c main_v77 (by decide)]
theorem A_v79 (c : Dev nD) :
    A m ρ c main_v79 = (mulf : (⟨S2x850000x8, .f32⟩ : BufTy).Contents (Elt F) → (⟨S2x850000x8, .f32⟩ : BufTy).Contents (Elt F) → (⟨S2x850000x8, .f32⟩ : BufTy).Contents (Elt F)) (A m ρ c main_v76) (A m ρ c main_v78) := by
  stage_hop Gen.W13 (Gen.W12 m ρ c) [to13 m ρ c main_v79 (by decide), to13 m ρ c main_v76 (by decide), to13 m ρ c main_v78 (by decide)]
theorem A_cst_18 (c : Dev nD) :
    A m ρ c main_cst_18 = (constant S_ .f32 0x00000000#32 : (⟨S_, .f32⟩ : BufTy).Contents (Elt F)) := by
  stage_hop Gen.W13 (Gen.W12 m ρ c) [to13 m ρ c main_cst_18 (by decide)]
theorem A_v80 (c : Dev nD) :
    A m ρ c main_v80 = (broadcastInDim S2x50000x8 ![] bcast_S_S2x50000x8 : (⟨S_, .f32⟩ : BufTy).Contents (Elt F) → (⟨S2x50000x8, .f32⟩ : BufTy).Contents (Elt F)) (A m ρ c main_cst_18) := by
  stage_hop Gen.W13 (Gen.W12 m ρ c) [to13 m ρ c main_v80 (by decide), to13 m ρ c main_cst_18 (by decide)]
theorem A_c_19 (c : Dev nD) :
    A m ρ c main_c_19 = (constantI S_ 32 0#32 : (⟨S_, .i32⟩ : BufTy).Contents (Elt F)) := by
  stage_hop Gen.W13 (Gen.W12 m ρ c) [to13 m ρ c main_c_19 (by decide)]
theorem A_v81 (c : Dev nD) :
    A m ρ c main_v81 = (broadcastInDim S850000 ![] bcast_S_S850000 : (⟨S_, .i32⟩ : BufTy).Contents (Elt F) → (⟨S850000, .i32⟩ : BufTy).Contents (Elt F)) (A m ρ c main_c_19) := by
  stage_hop Gen.W13 (Gen.W12 m ρ c) [to13 m ρ c main_v81 (by decide), to13 m ρ c main_c_19 (by decide)]
theorem A_v82 (c : Dev nD) :
    A m ρ c main_v82 = (cmpi .slt : (⟨S850000, .i32⟩ : BufTy).Contents (Elt F) → (⟨S850000, .i32⟩ : BufTy).Contents (Elt F) → (⟨S850000, .i1⟩ : BufTy).Contents (Elt F)) (A m ρ c main_v6) (A m ρ c main_v81) := by
  stage_hop Gen.W13 (Gen.W12 m ρ c) [to13 m ρ c main_v82 (by decide), to13 m ρ c main_v6 (by decide), to13 m ρ c main_v81 (by decide)]
theorem A_c_20 (c : Dev nD) :
    A m ρ c main_c_20 = (constantI S_ 32 50000#32 : (⟨S_, .i32⟩ : BufTy).Contents (Elt F)) := by
  stage_hop Gen.W13 (Gen.W12 m ρ c) [to13 m ρ c main_c_20 (by decide)]
theorem A_v83 (c : Dev nD) :
    A m ρ c main_v83 = (broadcastInDim S850000 ![] bcast_S_S850000 : (⟨S_, .i32⟩ : BufTy).Contents (Elt F) → (⟨S850000, .i32⟩ : BufTy).Contents (Elt F)) (A m ρ c main_c_20) := by
  stage_hop Gen.W13 (Gen.W12 m ρ c) [to13 m ρ c main_v83 (by decide), to13 m ρ c main_c_20 (by decide)]
theorem A_v84 (c : Dev nD) :
    A m ρ c main_v84 = (addi : (⟨S850000, .i32⟩ : BufTy).Contents (Elt F) → (⟨S850000, .i32⟩ : BufTy).Contents (Elt F) → (⟨S850000, .i32⟩ : BufTy).Contents (Elt F)) (A m ρ c main_v6) (A m ρ c main_v83) := by
  stage_hop Gen.W13 (Gen.W12 m ρ c) [to13 m ρ c main_v84 (by decide), to13 m ρ c main_v6 (by decide), to13 m ρ c main_v83 (by decide)]
theorem A_v85 (c : Dev nD) :
    A m ρ c main_v85 = (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A m ρ c main_v82) (A m ρ c main_v84) (A m ρ c main_v6) := by
  stage_hop Gen.W13 (Gen.W12 m ρ c) [to13 m ρ c main_v85 (by decide), to13 m ρ c main_v82 (by decide), to13 m ρ c main_v84 (by decide), to13 m ρ c main_v6 (by decide)]
theorem A_v86 (c : Dev nD) :
    A m ρ c main_v86 = (broadcastInDim S850000x1 ![0] bcast_S850000_S850000x1_0 : (⟨S850000, .i32⟩ : BufTy).Contents (Elt F) → (⟨S850000x1, .i32⟩ : BufTy).Contents (Elt F)) (A m ρ c main_v85) := by
  stage_hop Gen.W13 (Gen.W12 m ρ c) [to13 m ρ c main_v86 (by decide), to13 m ρ c main_v85 (by decide)]
theorem A_v87 (c : Dev nD) :
    A m ρ c main_v87 = ((fun x i u => Host.scatterAdd scatter_S2x50000x8_S850000x1_S2x850000x8_02_1_1_1 x i u) : (⟨S2x50000x8, .f32⟩ : BufTy).Contents (Elt F) → (⟨S850000x1, .i32⟩ : BufTy).Contents (Elt F) → (⟨S2x850000x8, .f32⟩ : BufTy).Contents (Elt F) → (⟨S2x50000x8, .f32⟩ : BufTy).Contents (Elt F)) (A m ρ c main_v80) (A m ρ c main_v86) (A m ρ c main_v79) := by
  stage_hop Gen.W13 (Gen.W12 m ρ c) [to13 m ρ c main_v87 (by decide), to13 m ρ c main_v80 (by decide), to13 m ρ c main_v86 (by decide), to13 m ρ c main_v79 (by decide)]
theorem A_v88 (c : Dev nD) :
    A m ρ c main_v88 = shapeCast S1x1x8 (A m ρ c main_arg6) shapeCasts_S8_S1x1x8 := by
  stage_hop Gen.W13 (Gen.W12 m ρ c) [to13 m ρ c main_v88 (by decide), to13 m ρ c main_arg6 (by decide)]

/-! ## Region 3 (entered at boundary 11, left at boundary 12): its windows' arrays, what each input window finds, what each output array ends holding -/

theorem arr3_0 : Pipeline.arrRef spec3 0 = main_v67 := rfl
theorem arr3_1 : Pipeline.arrRef spec3 1 = main_arg5 := rfl
theorem arr3_2 : Pipeline.arrRef spec3 2 = main_v68 := rfl
theorem V11_v67 (c : Dev nD) : Gen.V11 m ρ c (Pipeline.arrRef spec3 0) = A m ρ c main_v67 :=
  (to11 m ρ c main_v67 (by decide)).symm
theorem V11_arg5 (c : Dev nD) : Gen.V11 m ρ c (Pipeline.arrRef spec3 1) = A m ρ c main_arg5 :=
  (to11 m ρ c main_arg5 (by decide)).symm
theorem A_v68_region (c : Dev nD) : A m ρ c main_v68 = (Gen.dat3 (Gen.V11 m ρ) c).arrAt 2 cfg3.N :=
  (to12 m ρ c main_v68 (by decide)).trans (Gen.W12_arr m ρ c 2)

/-! ## The stretch hostOps3 (boundary 10 to boundary 11) -/

theorem A_v67 (c : Dev nD) :
    A m ρ c main_v67 = shapeCast S100000x64 (A m ρ c main_v66) shapeCasts_S2x50000x64_S100000x64 := by
  stage_hop Gen.W11 (Gen.W10 m ρ c) [to11 m ρ c main_v67 (by decide), to11 m ρ c main_v66 (by decide)]

end Cert.KernelIdeal.Stages

end
-- ==== Proof.KernelStages2.lean ====
/- One case per host operation of the stretches between boundaries 18 and 23 of @main's fold — the final contents of
   its result buffer are its function, as printed, of the final contents of its operand buffers — and per window of
   the regions between them: the window's array named, an input window's entry contents as the array's final
   contents, an output window's final contents as the array the region leaves. -/
import proofs.«172352_j22454089024045_1_alg».proof.Proof.KernelStages

set_option maxRecDepth 16384

noncomputable section

namespace Cert.KernelIdeal.Stages

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

/-! ## The stretch hostOps8 (boundary 22 to boundary 23) -/

theorem A_v121 (c : Dev nD) :
    A m ρ c main_v121 = (broadcastInDim S1x2x50000x3 ![1, 2, 3] bcast_S2x50000x3_S1x2x50000x3_1_2_3 : (⟨S2x50000x3, .f32⟩ : BufTy).Contents (Elt F) → (⟨S1x2x50000x3, .f32⟩ : BufTy).Contents (Elt F)) (A m ρ c main_v120) := by
  stage_hop_last Gen.W23 (Gen.W22 m ρ c)
theorem A_v122 (c : Dev nD) :
    A m ρ c main_v122 = (broadcastInDim S1x2x50000x8 ![1, 2, 3] bcast_S2x50000x8_S1x2x50000x8_1_2_3 : (⟨S2x50000x8, .f32⟩ : BufTy).Contents (Elt F) → (⟨S1x2x50000x8, .f32⟩ : BufTy).Contents (Elt F)) (A m ρ c main_v89_0) := by
  stage_hop_last Gen.W23 (Gen.W22 m ρ c)

/-! ## Region 7 (entered at boundary 21, left at boundary 22): its windows' arrays, what each input window finds, what each output array ends holding -/

theorem arr7_0 : Pipeline.arrRef spec7 0 = main_v118 := rfl
theorem arr7_1 : Pipeline.arrRef spec7 1 = main_v119 := rfl
theorem arr7_2 : Pipeline.arrRef spec7 2 = main_v120 := rfl
theorem V21_v118 (c : Dev nD) : Gen.V21 m ρ c (Pipeline.arrRef spec7 0) = A m ρ c main_v118 :=
  (to21 m ρ c main_v118 (by decide)).symm
theorem V21_v119 (c : Dev nD) : Gen.V21 m ρ c (Pipeline.arrRef spec7 1) = A m ρ c main_v119 :=
  (to21 m ρ c main_v119 (by decide)).symm
theorem A_v120_region (c : Dev nD) : A m ρ c main_v120 = (Gen.dat7 (Gen.V21 m ρ) c).arrAt 2 cfg7.N :=
  (to22 m ρ c main_v120 (by decide)).trans (Gen.W22_arr m ρ c 2)

/-! ## The stretch hostOps7 (boundary 20 to boundary 21) -/

theorem A_v100 (c : Dev nD) :
    A m ρ c main_v100 = shapeCast S2x50000x3 (A m ρ c main_v99) shapeCasts_S100000x3_S2x50000x3 := by
  stage_hop Gen.W21 (Gen.W20 m ρ c) [to21 m ρ c main_v100 (by decide), to21 m ρ c main_v99 (by decide)]
theorem A_c_24 (c : Dev nD) :
    A m ρ c main_c_24 = (constantI S_ 32 0#32 : (⟨S_, .i32⟩ : BufTy).Contents (Elt F)) := by
  stage_hop Gen.W21 (Gen.W20 m ρ c) [to21 m ρ c main_c_24 (by decide)]
theorem A_v101 (c : Dev nD) :
    A m ρ c main_v101 = (broadcastInDim S850000 ![] bcast_S_S850000 : (⟨S_, .i32⟩ : BufTy).Contents (Elt F) → (⟨S850000, .i32⟩ : BufTy).Contents (Elt F)) (A m ρ c main_c_24) := by
  stage_hop Gen.W21 (Gen.W20 m ρ c) [to21 m ρ c main_v101 (by decide), to21 m ρ c main_c_24 (by decide)]
theorem A_v102 (c : Dev nD) :
    A m ρ c main_v102 = (cmpi .slt : (⟨S850000, .i32⟩ : BufTy).Contents (Elt F) → (⟨S850000, .i32⟩ : BufTy).Contents (Elt F) → (⟨S850000, .i1⟩ : BufTy).Contents (Elt F)) (A m ρ c main_v3) (A m ρ c main_v101) := by
  stage_hop Gen.W21 (Gen.W20 m ρ c) [to21 m ρ c main_v102 (by decide), to21 m ρ c main_v3 (by decide), to21 m ρ c main_v101 (by decide)]
theorem A_c_25 (c : Dev nD) :
    A m ρ c main_c_25 = (constantI S_ 32 50000#32 : (⟨S_, .i32⟩ : BufTy).Contents (Elt F)) := by
  stage_hop Gen.W21 (Gen.W20 m ρ c) [to21 m ρ c main_c_25 (by decide)]
theorem A_v103 (c : Dev nD) :
    A m ρ c main_v103 = (broadcastInDim S850000 ![] bcast_S_S850000 : (⟨S_, .i32⟩ : BufTy).Contents (Elt F) → (⟨S850000, .i32⟩ : BufTy).Contents (Elt F)) (A m ρ c main_c_25) := by
  stage_hop Gen.W21 (Gen.W20 m ρ c) [to21 m ρ c main_v103 (by decide), to21 m ρ c main_c_25 (by decide)]
theorem A_v104 (c : Dev nD) :
    A m ρ c main_v104 = (addi : (⟨S850000, .i32⟩ : BufTy).Contents (Elt F) → (⟨S850000, .i32⟩ : BufTy).Contents (Elt F) → (⟨S850000, .i32⟩ : BufTy).Contents (Elt F)) (A m ρ c main_v3) (A m ρ c main_v103) := by
  stage_hop Gen.W21 (Gen.W20 m ρ c) [to21 m ρ c main_v104 (by decide), to21 m ρ c main_v3 (by decide), to21 m ρ c main_v103 (by decide)]
theorem A_v105 (c : Dev nD) :
    A m ρ c main_v105 = (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A m ρ c main_v102) (A m ρ c main_v104) (A m ρ c main_v3) := by
  stage_hop Gen.W21 (Gen.W20 m ρ c) [to21 m ρ c main_v105 (by decide), to21 m ρ c main_v102 (by decide), to21 m ρ c main_v104 (by decide), to21 m ρ c main_v3 (by decide)]
theorem A_v106 (c : Dev nD) :
    A m ρ c main_v106 = (broadcastInDim S850000x1 ![0] bcast_S850000_S850000x1_0 : (⟨S850000, .i32⟩ : BufTy).Contents (Elt F) → (⟨S850000x1, .i32⟩ : BufTy).Contents (Elt F)) (A m ρ c main_v105) := by
  stage_hop Gen.W21 (Gen.W20 m ρ c) [to21 m ρ c main_v106 (by decide), to21 m ρ c main_v105 (by decide)]
theorem A_v107 (c : Dev nD) :
    A m ρ c main_v107 = ((fun x i => Host.gather gather_S2x50000x3_S850000x1_S2x850000x3_02_1_n_n_1_1_213 x i) : (⟨S2x50000x3, .f32⟩ : BufTy).Contents (Elt F) → (⟨S850000x1, .i32⟩ : BufTy).Contents (Elt F) → (⟨S2x850000x3, .f32⟩ : BufTy).Contents (Elt F)) (A m ρ c main_v100) (A m ρ c main_v106) := by
  stage_hop Gen.W21 (Gen.W20 m ρ c) [to21 m ρ c main_v107 (by decide), to21 m ρ c main_v100 (by decide), to21 m ρ c main_v106 (by decide)]
theorem A_v108 (c : Dev nD) :
    A m ρ c main_v108 = (broadcastInDim S1x850000x1 ![1] bcast_S850000_S1x850000x1_1 : (⟨S850000, .f32⟩ : BufTy).Contents (Elt F) → (⟨S1x850000x1, .f32⟩ : BufTy).Contents (Elt F)) (A m ρ c main_v34) := by
  stage_hop Gen.W21 (Gen.W20 m ρ c) [to21 m ρ c main_v108 (by decide), to21 m ρ c main_v34 (by decide)]
theorem A_v109 (c : Dev nD) :
    A m ρ c main_v109 = (broadcastInDim S2x850000x3 ![0, 1, 2] bcast_S1x850000x1_S2x850000x3_0_1_2 : (⟨S1x850000x1, .f32⟩ : BufTy).Contents (Elt F) → (⟨S2x850000x3, .f32⟩ : BufTy).Contents (Elt F)) (A m ρ c main_v108) := by
  stage_hop Gen.W21 (Gen.W20 m ρ c) [to21 m ρ c main_v109 (by decide), to21 m ρ c main_v108 (by decide)]
theorem A_v110 (c : Dev nD) :
    A m ρ c main_v110 = (mulf : (⟨S2x850000x3, .f32⟩ : BufTy).Contents (Elt F) → (⟨S2x850000x3, .f32⟩ : BufTy).Contents (Elt F) → (⟨S2x850000x3, .f32⟩ : BufTy).Contents (Elt F)) (A m ρ c main_v107) (A m ρ c main_v109) := by
  stage_hop Gen.W21 (Gen.W20 m ρ c) [to21 m ρ c main_v110 (by decide), to21 m ρ c main_v107 (by decide), to21 m ρ c main_v109 (by decide)]
theorem A_cst_26 (c : Dev nD) :
    A m ρ c main_cst_26 = (constant S_ .f32 0x00000000#32 : (⟨S_, .f32⟩ : BufTy).Contents (Elt F)) := by
  stage_hop Gen.W21 (Gen.W20 m ρ c) [to21 m ρ c main_cst_26 (by decide)]
theorem A_v111 (c : Dev nD) :
    A m ρ c main_v111 = (broadcastInDim S2x50000x3 ![] bcast_S_S2x50000x3 : (⟨S_, .f32⟩ : BufTy).Contents (Elt F) → (⟨S2x50000x3, .f32⟩ : BufTy).Contents (Elt F)) (A m ρ c main_cst_26) := by
  stage_hop Gen.W21 (Gen.W20 m ρ c) [to21 m ρ c main_v111 (by decide), to21 m ρ c main_cst_26 (by decide)]
theorem A_c_27 (c : Dev nD) :
    A m ρ c main_c_27 = (constantI S_ 32 0#32 : (⟨S_, .i32⟩ : BufTy).Contents (Elt F)) := by
  stage_hop Gen.W21 (Gen.W20 m ρ c) [to21 m ρ c main_c_27 (by decide)]
theorem A_v112 (c : Dev nD) :
    A m ρ c main_v112 = (broadcastInDim S850000 ![] bcast_S_S850000 : (⟨S_, .i32⟩ : BufTy).Contents (Elt F) → (⟨S850000, .i32⟩ : BufTy).Contents (Elt F)) (A m ρ c main_c_27) := by
  stage_hop Gen.W21 (Gen.W20 m ρ c) [to21 m ρ c main_v112 (by decide), to21 m ρ c main_c_27 (by decide)]
theorem A_v113 (c : Dev nD) :
    A m ρ c main_v113 = (cmpi .slt : (⟨S850000, .i32⟩ : BufTy).Contents (Elt F) → (⟨S850000, .i32⟩ : BufTy).Contents (Elt F) → (⟨S850000, .i1⟩ : BufTy).Contents (Elt F)) (A m ρ c main_v6) (A m ρ c main_v112) := by
  stage_hop Gen.W21 (Gen.W20 m ρ c) [to21 m ρ c main_v113 (by decide), to21 m ρ c main_v6 (by decide), to21 m ρ c main_v112 (by decide)]
theorem A_c_28 (c : Dev nD) :
    A m ρ c main_c_28 = (constantI S_ 32 50000#32 : (⟨S_, .i32⟩ : BufTy).Contents (Elt F)) := by
  stage_hop Gen.W21 (Gen.W20 m ρ c) [to21 m ρ c main_c_28 (by decide)]
theorem A_v114 (c : Dev nD) :
    A m ρ c main_v114 = (broadcastInDim S850000 ![] bcast_S_S850000 : (⟨S_, .i32⟩ : BufTy).Contents (Elt F) → (⟨S850000, .i32⟩ : BufTy).Contents (Elt F)) (A m ρ c main_c_28) := by
  stage_hop Gen.W21 (Gen.W20 m ρ c) [to21 m ρ c main_v114 (by decide), to21 m ρ c main_c_28 (by decide)]
theorem A_v115 (c : Dev nD) :
    A m ρ c main_v115 = (addi : (⟨S850000, .i32⟩ : BufTy).Contents (Elt F) → (⟨S850000, .i32⟩ : BufTy).Contents (Elt F) → (⟨S850000, .i32⟩ : BufTy).Contents (Elt F)) (A m ρ c main_v6) (A m ρ c main_v114) := by
  stage_hop Gen.W21 (Gen.W20 m ρ c) [to21 m ρ c main_v115 (by decide), to21 m ρ c main_v6 (by decide), to21 m ρ c main_v114 (by decide)]
theorem A_v116 (c : Dev nD) :
    A m ρ c main_v116 = (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A m ρ c main_v113) (A m ρ c main_v115) (A m ρ c main_v6) := by
  stage_hop Gen.W21 (Gen.W20 m ρ c) [to21 m ρ c main_v116 (by decide), to21 m ρ c main_v113 (by decide), to21 m ρ c main_v115 (by decide), to21 m ρ c main_v6 (by decide)]
theorem A_v117 (c : Dev nD) :
    A m ρ c main_v117 = (broadcastInDim S850000x1 ![0] bcast_S850000_S850000x1_0 : (⟨S850000, .i32⟩ : BufTy).Contents (Elt F) → (⟨S850000x1, .i32⟩ : BufTy).Contents (Elt F)) (A m ρ c main_v116) := by
  stage_hop Gen.W21 (Gen.W20 m ρ c) [to21 m ρ c main_v117 (by decide), to21 m ρ c main_v116 (by decide)]
theorem A_v118 (c : Dev nD) :
    A m ρ c main_v118 = ((fun x i u => Host.scatterAdd scatter_S2x50000x3_S850000x1_S2x850000x3_02_1_1_1 x i u) : (⟨S2x50000x3, .f32⟩ : BufTy).Contents (Elt F) → (⟨S850000x1, .i32⟩ : BufTy).Contents (Elt F) → (⟨S2x850000x3, .f32⟩ : BufTy).Contents (Elt F) → (⟨S2x50000x3, .f32⟩ : BufTy).Contents (Elt F)) (A m ρ c main_v111) (A m ρ c main_v117) (A m ρ c main_v110) := by
  stage_hop Gen.W21 (Gen.W20 m ρ c) [to21 m ρ c main_v118 (by decide), to21 m ρ c main_v111 (by decide), to21 m ρ c main_v117 (by decide), to21 m ρ c main_v110 (by decide)]
theorem A_v119 (c : Dev nD) :
    A m ρ c main_v119 = shapeCast S1x1x3 (A m ρ c main_arg10) shapeCasts_S3_S1x1x3 := by
  stage_hop Gen.W21 (Gen.W20 m ρ c) [to21 m ρ c main_v119 (by decide), to21 m ρ c main_arg10 (by decide)]

/-! ## Region 6 (entered at boundary 19, left at boundary 20): its windows' arrays, what each input window finds, what each output array ends holding -/

theorem arr6_0 : Pipeline.arrRef spec6 0 = main_v98 := rfl
theorem arr6_1 : Pipeline.arrRef spec6 1 = main_arg9 := rfl
theorem arr6_2 : Pipeline.arrRef spec6 2 = main_v99 := rfl
theorem V19_v98 (c : Dev nD) : Gen.V19 m ρ c (Pipeline.arrRef spec6 0) = A m ρ c main_v98 :=
  (to19 m ρ c main_v98 (by decide)).symm
theorem V19_arg9 (c : Dev nD) : Gen.V19 m ρ c (Pipeline.arrRef spec6 1) = A m ρ c main_arg9 :=
  (to19 m ρ c main_arg9 (by decide)).symm
theorem A_v99_region (c : Dev nD) : A m ρ c main_v99 = (Gen.dat6 (Gen.V19 m ρ) c).arrAt 2 cfg6.N :=
  (to20 m ρ c main_v99 (by decide)).trans (Gen.W20_arr m ρ c 2)

/-! ## The stretch hostOps6 (boundary 18 to boundary 19) -/

theorem A_v98 (c : Dev nD) :
    A m ρ c main_v98 = shapeCast S100000x8 (A m ρ c main_v97) shapeCasts_S2x50000x8_S100000x8 := by
  stage_hop Gen.W19 (Gen.W18 m ρ c) [to19 m ρ c main_v98 (by decide), to19 m ρ c main_v97 (by decide)]

end Cert.KernelIdeal.Stages

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.RegionMatmul0.lean ====
/-
  Region 0's result array as one function of its two input arrays.

  The left array is [100000, 216], the right array [216, 64], the result [100000, 64].
  Each of the 25 grid points multiplies a tile of 4000 rows of the left array by the whole right array and writes the
  product to the same rows of the result; the row tiles cover the 100000 rows. So after the region the result array is,
  entry by entry, the matrix product of the two arrays as the region found them: entry (r, o) is the sum over the shared
  axis k of left (r, k) * right (k, o), on the extended reals (the change of float format on the way in is the identity
  and the sum has no order).
-/
import proofs.«172352_j22454089024045_1_alg».proof.Proof.Gen.KernelIdeal.Frame
import proofs.«172352_j22454089024045_1_alg».proof.Proof.LibMatmulSum
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

/-- The block's product at an index: the sum over the shared axis of the products of the operands' entries. -/
theorem pay0_apply (x0 : Vec Ideal S4000x216 .f32) (x1 : Vec Ideal S216x64 .f32) (p : Fin 4000) (q : Fin 64) :
    k0_pay1 (F := Ideal) x0 x1 (ix2 p q) = ∑ k : Fin 216, x0 (ix2 p k) * x1 (ix2 k q) := by
  unfold k0_pay1
  refine (MatmulSum.matmul_zero_apply dot_S4000x216_S216x64_S4000x64_1_0_0_1_n_n rfl rfl rfl rfl rfl rfl none _ _ (ix2 p q)).trans ?_
  rw [shapeCast_self]
  rfl

variable (V : (c : Dev nD) → (b : Ref sig .tc) → Buf (Elt Ideal) ((c : Thread nD τ).loc b))

theorem offsets_zero0 : (![0, 0] : Fin 2 → Nat) = fun _ => 0 := funext fun a => by fin_cases a <;> rfl

/-- The product of a [100000, 216] array with a [216, 64] array, index by index. -/
def mm0 (a : S100000x216.Idx → EReal) (b : S216x64.Idx → EReal) : S100000x64.Idx → EReal :=
  fun i => ∑ k : Fin 216, a (ix2 (n0 := 100000) (i 0) k) * b (ix2 (n1 := 64) k (i 1))

/-- The index maps over the grid: point t takes row tile t of the left array and of the result, and all of the right array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is row tile t of the product of the two arrays. -/
theorem flushed0_eq (c : Dev nD) (t : Fin cfg0.N) :
    (dat0 V c).flushed 2 t = ((cfg0.win 2).blk t).view.read (Elt Ideal) (mm0 (V c main_v36) (V c main_arg1)) := by
  show (cfg0.win 2).cut (grid0.coords t) ((dat0 V c).after 2 t) = _
  rw [after0_2]
  unfold out0_2
  rw [View.canon_unit_zero offsets_zero0]
  simp only [View.ld_unit_zero (S := S4000x216) offsets_zero0, View.ld_unit_zero (S := S216x64) offsets_zero0]
  obtain ⟨e0, e1, e2, e3, e4, e5⟩ := idx_facts0 t
  funext j
  obtain ⟨p, q, rfl⟩ : ∃ (p : Fin 4000) (q : Fin 64), j = ix2 p q := ⟨j 0, j 1, eq_ix2 j⟩
  show k0_pay1 (iblk0 V c 0 t) (iblk0 V c 1 t) (ix2 p q) = mm0 (V c main_v36) (V c main_arg1) (((cfg0.win 2).blk t).view.emb (ix2 p q))
  refine (pay0_apply (iblk0 V c 0 t) (iblk0 V c 1 t) p q).trans ?_
  refine Finset.sum_congr rfl fun k _ => ?_
  refine congrArg₂ (· * ·) ?_ ?_
  · show V c main_v36 (((cfg0.win 0).blk t).view.emb (ix2 p k)) = V c main_v36 _
    refine congrArg (V c main_v36) (funext fun a => Fin.ext ?_)
    match a with
    | ⟨0, _⟩ => show win0_0.index t (0 : Fin 2) * 4000 + 1 * p.val = win0_2.index t (0 : Fin 2) * 4000 + 1 * p.val; omega
    | ⟨1, _⟩ => show win0_0.index t (1 : Fin 2) * 216 + 1 * k.val = k.val; omega
  · show V c main_arg1 (((cfg0.win 1).blk t).view.emb (ix2 k q)) = V c main_arg1 _
    refine congrArg (V c main_arg1) (funext fun a => Fin.ext ?_)
    match a with
    | ⟨0, _⟩ => show win0_1.index t (0 : Fin 2) * 216 + 1 * k.val = k.val; omega
    | ⟨1, _⟩ => show win0_1.index t (1 : Fin 2) * 64 + 1 * q.val = win0_2.index t (1 : Fin 2) * 64 + 1 * q.val; omega

/-- An index of the result array is in point t's block iff each coordinate is in the block's range on its axis. -/
theorem mem_blk0 (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v37).slice (win0_2.rect t)).set ↔ _
  rw [View.set_slice_whole, Rect.mem_set_unit]
  exact Iff.rfl

/-- The 25 row tiles cover the result array: row r lies in tile r / 4000. -/
theorem cover0 (i : S100000x64.Idx) : ∃ t : Fin cfg0.N, (cfg0.win 2).flush t = true ∧ i ∈ ((cfg0.win 2).blk t).view.set := by
  have hN : grid0.N = 25 := N_0
  have hi0 : (i 0).val < 100000 := (i 0).isLt
  have hi1 : (i 1).val < 64 := (i 1).isLt
  obtain ⟨t, ht⟩ : ∃ t : Fin cfg0.N, t.val = (i 0).val / 4000 :=
    ⟨⟨(i 0).val / 4000, by show (i 0).val / 4000 < grid0.N; rw [hN]; omega⟩, rfl⟩
  refine ⟨t, flush0_2 t, ?_⟩
  rw [mem_blk0]
  obtain ⟨e0, e1, e2, e3, e4, e5⟩ := idx_facts0 t
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- The result array after the 25 points is the product of the two arrays. -/
theorem final0 (c : Dev nD) : (dat0 V c).arrAt 2 cfg0.N = mm0 (V c main_v36) (V c main_arg1) :=
  (dat0 V c).arrAt_eq_of_cover 2 (mm0 (V c main_v36) (V c main_arg1)) (fun t _ => flushed0_eq V c t) cover0

/-- Region 0's result array, entry by entry, is the matrix product of its two input arrays, for the input arrays
    given as functions `A`, `B` on their literal index types. -/
theorem mm0_value_of (c : Dev nD) (A : S100000x216.Idx → EReal) (B : S216x64.Idx → EReal)
    (hA : V c (Pipeline.arrRef spec0 0) = A) (hB : V c (Pipeline.arrRef spec0 1) = B) (r : Fin 100000) (o : Fin 64) :
    (Gen.dat0 (F := Ideal) V c).arrAt 2 cfg0.N (ix2 r o) = ∑ k : Fin 216, A (ix2 r k) * B (ix2 k o) := by
  subst hA hB
  exact congrFun (final0 V c) (ix2 r o)

/-- Region 0's input arrays and result array, typed as functions on their literal index types. -/
abbrev lhs0 (c : Dev nD) : S100000x216.Idx → EReal := V c (Pipeline.arrRef spec0 0)
abbrev rhs0 (c : Dev nD) : S216x64.Idx → EReal := V c (Pipeline.arrRef spec0 1)
abbrev res0 (c : Dev nD) : S100000x64.Idx → EReal := (Gen.dat0 (F := Ideal) V c).arrAt 2 cfg0.N

/-- Region 0's result array, entry by entry: the matrix product of its two input arrays. -/
theorem mm0_value (c : Dev nD) (r : Fin 100000) (o : Fin 64) :
    res0 V c (ix2 r o) = ∑ k : Fin 216, lhs0 V c (ix2 r k) * rhs0 V c (ix2 k o) :=
  mm0_value_of V c _ _ rfl rfl r o

/-- The windows' arrays by name: the inputs are `main_v36` and `main_arg1`, the result is `main_v37`. -/
theorem arrRef0_0 : Pipeline.arrRef spec0 0 = main_v36 := rfl
theorem arrRef0_1 : Pipeline.arrRef spec0 1 = main_arg1 := rfl
theorem arrRef0_2 : Pipeline.arrRef spec0 2 = main_v37 := rfl

/-- The same with the arrays named. -/
theorem mm0_value_named (c : Dev nD) (A : S100000x216.Idx → EReal) (B : S216x64.Idx → EReal)
    (hA : V c main_v36 = A) (hB : V c main_arg1 = B) (r : Fin 100000) (o : Fin 64) :
    (Gen.dat0 (F := Ideal) V c).arrAt 2 cfg0.N (ix2 r o) = ∑ k : Fin 216, A (ix2 r k) * B (ix2 k o) :=
  mm0_value_of V c A B hA hB r o

end Cert.KernelIdeal.RegionValue

end
-- ==== Proof.LibBroadcast3.lean ====
/-
  Rank-3 layout operations with a unit axis in the middle or in front, and reductions over the last or the second
  axis, read at an index built from explicit coordinates.  A [a, b] array viewed as [a, 1, b]; [a, 1, c], [1, b, c]
  and [1, 1, c] arrays broadcast to [a, b, c]; the index of a reduced array with the reduced coordinate put back.
  Each lemma says which element of the operand an element of the result is.
-/
import Idealize.ShloMosaic.Lib.Pipeline.Value
import Idealize.ShloMosaic.Lib.ValueIdx
import Idealize.ShloMosaic.PureOps.Reduce

noncomputable section

namespace Cert.LibBroadcast3

open Idealize.ShloMosaic Idealize.ShloMosaic.ValueIdx

variable {α : Type}

/-- An [a, b] array viewed as [a, 1, b]: element (p, 0, q) is element (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An [a, 1, c] array broadcast along its middle axis to [a, b, c]: element (p, q, r) is element (p, 0, r). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) :=
  broadcastTo_apply x h _ _ (fun d => by
    match d with
    | ⟨0, _⟩ =>
      show p.val = if a = 1 then 0 else p.val
      by_cases ha : a = 1
      · rw [if_pos ha]; have := p.isLt; omega
      · rw [if_neg ha]
    | ⟨1, _⟩ =>
      show 0 = if (1 : ℕ) = 1 then 0 else q.val
      rw [if_pos rfl]
    | ⟨2, _⟩ =>
      show r.val = if c = 1 then 0 else r.val
      by_cases hc : c = 1
      · rw [if_pos hc]; have := r.isLt; omega
      · rw [if_neg hc])

/-- A [1, b, c] array broadcast along its first axis to [a, b, c]: element (p, q, r) is element (0, q, r). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) :=
  broadcastTo_apply x h _ _ (fun d => by
    match d with
    | ⟨0, _⟩ =>
      show 0 = if (1 : ℕ) = 1 then 0 else p.val
      rw [if_pos rfl]
    | ⟨1, _⟩ =>
      show q.val = if b = 1 then 0 else q.val
      by_cases hb : b = 1
      · rw [if_pos hb]; have := q.isLt; omega
      · rw [if_neg hb]
    | ⟨2, _⟩ =>
      show r.val = if c = 1 then 0 else r.val
      by_cases hc : c = 1
      · rw [if_pos hc]; have := r.isLt; omega
      · rw [if_neg hc])

/-- A [1, 1, c] array broadcast along its first two axes to [a, b, c]: element (p, q, r) is element (0, 0, r). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ x h (ix3 p q r) = x (ix3 (0 : Fin 1) (0 : Fin 1) r) :=
  broadcastTo_apply x h _ _ (fun d => by
    match d with
    | ⟨0, _⟩ =>
      show 0 = if (1 : ℕ) = 1 then 0 else p.val
      rw [if_pos rfl]
    | ⟨1, _⟩ =>
      show 0 = if (1 : ℕ) = 1 then 0 else q.val
      rw [if_pos rfl]
    | ⟨2, _⟩ =>
      show r.val = if c = 1 then 0 else r.val
      by_cases hc : c = 1
      · rw [if_pos hc]; have := r.isLt; omega
      · rw [if_neg hc])

/-- The index (p, q) of an [a, b, c] array reduced over its last axis, with coordinate `k` put back: (p, q, k). -/
theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The index p of an [a, b] array reduced over its last axis, with coordinate `k` put back: (p, k). -/
theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext d; apply Fin.ext
  fin_cases d <;> rfl

end Cert.LibBroadcast3

end
-- ==== Proof.RegionBiasRelu.lean ====
/-
  The two bias-and-rectify regions (64 and 8 channels).  Each grid has 25 points; point t loads rows
  2000 t … 2000 t + 1999 of the [2, 50000, C] activations and the whole [1, 1, C] bias, and stores two blocks over the
  same rows: the sums, and the sums with negative entries replaced by zero.  Here, per region: each stored block at an
  index, each written-back block as the block of ONE whole-array function, the 25 row blocks covering the array
  (row n lies in block n / 2000), hence both output arrays after the region.
-/
import proofs.«172352_j22454089024045_1_alg».proof.Proof.Gen.KernelIdeal.Frame
import proofs.«172352_j22454089024045_1_alg».proof.Proof.LibBroadcast3
import Idealize.ShloMosaic.Lib.Pipeline.Value
import Idealize.ShloMosaic.Lib.ValueIdx
import Idealize.ShloMosaic.Lib.Tactic
import Idealize.ShloMosaic.PureOps.Ideal.Laws

noncomputable section

open Idealize.ShloMosaic Idealize.ShloMosaic.TcCoe Idealize.ShloMosaic.ValueIdx
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

/-- The zero offset of a whole-block access of a rank-3 buffer. -/
theorem zero3r : (![0, 0, 0] : Fin 3 → Nat) = fun _ => 0 := funext fun a => by fin_cases a <;> rfl

/-! # The bias-and-rectify region with 64 channels (region 1) -/

/-- The sum before rectifying, over the whole array: entry (b, n, ch) of the activations plus entry ch of the bias. -/
def biasPre64 (H : S2x50000x64.Idx → EReal) (B : S1x1x64.Idx → EReal) : S2x50000x64.Idx → EReal :=
  fun i => H i + B (ix3 (0 : Fin 1) (0 : Fin 1) (⟨(i 2).val, (i 2).isLt⟩ : Fin 64))

/-- The rectified sum over the whole array: the larger of that sum and zero. -/
def biasRelu64 (H : S2x50000x64.Idx → EReal) (B : S1x1x64.Idx → EReal) : S2x50000x64.Idx → EReal :=
  fun i => max (H i + B (ix3 (0 : Fin 1) (0 : Fin 1) (⟨(i 2).val, (i 2).isLt⟩ : Fin 64))) 0

/-- The first stored block at (p, q, r): the loaded activations block there plus the loaded bias at r. -/
theorem pay1_pre_apply (x0 : Vec Ideal S2x2000x64 .f32) (x1 : Vec Ideal S1x1x64 .f32) (p : Fin 2) (q : Fin 2000) (r : Fin 64) :
    Gen.k1_pay1 x0 x1 (ix3 p q r) = x0 (ix3 p q r) + x1 (ix3 (0 : Fin 1) (0 : Fin 1) r) := by
  unfold Gen.k1_pay1
  rw [shapeCast_self, shapeCast_self]
  refine (addf_apply _ _ _).trans ?_
  rw [Cert.LibBroadcast3.broadcastTo_11c_abc_apply]

/-- The second stored block at (p, q, r): the larger of that sum and zero (the zero word is the extended real 0). -/
theorem pay1_relu_apply (x0 : Vec Ideal S2x2000x64 .f32) (x1 : Vec Ideal S1x1x64 .f32) (p : Fin 2) (q : Fin 2000) (r : Fin 64) :
    Gen.k1_pay2 x0 x1 (ix3 p q r) = max (x0 (ix3 p q r) + x1 (ix3 (0 : Fin 1) (0 : Fin 1) r)) 0 := by
  unfold Gen.k1_pay2
  refine (maximumf_apply _ _ _).trans ?_
  rw [pay1_pre_apply, broadcast_apply]
  show max _ (Ideal.ofBits .f32 0x00000000#32) = _
  rw [Ideal.ofBits_zero_f32]

/-- The first stored block's entry is the whole-array sum at an index i, once the loaded blocks are read off the arrays at
    the places i names. -/
theorem point1_pre (H : S2x50000x64.Idx → EReal) (B : S1x1x64.Idx → EReal)
    (x0 : Vec Ideal S2x2000x64 .f32) (x1 : Vec Ideal S1x1x64 .f32)
    (p : Fin 2) (q : Fin 2000) (r : Fin 64) (i : S2x50000x64.Idx)
    (h0 : x0 (ix3 p q r) = H i) (h1 : x1 (ix3 (0 : Fin 1) (0 : Fin 1) r) = B (ix3 (0 : Fin 1) (0 : Fin 1) r))
    (hi : (i 2).val = r.val) :
    Gen.k1_pay1 x0 x1 (ix3 p q r) = biasPre64 H B i := by
  rw [pay1_pre_apply, h0, h1]
  have e : (⟨(i 2).val, (i 2).isLt⟩ : Fin 64) = r := Fin.ext hi
  unfold biasPre64
  rw [e]

/-- The same for the rectified block. -/
theorem point1_relu (H : S2x50000x64.Idx → EReal) (B : S1x1x64.Idx → EReal)
    (x0 : Vec Ideal S2x2000x64 .f32) (x1 : Vec Ideal S1x1x64 .f32)
    (p : Fin 2) (q : Fin 2000) (r : Fin 64) (i : S2x50000x64.Idx)
    (h0 : x0 (ix3 p q r) = H i) (h1 : x1 (ix3 (0 : Fin 1) (0 : Fin 1) r) = B (ix3 (0 : Fin 1) (0 : Fin 1) r))
    (hi : (i 2).val = r.val) :
    Gen.k1_pay2 x0 x1 (ix3 p q r) = biasRelu64 H B i := by
  rw [pay1_relu_apply, h0, h1]
  have e : (⟨(i 2).val, (i 2).isLt⟩ : Fin 64) = r := Fin.ext hi
  unfold biasRelu64
  rw [e]

/-- The block index maps over the grid: point t's activations block and both output blocks are row block t, the bias
    block is the whole bias. -/
theorem idx1 : ∀ t : Fin cfg1.N,
      win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = t.val ∧ win1_2.index t (2 : Fin 3) = 0
    ∧ win1_3.index t (0 : Fin 3) = 0 ∧ win1_3.index t (1 : Fin 3) = t.val ∧ win1_3.index t (2 : Fin 3) = 0 :=
  (by decide +kernel : ∀ t : Fin grid1.N, _)

/-- What point t writes back to the pre output is block t of the whole-array function of the region's input arrays. -/
theorem flushed1_pre (c : Dev nD) (t : Fin cfg1.N) :
    (Gen.dat1 (F := Ideal) V c).flushed 2 t
      = ((cfg1.win 2).blk t).view.read (Elt Ideal) (biasPre64 (V c (Pipeline.arrRef spec1 0)) (V c (Pipeline.arrRef spec1 1))) := by
  show (cfg1.win 2).cut (grid1.coords t) ((Gen.dat1 (F := Ideal) V c).after 2 t) = _
  rw [Gen.after1_2]
  unfold Gen.out1_2
  rw [View.canon_unit_zero zero3r]
  simp only [View.ld_unit_zero (S := S2x2000x64) zero3r, View.ld_unit_zero (S := S1x1x64) zero3r]
  obtain ⟨a0, a1, a2, b0, b1, b2, c0, c1, c2, d0, d1, d2⟩ := idx1 t
  refine funext fun (j : S2x2000x64.Idx) => ?_
  obtain ⟨p, q, r, rfl⟩ : ∃ (p : Fin 2) (q : Fin 2000) (r : Fin 64), j = ix3 p q r := ⟨j 0, j 1, j 2, eq_ix3 j⟩
  refine point1_pre _ _ (Gen.iblk1 V c 0 t) (Gen.iblk1 V c 1 t) p q r _ ?_ ?_ ?_
  · show V c (Pipeline.arrRef spec1 0) (((cfg1.win 0).blk t).view.emb (ix3 p q r)) = V c (Pipeline.arrRef spec1 0) (((cfg1.win 2).blk t).view.emb (ix3 p q r))
    refine congrArg _ ?_
    funext a; apply Fin.ext
    match a with
    | ⟨0, _⟩ => show win1_0.index t (0 : Fin 3) * 2 + 1 * p.val = win1_2.index t (0 : Fin 3) * 2 + 1 * p.val; omega
    | ⟨1, _⟩ => show win1_0.index t (1 : Fin 3) * 2000 + 1 * q.val = win1_2.index t (1 : Fin 3) * 2000 + 1 * q.val; omega
    | ⟨2, _⟩ => show win1_0.index t (2 : Fin 3) * 64 + 1 * r.val = win1_2.index t (2 : Fin 3) * 64 + 1 * r.val; omega
  · show V c (Pipeline.arrRef spec1 1) (((cfg1.win 1).blk t).view.emb (ix3 (0 : Fin 1) (0 : Fin 1) r)) = V c (Pipeline.arrRef spec1 1) (ix3 (0 : Fin 1) (0 : Fin 1) r)
    refine congrArg _ ?_
    funext a; apply Fin.ext
    match a with
    | ⟨0, _⟩ => show win1_1.index t (0 : Fin 3) * 1 + 1 * 0 = 0; omega
    | ⟨1, _⟩ => show win1_1.index t (1 : Fin 3) * 1 + 1 * 0 = 0; omega
    | ⟨2, _⟩ => show win1_1.index t (2 : Fin 3) * 64 + 1 * r.val = r.val; omega
  · show win1_2.index t (2 : Fin 3) * 64 + 1 * r.val = r.val; omega

/-- An index of the pre output array lies in point t's block iff each coordinate lies in the block's range on its axis. -/
theorem mem_blk1_2 (t : Fin cfg1.N) (i : S2x50000x64.Idx) :
    i ∈ ((cfg1.win 2).blk t).view.set ↔ ∀ a : Fin 3, win1_2.index t a * S2x2000x64.size a ≤ (i a).val ∧ (i a).val < win1_2.index t a * S2x2000x64.size a + S2x2000x64.size a := by
  show i ∈ ((View.whole main_v58_0).slice (win1_2.rect t)).set ↔ _
  rw [View.set_slice_whole, Rect.mem_set_unit]
  exact Iff.rfl

/-- Every index of the pre output array lies in some point's block: row n in block n / 2000. -/
theorem cover1_2 (i : S2x50000x64.Idx) : ∃ t : Fin cfg1.N, (cfg1.win 2).flush t = true ∧ i ∈ ((cfg1.win 2).blk t).view.set := by
  have hi0 : (i 0).val < 2 := (i 0).isLt
  have hi1 : (i 1).val < 50000 := (i 1).isLt
  have hi2 : (i 2).val < 64 := (i 2).isLt
  have hN : grid1.N = 25 := Gen.N_1
  have ht : (i 1).val / 2000 < cfg1.N := by show _ < grid1.N; rw [hN]; omega
  obtain ⟨a0, a1, a2, b0, b1, b2, c0, c1, c2, d0, d1, d2⟩ := idx1 ⟨(i 1).val / 2000, ht⟩
  refine ⟨⟨(i 1).val / 2000, ht⟩, Gen.flush1_2 _, ?_⟩
  rw [mem_blk1_2]
  intro a
  match a with
  | ⟨0, _⟩ => show win1_2.index ⟨(i 1).val / 2000, ht⟩ (0 : Fin 3) * 2 ≤ (i 0).val ∧ (i 0).val < win1_2.index ⟨(i 1).val / 2000, ht⟩ (0 : Fin 3) * 2 + 2; omega
  | ⟨1, _⟩ => show win1_2.index ⟨(i 1).val / 2000, ht⟩ (1 : Fin 3) * 2000 ≤ (i 1).val ∧ (i 1).val < win1_2.index ⟨(i 1).val / 2000, ht⟩ (1 : Fin 3) * 2000 + 2000; rw [c1]; show (i 1).val / 2000 * 2000 ≤ (i 1).val ∧ (i 1).val < (i 1).val / 2000 * 2000 + 2000; omega
  | ⟨2, _⟩ => show win1_2.index ⟨(i 1).val / 2000, ht⟩ (2 : Fin 3) * 64 ≤ (i 2).val ∧ (i 2).val < win1_2.index ⟨(i 1).val / 2000, ht⟩ (2 : Fin 3) * 64 + 64; omega

/-- The pre output array of the region after its 25 points, as one function of the region's input arrays. -/
theorem final1_pre (c : Dev nD) :
    (Gen.dat1 (F := Ideal) V c).arrAt 2 cfg1.N = biasPre64 (V c (Pipeline.arrRef spec1 0)) (V c (Pipeline.arrRef spec1 1)) :=
  (Gen.dat1 (F := Ideal) V c).arrAt_eq_of_cover 2 _ (fun t _ => flushed1_pre V c t) cover1_2

/-- What point t writes back to the relu output is block t of the whole-array function of the region's input arrays. -/
theorem flushed1_relu (c : Dev nD) (t : Fin cfg1.N) :
    (Gen.dat1 (F := Ideal) V c).flushed 3 t
      = ((cfg1.win 3).blk t).view.read (Elt Ideal) (biasRelu64 (V c (Pipeline.arrRef spec1 0)) (V c (Pipeline.arrRef spec1 1))) := by
  show (cfg1.win 3).cut (grid1.coords t) ((Gen.dat1 (F := Ideal) V c).after 3 t) = _
  rw [Gen.after1_3]
  unfold Gen.out1_3
  rw [View.canon_unit_zero zero3r]
  simp only [View.ld_unit_zero (S := S2x2000x64) zero3r, View.ld_unit_zero (S := S1x1x64) zero3r]
  obtain ⟨a0, a1, a2, b0, b1, b2, c0, c1, c2, d0, d1, d2⟩ := idx1 t
  refine funext fun (j : S2x2000x64.Idx) => ?_
  obtain ⟨p, q, r, rfl⟩ : ∃ (p : Fin 2) (q : Fin 2000) (r : Fin 64), j = ix3 p q r := ⟨j 0, j 1, j 2, eq_ix3 j⟩
  refine point1_relu _ _ (Gen.iblk1 V c 0 t) (Gen.iblk1 V c 1 t) p q r _ ?_ ?_ ?_
  · show V c (Pipeline.arrRef spec1 0) (((cfg1.win 0).blk t).view.emb (ix3 p q r)) = V c (Pipeline.arrRef spec1 0) (((cfg1.win 3).blk t).view.emb (ix3 p q r))
    refine congrArg _ ?_
    funext a; apply Fin.ext
    match a with
    | ⟨0, _⟩ => show win1_0.index t (0 : Fin 3) * 2 + 1 * p.val = win1_3.index t (0 : Fin 3) * 2 + 1 * p.val; omega
    | ⟨1, _⟩ => show win1_0.index t (1 : Fin 3) * 2000 + 1 * q.val = win1_3.index t (1 : Fin 3) * 2000 + 1 * q.val; omega
    | ⟨2, _⟩ => show win1_0.index t (2 : Fin 3) * 64 + 1 * r.val = win1_3.index t (2 : Fin 3) * 64 + 1 * r.val; omega
  · show V c (Pipeline.arrRef spec1 1) (((cfg1.win 1).blk t).view.emb (ix3 (0 : Fin 1) (0 : Fin 1) r)) = V c (Pipeline.arrRef spec1 1) (ix3 (0 : Fin 1) (0 : Fin 1) r)
    refine congrArg _ ?_
    funext a; apply Fin.ext
    match a with
    | ⟨0, _⟩ => show win1_1.index t (0 : Fin 3) * 1 + 1 * 0 = 0; omega
    | ⟨1, _⟩ => show win1_1.index t (1 : Fin 3) * 1 + 1 * 0 = 0; omega
    | ⟨2, _⟩ => show win1_1.index t (2 : Fin 3) * 64 + 1 * r.val = r.val; omega
  · show win1_3.index t (2 : Fin 3) * 64 + 1 * r.val = r.val; omega

/-- An index of the relu output array lies in point t's block iff each coordinate lies in the block's range on its axis. -/
theorem mem_blk1_3 (t : Fin cfg1.N) (i : S2x50000x64.Idx) :
    i ∈ ((cfg1.win 3).blk t).view.set ↔ ∀ a : Fin 3, win1_3.index t a * S2x2000x64.size a ≤ (i a).val ∧ (i a).val < win1_3.index t a * S2x2000x64.size a + S2x2000x64.size a := by
  show i ∈ ((View.whole main_v58_1).slice (win1_3.rect t)).set ↔ _
  rw [View.set_slice_whole, Rect.mem_set_unit]
  exact Iff.rfl

/-- Every index of the relu output array lies in some point's block: row n in block n / 2000. -/
theorem cover1_3 (i : S2x50000x64.Idx) : ∃ t : Fin cfg1.N, (cfg1.win 3).flush t = true ∧ i ∈ ((cfg1.win 3).blk t).view.set := by
  have hi0 : (i 0).val < 2 := (i 0).isLt
  have hi1 : (i 1).val < 50000 := (i 1).isLt
  have hi2 : (i 2).val < 64 := (i 2).isLt
  have hN : grid1.N = 25 := Gen.N_1
  have ht : (i 1).val / 2000 < cfg1.N := by show _ < grid1.N; rw [hN]; omega
  obtain ⟨a0, a1, a2, b0, b1, b2, c0, c1, c2, d0, d1, d2⟩ := idx1 ⟨(i 1).val / 2000, ht⟩
  refine ⟨⟨(i 1).val / 2000, ht⟩, Gen.flush1_3 _, ?_⟩
  rw [mem_blk1_3]
  intro a
  match a with
  | ⟨0, _⟩ => show win1_3.index ⟨(i 1).val / 2000, ht⟩ (0 : Fin 3) * 2 ≤ (i 0).val ∧ (i 0).val < win1_3.index ⟨(i 1).val / 2000, ht⟩ (0 : Fin 3) * 2 + 2; omega
  | ⟨1, _⟩ => show win1_3.index ⟨(i 1).val / 2000, ht⟩ (1 : Fin 3) * 2000 ≤ (i 1).val ∧ (i 1).val < win1_3.index ⟨(i 1).val / 2000, ht⟩ (1 : Fin 3) * 2000 + 2000; rw [d1]; show (i 1).val / 2000 * 2000 ≤ (i 1).val ∧ (i 1).val < (i 1).val / 2000 * 2000 + 2000; omega
  | ⟨2, _⟩ => show win1_3.index ⟨(i 1).val / 2000, ht⟩ (2 : Fin 3) * 64 ≤ (i 2).val ∧ (i 2).val < win1_3.index ⟨(i 1).val / 2000, ht⟩ (2 : Fin 3) * 64 + 64; omega

/-- The relu output array of the region after its 25 points, as one function of the region's input arrays. -/
theorem final1_relu (c : Dev nD) :
    (Gen.dat1 (F := Ideal) V c).arrAt 3 cfg1.N = biasRelu64 (V c (Pipeline.arrRef spec1 0)) (V c (Pipeline.arrRef spec1 1)) :=
  (Gen.dat1 (F := Ideal) V c).arrAt_eq_of_cover 3 _ (fun t _ => flushed1_relu V c t) cover1_3

/-- Entry (b, n, ch) of the region's first output is entry (b, n, ch) of the activations plus entry ch of the bias. -/
theorem br1_pre (c : Dev nD) (b : Fin 2) (n : Fin 50000) (ch : Fin 64) :
    (Gen.dat1 (F := Ideal) V c).arrAt 2 cfg1.N (ix3 b n ch)
      = @HAdd.hAdd EReal EReal EReal instHAdd ((V c (Pipeline.arrRef spec1 0) : S2x50000x64.Idx → EReal) (ix3 b n ch))
          ((V c (Pipeline.arrRef spec1 1) : S1x1x64.Idx → EReal) (ix3 (0 : Fin 1) (0 : Fin 1) ch)) := by
  rw [final1_pre]; rfl

/-- Entry (b, n, ch) of the region's second output is the larger of that sum and zero. -/
theorem br1_relu (c : Dev nD) (b : Fin 2) (n : Fin 50000) (ch : Fin 64) :
    (Gen.dat1 (F := Ideal) V c).arrAt 3 cfg1.N (ix3 b n ch)
      = @max EReal _ (@HAdd.hAdd EReal EReal EReal instHAdd ((V c (Pipeline.arrRef spec1 0) : S2x50000x64.Idx → EReal) (ix3 b n ch))
          ((V c (Pipeline.arrRef spec1 1) : S1x1x64.Idx → EReal) (ix3 (0 : Fin 1) (0 : Fin 1) ch))) 0 := by
  rw [final1_relu]; rfl

/-- The same two with the input arrays named. -/
theorem br1_pre_of (c : Dev nD) (H : S2x50000x64.Idx → EReal) (P1 : S1x1x64.Idx → EReal)
    (hH : H = V c (Pipeline.arrRef spec1 0)) (hP1 : P1 = V c (Pipeline.arrRef spec1 1)) (b : Fin 2) (n : Fin 50000) (ch : Fin 64) :
    (Gen.dat1 (F := Ideal) V c).arrAt 2 cfg1.N (ix3 b n ch) = H (ix3 b n ch) + P1 (ix3 (0 : Fin 1) (0 : Fin 1) ch) := by
  subst hH hP1; exact br1_pre V c b n ch

theorem br1_relu_of (c : Dev nD) (H : S2x50000x64.Idx → EReal) (P1 : S1x1x64.Idx → EReal)
    (hH : H = V c (Pipeline.arrRef spec1 0)) (hP1 : P1 = V c (Pipeline.arrRef spec1 1)) (b : Fin 2) (n : Fin 50000) (ch : Fin 64) :
    (Gen.dat1 (F := Ideal) V c).arrAt 3 cfg1.N (ix3 b n ch) = max (H (ix3 b n ch) + P1 (ix3 (0 : Fin 1) (0 : Fin 1) ch)) 0 := by
  subst hH hP1; exact br1_relu V c b n ch

/-- The region's windows are the arrays of these buffers. -/
theorem arr1 : Pipeline.arrRef spec1 0 = main_v56 ∧ Pipeline.arrRef spec1 1 = main_v57 ∧ Pipeline.arrRef spec1 2 = main_v58_0 ∧ Pipeline.arrRef spec1 3 = main_v58_1 :=
  ⟨rfl, rfl, rfl, rfl⟩

/-! # The bias-and-rectify region with 8 channels (region 4) -/

/-- The sum before rectifying, over the whole array: entry (b, n, ch) of the activations plus entry ch of the bias. -/
def biasPre8 (H : S2x50000x8.Idx → EReal) (B : S1x1x8.Idx → EReal) : S2x50000x8.Idx → EReal :=
  fun i => H i + B (ix3 (0 : Fin 1) (0 : Fin 1) (⟨(i 2).val, (i 2).isLt⟩ : Fin 8))

/-- The rectified sum over the whole array: the larger of that sum and zero. -/
def biasRelu8 (H : S2x50000x8.Idx → EReal) (B : S1x1x8.Idx → EReal) : S2x50000x8.Idx → EReal :=
  fun i => max (H i + B (ix3 (0 : Fin 1) (0 : Fin 1) (⟨(i 2).val, (i 2).isLt⟩ : Fin 8))) 0

/-- The first stored block at (p, q, r): the loaded activations block there plus the loaded bias at r. -/
theorem pay4_pre_apply (x0 : Vec Ideal S2x2000x8 .f32) (x1 : Vec Ideal S1x1x8 .f32) (p : Fin 2) (q : Fin 2000) (r : Fin 8) :
    Gen.k4_pay1 x0 x1 (ix3 p q r) = x0 (ix3 p q r) + x1 (ix3 (0 : Fin 1) (0 : Fin 1) r) := by
  unfold Gen.k4_pay1
  rw [shapeCast_self, shapeCast_self]
  refine (addf_apply _ _ _).trans ?_
  rw [Cert.LibBroadcast3.broadcastTo_11c_abc_apply]

/-- The second stored block at (p, q, r): the larger of that sum and zero (the zero word is the extended real 0). -/
theorem pay4_relu_apply (x0 : Vec Ideal S2x2000x8 .f32) (x1 : Vec Ideal S1x1x8 .f32) (p : Fin 2) (q : Fin 2000) (r : Fin 8) :
    Gen.k4_pay2 x0 x1 (ix3 p q r) = max (x0 (ix3 p q r) + x1 (ix3 (0 : Fin 1) (0 : Fin 1) r)) 0 := by
  unfold Gen.k4_pay2
  refine (maximumf_apply _ _ _).trans ?_
  rw [pay4_pre_apply, broadcast_apply]
  show max _ (Ideal.ofBits .f32 0x00000000#32) = _
  rw [Ideal.ofBits_zero_f32]

/-- The first stored block's entry is the whole-array sum at an index i, once the loaded blocks are read off the arrays at
    the places i names. -/
theorem point4_pre (H : S2x50000x8.Idx → EReal) (B : S1x1x8.Idx → EReal)
    (x0 : Vec Ideal S2x2000x8 .f32) (x1 : Vec Ideal S1x1x8 .f32)
    (p : Fin 2) (q : Fin 2000) (r : Fin 8) (i : S2x50000x8.Idx)
    (h0 : x0 (ix3 p q r) = H i) (h1 : x1 (ix3 (0 : Fin 1) (0 : Fin 1) r) = B (ix3 (0 : Fin 1) (0 : Fin 1) r))
    (hi : (i 2).val = r.val) :
    Gen.k4_pay1 x0 x1 (ix3 p q r) = biasPre8 H B i := by
  rw [pay4_pre_apply, h0, h1]
  have e : (⟨(i 2).val, (i 2).isLt⟩ : Fin 8) = r := Fin.ext hi
  unfold biasPre8
  rw [e]

/-- The same for the rectified block. -/
theorem point4_relu (H : S2x50000x8.Idx → EReal) (B : S1x1x8.Idx → EReal)
    (x0 : Vec Ideal S2x2000x8 .f32) (x1 : Vec Ideal S1x1x8 .f32)
    (p : Fin 2) (q : Fin 2000) (r : Fin 8) (i : S2x50000x8.Idx)
    (h0 : x0 (ix3 p q r) = H i) (h1 : x1 (ix3 (0 : Fin 1) (0 : Fin 1) r) = B (ix3 (0 : Fin 1) (0 : Fin 1) r))
    (hi : (i 2).val = r.val) :
    Gen.k4_pay2 x0 x1 (ix3 p q r) = biasRelu8 H B i := by
  rw [pay4_relu_apply, h0, h1]
  have e : (⟨(i 2).val, (i 2).isLt⟩ : Fin 8) = r := Fin.ext hi
  unfold biasRelu8
  rw [e]

/-- The block index maps over the grid: point t's activations block and both output blocks are row block t, the bias
    block is the whole bias. -/
theorem idx4 : ∀ t : Fin cfg4.N,
      win4_0.index t (0 : Fin 3) = 0 ∧ win4_0.index t (1 : Fin 3) = t.val ∧ win4_0.index t (2 : Fin 3) = 0
    ∧ win4_1.index t (0 : Fin 3) = 0 ∧ win4_1.index t (1 : Fin 3) = 0 ∧ win4_1.index t (2 : Fin 3) = 0
    ∧ win4_2.index t (0 : Fin 3) = 0 ∧ win4_2.index t (1 : Fin 3) = t.val ∧ win4_2.index t (2 : Fin 3) = 0
    ∧ win4_3.index t (0 : Fin 3) = 0 ∧ win4_3.index t (1 : Fin 3) = t.val ∧ win4_3.index t (2 : Fin 3) = 0 :=
  (by decide +kernel : ∀ t : Fin grid4.N, _)

/-- What point t writes back to the pre output is block t of the whole-array function of the region's input arrays. -/
theorem flushed4_pre (c : Dev nD) (t : Fin cfg4.N) :
    (Gen.dat4 (F := Ideal) V c).flushed 2 t
      = ((cfg4.win 2).blk t).view.read (Elt Ideal) (biasPre8 (V c (Pipeline.arrRef spec4 0)) (V c (Pipeline.arrRef spec4 1))) := by
  show (cfg4.win 2).cut (grid4.coords t) ((Gen.dat4 (F := Ideal) V c).after 2 t) = _
  rw [Gen.after4_2]
  unfold Gen.out4_2
  rw [View.canon_unit_zero zero3r]
  simp only [View.ld_unit_zero (S := S2x2000x8) zero3r, View.ld_unit_zero (S := S1x1x8) zero3r]
  obtain ⟨a0, a1, a2, b0, b1, b2, c0, c1, c2, d0, d1, d2⟩ := idx4 t
  refine funext fun (j : S2x2000x8.Idx) => ?_
  obtain ⟨p, q, r, rfl⟩ : ∃ (p : Fin 2) (q : Fin 2000) (r : Fin 8), j = ix3 p q r := ⟨j 0, j 1, j 2, eq_ix3 j⟩
  refine point4_pre _ _ (Gen.iblk4 V c 0 t) (Gen.iblk4 V c 1 t) p q r _ ?_ ?_ ?_
  · show V c (Pipeline.arrRef spec4 0) (((cfg4.win 0).blk t).view.emb (ix3 p q r)) = V c (Pipeline.arrRef spec4 0) (((cfg4.win 2).blk t).view.emb (ix3 p q r))
    refine congrArg _ ?_
    funext a; apply Fin.ext
    match a with
    | ⟨0, _⟩ => show win4_0.index t (0 : Fin 3) * 2 + 1 * p.val = win4_2.index t (0 : Fin 3) * 2 + 1 * p.val; omega
    | ⟨1, _⟩ => show win4_0.index t (1 : Fin 3) * 2000 + 1 * q.val = win4_2.index t (1 : Fin 3) * 2000 + 1 * q.val; omega
    | ⟨2, _⟩ => show win4_0.index t (2 : Fin 3) * 8 + 1 * r.val = win4_2.index t (2 : Fin 3) * 8 + 1 * r.val; omega
  · show V c (Pipeline.arrRef spec4 1) (((cfg4.win 1).blk t).view.emb (ix3 (0 : Fin 1) (0 : Fin 1) r)) = V c (Pipeline.arrRef spec4 1) (ix3 (0 : Fin 1) (0 : Fin 1) r)
    refine congrArg _ ?_
    funext a; apply Fin.ext
    match a with
    | ⟨0, _⟩ => show win4_1.index t (0 : Fin 3) * 1 + 1 * 0 = 0; omega
    | ⟨1, _⟩ => show win4_1.index t (1 : Fin 3) * 1 + 1 * 0 = 0; omega
    | ⟨2, _⟩ => show win4_1.index t (2 : Fin 3) * 8 + 1 * r.val = r.val; omega
  · show win4_2.index t (2 : Fin 3) * 8 + 1 * r.val = r.val; omega

/-- An index of the pre output array lies in point t's block iff each coordinate lies in the block's range on its axis. -/
theorem mem_blk4_2 (t : Fin cfg4.N) (i : S2x50000x8.Idx) :
    i ∈ ((cfg4.win 2).blk t).view.set ↔ ∀ a : Fin 3, win4_2.index t a * S2x2000x8.size a ≤ (i a).val ∧ (i a).val < win4_2.index t a * S2x2000x8.size a + S2x2000x8.size a := by
  show i ∈ ((View.whole main_v89_0).slice (win4_2.rect t)).set ↔ _
  rw [View.set_slice_whole, Rect.mem_set_unit]
  exact Iff.rfl

/-- Every index of the pre output array lies in some point's block: row n in block n / 2000. -/
theorem cover4_2 (i : S2x50000x8.Idx) : ∃ t : Fin cfg4.N, (cfg4.win 2).flush t = true ∧ i ∈ ((cfg4.win 2).blk t).view.set := by
  have hi0 : (i 0).val < 2 := (i 0).isLt
  have hi1 : (i 1).val < 50000 := (i 1).isLt
  have hi2 : (i 2).val < 8 := (i 2).isLt
  have hN : grid4.N = 25 := Gen.N_4
  have ht : (i 1).val / 2000 < cfg4.N := by show _ < grid4.N; rw [hN]; omega
  obtain ⟨a0, a1, a2, b0, b1, b2, c0, c1, c2, d0, d1, d2⟩ := idx4 ⟨(i 1).val / 2000, ht⟩
  refine ⟨⟨(i 1).val / 2000, ht⟩, Gen.flush4_2 _, ?_⟩
  rw [mem_blk4_2]
  intro a
  match a with
  | ⟨0, _⟩ => show win4_2.index ⟨(i 1).val / 2000, ht⟩ (0 : Fin 3) * 2 ≤ (i 0).val ∧ (i 0).val < win4_2.index ⟨(i 1).val / 2000, ht⟩ (0 : Fin 3) * 2 + 2; omega
  | ⟨1, _⟩ => show win4_2.index ⟨(i 1).val / 2000, ht⟩ (1 : Fin 3) * 2000 ≤ (i 1).val ∧ (i 1).val < win4_2.index ⟨(i 1).val / 2000, ht⟩ (1 : Fin 3) * 2000 + 2000; rw [c1]; show (i 1).val / 2000 * 2000 ≤ (i 1).val ∧ (i 1).val < (i 1).val / 2000 * 2000 + 2000; omega
  | ⟨2, _⟩ => show win4_2.index ⟨(i 1).val / 2000, ht⟩ (2 : Fin 3) * 8 ≤ (i 2).val ∧ (i 2).val < win4_2.index ⟨(i 1).val / 2000, ht⟩ (2 : Fin 3) * 8 + 8; omega

/-- The pre output array of the region after its 25 points, as one function of the region's input arrays. -/
theorem final4_pre (c : Dev nD) :
    (Gen.dat4 (F := Ideal) V c).arrAt 2 cfg4.N = biasPre8 (V c (Pipeline.arrRef spec4 0)) (V c (Pipeline.arrRef spec4 1)) :=
  (Gen.dat4 (F := Ideal) V c).arrAt_eq_of_cover 2 _ (fun t _ => flushed4_pre V c t) cover4_2

/-- What point t writes back to the relu output is block t of the whole-array function of the region's input arrays. -/
theorem flushed4_relu (c : Dev nD) (t : Fin cfg4.N) :
    (Gen.dat4 (F := Ideal) V c).flushed 3 t
      = ((cfg4.win 3).blk t).view.read (Elt Ideal) (biasRelu8 (V c (Pipeline.arrRef spec4 0)) (V c (Pipeline.arrRef spec4 1))) := by
  show (cfg4.win 3).cut (grid4.coords t) ((Gen.dat4 (F := Ideal) V c).after 3 t) = _
  rw [Gen.after4_3]
  unfold Gen.out4_3
  rw [View.canon_unit_zero zero3r]
  simp only [View.ld_unit_zero (S := S2x2000x8) zero3r, View.ld_unit_zero (S := S1x1x8) zero3r]
  obtain ⟨a0, a1, a2, b0, b1, b2, c0, c1, c2, d0, d1, d2⟩ := idx4 t
  refine funext fun (j : S2x2000x8.Idx) => ?_
  obtain ⟨p, q, r, rfl⟩ : ∃ (p : Fin 2) (q : Fin 2000) (r : Fin 8), j = ix3 p q r := ⟨j 0, j 1, j 2, eq_ix3 j⟩
  refine point4_relu _ _ (Gen.iblk4 V c 0 t) (Gen.iblk4 V c 1 t) p q r _ ?_ ?_ ?_
  · show V c (Pipeline.arrRef spec4 0) (((cfg4.win 0).blk t).view.emb (ix3 p q r)) = V c (Pipeline.arrRef spec4 0) (((cfg4.win 3).blk t).view.emb (ix3 p q r))
    refine congrArg _ ?_
    funext a; apply Fin.ext
    match a with
    | ⟨0, _⟩ => show win4_0.index t (0 : Fin 3) * 2 + 1 * p.val = win4_3.index t (0 : Fin 3) * 2 + 1 * p.val; omega
    | ⟨1, _⟩ => show win4_0.index t (1 : Fin 3) * 2000 + 1 * q.val = win4_3.index t (1 : Fin 3) * 2000 + 1 * q.val; omega
    | ⟨2, _⟩ => show win4_0.index t (2 : Fin 3) * 8 + 1 * r.val = win4_3.index t (2 : Fin 3) * 8 + 1 * r.val; omega
  · show V c (Pipeline.arrRef spec4 1) (((cfg4.win 1).blk t).view.emb (ix3 (0 : Fin 1) (0 : Fin 1) r)) = V c (Pipeline.arrRef spec4 1) (ix3 (0 : Fin 1) (0 : Fin 1) r)
    refine congrArg _ ?_
    funext a; apply Fin.ext
    match a with
    | ⟨0, _⟩ => show win4_1.index t (0 : Fin 3) * 1 + 1 * 0 = 0; omega
    | ⟨1, _⟩ => show win4_1.index t (1 : Fin 3) * 1 + 1 * 0 = 0; omega
    | ⟨2, _⟩ => show win4_1.index t (2 : Fin 3) * 8 + 1 * r.val = r.val; omega
  · show win4_3.index t (2 : Fin 3) * 8 + 1 * r.val = r.val; omega

/-- An index of the relu output array lies in point t's block iff each coordinate lies in the block's range on its axis. -/
theorem mem_blk4_3 (t : Fin cfg4.N) (i : S2x50000x8.Idx) :
    i ∈ ((cfg4.win 3).blk t).view.set ↔ ∀ a : Fin 3, win4_3.index t a * S2x2000x8.size a ≤ (i a).val ∧ (i a).val < win4_3.index t a * S2x2000x8.size a + S2x2000x8.size a := by
  show i ∈ ((View.whole main_v89_1).slice (win4_3.rect t)).set ↔ _
  rw [View.set_slice_whole, Rect.mem_set_unit]
  exact Iff.rfl

/-- Every index of the relu output array lies in some point's block: row n in block n / 2000. -/
theorem cover4_3 (i : S2x50000x8.Idx) : ∃ t : Fin cfg4.N, (cfg4.win 3).flush t = true ∧ i ∈ ((cfg4.win 3).blk t).view.set := by
  have hi0 : (i 0).val < 2 := (i 0).isLt
  have hi1 : (i 1).val < 50000 := (i 1).isLt
  have hi2 : (i 2).val < 8 := (i 2).isLt
  have hN : grid4.N = 25 := Gen.N_4
  have ht : (i 1).val / 2000 < cfg4.N := by show _ < grid4.N; rw [hN]; omega
  obtain ⟨a0, a1, a2, b0, b1, b2, c0, c1, c2, d0, d1, d2⟩ := idx4 ⟨(i 1).val / 2000, ht⟩
  refine ⟨⟨(i 1).val / 2000, ht⟩, Gen.flush4_3 _, ?_⟩
  rw [mem_blk4_3]
  intro a
  match a with
  | ⟨0, _⟩ => show win4_3.index ⟨(i 1).val / 2000, ht⟩ (0 : Fin 3) * 2 ≤ (i 0).val ∧ (i 0).val < win4_3.index ⟨(i 1).val / 2000, ht⟩ (0 : Fin 3) * 2 + 2; omega
  | ⟨1, _⟩ => show win4_3.index ⟨(i 1).val / 2000, ht⟩ (1 : Fin 3) * 2000 ≤ (i 1).val ∧ (i 1).val < win4_3.index ⟨(i 1).val / 2000, ht⟩ (1 : Fin 3) * 2000 + 2000; rw [d1]; show (i 1).val / 2000 * 2000 ≤ (i 1).val ∧ (i 1).val < (i 1).val / 2000 * 2000 + 2000; omega
  | ⟨2, _⟩ => show win4_3.index ⟨(i 1).val / 2000, ht⟩ (2 : Fin 3) * 8 ≤ (i 2).val ∧ (i 2).val < win4_3.index ⟨(i 1).val / 2000, ht⟩ (2 : Fin 3) * 8 + 8; omega

/-- The relu output array of the region after its 25 points, as one function of the region's input arrays. -/
theorem final4_relu (c : Dev nD) :
    (Gen.dat4 (F := Ideal) V c).arrAt 3 cfg4.N = biasRelu8 (V c (Pipeline.arrRef spec4 0)) (V c (Pipeline.arrRef spec4 1)) :=
  (Gen.dat4 (F := Ideal) V c).arrAt_eq_of_cover 3 _ (fun t _ => flushed4_relu V c t) cover4_3

/-- Entry (b, n, ch) of the region's first output is entry (b, n, ch) of the activations plus entry ch of the bias. -/
theorem br4_pre (c : Dev nD) (b : Fin 2) (n : Fin 50000) (ch : Fin 8) :
    (Gen.dat4 (F := Ideal) V c).arrAt 2 cfg4.N (ix3 b n ch)
      = @HAdd.hAdd EReal EReal EReal instHAdd ((V c (Pipeline.arrRef spec4 0) : S2x50000x8.Idx → EReal) (ix3 b n ch))
          ((V c (Pipeline.arrRef spec4 1) : S1x1x8.Idx → EReal) (ix3 (0 : Fin 1) (0 : Fin 1) ch)) := by
  rw [final4_pre]; rfl

/-- Entry (b, n, ch) of the region's second output is the larger of that sum and zero. -/
theorem br4_relu (c : Dev nD) (b : Fin 2) (n : Fin 50000) (ch : Fin 8) :
    (Gen.dat4 (F := Ideal) V c).arrAt 3 cfg4.N (ix3 b n ch)
      = @max EReal _ (@HAdd.hAdd EReal EReal EReal instHAdd ((V c (Pipeline.arrRef spec4 0) : S2x50000x8.Idx → EReal) (ix3 b n ch))
          ((V c (Pipeline.arrRef spec4 1) : S1x1x8.Idx → EReal) (ix3 (0 : Fin 1) (0 : Fin 1) ch))) 0 := by
  rw [final4_relu]; rfl

/-- The same two with the input arrays named. -/
theorem br4_pre_of (c : Dev nD) (H : S2x50000x8.Idx → EReal) (P1 : S1x1x8.Idx → EReal)
    (hH : H = V c (Pipeline.arrRef spec4 0)) (hP1 : P1 = V c (Pipeline.arrRef spec4 1)) (b : Fin 2) (n : Fin 50000) (ch : Fin 8) :
    (Gen.dat4 (F := Ideal) V c).arrAt 2 cfg4.N (ix3 b n ch) = H (ix3 b n ch) + P1 (ix3 (0 : Fin 1) (0 : Fin 1) ch) := by
  subst hH hP1; exact br4_pre V c b n ch

theorem br4_relu_of (c : Dev nD) (H : S2x50000x8.Idx → EReal) (P1 : S1x1x8.Idx → EReal)
    (hH : H = V c (Pipeline.arrRef spec4 0)) (hP1 : P1 = V c (Pipeline.arrRef spec4 1)) (b : Fin 2) (n : Fin 50000) (ch : Fin 8) :
    (Gen.dat4 (F := Ideal) V c).arrAt 3 cfg4.N (ix3 b n ch) = max (H (ix3 b n ch) + P1 (ix3 (0 : Fin 1) (0 : Fin 1) ch)) 0 := by
  subst hH hP1; exact br4_relu V c b n ch

/-- The region's windows are the arrays of these buffers. -/
theorem arr4 : Pipeline.arrRef spec4 0 = main_v87 ∧ Pipeline.arrRef spec4 1 = main_v88 ∧ Pipeline.arrRef spec4 2 = main_v89_0 ∧ Pipeline.arrRef spec4 3 = main_v89_1 :=
  ⟨rfl, rfl, rfl, rfl⟩

end Cert.KernelIdeal.RegionValue

end
-- ==== Proof.RegionBatchNorm.lean ====
/-
  The two batch-norm normalize regions (64 and 8 channels).  Each grid has 25 points; point t loads rows
  2000 t … 2000 t + 1999 of the [2, 50000, C] activations and the whole [1, 1, C] mean, variance, scale and shift, and
  stores over the same rows of the output ((h - mean) * rsqrt (var + eps)) * scale + shift, channel by channel, eps
  the small constant the body splats.  Here, per region: the stored block at an index, the written-back block as the
  block of ONE whole-array function, the 25 row blocks covering the array (row n lies in block n / 2000), hence the
  output array after the region.
-/
import proofs.«172352_j22454089024045_1_alg».proof.Proof.Gen.KernelIdeal.Frame
import proofs.«172352_j22454089024045_1_alg».proof.Proof.LibBroadcast3
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.ValueIdx
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

/-- The zero offset of a whole-block access of a rank-3 buffer. -/
theorem zero3n : (![0, 0, 0] : Fin 3 → Nat) = fun _ => 0 := funext fun a => by fin_cases a <;> rfl

/-! # The batch-norm normalize region with 64 channels (region 2) -/

/-- Normalizing over the whole array: entry (b, n, ch) of the activations less the channel's mean, times the reciprocal
    square root of the channel's variance plus the small constant, times the channel's scale, plus the channel's shift. -/
def batchNorm64 (H : S2x50000x64.Idx → EReal) (M Vr G B : S1x1x64.Idx → EReal) : S2x50000x64.Idx → EReal :=
  fun i => ((H i - M (ix3 (0 : Fin 1) (0 : Fin 1) (⟨(i 2).val, (i 2).isLt⟩ : Fin 64)))
      * Ideal.rsqrt (Vr (ix3 (0 : Fin 1) (0 : Fin 1) (⟨(i 2).val, (i 2).isLt⟩ : Fin 64)) + Ideal.ofBits .f32 0x3727C5AC#32))
      * G (ix3 (0 : Fin 1) (0 : Fin 1) (⟨(i 2).val, (i 2).isLt⟩ : Fin 64))
    + B (ix3 (0 : Fin 1) (0 : Fin 1) (⟨(i 2).val, (i 2).isLt⟩ : Fin 64))

/-- The stored block at (p, q, r), from the loaded blocks: the variance block first, then the activations, the mean, the
    scale and the shift. -/
theorem pay2_apply (xv : Vec Ideal S1x1x64 .f32) (xh : Vec Ideal S2x2000x64 .f32) (xm xg xb : Vec Ideal S1x1x64 .f32)
    (p : Fin 2) (q : Fin 2000) (r : Fin 64) :
    Gen.k2_pay1 xv xh xm xg xb (ix3 p q r)
      = ((xh (ix3 p q r) - xm (ix3 (0 : Fin 1) (0 : Fin 1) r)) * Ideal.rsqrt (xv (ix3 (0 : Fin 1) (0 : Fin 1) r) + Ideal.ofBits .f32 0x3727C5AC#32)) * xg (ix3 (0 : Fin 1) (0 : Fin 1) r)
        + xb (ix3 (0 : Fin 1) (0 : Fin 1) r) := by
  unfold Gen.k2_pay1
  simp only [shapeCast_self]
  refine (addf_apply _ _ _).trans ?_
  rw [Cert.LibBroadcast3.broadcastTo_11c_abc_apply]
  refine congrArg (· + xb (ix3 (0 : Fin 1) (0 : Fin 1) r)) ?_
  refine (mulf_apply _ _ _).trans ?_
  rw [Cert.LibBroadcast3.broadcastTo_11c_abc_apply]
  refine congrArg (· * xg (ix3 (0 : Fin 1) (0 : Fin 1) r)) ?_
  refine (mulf_apply _ _ _).trans ?_
  rw [Cert.LibBroadcast3.broadcastTo_11c_abc_apply]
  refine congrArg₂ (· * ·) ?_ rfl
  refine (subf_apply _ _ _).trans ?_
  rw [Cert.LibBroadcast3.broadcastTo_11c_abc_apply]

/-- The stored block's entry is the whole-array function at an index i, once the loaded blocks are read off the arrays at
    the places i names. -/
theorem point2 (H : S2x50000x64.Idx → EReal) (M Vr G B : S1x1x64.Idx → EReal)
    (x0 : Vec Ideal S2x2000x64 .f32) (x1 x2 x3 x4 : Vec Ideal S1x1x64 .f32)
    (p : Fin 2) (q : Fin 2000) (r : Fin 64) (i : S2x50000x64.Idx)
    (h0 : x0 (ix3 p q r) = H i)
    (h1 : x1 (ix3 (0 : Fin 1) (0 : Fin 1) r) = M (ix3 (0 : Fin 1) (0 : Fin 1) r)) (h2 : x2 (ix3 (0 : Fin 1) (0 : Fin 1) r) = Vr (ix3 (0 : Fin 1) (0 : Fin 1) r))
    (h3 : x3 (ix3 (0 : Fin 1) (0 : Fin 1) r) = G (ix3 (0 : Fin 1) (0 : Fin 1) r)) (h4 : x4 (ix3 (0 : Fin 1) (0 : Fin 1) r) = B (ix3 (0 : Fin 1) (0 : Fin 1) r))
    (hi : (i 2).val = r.val) :
    Gen.k2_pay1 x2 x0 x1 x3 x4 (ix3 p q r) = batchNorm64 H M Vr G B i := by
  rw [pay2_apply, h0, h1, h2, h3, h4]
  have e : (⟨(i 2).val, (i 2).isLt⟩ : Fin 64) = r := Fin.ext hi
  unfold batchNorm64
  rw [e]

/-- The block index maps over the grid: point t's activations and output blocks are row block t, each per-channel
    block is its whole array. -/
theorem idx2 : ∀ t : Fin cfg2.N,
      win2_0.index t (0 : Fin 3) = 0 ∧ win2_0.index t (1 : Fin 3) = t.val ∧ win2_0.index t (2 : Fin 3) = 0
    ∧ win2_1.index t (0 : Fin 3) = 0 ∧ win2_1.index t (1 : Fin 3) = 0 ∧ win2_1.index t (2 : Fin 3) = 0
    ∧ win2_2.index t (0 : Fin 3) = 0 ∧ win2_2.index t (1 : Fin 3) = 0 ∧ win2_2.index t (2 : Fin 3) = 0
    ∧ win2_3.index t (0 : Fin 3) = 0 ∧ win2_3.index t (1 : Fin 3) = 0 ∧ win2_3.index t (2 : Fin 3) = 0
    ∧ win2_4.index t (0 : Fin 3) = 0 ∧ win2_4.index t (1 : Fin 3) = 0 ∧ win2_4.index t (2 : Fin 3) = 0
    ∧ win2_5.index t (0 : Fin 3) = 0 ∧ win2_5.index t (1 : Fin 3) = t.val ∧ win2_5.index t (2 : Fin 3) = 0 :=
  (by decide +kernel : ∀ t : Fin grid2.N, _)

/-- A block given entry by entry as a function of the array's entries at the places point t's output block names is
    that function's block t, as the write-back reads it. -/
theorem block_read2 (t : Fin cfg2.N) (x : Vec Ideal S2x2000x64 .f32) (G : S2x50000x64.Idx → EReal)
    (h : ∀ (p : Fin 2) (q : Fin 2000) (r : Fin 64), x (ix3 p q r) = G (((cfg2.win 5).blk t).view.emb (ix3 p q r))) :
    (cfg2.win 5).cut (grid2.coords t) x = ((cfg2.win 5).blk t).view.read (Elt Ideal) G := by
  refine funext fun (j : S2x2000x64.Idx) => ?_
  obtain ⟨p, q, r, rfl⟩ : ∃ (p : Fin 2) (q : Fin 2000) (r : Fin 64), j = ix3 p q r := ⟨j 0, j 1, j 2, eq_ix3 j⟩
  exact h p q r

/-- Point t's activations block sits where its output block sits: the same rows of the array. -/
theorem read2_0 (c : Dev nD) (t : Fin cfg2.N) (p : Fin 2) (q : Fin 2000) (r : Fin 64) :
    (Gen.iblk2 V c 0 t : Vec Ideal S2x2000x64 .f32) (ix3 p q r)
      = (V c (Pipeline.arrRef spec2 0) : S2x50000x64.Idx → EReal) (((cfg2.win 5).blk t).view.emb (ix3 p q r)) := by
  obtain ⟨a0, a1, a2, b0, b1, b2, c0, c1, c2, d0, d1, d2, e0, e1, e2, f0, f1, f2⟩ := idx2 t
  show V c (Pipeline.arrRef spec2 0) (((cfg2.win 0).blk t).view.emb (ix3 p q r)) = V c (Pipeline.arrRef spec2 0) (((cfg2.win 5).blk t).view.emb (ix3 p q r))
  refine congrArg _ ?_
  funext a; apply Fin.ext
  match a with
  | ⟨0, _⟩ => show win2_0.index t (0 : Fin 3) * 2 + 1 * p.val = win2_5.index t (0 : Fin 3) * 2 + 1 * p.val; omega
  | ⟨1, _⟩ => show win2_0.index t (1 : Fin 3) * 2000 + 1 * q.val = win2_5.index t (1 : Fin 3) * 2000 + 1 * q.val; omega
  | ⟨2, _⟩ => show win2_0.index t (2 : Fin 3) * 64 + 1 * r.val = win2_5.index t (2 : Fin 3) * 64 + 1 * r.val; omega

/-- Point t's mean block is the whole mean array. -/
theorem read2_1 (c : Dev nD) (t : Fin cfg2.N) (r : Fin 64) :
    (Gen.iblk2 V c 1 t : Vec Ideal S1x1x64 .f32) (ix3 (0 : Fin 1) (0 : Fin 1) r)
      = (V c (Pipeline.arrRef spec2 1) : S1x1x64.Idx → EReal) (ix3 (0 : Fin 1) (0 : Fin 1) r) := by
  obtain ⟨a0, a1, a2, b0, b1, b2, c0, c1, c2, d0, d1, d2, e0, e1, e2, f0, f1, f2⟩ := idx2 t
  show V c (Pipeline.arrRef spec2 1) (((cfg2.win 1).blk t).view.emb (ix3 (0 : Fin 1) (0 : Fin 1) r)) = V c (Pipeline.arrRef spec2 1) (ix3 (0 : Fin 1) (0 : Fin 1) r)
  refine congrArg _ ?_
  funext a; apply Fin.ext
  match a with
  | ⟨0, _⟩ => show win2_1.index t (0 : Fin 3) * 1 + 1 * 0 = 0; omega
  | ⟨1, _⟩ => show win2_1.index t (1 : Fin 3) * 1 + 1 * 0 = 0; omega
  | ⟨2, _⟩ => show win2_1.index t (2 : Fin 3) * 64 + 1 * r.val = r.val; omega

/-- Point t's variance block is the whole variance array. -/
theorem read2_2 (c : Dev nD) (t : Fin cfg2.N) (r : Fin 64) :
    (Gen.iblk2 V c 2 t : Vec Ideal S1x1x64 .f32) (ix3 (0 : Fin 1) (0 : Fin 1) r)
      = (V c (Pipeline.arrRef spec2 2) : S1x1x64.Idx → EReal) (ix3 (0 : Fin 1) (0 : Fin 1) r) := by
  obtain ⟨a0, a1, a2, b0, b1, b2, c0, c1, c2, d0, d1, d2, e0, e1, e2, f0, f1, f2⟩ := idx2 t
  show V c (Pipeline.arrRef spec2 2) (((cfg2.win 2).blk t).view.emb (ix3 (0 : Fin 1) (0 : Fin 1) r)) = V c (Pipeline.arrRef spec2 2) (ix3 (0 : Fin 1) (0 : Fin 1) r)
  refine congrArg _ ?_
  funext a; apply Fin.ext
  match a with
  | ⟨0, _⟩ => show win2_2.index t (0 : Fin 3) * 1 + 1 * 0 = 0; omega
  | ⟨1, _⟩ => show win2_2.index t (1 : Fin 3) * 1 + 1 * 0 = 0; omega
  | ⟨2, _⟩ => show win2_2.index t (2 : Fin 3) * 64 + 1 * r.val = r.val; omega

/-- Point t's scale block is the whole scale array. -/
theorem read2_3 (c : Dev nD) (t : Fin cfg2.N) (r : Fin 64) :
    (Gen.iblk2 V c 3 t : Vec Ideal S1x1x64 .f32) (ix3 (0 : Fin 1) (0 : Fin 1) r)
      = (V c (Pipeline.arrRef spec2 3) : S1x1x64.Idx → EReal) (ix3 (0 : Fin 1) (0 : Fin 1) r) := by
  obtain ⟨a0, a1, a2, b0, b1, b2, c0, c1, c2, d0, d1, d2, e0, e1, e2, f0, f1, f2⟩ := idx2 t
  show V c (Pipeline.arrRef spec2 3) (((cfg2.win 3).blk t).view.emb (ix3 (0 : Fin 1) (0 : Fin 1) r)) = V c (Pipeline.arrRef spec2 3) (ix3 (0 : Fin 1) (0 : Fin 1) r)
  refine congrArg _ ?_
  funext a; apply Fin.ext
  match a with
  | ⟨0, _⟩ => show win2_3.index t (0 : Fin 3) * 1 + 1 * 0 = 0; omega
  | ⟨1, _⟩ => show win2_3.index t (1 : Fin 3) * 1 + 1 * 0 = 0; omega
  | ⟨2, _⟩ => show win2_3.index t (2 : Fin 3) * 64 + 1 * r.val = r.val; omega

/-- Point t's shift block is the whole shift array. -/
theorem read2_4 (c : Dev nD) (t : Fin cfg2.N) (r : Fin 64) :
    (Gen.iblk2 V c 4 t : Vec Ideal S1x1x64 .f32) (ix3 (0 : Fin 1) (0 : Fin 1) r)
      = (V c (Pipeline.arrRef spec2 4) : S1x1x64.Idx → EReal) (ix3 (0 : Fin 1) (0 : Fin 1) r) := by
  obtain ⟨a0, a1, a2, b0, b1, b2, c0, c1, c2, d0, d1, d2, e0, e1, e2, f0, f1, f2⟩ := idx2 t
  show V c (Pipeline.arrRef spec2 4) (((cfg2.win 4).blk t).view.emb (ix3 (0 : Fin 1) (0 : Fin 1) r)) = V c (Pipeline.arrRef spec2 4) (ix3 (0 : Fin 1) (0 : Fin 1) r)
  refine congrArg _ ?_
  funext a; apply Fin.ext
  match a with
  | ⟨0, _⟩ => show win2_4.index t (0 : Fin 3) * 1 + 1 * 0 = 0; omega
  | ⟨1, _⟩ => show win2_4.index t (1 : Fin 3) * 1 + 1 * 0 = 0; omega
  | ⟨2, _⟩ => show win2_4.index t (2 : Fin 3) * 64 + 1 * r.val = r.val; omega

/-- The channel coordinate of an entry of point t's output block is its channel inside the block. -/
theorem chan2 (t : Fin cfg2.N) (p : Fin 2) (q : Fin 2000) (r : Fin 64) :
    ((((cfg2.win 5).blk t).view.emb (ix3 p q r) : S2x50000x64.Idx) 2).val = r.val := by
  obtain ⟨a0, a1, a2, b0, b1, b2, c0, c1, c2, d0, d1, d2, e0, e1, e2, f0, f1, f2⟩ := idx2 t
  show win2_5.index t (2 : Fin 3) * 64 + 1 * r.val = r.val; omega

/-- What point t writes back is block t of the whole-array function of the region's input arrays. -/
theorem flushed2 (c : Dev nD) (t : Fin cfg2.N) :
    (Gen.dat2 (F := Ideal) V c).flushed 5 t
      = ((cfg2.win 5).blk t).view.read (Elt Ideal) (batchNorm64 (V c (Pipeline.arrRef spec2 0)) (V c (Pipeline.arrRef spec2 1))
          (V c (Pipeline.arrRef spec2 2)) (V c (Pipeline.arrRef spec2 3)) (V c (Pipeline.arrRef spec2 4))) := by
  show (cfg2.win 5).cut (grid2.coords t) ((Gen.dat2 (F := Ideal) V c).after 5 t) = _
  rw [Gen.after2_5]
  unfold Gen.out2_5
  rw [View.canon_unit_zero zero3n]
  simp only [View.ld_unit_zero (S := S2x2000x64) zero3n, View.ld_unit_zero (S := S1x1x64) zero3n]
  refine block_read2 t _ _ fun p q r => ?_
  exact point2 (V c (Pipeline.arrRef spec2 0)) (V c (Pipeline.arrRef spec2 1)) (V c (Pipeline.arrRef spec2 2))
    (V c (Pipeline.arrRef spec2 3)) (V c (Pipeline.arrRef spec2 4))
    (Gen.iblk2 V c 0 t) (Gen.iblk2 V c 1 t) (Gen.iblk2 V c 2 t) (Gen.iblk2 V c 3 t) (Gen.iblk2 V c 4 t) p q r
    (((cfg2.win 5).blk t).view.emb (ix3 p q r))
    (read2_0 V c t p q r) (read2_1 V c t r) (read2_2 V c t r) (read2_3 V c t r) (read2_4 V c t r) (chan2 t p q r)

/-- An index of the output array lies in point t's block iff each coordinate lies in the block's range on its axis. -/
theorem mem_blk2 (t : Fin cfg2.N) (i : S2x50000x64.Idx) :
    i ∈ ((cfg2.win 5).blk t).view.set ↔ ∀ a : Fin 3, win2_5.index t a * S2x2000x64.size a ≤ (i a).val ∧ (i a).val < win2_5.index t a * S2x2000x64.size a + S2x2000x64.size a := by
  show i ∈ ((View.whole main_v66).slice (win2_5.rect t)).set ↔ _
  rw [View.set_slice_whole, Rect.mem_set_unit]
  exact Iff.rfl

/-- Every index of the output array lies in some point's block: row n in block n / 2000. -/
theorem cover2 (i : S2x50000x64.Idx) : ∃ t : Fin cfg2.N, (cfg2.win 5).flush t = true ∧ i ∈ ((cfg2.win 5).blk t).view.set := by
  have hi0 : (i 0).val < 2 := (i 0).isLt
  have hi1 : (i 1).val < 50000 := (i 1).isLt
  have hi2 : (i 2).val < 64 := (i 2).isLt
  have hN : grid2.N = 25 := Gen.N_2
  have ht : (i 1).val / 2000 < cfg2.N := by show _ < grid2.N; rw [hN]; omega
  obtain ⟨a0, a1, a2, b0, b1, b2, c0, c1, c2, d0, d1, d2, e0, e1, e2, f0, f1, f2⟩ := idx2 ⟨(i 1).val / 2000, ht⟩
  refine ⟨⟨(i 1).val / 2000, ht⟩, Gen.flush2_5 _, ?_⟩
  rw [mem_blk2]
  intro a
  match a with
  | ⟨0, _⟩ => show win2_5.index ⟨(i 1).val / 2000, ht⟩ (0 : Fin 3) * 2 ≤ (i 0).val ∧ (i 0).val < win2_5.index ⟨(i 1).val / 2000, ht⟩ (0 : Fin 3) * 2 + 2; omega
  | ⟨1, _⟩ => show win2_5.index ⟨(i 1).val / 2000, ht⟩ (1 : Fin 3) * 2000 ≤ (i 1).val ∧ (i 1).val < win2_5.index ⟨(i 1).val / 2000, ht⟩ (1 : Fin 3) * 2000 + 2000; rw [f1]; show (i 1).val / 2000 * 2000 ≤ (i 1).val ∧ (i 1).val < (i 1).val / 2000 * 2000 + 2000; omega
  | ⟨2, _⟩ => show win2_5.index ⟨(i 1).val / 2000, ht⟩ (2 : Fin 3) * 64 ≤ (i 2).val ∧ (i 2).val < win2_5.index ⟨(i 1).val / 2000, ht⟩ (2 : Fin 3) * 64 + 64; omega

/-- The output array of the region after its 25 points, as one function of the region's five input arrays. -/
theorem final2 (c : Dev nD) :
    (Gen.dat2 (F := Ideal) V c).arrAt 5 cfg2.N = batchNorm64 (V c (Pipeline.arrRef spec2 0)) (V c (Pipeline.arrRef spec2 1))
      (V c (Pipeline.arrRef spec2 2)) (V c (Pipeline.arrRef spec2 3)) (V c (Pipeline.arrRef spec2 4)) :=
  (Gen.dat2 (F := Ideal) V c).arrAt_eq_of_cover 5 _ (fun t _ => flushed2 V c t) cover2

/-- Entry (b, n, ch) of the region's output, from the activations and the four per-channel arrays (mean, variance, scale, shift). -/
theorem bn2_value (c : Dev nD) (b : Fin 2) (n : Fin 50000) (ch : Fin 64) :
    (Gen.dat2 (F := Ideal) V c).arrAt 5 cfg2.N (ix3 b n ch)
      = @HAdd.hAdd EReal EReal EReal instHAdd
          (@HMul.hMul EReal EReal EReal instHMul
            (@HMul.hMul EReal EReal EReal instHMul
              (@HSub.hSub EReal EReal EReal instHSub ((V c (Pipeline.arrRef spec2 0) : S2x50000x64.Idx → EReal) (ix3 b n ch))
                ((V c (Pipeline.arrRef spec2 1) : S1x1x64.Idx → EReal) (ix3 (0 : Fin 1) (0 : Fin 1) ch)))
              (Ideal.rsqrt (@HAdd.hAdd EReal EReal EReal instHAdd ((V c (Pipeline.arrRef spec2 2) : S1x1x64.Idx → EReal) (ix3 (0 : Fin 1) (0 : Fin 1) ch))
                (Ideal.ofBits .f32 0x3727C5AC#32))))
            ((V c (Pipeline.arrRef spec2 3) : S1x1x64.Idx → EReal) (ix3 (0 : Fin 1) (0 : Fin 1) ch)))
          ((V c (Pipeline.arrRef spec2 4) : S1x1x64.Idx → EReal) (ix3 (0 : Fin 1) (0 : Fin 1) ch)) := by
  rw [final2]; rfl

/-- The same with the input arrays named. -/
theorem bn2_value_of (c : Dev nD) (H : S2x50000x64.Idx → EReal) (P1 P2 P3 P4 : S1x1x64.Idx → EReal)
    (hH : H = V c (Pipeline.arrRef spec2 0)) (hP1 : P1 = V c (Pipeline.arrRef spec2 1)) (hP2 : P2 = V c (Pipeline.arrRef spec2 2))
    (hP3 : P3 = V c (Pipeline.arrRef spec2 3)) (hP4 : P4 = V c (Pipeline.arrRef spec2 4)) (b : Fin 2) (n : Fin 50000) (ch : Fin 64) :
    (Gen.dat2 (F := Ideal) V c).arrAt 5 cfg2.N (ix3 b n ch)
      = ((H (ix3 b n ch) - P1 (ix3 (0 : Fin 1) (0 : Fin 1) ch)) * Ideal.rsqrt (P2 (ix3 (0 : Fin 1) (0 : Fin 1) ch) + Ideal.ofBits .f32 0x3727C5AC#32)) * P3 (ix3 (0 : Fin 1) (0 : Fin 1) ch)
        + P4 (ix3 (0 : Fin 1) (0 : Fin 1) ch) := by
  subst hH hP1 hP2 hP3 hP4; exact bn2_value V c b n ch

/-- The region's windows are the arrays of these buffers. -/
theorem arr2 : Pipeline.arrRef spec2 0 = main_v58_1 ∧ Pipeline.arrRef spec2 1 = main_v62 ∧ Pipeline.arrRef spec2 2 = main_v63
    ∧ Pipeline.arrRef spec2 3 = main_v64 ∧ Pipeline.arrRef spec2 4 = main_v65 ∧ Pipeline.arrRef spec2 5 = main_v66 :=
  ⟨rfl, rfl, rfl, rfl, rfl, rfl⟩

/-! # The batch-norm normalize region with 8 channels (region 5) -/

/-- Normalizing over the whole array: entry (b, n, ch) of the activations less the channel's mean, times the reciprocal
    square root of the channel's variance plus the small constant, times the channel's scale, plus the channel's shift. -/
def batchNorm8 (H : S2x50000x8.Idx → EReal) (M Vr G B : S1x1x8.Idx → EReal) : S2x50000x8.Idx → EReal :=
  fun i => ((H i - M (ix3 (0 : Fin 1) (0 : Fin 1) (⟨(i 2).val, (i 2).isLt⟩ : Fin 8)))
      * Ideal.rsqrt (Vr (ix3 (0 : Fin 1) (0 : Fin 1) (⟨(i 2).val, (i 2).isLt⟩ : Fin 8)) + Ideal.ofBits .f32 0x3727C5AC#32))
      * G (ix3 (0 : Fin 1) (0 : Fin 1) (⟨(i 2).val, (i 2).isLt⟩ : Fin 8))
    + B (ix3 (0 : Fin 1) (0 : Fin 1) (⟨(i 2).val, (i 2).isLt⟩ : Fin 8))

/-- The stored block at (p, q, r), from the loaded blocks: the variance block first, then the activations, the mean, the
    scale and the shift. -/
theorem pay5_apply (xv : Vec Ideal S1x1x8 .f32) (xh : Vec Ideal S2x2000x8 .f32) (xm xg xb : Vec Ideal S1x1x8 .f32)
    (p : Fin 2) (q : Fin 2000) (r : Fin 8) :
    Gen.k5_pay1 xv xh xm xg xb (ix3 p q r)
      = ((xh (ix3 p q r) - xm (ix3 (0 : Fin 1) (0 : Fin 1) r)) * Ideal.rsqrt (xv (ix3 (0 : Fin 1) (0 : Fin 1) r) + Ideal.ofBits .f32 0x3727C5AC#32)) * xg (ix3 (0 : Fin 1) (0 : Fin 1) r)
        + xb (ix3 (0 : Fin 1) (0 : Fin 1) r) := by
  unfold Gen.k5_pay1
  simp only [shapeCast_self]
  refine (addf_apply _ _ _).trans ?_
  rw [Cert.LibBroadcast3.broadcastTo_11c_abc_apply]
  refine congrArg (· + xb (ix3 (0 : Fin 1) (0 : Fin 1) r)) ?_
  refine (mulf_apply _ _ _).trans ?_
  rw [Cert.LibBroadcast3.broadcastTo_11c_abc_apply]
  refine congrArg (· * xg (ix3 (0 : Fin 1) (0 : Fin 1) r)) ?_
  refine (mulf_apply _ _ _).trans ?_
  rw [Cert.LibBroadcast3.broadcastTo_11c_abc_apply]
  refine congrArg₂ (· * ·) ?_ rfl
  refine (subf_apply _ _ _).trans ?_
  rw [Cert.LibBroadcast3.broadcastTo_11c_abc_apply]

/-- The stored block's entry is the whole-array function at an index i, once the loaded blocks are read off the arrays at
    the places i names. -/
theorem point5 (H : S2x50000x8.Idx → EReal) (M Vr G B : S1x1x8.Idx → EReal)
    (x0 : Vec Ideal S2x2000x8 .f32) (x1 x2 x3 x4 : Vec Ideal S1x1x8 .f32)
    (p : Fin 2) (q : Fin 2000) (r : Fin 8) (i : S2x50000x8.Idx)
    (h0 : x0 (ix3 p q r) = H i)
    (h1 : x1 (ix3 (0 : Fin 1) (0 : Fin 1) r) = M (ix3 (0 : Fin 1) (0 : Fin 1) r)) (h2 : x2 (ix3 (0 : Fin 1) (0 : Fin 1) r) = Vr (ix3 (0 : Fin 1) (0 : Fin 1) r))
    (h3 : x3 (ix3 (0 : Fin 1) (0 : Fin 1) r) = G (ix3 (0 : Fin 1) (0 : Fin 1) r)) (h4 : x4 (ix3 (0 : Fin 1) (0 : Fin 1) r) = B (ix3 (0 : Fin 1) (0 : Fin 1) r))
    (hi : (i 2).val = r.val) :
    Gen.k5_pay1 x2 x0 x1 x3 x4 (ix3 p q r) = batchNorm8 H M Vr G B i := by
  rw [pay5_apply, h0, h1, h2, h3, h4]
  have e : (⟨(i 2).val, (i 2).isLt⟩ : Fin 8) = r := Fin.ext hi
  unfold batchNorm8
  rw [e]

/-- The block index maps over the grid: point t's activations and output blocks are row block t, each per-channel
    block is its whole array. -/
theorem idx5 : ∀ t : Fin cfg5.N,
      win5_0.index t (0 : Fin 3) = 0 ∧ win5_0.index t (1 : Fin 3) = t.val ∧ win5_0.index t (2 : Fin 3) = 0
    ∧ win5_1.index t (0 : Fin 3) = 0 ∧ win5_1.index t (1 : Fin 3) = 0 ∧ win5_1.index t (2 : Fin 3) = 0
    ∧ win5_2.index t (0 : Fin 3) = 0 ∧ win5_2.index t (1 : Fin 3) = 0 ∧ win5_2.index t (2 : Fin 3) = 0
    ∧ win5_3.index t (0 : Fin 3) = 0 ∧ win5_3.index t (1 : Fin 3) = 0 ∧ win5_3.index t (2 : Fin 3) = 0
    ∧ win5_4.index t (0 : Fin 3) = 0 ∧ win5_4.index t (1 : Fin 3) = 0 ∧ win5_4.index t (2 : Fin 3) = 0
    ∧ win5_5.index t (0 : Fin 3) = 0 ∧ win5_5.index t (1 : Fin 3) = t.val ∧ win5_5.index t (2 : Fin 3) = 0 :=
  (by decide +kernel : ∀ t : Fin grid5.N, _)

/-- A block given entry by entry as a function of the array's entries at the places point t's output block names is
    that function's block t, as the write-back reads it. -/
theorem block_read5 (t : Fin cfg5.N) (x : Vec Ideal S2x2000x8 .f32) (G : S2x50000x8.Idx → EReal)
    (h : ∀ (p : Fin 2) (q : Fin 2000) (r : Fin 8), x (ix3 p q r) = G (((cfg5.win 5).blk t).view.emb (ix3 p q r))) :
    (cfg5.win 5).cut (grid5.coords t) x = ((cfg5.win 5).blk t).view.read (Elt Ideal) G := by
  refine funext fun (j : S2x2000x8.Idx) => ?_
  obtain ⟨p, q, r, rfl⟩ : ∃ (p : Fin 2) (q : Fin 2000) (r : Fin 8), j = ix3 p q r := ⟨j 0, j 1, j 2, eq_ix3 j⟩
  exact h p q r

/-- Point t's activations block sits where its output block sits: the same rows of the array. -/
theorem read5_0 (c : Dev nD) (t : Fin cfg5.N) (p : Fin 2) (q : Fin 2000) (r : Fin 8) :
    (Gen.iblk5 V c 0 t : Vec Ideal S2x2000x8 .f32) (ix3 p q r)
      = (V c (Pipeline.arrRef spec5 0) : S2x50000x8.Idx → EReal) (((cfg5.win 5).blk t).view.emb (ix3 p q r)) := by
  obtain ⟨a0, a1, a2, b0, b1, b2, c0, c1, c2, d0, d1, d2, e0, e1, e2, f0, f1, f2⟩ := idx5 t
  show V c (Pipeline.arrRef spec5 0) (((cfg5.win 0).blk t).view.emb (ix3 p q r)) = V c (Pipeline.arrRef spec5 0) (((cfg5.win 5).blk t).view.emb (ix3 p q r))
  refine congrArg _ ?_
  funext a; apply Fin.ext
  match a with
  | ⟨0, _⟩ => show win5_0.index t (0 : Fin 3) * 2 + 1 * p.val = win5_5.index t (0 : Fin 3) * 2 + 1 * p.val; omega
  | ⟨1, _⟩ => show win5_0.index t (1 : Fin 3) * 2000 + 1 * q.val = win5_5.index t (1 : Fin 3) * 2000 + 1 * q.val; omega
  | ⟨2, _⟩ => show win5_0.index t (2 : Fin 3) * 8 + 1 * r.val = win5_5.index t (2 : Fin 3) * 8 + 1 * r.val; omega

/-- Point t's mean block is the whole mean array. -/
theorem read5_1 (c : Dev nD) (t : Fin cfg5.N) (r : Fin 8) :
    (Gen.iblk5 V c 1 t : Vec Ideal S1x1x8 .f32) (ix3 (0 : Fin 1) (0 : Fin 1) r)
      = (V c (Pipeline.arrRef spec5 1) : S1x1x8.Idx → EReal) (ix3 (0 : Fin 1) (0 : Fin 1) r) := by
  obtain ⟨a0, a1, a2, b0, b1, b2, c0, c1, c2, d0, d1, d2, e0, e1, e2, f0, f1, f2⟩ := idx5 t
  show V c (Pipeline.arrRef spec5 1) (((cfg5.win 1).blk t).view.emb (ix3 (0 : Fin 1) (0 : Fin 1) r)) = V c (Pipeline.arrRef spec5 1) (ix3 (0 : Fin 1) (0 : Fin 1) r)
  refine congrArg _ ?_
  funext a; apply Fin.ext
  match a with
  | ⟨0, _⟩ => show win5_1.index t (0 : Fin 3) * 1 + 1 * 0 = 0; omega
  | ⟨1, _⟩ => show win5_1.index t (1 : Fin 3) * 1 + 1 * 0 = 0; omega
  | ⟨2, _⟩ => show win5_1.index t (2 : Fin 3) * 8 + 1 * r.val = r.val; omega

/-- Point t's variance block is the whole variance array. -/
theorem read5_2 (c : Dev nD) (t : Fin cfg5.N) (r : Fin 8) :
    (Gen.iblk5 V c 2 t : Vec Ideal S1x1x8 .f32) (ix3 (0 : Fin 1) (0 : Fin 1) r)
      = (V c (Pipeline.arrRef spec5 2) : S1x1x8.Idx → EReal) (ix3 (0 : Fin 1) (0 : Fin 1) r) := by
  obtain ⟨a0, a1, a2, b0, b1, b2, c0, c1, c2, d0, d1, d2, e0, e1, e2, f0, f1, f2⟩ := idx5 t
  show V c (Pipeline.arrRef spec5 2) (((cfg5.win 2).blk t).view.emb (ix3 (0 : Fin 1) (0 : Fin 1) r)) = V c (Pipeline.arrRef spec5 2) (ix3 (0 : Fin 1) (0 : Fin 1) r)
  refine congrArg _ ?_
  funext a; apply Fin.ext
  match a with
  | ⟨0, _⟩ => show win5_2.index t (0 : Fin 3) * 1 + 1 * 0 = 0; omega
  | ⟨1, _⟩ => show win5_2.index t (1 : Fin 3) * 1 + 1 * 0 = 0; omega
  | ⟨2, _⟩ => show win5_2.index t (2 : Fin 3) * 8 + 1 * r.val = r.val; omega

/-- Point t's scale block is the whole scale array. -/
theorem read5_3 (c : Dev nD) (t : Fin cfg5.N) (r : Fin 8) :
    (Gen.iblk5 V c 3 t : Vec Ideal S1x1x8 .f32) (ix3 (0 : Fin 1) (0 : Fin 1) r)
      = (V c (Pipeline.arrRef spec5 3) : S1x1x8.Idx → EReal) (ix3 (0 : Fin 1) (0 : Fin 1) r) := by
  obtain ⟨a0, a1, a2, b0, b1, b2, c0, c1, c2, d0, d1, d2, e0, e1, e2, f0, f1, f2⟩ := idx5 t
  show V c (Pipeline.arrRef spec5 3) (((cfg5.win 3).blk t).view.emb (ix3 (0 : Fin 1) (0 : Fin 1) r)) = V c (Pipeline.arrRef spec5 3) (ix3 (0 : Fin 1) (0 : Fin 1) r)
  refine congrArg _ ?_
  funext a; apply Fin.ext
  match a with
  | ⟨0, _⟩ => show win5_3.index t (0 : Fin 3) * 1 + 1 * 0 = 0; omega
  | ⟨1, _⟩ => show win5_3.index t (1 : Fin 3) * 1 + 1 * 0 = 0; omega
  | ⟨2, _⟩ => show win5_3.index t (2 : Fin 3) * 8 + 1 * r.val = r.val; omega

/-- Point t's shift block is the whole shift array. -/
theorem read5_4 (c : Dev nD) (t : Fin cfg5.N) (r : Fin 8) :
    (Gen.iblk5 V c 4 t : Vec Ideal S1x1x8 .f32) (ix3 (0 : Fin 1) (0 : Fin 1) r)
      = (V c (Pipeline.arrRef spec5 4) : S1x1x8.Idx → EReal) (ix3 (0 : Fin 1) (0 : Fin 1) r) := by
  obtain ⟨a0, a1, a2, b0, b1, b2, c0, c1, c2, d0, d1, d2, e0, e1, e2, f0, f1, f2⟩ := idx5 t
  show V c (Pipeline.arrRef spec5 4) (((cfg5.win 4).blk t).view.emb (ix3 (0 : Fin 1) (0 : Fin 1) r)) = V c (Pipeline.arrRef spec5 4) (ix3 (0 : Fin 1) (0 : Fin 1) r)
  refine congrArg _ ?_
  funext a; apply Fin.ext
  match a with
  | ⟨0, _⟩ => show win5_4.index t (0 : Fin 3) * 1 + 1 * 0 = 0; omega
  | ⟨1, _⟩ => show win5_4.index t (1 : Fin 3) * 1 + 1 * 0 = 0; omega
  | ⟨2, _⟩ => show win5_4.index t (2 : Fin 3) * 8 + 1 * r.val = r.val; omega

/-- The channel coordinate of an entry of point t's output block is its channel inside the block. -/
theorem chan5 (t : Fin cfg5.N) (p : Fin 2) (q : Fin 2000) (r : Fin 8) :
    ((((cfg5.win 5).blk t).view.emb (ix3 p q r) : S2x50000x8.Idx) 2).val = r.val := by
  obtain ⟨a0, a1, a2, b0, b1, b2, c0, c1, c2, d0, d1, d2, e0, e1, e2, f0, f1, f2⟩ := idx5 t
  show win5_5.index t (2 : Fin 3) * 8 + 1 * r.val = r.val; omega

/-- What point t writes back is block t of the whole-array function of the region's input arrays. -/
theorem flushed5 (c : Dev nD) (t : Fin cfg5.N) :
    (Gen.dat5 (F := Ideal) V c).flushed 5 t
      = ((cfg5.win 5).blk t).view.read (Elt Ideal) (batchNorm8 (V c (Pipeline.arrRef spec5 0)) (V c (Pipeline.arrRef spec5 1))
          (V c (Pipeline.arrRef spec5 2)) (V c (Pipeline.arrRef spec5 3)) (V c (Pipeline.arrRef spec5 4))) := by
  show (cfg5.win 5).cut (grid5.coords t) ((Gen.dat5 (F := Ideal) V c).after 5 t) = _
  rw [Gen.after5_5]
  unfold Gen.out5_5
  rw [View.canon_unit_zero zero3n]
  simp only [View.ld_unit_zero (S := S2x2000x8) zero3n, View.ld_unit_zero (S := S1x1x8) zero3n]
  refine block_read5 t _ _ fun p q r => ?_
  exact point5 (V c (Pipeline.arrRef spec5 0)) (V c (Pipeline.arrRef spec5 1)) (V c (Pipeline.arrRef spec5 2))
    (V c (Pipeline.arrRef spec5 3)) (V c (Pipeline.arrRef spec5 4))
    (Gen.iblk5 V c 0 t) (Gen.iblk5 V c 1 t) (Gen.iblk5 V c 2 t) (Gen.iblk5 V c 3 t) (Gen.iblk5 V c 4 t) p q r
    (((cfg5.win 5).blk t).view.emb (ix3 p q r))
    (read5_0 V c t p q r) (read5_1 V c t r) (read5_2 V c t r) (read5_3 V c t r) (read5_4 V c t r) (chan5 t p q r)

/-- An index of the output array lies in point t's block iff each coordinate lies in the block's range on its axis. -/
theorem mem_blk5 (t : Fin cfg5.N) (i : S2x50000x8.Idx) :
    i ∈ ((cfg5.win 5).blk t).view.set ↔ ∀ a : Fin 3, win5_5.index t a * S2x2000x8.size a ≤ (i a).val ∧ (i a).val < win5_5.index t a * S2x2000x8.size a + S2x2000x8.size a := by
  show i ∈ ((View.whole main_v97).slice (win5_5.rect t)).set ↔ _
  rw [View.set_slice_whole, Rect.mem_set_unit]
  exact Iff.rfl

/-- Every index of the output array lies in some point's block: row n in block n / 2000. -/
theorem cover5 (i : S2x50000x8.Idx) : ∃ t : Fin cfg5.N, (cfg5.win 5).flush t = true ∧ i ∈ ((cfg5.win 5).blk t).view.set := by
  have hi0 : (i 0).val < 2 := (i 0).isLt
  have hi1 : (i 1).val < 50000 := (i 1).isLt
  have hi2 : (i 2).val < 8 := (i 2).isLt
  have hN : grid5.N = 25 := Gen.N_5
  have ht : (i 1).val / 2000 < cfg5.N := by show _ < grid5.N; rw [hN]; omega
  obtain ⟨a0, a1, a2, b0, b1, b2, c0, c1, c2, d0, d1, d2, e0, e1, e2, f0, f1, f2⟩ := idx5 ⟨(i 1).val / 2000, ht⟩
  refine ⟨⟨(i 1).val / 2000, ht⟩, Gen.flush5_5 _, ?_⟩
  rw [mem_blk5]
  intro a
  match a with
  | ⟨0, _⟩ => show win5_5.index ⟨(i 1).val / 2000, ht⟩ (0 : Fin 3) * 2 ≤ (i 0).val ∧ (i 0).val < win5_5.index ⟨(i 1).val / 2000, ht⟩ (0 : Fin 3) * 2 + 2; omega
  | ⟨1, _⟩ => show win5_5.index ⟨(i 1).val / 2000, ht⟩ (1 : Fin 3) * 2000 ≤ (i 1).val ∧ (i 1).val < win5_5.index ⟨(i 1).val / 2000, ht⟩ (1 : Fin 3) * 2000 + 2000; rw [f1]; show (i 1).val / 2000 * 2000 ≤ (i 1).val ∧ (i 1).val < (i 1).val / 2000 * 2000 + 2000; omega
  | ⟨2, _⟩ => show win5_5.index ⟨(i 1).val / 2000, ht⟩ (2 : Fin 3) * 8 ≤ (i 2).val ∧ (i 2).val < win5_5.index ⟨(i 1).val / 2000, ht⟩ (2 : Fin 3) * 8 + 8; omega

/-- The output array of the region after its 25 points, as one function of the region's five input arrays. -/
theorem final5 (c : Dev nD) :
    (Gen.dat5 (F := Ideal) V c).arrAt 5 cfg5.N = batchNorm8 (V c (Pipeline.arrRef spec5 0)) (V c (Pipeline.arrRef spec5 1))
      (V c (Pipeline.arrRef spec5 2)) (V c (Pipeline.arrRef spec5 3)) (V c (Pipeline.arrRef spec5 4)) :=
  (Gen.dat5 (F := Ideal) V c).arrAt_eq_of_cover 5 _ (fun t _ => flushed5 V c t) cover5

/-- Entry (b, n, ch) of the region's output, from the activations and the four per-channel arrays (mean, variance, scale, shift). -/
theorem bn5_value (c : Dev nD) (b : Fin 2) (n : Fin 50000) (ch : Fin 8) :
    (Gen.dat5 (F := Ideal) V c).arrAt 5 cfg5.N (ix3 b n ch)
      = @HAdd.hAdd EReal EReal EReal instHAdd
          (@HMul.hMul EReal EReal EReal instHMul
            (@HMul.hMul EReal EReal EReal instHMul
              (@HSub.hSub EReal EReal EReal instHSub ((V c (Pipeline.arrRef spec5 0) : S2x50000x8.Idx → EReal) (ix3 b n ch))
                ((V c (Pipeline.arrRef spec5 1) : S1x1x8.Idx → EReal) (ix3 (0 : Fin 1) (0 : Fin 1) ch)))
              (Ideal.rsqrt (@HAdd.hAdd EReal EReal EReal instHAdd ((V c (Pipeline.arrRef spec5 2) : S1x1x8.Idx → EReal) (ix3 (0 : Fin 1) (0 : Fin 1) ch))
                (Ideal.ofBits .f32 0x3727C5AC#32))))
            ((V c (Pipeline.arrRef spec5 3) : S1x1x8.Idx → EReal) (ix3 (0 : Fin 1) (0 : Fin 1) ch)))
          ((V c (Pipeline.arrRef spec5 4) : S1x1x8.Idx → EReal) (ix3 (0 : Fin 1) (0 : Fin 1) ch)) := by
  rw [final5]; rfl

/-- The same with the input arrays named. -/
theorem bn5_value_of (c : Dev nD) (H : S2x50000x8.Idx → EReal) (P1 P2 P3 P4 : S1x1x8.Idx → EReal)
    (hH : H = V c (Pipeline.arrRef spec5 0)) (hP1 : P1 = V c (Pipeline.arrRef spec5 1)) (hP2 : P2 = V c (Pipeline.arrRef spec5 2))
    (hP3 : P3 = V c (Pipeline.arrRef spec5 3)) (hP4 : P4 = V c (Pipeline.arrRef spec5 4)) (b : Fin 2) (n : Fin 50000) (ch : Fin 8) :
    (Gen.dat5 (F := Ideal) V c).arrAt 5 cfg5.N (ix3 b n ch)
      = ((H (ix3 b n ch) - P1 (ix3 (0 : Fin 1) (0 : Fin 1) ch)) * Ideal.rsqrt (P2 (ix3 (0 : Fin 1) (0 : Fin 1) ch) + Ideal.ofBits .f32 0x3727C5AC#32)) * P3 (ix3 (0 : Fin 1) (0 : Fin 1) ch)
        + P4 (ix3 (0 : Fin 1) (0 : Fin 1) ch) := by
  subst hH hP1 hP2 hP3 hP4; exact bn5_value V c b n ch

/-- The region's windows are the arrays of these buffers. -/
theorem arr5 : Pipeline.arrRef spec5 0 = main_v89_1 ∧ Pipeline.arrRef spec5 1 = main_v93 ∧ Pipeline.arrRef spec5 2 = main_v94
    ∧ Pipeline.arrRef spec5 3 = main_v95 ∧ Pipeline.arrRef spec5 4 = main_v96 ∧ Pipeline.arrRef spec5 5 = main_v97 :=
  ⟨rfl, rfl, rfl, rfl, rfl, rfl⟩

end Cert.KernelIdeal.RegionValue

end
-- ==== Proof.StepsLayout.lean ====
/-
  The layout operations of the two programs, read through "this array holds that feature map".

  Reshapes keep the row-major position: dropping or adding the leading unit axis keeps `(b, n, c)`; flattening the
  `(batch, node)` axes sends `(b, n)` to row `b · 50000 + n`. A broadcast reads its operand at the coordinates it keeps: the
  edge weights are spread over batch and channel, a per-channel vector over batch and node, a scalar everywhere. The
  transposition exchanging the node and channel axes turns the layout `[2, 50000, C]` into `[2, C, 50000]` and back.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«172352_j22454089024045_1_alg».proof.Proof.Steps

noncomputable section

namespace Cert.GcnSteps

open Idealize.ShloMosaic Idealize.ShloMosaic.ValueIdx Cert.GcnSpec

variable {C : Nat} {α : Type}

/-! ### Reshapes -/

/-- Dropping the leading unit axis. -/
theorem isK_of_dropUnit (X : (⟨4, ![1, 2, 50000, C]⟩ : Shape).Idx → EReal) (H : Feat C) (hX : IsR X H)
    (p : (⟨4, ![1, 2, 50000, C]⟩ : Shape).ShapeCasts ⟨3, ![2, 50000, C]⟩) :
    IsK (shapeCast ⟨3, ![2, 50000, C]⟩ X p) H := fun b n c => by
  rw [shapeCast_1abc_abc_apply X p b n c]; exact hX b n c

/-- Flattening the `(batch, node)` axes into rows. -/
theorem isRows_of_flatten (X : (⟨3, ![2, 50000, C]⟩ : Shape).Idx → EReal) (H : Feat C) (hX : IsK X H)
    (p : (⟨3, ![2, 50000, C]⟩ : Shape).ShapeCasts ⟨2, ![100000, C]⟩) :
    IsRows (shapeCast ⟨2, ![100000, C]⟩ X p) H := fun b n c => by
  rw [shapeCast_apply X p (ix2 (flatRow b n) c) (ix3 b n c) (by
    rw [Shape.rowMajor_val_three, Shape.rowMajor_val_two]; rfl)]
  exact hX b n c

/-- Unflattening the rows into `(batch, node)`. -/
theorem isK_of_unflatten (Y : (⟨2, ![100000, C]⟩ : Shape).Idx → EReal) (H : Feat C) (hY : IsRows Y H)
    (p : (⟨2, ![100000, C]⟩ : Shape).ShapeCasts ⟨3, ![2, 50000, C]⟩) :
    IsK (shapeCast ⟨3, ![2, 50000, C]⟩ Y p) H := fun b n c => by
  rw [shapeCast_apply Y p (ix3 b n c) (ix2 (flatRow b n) c) (by
    rw [Shape.rowMajor_val_three, Shape.rowMajor_val_two]; rfl)]
  exact hY b n c

/-- A per-channel vector reshaped to `[1, 1, C]`. -/
theorem vec_to_11c (v : (⟨1, ![C]⟩ : Shape).Idx → α) (p : (⟨1, ![C]⟩ : Shape).ShapeCasts ⟨3, ![1, 1, C]⟩) (c : Fin C) :
    shapeCast ⟨3, ![1, 1, C]⟩ v p (ix3 (0 : Fin 1) (0 : Fin 1) c) = v (ix1 c) :=
  shapeCast_apply v p _ _ (by rw [Shape.rowMajor_val_three, Shape.rowMajor_val_one]; show c.val = (0 * 1 + 0) * C + c.val; omega)

/-! ### Broadcasts -/

/-- A scalar spread over any shape. -/
theorem splat_apply {T : Shape} (p : (⟨0, ![]⟩ : Shape).BroadcastsInDim T ![]) (x : (⟨0, ![]⟩ : Shape).Idx → α) (j : T.Idx) :
    broadcastInDim T ![] p x j = x ix0 := broadcastInDim_scalar_apply p x j

/-- The edge weights spread over batch and channel, layout `[2, 850000, C]`. -/
theorem weights3_apply (w : (⟨1, ![850000]⟩ : Shape).Idx → α)
    (p1 : (⟨1, ![850000]⟩ : Shape).BroadcastsInDim ⟨3, ![1, 850000, 1]⟩ ![1])
    (p2 : (⟨3, ![1, 850000, 1]⟩ : Shape).BroadcastsInDim ⟨3, ![2, 850000, C]⟩ ![0, 1, 2])
    (b : Fin 2) (e : Fin 850000) (c : Fin C) :
    broadcastInDim ⟨3, ![2, 850000, C]⟩ ![0, 1, 2] p2 (broadcastInDim ⟨3, ![1, 850000, 1]⟩ ![1] p1 w) (ix3 b e c) = w (ix1 e) := by
  rw [broadcastInDim_apply ![0, 1, 2] p2 _ (ix3 b e c) (ix3 (0 : Fin 1) e (0 : Fin 1)) (by
    intro a; match a with
    | ⟨0, _⟩ => rfl
    | ⟨1, _⟩ => rfl
    | ⟨2, _⟩ => rfl)]
  exact broadcastInDim_apply ![1] p1 w (ix3 (0 : Fin 1) e (0 : Fin 1)) (ix1 e) (by
    intro a; match a with
    | ⟨0, _⟩ => rfl)

/-- The edge weights spread over batch and channel, layout `[1, 2, 850000, C]`. -/
theorem weights4_apply (w : (⟨1, ![850000]⟩ : Shape).Idx → α)
    (p1 : (⟨1, ![850000]⟩ : Shape).BroadcastsInDim ⟨4, ![1, 1, 850000, 1]⟩ ![2])
    (p2 : (⟨4, ![1, 1, 850000, 1]⟩ : Shape).BroadcastsInDim ⟨4, ![1, 2, 850000, C]⟩ ![0, 1, 2, 3])
    (b : Fin 2) (e : Fin 850000) (c : Fin C) :
    broadcastInDim ⟨4, ![1, 2, 850000, C]⟩ ![0, 1, 2, 3] p2 (broadcastInDim ⟨4, ![1, 1, 850000, 1]⟩ ![2] p1 w)
      (ix4 (0 : Fin 1) b e c) = w (ix1 e) := by
  rw [broadcastInDim_apply ![0, 1, 2, 3] p2 _ (ix4 (0 : Fin 1) b e c) (ix4 (0 : Fin 1) (0 : Fin 1) e (0 : Fin 1)) (by
    intro a; match a with
    | ⟨0, _⟩ => rfl
    | ⟨1, _⟩ => rfl
    | ⟨2, _⟩ => rfl
    | ⟨3, _⟩ => rfl)]
  exact broadcastInDim_apply ![2] p1 w (ix4 (0 : Fin 1) (0 : Fin 1) e (0 : Fin 1)) (ix1 e) (by
    intro a; match a with
    | ⟨0, _⟩ => rfl)

/-- A per-channel vector spread over batch and node, layout `[1, 2, 50000, C]`. -/
theorem chan4_apply (v : (⟨1, ![C]⟩ : Shape).Idx → α)
    (p1 : (⟨1, ![C]⟩ : Shape).BroadcastsInDim ⟨4, ![1, 1, 1, C]⟩ ![3])
    (p2 : (⟨4, ![1, 1, 1, C]⟩ : Shape).BroadcastsInDim ⟨4, ![1, 2, 50000, C]⟩ ![0, 1, 2, 3])
    (b : Fin 2) (n : Fin 50000) (c : Fin C) :
    broadcastInDim ⟨4, ![1, 2, 50000, C]⟩ ![0, 1, 2, 3] p2 (broadcastInDim ⟨4, ![1, 1, 1, C]⟩ ![3] p1 v)
      (ix4 (0 : Fin 1) b n c) = v (ix1 c) := by
  rw [broadcastInDim_apply ![0, 1, 2, 3] p2 _ (ix4 (0 : Fin 1) b n c) (ix4 (0 : Fin 1) (0 : Fin 1) (0 : Fin 1) c) (by
    intro a; match a with
    | ⟨0, _⟩ => rfl
    | ⟨1, _⟩ => rfl
    | ⟨2, _⟩ => rfl
    | ⟨3, _⟩ => (show c.val = if C = 1 then 0 else c.val; split_ifs <;> omega))]
  exact broadcastInDim_apply ![3] p1 v (ix4 (0 : Fin 1) (0 : Fin 1) (0 : Fin 1) c) (ix1 c) (by
    intro a; match a with
    | ⟨0, _⟩ => (show c.val = if C = 1 then 0 else c.val; split_ifs <;> omega))

/-- Adding the leading unit axis by a broadcast. -/
theorem isR_of_addUnit (X : (⟨3, ![2, 50000, C]⟩ : Shape).Idx → EReal) (H : Feat C) (hX : IsK X H)
    (p : (⟨3, ![2, 50000, C]⟩ : Shape).BroadcastsInDim ⟨4, ![1, 2, 50000, C]⟩ ![1, 2, 3]) :
    IsR (broadcastInDim ⟨4, ![1, 2, 50000, C]⟩ ![1, 2, 3] p X) H := fun b n c => by
  rw [broadcastInDim_apply ![1, 2, 3] p X (ix4 (0 : Fin 1) b n c) (ix3 b n c) (by
    intro a; match a with
    | ⟨0, _⟩ => rfl
    | ⟨1, _⟩ => rfl
    | ⟨2, _⟩ => (show c.val = if C = 1 then 0 else c.val; split_ifs <;> omega))]
  exact hX b n c

/-! ### The transposition of node and channel -/

/-- `[2, 50000, C]` to `[2, C, 50000]`. -/
theorem isT_of_transpose (X : (⟨3, ![2, 50000, C]⟩ : Shape).Idx → EReal) (H : Feat C) (hX : IsK X H)
    (p : (⟨3, ![2, 50000, C]⟩ : Shape).Transposes [0, 2, 1] ⟨3, ![2, C, 50000]⟩) :
    IsT (transpose ⟨3, ![2, C, 50000]⟩ [0, 2, 1] X p) H := fun b n c => by
  rw [transpose_apply [0, 2, 1] X p (ix3 b c n) (ix3 b n c) (by
    intro a; match a with
    | ⟨0, _⟩ => rfl
    | ⟨1, _⟩ => rfl
    | ⟨2, _⟩ => rfl)]
  exact hX b n c

/-- `[2, C, 50000]` back to `[2, 50000, C]`. -/
theorem isK_of_transpose (X : (⟨3, ![2, C, 50000]⟩ : Shape).Idx → EReal) (H : Feat C) (hX : IsT X H)
    (p : (⟨3, ![2, C, 50000]⟩ : Shape).Transposes [0, 2, 1] ⟨3, ![2, 50000, C]⟩) :
    IsK (transpose ⟨3, ![2, 50000, C]⟩ [0, 2, 1] X p) H := fun b n c => by
  rw [transpose_apply [0, 2, 1] X p (ix3 b n c) (ix3 b c n) (by
    intro a; match a with
    | ⟨0, _⟩ => rfl
    | ⟨1, _⟩ => rfl
    | ⟨2, _⟩ => rfl)]
  exact hX b n c

end Cert.GcnSteps

end
-- ==== Proof.KernelBlocks.lean ====
/-
  The kernel program's message passing as one composed term.

  Between two kernel regions the program reshapes the matrix product's `100000` rows back to `[2, 50000, C]`, gathers the
  source rows, multiplies by the edge weights spread over batch and channel, and scatter-adds into the splat of zero at the
  target rows. If the rows hold a feature map, the result holds its `prop`.
-/
import proofs.«172352_j22454089024045_1_alg».proof.Proof.StepsLayout

noncomputable section

namespace Cert.GcnSteps

open Idealize.ShloMosaic Idealize.ShloMosaic.ValueIdx Cert.GcnSpec

variable {C : Nat}

/-- The splat of the zero word is zero everywhere. -/
theorem zeros_apply {T : Shape} (p : (⟨0, ![]⟩ : Shape).BroadcastsInDim T ![]) (j : T.Idx) :
    broadcastInDim T ![] p (constant (F := Ideal) ⟨0, ![]⟩ .f32 0x00000000#32) j = (0 : EReal) := by
  rw [broadcastInDim_scalar_apply]
  exact Ideal.ofBits_zero_f32

/-- Reshape, gather, weigh, scatter-add from zeros: the kernel program's message passing. -/
theorem mp_blockK (g : GatherDims ⟨3, ![2, 50000, C]⟩ ⟨2, ![850000, 1]⟩ ⟨3, ![2, 850000, C]⟩)
    (hod : g.offsetDims = [0, 2]) (hcd : g.collapsedSliceDims = [1]) (hob : g.operandBatchingDims = [])
    (hsb : g.startIndicesBatchingDims = []) (hsm : g.startIndexMap = [1]) (hiv : g.indexVectorDim = 1)
    (hss : g.sliceSizes = ![2, 1, C])
    (d : ScatterDims ⟨3, ![2, 50000, C]⟩ ⟨2, ![850000, 1]⟩ ⟨3, ![2, 850000, C]⟩)
    (huw : d.updateWindowDims = [0, 2]) (hiw : d.insertedWindowDims = [1]) (hsd : d.scatterDimsToOperandDims = [1])
    (hiv' : d.indexVectorDim = 1)
    (rows : (⟨2, ![100000, C]⟩ : Shape).Idx → EReal) (H : Feat C) (hrows : IsRows rows H)
    (src tgt : EdgeCol) (w : (⟨1, ![850000]⟩ : Shape).Idx → EReal)
    (ps : (⟨2, ![100000, C]⟩ : Shape).ShapeCasts ⟨3, ![2, 50000, C]⟩)
    (p1 : (⟨1, ![850000]⟩ : Shape).BroadcastsInDim ⟨3, ![1, 850000, 1]⟩ ![1])
    (p2 : (⟨3, ![1, 850000, 1]⟩ : Shape).BroadcastsInDim ⟨3, ![2, 850000, C]⟩ ![0, 1, 2])
    (pz : (⟨0, ![]⟩ : Shape).BroadcastsInDim ⟨3, ![2, 50000, C]⟩ ![]) :
    IsK (Host.scatterAdd (F := Ideal) d (broadcastInDim ⟨3, ![2, 50000, C]⟩ ![] pz (constant (F := Ideal) ⟨0, ![]⟩ .f32 0x00000000#32)) tgt
          (mulf (F := Ideal) (Host.gather g (shapeCast ⟨3, ![2, 50000, C]⟩ rows ps) src)
            (broadcastInDim ⟨3, ![2, 850000, C]⟩ ![0, 1, 2] p2 (broadcastInDim ⟨3, ![1, 850000, 1]⟩ ![1] p1 w))))
      (prop src tgt (fun e => w (ix1 e)) H) :=
  prop_isK g hod hcd hob hsb hsm hiv hss d huw hiw hsd hiv' _ H (isK_of_unflatten rows H hrows ps) src tgt _ _
    (fun b e c => weights3_apply w p1 p2 b e c) _ (fun i => zeros_apply pz i)

end Cert.GcnSteps

end
-- ==== Proof.LibReduce2.lean ====
/-
  A float sum over two axes of a rank-3 array, read at an index.  The host's sum with the initial value `init` over the
  first two axes of a [2, N, C] array is, at channel `c`, `init + ∑ b, ∑ n, x (b, n, c)`; over the first and the last axis of a
  [2, C, N] array it is `init + ∑ b, ∑ n, x (b, c, n)`.  A rank-3 index set is the product of its three coordinate ranges, so
  the sum over the indices that drop to `c` is the triple sum with the kept coordinate fixed.
-/
import Idealize.ShloMosaic.Lib.IdealHost

noncomputable section

open scoped BigOperators

namespace Cert.LibStats

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The rank-0 shape's first index is its one index. -/
theorem first_ix0 (hu : 0 < (⟨0, ![]⟩ : Shape).numel) : Shape.Idx.first hu = ix0 := eq_ix0 _

/-- Dropping the first two coordinates of (b, n, c') gives `c` exactly when `c' = c`. -/
theorem drop01_eq_iff {N C : Nat} (h : (⟨3, ![2, N, C]⟩ : Shape).ReducesTo [0, 1] ⟨1, ![C]⟩) (b : Fin 2) (n : Fin N) (c' c : Fin C) :
    h.drop (ix3 b n c') = ix1 c ↔ c' = c := by
  constructor
  · intro e
    have := congrArg (fun j => (j 0).val) e
    exact Fin.ext this
  · rintro rfl
    funext d
    match d with
    | ⟨0, _⟩ => rfl

/-- Dropping the first and the last coordinate of (b, c', n) gives `c` exactly when `c' = c`. -/
theorem drop02_eq_iff {N C : Nat} (h : (⟨3, ![2, C, N]⟩ : Shape).ReducesTo [0, 2] ⟨1, ![C]⟩) (b : Fin 2) (n : Fin N) (c' c : Fin C) :
    h.drop (ix3 b c' n) = ix1 c ↔ c' = c := by
  constructor
  · intro e
    have := congrArg (fun j => (j 0).val) e
    exact Fin.ext this
  · rintro rfl
    funext d
    match d with
    | ⟨0, _⟩ => rfl

/-- The host's float sum over the first two axes of a [2, N, C] array, at channel `c`: the initial value plus the sum over
    batch index and node of the array at (b, n, c). -/
theorem reduceAdd_01_apply {N C : Nat} (x : (⟨3, ![2, N, C]⟩ : Shape).Idx → EReal) (init : (⟨0, ![]⟩ : Shape).Idx → EReal)
    (h : (⟨3, ![2, N, C]⟩ : Shape).ReducesTo [0, 1] ⟨1, ![C]⟩) (hu : 0 < (⟨0, ![]⟩ : Shape).numel) (c : Fin C) :
    Host.reduceAdd (F := Ideal) (φ := .f32) x init h hu (ix1 c) = init ix0 + ∑ b : Fin 2, ∑ n : Fin N, x (ix3 b n c) := by
  rw [hostReduceAdd_apply, first_ix0]
  unfold Ideal.hostReduceAdd
  refine congrArg (init ix0 + ·) ?_
  rw [Finset.sum_filter, sum_idx3]
  refine Finset.sum_congr rfl fun b _ => Finset.sum_congr rfl fun n _ => ?_
  simp only [drop01_eq_iff h b n _ c]
  rw [Finset.sum_ite_eq' Finset.univ c, if_pos (Finset.mem_univ c)]

/-- The host's float sum over the first and the last axis of a [2, C, N] array, at channel `c`: the initial value plus the
    sum over batch index and node of the array at (b, c, n). -/
theorem reduceAdd_02_apply {N C : Nat} (x : (⟨3, ![2, C, N]⟩ : Shape).Idx → EReal) (init : (⟨0, ![]⟩ : Shape).Idx → EReal)
    (h : (⟨3, ![2, C, N]⟩ : Shape).ReducesTo [0, 2] ⟨1, ![C]⟩) (hu : 0 < (⟨0, ![]⟩ : Shape).numel) (c : Fin C) :
    Host.reduceAdd (F := Ideal) (φ := .f32) x init h hu (ix1 c) = init ix0 + ∑ b : Fin 2, ∑ n : Fin N, x (ix3 b c n) := by
  rw [hostReduceAdd_apply, first_ix0]
  unfold Ideal.hostReduceAdd
  refine congrArg (init ix0 + ·) ?_
  rw [Finset.sum_filter, sum_idx3]
  refine Finset.sum_congr rfl fun b _ => ?_
  rw [Finset.sum_comm]
  refine Finset.sum_congr rfl fun n _ => ?_
  simp only [drop02_eq_iff h b n _ c]
  rw [Finset.sum_ite_eq' Finset.univ c, if_pos (Finset.mem_univ c)]

end Cert.LibStats

end
-- ==== Proof.Consts.lean ====
/-
  The float words the batch-norm statistics use, as extended reals: the word `0x47C35000` is the real `100000`, the count of
  (batch, node) pairs, so the count is positive and not zero; the signed word `0` converts to the real `0`, and the count less
  that is the count; the normalizer `100000 − 0` is greater than the zero word's value, so the comparison's bit is `1` and a
  select on it returns its first operand.
-/
import Idealize.ShloMosaic.Lib.IdealHost
import proofs.«172352_j22454089024045_1_alg».proof.Proof.Spec

noncomputable section

namespace Cert.LibStats

open Idealize.ShloMosaic Idealize.ShloMosaic.ValueIdx

/-- The f32 word `0x47C35000` is the real `100000`: exponent field 143, significand `2^23 + 0x435000 = 12800000`, and
    `12800000 · 2^(143 − 127 − 23) = 100000`. -/
theorem ofBits_100000 : Ideal.ofBits .f32 0x47C35000#32 = ((100000 : ℝ) : EReal) := by
  simp [Ideal.ofBits, Ideal.ieee, -EReal.coe_mul]; norm_num

/-- The count is the real `100000`. -/
theorem cnt_eq : Cert.GcnSpec.cnt = ((100000 : ℝ) : EReal) := ofBits_100000

/-- The count is positive. -/
theorem cnt_pos : (0 : EReal) < Cert.GcnSpec.cnt := by
  rw [cnt_eq]; exact EReal.coe_pos.mpr (by norm_num)

/-- The count is not zero. -/
theorem cnt_ne_zero : Cert.GcnSpec.cnt ≠ 0 := ne_of_gt cnt_pos

/-- The signed 32-bit word `0` converts to the real `0`. -/
theorem sitofp_zero : FloatOps.sitofp (F := Ideal) .f32 (0#32 : BitVec 32) = (0 : EReal) := by
  show (((0#32 : BitVec 32).toInt : ℝ) : EReal) = 0
  simp

/-- The count less the converted word `0` is the count. -/
theorem cnt_sub_zero : Cert.GcnSpec.cnt - FloatOps.sitofp (F := Ideal) .f32 (0#32 : BitVec 32) = Cert.GcnSpec.cnt := by
  rw [sitofp_zero, sub_zero]

/-- The zero word's value is below the count. -/
theorem zero_word_lt_cnt : Ideal.ofBits .f32 0x00000000#32 < Cert.GcnSpec.cnt := by
  rw [Ideal.ofBits_zero_f32]; exact cnt_pos

/-- An ordered greater-than comparison of extended reals `y < x` gives the bit `1`. -/
theorem cmpf_ogt_of_lt {φ : FTy} {x y : Ideal φ} (h : y < x) : FloatOps.cmpf (F := Ideal) (φ := φ) .ogt x y = 1#1 := by
  show BitVec.ofBool (decide (y < x)) = 1#1
  rw [decide_eq_true h]; rfl

/-- The normalizer as the program spells it, a rank-0 array: the splat of the count's word less the conversion of a
    rank-0 signed word array holding `0`, read at its one index, is the count. -/
theorem normalizer_apply (z : IVec ⟨0, ![]⟩ 32) (hz : z ix0 = 0#32) (i : (⟨0, ![]⟩ : Shape).Idx) :
    subf (constant (F := Ideal) ⟨0, ![]⟩ .f32 0x47C35000#32) (sitofp .f32 z) i = Cert.GcnSpec.cnt := by
  rw [eq_ix0 i, subf_apply, constant_apply, sitofp_apply, hz]
  exact cnt_sub_zero

/-- The comparison "normalizer > 0" as the program spells it, for any rank-0 array `nz` holding the count: the bit `1`. -/
theorem normalizer_pos_apply (nz : FVec Ideal ⟨0, ![]⟩ .f32) (hnz : nz ix0 = Cert.GcnSpec.cnt) (i : (⟨0, ![]⟩ : Shape).Idx) :
    cmpf .ogt nz (constant (F := Ideal) ⟨0, ![]⟩ .f32 0x00000000#32) i = 1#1 := by
  rw [eq_ix0 i, cmpf_apply, constant_apply, hnz]
  exact cmpf_ogt_of_lt zero_word_lt_cnt

/-- A select whose condition reads the bit `1` at an index reads its first operand there. -/
theorem select_of_one {s : Shape} {α : Type} (p : IVec s 1) (a b : s.Idx → α) (i : s.Idx) (hp : p i = 1#1) :
    select p a b i = a i := by
  rw [select_apply, hp, select_one]

end Cert.LibStats

end
-- ==== Proof.Stats.lean ====
/-
  The batch-norm statistics of both programs, at the ideal values.  Each program sums an activation array over its batch
  and node axes, broadcasts the per-channel sums to a keep-dims shape, and divides by the count; for the variance it
  broadcasts the mean back, subtracts, squares, sums again and divides by the count less the converted word `0`, then
  selects that quotient where the divisor is positive.  The kernel-side arrays are [2, 50000, C] with keep-dims shape
  [1, 1, C]; the reference-side arrays are the transposes [2, C, 50000] with keep-dims shape [1, C, 1].  First every
  broadcast of the chain read at an index, then each block for ANY intermediate arrays that hold the right values, then the
  chains composed as the operations spell them.
-/
import Idealize.ShloMosaic.Lib.IdealHost
import Idealize.ShloMosaic.Lib.Pipeline.Value
import proofs.«172352_j22454089024045_1_alg».proof.Proof.Spec
import proofs.«172352_j22454089024045_1_alg».proof.Proof.LibReduce2
import proofs.«172352_j22454089024045_1_alg».proof.Proof.Consts

noncomputable section

open scoped BigOperators

namespace Cert.LibStats

open Idealize.ShloMosaic Idealize.ShloMosaic.ValueIdx Cert.GcnSpec

/-! ## The broadcasts of the chain, read at an index -/

section Broadcasts
variable {α : Type}

/-- A [C] array broadcast to [1, 1, C] along its last axis: element (u, v, c) is element c. -/
theorem bcast_c_11c_apply {C : ℕ} (x : (⟨1, ![C]⟩ : Shape).Idx → α)
    (p : (⟨1, ![C]⟩ : Shape).BroadcastsInDim ⟨3, ![1, 1, C]⟩ (![2] : Fin 1 → Fin 3)) (u v : Fin 1) (c : Fin C) :
    broadcastInDim ⟨3, ![1, 1, C]⟩ (![2] : Fin 1 → Fin 3) p x (ix3 u v c) = x (ix1 c) :=
  broadcastInDim_apply _ p x _ _ (fun a => by
    have := c.isLt
    match a with
    | ⟨0, _⟩ =>
      show c.val = if C = 1 then 0 else c.val
      by_cases hc : C = 1
      · rw [if_pos hc]; omega
      · rw [if_neg hc])

/-- A [C] array broadcast to [1, C, 1] along its middle axis: element (u, c, v) is element c. -/
theorem bcast_c_1c1_apply {C : ℕ} (x : (⟨1, ![C]⟩ : Shape).Idx → α)
    (p : (⟨1, ![C]⟩ : Shape).BroadcastsInDim ⟨3, ![1, C, 1]⟩ (![1] : Fin 1 → Fin 3)) (u v : Fin 1) (c : Fin C) :
    broadcastInDim ⟨3, ![1, C, 1]⟩ (![1] : Fin 1 → Fin 3) p x (ix3 u c v) = x (ix1 c) :=
  broadcastInDim_apply _ p x _ _ (fun a => by
    have := c.isLt
    match a with
    | ⟨0, _⟩ =>
      show c.val = if C = 1 then 0 else c.val
      by_cases hc : C = 1
      · rw [if_pos hc]; omega
      · rw [if_neg hc])

/-- A [1, 1, C] array broadcast to [B, N, C] axis by axis: element (b, n, c) is element (0, 0, c). -/
theorem bcast_11c_bnc_apply {B N C : ℕ} (x : (⟨3, ![1, 1, C]⟩ : Shape).Idx → α)
    (p : (⟨3, ![1, 1, C]⟩ : Shape).BroadcastsInDim ⟨3, ![B, N, C]⟩ (![0, 1, 2] : Fin 3 → Fin 3)) (b : Fin B) (n : Fin N) (c : Fin C) :
    broadcastInDim ⟨3, ![B, N, C]⟩ (![0, 1, 2] : Fin 3 → Fin 3) p x (ix3 b n c) = x (ix3 (0 : Fin 1) (0 : Fin 1) c) :=
  broadcastInDim_apply _ p x _ _ (fun a => by
    have := c.isLt
    match a with
    | ⟨0, _⟩ =>
      show 0 = if (1 : ℕ) = 1 then 0 else b.val
      rw [if_pos rfl]
    | ⟨1, _⟩ =>
      show 0 = if (1 : ℕ) = 1 then 0 else n.val
      rw [if_pos rfl]
    | ⟨2, _⟩ =>
      show c.val = if C = 1 then 0 else c.val
      by_cases hc : C = 1
      · rw [if_pos hc]; omega
      · rw [if_neg hc])

/-- A [1, C, 1] array broadcast to [B, C, N] axis by axis: element (b, c, n) is element (0, c, 0). -/
theorem bcast_1c1_bcn_apply {B N C : ℕ} (x : (⟨3, ![1, C, 1]⟩ : Shape).Idx → α)
    (p : (⟨3, ![1, C, 1]⟩ : Shape).BroadcastsInDim ⟨3, ![B, C, N]⟩ (![0, 1, 2] : Fin 3 → Fin 3)) (b : Fin B) (n : Fin N) (c : Fin C) :
    broadcastInDim ⟨3, ![B, C, N]⟩ (![0, 1, 2] : Fin 3 → Fin 3) p x (ix3 b c n) = x (ix3 (0 : Fin 1) c (0 : Fin 1)) :=
  broadcastInDim_apply _ p x _ _ (fun a => by
    have := c.isLt
    match a with
    | ⟨0, _⟩ =>
      show 0 = if (1 : ℕ) = 1 then 0 else b.val
      rw [if_pos rfl]
    | ⟨1, _⟩ =>
      show c.val = if C = 1 then 0 else c.val
      by_cases hc : C = 1
      · rw [if_pos hc]; omega
      · rw [if_neg hc]
    | ⟨2, _⟩ =>
      show 0 = if (1 : ℕ) = 1 then 0 else n.val
      rw [if_pos rfl])

/-- `where(p, q, e)` with a rank-0 condition holding the bit `1`, broadcast to any shape: the first branch everywhere. -/
theorem where_scalar_apply {T : Shape} (p : IVec ⟨0, ![]⟩ 1) (q e : T.Idx → α) (hp : p ix0 = 1#1)
    (pB : (⟨0, ![]⟩ : Shape).BroadcastsInDim T ![]) (j : T.Idx) :
    select (broadcastInDim T ![] pB p) q e j = q j :=
  select_of_one _ q e j (by rw [broadcastInDim_scalar_apply, hp])

end Broadcasts

/-! ## The kernel side: arrays [2, 50000, C], keep-dims shape [1, 1, C] -/

section Kernel
variable {C : ℕ}

/-- The per-channel sum of an array that holds the feature map `H`. -/
theorem k_sum_apply (h : FVec Ideal ⟨3, ![2, 50000, C]⟩ .f32) (H : Feat C) (hH : ∀ b n c, h (ix3 b n c) = H b n c)
    (pR : (⟨3, ![2, 50000, C]⟩ : Shape).ReducesTo [0, 1] ⟨1, ![C]⟩) (hu : 0 < (⟨0, ![]⟩ : Shape).numel) (c : Fin C) :
    (Host.reduceAdd (F := Ideal) (φ := .f32) h (constant (F := Ideal) ⟨0, ![]⟩ .f32 0x00000000#32) pR hu) (ix1 c) = ∑ b : Fin 2, ∑ n : Fin 50000, H b n c := by
  rw [reduceAdd_01_apply, constant_apply, Ideal.ofBits_zero_f32, zero_add]
  simp only [hH]

/-- The mean block for ANY per-channel sums `sm` and ANY rank-0 divisor `dv` holding the count. -/
theorem k_mean_of_sum (sm : FVec Ideal ⟨1, ![C]⟩ .f32) (dv : FVec Ideal ⟨0, ![]⟩ .f32) (H : Feat C)
    (hsm : ∀ c, sm (ix1 c) = ∑ b : Fin 2, ∑ n : Fin 50000, H b n c) (hdv : dv ix0 = cnt)
    (pB2 : (⟨1, ![C]⟩ : Shape).BroadcastsInDim ⟨3, ![1, 1, C]⟩ (![2] : Fin 1 → Fin 3))
    (pB0 : (⟨0, ![]⟩ : Shape).BroadcastsInDim ⟨3, ![1, 1, C]⟩ (![] : Fin 0 → Fin 3)) (u v : Fin 1) (c : Fin C) :
    Host.divf (F := Ideal) (φ := .f32) (broadcastInDim ⟨3, ![1, 1, C]⟩ (![2] : Fin 1 → Fin 3) pB2 sm) (broadcastInDim ⟨3, ![1, 1, C]⟩ (![] : Fin 0 → Fin 3) pB0 dv) (ix3 u v c)
      = mean H c := by
  rw [hostDivf_apply, bcast_c_11c_apply, broadcastInDim_scalar_apply, hsm, hdv]
  rfl

/-- THE KERNEL'S MEAN: the sum over the first two axes, broadcast to [1, 1, C], divided by the splat of the count's word. -/
theorem k_mean_apply (h : FVec Ideal ⟨3, ![2, 50000, C]⟩ .f32) (H : Feat C) (hH : ∀ b n c, h (ix3 b n c) = H b n c)
    (pR : (⟨3, ![2, 50000, C]⟩ : Shape).ReducesTo [0, 1] ⟨1, ![C]⟩) (hu : 0 < (⟨0, ![]⟩ : Shape).numel)
    (pB2 : (⟨1, ![C]⟩ : Shape).BroadcastsInDim ⟨3, ![1, 1, C]⟩ (![2] : Fin 1 → Fin 3))
    (pB0 : (⟨0, ![]⟩ : Shape).BroadcastsInDim ⟨3, ![1, 1, C]⟩ (![] : Fin 0 → Fin 3)) (u v : Fin 1) (c : Fin C) :
    (Host.divf (F := Ideal) (φ := .f32) (broadcastInDim ⟨3, ![1, 1, C]⟩ (![2] : Fin 1 → Fin 3) pB2 (Host.reduceAdd (F := Ideal) (φ := .f32) h (constant (F := Ideal) ⟨0, ![]⟩ .f32 0x00000000#32) pR hu)) (broadcastInDim ⟨3, ![1, 1, C]⟩ (![] : Fin 0 → Fin 3) pB0 (constant (F := Ideal) ⟨0, ![]⟩ .f32 0x47C35000#32))) (ix3 u v c) = mean H c :=
  k_mean_of_sum _ _ H (k_sum_apply h H hH pR hu) (constant_apply _ _) pB2 pB0 u v c

/-- The squared deviations for ANY keep-dims array `m` that holds the mean. -/
theorem k_sqdev_apply (h : FVec Ideal ⟨3, ![2, 50000, C]⟩ .f32) (m : FVec Ideal ⟨3, ![1, 1, C]⟩ .f32) (H : Feat C)
    (hH : ∀ b n c, h (ix3 b n c) = H b n c) (hm : ∀ c, m (ix3 (0 : Fin 1) (0 : Fin 1) c) = mean H c)
    (pBf : (⟨3, ![1, 1, C]⟩ : Shape).BroadcastsInDim ⟨3, ![2, 50000, C]⟩ (![0, 1, 2] : Fin 3 → Fin 3)) (b : Fin 2) (n : Fin 50000) (c : Fin C) :
    (mulf (F := Ideal) (φ := .f32) (subf (F := Ideal) (φ := .f32) h (broadcastInDim ⟨3, ![2, 50000, C]⟩ (![0, 1, 2] : Fin 3 → Fin 3) pBf m)) (subf (F := Ideal) (φ := .f32) h (broadcastInDim ⟨3, ![2, 50000, C]⟩ (![0, 1, 2] : Fin 3 → Fin 3) pBf m))) (ix3 b n c) = (H b n c - mean H c) * (H b n c - mean H c) := by
  rw [mulf_apply, subf_apply, bcast_11c_bnc_apply, hH, hm]

/-- The variance quotient for ANY array `d` of squared deviations and ANY rank-0 divisor `dv` holding the count. -/
theorem k_var_of_sqdev (d : FVec Ideal ⟨3, ![2, 50000, C]⟩ .f32) (dv : FVec Ideal ⟨0, ![]⟩ .f32) (H : Feat C)
    (hd : ∀ b n c, d (ix3 b n c) = (H b n c - mean H c) * (H b n c - mean H c)) (hdv : dv ix0 = cnt)
    (pR : (⟨3, ![2, 50000, C]⟩ : Shape).ReducesTo [0, 1] ⟨1, ![C]⟩) (hu : 0 < (⟨0, ![]⟩ : Shape).numel)
    (pB2 : (⟨1, ![C]⟩ : Shape).BroadcastsInDim ⟨3, ![1, 1, C]⟩ (![2] : Fin 1 → Fin 3))
    (pB0 : (⟨0, ![]⟩ : Shape).BroadcastsInDim ⟨3, ![1, 1, C]⟩ (![] : Fin 0 → Fin 3)) (u v : Fin 1) (c : Fin C) :
    (Host.divf (F := Ideal) (φ := .f32) (broadcastInDim ⟨3, ![1, 1, C]⟩ (![2] : Fin 1 → Fin 3) pB2 (Host.reduceAdd (F := Ideal) (φ := .f32) d (constant (F := Ideal) ⟨0, ![]⟩ .f32 0x00000000#32) pR hu)) (broadcastInDim ⟨3, ![1, 1, C]⟩ (![] : Fin 0 → Fin 3) pB0 dv)) (ix3 u v c) = var H c := by
  rw [hostDivf_apply, bcast_c_11c_apply, broadcastInDim_scalar_apply, reduceAdd_01_apply, constant_apply,
    Ideal.ofBits_zero_f32, zero_add, hdv]
  simp only [hd]
  rfl

/-- THE KERNEL'S VARIANCE, the whole chain: the mean again, broadcast back, subtracted, squared, summed, divided by the
    count less the converted word `z` (which holds `0`), and selected against ANY else-branch `e` where the divisor
    exceeds the zero word's value — which it does. -/
theorem k_var_apply (h : FVec Ideal ⟨3, ![2, 50000, C]⟩ .f32) (z : IVec ⟨0, ![]⟩ 32) (e : FVec Ideal ⟨3, ![1, 1, C]⟩ .f32) (H : Feat C)
    (hH : ∀ b n c, h (ix3 b n c) = H b n c) (hz : z ix0 = 0#32)
    (pR : (⟨3, ![2, 50000, C]⟩ : Shape).ReducesTo [0, 1] ⟨1, ![C]⟩) (hu : 0 < (⟨0, ![]⟩ : Shape).numel)
    (pB2 : (⟨1, ![C]⟩ : Shape).BroadcastsInDim ⟨3, ![1, 1, C]⟩ (![2] : Fin 1 → Fin 3))
    (pB0 : (⟨0, ![]⟩ : Shape).BroadcastsInDim ⟨3, ![1, 1, C]⟩ (![] : Fin 0 → Fin 3))
    (pBf : (⟨3, ![1, 1, C]⟩ : Shape).BroadcastsInDim ⟨3, ![2, 50000, C]⟩ (![0, 1, 2] : Fin 3 → Fin 3)) (u v : Fin 1) (c : Fin C) :
    (select (broadcastInDim ⟨3, ![1, 1, C]⟩ (![] : Fin 0 → Fin 3) pB0 (cmpf (F := Ideal) (φ := .f32) .ogt (subf (F := Ideal) (φ := .f32) (constant (F := Ideal) ⟨0, ![]⟩ .f32 0x47C35000#32) (sitofp (F := Ideal) .f32 z)) (constant (F := Ideal) ⟨0, ![]⟩ .f32 0x00000000#32))) (Host.divf (F := Ideal) (φ := .f32) (broadcastInDim ⟨3, ![1, 1, C]⟩ (![2] : Fin 1 → Fin 3) pB2 (Host.reduceAdd (F := Ideal) (φ := .f32) (mulf (F := Ideal) (φ := .f32) (subf (F := Ideal) (φ := .f32) h (broadcastInDim ⟨3, ![2, 50000, C]⟩ (![0, 1, 2] : Fin 3 → Fin 3) pBf (Host.divf (F := Ideal) (φ := .f32) (broadcastInDim ⟨3, ![1, 1, C]⟩ (![2] : Fin 1 → Fin 3) pB2 (Host.reduceAdd (F := Ideal) (φ := .f32) h (constant (F := Ideal) ⟨0, ![]⟩ .f32 0x00000000#32) pR hu)) (broadcastInDim ⟨3, ![1, 1, C]⟩ (![] : Fin 0 → Fin 3) pB0 (constant (F := Ideal) ⟨0, ![]⟩ .f32 0x47C35000#32))))) (subf (F := Ideal) (φ := .f32) h (broadcastInDim ⟨3, ![2, 50000, C]⟩ (![0, 1, 2] : Fin 3 → Fin 3) pBf (Host.divf (F := Ideal) (φ := .f32) (broadcastInDim ⟨3, ![1, 1, C]⟩ (![2] : Fin 1 → Fin 3) pB2 (Host.reduceAdd (F := Ideal) (φ := .f32) h (constant (F := Ideal) ⟨0, ![]⟩ .f32 0x00000000#32) pR hu)) (broadcastInDim ⟨3, ![1, 1, C]⟩ (![] : Fin 0 → Fin 3) pB0 (constant (F := Ideal) ⟨0, ![]⟩ .f32 0x47C35000#32)))))) (constant (F := Ideal) ⟨0, ![]⟩ .f32 0x00000000#32) pR hu)) (broadcastInDim ⟨3, ![1, 1, C]⟩ (![] : Fin 0 → Fin 3) pB0 (subf (F := Ideal) (φ := .f32) (constant (F := Ideal) ⟨0, ![]⟩ .f32 0x47C35000#32) (sitofp (F := Ideal) .f32 z)))) e) (ix3 u v c) = var H c := by
  rw [where_scalar_apply _ _ _ (normalizer_pos_apply _ (normalizer_apply z hz ix0) ix0)]
  exact k_var_of_sqdev _ _ H
    (k_sqdev_apply h _ H hH (fun c => k_mean_apply h H hH pR hu pB2 pB0 0 0 c) pBf)
    (normalizer_apply z hz ix0) pR hu pB2 pB0 u v c

end Kernel

/-! ## The reference side: arrays [2, C, 50000], keep-dims shape [1, C, 1] -/

section Reference
variable {C : ℕ}

/-- The per-channel sum of a transposed array that holds the feature map `H`. -/
theorem r_sum_apply (hT : FVec Ideal ⟨3, ![2, C, 50000]⟩ .f32) (H : Feat C) (hH : ∀ b n c, hT (ix3 b c n) = H b n c)
    (pR : (⟨3, ![2, C, 50000]⟩ : Shape).ReducesTo [0, 2] ⟨1, ![C]⟩) (hu : 0 < (⟨0, ![]⟩ : Shape).numel) (c : Fin C) :
    (Host.reduceAdd (F := Ideal) (φ := .f32) hT (constant (F := Ideal) ⟨0, ![]⟩ .f32 0x00000000#32) pR hu) (ix1 c) = ∑ b : Fin 2, ∑ n : Fin 50000, H b n c := by
  rw [reduceAdd_02_apply, constant_apply, Ideal.ofBits_zero_f32, zero_add]
  simp only [hH]

/-- The mean block for ANY per-channel sums `sm` and ANY rank-0 divisor `dv` holding the count. -/
theorem r_mean_of_sum (sm : FVec Ideal ⟨1, ![C]⟩ .f32) (dv : FVec Ideal ⟨0, ![]⟩ .f32) (H : Feat C)
    (hsm : ∀ c, sm (ix1 c) = ∑ b : Fin 2, ∑ n : Fin 50000, H b n c) (hdv : dv ix0 = cnt)
    (pB1 : (⟨1, ![C]⟩ : Shape).BroadcastsInDim ⟨3, ![1, C, 1]⟩ (![1] : Fin 1 → Fin 3))
    (pB0 : (⟨0, ![]⟩ : Shape).BroadcastsInDim ⟨3, ![1, C, 1]⟩ (![] : Fin 0 → Fin 3)) (u v : Fin 1) (c : Fin C) :
    Host.divf (F := Ideal) (φ := .f32) (broadcastInDim ⟨3, ![1, C, 1]⟩ (![1] : Fin 1 → Fin 3) pB1 sm) (broadcastInDim ⟨3, ![1, C, 1]⟩ (![] : Fin 0 → Fin 3) pB0 dv) (ix3 u c v)
      = mean H c := by
  rw [hostDivf_apply, bcast_c_1c1_apply, broadcastInDim_scalar_apply, hsm, hdv]
  rfl

/-- THE REFERENCE'S MEAN: the sum over the first and the last axis, broadcast to [1, C, 1], divided by the splat of the
    count's word. -/
theorem r_mean_apply (hT : FVec Ideal ⟨3, ![2, C, 50000]⟩ .f32) (H : Feat C) (hH : ∀ b n c, hT (ix3 b c n) = H b n c)
    (pR : (⟨3, ![2, C, 50000]⟩ : Shape).ReducesTo [0, 2] ⟨1, ![C]⟩) (hu : 0 < (⟨0, ![]⟩ : Shape).numel)
    (pB1 : (⟨1, ![C]⟩ : Shape).BroadcastsInDim ⟨3, ![1, C, 1]⟩ (![1] : Fin 1 → Fin 3))
    (pB0 : (⟨0, ![]⟩ : Shape).BroadcastsInDim ⟨3, ![1, C, 1]⟩ (![] : Fin 0 → Fin 3)) (u v : Fin 1) (c : Fin C) :
    (Host.divf (F := Ideal) (φ := .f32) (broadcastInDim ⟨3, ![1, C, 1]⟩ (![1] : Fin 1 → Fin 3) pB1 (Host.reduceAdd (F := Ideal) (φ := .f32) hT (constant (F := Ideal) ⟨0, ![]⟩ .f32 0x00000000#32) pR hu)) (broadcastInDim ⟨3, ![1, C, 1]⟩ (![] : Fin 0 → Fin 3) pB0 (constant (F := Ideal) ⟨0, ![]⟩ .f32 0x47C35000#32))) (ix3 u c v) = mean H c :=
  r_mean_of_sum _ _ H (r_sum_apply hT H hH pR hu) (constant_apply _ _) pB1 pB0 u v c

/-- The squared deviations for ANY keep-dims array `m` that holds the mean. -/
theorem r_sqdev_apply (hT : FVec Ideal ⟨3, ![2, C, 50000]⟩ .f32) (m : FVec Ideal ⟨3, ![1, C, 1]⟩ .f32) (H : Feat C)
    (hH : ∀ b n c, hT (ix3 b c n) = H b n c) (hm : ∀ c, m (ix3 (0 : Fin 1) c (0 : Fin 1)) = mean H c)
    (pBf : (⟨3, ![1, C, 1]⟩ : Shape).BroadcastsInDim ⟨3, ![2, C, 50000]⟩ (![0, 1, 2] : Fin 3 → Fin 3)) (b : Fin 2) (n : Fin 50000) (c : Fin C) :
    (mulf (F := Ideal) (φ := .f32) (subf (F := Ideal) (φ := .f32) hT (broadcastInDim ⟨3, ![2, C, 50000]⟩ (![0, 1, 2] : Fin 3 → Fin 3) pBf m)) (subf (F := Ideal) (φ := .f32) hT (broadcastInDim ⟨3, ![2, C, 50000]⟩ (![0, 1, 2] : Fin 3 → Fin 3) pBf m))) (ix3 b c n) = (H b n c - mean H c) * (H b n c - mean H c) := by
  rw [mulf_apply, subf_apply, bcast_1c1_bcn_apply, hH, hm]

/-- The variance quotient for ANY array `d` of squared deviations and ANY rank-0 divisor `dv` holding the count. -/
theorem r_var_of_sqdev (d : FVec Ideal ⟨3, ![2, C, 50000]⟩ .f32) (dv : FVec Ideal ⟨0, ![]⟩ .f32) (H : Feat C)
    (hd : ∀ b n c, d (ix3 b c n) = (H b n c - mean H c) * (H b n c - mean H c)) (hdv : dv ix0 = cnt)
    (pR : (⟨3, ![2, C, 50000]⟩ : Shape).ReducesTo [0, 2] ⟨1, ![C]⟩) (hu : 0 < (⟨0, ![]⟩ : Shape).numel)
    (pB1 : (⟨1, ![C]⟩ : Shape).BroadcastsInDim ⟨3, ![1, C, 1]⟩ (![1] : Fin 1 → Fin 3))
    (pB0 : (⟨0, ![]⟩ : Shape).BroadcastsInDim ⟨3, ![1, C, 1]⟩ (![] : Fin 0 → Fin 3)) (u v : Fin 1) (c : Fin C) :
    (Host.divf (F := Ideal) (φ := .f32) (broadcastInDim ⟨3, ![1, C, 1]⟩ (![1] : Fin 1 → Fin 3) pB1 (Host.reduceAdd (F := Ideal) (φ := .f32) d (constant (F := Ideal) ⟨0, ![]⟩ .f32 0x00000000#32) pR hu)) (broadcastInDim ⟨3, ![1, C, 1]⟩ (![] : Fin 0 → Fin 3) pB0 dv)) (ix3 u c v) = var H c := by
  rw [hostDivf_apply, bcast_c_1c1_apply, broadcastInDim_scalar_apply, reduceAdd_02_apply, constant_apply,
    Ideal.ofBits_zero_f32, zero_add, hdv]
  simp only [hd]
  rfl

/-- THE REFERENCE'S VARIANCE, the whole chain, as the kernel's over the transposed layout. -/
theorem r_var_apply (hT : FVec Ideal ⟨3, ![2, C, 50000]⟩ .f32) (z : IVec ⟨0, ![]⟩ 32) (e : FVec Ideal ⟨3, ![1, C, 1]⟩ .f32) (H : Feat C)
    (hH : ∀ b n c, hT (ix3 b c n) = H b n c) (hz : z ix0 = 0#32)
    (pR : (⟨3, ![2, C, 50000]⟩ : Shape).ReducesTo [0, 2] ⟨1, ![C]⟩) (hu : 0 < (⟨0, ![]⟩ : Shape).numel)
    (pB1 : (⟨1, ![C]⟩ : Shape).BroadcastsInDim ⟨3, ![1, C, 1]⟩ (![1] : Fin 1 → Fin 3))
    (pB0 : (⟨0, ![]⟩ : Shape).BroadcastsInDim ⟨3, ![1, C, 1]⟩ (![] : Fin 0 → Fin 3))
    (pBf : (⟨3, ![1, C, 1]⟩ : Shape).BroadcastsInDim ⟨3, ![2, C, 50000]⟩ (![0, 1, 2] : Fin 3 → Fin 3)) (u v : Fin 1) (c : Fin C) :
    (select (broadcastInDim ⟨3, ![1, C, 1]⟩ (![] : Fin 0 → Fin 3) pB0 (cmpf (F := Ideal) (φ := .f32) .ogt (subf (F := Ideal) (φ := .f32) (constant (F := Ideal) ⟨0, ![]⟩ .f32 0x47C35000#32) (sitofp (F := Ideal) .f32 z)) (constant (F := Ideal) ⟨0, ![]⟩ .f32 0x00000000#32))) (Host.divf (F := Ideal) (φ := .f32) (broadcastInDim ⟨3, ![1, C, 1]⟩ (![1] : Fin 1 → Fin 3) pB1 (Host.reduceAdd (F := Ideal) (φ := .f32) (mulf (F := Ideal) (φ := .f32) (subf (F := Ideal) (φ := .f32) hT (broadcastInDim ⟨3, ![2, C, 50000]⟩ (![0, 1, 2] : Fin 3 → Fin 3) pBf (Host.divf (F := Ideal) (φ := .f32) (broadcastInDim ⟨3, ![1, C, 1]⟩ (![1] : Fin 1 → Fin 3) pB1 (Host.reduceAdd (F := Ideal) (φ := .f32) hT (constant (F := Ideal) ⟨0, ![]⟩ .f32 0x00000000#32) pR hu)) (broadcastInDim ⟨3, ![1, C, 1]⟩ (![] : Fin 0 → Fin 3) pB0 (constant (F := Ideal) ⟨0, ![]⟩ .f32 0x47C35000#32))))) (subf (F := Ideal) (φ := .f32) hT (broadcastInDim ⟨3, ![2, C, 50000]⟩ (![0, 1, 2] : Fin 3 → Fin 3) pBf (Host.divf (F := Ideal) (φ := .f32) (broadcastInDim ⟨3, ![1, C, 1]⟩ (![1] : Fin 1 → Fin 3) pB1 (Host.reduceAdd (F := Ideal) (φ := .f32) hT (constant (F := Ideal) ⟨0, ![]⟩ .f32 0x00000000#32) pR hu)) (broadcastInDim ⟨3, ![1, C, 1]⟩ (![] : Fin 0 → Fin 3) pB0 (constant (F := Ideal) ⟨0, ![]⟩ .f32 0x47C35000#32)))))) (constant (F := Ideal) ⟨0, ![]⟩ .f32 0x00000000#32) pR hu)) (broadcastInDim ⟨3, ![1, C, 1]⟩ (![] : Fin 0 → Fin 3) pB0 (subf (F := Ideal) (φ := .f32) (constant (F := Ideal) ⟨0, ![]⟩ .f32 0x47C35000#32) (sitofp (F := Ideal) .f32 z)))) e) (ix3 u c v) = var H c := by
  rw [where_scalar_apply _ _ _ (normalizer_pos_apply _ (normalizer_apply z hz ix0) ix0)]
  exact r_var_of_sqdev _ _ H
    (r_sqdev_apply hT _ H hH (fun c => r_mean_apply hT H hH pR hu pB1 pB0 0 0 c) pBf)
    (normalizer_apply z hz ix0) pR hu pB1 pB0 u v c

end Reference

end Cert.LibStats

end
-- ==== Proof.KernelValueLib.lean ====
/-
  The stages of one graph-convolution layer, read through "this array holds that feature map".

  A layer takes the rows of a feature map, multiplies them by a weight matrix (a sum of products per entry), passes messages
  along the edges (reshape, gather, weigh, scatter-add from zeros), adds a per-channel bias, and — in the two inner layers —
  takes the positive part and normalizes with the per-channel mean and variance.  Each lemma below says: if the input array
  holds a feature map and the output array is, entry by entry, what the stage computes, then the output array holds the
  specification's feature map of that stage.
-/
import proofs.«172352_j22454089024045_1_alg».proof.Proof.KernelBlocks
import proofs.«172352_j22454089024045_1_alg».proof.Proof.Stats

noncomputable section

open scoped BigOperators

namespace Cert.KernelIdeal.KValue

open Idealize.ShloMosaic Idealize.ShloMosaic.ValueIdx Cert.GcnSpec Cert.GcnSteps

variable {Ci Co C : ℕ}

/-- The program's input, unit axis dropped and (batch, node) flattened, holds the input feature map as rows. -/
theorem rows_of_input (X : (⟨4, ![1, 2, 50000, C]⟩ : Shape).Idx → EReal) (H : Feat C) (hX : IsR X H)
    (p1 : (⟨4, ![1, 2, 50000, C]⟩ : Shape).ShapeCasts ⟨3, ![2, 50000, C]⟩)
    (p2 : (⟨3, ![2, 50000, C]⟩ : Shape).ShapeCasts ⟨2, ![100000, C]⟩) :
    IsRows (shapeCast ⟨2, ![100000, C]⟩ (shapeCast ⟨3, ![2, 50000, C]⟩ X p1) p2) H :=
  isRows_of_flatten _ H (isK_of_dropUnit X H hX p1) p2

/-- An array read at its unit-axis index holds itself as a feature map. -/
theorem isR_self (X : (⟨4, ![1, 2, 50000, C]⟩ : Shape).Idx → EReal) :
    IsR X (fun b n k => X (ix4 (0 : Fin 1) b n k)) := fun _ _ _ => rfl

/-- Rows times a weight matrix: if every entry of `Y` is the sum of products of a row of `A` with a column of `B`, and `A`
    holds `H` as rows, then `Y` holds `lin H B` as rows. -/
theorem lin_rows (A : (⟨2, ![100000, Ci]⟩ : Shape).Idx → EReal) (B : (⟨2, ![Ci, Co]⟩ : Shape).Idx → EReal)
    (Y : (⟨2, ![100000, Co]⟩ : Shape).Idx → EReal) (H : Feat Ci) (hA : IsRows A H)
    (hY : ∀ (r : Fin 100000) (o : Fin Co), Y (ix2 r o) = ∑ k : Fin Ci, A (ix2 r k) * B (ix2 k o)) :
    IsRows Y (lin H (fun k o => B (ix2 k o))) := fun b n o => by
  rw [hY]
  unfold lin
  exact Finset.sum_congr rfl fun k _ => by rw [hA b n k]

/-- Adding a per-channel bias held in a [1, 1, C] array. -/
theorem bias_isK (P Y : (⟨3, ![2, 50000, C]⟩ : Shape).Idx → EReal) (Bv : (⟨3, ![1, 1, C]⟩ : Shape).Idx → EReal)
    (H : Feat C) (bv : Fin C → EReal) (hP : IsK P H) (hB : ∀ c, Bv (ix3 (0 : Fin 1) (0 : Fin 1) c) = bv c)
    (hY : ∀ b n c, Y (ix3 b n c) = P (ix3 b n c) + Bv (ix3 (0 : Fin 1) (0 : Fin 1) c)) :
    IsK Y (bias H bv) := fun b n c => by
  rw [hY, hP b n c, hB]; rfl

/-- Adding the bias and taking the positive part. -/
theorem relu_isK (P Y : (⟨3, ![2, 50000, C]⟩ : Shape).Idx → EReal) (Bv : (⟨3, ![1, 1, C]⟩ : Shape).Idx → EReal)
    (H : Feat C) (bv : Fin C → EReal) (hP : IsK P H) (hB : ∀ c, Bv (ix3 (0 : Fin 1) (0 : Fin 1) c) = bv c)
    (hY : ∀ b n c, Y (ix3 b n c) = max (P (ix3 b n c) + Bv (ix3 (0 : Fin 1) (0 : Fin 1) c)) 0) :
    IsK Y (relu (bias H bv)) := fun b n c => by
  rw [hY, hP b n c, hB]; rfl

/-- Batch normalization with the statistics, scale and shift held in [1, 1, C] arrays. -/
theorem bn_isK (X Y : (⟨3, ![2, 50000, C]⟩ : Shape).Idx → EReal) (P1 P2 P3 P4 : (⟨3, ![1, 1, C]⟩ : Shape).Idx → EReal)
    (H : Feat C) (gm be : Fin C → EReal) (hX : IsK X H)
    (h1 : ∀ c, P1 (ix3 (0 : Fin 1) (0 : Fin 1) c) = mean H c) (h2 : ∀ c, P2 (ix3 (0 : Fin 1) (0 : Fin 1) c) = var H c)
    (h3 : ∀ c, P3 (ix3 (0 : Fin 1) (0 : Fin 1) c) = gm c) (h4 : ∀ c, P4 (ix3 (0 : Fin 1) (0 : Fin 1) c) = be c)
    (hY : ∀ b n c, Y (ix3 b n c) = ((X (ix3 b n c) - P1 (ix3 (0 : Fin 1) (0 : Fin 1) c))
        * Ideal.rsqrt (P2 (ix3 (0 : Fin 1) (0 : Fin 1) c) + Ideal.ofBits .f32 0x3727C5AC#32))
        * P3 (ix3 (0 : Fin 1) (0 : Fin 1) c) + P4 (ix3 (0 : Fin 1) (0 : Fin 1) c)) :
    IsK Y (bn H gm be) := fun b n c => by
  rw [hY, hX b n c, h1, h2, h3, h4]; rfl

/-- A per-channel vector reshaped to [1, 1, C] holds the vector. -/
theorem vec11c (v : (⟨1, ![C]⟩ : Shape).Idx → EReal) (p : (⟨1, ![C]⟩ : Shape).ShapeCasts ⟨3, ![1, 1, C]⟩) :
    ∀ c, shapeCast ⟨3, ![1, 1, C]⟩ v p (ix3 (0 : Fin 1) (0 : Fin 1) c) = v (ix1 c) := fun c => vec_to_11c v p c

/-- The message passing of a layer's matrix product holds `prop (lin Hin W)`. -/
theorem mp_isK (g : GatherDims ⟨3, ![2, 50000, Co]⟩ ⟨2, ![850000, 1]⟩ ⟨3, ![2, 850000, Co]⟩)
    (hod : g.offsetDims = [0, 2]) (hcd : g.collapsedSliceDims = [1]) (hob : g.operandBatchingDims = [])
    (hsb : g.startIndicesBatchingDims = []) (hsm : g.startIndexMap = [1]) (hiv : g.indexVectorDim = 1)
    (hss : g.sliceSizes = ![2, 1, Co])
    (d : ScatterDims ⟨3, ![2, 50000, Co]⟩ ⟨2, ![850000, 1]⟩ ⟨3, ![2, 850000, Co]⟩)
    (huw : d.updateWindowDims = [0, 2]) (hiw : d.insertedWindowDims = [1]) (hsd : d.scatterDimsToOperandDims = [1])
    (hiv' : d.indexVectorDim = 1)
    (rows : (⟨2, ![100000, Ci]⟩ : Shape).Idx → EReal) (Hin : Feat Ci) (hrows : IsRows rows Hin)
    (Wm : (⟨2, ![Ci, Co]⟩ : Shape).Idx → EReal)
    (mmv : (⟨2, ![100000, Co]⟩ : Shape).Idx → EReal)
    (hmm : ∀ (r : Fin 100000) (o : Fin Co), mmv (ix2 r o) = ∑ k : Fin Ci, rows (ix2 r k) * Wm (ix2 k o))
    (src tgt : EdgeCol) (w : (⟨1, ![850000]⟩ : Shape).Idx → EReal)
    (ps : (⟨2, ![100000, Co]⟩ : Shape).ShapeCasts ⟨3, ![2, 50000, Co]⟩)
    (p1 : (⟨1, ![850000]⟩ : Shape).BroadcastsInDim ⟨3, ![1, 850000, 1]⟩ ![1])
    (p2 : (⟨3, ![1, 850000, 1]⟩ : Shape).BroadcastsInDim ⟨3, ![2, 850000, Co]⟩ ![0, 1, 2])
    (pz : (⟨0, ![]⟩ : Shape).BroadcastsInDim ⟨3, ![2, 50000, Co]⟩ ![]) :
    IsK (Host.scatterAdd (F := Ideal) d (broadcastInDim ⟨3, ![2, 50000, Co]⟩ ![] pz (constant (F := Ideal) ⟨0, ![]⟩ .f32 0x00000000#32)) tgt
          (mulf (F := Ideal) (Host.gather g (shapeCast ⟨3, ![2, 50000, Co]⟩ mmv ps) src)
            (broadcastInDim ⟨3, ![2, 850000, Co]⟩ ![0, 1, 2] p2 (broadcastInDim ⟨3, ![1, 850000, 1]⟩ ![1] p1 w))))
      (prop src tgt (fun e => w (ix1 e)) (lin Hin (fun k o => Wm (ix2 k o)))) :=
  mp_blockK g hod hcd hob hsb hsm hiv hss d huw hiw hsd hiv' mmv _ (lin_rows rows Wm mmv Hin hrows hmm) src tgt w ps p1 p2 pz

/-- One convolution, up to the bias: matrix product, message passing, bias. -/
theorem conv_isK (g : GatherDims ⟨3, ![2, 50000, Co]⟩ ⟨2, ![850000, 1]⟩ ⟨3, ![2, 850000, Co]⟩)
    (hod : g.offsetDims = [0, 2]) (hcd : g.collapsedSliceDims = [1]) (hob : g.operandBatchingDims = [])
    (hsb : g.startIndicesBatchingDims = []) (hsm : g.startIndexMap = [1]) (hiv : g.indexVectorDim = 1)
    (hss : g.sliceSizes = ![2, 1, Co])
    (d : ScatterDims ⟨3, ![2, 50000, Co]⟩ ⟨2, ![850000, 1]⟩ ⟨3, ![2, 850000, Co]⟩)
    (huw : d.updateWindowDims = [0, 2]) (hiw : d.insertedWindowDims = [1]) (hsd : d.scatterDimsToOperandDims = [1])
    (hiv' : d.indexVectorDim = 1)
    (rows : (⟨2, ![100000, Ci]⟩ : Shape).Idx → EReal) (Hin : Feat Ci) (hrows : IsRows rows Hin)
    (Wm : (⟨2, ![Ci, Co]⟩ : Shape).Idx → EReal)
    (mmv : (⟨2, ![100000, Co]⟩ : Shape).Idx → EReal)
    (hmm : ∀ (r : Fin 100000) (o : Fin Co), mmv (ix2 r o) = ∑ k : Fin Ci, rows (ix2 r k) * Wm (ix2 k o))
    (src tgt : EdgeCol) (w : (⟨1, ![850000]⟩ : Shape).Idx → EReal)
    (ps : (⟨2, ![100000, Co]⟩ : Shape).ShapeCasts ⟨3, ![2, 50000, Co]⟩)
    (p1 : (⟨1, ![850000]⟩ : Shape).BroadcastsInDim ⟨3, ![1, 850000, 1]⟩ ![1])
    (p2 : (⟨3, ![1, 850000, 1]⟩ : Shape).BroadcastsInDim ⟨3, ![2, 850000, Co]⟩ ![0, 1, 2])
    (pz : (⟨0, ![]⟩ : Shape).BroadcastsInDim ⟨3, ![2, 50000, Co]⟩ ![])
    (mp : (⟨3, ![2, 50000, Co]⟩ : Shape).Idx → EReal)
    (hmp : mp = Host.scatterAdd (F := Ideal) d (broadcastInDim ⟨3, ![2, 50000, Co]⟩ ![] pz (constant (F := Ideal) ⟨0, ![]⟩ .f32 0x00000000#32)) tgt
          (mulf (F := Ideal) (Host.gather g (shapeCast ⟨3, ![2, 50000, Co]⟩ mmv ps) src)
            (broadcastInDim ⟨3, ![2, 850000, Co]⟩ ![0, 1, 2] p2 (broadcastInDim ⟨3, ![1, 850000, 1]⟩ ![1] p1 w))))
    (Bv : (⟨3, ![1, 1, Co]⟩ : Shape).Idx → EReal) (bv : Fin Co → EReal)
    (hB : ∀ c, Bv (ix3 (0 : Fin 1) (0 : Fin 1) c) = bv c)
    (pre : (⟨3, ![2, 50000, Co]⟩ : Shape).Idx → EReal)
    (hpre : ∀ b n c, pre (ix3 b n c) = mp (ix3 b n c) + Bv (ix3 (0 : Fin 1) (0 : Fin 1) c)) :
    IsK pre (conv src tgt (fun e => w (ix1 e)) Hin (fun k o => Wm (ix2 k o)) bv) := by
  subst hmp
  exact bias_isK _ pre Bv _ bv
    (mp_isK g hod hcd hob hsb hsm hiv hss d huw hiw hsd hiv' rows Hin hrows Wm mmv hmm src tgt w ps p1 p2 pz) hB hpre

/-- One convolution and the positive part. -/
theorem conv_relu_isK (g : GatherDims ⟨3, ![2, 50000, Co]⟩ ⟨2, ![850000, 1]⟩ ⟨3, ![2, 850000, Co]⟩)
    (hod : g.offsetDims = [0, 2]) (hcd : g.collapsedSliceDims = [1]) (hob : g.operandBatchingDims = [])
    (hsb : g.startIndicesBatchingDims = []) (hsm : g.startIndexMap = [1]) (hiv : g.indexVectorDim = 1)
    (hss : g.sliceSizes = ![2, 1, Co])
    (d : ScatterDims ⟨3, ![2, 50000, Co]⟩ ⟨2, ![850000, 1]⟩ ⟨3, ![2, 850000, Co]⟩)
    (huw : d.updateWindowDims = [0, 2]) (hiw : d.insertedWindowDims = [1]) (hsd : d.scatterDimsToOperandDims = [1])
    (hiv' : d.indexVectorDim = 1)
    (rows : (⟨2, ![100000, Ci]⟩ : Shape).Idx → EReal) (Hin : Feat Ci) (hrows : IsRows rows Hin)
    (Wm : (⟨2, ![Ci, Co]⟩ : Shape).Idx → EReal)
    (mmv : (⟨2, ![100000, Co]⟩ : Shape).Idx → EReal)
    (hmm : ∀ (r : Fin 100000) (o : Fin Co), mmv (ix2 r o) = ∑ k : Fin Ci, rows (ix2 r k) * Wm (ix2 k o))
    (src tgt : EdgeCol) (w : (⟨1, ![850000]⟩ : Shape).Idx → EReal)
    (ps : (⟨2, ![100000, Co]⟩ : Shape).ShapeCasts ⟨3, ![2, 50000, Co]⟩)
    (p1 : (⟨1, ![850000]⟩ : Shape).BroadcastsInDim ⟨3, ![1, 850000, 1]⟩ ![1])
    (p2 : (⟨3, ![1, 850000, 1]⟩ : Shape).BroadcastsInDim ⟨3, ![2, 850000, Co]⟩ ![0, 1, 2])
    (pz : (⟨0, ![]⟩ : Shape).BroadcastsInDim ⟨3, ![2, 50000, Co]⟩ ![])
    (mp : (⟨3, ![2, 50000, Co]⟩ : Shape).Idx → EReal)
    (hmp : mp = Host.scatterAdd (F := Ideal) d (broadcastInDim ⟨3, ![2, 50000, Co]⟩ ![] pz (constant (F := Ideal) ⟨0, ![]⟩ .f32 0x00000000#32)) tgt
          (mulf (F := Ideal) (Host.gather g (shapeCast ⟨3, ![2, 50000, Co]⟩ mmv ps) src)
            (broadcastInDim ⟨3, ![2, 850000, Co]⟩ ![0, 1, 2] p2 (broadcastInDim ⟨3, ![1, 850000, 1]⟩ ![1] p1 w))))
    (Bv : (⟨3, ![1, 1, Co]⟩ : Shape).Idx → EReal) (bv : Fin Co → EReal)
    (hB : ∀ c, Bv (ix3 (0 : Fin 1) (0 : Fin 1) c) = bv c)
    (act : (⟨3, ![2, 50000, Co]⟩ : Shape).Idx → EReal)
    (hact : ∀ b n c, act (ix3 b n c) = max (mp (ix3 b n c) + Bv (ix3 (0 : Fin 1) (0 : Fin 1) c)) 0) :
    IsK act (relu (conv src tgt (fun e => w (ix1 e)) Hin (fun k o => Wm (ix2 k o)) bv)) := by
  subst hmp
  exact relu_isK _ act Bv _ bv
    (mp_isK g hod hcd hob hsb hsm hiv hss d huw hiw hsd hiv' rows Hin hrows Wm mmv hmm src tgt w ps p1 p2 pz) hB hact

end Cert.KernelIdeal.KValue

end
-- ==== Proof.KernelValueLayer.lean ====
/-
  One whole layer of the network, read through "this array holds that feature map".

  An inner layer: the rows of the input feature map times the weight matrix, message passing, the bias (first output), the
  positive part (second output), the per-channel mean and variance of the second output as the program computes them, and
  the normalization with scale and shift.  The last layer stops after the bias.  The per-channel vectors enter as [C] arrays
  reshaped to [1, 1, C].
-/
import proofs.«172352_j22454089024045_1_alg».proof.Proof.KernelValueLib

noncomputable section

open scoped BigOperators

namespace Cert.KernelIdeal.KValue

open Idealize.ShloMosaic Idealize.ShloMosaic.ValueIdx Cert.GcnSpec Cert.GcnSteps Cert.LibStats

variable {Ci Co : ℕ}

/-- The first output of a layer: the convolution. -/
theorem layer_pre (g : GatherDims ⟨3, ![2, 50000, Co]⟩ ⟨2, ![850000, 1]⟩ ⟨3, ![2, 850000, Co]⟩)
    (hod : g.offsetDims = [0, 2]) (hcd : g.collapsedSliceDims = [1]) (hob : g.operandBatchingDims = [])
    (hsb : g.startIndicesBatchingDims = []) (hsm : g.startIndexMap = [1]) (hiv : g.indexVectorDim = 1)
    (hss : g.sliceSizes = ![2, 1, Co])
    (d : ScatterDims ⟨3, ![2, 50000, Co]⟩ ⟨2, ![850000, 1]⟩ ⟨3, ![2, 850000, Co]⟩)
    (huw : d.updateWindowDims = [0, 2]) (hiw : d.insertedWindowDims = [1]) (hsd : d.scatterDimsToOperandDims = [1])
    (hiv' : d.indexVectorDim = 1)
    (rows : (⟨2, ![100000, Ci]⟩ : Shape).Idx → EReal) (Hin : Feat Ci) (hrows : IsRows rows Hin)
    (Wm : (⟨2, ![Ci, Co]⟩ : Shape).Idx → EReal)
    (mmv : (⟨2, ![100000, Co]⟩ : Shape).Idx → EReal)
    (hmm : ∀ (r : Fin 100000) (o : Fin Co), mmv (ix2 r o) = ∑ k : Fin Ci, rows (ix2 r k) * Wm (ix2 k o))
    (src tgt : EdgeCol) (w : (⟨1, ![850000]⟩ : Shape).Idx → EReal)
    (ps : (⟨2, ![100000, Co]⟩ : Shape).ShapeCasts ⟨3, ![2, 50000, Co]⟩)
    (p1 : (⟨1, ![850000]⟩ : Shape).BroadcastsInDim ⟨3, ![1, 850000, 1]⟩ ![1])
    (p2 : (⟨3, ![1, 850000, 1]⟩ : Shape).BroadcastsInDim ⟨3, ![2, 850000, Co]⟩ ![0, 1, 2])
    (pz : (⟨0, ![]⟩ : Shape).BroadcastsInDim ⟨3, ![2, 50000, Co]⟩ ![])
    (mp : (⟨3, ![2, 50000, Co]⟩ : Shape).Idx → EReal)
    (hmp : mp = Host.scatterAdd (F := Ideal) d (broadcastInDim ⟨3, ![2, 50000, Co]⟩ ![] pz (constant (F := Ideal) ⟨0, ![]⟩ .f32 0x00000000#32)) tgt
          (mulf (F := Ideal) (Host.gather g (shapeCast ⟨3, ![2, 50000, Co]⟩ mmv ps) src)
            (broadcastInDim ⟨3, ![2, 850000, Co]⟩ ![0, 1, 2] p2 (broadcastInDim ⟨3, ![1, 850000, 1]⟩ ![1] p1 w))))
    (bvec : (⟨1, ![Co]⟩ : Shape).Idx → EReal) (pbv : (⟨1, ![Co]⟩ : Shape).ShapeCasts ⟨3, ![1, 1, Co]⟩)
    (pre : (⟨3, ![2, 50000, Co]⟩ : Shape).Idx → EReal)
    (hpre : ∀ b n c, pre (ix3 b n c) = mp (ix3 b n c) + shapeCast ⟨3, ![1, 1, Co]⟩ bvec pbv (ix3 (0 : Fin 1) (0 : Fin 1) c)) :
    IsK pre (conv src tgt (fun e => w (ix1 e)) Hin (fun k o => Wm (ix2 k o)) (fun c => bvec (ix1 c))) :=
  conv_isK g hod hcd hob hsb hsm hiv hss d huw hiw hsd hiv' rows Hin hrows Wm mmv hmm src tgt w ps p1 p2 pz mp hmp
    (shapeCast ⟨3, ![1, 1, Co]⟩ bvec pbv) (fun c => bvec (ix1 c)) (vec11c bvec pbv) pre hpre

/-- The second output of an inner layer: the positive part of the convolution. -/
theorem layer_act (g : GatherDims ⟨3, ![2, 50000, Co]⟩ ⟨2, ![850000, 1]⟩ ⟨3, ![2, 850000, Co]⟩)
    (hod : g.offsetDims = [0, 2]) (hcd : g.collapsedSliceDims = [1]) (hob : g.operandBatchingDims = [])
    (hsb : g.startIndicesBatchingDims = []) (hsm : g.startIndexMap = [1]) (hiv : g.indexVectorDim = 1)
    (hss : g.sliceSizes = ![2, 1, Co])
    (d : ScatterDims ⟨3, ![2, 50000, Co]⟩ ⟨2, ![850000, 1]⟩ ⟨3, ![2, 850000, Co]⟩)
    (huw : d.updateWindowDims = [0, 2]) (hiw : d.insertedWindowDims = [1]) (hsd : d.scatterDimsToOperandDims = [1])
    (hiv' : d.indexVectorDim = 1)
    (rows : (⟨2, ![100000, Ci]⟩ : Shape).Idx → EReal) (Hin : Feat Ci) (hrows : IsRows rows Hin)
    (Wm : (⟨2, ![Ci, Co]⟩ : Shape).Idx → EReal)
    (mmv : (⟨2, ![100000, Co]⟩ : Shape).Idx → EReal)
    (hmm : ∀ (r : Fin 100000) (o : Fin Co), mmv (ix2 r o) = ∑ k : Fin Ci, rows (ix2 r k) * Wm (ix2 k o))
    (src tgt : EdgeCol) (w : (⟨1, ![850000]⟩ : Shape).Idx → EReal)
    (ps : (⟨2, ![100000, Co]⟩ : Shape).ShapeCasts ⟨3, ![2, 50000, Co]⟩)
    (p1 : (⟨1, ![850000]⟩ : Shape).BroadcastsInDim ⟨3, ![1, 850000, 1]⟩ ![1])
    (p2 : (⟨3, ![1, 850000, 1]⟩ : Shape).BroadcastsInDim ⟨3, ![2, 850000, Co]⟩ ![0, 1, 2])
    (pz : (⟨0, ![]⟩ : Shape).BroadcastsInDim ⟨3, ![2, 50000, Co]⟩ ![])
    (mp : (⟨3, ![2, 50000, Co]⟩ : Shape).Idx → EReal)
    (hmp : mp = Host.scatterAdd (F := Ideal) d (broadcastInDim ⟨3, ![2, 50000, Co]⟩ ![] pz (constant (F := Ideal) ⟨0, ![]⟩ .f32 0x00000000#32)) tgt
          (mulf (F := Ideal) (Host.gather g (shapeCast ⟨3, ![2, 50000, Co]⟩ mmv ps) src)
            (broadcastInDim ⟨3, ![2, 850000, Co]⟩ ![0, 1, 2] p2 (broadcastInDim ⟨3, ![1, 850000, 1]⟩ ![1] p1 w))))
    (bvec : (⟨1, ![Co]⟩ : Shape).Idx → EReal) (pbv : (⟨1, ![Co]⟩ : Shape).ShapeCasts ⟨3, ![1, 1, Co]⟩)
    (act : (⟨3, ![2, 50000, Co]⟩ : Shape).Idx → EReal)
    (hact : ∀ b n c, act (ix3 b n c) = max (mp (ix3 b n c) + shapeCast ⟨3, ![1, 1, Co]⟩ bvec pbv (ix3 (0 : Fin 1) (0 : Fin 1) c)) 0) :
    IsK act (relu (conv src tgt (fun e => w (ix1 e)) Hin (fun k o => Wm (ix2 k o)) (fun c => bvec (ix1 c)))) :=
  conv_relu_isK g hod hcd hob hsb hsm hiv hss d huw hiw hsd hiv' rows Hin hrows Wm mmv hmm src tgt w ps p1 p2 pz mp hmp
    (shapeCast ⟨3, ![1, 1, Co]⟩ bvec pbv) (fun c => bvec (ix1 c)) (vec11c bvec pbv) act hact

/-- The normalization of an array that holds `Hact`, with the mean and the variance as the program computes them from it:
    `mn` is the sum over batch and node, broadcast, divided by the count; `vr` is the whole variance chain. -/
theorem layer_bn (act : (⟨3, ![2, 50000, Co]⟩ : Shape).Idx → EReal) (Hact : Feat Co) (hact : IsK act Hact)
    (pR : (⟨3, ![2, 50000, Co]⟩ : Shape).ReducesTo [0, 1] ⟨1, ![Co]⟩) (hu : 0 < (⟨0, ![]⟩ : Shape).numel)
    (pB2 : (⟨1, ![Co]⟩ : Shape).BroadcastsInDim ⟨3, ![1, 1, Co]⟩ (![2] : Fin 1 → Fin 3))
    (pB0 : (⟨0, ![]⟩ : Shape).BroadcastsInDim ⟨3, ![1, 1, Co]⟩ (![] : Fin 0 → Fin 3))
    (pBf : (⟨3, ![1, 1, Co]⟩ : Shape).BroadcastsInDim ⟨3, ![2, 50000, Co]⟩ (![0, 1, 2] : Fin 3 → Fin 3))
    (z : IVec ⟨0, ![]⟩ 32) (hz : z ix0 = 0#32) (e : (⟨3, ![1, 1, Co]⟩ : Shape).Idx → EReal)
    (mn vr : (⟨3, ![1, 1, Co]⟩ : Shape).Idx → EReal)
    (hmn : mn = (Host.divf (F := Ideal) (φ := .f32) (broadcastInDim ⟨3, ![1, 1, Co]⟩ (![2] : Fin 1 → Fin 3) pB2 (Host.reduceAdd (F := Ideal) (φ := .f32) act (constant (F := Ideal) ⟨0, ![]⟩ .f32 0x00000000#32) pR hu)) (broadcastInDim ⟨3, ![1, 1, Co]⟩ (![] : Fin 0 → Fin 3) pB0 (constant (F := Ideal) ⟨0, ![]⟩ .f32 0x47C35000#32))))
    (hvr : vr = select (broadcastInDim ⟨3, ![1, 1, Co]⟩ (![] : Fin 0 → Fin 3) pB0 (cmpf (F := Ideal) (φ := .f32) .ogt (subf (F := Ideal) (φ := .f32) (constant (F := Ideal) ⟨0, ![]⟩ .f32 0x47C35000#32) (sitofp (F := Ideal) .f32 z)) (constant (F := Ideal) ⟨0, ![]⟩ .f32 0x00000000#32))) (Host.divf (F := Ideal) (φ := .f32) (broadcastInDim ⟨3, ![1, 1, Co]⟩ (![2] : Fin 1 → Fin 3) pB2 (Host.reduceAdd (F := Ideal) (φ := .f32) (mulf (F := Ideal) (φ := .f32) (subf (F := Ideal) (φ := .f32) act (broadcastInDim ⟨3, ![2, 50000, Co]⟩ (![0, 1, 2] : Fin 3 → Fin 3) pBf (Host.divf (F := Ideal) (φ := .f32) (broadcastInDim ⟨3, ![1, 1, Co]⟩ (![2] : Fin 1 → Fin 3) pB2 (Host.reduceAdd (F := Ideal) (φ := .f32) act (constant (F := Ideal) ⟨0, ![]⟩ .f32 0x00000000#32) pR hu)) (broadcastInDim ⟨3, ![1, 1, Co]⟩ (![] : Fin 0 → Fin 3) pB0 (constant (F := Ideal) ⟨0, ![]⟩ .f32 0x47C35000#32))))) (subf (F := Ideal) (φ := .f32) act (broadcastInDim ⟨3, ![2, 50000, Co]⟩ (![0, 1, 2] : Fin 3 → Fin 3) pBf (Host.divf (F := Ideal) (φ := .f32) (broadcastInDim ⟨3, ![1, 1, Co]⟩ (![2] : Fin 1 → Fin 3) pB2 (Host.reduceAdd (F := Ideal) (φ := .f32) act (constant (F := Ideal) ⟨0, ![]⟩ .f32 0x00000000#32) pR hu)) (broadcastInDim ⟨3, ![1, 1, Co]⟩ (![] : Fin 0 → Fin 3) pB0 (constant (F := Ideal) ⟨0, ![]⟩ .f32 0x47C35000#32)))))) (constant (F := Ideal) ⟨0, ![]⟩ .f32 0x00000000#32) pR hu)) (broadcastInDim ⟨3, ![1, 1, Co]⟩ (![] : Fin 0 → Fin 3) pB0 (subf (F := Ideal) (φ := .f32) (constant (F := Ideal) ⟨0, ![]⟩ .f32 0x47C35000#32) (sitofp (F := Ideal) .f32 z)))) e)
    (gvec bevec : (⟨1, ![Co]⟩ : Shape).Idx → EReal)
    (pg pbe : (⟨1, ![Co]⟩ : Shape).ShapeCasts ⟨3, ![1, 1, Co]⟩)
    (y : (⟨3, ![2, 50000, Co]⟩ : Shape).Idx → EReal)
    (hy : ∀ b n c, y (ix3 b n c) = ((act (ix3 b n c) - mn (ix3 (0 : Fin 1) (0 : Fin 1) c))
        * Ideal.rsqrt (vr (ix3 (0 : Fin 1) (0 : Fin 1) c) + Ideal.ofBits .f32 0x3727C5AC#32))
        * shapeCast ⟨3, ![1, 1, Co]⟩ gvec pg (ix3 (0 : Fin 1) (0 : Fin 1) c)
        + shapeCast ⟨3, ![1, 1, Co]⟩ bevec pbe (ix3 (0 : Fin 1) (0 : Fin 1) c)) :
    IsK y (bn Hact (fun c => gvec (ix1 c)) (fun c => bevec (ix1 c))) := by
  subst hmn hvr
  exact bn_isK act y _ _ _ _ Hact _ _ hact
    (fun c => k_mean_apply act Hact hact pR hu pB2 pB0 0 0 c)
    (fun c => k_var_apply act z e Hact hact hz pR hu pB2 pB0 pBf 0 0 c)
    (vec11c gvec pg) (vec11c bevec pbe) hy

end Cert.KernelIdeal.KValue

end
-- ==== Proof.KernelValue1.lean ====
/-
  The kernel program's value, layer 1.

  The final contents of every buffer are known one operation at a time: a host operation's result is its function of its
  operands' final contents, a region's output array is the region's value of its input arrays.  Here the specification's
  inputs are read off the program's buffers, and the first layer is followed from the node features to the normalized
  activations: rows times weights, message passing, bias, positive part, mean and variance, normalization.  Each buffer
  is shown to hold the specification's feature map of its stage.
-/
import proofs.«172352_j22454089024045_1_alg».proof.Proof.KernelStages0
import proofs.«172352_j22454089024045_1_alg».proof.Proof.KernelStages1
import proofs.«172352_j22454089024045_1_alg».proof.Proof.KernelStages2
import proofs.«172352_j22454089024045_1_alg».proof.Proof.RegionMatmul0
import proofs.«172352_j22454089024045_1_alg».proof.Proof.RegionBiasRelu
import proofs.«172352_j22454089024045_1_alg».proof.Proof.RegionBatchNorm
import proofs.«172352_j22454089024045_1_alg».proof.Proof.KernelValueLayer

set_option maxRecDepth 16384

noncomputable section

open scoped BigOperators

namespace Cert.KernelIdeal.KValue

open Idealize.ShloMosaic Idealize.ShloMosaic.TcCoe Idealize.ShloMosaic.ValueIdx
open Cert.KernelIdeal Cert.KernelIdeal.Gen Cert.GcnSpec Cert.GcnSteps Cert.LibStats
open Cert.KernelIdeal.Stages (A)

variable (m : (ℓ : Loc nD τ sig) → Buf (Elt Ideal) ℓ) (ρ : Dev nD → PrngReg) (c : Dev nD)

/-- An array at its literal index type (the final contents of a buffer are typed by the buffer's signature entry). -/
abbrev arr (S : Shape) (x : S.Idx → EReal) : S.Idx → EReal := x

/-! ## The specification's inputs, read off the program's buffers -/

/-- The source column: the normalized source words the first gather reads. -/
def src : EdgeCol := A (F := Ideal) m ρ c main_v44
/-- The target column: the normalized target words the first scatter-add reads. -/
def tgt : EdgeCol := A (F := Ideal) m ρ c main_v55
/-- The weight of edge `e`. -/
def nrm : Fin 850000 → EReal := fun e => (A (F := Ideal) m ρ c main_v34 : S850000.Idx → EReal) (ix1 e)

/-- The node features. -/
def xF : Feat 216 := fun b n k => (m ((c : Thread nD τ).loc main_arg0) : S1x2x50000x216.Idx → EReal) (ix4 (0 : Fin 1) b n k)
/-- First layer: weights, bias, scale, shift. -/
def W1F : Fin 216 → Fin 64 → EReal := fun k o => (m ((c : Thread nD τ).loc main_arg1) : S216x64.Idx → EReal) (ix2 k o)
def b1F : Fin 64 → EReal := fun ch => (m ((c : Thread nD τ).loc main_arg2) : S64.Idx → EReal) (ix1 ch)
def g1F : Fin 64 → EReal := fun ch => (m ((c : Thread nD τ).loc main_arg3) : S64.Idx → EReal) (ix1 ch)
def be1F : Fin 64 → EReal := fun ch => (m ((c : Thread nD τ).loc main_arg4) : S64.Idx → EReal) (ix1 ch)
/-- Second layer. -/
def W2F : Fin 64 → Fin 8 → EReal := fun k o => (m ((c : Thread nD τ).loc main_arg5) : S64x8.Idx → EReal) (ix2 k o)
def b2F : Fin 8 → EReal := fun ch => (m ((c : Thread nD τ).loc main_arg6) : S8.Idx → EReal) (ix1 ch)
def g2F : Fin 8 → EReal := fun ch => (m ((c : Thread nD τ).loc main_arg7) : S8.Idx → EReal) (ix1 ch)
def be2F : Fin 8 → EReal := fun ch => (m ((c : Thread nD τ).loc main_arg8) : S8.Idx → EReal) (ix1 ch)
/-- Third layer. -/
def W3F : Fin 8 → Fin 3 → EReal := fun k o => (m ((c : Thread nD τ).loc main_arg9) : S8x3.Idx → EReal) (ix2 k o)
def b3F : Fin 3 → EReal := fun ch => (m ((c : Thread nD τ).loc main_arg10) : S3.Idx → EReal) (ix1 ch)

/-! ## The input -/

/-- The flattened input holds the node features as rows. -/
theorem rows_v36 : IsRows (arr S100000x216 (A (F := Ideal) m ρ c main_v36)) (xF m c) := by
  rw [Stages.A_v36, Stages.A_v35, Stages.A_arg0]
  exact rows_of_input _ _ (isR_self _) _ _

/-! ## Layer 1 -/

/-- Region 0's result, entry by entry: the rows times the weight matrix. -/
theorem mm_v37 (r : Fin 100000) (o : Fin 64) :
    arr S100000x64 (A (F := Ideal) m ρ c main_v37) (ix2 r o)
      = ∑ k : Fin 216, arr S100000x216 (A (F := Ideal) m ρ c main_v36) (ix2 r k)
          * arr S216x64 (m ((c : Thread nD τ).loc main_arg1)) (ix2 k o) := by
  rw [Stages.A_v37_region]
  exact RegionValue.mm0_value_named (Gen.V3 m ρ) c _ _ (Stages.V3_v36 m ρ c)
    ((Stages.V3_arg1 m ρ c).trans (Stages.A_arg1 m ρ c)) r o

/-- The message passing of layer 1, as one composed term of the matrix product's rows. -/
theorem mp_v56 :
    arr S2x50000x64 (A (F := Ideal) m ρ c main_v56)
      = Host.scatterAdd (F := Ideal) scatter_S2x50000x64_S850000x1_S2x850000x64_02_1_1_1
          (broadcastInDim S2x50000x64 ![] bcast_S_S2x50000x64 (constant (F := Ideal) S_ .f32 0x00000000#32))
          (A (F := Ideal) m ρ c main_v55)
          (mulf (F := Ideal) (Host.gather gather_S2x50000x64_S850000x1_S2x850000x64_02_1_n_n_1_1_2164
              (shapeCast S2x50000x64 (A (F := Ideal) m ρ c main_v37) shapeCasts_S100000x64_S2x50000x64)
              (A (F := Ideal) m ρ c main_v44))
            (broadcastInDim S2x850000x64 ![0, 1, 2] bcast_S1x850000x1_S2x850000x64_0_1_2
              (broadcastInDim S1x850000x1 ![1] bcast_S850000_S1x850000x1_1 (A (F := Ideal) m ρ c main_v34)))) := by
  rw [Stages.A_v56, Stages.A_v48, Stages.A_v45, Stages.A_v38, Stages.A_v47, Stages.A_v46, Stages.A_v49, Stages.A_cst_10]

/-- The bias block region 1 reads is the reshaped bias argument. -/
theorem bias_v57 : shapeCast S1x1x64 (arr S64 (m ((c : Thread nD τ).loc main_arg2))) shapeCasts_S64_S1x1x64
    = Gen.V5 m ρ c (Pipeline.arrRef spec1 1) := by
  rw [Stages.V5_v57, Stages.A_v57, Stages.A_arg2]

/-- Region 1's first output holds the first convolution. -/
theorem pre_v58_0 : IsK (arr S2x50000x64 (A (F := Ideal) m ρ c main_v58_0))
    (conv (src m ρ c) (tgt m ρ c) (nrm m ρ c) (xF m c) (W1F m c) (b1F m c)) :=
  layer_pre gather_S2x50000x64_S850000x1_S2x850000x64_02_1_n_n_1_1_2164 rfl rfl rfl rfl rfl rfl rfl
    scatter_S2x50000x64_S850000x1_S2x850000x64_02_1_1_1 rfl rfl rfl rfl
    (arr S100000x216 (A (F := Ideal) m ρ c main_v36)) (xF m c) (rows_v36 m ρ c)
    (arr S216x64 (m ((c : Thread nD τ).loc main_arg1))) (arr S100000x64 (A (F := Ideal) m ρ c main_v37)) (mm_v37 m ρ c)
    (A (F := Ideal) m ρ c main_v44) (A (F := Ideal) m ρ c main_v55) (arr S850000 (A (F := Ideal) m ρ c main_v34))
    shapeCasts_S100000x64_S2x50000x64 bcast_S850000_S1x850000x1_1 bcast_S1x850000x1_S2x850000x64_0_1_2 bcast_S_S2x50000x64
    (arr S2x50000x64 (A (F := Ideal) m ρ c main_v56)) (mp_v56 m ρ c)
    (arr S64 (m ((c : Thread nD τ).loc main_arg2))) shapeCasts_S64_S1x1x64
    (arr S2x50000x64 (A (F := Ideal) m ρ c main_v58_0)) (fun b n ch => by
      rw [Stages.A_v58_0_region]
      exact RegionValue.br1_pre_of (Gen.V5 m ρ) c _ _ (Stages.V5_v56 m ρ c).symm (bias_v57 m ρ c) b n ch)

/-- Region 1's second output holds the positive part of the first convolution. -/
theorem act_v58_1 : IsK (arr S2x50000x64 (A (F := Ideal) m ρ c main_v58_1))
    (relu (conv (src m ρ c) (tgt m ρ c) (nrm m ρ c) (xF m c) (W1F m c) (b1F m c))) :=
  layer_act gather_S2x50000x64_S850000x1_S2x850000x64_02_1_n_n_1_1_2164 rfl rfl rfl rfl rfl rfl rfl
    scatter_S2x50000x64_S850000x1_S2x850000x64_02_1_1_1 rfl rfl rfl rfl
    (arr S100000x216 (A (F := Ideal) m ρ c main_v36)) (xF m c) (rows_v36 m ρ c)
    (arr S216x64 (m ((c : Thread nD τ).loc main_arg1))) (arr S100000x64 (A (F := Ideal) m ρ c main_v37)) (mm_v37 m ρ c)
    (A (F := Ideal) m ρ c main_v44) (A (F := Ideal) m ρ c main_v55) (arr S850000 (A (F := Ideal) m ρ c main_v34))
    shapeCasts_S100000x64_S2x50000x64 bcast_S850000_S1x850000x1_1 bcast_S1x850000x1_S2x850000x64_0_1_2 bcast_S_S2x50000x64
    (arr S2x50000x64 (A (F := Ideal) m ρ c main_v56)) (mp_v56 m ρ c)
    (arr S64 (m ((c : Thread nD τ).loc main_arg2))) shapeCasts_S64_S1x1x64
    (arr S2x50000x64 (A (F := Ideal) m ρ c main_v58_1)) (fun b n ch => by
      rw [Stages.A_v58_1_region]
      exact RegionValue.br1_relu_of (Gen.V5 m ρ) c _ _ (Stages.V5_v56 m ρ c).symm (bias_v57 m ρ c) b n ch)

/-- The mean buffer is the program's mean term of the second output. -/
theorem mean_v62 :
    arr S1x1x64 (A (F := Ideal) m ρ c main_v62)
      = Host.divf (F := Ideal) (φ := .f32)
          (broadcastInDim S1x1x64 ![2] bcast_S64_S1x1x64_2
            (Host.reduceAdd (F := Ideal) (φ := .f32) (arr S2x50000x64 (A (F := Ideal) m ρ c main_v58_1))
              (constant (F := Ideal) S_ .f32 0x00000000#32) reducesTo_S2x50000x64_S64_d0_1 h_S_))
          (broadcastInDim S1x1x64 ![] bcast_S_S1x1x64 (constant (F := Ideal) S_ .f32 0x47C35000#32)) := by
  rw [Stages.A_v62, Stages.A_v60, Stages.A_v59, Stages.A_cst_13, Stages.A_v61, Stages.A_cst_14]

/-- The signed word the variance function converts is `0`. -/
theorem ddof_c_15 : (A (F := Ideal) m ρ c main_c_15 : IVec S_ 32) ix0 = 0#32 := by
  rw [Stages.A_c_15]; rfl

/-- The variance buffer is the program's variance chain of the second output. -/
theorem var_v63 :
    arr S1x1x64 (A (F := Ideal) m ρ c main_v63)
      = select (broadcastInDim S1x1x64 ![] bcast_S_S1x1x64
            (cmpf (F := Ideal) (φ := .f32) .ogt
              (subf (F := Ideal) (φ := .f32) (constant (F := Ideal) S_ .f32 0x47C35000#32)
                (sitofp (F := Ideal) .f32 (A (F := Ideal) m ρ c main_c_15)))
              (constant (F := Ideal) S_ .f32 0x00000000#32)))
          (Host.divf (F := Ideal) (φ := .f32)
            (broadcastInDim S1x1x64 ![2] bcast_S64_S1x1x64_2
              (Host.reduceAdd (F := Ideal) (φ := .f32)
                (mulf (F := Ideal) (φ := .f32)
                  (subf (F := Ideal) (φ := .f32) (arr S2x50000x64 (A (F := Ideal) m ρ c main_v58_1))
                    (broadcastInDim S2x50000x64 ![0, 1, 2] bcast_S1x1x64_S2x50000x64_0_1_2
                      (Host.divf (F := Ideal) (φ := .f32)
          (broadcastInDim S1x1x64 ![2] bcast_S64_S1x1x64_2
            (Host.reduceAdd (F := Ideal) (φ := .f32) (arr S2x50000x64 (A (F := Ideal) m ρ c main_v58_1))
              (constant (F := Ideal) S_ .f32 0x00000000#32) reducesTo_S2x50000x64_S64_d0_1 h_S_))
          (broadcastInDim S1x1x64 ![] bcast_S_S1x1x64 (constant (F := Ideal) S_ .f32 0x47C35000#32)))))
                  (subf (F := Ideal) (φ := .f32) (arr S2x50000x64 (A (F := Ideal) m ρ c main_v58_1))
                    (broadcastInDim S2x50000x64 ![0, 1, 2] bcast_S1x1x64_S2x50000x64_0_1_2
                      (Host.divf (F := Ideal) (φ := .f32)
          (broadcastInDim S1x1x64 ![2] bcast_S64_S1x1x64_2
            (Host.reduceAdd (F := Ideal) (φ := .f32) (arr S2x50000x64 (A (F := Ideal) m ρ c main_v58_1))
              (constant (F := Ideal) S_ .f32 0x00000000#32) reducesTo_S2x50000x64_S64_d0_1 h_S_))
          (broadcastInDim S1x1x64 ![] bcast_S_S1x1x64 (constant (F := Ideal) S_ .f32 0x47C35000#32))))))
                (constant (F := Ideal) S_ .f32 0x00000000#32) reducesTo_S2x50000x64_S64_d0_1 h_S_))
            (broadcastInDim S1x1x64 ![] bcast_S_S1x1x64
              (subf (F := Ideal) (φ := .f32) (constant (F := Ideal) S_ .f32 0x47C35000#32)
                (sitofp (F := Ideal) .f32 (A (F := Ideal) m ρ c main_c_15)))))
          (arr S1x1x64 (A (F := Ideal) m ρ c main_call1_call0_v1)) := by
  rw [Stages.A_v63, Stages.A_call1_v13, Stages.A_call1_v12, Stages.A_call1_v11, Stages.A_call1_v8, Stages.A_call1_v7,
    Stages.A_call1_cst_1, Stages.A_call1_cst_3, Stages.A_call1_v10, Stages.A_call1_v9, Stages.A_call1_cst_2,
    Stages.A_call1_v6, Stages.A_call1_v5, Stages.A_call1_v4, Stages.A_call1_v3, Stages.A_call1_v1, Stages.A_call1_v0,
    Stages.A_call1_cst, Stages.A_call1_v2, Stages.A_call1_cst_0]

/-- The scale and shift blocks region 2 reads are the reshaped scale and shift arguments. -/
theorem scale_v64 : shapeCast S1x1x64 (arr S64 (m ((c : Thread nD τ).loc main_arg3))) shapeCasts_S64_S1x1x64
    = Gen.V9 m ρ c (Pipeline.arrRef spec2 3) := by
  rw [Stages.V9_v64, Stages.A_v64, Stages.A_arg3]
theorem shift_v65 : shapeCast S1x1x64 (arr S64 (m ((c : Thread nD τ).loc main_arg4))) shapeCasts_S64_S1x1x64
    = Gen.V9 m ρ c (Pipeline.arrRef spec2 4) := by
  rw [Stages.V9_v65, Stages.A_v65, Stages.A_arg4]

/-- Region 2's output holds layer 1's normalized activations. -/
theorem h1_v66 : IsK (arr S2x50000x64 (A (F := Ideal) m ρ c main_v66))
    (h1 (src m ρ c) (tgt m ρ c) (nrm m ρ c) (xF m c) (W1F m c) (b1F m c) (g1F m c) (be1F m c)) :=
  layer_bn (arr S2x50000x64 (A (F := Ideal) m ρ c main_v58_1)) _ (act_v58_1 m ρ c)
    reducesTo_S2x50000x64_S64_d0_1 h_S_ bcast_S64_S1x1x64_2 bcast_S_S1x1x64 bcast_S1x1x64_S2x50000x64_0_1_2
    (A (F := Ideal) m ρ c main_c_15) (ddof_c_15 m ρ c) (arr S1x1x64 (A (F := Ideal) m ρ c main_call1_call0_v1))
    (arr S1x1x64 (A (F := Ideal) m ρ c main_v62)) (arr S1x1x64 (A (F := Ideal) m ρ c main_v63))
    (mean_v62 m ρ c) (var_v63 m ρ c)
    (arr S64 (m ((c : Thread nD τ).loc main_arg3))) (arr S64 (m ((c : Thread nD τ).loc main_arg4)))
    shapeCasts_S64_S1x1x64 shapeCasts_S64_S1x1x64
    (arr S2x50000x64 (A (F := Ideal) m ρ c main_v66)) (fun b n ch => by
      rw [Stages.A_v66_region]
      exact RegionValue.bn2_value_of (Gen.V9 m ρ) c _ _ _ _ _ (Stages.V9_v58_1 m ρ c).symm
        (Stages.V9_v62 m ρ c).symm (Stages.V9_v63 m ρ c).symm
        (scale_v64 m ρ c) (shift_v65 m ρ c) b n ch)

/-- The flattened normalized activations hold them as rows. -/
theorem rows_v67 : IsRows (arr S100000x64 (A (F := Ideal) m ρ c main_v67))
    (h1 (src m ρ c) (tgt m ρ c) (nrm m ρ c) (xF m c) (W1F m c) (b1F m c) (g1F m c) (be1F m c)) := by
  rw [Stages.A_v67]
  exact isRows_of_flatten _ _ (h1_v66 m ρ c) _

end Cert.KernelIdeal.KValue

end
-- ==== Proof.RegionMatmul3.lean ====
/-
  Region 3's result array as one function of its two input arrays.

  The left array is [100000, 64], the right array [64, 8], the result [100000, 8].
  Each of the 25 grid points multiplies a tile of 4000 rows of the left array by the whole right array and writes the
  product to the same rows of the result; the row tiles cover the 100000 rows. So after the region the result array is,
  entry by entry, the matrix product of the two arrays as the region found them: entry (r, o) is the sum over the shared
  axis k of left (r, k) * right (k, o), on the extended reals (the change of float format on the way in is the identity
  and the sum has no order).
-/
import proofs.«172352_j22454089024045_1_alg».proof.Proof.Gen.KernelIdeal.Frame
import proofs.«172352_j22454089024045_1_alg».proof.Proof.LibMatmulSum
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

/-- The block's product at an index: the sum over the shared axis of the products of the operands' entries. -/
theorem pay3_apply (x0 : Vec Ideal S4000x64 .f32) (x1 : Vec Ideal S64x8 .f32) (p : Fin 4000) (q : Fin 8) :
    k3_pay1 (F := Ideal) x0 x1 (ix2 p q) = ∑ k : Fin 64, x0 (ix2 p k) * x1 (ix2 k q) := by
  unfold k3_pay1
  refine (MatmulSum.matmul_zero_apply dot_S4000x64_S64x8_S4000x8_1_0_0_1_n_n rfl rfl rfl rfl rfl rfl none _ _ (ix2 p q)).trans ?_
  rw [shapeCast_self]
  rfl

variable (V : (c : Dev nD) → (b : Ref sig .tc) → Buf (Elt Ideal) ((c : Thread nD τ).loc b))

theorem offsets_zero3 : (![0, 0] : Fin 2 → Nat) = fun _ => 0 := funext fun a => by fin_cases a <;> rfl

/-- The product of a [100000, 64] array with a [64, 8] array, index by index. -/
def mm3 (a : S100000x64.Idx → EReal) (b : S64x8.Idx → EReal) : S100000x8.Idx → EReal :=
  fun i => ∑ k : Fin 64, a (ix2 (n0 := 100000) (i 0) k) * b (ix2 (n1 := 8) k (i 1))

/-- The index maps over the grid: point t takes row tile t of the left array and of the result, and all of the right array. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is row tile t of the product of the two arrays. -/
theorem flushed3_eq (c : Dev nD) (t : Fin cfg3.N) :
    (dat3 V c).flushed 2 t = ((cfg3.win 2).blk t).view.read (Elt Ideal) (mm3 (V c main_v67) (V c main_arg5)) := by
  show (cfg3.win 2).cut (grid3.coords t) ((dat3 V c).after 2 t) = _
  rw [after3_2]
  unfold out3_2
  rw [View.canon_unit_zero offsets_zero3]
  simp only [View.ld_unit_zero (S := S4000x64) offsets_zero3, View.ld_unit_zero (S := S64x8) offsets_zero3]
  obtain ⟨e0, e1, e2, e3, e4, e5⟩ := idx_facts3 t
  funext j
  obtain ⟨p, q, rfl⟩ : ∃ (p : Fin 4000) (q : Fin 8), j = ix2 p q := ⟨j 0, j 1, eq_ix2 j⟩
  show k3_pay1 (iblk3 V c 0 t) (iblk3 V c 1 t) (ix2 p q) = mm3 (V c main_v67) (V c main_arg5) (((cfg3.win 2).blk t).view.emb (ix2 p q))
  refine (pay3_apply (iblk3 V c 0 t) (iblk3 V c 1 t) p q).trans ?_
  refine Finset.sum_congr rfl fun k _ => ?_
  refine congrArg₂ (· * ·) ?_ ?_
  · show V c main_v67 (((cfg3.win 0).blk t).view.emb (ix2 p k)) = V c main_v67 _
    refine congrArg (V c main_v67) (funext fun a => Fin.ext ?_)
    match a with
    | ⟨0, _⟩ => show win3_0.index t (0 : Fin 2) * 4000 + 1 * p.val = win3_2.index t (0 : Fin 2) * 4000 + 1 * p.val; omega
    | ⟨1, _⟩ => show win3_0.index t (1 : Fin 2) * 64 + 1 * k.val = k.val; omega
  · show V c main_arg5 (((cfg3.win 1).blk t).view.emb (ix2 k q)) = V c main_arg5 _
    refine congrArg (V c main_arg5) (funext fun a => Fin.ext ?_)
    match a with
    | ⟨0, _⟩ => show win3_1.index t (0 : Fin 2) * 64 + 1 * k.val = k.val; omega
    | ⟨1, _⟩ => show win3_1.index t (1 : Fin 2) * 8 + 1 * q.val = win3_2.index t (1 : Fin 2) * 8 + 1 * q.val; omega

/-- An index of the result array is in point t's block iff each coordinate is in the block's range on its axis. -/
theorem mem_blk3 (t : Fin cfg3.N) (i : S100000x8.Idx) :
    i ∈ ((cfg3.win 2).blk t).view.set ↔ ∀ a : Fin 2, win3_2.index t a * S4000x8.size a ≤ (i a).val ∧ (i a).val < win3_2.index t a * S4000x8.size a + S4000x8.size a := by
  show i ∈ ((View.whole main_v68).slice (win3_2.rect t)).set ↔ _
  rw [View.set_slice_whole, Rect.mem_set_unit]
  exact Iff.rfl

/-- The 25 row tiles cover the result array: row r lies in tile r / 4000. -/
theorem cover3 (i : S100000x8.Idx) : ∃ t : Fin cfg3.N, (cfg3.win 2).flush t = true ∧ i ∈ ((cfg3.win 2).blk t).view.set := by
  have hN : grid3.N = 25 := N_3
  have hi0 : (i 0).val < 100000 := (i 0).isLt
  have hi1 : (i 1).val < 8 := (i 1).isLt
  obtain ⟨t, ht⟩ : ∃ t : Fin cfg3.N, t.val = (i 0).val / 4000 :=
    ⟨⟨(i 0).val / 4000, by show (i 0).val / 4000 < grid3.N; rw [hN]; omega⟩, rfl⟩
  refine ⟨t, flush3_2 t, ?_⟩
  rw [mem_blk3]
  obtain ⟨e0, e1, e2, e3, e4, e5⟩ := idx_facts3 t
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 8 ≤ (i 1).val ∧ (i 1).val < win3_2.index t (1 : Fin 2) * 8 + 8; omega

/-- The result array after the 25 points is the product of the two arrays. -/
theorem final3 (c : Dev nD) : (dat3 V c).arrAt 2 cfg3.N = mm3 (V c main_v67) (V c main_arg5) :=
  (dat3 V c).arrAt_eq_of_cover 2 (mm3 (V c main_v67) (V c main_arg5)) (fun t _ => flushed3_eq V c t) cover3

/-- Region 3's result array, entry by entry, is the matrix product of its two input arrays, for the input arrays
    given as functions `A`, `B` on their literal index types. -/
theorem mm3_value_of (c : Dev nD) (A : S100000x64.Idx → EReal) (B : S64x8.Idx → EReal)
    (hA : V c (Pipeline.arrRef spec3 0) = A) (hB : V c (Pipeline.arrRef spec3 1) = B) (r : Fin 100000) (o : Fin 8) :
    (Gen.dat3 (F := Ideal) V c).arrAt 2 cfg3.N (ix2 r o) = ∑ k : Fin 64, A (ix2 r k) * B (ix2 k o) := by
  subst hA hB
  exact congrFun (final3 V c) (ix2 r o)

/-- Region 3's input arrays and result array, typed as functions on their literal index types. -/
abbrev lhs3 (c : Dev nD) : S100000x64.Idx → EReal := V c (Pipeline.arrRef spec3 0)
abbrev rhs3 (c : Dev nD) : S64x8.Idx → EReal := V c (Pipeline.arrRef spec3 1)
abbrev res3 (c : Dev nD) : S100000x8.Idx → EReal := (Gen.dat3 (F := Ideal) V c).arrAt 2 cfg3.N

/-- Region 3's result array, entry by entry: the matrix product of its two input arrays. -/
theorem mm3_value (c : Dev nD) (r : Fin 100000) (o : Fin 8) :
    res3 V c (ix2 r o) = ∑ k : Fin 64, lhs3 V c (ix2 r k) * rhs3 V c (ix2 k o) :=
  mm3_value_of V c _ _ rfl rfl r o

/-- The windows' arrays by name: the inputs are `main_v67` and `main_arg5`, the result is `main_v68`. -/
theorem arrRef3_0 : Pipeline.arrRef spec3 0 = main_v67 := rfl
theorem arrRef3_1 : Pipeline.arrRef spec3 1 = main_arg5 := rfl
theorem arrRef3_2 : Pipeline.arrRef spec3 2 = main_v68 := rfl

/-- The same with the arrays named. -/
theorem mm3_value_named (c : Dev nD) (A : S100000x64.Idx → EReal) (B : S64x8.Idx → EReal)
    (hA : V c main_v67 = A) (hB : V c main_arg5 = B) (r : Fin 100000) (o : Fin 8) :
    (Gen.dat3 (F := Ideal) V c).arrAt 2 cfg3.N (ix2 r o) = ∑ k : Fin 64, A (ix2 r k) * B (ix2 k o) :=
  mm3_value_of V c A B hA hB r o

end Cert.KernelIdeal.RegionValue

end
-- ==== Proof.KernelValue2.lean ====
/-
  The kernel program's value, layer 2: from the first layer's normalized activations, held as rows, to the second
  convolution (the program's second result before its unit axis) and the second layer's normalized activations.
-/
import proofs.«172352_j22454089024045_1_alg».proof.Proof.KernelValue1
import proofs.«172352_j22454089024045_1_alg».proof.Proof.RegionMatmul3

set_option maxRecDepth 16384

noncomputable section

open scoped BigOperators

namespace Cert.KernelIdeal.KValue

open Idealize.ShloMosaic Idealize.ShloMosaic.TcCoe Idealize.ShloMosaic.ValueIdx
open Cert.KernelIdeal Cert.KernelIdeal.Gen Cert.GcnSpec Cert.GcnSteps Cert.LibStats
open Cert.KernelIdeal.Stages (A)

variable (m : (ℓ : Loc nD τ sig) → Buf (Elt Ideal) ℓ) (ρ : Dev nD → PrngReg) (c : Dev nD)

/-! ## The edge columns are normalized afresh for each layer, from the same words by the same operations -/

/-- Layer 2's source column is layer 1's. -/
theorem idx_v75 : A (F := Ideal) m ρ c main_v75 = A (F := Ideal) m ρ c main_v44 := by
  rw [Stages.A_v75, Stages.A_v74, Stages.A_v71, Stages.A_v70, Stages.A_c_16, Stages.A_v73, Stages.A_v72, Stages.A_c_17,
    Stages.A_v44, Stages.A_v43, Stages.A_v40, Stages.A_v39, Stages.A_c_8, Stages.A_v42, Stages.A_v41, Stages.A_c_9]

/-- Layer 2's target column is layer 1's. -/
theorem idx_v86 : A (F := Ideal) m ρ c main_v86 = A (F := Ideal) m ρ c main_v55 := by
  rw [Stages.A_v86, Stages.A_v85, Stages.A_v82, Stages.A_v81, Stages.A_c_19, Stages.A_v84, Stages.A_v83, Stages.A_c_20,
    Stages.A_v55, Stages.A_v54, Stages.A_v51, Stages.A_v50, Stages.A_c_11, Stages.A_v53, Stages.A_v52, Stages.A_c_12]

/-- Layer 3's source column is layer 1's. -/
theorem idx_v106 : A (F := Ideal) m ρ c main_v106 = A (F := Ideal) m ρ c main_v44 := by
  rw [Stages.A_v106, Stages.A_v105, Stages.A_v102, Stages.A_v101, Stages.A_c_24, Stages.A_v104, Stages.A_v103, Stages.A_c_25,
    Stages.A_v44, Stages.A_v43, Stages.A_v40, Stages.A_v39, Stages.A_c_8, Stages.A_v42, Stages.A_v41, Stages.A_c_9]

/-- Layer 3's target column is layer 1's. -/
theorem idx_v117 : A (F := Ideal) m ρ c main_v117 = A (F := Ideal) m ρ c main_v55 := by
  rw [Stages.A_v117, Stages.A_v116, Stages.A_v113, Stages.A_v112, Stages.A_c_27, Stages.A_v115, Stages.A_v114, Stages.A_c_28,
    Stages.A_v55, Stages.A_v54, Stages.A_v51, Stages.A_v50, Stages.A_c_11, Stages.A_v53, Stages.A_v52, Stages.A_c_12]

/-! ## Layer 2 -/

/-- Region 3's result, entry by entry: the rows times the weight matrix. -/
theorem mm_v68 (r : Fin 100000) (o : Fin 8) :
    arr S100000x8 (A (F := Ideal) m ρ c main_v68) (ix2 r o)
      = ∑ k : Fin 64, arr S100000x64 (A (F := Ideal) m ρ c main_v67) (ix2 r k)
          * arr S64x8 (m ((c : Thread nD τ).loc main_arg5)) (ix2 k o) := by
  rw [Stages.A_v68_region]
  exact RegionValue.mm3_value_named (Gen.V11 m ρ) c _ _ (Stages.V11_v67 m ρ c)
    ((Stages.V11_arg5 m ρ c).trans (Stages.A_arg5 m ρ c)) r o

/-- The message passing of layer 2, as one composed term of the matrix product's rows. -/
theorem mp_v87 :
    arr S2x50000x8 (A (F := Ideal) m ρ c main_v87)
      = Host.scatterAdd (F := Ideal) scatter_S2x50000x8_S850000x1_S2x850000x8_02_1_1_1
          (broadcastInDim S2x50000x8 ![] bcast_S_S2x50000x8 (constant (F := Ideal) S_ .f32 0x00000000#32))
          (A (F := Ideal) m ρ c main_v55)
          (mulf (F := Ideal) (Host.gather gather_S2x50000x8_S850000x1_S2x850000x8_02_1_n_n_1_1_218
              (shapeCast S2x50000x8 (A (F := Ideal) m ρ c main_v68) shapeCasts_S100000x8_S2x50000x8)
              (A (F := Ideal) m ρ c main_v44))
            (broadcastInDim S2x850000x8 ![0, 1, 2] bcast_S1x850000x1_S2x850000x8_0_1_2
              (broadcastInDim S1x850000x1 ![1] bcast_S850000_S1x850000x1_1 (A (F := Ideal) m ρ c main_v34)))) := by
  rw [Stages.A_v87, Stages.A_v79, Stages.A_v76, Stages.A_v69, Stages.A_v78, Stages.A_v77, Stages.A_v80, Stages.A_cst_18, idx_v75 m ρ c, idx_v86 m ρ c]

/-- The bias block region 4 reads is the reshaped bias argument. -/
theorem bias_v88 : shapeCast S1x1x8 (arr S8 (m ((c : Thread nD τ).loc main_arg6))) shapeCasts_S8_S1x1x8
    = Gen.V13 m ρ c (Pipeline.arrRef spec4 1) := by
  rw [Stages.V13_v88, Stages.A_v88, Stages.A_arg6]

/-- Region 4's first output holds the second convolution. -/
theorem pre_v89_0 : IsK (arr S2x50000x8 (A (F := Ideal) m ρ c main_v89_0))
    (x1 (src m ρ c) (tgt m ρ c) (nrm m ρ c) (xF m c) (W1F m c) (b1F m c) (g1F m c) (be1F m c) (W2F m c) (b2F m c)) :=
  layer_pre gather_S2x50000x8_S850000x1_S2x850000x8_02_1_n_n_1_1_218 rfl rfl rfl rfl rfl rfl rfl
    scatter_S2x50000x8_S850000x1_S2x850000x8_02_1_1_1 rfl rfl rfl rfl
    (arr S100000x64 (A (F := Ideal) m ρ c main_v67)) (h1 (src m ρ c) (tgt m ρ c) (nrm m ρ c) (xF m c) (W1F m c) (b1F m c) (g1F m c) (be1F m c)) (rows_v67 m ρ c)
    (arr S64x8 (m ((c : Thread nD τ).loc main_arg5))) (arr S100000x8 (A (F := Ideal) m ρ c main_v68)) (mm_v68 m ρ c)
    (A (F := Ideal) m ρ c main_v44) (A (F := Ideal) m ρ c main_v55) (arr S850000 (A (F := Ideal) m ρ c main_v34))
    shapeCasts_S100000x8_S2x50000x8 bcast_S850000_S1x850000x1_1 bcast_S1x850000x1_S2x850000x8_0_1_2 bcast_S_S2x50000x8
    (arr S2x50000x8 (A (F := Ideal) m ρ c main_v87)) (mp_v87 m ρ c)
    (arr S8 (m ((c : Thread nD τ).loc main_arg6))) shapeCasts_S8_S1x1x8
    (arr S2x50000x8 (A (F := Ideal) m ρ c main_v89_0)) (fun b n ch => by
      rw [Stages.A_v89_0_region]
      exact RegionValue.br4_pre_of (Gen.V13 m ρ) c _ _ (Stages.V13_v87 m ρ c).symm (bias_v88 m ρ c) b n ch)

/-- Region 4's second output holds the positive part of the second convolution. -/
theorem act_v89_1 : IsK (arr S2x50000x8 (A (F := Ideal) m ρ c main_v89_1))
    (relu (x1 (src m ρ c) (tgt m ρ c) (nrm m ρ c) (xF m c) (W1F m c) (b1F m c) (g1F m c) (be1F m c) (W2F m c) (b2F m c))) :=
  layer_act gather_S2x50000x8_S850000x1_S2x850000x8_02_1_n_n_1_1_218 rfl rfl rfl rfl rfl rfl rfl
    scatter_S2x50000x8_S850000x1_S2x850000x8_02_1_1_1 rfl rfl rfl rfl
    (arr S100000x64 (A (F := Ideal) m ρ c main_v67)) (h1 (src m ρ c) (tgt m ρ c) (nrm m ρ c) (xF m c) (W1F m c) (b1F m c) (g1F m c) (be1F m c)) (rows_v67 m ρ c)
    (arr S64x8 (m ((c : Thread nD τ).loc main_arg5))) (arr S100000x8 (A (F := Ideal) m ρ c main_v68)) (mm_v68 m ρ c)
    (A (F := Ideal) m ρ c main_v44) (A (F := Ideal) m ρ c main_v55) (arr S850000 (A (F := Ideal) m ρ c main_v34))
    shapeCasts_S100000x8_S2x50000x8 bcast_S850000_S1x850000x1_1 bcast_S1x850000x1_S2x850000x8_0_1_2 bcast_S_S2x50000x8
    (arr S2x50000x8 (A (F := Ideal) m ρ c main_v87)) (mp_v87 m ρ c)
    (arr S8 (m ((c : Thread nD τ).loc main_arg6))) shapeCasts_S8_S1x1x8
    (arr S2x50000x8 (A (F := Ideal) m ρ c main_v89_1)) (fun b n ch => by
      rw [Stages.A_v89_1_region]
      exact RegionValue.br4_relu_of (Gen.V13 m ρ) c _ _ (Stages.V13_v87 m ρ c).symm (bias_v88 m ρ c) b n ch)

/-- The mean buffer is the program's mean term of the second output. -/
theorem mean_v93 :
    arr S1x1x8 (A (F := Ideal) m ρ c main_v93)
      = Host.divf (F := Ideal) (φ := .f32)
          (broadcastInDim S1x1x8 ![2] bcast_S8_S1x1x8_2
            (Host.reduceAdd (F := Ideal) (φ := .f32) (arr S2x50000x8 (A (F := Ideal) m ρ c main_v89_1))
              (constant (F := Ideal) S_ .f32 0x00000000#32) reducesTo_S2x50000x8_S8_d0_1 h_S_))
          (broadcastInDim S1x1x8 ![] bcast_S_S1x1x8 (constant (F := Ideal) S_ .f32 0x47C35000#32)) := by
  rw [Stages.A_v93, Stages.A_v91, Stages.A_v90, Stages.A_cst_21, Stages.A_v92, Stages.A_cst_22]

/-- The signed word the variance function converts is `0`. -/
theorem ddof_c_23 : (A (F := Ideal) m ρ c main_c_23 : IVec S_ 32) ix0 = 0#32 := by
  rw [Stages.A_c_23]; rfl

/-- The variance buffer is the program's variance chain of the second output. -/
theorem var_v94 :
    arr S1x1x8 (A (F := Ideal) m ρ c main_v94)
      = select (broadcastInDim S1x1x8 ![] bcast_S_S1x1x8
            (cmpf (F := Ideal) (φ := .f32) .ogt
              (subf (F := Ideal) (φ := .f32) (constant (F := Ideal) S_ .f32 0x47C35000#32)
                (sitofp (F := Ideal) .f32 (A (F := Ideal) m ρ c main_c_23)))
              (constant (F := Ideal) S_ .f32 0x00000000#32)))
          (Host.divf (F := Ideal) (φ := .f32)
            (broadcastInDim S1x1x8 ![2] bcast_S8_S1x1x8_2
              (Host.reduceAdd (F := Ideal) (φ := .f32)
                (mulf (F := Ideal) (φ := .f32)
                  (subf (F := Ideal) (φ := .f32) (arr S2x50000x8 (A (F := Ideal) m ρ c main_v89_1))
                    (broadcastInDim S2x50000x8 ![0, 1, 2] bcast_S1x1x8_S2x50000x8_0_1_2
                      (Host.divf (F := Ideal) (φ := .f32)
          (broadcastInDim S1x1x8 ![2] bcast_S8_S1x1x8_2
            (Host.reduceAdd (F := Ideal) (φ := .f32) (arr S2x50000x8 (A (F := Ideal) m ρ c main_v89_1))
              (constant (F := Ideal) S_ .f32 0x00000000#32) reducesTo_S2x50000x8_S8_d0_1 h_S_))
          (broadcastInDim S1x1x8 ![] bcast_S_S1x1x8 (constant (F := Ideal) S_ .f32 0x47C35000#32)))))
                  (subf (F := Ideal) (φ := .f32) (arr S2x50000x8 (A (F := Ideal) m ρ c main_v89_1))
                    (broadcastInDim S2x50000x8 ![0, 1, 2] bcast_S1x1x8_S2x50000x8_0_1_2
                      (Host.divf (F := Ideal) (φ := .f32)
          (broadcastInDim S1x1x8 ![2] bcast_S8_S1x1x8_2
            (Host.reduceAdd (F := Ideal) (φ := .f32) (arr S2x50000x8 (A (F := Ideal) m ρ c main_v89_1))
              (constant (F := Ideal) S_ .f32 0x00000000#32) reducesTo_S2x50000x8_S8_d0_1 h_S_))
          (broadcastInDim S1x1x8 ![] bcast_S_S1x1x8 (constant (F := Ideal) S_ .f32 0x47C35000#32))))))
                (constant (F := Ideal) S_ .f32 0x00000000#32) reducesTo_S2x50000x8_S8_d0_1 h_S_))
            (broadcastInDim S1x1x8 ![] bcast_S_S1x1x8
              (subf (F := Ideal) (φ := .f32) (constant (F := Ideal) S_ .f32 0x47C35000#32)
                (sitofp (F := Ideal) .f32 (A (F := Ideal) m ρ c main_c_23)))))
          (arr S1x1x8 (A (F := Ideal) m ρ c main_call2_call0_v1)) := by
  rw [Stages.A_v94, Stages.A_call2_v13, Stages.A_call2_v12, Stages.A_call2_v11, Stages.A_call2_v8, Stages.A_call2_v7,
    Stages.A_call2_cst_1, Stages.A_call2_cst_3, Stages.A_call2_v10, Stages.A_call2_v9, Stages.A_call2_cst_2,
    Stages.A_call2_v6, Stages.A_call2_v5, Stages.A_call2_v4, Stages.A_call2_v3, Stages.A_call2_v1, Stages.A_call2_v0,
    Stages.A_call2_cst, Stages.A_call2_v2, Stages.A_call2_cst_0]

/-- The scale and shift blocks region 5 reads are the reshaped scale and shift arguments. -/
theorem scale_v95 : shapeCast S1x1x8 (arr S8 (m ((c : Thread nD τ).loc main_arg7))) shapeCasts_S8_S1x1x8
    = Gen.V17 m ρ c (Pipeline.arrRef spec5 3) := by
  rw [Stages.V17_v95, Stages.A_v95, Stages.A_arg7]
theorem shift_v96 : shapeCast S1x1x8 (arr S8 (m ((c : Thread nD τ).loc main_arg8))) shapeCasts_S8_S1x1x8
    = Gen.V17 m ρ c (Pipeline.arrRef spec5 4) := by
  rw [Stages.V17_v96, Stages.A_v96, Stages.A_arg8]

/-- Region 5's output holds layer 2's normalized activations. -/
theorem h2_v97 : IsK (arr S2x50000x8 (A (F := Ideal) m ρ c main_v97))
    (h2 (src m ρ c) (tgt m ρ c) (nrm m ρ c) (xF m c) (W1F m c) (b1F m c) (g1F m c) (be1F m c) (W2F m c) (b2F m c) (g2F m c) (be2F m c)) :=
  layer_bn (arr S2x50000x8 (A (F := Ideal) m ρ c main_v89_1)) _ (act_v89_1 m ρ c)
    reducesTo_S2x50000x8_S8_d0_1 h_S_ bcast_S8_S1x1x8_2 bcast_S_S1x1x8 bcast_S1x1x8_S2x50000x8_0_1_2
    (A (F := Ideal) m ρ c main_c_23) (ddof_c_23 m ρ c) (arr S1x1x8 (A (F := Ideal) m ρ c main_call2_call0_v1))
    (arr S1x1x8 (A (F := Ideal) m ρ c main_v93)) (arr S1x1x8 (A (F := Ideal) m ρ c main_v94))
    (mean_v93 m ρ c) (var_v94 m ρ c)
    (arr S8 (m ((c : Thread nD τ).loc main_arg7))) (arr S8 (m ((c : Thread nD τ).loc main_arg8)))
    shapeCasts_S8_S1x1x8 shapeCasts_S8_S1x1x8
    (arr S2x50000x8 (A (F := Ideal) m ρ c main_v97)) (fun b n ch => by
      rw [Stages.A_v97_region]
      exact RegionValue.bn5_value_of (Gen.V17 m ρ) c _ _ _ _ _ (Stages.V17_v89_1 m ρ c).symm
        (Stages.V17_v93 m ρ c).symm (Stages.V17_v94 m ρ c).symm
        (scale_v95 m ρ c) (shift_v96 m ρ c) b n ch)

/-- The flattened normalized activations hold them as rows. -/
theorem rows_v98 : IsRows (arr S100000x8 (A (F := Ideal) m ρ c main_v98))
    (h2 (src m ρ c) (tgt m ρ c) (nrm m ρ c) (xF m c) (W1F m c) (b1F m c) (g1F m c) (be1F m c) (W2F m c) (b2F m c) (g2F m c) (be2F m c)) := by
  rw [Stages.A_v98]
  exact isRows_of_flatten _ _ (h2_v97 m ρ c) _

end Cert.KernelIdeal.KValue

end
-- ==== Proof.RegionMatmul6.lean ====
/-
  Region 6's result array as one function of its two input arrays.

  The left array is [100000, 8], the right array [8, 3], the result [100000, 3].
  Each of the 25 grid points multiplies a tile of 4000 rows of the left array by the whole right array and writes the
  product to the same rows of the result; the row tiles cover the 100000 rows. So after the region the result array is,
  entry by entry, the matrix product of the two arrays as the region found them: entry (r, o) is the sum over the shared
  axis k of left (r, k) * right (k, o), on the extended reals (the change of float format on the way in is the identity
  and the sum has no order).
-/
import proofs.«172352_j22454089024045_1_alg».proof.Proof.Gen.KernelIdeal.Frame
import proofs.«172352_j22454089024045_1_alg».proof.Proof.LibMatmulSum
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

/-- The block's product at an index: the sum over the shared axis of the products of the operands' entries. -/
theorem pay6_apply (x0 : Vec Ideal S4000x8 .f32) (x1 : Vec Ideal S8x3 .f32) (p : Fin 4000) (q : Fin 3) :
    k6_pay1 (F := Ideal) x0 x1 (ix2 p q) = ∑ k : Fin 8, x0 (ix2 p k) * x1 (ix2 k q) := by
  unfold k6_pay1
  refine (MatmulSum.matmul_zero_apply dot_S4000x8_S8x3_S4000x3_1_0_0_1_n_n rfl rfl rfl rfl rfl rfl none _ _ (ix2 p q)).trans ?_
  rw [shapeCast_self]
  rfl

variable (V : (c : Dev nD) → (b : Ref sig .tc) → Buf (Elt Ideal) ((c : Thread nD τ).loc b))

theorem offsets_zero6 : (![0, 0] : Fin 2 → Nat) = fun _ => 0 := funext fun a => by fin_cases a <;> rfl

/-- The product of a [100000, 8] array with a [8, 3] array, index by index. -/
def mm6 (a : S100000x8.Idx → EReal) (b : S8x3.Idx → EReal) : S100000x3.Idx → EReal :=
  fun i => ∑ k : Fin 8, a (ix2 (n0 := 100000) (i 0) k) * b (ix2 (n1 := 3) k (i 1))

/-- The index maps over the grid: point t takes row tile t of the left array and of the result, and all of the right array. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is row tile t of the product of the two arrays. -/
theorem flushed6_eq (c : Dev nD) (t : Fin cfg6.N) :
    (dat6 V c).flushed 2 t = ((cfg6.win 2).blk t).view.read (Elt Ideal) (mm6 (V c main_v98) (V c main_arg9)) := by
  show (cfg6.win 2).cut (grid6.coords t) ((dat6 V c).after 2 t) = _
  rw [after6_2]
  unfold out6_2
  rw [View.canon_unit_zero offsets_zero6]
  simp only [View.ld_unit_zero (S := S4000x8) offsets_zero6, View.ld_unit_zero (S := S8x3) offsets_zero6]
  obtain ⟨e0, e1, e2, e3, e4, e5⟩ := idx_facts6 t
  funext j
  obtain ⟨p, q, rfl⟩ : ∃ (p : Fin 4000) (q : Fin 3), j = ix2 p q := ⟨j 0, j 1, eq_ix2 j⟩
  show k6_pay1 (iblk6 V c 0 t) (iblk6 V c 1 t) (ix2 p q) = mm6 (V c main_v98) (V c main_arg9) (((cfg6.win 2).blk t).view.emb (ix2 p q))
  refine (pay6_apply (iblk6 V c 0 t) (iblk6 V c 1 t) p q).trans ?_
  refine Finset.sum_congr rfl fun k _ => ?_
  refine congrArg₂ (· * ·) ?_ ?_
  · show V c main_v98 (((cfg6.win 0).blk t).view.emb (ix2 p k)) = V c main_v98 _
    refine congrArg (V c main_v98) (funext fun a => Fin.ext ?_)
    match a with
    | ⟨0, _⟩ => show win6_0.index t (0 : Fin 2) * 4000 + 1 * p.val = win6_2.index t (0 : Fin 2) * 4000 + 1 * p.val; omega
    | ⟨1, _⟩ => show win6_0.index t (1 : Fin 2) * 8 + 1 * k.val = k.val; omega
  · show V c main_arg9 (((cfg6.win 1).blk t).view.emb (ix2 k q)) = V c main_arg9 _
    refine congrArg (V c main_arg9) (funext fun a => Fin.ext ?_)
    match a with
    | ⟨0, _⟩ => show win6_1.index t (0 : Fin 2) * 8 + 1 * k.val = k.val; omega
    | ⟨1, _⟩ => show win6_1.index t (1 : Fin 2) * 3 + 1 * q.val = win6_2.index t (1 : Fin 2) * 3 + 1 * q.val; omega

/-- An index of the result array is in point t's block iff each coordinate is in the block's range on its axis. -/
theorem mem_blk6 (t : Fin cfg6.N) (i : S100000x3.Idx) :
    i ∈ ((cfg6.win 2).blk t).view.set ↔ ∀ a : Fin 2, win6_2.index t a * S4000x3.size a ≤ (i a).val ∧ (i a).val < win6_2.index t a * S4000x3.size a + S4000x3.size a := by
  show i ∈ ((View.whole main_v99).slice (win6_2.rect t)).set ↔ _
  rw [View.set_slice_whole, Rect.mem_set_unit]
  exact Iff.rfl

/-- The 25 row tiles cover the result array: row r lies in tile r / 4000. -/
theorem cover6 (i : S100000x3.Idx) : ∃ t : Fin cfg6.N, (cfg6.win 2).flush t = true ∧ i ∈ ((cfg6.win 2).blk t).view.set := by
  have hN : grid6.N = 25 := N_6
  have hi0 : (i 0).val < 100000 := (i 0).isLt
  have hi1 : (i 1).val < 3 := (i 1).isLt
  obtain ⟨t, ht⟩ : ∃ t : Fin cfg6.N, t.val = (i 0).val / 4000 :=
    ⟨⟨(i 0).val / 4000, by show (i 0).val / 4000 < grid6.N; rw [hN]; omega⟩, rfl⟩
  refine ⟨t, flush6_2 t, ?_⟩
  rw [mem_blk6]
  obtain ⟨e0, e1, e2, e3, e4, e5⟩ := idx_facts6 t
  intro a
  match a with
  | ⟨0, _⟩ => show win6_2.index t (0 : Fin 2) * 4000 ≤ (i 0).val ∧ (i 0).val < win6_2.index t (0 : Fin 2) * 4000 + 4000; omega
  | ⟨1, _⟩ => show win6_2.index t (1 : Fin 2) * 3 ≤ (i 1).val ∧ (i 1).val < win6_2.index t (1 : Fin 2) * 3 + 3; omega

/-- The result array after the 25 points is the product of the two arrays. -/
theorem final6 (c : Dev nD) : (dat6 V c).arrAt 2 cfg6.N = mm6 (V c main_v98) (V c main_arg9) :=
  (dat6 V c).arrAt_eq_of_cover 2 (mm6 (V c main_v98) (V c main_arg9)) (fun t _ => flushed6_eq V c t) cover6

/-- Region 6's result array, entry by entry, is the matrix product of its two input arrays, for the input arrays
    given as functions `A`, `B` on their literal index types. -/
theorem mm6_value_of (c : Dev nD) (A : S100000x8.Idx → EReal) (B : S8x3.Idx → EReal)
    (hA : V c (Pipeline.arrRef spec6 0) = A) (hB : V c (Pipeline.arrRef spec6 1) = B) (r : Fin 100000) (o : Fin 3) :
    (Gen.dat6 (F := Ideal) V c).arrAt 2 cfg6.N (ix2 r o) = ∑ k : Fin 8, A (ix2 r k) * B (ix2 k o) := by
  subst hA hB
  exact congrFun (final6 V c) (ix2 r o)

/-- Region 6's input arrays and result array, typed as functions on their literal index types. -/
abbrev lhs6 (c : Dev nD) : S100000x8.Idx → EReal := V c (Pipeline.arrRef spec6 0)
abbrev rhs6 (c : Dev nD) : S8x3.Idx → EReal := V c (Pipeline.arrRef spec6 1)
abbrev res6 (c : Dev nD) : S100000x3.Idx → EReal := (Gen.dat6 (F := Ideal) V c).arrAt 2 cfg6.N

/-- Region 6's result array, entry by entry: the matrix product of its two input arrays. -/
theorem mm6_value (c : Dev nD) (r : Fin 100000) (o : Fin 3) :
    res6 V c (ix2 r o) = ∑ k : Fin 8, lhs6 V c (ix2 r k) * rhs6 V c (ix2 k o) :=
  mm6_value_of V c _ _ rfl rfl r o

/-- The windows' arrays by name: the inputs are `main_v98` and `main_arg9`, the result is `main_v99`. -/
theorem arrRef6_0 : Pipeline.arrRef spec6 0 = main_v98 := rfl
theorem arrRef6_1 : Pipeline.arrRef spec6 1 = main_arg9 := rfl
theorem arrRef6_2 : Pipeline.arrRef spec6 2 = main_v99 := rfl

/-- The same with the arrays named. -/
theorem mm6_value_named (c : Dev nD) (A : S100000x8.Idx → EReal) (B : S8x3.Idx → EReal)
    (hA : V c main_v98 = A) (hB : V c main_arg9 = B) (r : Fin 100000) (o : Fin 3) :
    (Gen.dat6 (F := Ideal) V c).arrAt 2 cfg6.N (ix2 r o) = ∑ k : Fin 8, A (ix2 r k) * B (ix2 k o) :=
  mm6_value_of V c A B hA hB r o

end Cert.KernelIdeal.RegionValue

end
-- ==== Proof.RegionBiasAdd.lean ====
/-
  The bias-add region (the last pointwise region; channel count 3).  Its grid has 25 points; point t loads rows
  2000 t … 2000 t + 1999 of the [2, 50000, 3] activations (both batch entries, all channels) and the whole [1, 1, 3]
  bias, and stores the block of sums over the same rows of the output.  Here: the stored block at an index, the
  written-back block as the block of ONE whole-array function (activations plus bias, entry by entry), the 25 row
  blocks covering the array (row n lies in block n / 2000), hence the output array after the region.
-/
import proofs.«172352_j22454089024045_1_alg».proof.Proof.Gen.KernelIdeal.Frame
import proofs.«172352_j22454089024045_1_alg».proof.Proof.LibBroadcast3
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.ValueIdx
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

/-- The zero offset of a whole-block access of a rank-3 buffer. -/
theorem zero3 : (![0, 0, 0] : Fin 3 → Nat) = fun _ => 0 := funext fun a => by fin_cases a <;> rfl

/-- The channel coordinate of an index of the [2, 50000, 3] array, as a number below 3. -/
abbrev chan3 (i : S2x50000x3.Idx) : Fin 3 := ⟨(i 2).val, (i 2).isLt⟩

/-- Bias add over the whole array: entry (b, n, ch) of the activations plus entry ch of the bias. -/
def biasAdd3 (H : S2x50000x3.Idx → EReal) (B : S1x1x3.Idx → EReal) : S2x50000x3.Idx → EReal :=
  fun i => H i + B (ix3 (0 : Fin 1) (0 : Fin 1) (chan3 i))

/-- The block the body stores, at (p, q, r): the loaded activations block there plus the loaded bias at r. -/
theorem pay7_apply (x0 : Vec Ideal S2x2000x3 .f32) (x1 : Vec Ideal S1x1x3 .f32) (p : Fin 2) (q : Fin 2000) (r : Fin 3) :
    Gen.k7_pay1 x0 x1 (ix3 p q r) = x0 (ix3 p q r) + x1 (ix3 (0 : Fin 1) (0 : Fin 1) r) := by
  unfold Gen.k7_pay1
  rw [shapeCast_self, shapeCast_self]
  refine (addf_apply _ _ _).trans ?_
  rw [Cert.LibBroadcast3.broadcastTo_11c_abc_apply]

/-- The stored block's entry is the whole-array function at an index i, once the loaded blocks are read off the arrays
    at the places i names. -/
theorem point7 (H : S2x50000x3.Idx → EReal) (B : S1x1x3.Idx → EReal)
    (x0 : Vec Ideal S2x2000x3 .f32) (x1 : Vec Ideal S1x1x3 .f32)
    (p : Fin 2) (q : Fin 2000) (r : Fin 3) (i : S2x50000x3.Idx)
    (h0 : x0 (ix3 p q r) = H i) (h1 : x1 (ix3 (0 : Fin 1) (0 : Fin 1) r) = B (ix3 (0 : Fin 1) (0 : Fin 1) r))
    (hi : (i 2).val = r.val) :
    Gen.k7_pay1 x0 x1 (ix3 p q r) = biasAdd3 H B i := by
  rw [pay7_apply, h0, h1]
  have e : chan3 i = r := Fin.ext hi
  unfold biasAdd3
  rw [e]

/-- The block index maps over the grid: point t's activations and output blocks are row block t, the bias block is
    the whole bias. -/
theorem idx7 : ∀ t : Fin cfg7.N,
      win7_0.index t (0 : Fin 3) = 0 ∧ win7_0.index t (1 : Fin 3) = t.val ∧ win7_0.index t (2 : Fin 3) = 0
    ∧ win7_1.index t (0 : Fin 3) = 0 ∧ win7_1.index t (1 : Fin 3) = 0 ∧ win7_1.index t (2 : Fin 3) = 0
    ∧ win7_2.index t (0 : Fin 3) = 0 ∧ win7_2.index t (1 : Fin 3) = t.val ∧ win7_2.index t (2 : Fin 3) = 0 :=
  (by decide +kernel : ∀ t : Fin grid7.N, _)

/-- What point t writes back is block t of the whole-array function of the region's input arrays. -/
theorem flushed7 (c : Dev nD) (t : Fin cfg7.N) :
    (Gen.dat7 (F := Ideal) V c).flushed 2 t
      = ((cfg7.win 2).blk t).view.read (Elt Ideal) (biasAdd3 (V c (Pipeline.arrRef spec7 0)) (V c (Pipeline.arrRef spec7 1))) := by
  show (cfg7.win 2).cut (grid7.coords t) ((Gen.dat7 (F := Ideal) V c).after 2 t) = _
  rw [Gen.after7_2]
  unfold Gen.out7_2
  rw [View.canon_unit_zero zero3]
  simp only [View.ld_unit_zero (S := S2x2000x3) zero3, View.ld_unit_zero (S := S1x1x3) zero3]
  obtain ⟨a0, a1, a2, b0, b1, b2, c0, c1, c2⟩ := idx7 t
  refine funext fun (j : S2x2000x3.Idx) => ?_
  obtain ⟨p, q, r, rfl⟩ : ∃ (p : Fin 2) (q : Fin 2000) (r : Fin 3), j = ix3 p q r := ⟨j 0, j 1, j 2, eq_ix3 j⟩
  refine point7 _ _ (Gen.iblk7 V c 0 t) (Gen.iblk7 V c 1 t) p q r _ ?_ ?_ ?_
  · show V c (Pipeline.arrRef spec7 0) (((cfg7.win 0).blk t).view.emb (ix3 p q r)) = V c (Pipeline.arrRef spec7 0) (((cfg7.win 2).blk t).view.emb (ix3 p q r))
    refine congrArg _ ?_
    funext a; apply Fin.ext
    match a with
    | ⟨0, _⟩ => show win7_0.index t (0 : Fin 3) * 2 + 1 * p.val = win7_2.index t (0 : Fin 3) * 2 + 1 * p.val; omega
    | ⟨1, _⟩ => show win7_0.index t (1 : Fin 3) * 2000 + 1 * q.val = win7_2.index t (1 : Fin 3) * 2000 + 1 * q.val; omega
    | ⟨2, _⟩ => show win7_0.index t (2 : Fin 3) * 3 + 1 * r.val = win7_2.index t (2 : Fin 3) * 3 + 1 * r.val; omega
  · show V c (Pipeline.arrRef spec7 1) (((cfg7.win 1).blk t).view.emb (ix3 (0 : Fin 1) (0 : Fin 1) r)) = V c (Pipeline.arrRef spec7 1) (ix3 (0 : Fin 1) (0 : Fin 1) r)
    refine congrArg _ ?_
    funext a; apply Fin.ext
    match a with
    | ⟨0, _⟩ => show win7_1.index t (0 : Fin 3) * 1 + 1 * 0 = 0; omega
    | ⟨1, _⟩ => show win7_1.index t (1 : Fin 3) * 1 + 1 * 0 = 0; omega
    | ⟨2, _⟩ => show win7_1.index t (2 : Fin 3) * 3 + 1 * r.val = r.val; omega
  · show win7_2.index t (2 : Fin 3) * 3 + 1 * r.val = r.val; omega

/-- An index of the output array lies in point t's block iff each coordinate lies in the block's range on its axis. -/
theorem mem_blk7 (t : Fin cfg7.N) (i : S2x50000x3.Idx) :
    i ∈ ((cfg7.win 2).blk t).view.set ↔ ∀ a : Fin 3, win7_2.index t a * S2x2000x3.size a ≤ (i a).val ∧ (i a).val < win7_2.index t a * S2x2000x3.size a + S2x2000x3.size a := by
  show i ∈ ((View.whole main_v120).slice (win7_2.rect t)).set ↔ _
  rw [View.set_slice_whole, Rect.mem_set_unit]
  exact Iff.rfl

/-- Every index of the output array lies in some point's block: row n in block n / 2000. -/
theorem cover7 (i : S2x50000x3.Idx) : ∃ t : Fin cfg7.N, (cfg7.win 2).flush t = true ∧ i ∈ ((cfg7.win 2).blk t).view.set := by
  have hi0 : (i 0).val < 2 := (i 0).isLt
  have hi1 : (i 1).val < 50000 := (i 1).isLt
  have hi2 : (i 2).val < 3 := (i 2).isLt
  have hN : grid7.N = 25 := Gen.N_7
  have ht : (i 1).val / 2000 < cfg7.N := by show _ < grid7.N; rw [hN]; omega
  obtain ⟨-, -, -, -, -, -, c0, c1, c2⟩ := idx7 ⟨(i 1).val / 2000, ht⟩
  refine ⟨⟨(i 1).val / 2000, ht⟩, Gen.flush7_2 _, ?_⟩
  rw [mem_blk7]
  intro a
  match a with
  | ⟨0, _⟩ => show win7_2.index ⟨(i 1).val / 2000, ht⟩ (0 : Fin 3) * 2 ≤ (i 0).val ∧ (i 0).val < win7_2.index ⟨(i 1).val / 2000, ht⟩ (0 : Fin 3) * 2 + 2; omega
  | ⟨1, _⟩ => show win7_2.index ⟨(i 1).val / 2000, ht⟩ (1 : Fin 3) * 2000 ≤ (i 1).val ∧ (i 1).val < win7_2.index ⟨(i 1).val / 2000, ht⟩ (1 : Fin 3) * 2000 + 2000; rw [c1]; show (i 1).val / 2000 * 2000 ≤ (i 1).val ∧ (i 1).val < (i 1).val / 2000 * 2000 + 2000; omega
  | ⟨2, _⟩ => show win7_2.index ⟨(i 1).val / 2000, ht⟩ (2 : Fin 3) * 3 ≤ (i 2).val ∧ (i 2).val < win7_2.index ⟨(i 1).val / 2000, ht⟩ (2 : Fin 3) * 3 + 3; omega

/-- The output array of the bias-add region after its 25 points: the activations plus the bias, entry by entry. -/
theorem final7 (c : Dev nD) :
    (Gen.dat7 (F := Ideal) V c).arrAt 2 cfg7.N = biasAdd3 (V c (Pipeline.arrRef spec7 0)) (V c (Pipeline.arrRef spec7 1)) :=
  (Gen.dat7 (F := Ideal) V c).arrAt_eq_of_cover 2 _ (fun t _ => flushed7 V c t) cover7

/-- Entry (b, n, ch) of the region's output is entry (b, n, ch) of the activations plus entry ch of the bias. -/
theorem ba7_value (c : Dev nD) (b : Fin 2) (n : Fin 50000) (ch : Fin 3) :
    (Gen.dat7 (F := Ideal) V c).arrAt 2 cfg7.N (ix3 b n ch)
      = @HAdd.hAdd EReal EReal EReal instHAdd ((V c (Pipeline.arrRef spec7 0) : S2x50000x3.Idx → EReal) (ix3 b n ch))
          ((V c (Pipeline.arrRef spec7 1) : S1x1x3.Idx → EReal) (ix3 (0 : Fin 1) (0 : Fin 1) ch)) := by
  rw [final7]; rfl

/-- The same with the two input arrays named. -/
theorem ba7_value_of (c : Dev nD) (H : S2x50000x3.Idx → EReal) (P1 : S1x1x3.Idx → EReal)
    (hH : H = V c (Pipeline.arrRef spec7 0)) (hP1 : P1 = V c (Pipeline.arrRef spec7 1)) (b : Fin 2) (n : Fin 50000) (ch : Fin 3) :
    (Gen.dat7 (F := Ideal) V c).arrAt 2 cfg7.N (ix3 b n ch) = H (ix3 b n ch) + P1 (ix3 (0 : Fin 1) (0 : Fin 1) ch) := by
  subst hH hP1; exact ba7_value V c b n ch

/-- The region's windows are the arrays of these buffers. -/
theorem arr7 : Pipeline.arrRef spec7 0 = main_v118 ∧ Pipeline.arrRef spec7 1 = main_v119 ∧ Pipeline.arrRef spec7 2 = main_v120 :=
  ⟨rfl, rfl, rfl⟩

end Cert.KernelIdeal.RegionValue

end
-- ==== Proof.KernelValue3.lean ====
/-
  The kernel program's value, layer 3: from the second layer's normalized activations, held as rows, to the third
  convolution (the program's first result before its unit axis).
-/
import proofs.«172352_j22454089024045_1_alg».proof.Proof.KernelValue2
import proofs.«172352_j22454089024045_1_alg».proof.Proof.RegionMatmul6
import proofs.«172352_j22454089024045_1_alg».proof.Proof.RegionBiasAdd

set_option maxRecDepth 16384

noncomputable section

open scoped BigOperators

namespace Cert.KernelIdeal.KValue

open Idealize.ShloMosaic Idealize.ShloMosaic.TcCoe Idealize.ShloMosaic.ValueIdx
open Cert.KernelIdeal Cert.KernelIdeal.Gen Cert.GcnSpec Cert.GcnSteps Cert.LibStats
open Cert.KernelIdeal.Stages (A)

variable (m : (ℓ : Loc nD τ sig) → Buf (Elt Ideal) ℓ) (ρ : Dev nD → PrngReg) (c : Dev nD)

/-! ## Layer 3 -/

/-- Region 6's result, entry by entry: the rows times the weight matrix. -/
theorem mm_v99 (r : Fin 100000) (o : Fin 3) :
    arr S100000x3 (A (F := Ideal) m ρ c main_v99) (ix2 r o)
      = ∑ k : Fin 8, arr S100000x8 (A (F := Ideal) m ρ c main_v98) (ix2 r k)
          * arr S8x3 (m ((c : Thread nD τ).loc main_arg9)) (ix2 k o) := by
  rw [Stages.A_v99_region]
  exact RegionValue.mm6_value_named (Gen.V19 m ρ) c _ _ (Stages.V19_v98 m ρ c)
    ((Stages.V19_arg9 m ρ c).trans (Stages.A_arg9 m ρ c)) r o

/-- The message passing of layer 3, as one composed term of the matrix product's rows. -/
theorem mp_v118 :
    arr S2x50000x3 (A (F := Ideal) m ρ c main_v118)
      = Host.scatterAdd (F := Ideal) scatter_S2x50000x3_S850000x1_S2x850000x3_02_1_1_1
          (broadcastInDim S2x50000x3 ![] bcast_S_S2x50000x3 (constant (F := Ideal) S_ .f32 0x00000000#32))
          (A (F := Ideal) m ρ c main_v55)
          (mulf (F := Ideal) (Host.gather gather_S2x50000x3_S850000x1_S2x850000x3_02_1_n_n_1_1_213
              (shapeCast S2x50000x3 (A (F := Ideal) m ρ c main_v99) shapeCasts_S100000x3_S2x50000x3)
              (A (F := Ideal) m ρ c main_v44))
            (broadcastInDim S2x850000x3 ![0, 1, 2] bcast_S1x850000x1_S2x850000x3_0_1_2
              (broadcastInDim S1x850000x1 ![1] bcast_S850000_S1x850000x1_1 (A (F := Ideal) m ρ c main_v34)))) := by
  rw [Stages.A_v118, Stages.A_v110, Stages.A_v107, Stages.A_v100, Stages.A_v109, Stages.A_v108, Stages.A_v111, Stages.A_cst_26, idx_v106 m ρ c, idx_v117 m ρ c]

/-- The bias block region 7 reads is the reshaped bias argument. -/
theorem bias_v119 : shapeCast S1x1x3 (arr S3 (m ((c : Thread nD τ).loc main_arg10))) shapeCasts_S3_S1x1x3
    = Gen.V21 m ρ c (Pipeline.arrRef spec7 1) := by
  rw [Stages.V21_v119, Stages.A_v119, Stages.A_arg10]

/-- Region 7's output holds the third convolution. -/
theorem pre_v120 : IsK (arr S2x50000x3 (A (F := Ideal) m ρ c main_v120))
    (out (src m ρ c) (tgt m ρ c) (nrm m ρ c) (xF m c) (W1F m c) (b1F m c) (g1F m c) (be1F m c) (W2F m c) (b2F m c) (g2F m c) (be2F m c) (W3F m c) (b3F m c)) :=
  layer_pre gather_S2x50000x3_S850000x1_S2x850000x3_02_1_n_n_1_1_213 rfl rfl rfl rfl rfl rfl rfl
    scatter_S2x50000x3_S850000x1_S2x850000x3_02_1_1_1 rfl rfl rfl rfl
    (arr S100000x8 (A (F := Ideal) m ρ c main_v98)) (h2 (src m ρ c) (tgt m ρ c) (nrm m ρ c) (xF m c) (W1F m c) (b1F m c) (g1F m c) (be1F m c) (W2F m c) (b2F m c) (g2F m c) (be2F m c)) (rows_v98 m ρ c)
    (arr S8x3 (m ((c : Thread nD τ).loc main_arg9))) (arr S100000x3 (A (F := Ideal) m ρ c main_v99)) (mm_v99 m ρ c)
    (A (F := Ideal) m ρ c main_v44) (A (F := Ideal) m ρ c main_v55) (arr S850000 (A (F := Ideal) m ρ c main_v34))
    shapeCasts_S100000x3_S2x50000x3 bcast_S850000_S1x850000x1_1 bcast_S1x850000x1_S2x850000x3_0_1_2 bcast_S_S2x50000x3
    (arr S2x50000x3 (A (F := Ideal) m ρ c main_v118)) (mp_v118 m ρ c)
    (arr S3 (m ((c : Thread nD τ).loc main_arg10))) shapeCasts_S3_S1x1x3
    (arr S2x50000x3 (A (F := Ideal) m ρ c main_v120)) (fun b n ch => by
      rw [Stages.A_v120_region]
      exact RegionValue.ba7_value_of (Gen.V21 m ρ) c _ _ (Stages.V21_v118 m ρ c).symm (bias_v119 m ρ c) b n ch)

end Cert.KernelIdeal.KValue

end
-- ==== Proof.KernelValue.lean ====
/-
  The kernel program's value: its two result buffers hold the specification's third convolution and second convolution
  of its arguments, each behind a leading unit axis.
-/
import proofs.«172352_j22454089024045_1_alg».proof.Proof.KernelValue3

set_option maxRecDepth 16384

noncomputable section

open scoped BigOperators

namespace Cert.KernelIdeal.KValue

open Idealize.ShloMosaic Idealize.ShloMosaic.TcCoe Idealize.ShloMosaic.ValueIdx
open Cert.KernelIdeal Cert.KernelIdeal.Gen Cert.GcnSpec Cert.GcnSteps Cert.LibStats
open Cert.KernelIdeal.Stages (A)

variable (m : (ℓ : Loc nD τ sig) → Buf (Elt Ideal) ℓ) (ρ : Dev nD → PrngReg) (c : Dev nD)

/-- THE FIRST RESULT holds the third convolution. -/
theorem out_value : IsR (C := 3) (A (F := Ideal) m ρ c main_v121)
    (out (src m ρ c) (tgt m ρ c) (nrm m ρ c) (xF m c) (W1F m c) (b1F m c) (g1F m c) (be1F m c) (W2F m c) (b2F m c) (g2F m c) (be2F m c) (W3F m c) (b3F m c)) := by
  rw [Stages.A_v121]
  exact isR_of_addUnit _ _ (pre_v120 m ρ c) _

/-- THE SECOND RESULT holds the second convolution. -/
theorem x1_value : IsR (C := 8) (A (F := Ideal) m ρ c main_v122)
    (x1 (src m ρ c) (tgt m ρ c) (nrm m ρ c) (xF m c) (W1F m c) (b1F m c) (g1F m c) (be1F m c) (W2F m c) (b2F m c)) := by
  rw [Stages.A_v122]
  exact isR_of_addUnit _ _ (pre_v89_0 m ρ c) _

end Cert.KernelIdeal.KValue

end
-- ==== Proof.RefBlocks.lean ====
/-
  The blocks of one graph-convolution layer on the layout `[1, 2, 50000, C]`, read through "this array holds that feature
  map".

  * A product with a weight matrix: every entry the sum over the shared axis, so the array holds `lin`.
  * Message passing: a gather of the source rows, a product with the edge weights spread over batch and channel, and a
    scatter-add at the target rows starting from zeros. Read at `(0, b, n, c)` the scatter-add is the sum over the edges
    landing on `n`; each summand is the source node's entry times the edge's weight: the array holds `prop`.
  * Adding a per-channel vector spread over batch and node: `bias`.
  * The maximum with the splat of the zero word: `relu`, the zero word being the real `0`.
  * Dropping the unit axis and exchanging node and channel gives the transposed layout `[2, C, 50000]`; the exchange
    back followed by a broadcast adding the unit axis returns to `[1, 2, 50000, C]`.
  * Batch normalization on the transposed layout, for ANY keep-dims arrays `[1, C, 1]` holding the mean and the variance:
    `((h − mean) · rsqrt (var + ε)) · γ + β`, every factor a broadcast read at the coordinates it keeps.
-/
import Idealize.ShloMosaic.Lib.IdealHost
import proofs.«172352_j22454089024045_1_alg».proof.Proof.StepsLayout
import proofs.«172352_j22454089024045_1_alg».proof.Proof.Stats

noncomputable section

namespace Cert.RefBlocks

open Idealize.ShloMosaic Idealize.ShloMosaic.ValueIdx Cert.GcnSpec Cert.GcnSteps

variable {C : Nat}

/-- The host's reciprocal square root at an index is the extended reals'. -/
theorem hostRsqrt_apply {s : Shape} {φ : FTy} (x : FVec Ideal s φ) (i : s.Idx) : Host.rsqrt x i = Ideal.rsqrt (x i) := rfl

/-- Message passing on the layout `[1, 2, 50000, C]`: scatter-add, from zeros, of the gathered rows times the edge
    weights. -/
theorem prop_isR (g : GatherDims ⟨4, ![1, 2, 50000, C]⟩ ⟨2, ![850000, 1]⟩ ⟨4, ![1, 2, 850000, C]⟩)
    (hod : g.offsetDims = [0, 1, 3]) (hcd : g.collapsedSliceDims = [2]) (hob : g.operandBatchingDims = [])
    (hsb : g.startIndicesBatchingDims = []) (hsm : g.startIndexMap = [2]) (hiv : g.indexVectorDim = 1)
    (hss : g.sliceSizes = ![1, 2, 1, C])
    (d : ScatterDims ⟨4, ![1, 2, 50000, C]⟩ ⟨2, ![850000, 1]⟩ ⟨4, ![1, 2, 850000, C]⟩)
    (huw : d.updateWindowDims = [0, 1, 3]) (hiw : d.insertedWindowDims = [2]) (hsd : d.scatterDimsToOperandDims = [2])
    (hiv' : d.indexVectorDim = 1)
    (xw : FVec Ideal ⟨4, ![1, 2, 50000, C]⟩ .f32) (H : Feat C) (hxw : IsR xw H)
    (src tgt : EdgeCol) (nrm : Fin 850000 → EReal)
    (wts : FVec Ideal ⟨4, ![1, 2, 850000, C]⟩ .f32) (hw : ∀ b e c, wts (ix4 (0 : Fin 1) b e c) = nrm e)
    (z : FVec Ideal ⟨4, ![1, 2, 50000, C]⟩ .f32) (hz : ∀ i, z i = 0) :
    IsR (Host.scatterAdd (F := Ideal) d z tgt (mulf (Host.gather g xw src) wts)) (prop src tgt nrm H) := by
  intro b n c
  show Ideal.hostScatterAdd d z tgt (mulf (Host.gather g xw src) wts) (ix4 (0 : Fin 1) b n c) = _
  rw [Cert.LibBatchRows.scatterAdd4_apply d huw hiw hsd hiv' z tgt _ b n c, hz, zero_add]
  unfold prop
  refine Finset.sum_congr rfl fun e _ => ?_
  rw [mulf_apply, Cert.LibBatchRows.gather4_apply g hod hcd hob hsb hsm hiv hss (by decide) xw src b e c, hxw, hw]
  rfl

/-- Adding a per-channel vector spread over batch and node. -/
theorem bias_isR (X : FVec Ideal ⟨4, ![1, 2, 50000, C]⟩ .f32) (H : Feat C) (hX : IsR X H)
    (v : FVec Ideal ⟨1, ![C]⟩ .f32) (bv : Fin C → EReal) (hv : ∀ c, v (ix1 c) = bv c)
    (p1 : (⟨1, ![C]⟩ : Shape).BroadcastsInDim ⟨4, ![1, 1, 1, C]⟩ ![3])
    (p2 : (⟨4, ![1, 1, 1, C]⟩ : Shape).BroadcastsInDim ⟨4, ![1, 2, 50000, C]⟩ ![0, 1, 2, 3]) :
    IsR (addf X (broadcastInDim ⟨4, ![1, 2, 50000, C]⟩ ![0, 1, 2, 3] p2 (broadcastInDim ⟨4, ![1, 1, 1, C]⟩ ![3] p1 v)))
      (bias H bv) := by
  intro b n c
  rw [addf_apply, hX, chan4_apply, hv]
  rfl

/-- The maximum with the splat of the zero word. -/
theorem relu_isR (X : FVec Ideal ⟨4, ![1, 2, 50000, C]⟩ .f32) (H : Feat C) (hX : IsR X H)
    (p : (⟨0, ![]⟩ : Shape).BroadcastsInDim ⟨4, ![1, 2, 50000, C]⟩ ![]) :
    IsR (maximumf X (broadcastInDim ⟨4, ![1, 2, 50000, C]⟩ ![] p (constant (F := Ideal) ⟨0, ![]⟩ .f32 0x00000000#32)))
      (relu H) := by
  intro b n c
  rw [maximumf_apply, hX, splat_apply, constant_apply, Ideal.ofBits_zero_f32]
  rfl

/-- Dropping the unit axis, then exchanging node and channel. -/
theorem toT_isT (X : FVec Ideal ⟨4, ![1, 2, 50000, C]⟩ .f32) (H : Feat C) (hX : IsR X H)
    (pc : (⟨4, ![1, 2, 50000, C]⟩ : Shape).ShapeCasts ⟨3, ![2, 50000, C]⟩)
    (pt : (⟨3, ![2, 50000, C]⟩ : Shape).Transposes [0, 2, 1] ⟨3, ![2, C, 50000]⟩) :
    IsT (transpose ⟨3, ![2, C, 50000]⟩ [0, 2, 1] (shapeCast ⟨3, ![2, 50000, C]⟩ X pc) pt) H :=
  isT_of_transpose _ H (isK_of_dropUnit X H hX pc) pt

/-- Exchanging channel and node back, then adding the unit axis. -/
theorem toR_isR (T : FVec Ideal ⟨3, ![2, C, 50000]⟩ .f32) (H : Feat C) (hT : IsT T H)
    (pt : (⟨3, ![2, C, 50000]⟩ : Shape).Transposes [0, 2, 1] ⟨3, ![2, 50000, C]⟩)
    (p : (⟨3, ![2, 50000, C]⟩ : Shape).BroadcastsInDim ⟨4, ![1, 2, 50000, C]⟩ ![1, 2, 3]) :
    IsR (broadcastInDim ⟨4, ![1, 2, 50000, C]⟩ ![1, 2, 3] p (transpose ⟨3, ![2, 50000, C]⟩ [0, 2, 1] T pt)) H :=
  isR_of_addUnit _ H (isK_of_transpose T H hT pt) p

/-- Batch normalization on the transposed layout, from keep-dims arrays holding the mean and the variance. -/
theorem bn_isT (T : FVec Ideal ⟨3, ![2, C, 50000]⟩ .f32) (H : Feat C) (hT : IsT T H)
    (Mn Vr : FVec Ideal ⟨3, ![1, C, 1]⟩ .f32)
    (hMn : ∀ c, Mn (ix3 (0 : Fin 1) c (0 : Fin 1)) = mean H c)
    (hVr : ∀ c, Vr (ix3 (0 : Fin 1) c (0 : Fin 1)) = var H c)
    (gv bev : FVec Ideal ⟨1, ![C]⟩ .f32) (g be : Fin C → EReal) (hg : ∀ c, gv (ix1 c) = g c)
    (hbe : ∀ c, bev (ix1 c) = be c)
    (pB0 : (⟨0, ![]⟩ : Shape).BroadcastsInDim ⟨3, ![1, C, 1]⟩ ![])
    (pB1 : (⟨1, ![C]⟩ : Shape).BroadcastsInDim ⟨3, ![1, C, 1]⟩ ![1])
    (pBf : (⟨3, ![1, C, 1]⟩ : Shape).BroadcastsInDim ⟨3, ![2, C, 50000]⟩ ![0, 1, 2]) :
    IsT (addf
        (mulf
          (mulf (subf T (broadcastInDim ⟨3, ![2, C, 50000]⟩ ![0, 1, 2] pBf Mn))
            (broadcastInDim ⟨3, ![2, C, 50000]⟩ ![0, 1, 2] pBf
              (Host.rsqrt (addf Vr (broadcastInDim ⟨3, ![1, C, 1]⟩ ![] pB0
                (constant (F := Ideal) ⟨0, ![]⟩ .f32 0x3727C5AC#32))))))
          (broadcastInDim ⟨3, ![2, C, 50000]⟩ ![0, 1, 2] pBf (broadcastInDim ⟨3, ![1, C, 1]⟩ ![1] pB1 gv)))
        (broadcastInDim ⟨3, ![2, C, 50000]⟩ ![0, 1, 2] pBf (broadcastInDim ⟨3, ![1, C, 1]⟩ ![1] pB1 bev)))
      (bn H g be) := by
  intro b n c
  rw [addf_apply, mulf_apply, mulf_apply, subf_apply, hT, Cert.LibStats.bcast_1c1_bcn_apply,
    Cert.LibStats.bcast_1c1_bcn_apply, Cert.LibStats.bcast_1c1_bcn_apply, Cert.LibStats.bcast_1c1_bcn_apply, hMn,
    hostRsqrt_apply, addf_apply, hVr, splat_apply, constant_apply, Cert.LibStats.bcast_c_1c1_apply,
    Cert.LibStats.bcast_c_1c1_apply, hg, hbe]
  rfl

/-- A product with a weight matrix, for ANY array `D` that reads as the sum over the shared axis. -/
theorem lin_isR {Ci Co : Nat} (l : FVec Ideal ⟨4, ![1, 2, 50000, Ci]⟩ .f32) (H : Feat Ci) (hl : IsR l H)
    (r : FVec Ideal ⟨2, ![Ci, Co]⟩ .f32) (W : Fin Ci → Fin Co → EReal) (hr : ∀ k o, r (ix2 k o) = W k o)
    (D : FVec Ideal ⟨4, ![1, 2, 50000, Co]⟩ .f32)
    (hD : ∀ b n o, D (ix4 (0 : Fin 1) b n o) = ∑ k : Fin Ci, l (ix4 (0 : Fin 1) b n k) * r (ix2 k o)) :
    IsR D (lin H W) := by
  intro b n o
  rw [hD]
  unfold lin
  exact Finset.sum_congr rfl fun k _ => by rw [hl, hr]

end Cert.RefBlocks

end
-- ==== Proof.LibDotRank4.lean ====
/-
  A product that contracts the last axis of a rank-4 array with the first axis of a matrix, read at an index, at the
  ideal values.

  For dimension numbers that contract the left operand's axis 3 with the right operand's axis 0, the left operand's axes
  0, 1, 2 free and no batch axis — an [A, B, N, K] by [K, O] product into [A, B, N, O] — the operand indices at result
  index `j` and contraction index `q` are (j 0, j 1, j 2, q) and (q, j 3). So the host's `dot_general` is, at every
  result index, the sum over `k : Fin K` of `l (j 0, j 1, j 2, k) * r (k, j 3)` on the extended reals: no rounding, no
  order.
-/
import Idealize.ShloMosaic.PureOps.Ideal.Laws
import Idealize.ShloMosaic.Lib.ValueIdx

noncomputable section

namespace Idealize.ShloMosaic.DotRank4

open Idealize.ShloMosaic Idealize.ShloMosaic.ValueIdx

variable {A B N K O : Nat} (d : DotDims ⟨4, ![A, B, N, K]⟩ ⟨2, ![K, O]⟩ ⟨4, ![A, B, N, O]⟩)

/-- The one contraction axis has extent `K`. -/
theorem contr_rank (hlc : d.lhsContracting = [3]) : d.contr.rank = 1 := by
  rw [d.rank_contr, hlc]; rfl

theorem contr_size (hlc : d.lhsContracting = [3]) : d.contr.size ⟨0, by rw [contr_rank d hlc]; exact Nat.one_pos⟩ = K := by
  rw [d.size_contr 0 (by rw [hlc]; exact Nat.one_pos)]
  simp only [hlc, List.getElem_cons_zero]
  rfl

/-- A free coordinate of the left operand's index is the result's coordinate on the same axis. -/
theorem lhsIdx_free (hln : d.lhsNonContracting = [0, 1, 2]) (hlb : d.lhsBatch = [])
    (j : (⟨4, ![A, B, N, O]⟩ : Shape).Idx) (q : d.contr.Idx) (a : Fin 4) (ha : a.val < 3) :
    (d.lhsIdx j q a).val = (j a).val := by
  have h3 : a = 0 ∨ a = 1 ∨ a = 2 := by
    match a, ha with
    | ⟨0, _⟩, _ => exact Or.inl rfl
    | ⟨1, _⟩, _ => exact Or.inr (Or.inl rfl)
    | ⟨2, _⟩, _ => exact Or.inr (Or.inr rfl)
    | ⟨3, _⟩, h => exact absurd h (Nat.lt_irrefl 3)
  have key : ∀ (p r : Nat) (hp : p < 4) (hr : r < 4), p = r →
      (j ⟨p, hp⟩).val = (j ⟨r, hr⟩).val := fun p r hp hr h => by subst h; rfl
  rcases h3 with rfl | rfl | rfl
  all_goals
    unfold DotDims.lhsIdx
    rw [dif_neg (by rw [hlb]; exact List.not_mem_nil), dif_pos (by rw [hln]; simp)]
    simp only [Fin.val_cast]
    exact key _ _ _ _ (by simp [hlb, hln])

/-- Column coordinate of the right operand's index: the result's last coordinate. -/
theorem rhsIdx_col (hln : d.lhsNonContracting = [0, 1, 2]) (hrn : d.rhsNonContracting = [1]) (hlb : d.lhsBatch = [])
    (hrb : d.rhsBatch = []) (j : (⟨4, ![A, B, N, O]⟩ : Shape).Idx) (q : d.contr.Idx) : (d.rhsIdx j q 1).val = (j 3).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 4) (hr : r < 4), p = r →
      (j ⟨p, hp⟩).val = (j ⟨r, hr⟩).val := fun p r hp hr h => by subst h; rfl
  exact key _ _ _ _ (by simp [hlb, hln, hrn])

/-- The contraction sum, re-indexed over `Fin K`. -/
theorem sum_contr (hlc : d.lhsContracting = [3]) (hrc : d.rhsContracting = [0]) (hln : d.lhsNonContracting = [0, 1, 2])
    (hrn : d.rhsNonContracting = [1]) (hlb : d.lhsBatch = []) (hrb : d.rhsBatch = [])
    (l : (⟨4, ![A, B, N, K]⟩ : Shape).Idx → EReal) (r : (⟨2, ![K, O]⟩ : Shape).Idx → EReal)
    (j : (⟨4, ![A, B, N, O]⟩ : Shape).Idx) :
    ∑ q : d.contr.Idx, l (d.lhsIdx j q) * r (d.rhsIdx j q)
      = ∑ k : Fin K, l (ix4 (j 0) (j 1) (j 2) k) * r (ix2 k (j 3)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix4 (j 0) (j 1) (j 2) k :=
    funext fun a => Fin.ext (by
      match a with
      | ⟨0, _⟩ => exact lhsIdx_free d hln hlb _ _ 0 (by decide)
      | ⟨1, _⟩ => exact lhsIdx_free d hln hlb _ _ 1 (by decide)
      | ⟨2, _⟩ => exact lhsIdx_free d hln hlb _ _ 2 (by decide)
      | ⟨3, _⟩ => exact (d.lhsIdx_val_of_single hlc _ _).trans hk)
  have er : d.rhsIdx j ((contrEquiv1 d K (contr_rank d hlc) (contr_size d hlc)).symm k) = ix2 k (j 3) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- The host's `dot_general` of such a product, at an index: the sum of products over the shared axis. -/
theorem dotGeneral_apply {φ₁ φ₂ : FTy} (hlc : d.lhsContracting = [3]) (hrc : d.rhsContracting = [0])
    (hln : d.lhsNonContracting = [0, 1, 2]) (hrn : d.rhsNonContracting = [1]) (hlb : d.lhsBatch = []) (hrb : d.rhsBatch = [])
    (prec : Option ContractPrecision) (sched : HostSchedule) (l : FVec Ideal ⟨4, ![A, B, N, K]⟩ φ₁) (r : FVec Ideal ⟨2, ![K, O]⟩ φ₂)
    (j : (⟨4, ![A, B, N, O]⟩ : Shape).Idx) :
    FloatOps.dotGeneral d prec sched l r j = ∑ k : Fin K, l (ix4 (j 0) (j 1) (j 2) k) * r (ix2 k (j 3)) :=
  (Ideal.dotGeneral_apply d prec sched l r j).trans (sum_contr d hlc hrc hln hrn hlb hrb l r j)

end Idealize.ShloMosaic.DotRank4

end
-- ==== Proof.RefLinear.lean ====
/-
  The reference's three linear layers, read at an index.

  Each is a `dot_general` that contracts the last axis of a [1, 2, 50000, K] array with the first axis of a [K, O]
  matrix. At the ideal values the entry at (0, b, n, o) is the sum over the shared axis k of
  left (0, b, n, k) * right (k, o), on the extended reals.
-/
import proofs.«172352_j22454089024045_1_alg».proof.ReferenceIdeal
import proofs.«172352_j22454089024045_1_alg».proof.Proof.LibDotRank4

noncomputable section

namespace Cert.ReferenceIdeal.RefLinear

open Idealize.ShloMosaic Idealize.ShloMosaic.ValueIdx

variable [Cert.ReferenceIdeal.Facts₀]

/-- The first layer, 216 features to 64. -/
theorem r_lin64 (l : FVec Ideal Cert.ReferenceIdeal.S1x2x50000x216 .f32) (r : FVec Ideal Cert.ReferenceIdeal.S216x64 .f32)
    (b : Fin 2) (n : Fin 50000) (o : Fin 64) :
    Host.dotGeneral (F := Ideal) Cert.ReferenceIdeal.dot_S1x2x50000x216_S216x64_S1x2x50000x64_3_0_012_1_n_n none l r (ix4 (0 : Fin 1) b n o)
      = ∑ k : Fin 216, l (ix4 (0 : Fin 1) b n k) * r (ix2 k o) :=
  DotRank4.dotGeneral_apply Cert.ReferenceIdeal.dot_S1x2x50000x216_S216x64_S1x2x50000x64_3_0_012_1_n_n rfl rfl rfl rfl rfl rfl
    none .single l r (ix4 (0 : Fin 1) b n o)

/-- The second layer, 64 features to 8. -/
theorem r_lin8 (l : FVec Ideal Cert.ReferenceIdeal.S1x2x50000x64 .f32) (r : FVec Ideal Cert.ReferenceIdeal.S64x8 .f32)
    (b : Fin 2) (n : Fin 50000) (o : Fin 8) :
    Host.dotGeneral (F := Ideal) Cert.ReferenceIdeal.dot_S1x2x50000x64_S64x8_S1x2x50000x8_3_0_012_1_n_n none l r (ix4 (0 : Fin 1) b n o)
      = ∑ k : Fin 64, l (ix4 (0 : Fin 1) b n k) * r (ix2 k o) :=
  DotRank4.dotGeneral_apply Cert.ReferenceIdeal.dot_S1x2x50000x64_S64x8_S1x2x50000x8_3_0_012_1_n_n rfl rfl rfl rfl rfl rfl
    none .single l r (ix4 (0 : Fin 1) b n o)

/-- The third layer, 8 features to 3. -/
theorem r_lin3 (l : FVec Ideal Cert.ReferenceIdeal.S1x2x50000x8 .f32) (r : FVec Ideal Cert.ReferenceIdeal.S8x3 .f32)
    (b : Fin 2) (n : Fin 50000) (o : Fin 3) :
    Host.dotGeneral (F := Ideal) Cert.ReferenceIdeal.dot_S1x2x50000x8_S8x3_S1x2x50000x3_3_0_012_1_n_n none l r (ix4 (0 : Fin 1) b n o)
      = ∑ k : Fin 8, l (ix4 (0 : Fin 1) b n k) * r (ix2 k o) :=
  DotRank4.dotGeneral_apply Cert.ReferenceIdeal.dot_S1x2x50000x8_S8x3_S1x2x50000x3_3_0_012_1_n_n rfl rfl rfl rfl rfl rfl
    none .single l r (ix4 (0 : Fin 1) b n o)

end Cert.ReferenceIdeal.RefLinear

end
-- ==== Proof.RefValue1.lean ====
/-
  The reference program's first layer, buffer by buffer: what each array holds once the program has run, as a feature map of
  the specification.

  The inputs of the specification are read off the program: the source and target columns are the two normalized index
  columns the first layer uses, the edge weights the array of products of the two gathered degree factors, and the
  features, weight matrices and per-channel vectors the launch contents of the arguments.

  Each buffer is one operation of the buffers before it. The product with the first weight matrix holds `lin`; gathering at
  the sources, weighing and adding up at the targets holds `prop`; adding the bias holds `conv`; the maximum with zero
  `relu`. Its transposed copy feeds the statistics: the sum over batch and node divided by the count is the mean, the sum
  of squared deviations divided by the count (the count less the converted word `0`, selected because it is positive) the
  variance. The normalization's five elementwise steps hold `bn`, and the transposition back with a unit axis in front
  holds the first layer's output `h1`.
-/
import proofs.«172352_j22454089024045_1_alg».proof.Proof.RefRunStages
import proofs.«172352_j22454089024045_1_alg».proof.Proof.RefBlocks
import proofs.«172352_j22454089024045_1_alg».proof.Proof.RefLinear

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx

/-- The launch memory, at the ideal values. -/
abbrev Mem : Type := (ℓ : Loc nD τ sig) → Buf (Elt Ideal) ℓ

/-! ### The specification's inputs, read off the program -/

/-- The source column: the first layer's normalized gather indices. -/
def src (m : Mem) (c : Dev nD) : Cert.GcnSpec.EdgeCol := A m c main_v41
/-- The target column: the first layer's normalized scatter indices. -/
def tgt (m : Mem) (c : Dev nD) : Cert.GcnSpec.EdgeCol := A m c main_v52
/-- The edge weights. -/
def nrm (m : Mem) (c : Dev nD) : Fin 850000 → EReal := fun e => (A m c main_v34 : FVec Ideal S850000 .f32) (ix1 e)
/-- The input features. -/
def xF (m : Mem) (c : Dev nD) : Cert.GcnSpec.Feat 216 := fun b n k =>
  (m ((c.tc : Thread nD τ).loc main_arg0) : FVec Ideal S1x2x50000x216 .f32) (ix4 (0 : Fin 1) b n k)
/-- The first weight matrix. -/
def W1F (m : Mem) (c : Dev nD) : Fin 216 → Fin 64 → EReal := fun k o =>
  (m ((c.tc : Thread nD τ).loc main_arg1) : FVec Ideal S216x64 .f32) (ix2 k o)
/-- The first bias. -/
def b1F (m : Mem) (c : Dev nD) : Fin 64 → EReal := fun ch =>
  (m ((c.tc : Thread nD τ).loc main_arg2) : FVec Ideal S64 .f32) (ix1 ch)
/-- The first normalization's scale. -/
def g1F (m : Mem) (c : Dev nD) : Fin 64 → EReal := fun ch =>
  (m ((c.tc : Thread nD τ).loc main_arg3) : FVec Ideal S64 .f32) (ix1 ch)
/-- The first normalization's shift. -/
def be1F (m : Mem) (c : Dev nD) : Fin 64 → EReal := fun ch =>
  (m ((c.tc : Thread nD τ).loc main_arg4) : FVec Ideal S64 .f32) (ix1 ch)
/-- The second weight matrix. -/
def W2F (m : Mem) (c : Dev nD) : Fin 64 → Fin 8 → EReal := fun k o =>
  (m ((c.tc : Thread nD τ).loc main_arg5) : FVec Ideal S64x8 .f32) (ix2 k o)
/-- The second bias. -/
def b2F (m : Mem) (c : Dev nD) : Fin 8 → EReal := fun ch =>
  (m ((c.tc : Thread nD τ).loc main_arg6) : FVec Ideal S8 .f32) (ix1 ch)
/-- The second normalization's scale. -/
def g2F (m : Mem) (c : Dev nD) : Fin 8 → EReal := fun ch =>
  (m ((c.tc : Thread nD τ).loc main_arg7) : FVec Ideal S8 .f32) (ix1 ch)
/-- The second normalization's shift. -/
def be2F (m : Mem) (c : Dev nD) : Fin 8 → EReal := fun ch =>
  (m ((c.tc : Thread nD τ).loc main_arg8) : FVec Ideal S8 .f32) (ix1 ch)
/-- The third weight matrix. -/
def W3F (m : Mem) (c : Dev nD) : Fin 8 → Fin 3 → EReal := fun k o =>
  (m ((c.tc : Thread nD τ).loc main_arg9) : FVec Ideal S8x3 .f32) (ix2 k o)
/-- The third bias. -/
def b3F (m : Mem) (c : Dev nD) : Fin 3 → EReal := fun ch =>
  (m ((c.tc : Thread nD τ).loc main_arg10) : FVec Ideal S3 .f32) (ix1 ch)

/-! ### The first layer -/

section Layer1

variable (m : Mem) (c : Dev nD)

/-- The first convolution's feature map. -/
abbrev c1 : Cert.GcnSpec.Feat 64 := Cert.GcnSpec.conv (src m c) (tgt m c) (nrm m c) (xF m c) (W1F m c) (b1F m c)

/-- The product with the first weight matrix. -/
theorem v35_isR : Cert.GcnSteps.IsR (A m c main_v35) (Cert.GcnSpec.lin (xF m c) (W1F m c)) := by
  rw [st_main_v35, st_main_arg0, st_main_arg1]
  exact Cert.RefBlocks.lin_isR _ (xF m c) (fun _ _ _ => rfl) _ (W1F m c) (fun _ _ => rfl) _
    (fun b n o => RefLinear.r_lin64 _ _ b n o)

/-- Message passing. -/
theorem v53_isR : Cert.GcnSteps.IsR (A m c main_v53)
    (Cert.GcnSpec.prop (src m c) (tgt m c) (nrm m c) (Cert.GcnSpec.lin (xF m c) (W1F m c))) := by
  rw [st_main_v53, st_main_v46, st_main_cst_10, st_main_v45, st_main_v44, st_main_v43, st_main_v42]
  exact Cert.RefBlocks.prop_isR gather_S1x2x50000x64_S850000x1_S1x2x850000x64_013_2_n_n_2_1_12164
    rfl rfl rfl rfl rfl rfl rfl scatter_S1x2x50000x64_S850000x1_S1x2x850000x64_013_2_2_1 rfl rfl rfl rfl
    _ _ (v35_isR m c) (src m c) (tgt m c) (nrm m c) _ (fun b e ch => Cert.GcnSteps.weights4_apply _ _ _ b e ch) _
    (fun i => by rw [Cert.GcnSteps.splat_apply, constant_apply, Ideal.ofBits_zero_f32])

/-- The bias. -/
theorem v56_isR : Cert.GcnSteps.IsR (A m c main_v56) (c1 m c) := by
  rw [st_main_v56, st_main_v55, st_main_v54, st_main_arg2]
  exact Cert.RefBlocks.bias_isR _ _ (v53_isR m c) _ (b1F m c) (fun _ => rfl) _ _

/-- The positive part. -/
theorem v57_isR : Cert.GcnSteps.IsR (A m c main_v57) (Cert.GcnSpec.relu (c1 m c)) := by
  rw [st_main_v57, st_main_call1_v0, st_main_call1_cst]
  exact Cert.RefBlocks.relu_isR _ _ (v56_isR m c) _

/-- The transposed copy. -/
theorem v59_isT : Cert.GcnSteps.IsT (A m c main_v59) (Cert.GcnSpec.relu (c1 m c)) := by
  rw [st_main_v59, st_main_v58]
  exact Cert.RefBlocks.toT_isT _ _ (v57_isR m c) _ _

/-- The mean. -/
theorem v63_mean (ch : Fin 64) :
    (A m c main_v63 : FVec Ideal S1x64x1 .f32) (ix3 (0 : Fin 1) ch (0 : Fin 1))
      = Cert.GcnSpec.mean (Cert.GcnSpec.relu (c1 m c)) ch := by
  rw [st_main_v63, st_main_v62, st_main_cst_14, st_main_v61, st_main_v60, st_main_cst_13]
  exact Cert.LibStats.r_mean_apply _ _ (v59_isT m c) _ _ _ _ 0 0 ch

/-- The variance. -/
theorem v64_var (ch : Fin 64) :
    (A m c main_v64 : FVec Ideal S1x64x1 .f32) (ix3 (0 : Fin 1) ch (0 : Fin 1))
      = Cert.GcnSpec.var (Cert.GcnSpec.relu (c1 m c)) ch := by
  rw [st_main_v64, st_main_call2_v13, st_main_call2_cst_3, st_main_call2_v12, st_main_call2_v11, st_main_call2_v10, st_main_call2_v9, st_main_call2_cst_2, st_main_call2_v8, st_main_call2_cst_1, st_main_call2_v7, st_main_call2_v6, st_main_call2_v5, st_main_call2_v4, st_main_call2_v3, st_main_call2_v2, st_main_call2_cst_0, st_main_call2_v1, st_main_call2_v0, st_main_call2_cst]
  exact Cert.LibStats.r_var_apply (A m c main_v59) (A m c main_c_15) (A m c main_call2_call0_v1) _ (v59_isT m c)
    (by rw [st_main_c_15]; rfl) _ _ _ _ _ 0 0 ch

/-- The normalization. -/
theorem v77_isT : Cert.GcnSteps.IsT (A m c main_v77)
    (Cert.GcnSpec.bn (Cert.GcnSpec.relu (c1 m c)) (g1F m c) (be1F m c)) := by
  rw [st_main_v77, st_main_v76, st_main_v75, st_main_v74, st_main_v73, st_main_v72, st_main_v71, st_main_v70, st_main_v69, st_main_v68, st_main_v67, st_main_cst_16, st_main_v66, st_main_v65, st_main_arg3, st_main_arg4]
  exact Cert.RefBlocks.bn_isT _ _ (v59_isT m c) (A m c main_v63) (A m c main_v64) (v63_mean m c) (v64_var m c)
    _ _ (g1F m c) (be1F m c) (fun _ => rfl) (fun _ => rfl) _ _ _

/-- The first layer's output. -/
theorem v79_isR : Cert.GcnSteps.IsR (A m c main_v79)
    (Cert.GcnSpec.h1 (src m c) (tgt m c) (nrm m c) (xF m c) (W1F m c) (b1F m c) (g1F m c) (be1F m c)) := by
  rw [st_main_v79, st_main_v78]
  exact Cert.RefBlocks.toR_isR _ _ (v77_isT m c) _ _

end Layer1

end Cert.ReferenceIdeal.RefValue

end
-- ==== Proof.RefValueCols.lean ====
/-
  The reference program normalizes the source column and the target column anew before each use: a word below zero is
  shifted up by the number of nodes, then the column gets its unit axis. The three normalized source columns are the same
  operations over the same column, and so are the three target columns: each later one equals the first layer's.
-/
import proofs.«172352_j22454089024045_1_alg».proof.Proof.RefRunStages

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo

variable {F : FTy → Type} [FloatOps F] (m : (ℓ : Loc nD τ sig) → Buf (Elt F) ℓ) (c : Dev nD)

/-- The second layer's source column is the first layer's. -/
theorem v86_eq : A m c main_v86 = A m c main_v41 := by
  rw [st_main_v86, st_main_v85, st_main_v84, st_main_v83, st_main_c_18, st_main_v82, st_main_v81, st_main_c_17,
    st_main_v41, st_main_v40, st_main_v39, st_main_v38, st_main_c_9, st_main_v37, st_main_v36, st_main_c_8]

/-- The third layer's source column is the first layer's. -/
theorem v131_eq : A m c main_v131 = A m c main_v41 := by
  rw [st_main_v131, st_main_v130, st_main_v129, st_main_v128, st_main_c_27, st_main_v127, st_main_v126, st_main_c_26,
    st_main_v41, st_main_v40, st_main_v39, st_main_v38, st_main_c_9, st_main_v37, st_main_v36, st_main_c_8]

/-- The second layer's target column is the first layer's. -/
theorem v97_eq : A m c main_v97 = A m c main_v52 := by
  rw [st_main_v97, st_main_v96, st_main_v95, st_main_v94, st_main_c_21, st_main_v93, st_main_v92, st_main_c_20,
    st_main_v52, st_main_v51, st_main_v50, st_main_v49, st_main_c_12, st_main_v48, st_main_v47, st_main_c_11]

/-- The third layer's target column is the first layer's. -/
theorem v142_eq : A m c main_v142 = A m c main_v52 := by
  rw [st_main_v142, st_main_v141, st_main_v140, st_main_v139, st_main_c_30, st_main_v138, st_main_v137, st_main_c_29,
    st_main_v52, st_main_v51, st_main_v50, st_main_v49, st_main_c_12, st_main_v48, st_main_v47, st_main_c_11]

end Cert.ReferenceIdeal.RefValue

end
-- ==== Proof.RefValue2.lean ====
/-
  The reference program's second layer, buffer by buffer, as the first: the product of the first layer's output with the
  second weight matrix, message passing along the same edges (the second layer's index columns are the first layer's), the
  bias — this array is the program's second result and holds `x1` —, then the positive part, the statistics on the
  transposed copy, the normalization and the way back, which holds the second layer's output `h2`.
-/
import proofs.«172352_j22454089024045_1_alg».proof.Proof.RefValue1
import proofs.«172352_j22454089024045_1_alg».proof.Proof.RefValueCols

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx

section Layer2

variable (m : Mem) (c : Dev nD)

/-- The first layer's output. -/
abbrev h1F : Cert.GcnSpec.Feat 64 := Cert.GcnSpec.h1 (src m c) (tgt m c) (nrm m c) (xF m c) (W1F m c) (b1F m c) (g1F m c) (be1F m c)
/-- The second convolution's feature map: the specification's second result. -/
abbrev x1F : Cert.GcnSpec.Feat 8 := Cert.GcnSpec.x1 (src m c) (tgt m c) (nrm m c) (xF m c) (W1F m c) (b1F m c) (g1F m c) (be1F m c) (W2F m c) (b2F m c)

/-- The product with the second weight matrix. -/
theorem v80_isR : Cert.GcnSteps.IsR (A m c main_v80) (Cert.GcnSpec.lin (h1F m c) (W2F m c)) := by
  rw [st_main_v80, st_main_arg5]
  exact Cert.RefBlocks.lin_isR _ _ (v79_isR m c) _ (W2F m c) (fun _ _ => rfl) _
    (fun b n o => RefLinear.r_lin8 _ _ b n o)

/-- Message passing. -/
theorem v98_isR : Cert.GcnSteps.IsR (A m c main_v98)
    (Cert.GcnSpec.prop (src m c) (tgt m c) (nrm m c) (Cert.GcnSpec.lin (h1F m c) (W2F m c))) := by
  rw [st_main_v98, st_main_v91, st_main_cst_19, st_main_v90, st_main_v89, st_main_v88, st_main_v87, v97_eq, v86_eq]
  exact Cert.RefBlocks.prop_isR gather_S1x2x50000x8_S850000x1_S1x2x850000x8_013_2_n_n_2_1_1218
    rfl rfl rfl rfl rfl rfl rfl scatter_S1x2x50000x8_S850000x1_S1x2x850000x8_013_2_2_1 rfl rfl rfl rfl
    _ _ (v80_isR m c) (src m c) (tgt m c) (nrm m c) _ (fun b e ch => Cert.GcnSteps.weights4_apply _ _ _ b e ch) _
    (fun i => by rw [Cert.GcnSteps.splat_apply, constant_apply, Ideal.ofBits_zero_f32])

/-- THE SECOND RESULT: the bias added. -/
theorem v101_isR : Cert.GcnSteps.IsR (A m c main_v101) (x1F m c) := by
  rw [st_main_v101, st_main_v100, st_main_v99, st_main_arg6]
  exact Cert.RefBlocks.bias_isR _ _ (v98_isR m c) _ (b2F m c) (fun _ => rfl) _ _

/-- The positive part. -/
theorem v102_isR : Cert.GcnSteps.IsR (A m c main_v102) (Cert.GcnSpec.relu (x1F m c)) := by
  rw [st_main_v102, st_main_call3_v0, st_main_call3_cst]
  exact Cert.RefBlocks.relu_isR _ _ (v101_isR m c) _

/-- The transposed copy. -/
theorem v104_isT : Cert.GcnSteps.IsT (A m c main_v104) (Cert.GcnSpec.relu (x1F m c)) := by
  rw [st_main_v104, st_main_v103]
  exact Cert.RefBlocks.toT_isT _ _ (v102_isR m c) _ _

/-- The mean. -/
theorem v108_mean (ch : Fin 8) :
    (A m c main_v108 : FVec Ideal S1x8x1 .f32) (ix3 (0 : Fin 1) ch (0 : Fin 1))
      = Cert.GcnSpec.mean (Cert.GcnSpec.relu (x1F m c)) ch := by
  rw [st_main_v108, st_main_v107, st_main_cst_23, st_main_v106, st_main_v105, st_main_cst_22]
  exact Cert.LibStats.r_mean_apply _ _ (v104_isT m c) _ _ _ _ 0 0 ch

/-- The variance. -/
theorem v109_var (ch : Fin 8) :
    (A m c main_v109 : FVec Ideal S1x8x1 .f32) (ix3 (0 : Fin 1) ch (0 : Fin 1))
      = Cert.GcnSpec.var (Cert.GcnSpec.relu (x1F m c)) ch := by
  rw [st_main_v109, st_main_call4_v13, st_main_call4_cst_3, st_main_call4_v12, st_main_call4_v11, st_main_call4_v10, st_main_call4_v9, st_main_call4_cst_2, st_main_call4_v8, st_main_call4_cst_1, st_main_call4_v7, st_main_call4_v6, st_main_call4_v5, st_main_call4_v4, st_main_call4_v3, st_main_call4_v2, st_main_call4_cst_0, st_main_call4_v1, st_main_call4_v0, st_main_call4_cst]
  exact Cert.LibStats.r_var_apply (A m c main_v104) (A m c main_c_24) (A m c main_call4_call0_v1) _ (v104_isT m c)
    (by rw [st_main_c_24]; rfl) _ _ _ _ _ 0 0 ch

/-- The normalization. -/
theorem v122_isT : Cert.GcnSteps.IsT (A m c main_v122)
    (Cert.GcnSpec.bn (Cert.GcnSpec.relu (x1F m c)) (g2F m c) (be2F m c)) := by
  rw [st_main_v122, st_main_v121, st_main_v120, st_main_v119, st_main_v118, st_main_v117, st_main_v116, st_main_v115, st_main_v114, st_main_v113, st_main_v112, st_main_cst_25, st_main_v111, st_main_v110, st_main_arg7, st_main_arg8]
  exact Cert.RefBlocks.bn_isT _ _ (v104_isT m c) (A m c main_v108) (A m c main_v109) (v108_mean m c) (v109_var m c)
    _ _ (g2F m c) (be2F m c) (fun _ => rfl) (fun _ => rfl) _ _ _

/-- The second layer's output. -/
theorem v124_isR : Cert.GcnSteps.IsR (A m c main_v124)
    (Cert.GcnSpec.h2 (src m c) (tgt m c) (nrm m c) (xF m c) (W1F m c) (b1F m c) (g1F m c) (be1F m c) (W2F m c) (b2F m c) (g2F m c) (be2F m c)) := by
  rw [st_main_v124, st_main_v123]
  exact Cert.RefBlocks.toR_isR _ _ (v122_isT m c) _ _

end Layer2

end Cert.ReferenceIdeal.RefValue

end
-- ==== Proof.RefValue3.lean ====
/-
  The reference program's third layer: the product of the second layer's output with the third weight matrix, message
  passing along the same edges, and the bias. This array is the program's first result and holds `out`.
-/
import proofs.«172352_j22454089024045_1_alg».proof.Proof.RefValue2

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx

section Layer3

variable (m : Mem) (c : Dev nD)

/-- The second layer's output. -/
abbrev h2F : Cert.GcnSpec.Feat 8 := Cert.GcnSpec.h2 (src m c) (tgt m c) (nrm m c) (xF m c) (W1F m c) (b1F m c) (g1F m c) (be1F m c) (W2F m c) (b2F m c) (g2F m c) (be2F m c)

/-- The product with the third weight matrix. -/
theorem v125_isR : Cert.GcnSteps.IsR (A m c main_v125) (Cert.GcnSpec.lin (h2F m c) (W3F m c)) := by
  rw [st_main_v125, st_main_arg9]
  exact Cert.RefBlocks.lin_isR _ _ (v124_isR m c) _ (W3F m c) (fun _ _ => rfl) _
    (fun b n o => RefLinear.r_lin3 _ _ b n o)

/-- Message passing. -/
theorem v143_isR : Cert.GcnSteps.IsR (A m c main_v143)
    (Cert.GcnSpec.prop (src m c) (tgt m c) (nrm m c) (Cert.GcnSpec.lin (h2F m c) (W3F m c))) := by
  rw [st_main_v143, st_main_v136, st_main_cst_28, st_main_v135, st_main_v134, st_main_v133, st_main_v132, v142_eq, v131_eq]
  exact Cert.RefBlocks.prop_isR gather_S1x2x50000x3_S850000x1_S1x2x850000x3_013_2_n_n_2_1_1213
    rfl rfl rfl rfl rfl rfl rfl scatter_S1x2x50000x3_S850000x1_S1x2x850000x3_013_2_2_1 rfl rfl rfl rfl
    _ _ (v125_isR m c) (src m c) (tgt m c) (nrm m c) _ (fun b e ch => Cert.GcnSteps.weights4_apply _ _ _ b e ch) _
    (fun i => by rw [Cert.GcnSteps.splat_apply, constant_apply, Ideal.ofBits_zero_f32])

/-- THE FIRST RESULT: the bias added. -/
theorem v146_isR : Cert.GcnSteps.IsR (A m c main_v146) (Cert.GcnSpec.out (src m c) (tgt m c) (nrm m c) (xF m c) (W1F m c) (b1F m c) (g1F m c) (be1F m c) (W2F m c) (b2F m c) (g2F m c) (be2F m c) (W3F m c) (b3F m c)) := by
  rw [st_main_v146, st_main_v145, st_main_v144, st_main_arg10]
  exact Cert.RefBlocks.bias_isR _ _ (v143_isR m c) _ (b3F m c) (fun _ => rfl) _ _

end Layer3

end Cert.ReferenceIdeal.RefValue

end
-- ==== Proof.RefValue.lean ====
/-
  The reference program's two results, as feature maps of the specification: the first result buffer holds the
  three-layer network's output `out`, the second the second convolution `x1`, of the inputs read off the program.
-/
import proofs.«172352_j22454089024045_1_alg».proof.Proof.RefValue3

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx

/-- THE FIRST RESULT holds the network's output. -/
theorem out_value (m : Mem) (c : Dev nD) :
    Cert.GcnSteps.IsR (A m c main_v146)
      (Cert.GcnSpec.out (src m c) (tgt m c) (nrm m c) (xF m c) (W1F m c) (b1F m c) (g1F m c) (be1F m c) (W2F m c) (b2F m c)
        (g2F m c) (be2F m c) (W3F m c) (b3F m c)) :=
  v146_isR m c

/-- THE SECOND RESULT holds the second convolution. -/
theorem x1_value (m : Mem) (c : Dev nD) :
    Cert.GcnSteps.IsR (A m c main_v101)
      (Cert.GcnSpec.x1 (src m c) (tgt m c) (nrm m c) (xF m c) (W1F m c) (b1F m c) (g1F m c) (be1F m c) (W2F m c) (b2F m c)) :=
  v101_isR m c

end Cert.ReferenceIdeal.RefValue

end
-- ==== Proof.SharedEdgesChain.lean ====
/-
  The edge columns and edge weights as functions of the edge list.

  Both programs compute, from the same integer argument x : i32[2, 800000], the two edge columns with the 50000 self
  loops appended (`col0 x`, `col1 x`), each use of a column normalized to a non-negative start index in a [850000, 1]
  array (`norm v`: add 50000 where the entry is negative), the degree of every node as a scatter-add of ones at the
  normalized second column (`deg x`), its inverse square root where the degree is positive and zero elsewhere
  (`dinv x`), and the edge weights, the product of that vector gathered at the two normalized columns (`weights x`).
  Each function is spelled once here; a lemma per stretch says that values related by the operations' one-step
  equations are that function of x.
-/
import proofs.«172352_j22454089024045_1_alg».proof.ReferenceIdeal

noncomputable section

namespace Cert.SharedEdges

open Idealize.ShloMosaic Cert.ReferenceIdeal Cert.ReferenceIdeal.Facts₀

variable {F : FTy → Type} [FloatOps F] [Cert.ReferenceIdeal.Facts₀]

/-! ## The functions -/

/-- Row 0 of the edge list followed by the self loops 0 … 49999. -/
def col0 (x : (⟨S2x800000, .i32⟩ : BufTy).Contents (Elt F)) : (⟨S850000, .i32⟩ : BufTy).Contents (Elt F) :=
  concatenate S850000 0 [⟨S800000, shapeCast S800000 (extractStridedSlice S1x800000 ![0, 0] x slices_S2x800000_S1x800000_0_0) shapeCasts_S1x800000_S800000⟩,
    ⟨S50000, (iotaInDim S50000 32 0 : (⟨S50000, .i32⟩ : BufTy).Contents (Elt F))⟩] concatenates_S800000_S50000_S850000_d0

/-- Row 1 of the edge list followed by the self loops 0 … 49999. -/
def col1 (x : (⟨S2x800000, .i32⟩ : BufTy).Contents (Elt F)) : (⟨S850000, .i32⟩ : BufTy).Contents (Elt F) :=
  concatenate S850000 0 [⟨S800000, shapeCast S800000 (extractStridedSlice S1x800000 ![1, 0] x slices_S2x800000_S1x800000_1_0) shapeCasts_S1x800000_S800000⟩,
    ⟨S50000, (iotaInDim S50000 32 0 : (⟨S50000, .i32⟩ : BufTy).Contents (Elt F))⟩] concatenates_S800000_S50000_S850000_d0

/-- A column as start indices: 50000 added where an entry is negative, as a [850000, 1] array. -/
def norm (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32 : (⟨S_, .i32⟩ : BufTy).Contents (Elt F)) : (⟨S850000, .i32⟩ : BufTy).Contents (Elt F)))
      (addi v (broadcastInDim S850000 ![] bcast_S_S850000 (constantI S_ 32 50000#32 : (⟨S_, .i32⟩ : BufTy).Contents (Elt F)) : (⟨S850000, .i32⟩ : BufTy).Contents (Elt F))) v : (⟨S850000, .i32⟩ : BufTy).Contents (Elt F))

/-- The degree of every node: ones added at the normalized second column. -/
def deg (x : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32 : (⟨S_, .f32⟩ : BufTy).Contents (Elt F)) : (⟨S50000, .f32⟩ : BufTy).Contents (Elt F))
    (norm (col1 x))
    (broadcastInDim S850000 ![] bcast_S_S850000 (constant S_ .f32 0x3F800000#32 : (⟨S_, .f32⟩ : BufTy).Contents (Elt F)) : (⟨S850000, .f32⟩ : BufTy).Contents (Elt F))

/-- The inverse square root of the degree where it is positive, zero elsewhere. -/
def dinv (x : (⟨S2x800000, .i32⟩ : BufTy).Contents (Elt F)) : (⟨S50000, .f32⟩ : BufTy).Contents (Elt F) :=
  select (cmpf .ogt (deg (F := F) x) (broadcastInDim S50000 ![] bcast_S_S50000 (constant S_ .f32 0x00000000#32 : (⟨S_, .f32⟩ : BufTy).Contents (Elt F)) : (⟨S50000, .f32⟩ : BufTy).Contents (Elt F)))
    (Host.rsqrt (deg (F := F) x) : (⟨S50000, .f32⟩ : BufTy).Contents (Elt F))
    (broadcastInDim S50000 ![] bcast_S_S50000 (constant S_ .f32 0x00000000#32 : (⟨S_, .f32⟩ : BufTy).Contents (Elt F)) : (⟨S50000, .f32⟩ : BufTy).Contents (Elt F))

/-- The edge weights: the product of that vector at the two ends of every edge. -/
def weights (x : (⟨S2x800000, .i32⟩ : BufTy).Contents (Elt F)) : (⟨S850000, .f32⟩ : BufTy).Contents (Elt F) :=
  mulf (Host.gather gather_S50000_S850000x1_S850000_n_0_n_n_0_1_1 (dinv (F := F) x) (norm (col0 x)) : (⟨S850000, .f32⟩ : BufTy).Contents (Elt F))
    (Host.gather gather_S50000_S850000x1_S850000_n_0_n_n_0_1_1 (dinv (F := F) x) (norm (col1 x)) : (⟨S850000, .f32⟩ : BufTy).Contents (Elt F))

/-! ## Values related by the operations' one-step equations are these functions -/

/-- slice, reshape, concatenate with the iota: column 0. -/
theorem col0_of {x : (⟨S2x800000, .i32⟩ : BufTy).Contents (Elt F)} {io : (⟨S50000, .i32⟩ : BufTy).Contents (Elt F)} {sl : (⟨S1x800000, .i32⟩ : BufTy).Contents (Elt F)} {rs : (⟨S800000, .i32⟩ : BufTy).Contents (Elt F)} {out : (⟨S850000, .i32⟩ : BufTy).Contents (Elt F)}
    (hio : io = iotaInDim S50000 32 0) (hsl : sl = extractStridedSlice S1x800000 ![0, 0] x slices_S2x800000_S1x800000_0_0)
    (hrs : rs = shapeCast S800000 sl shapeCasts_S1x800000_S800000)
    (hout : out = concatenate S850000 0 [⟨S800000, rs⟩, ⟨S50000, io⟩] concatenates_S800000_S50000_S850000_d0) : out = col0 x := by
  subst hio hsl hrs hout; rfl

/-- slice, reshape, concatenate with the iota: column 1. -/
theorem col1_of {x : (⟨S2x800000, .i32⟩ : BufTy).Contents (Elt F)} {io : (⟨S50000, .i32⟩ : BufTy).Contents (Elt F)} {sl : (⟨S1x800000, .i32⟩ : BufTy).Contents (Elt F)} {rs : (⟨S800000, .i32⟩ : BufTy).Contents (Elt F)} {out : (⟨S850000, .i32⟩ : BufTy).Contents (Elt F)}
    (hio : io = iotaInDim S50000 32 0) (hsl : sl = extractStridedSlice S1x800000 ![1, 0] x slices_S2x800000_S1x800000_1_0)
    (hrs : rs = shapeCast S800000 sl shapeCasts_S1x800000_S800000)
    (hout : out = concatenate S850000 0 [⟨S800000, rs⟩, ⟨S50000, io⟩] concatenates_S800000_S50000_S850000_d0) : out = col1 x := by
  subst hio hsl hrs hout; rfl

/-- zero, its broadcast, the comparison, 50000, its broadcast, the sum, the select, the broadcast to [850000, 1]. -/
theorem norm_of {v : (⟨S850000, .i32⟩ : BufTy).Contents (Elt F)} {z n : (⟨S_, .i32⟩ : BufTy).Contents (Elt F)} {zb nb ad se : (⟨S850000, .i32⟩ : BufTy).Contents (Elt F)} {lt : (⟨S850000, .i1⟩ : BufTy).Contents (Elt F)} {out : (⟨S850000x1, .i32⟩ : BufTy).Contents (Elt F)}
    (hz : z = constantI S_ 32 0#32) (hzb : zb = broadcastInDim S850000 ![] bcast_S_S850000 z) (hlt : lt = cmpi .slt v zb)
    (hn : n = constantI S_ 32 50000#32) (hnb : nb = broadcastInDim S850000 ![] bcast_S_S850000 n) (had : ad = addi v nb)
    (hse : se = select lt ad v) (hout : out = broadcastInDim S850000x1 ![0] bcast_S850000_S850000x1_0 se) : out = norm v := by
  subst hz hzb hlt hn hnb had hse hout; rfl

/-- The zero vector, the normalized second column, the ones, the scatter-add: the degree. -/
theorem deg_of {x : (⟨S2x800000, .i32⟩ : BufTy).Contents (Elt F)} {z o : (⟨S_, .f32⟩ : BufTy).Contents (Elt F)} {zb : (⟨S50000, .f32⟩ : BufTy).Contents (Elt F)} {ix : (⟨S850000x1, .i32⟩ : BufTy).Contents (Elt F)} {ob : (⟨S850000, .f32⟩ : BufTy).Contents (Elt F)} {out : (⟨S50000, .f32⟩ : BufTy).Contents (Elt F)}
    (hz : z = constant S_ .f32 0x00000000#32) (hzb : zb = broadcastInDim S50000 ![] bcast_S_S50000 z) (hix : ix = norm (col1 x))
    (ho : o = constant S_ .f32 0x3F800000#32) (hob : ob = broadcastInDim S850000 ![] bcast_S_S850000 o)
    (hout : out = Host.scatterAdd scatter_S50000_S850000x1_S850000_n_0_0_1 zb ix ob) : out = deg x := by
  subst hz hzb hix ho hob hout; rfl

/-- The comparison with zero, the inverse square root, the zero fill, the select. -/
theorem dinv_of {x : (⟨S2x800000, .i32⟩ : BufTy).Contents (Elt F)} {d : (⟨S50000, .f32⟩ : BufTy).Contents (Elt F)} {z z' zc : (⟨S_, .f32⟩ : BufTy).Contents (Elt F)} {zb fb rs out : (⟨S50000, .f32⟩ : BufTy).Contents (Elt F)} {gt : (⟨S50000, .i1⟩ : BufTy).Contents (Elt F)}
    (hd : d = deg x) (hz : z = constant S_ .f32 0x00000000#32) (hzb : zb = broadcastInDim S50000 ![] bcast_S_S50000 z) (hgt : gt = cmpf .ogt d zb)
    (hrs : rs = Host.rsqrt d) (hz' : z' = constant S_ .f32 0x00000000#32) (hzc : zc = z') (hfb : fb = broadcastInDim S50000 ![] bcast_S_S50000 zc)
    (hout : out = select gt rs fb) : out = dinv x := by
  subst hd hz hzb hgt hrs hz' hzc hfb hout; rfl

/-- The two gathers at the normalized columns and their product. -/
theorem weights_of {x : (⟨S2x800000, .i32⟩ : BufTy).Contents (Elt F)} {dv : (⟨S50000, .f32⟩ : BufTy).Contents (Elt F)} {i0 i1 : (⟨S850000x1, .i32⟩ : BufTy).Contents (Elt F)} {g0 g1 out : (⟨S850000, .f32⟩ : BufTy).Contents (Elt F)}
    (hdv : dv = dinv x) (hi0 : i0 = norm (col0 x)) (hg0 : g0 = Host.gather gather_S50000_S850000x1_S850000_n_0_n_n_0_1_1 dv i0)
    (hi1 : i1 = norm (col1 x)) (hg1 : g1 = Host.gather gather_S50000_S850000x1_S850000_n_0_n_n_0_1_1 dv i1) (hout : out = mulf g0 g1) :
    out = weights x := by
  subst hdv hi0 hg0 hi1 hg1 hout; rfl

end Cert.SharedEdges

end
-- ==== Proof.SharedEdgesHops.lean ====
/- For each of the two programs, the record of the one-step equations of its edge stretch (one field per buffer, the
   operation as the program prints it, read at buffer contents `A`), and what follows from a record by the per-stretch
   lemmas of SharedEdgesChain.lean: the two columns, their normalized forms, the degree, its inverse square root, the edge
   weights, each as the one function of the edge list; then, for contents of the two programs that agree on the edge list,
   the agreement of the normalized columns and of the edge weights. -/
import proofs.«172352_j22454089024045_1_alg».proof.KernelIdeal
import proofs.«172352_j22454089024045_1_alg».proof.ReferenceIdeal
import proofs.«172352_j22454089024045_1_alg».proof.Proof.SharedEdgesChain

noncomputable section

namespace Cert.SharedEdges

open Idealize.ShloMosaic

variable {F : FTy → Type} [FloatOps F] [Cert.KernelIdeal.Facts] [Cert.ReferenceIdeal.Facts]

section Ref

open Cert.ReferenceIdeal Cert.ReferenceIdeal.Facts₀

/-- The one-step equations of the reference's edge stretch for buffer contents `A`: each buffer at its operation's function of
    the operand buffers, in program order. -/
structure RefHops (A : (b : Ref sig .tc) → (Proc.devRef (τ := τ) .tc b).ty.Contents (Elt F)) : Prop where
  v0 : A main_v0 = (iotaInDim S50000 32 0 : (⟨S50000, .i32⟩ : BufTy).Contents (Elt F))
  v1 : A main_v1 = beta% ((extractStridedSlice S1x800000 ![0, 0] · slices_S2x800000_S1x800000_0_0) : (⟨S2x800000, .i32⟩ : BufTy).Contents (Elt F) → (⟨S1x800000, .i32⟩ : BufTy).Contents (Elt F)) (A main_arg11)
  v2 : A main_v2 = beta% (fun v => shapeCast S800000 v shapeCasts_S1x800000_S800000 : (⟨S1x800000, .i32⟩ : BufTy).Contents (Elt F) → (⟨S800000, .i32⟩ : BufTy).Contents (Elt F)) (A main_v1)
  v3 : A main_v3 = beta% ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) (A main_v2) (A main_v0)
  v4 : A main_v4 = beta% ((extractStridedSlice S1x800000 ![1, 0] · slices_S2x800000_S1x800000_1_0) : (⟨S2x800000, .i32⟩ : BufTy).Contents (Elt F) → (⟨S1x800000, .i32⟩ : BufTy).Contents (Elt F)) (A main_arg11)
  v5 : A main_v5 = beta% (fun v => shapeCast S800000 v shapeCasts_S1x800000_S800000 : (⟨S1x800000, .i32⟩ : BufTy).Contents (Elt F) → (⟨S800000, .i32⟩ : BufTy).Contents (Elt F)) (A main_v4)
  v6 : A main_v6 = beta% ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) (A main_v5) (A main_v0)
  cst : A main_cst = (constant S_ .f32 0x00000000#32 : (⟨S_, .f32⟩ : BufTy).Contents (Elt F))
  v7 : A main_v7 = beta% (broadcastInDim S50000 ![] bcast_S_S50000 : (⟨S_, .f32⟩ : BufTy).Contents (Elt F) → (⟨S50000, .f32⟩ : BufTy).Contents (Elt F)) (A main_cst)
  c : A main_c = (constantI S_ 32 0#32 : (⟨S_, .i32⟩ : BufTy).Contents (Elt F))
  v8 : A main_v8 = beta% (broadcastInDim S850000 ![] bcast_S_S850000 : (⟨S_, .i32⟩ : BufTy).Contents (Elt F) → (⟨S850000, .i32⟩ : BufTy).Contents (Elt F)) (A main_c)
  v9 : A main_v9 = beta% (cmpi .slt : (⟨S850000, .i32⟩ : BufTy).Contents (Elt F) → (⟨S850000, .i32⟩ : BufTy).Contents (Elt F) → (⟨S850000, .i1⟩ : BufTy).Contents (Elt F)) (A main_v6) (A main_v8)
  c_0 : A main_c_0 = (constantI S_ 32 50000#32 : (⟨S_, .i32⟩ : BufTy).Contents (Elt F))
  v10 : A main_v10 = beta% (broadcastInDim S850000 ![] bcast_S_S850000 : (⟨S_, .i32⟩ : BufTy).Contents (Elt F) → (⟨S850000, .i32⟩ : BufTy).Contents (Elt F)) (A main_c_0)
  v11 : A main_v11 = beta% (addi : (⟨S850000, .i32⟩ : BufTy).Contents (Elt F) → (⟨S850000, .i32⟩ : BufTy).Contents (Elt F) → (⟨S850000, .i32⟩ : BufTy).Contents (Elt F)) (A main_v6) (A main_v10)
  v12 : A main_v12 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A main_v9) (A main_v11) (A main_v6)
  v13 : A main_v13 = beta% (broadcastInDim S850000x1 ![0] bcast_S850000_S850000x1_0 : (⟨S850000, .i32⟩ : BufTy).Contents (Elt F) → (⟨S850000x1, .i32⟩ : BufTy).Contents (Elt F)) (A main_v12)
  cst_1 : A main_cst_1 = (constant S_ .f32 0x3F800000#32 : (⟨S_, .f32⟩ : BufTy).Contents (Elt F))
  v14 : A main_v14 = beta% (broadcastInDim S850000 ![] bcast_S_S850000 : (⟨S_, .f32⟩ : BufTy).Contents (Elt F) → (⟨S850000, .f32⟩ : BufTy).Contents (Elt F)) (A main_cst_1)
  v15 : A main_v15 = beta% ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) (A main_v7) (A main_v13) (A main_v14)
  cst_2 : A main_cst_2 = (constant S_ .f32 0x00000000#32 : (⟨S_, .f32⟩ : BufTy).Contents (Elt F))
  v16 : A main_v16 = beta% (broadcastInDim S50000 ![] bcast_S_S50000 : (⟨S_, .f32⟩ : BufTy).Contents (Elt F) → (⟨S50000, .f32⟩ : BufTy).Contents (Elt F)) (A main_cst_2)
  v17 : A main_v17 = beta% (cmpf .ogt : (⟨S50000, .f32⟩ : BufTy).Contents (Elt F) → (⟨S50000, .f32⟩ : BufTy).Contents (Elt F) → (⟨S50000, .i1⟩ : BufTy).Contents (Elt F)) (A main_v15) (A main_v16)
  v18 : A main_v18 = beta% (Host.rsqrt : (⟨S50000, .f32⟩ : BufTy).Contents (Elt F) → (⟨S50000, .f32⟩ : BufTy).Contents (Elt F)) (A main_v15)
  cst_3 : A main_cst_3 = (constant S_ .f32 0x00000000#32 : (⟨S_, .f32⟩ : BufTy).Contents (Elt F))
  call0_v0 : A main_call0_v0 = (A main_cst_3)
  call0_v1 : A main_call0_v1 = beta% (broadcastInDim S50000 ![] bcast_S_S50000 : (⟨S_, .f32⟩ : BufTy).Contents (Elt F) → (⟨S50000, .f32⟩ : BufTy).Contents (Elt F)) (A main_call0_v0)
  v19 : A main_v19 = beta% (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) (A main_v17) (A main_v18) (A main_call0_v1)
  c_4 : A main_c_4 = (constantI S_ 32 0#32 : (⟨S_, .i32⟩ : BufTy).Contents (Elt F))
  v20 : A main_v20 = beta% (broadcastInDim S850000 ![] bcast_S_S850000 : (⟨S_, .i32⟩ : BufTy).Contents (Elt F) → (⟨S850000, .i32⟩ : BufTy).Contents (Elt F)) (A main_c_4)
  v21 : A main_v21 = beta% (cmpi .slt : (⟨S850000, .i32⟩ : BufTy).Contents (Elt F) → (⟨S850000, .i32⟩ : BufTy).Contents (Elt F) → (⟨S850000, .i1⟩ : BufTy).Contents (Elt F)) (A main_v3) (A main_v20)
  c_5 : A main_c_5 = (constantI S_ 32 50000#32 : (⟨S_, .i32⟩ : BufTy).Contents (Elt F))
  v22 : A main_v22 = beta% (broadcastInDim S850000 ![] bcast_S_S850000 : (⟨S_, .i32⟩ : BufTy).Contents (Elt F) → (⟨S850000, .i32⟩ : BufTy).Contents (Elt F)) (A main_c_5)
  v23 : A main_v23 = beta% (addi : (⟨S850000, .i32⟩ : BufTy).Contents (Elt F) → (⟨S850000, .i32⟩ : BufTy).Contents (Elt F) → (⟨S850000, .i32⟩ : BufTy).Contents (Elt F)) (A main_v3) (A main_v22)
  v24 : A main_v24 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A main_v21) (A main_v23) (A main_v3)
  v25 : A main_v25 = beta% (broadcastInDim S850000x1 ![0] bcast_S850000_S850000x1_0 : (⟨S850000, .i32⟩ : BufTy).Contents (Elt F) → (⟨S850000x1, .i32⟩ : BufTy).Contents (Elt F)) (A main_v24)
  v26 : A main_v26 = beta% ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (A main_v19) (A main_v25)
  c_6 : A main_c_6 = (constantI S_ 32 0#32 : (⟨S_, .i32⟩ : BufTy).Contents (Elt F))
  v27 : A main_v27 = beta% (broadcastInDim S850000 ![] bcast_S_S850000 : (⟨S_, .i32⟩ : BufTy).Contents (Elt F) → (⟨S850000, .i32⟩ : BufTy).Contents (Elt F)) (A main_c_6)
  v28 : A main_v28 = beta% (cmpi .slt : (⟨S850000, .i32⟩ : BufTy).Contents (Elt F) → (⟨S850000, .i32⟩ : BufTy).Contents (Elt F) → (⟨S850000, .i1⟩ : BufTy).Contents (Elt F)) (A main_v6) (A main_v27)
  c_7 : A main_c_7 = (constantI S_ 32 50000#32 : (⟨S_, .i32⟩ : BufTy).Contents (Elt F))
  v29 : A main_v29 = beta% (broadcastInDim S850000 ![] bcast_S_S850000 : (⟨S_, .i32⟩ : BufTy).Contents (Elt F) → (⟨S850000, .i32⟩ : BufTy).Contents (Elt F)) (A main_c_7)
  v30 : A main_v30 = beta% (addi : (⟨S850000, .i32⟩ : BufTy).Contents (Elt F) → (⟨S850000, .i32⟩ : BufTy).Contents (Elt F) → (⟨S850000, .i32⟩ : BufTy).Contents (Elt F)) (A main_v6) (A main_v29)
  v31 : A main_v31 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A main_v28) (A main_v30) (A main_v6)
  v32 : A main_v32 = beta% (broadcastInDim S850000x1 ![0] bcast_S850000_S850000x1_0 : (⟨S850000, .i32⟩ : BufTy).Contents (Elt F) → (⟨S850000x1, .i32⟩ : BufTy).Contents (Elt F)) (A main_v31)
  v33 : A main_v33 = beta% ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (A main_v19) (A main_v32)
  v34 : A main_v34 = beta% (mulf : (⟨S850000, .f32⟩ : BufTy).Contents (Elt F) → (⟨S850000, .f32⟩ : BufTy).Contents (Elt F) → (⟨S850000, .f32⟩ : BufTy).Contents (Elt F)) (A main_v26) (A main_v33)
  c_8 : A main_c_8 = (constantI S_ 32 0#32 : (⟨S_, .i32⟩ : BufTy).Contents (Elt F))
  v36 : A main_v36 = beta% (broadcastInDim S850000 ![] bcast_S_S850000 : (⟨S_, .i32⟩ : BufTy).Contents (Elt F) → (⟨S850000, .i32⟩ : BufTy).Contents (Elt F)) (A main_c_8)
  v37 : A main_v37 = beta% (cmpi .slt : (⟨S850000, .i32⟩ : BufTy).Contents (Elt F) → (⟨S850000, .i32⟩ : BufTy).Contents (Elt F) → (⟨S850000, .i1⟩ : BufTy).Contents (Elt F)) (A main_v3) (A main_v36)
  c_9 : A main_c_9 = (constantI S_ 32 50000#32 : (⟨S_, .i32⟩ : BufTy).Contents (Elt F))
  v38 : A main_v38 = beta% (broadcastInDim S850000 ![] bcast_S_S850000 : (⟨S_, .i32⟩ : BufTy).Contents (Elt F) → (⟨S850000, .i32⟩ : BufTy).Contents (Elt F)) (A main_c_9)
  v39 : A main_v39 = beta% (addi : (⟨S850000, .i32⟩ : BufTy).Contents (Elt F) → (⟨S850000, .i32⟩ : BufTy).Contents (Elt F) → (⟨S850000, .i32⟩ : BufTy).Contents (Elt F)) (A main_v3) (A main_v38)
  v40 : A main_v40 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A main_v37) (A main_v39) (A main_v3)
  v41 : A main_v41 = beta% (broadcastInDim S850000x1 ![0] bcast_S850000_S850000x1_0 : (⟨S850000, .i32⟩ : BufTy).Contents (Elt F) → (⟨S850000x1, .i32⟩ : BufTy).Contents (Elt F)) (A main_v40)
  c_11 : A main_c_11 = (constantI S_ 32 0#32 : (⟨S_, .i32⟩ : BufTy).Contents (Elt F))
  v47 : A main_v47 = beta% (broadcastInDim S850000 ![] bcast_S_S850000 : (⟨S_, .i32⟩ : BufTy).Contents (Elt F) → (⟨S850000, .i32⟩ : BufTy).Contents (Elt F)) (A main_c_11)
  v48 : A main_v48 = beta% (cmpi .slt : (⟨S850000, .i32⟩ : BufTy).Contents (Elt F) → (⟨S850000, .i32⟩ : BufTy).Contents (Elt F) → (⟨S850000, .i1⟩ : BufTy).Contents (Elt F)) (A main_v6) (A main_v47)
  c_12 : A main_c_12 = (constantI S_ 32 50000#32 : (⟨S_, .i32⟩ : BufTy).Contents (Elt F))
  v49 : A main_v49 = beta% (broadcastInDim S850000 ![] bcast_S_S850000 : (⟨S_, .i32⟩ : BufTy).Contents (Elt F) → (⟨S850000, .i32⟩ : BufTy).Contents (Elt F)) (A main_c_12)
  v50 : A main_v50 = beta% (addi : (⟨S850000, .i32⟩ : BufTy).Contents (Elt F) → (⟨S850000, .i32⟩ : BufTy).Contents (Elt F) → (⟨S850000, .i32⟩ : BufTy).Contents (Elt F)) (A main_v6) (A main_v49)
  v51 : A main_v51 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A main_v48) (A main_v50) (A main_v6)
  v52 : A main_v52 = beta% (broadcastInDim S850000x1 ![0] bcast_S850000_S850000x1_0 : (⟨S850000, .i32⟩ : BufTy).Contents (Elt F) → (⟨S850000x1, .i32⟩ : BufTy).Contents (Elt F)) (A main_v51)

variable {A : (b : Ref sig .tc) → (Proc.devRef (τ := τ) .tc b).ty.Contents (Elt F)}

theorem RefHops.col0_eq (h : RefHops (F := F) A) : A main_v3 = col0 (A main_arg11) := col0_of h.v0 h.v1 h.v2 h.v3
theorem RefHops.col1_eq (h : RefHops (F := F) A) : A main_v6 = col1 (A main_arg11) := col1_of h.v0 h.v4 h.v5 h.v6
/-- The normalized first column this program gathers the features at. -/
theorem RefHops.src_eq (h : RefHops (F := F) A) : A main_v41 = norm (col0 (A main_arg11)) :=
  (norm_of h.c_8 h.v36 h.v37 h.c_9 h.v38 h.v39 h.v40 h.v41).trans (congrArg norm h.col0_eq)
/-- The normalized second column this program scatters the messages at. -/
theorem RefHops.tgt_eq (h : RefHops (F := F) A) : A main_v52 = norm (col1 (A main_arg11)) :=
  (norm_of h.c_11 h.v47 h.v48 h.c_12 h.v49 h.v50 h.v51 h.v52).trans (congrArg norm h.col1_eq)
theorem RefHops.deg_eq (h : RefHops (F := F) A) : A main_v15 = deg (A main_arg11) :=
  deg_of h.cst h.v7 ((norm_of h.c h.v8 h.v9 h.c_0 h.v10 h.v11 h.v12 h.v13).trans (congrArg norm h.col1_eq)) h.cst_1 h.v14 h.v15
theorem RefHops.dinv_eq (h : RefHops (F := F) A) : A main_v19 = dinv (A main_arg11) :=
  dinv_of h.deg_eq h.cst_2 h.v16 h.v17 h.v18 h.cst_3 h.call0_v0 h.call0_v1 h.v19
/-- The edge weights. -/
theorem RefHops.nrm_eq (h : RefHops (F := F) A) : A main_v34 = weights (A main_arg11) :=
  weights_of h.dinv_eq ((norm_of h.c_4 h.v20 h.v21 h.c_5 h.v22 h.v23 h.v24 h.v25).trans (congrArg norm h.col0_eq)) h.v26
    ((norm_of h.c_6 h.v27 h.v28 h.c_7 h.v29 h.v30 h.v31 h.v32).trans (congrArg norm h.col1_eq)) h.v33 h.v34

end Ref

section Ker

open Cert.KernelIdeal Cert.KernelIdeal.Facts₀

/-- The one-step equations of the kernel program's edge stretch for buffer contents `A`: each buffer at its operation's function of
    the operand buffers, in program order. -/
structure KerHops (A : (b : Ref sig .tc) → (Proc.devRef (τ := τ) .tc b).ty.Contents (Elt F)) : Prop where
  v0 : A main_v0 = (iotaInDim S50000 32 0 : (⟨S50000, .i32⟩ : BufTy).Contents (Elt F))
  v1 : A main_v1 = beta% ((extractStridedSlice S1x800000 ![0, 0] · slices_S2x800000_S1x800000_0_0) : (⟨S2x800000, .i32⟩ : BufTy).Contents (Elt F) → (⟨S1x800000, .i32⟩ : BufTy).Contents (Elt F)) (A main_arg11)
  v2 : A main_v2 = beta% (fun v => shapeCast S800000 v shapeCasts_S1x800000_S800000 : (⟨S1x800000, .i32⟩ : BufTy).Contents (Elt F) → (⟨S800000, .i32⟩ : BufTy).Contents (Elt F)) (A main_v1)
  v3 : A main_v3 = beta% ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) (A main_v2) (A main_v0)
  v4 : A main_v4 = beta% ((extractStridedSlice S1x800000 ![1, 0] · slices_S2x800000_S1x800000_1_0) : (⟨S2x800000, .i32⟩ : BufTy).Contents (Elt F) → (⟨S1x800000, .i32⟩ : BufTy).Contents (Elt F)) (A main_arg11)
  v5 : A main_v5 = beta% (fun v => shapeCast S800000 v shapeCasts_S1x800000_S800000 : (⟨S1x800000, .i32⟩ : BufTy).Contents (Elt F) → (⟨S800000, .i32⟩ : BufTy).Contents (Elt F)) (A main_v4)
  v6 : A main_v6 = beta% ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) (A main_v5) (A main_v0)
  cst : A main_cst = (constant S_ .f32 0x00000000#32 : (⟨S_, .f32⟩ : BufTy).Contents (Elt F))
  v7 : A main_v7 = beta% (broadcastInDim S50000 ![] bcast_S_S50000 : (⟨S_, .f32⟩ : BufTy).Contents (Elt F) → (⟨S50000, .f32⟩ : BufTy).Contents (Elt F)) (A main_cst)
  c : A main_c = (constantI S_ 32 0#32 : (⟨S_, .i32⟩ : BufTy).Contents (Elt F))
  v8 : A main_v8 = beta% (broadcastInDim S850000 ![] bcast_S_S850000 : (⟨S_, .i32⟩ : BufTy).Contents (Elt F) → (⟨S850000, .i32⟩ : BufTy).Contents (Elt F)) (A main_c)
  v9 : A main_v9 = beta% (cmpi .slt : (⟨S850000, .i32⟩ : BufTy).Contents (Elt F) → (⟨S850000, .i32⟩ : BufTy).Contents (Elt F) → (⟨S850000, .i1⟩ : BufTy).Contents (Elt F)) (A main_v6) (A main_v8)
  c_0 : A main_c_0 = (constantI S_ 32 50000#32 : (⟨S_, .i32⟩ : BufTy).Contents (Elt F))
  v10 : A main_v10 = beta% (broadcastInDim S850000 ![] bcast_S_S850000 : (⟨S_, .i32⟩ : BufTy).Contents (Elt F) → (⟨S850000, .i32⟩ : BufTy).Contents (Elt F)) (A main_c_0)
  v11 : A main_v11 = beta% (addi : (⟨S850000, .i32⟩ : BufTy).Contents (Elt F) → (⟨S850000, .i32⟩ : BufTy).Contents (Elt F) → (⟨S850000, .i32⟩ : BufTy).Contents (Elt F)) (A main_v6) (A main_v10)
  v12 : A main_v12 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A main_v9) (A main_v11) (A main_v6)
  v13 : A main_v13 = beta% (broadcastInDim S850000x1 ![0] bcast_S850000_S850000x1_0 : (⟨S850000, .i32⟩ : BufTy).Contents (Elt F) → (⟨S850000x1, .i32⟩ : BufTy).Contents (Elt F)) (A main_v12)
  cst_1 : A main_cst_1 = (constant S_ .f32 0x3F800000#32 : (⟨S_, .f32⟩ : BufTy).Contents (Elt F))
  v14 : A main_v14 = beta% (broadcastInDim S850000 ![] bcast_S_S850000 : (⟨S_, .f32⟩ : BufTy).Contents (Elt F) → (⟨S850000, .f32⟩ : BufTy).Contents (Elt F)) (A main_cst_1)
  v15 : A main_v15 = beta% ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) (A main_v7) (A main_v13) (A main_v14)
  cst_2 : A main_cst_2 = (constant S_ .f32 0x00000000#32 : (⟨S_, .f32⟩ : BufTy).Contents (Elt F))
  v16 : A main_v16 = beta% (broadcastInDim S50000 ![] bcast_S_S50000 : (⟨S_, .f32⟩ : BufTy).Contents (Elt F) → (⟨S50000, .f32⟩ : BufTy).Contents (Elt F)) (A main_cst_2)
  v17 : A main_v17 = beta% (cmpf .ogt : (⟨S50000, .f32⟩ : BufTy).Contents (Elt F) → (⟨S50000, .f32⟩ : BufTy).Contents (Elt F) → (⟨S50000, .i1⟩ : BufTy).Contents (Elt F)) (A main_v15) (A main_v16)
  v18 : A main_v18 = beta% (Host.rsqrt : (⟨S50000, .f32⟩ : BufTy).Contents (Elt F) → (⟨S50000, .f32⟩ : BufTy).Contents (Elt F)) (A main_v15)
  cst_3 : A main_cst_3 = (constant S_ .f32 0x00000000#32 : (⟨S_, .f32⟩ : BufTy).Contents (Elt F))
  call0_v0 : A main_call0_v0 = (A main_cst_3)
  call0_v1 : A main_call0_v1 = beta% (broadcastInDim S50000 ![] bcast_S_S50000 : (⟨S_, .f32⟩ : BufTy).Contents (Elt F) → (⟨S50000, .f32⟩ : BufTy).Contents (Elt F)) (A main_call0_v0)
  v19 : A main_v19 = beta% (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) (A main_v17) (A main_v18) (A main_call0_v1)
  c_4 : A main_c_4 = (constantI S_ 32 0#32 : (⟨S_, .i32⟩ : BufTy).Contents (Elt F))
  v20 : A main_v20 = beta% (broadcastInDim S850000 ![] bcast_S_S850000 : (⟨S_, .i32⟩ : BufTy).Contents (Elt F) → (⟨S850000, .i32⟩ : BufTy).Contents (Elt F)) (A main_c_4)
  v21 : A main_v21 = beta% (cmpi .slt : (⟨S850000, .i32⟩ : BufTy).Contents (Elt F) → (⟨S850000, .i32⟩ : BufTy).Contents (Elt F) → (⟨S850000, .i1⟩ : BufTy).Contents (Elt F)) (A main_v3) (A main_v20)
  c_5 : A main_c_5 = (constantI S_ 32 50000#32 : (⟨S_, .i32⟩ : BufTy).Contents (Elt F))
  v22 : A main_v22 = beta% (broadcastInDim S850000 ![] bcast_S_S850000 : (⟨S_, .i32⟩ : BufTy).Contents (Elt F) → (⟨S850000, .i32⟩ : BufTy).Contents (Elt F)) (A main_c_5)
  v23 : A main_v23 = beta% (addi : (⟨S850000, .i32⟩ : BufTy).Contents (Elt F) → (⟨S850000, .i32⟩ : BufTy).Contents (Elt F) → (⟨S850000, .i32⟩ : BufTy).Contents (Elt F)) (A main_v3) (A main_v22)
  v24 : A main_v24 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A main_v21) (A main_v23) (A main_v3)
  v25 : A main_v25 = beta% (broadcastInDim S850000x1 ![0] bcast_S850000_S850000x1_0 : (⟨S850000, .i32⟩ : BufTy).Contents (Elt F) → (⟨S850000x1, .i32⟩ : BufTy).Contents (Elt F)) (A main_v24)
  v26 : A main_v26 = beta% ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (A main_v19) (A main_v25)
  c_6 : A main_c_6 = (constantI S_ 32 0#32 : (⟨S_, .i32⟩ : BufTy).Contents (Elt F))
  v27 : A main_v27 = beta% (broadcastInDim S850000 ![] bcast_S_S850000 : (⟨S_, .i32⟩ : BufTy).Contents (Elt F) → (⟨S850000, .i32⟩ : BufTy).Contents (Elt F)) (A main_c_6)
  v28 : A main_v28 = beta% (cmpi .slt : (⟨S850000, .i32⟩ : BufTy).Contents (Elt F) → (⟨S850000, .i32⟩ : BufTy).Contents (Elt F) → (⟨S850000, .i1⟩ : BufTy).Contents (Elt F)) (A main_v6) (A main_v27)
  c_7 : A main_c_7 = (constantI S_ 32 50000#32 : (⟨S_, .i32⟩ : BufTy).Contents (Elt F))
  v29 : A main_v29 = beta% (broadcastInDim S850000 ![] bcast_S_S850000 : (⟨S_, .i32⟩ : BufTy).Contents (Elt F) → (⟨S850000, .i32⟩ : BufTy).Contents (Elt F)) (A main_c_7)
  v30 : A main_v30 = beta% (addi : (⟨S850000, .i32⟩ : BufTy).Contents (Elt F) → (⟨S850000, .i32⟩ : BufTy).Contents (Elt F) → (⟨S850000, .i32⟩ : BufTy).Contents (Elt F)) (A main_v6) (A main_v29)
  v31 : A main_v31 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A main_v28) (A main_v30) (A main_v6)
  v32 : A main_v32 = beta% (broadcastInDim S850000x1 ![0] bcast_S850000_S850000x1_0 : (⟨S850000, .i32⟩ : BufTy).Contents (Elt F) → (⟨S850000x1, .i32⟩ : BufTy).Contents (Elt F)) (A main_v31)
  v33 : A main_v33 = beta% ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (A main_v19) (A main_v32)
  v34 : A main_v34 = beta% (mulf : (⟨S850000, .f32⟩ : BufTy).Contents (Elt F) → (⟨S850000, .f32⟩ : BufTy).Contents (Elt F) → (⟨S850000, .f32⟩ : BufTy).Contents (Elt F)) (A main_v26) (A main_v33)
  c_8 : A main_c_8 = (constantI S_ 32 0#32 : (⟨S_, .i32⟩ : BufTy).Contents (Elt F))
  v39 : A main_v39 = beta% (broadcastInDim S850000 ![] bcast_S_S850000 : (⟨S_, .i32⟩ : BufTy).Contents (Elt F) → (⟨S850000, .i32⟩ : BufTy).Contents (Elt F)) (A main_c_8)
  v40 : A main_v40 = beta% (cmpi .slt : (⟨S850000, .i32⟩ : BufTy).Contents (Elt F) → (⟨S850000, .i32⟩ : BufTy).Contents (Elt F) → (⟨S850000, .i1⟩ : BufTy).Contents (Elt F)) (A main_v3) (A main_v39)
  c_9 : A main_c_9 = (constantI S_ 32 50000#32 : (⟨S_, .i32⟩ : BufTy).Contents (Elt F))
  v41 : A main_v41 = beta% (broadcastInDim S850000 ![] bcast_S_S850000 : (⟨S_, .i32⟩ : BufTy).Contents (Elt F) → (⟨S850000, .i32⟩ : BufTy).Contents (Elt F)) (A main_c_9)
  v42 : A main_v42 = beta% (addi : (⟨S850000, .i32⟩ : BufTy).Contents (Elt F) → (⟨S850000, .i32⟩ : BufTy).Contents (Elt F) → (⟨S850000, .i32⟩ : BufTy).Contents (Elt F)) (A main_v3) (A main_v41)
  v43 : A main_v43 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A main_v40) (A main_v42) (A main_v3)
  v44 : A main_v44 = beta% (broadcastInDim S850000x1 ![0] bcast_S850000_S850000x1_0 : (⟨S850000, .i32⟩ : BufTy).Contents (Elt F) → (⟨S850000x1, .i32⟩ : BufTy).Contents (Elt F)) (A main_v43)
  c_11 : A main_c_11 = (constantI S_ 32 0#32 : (⟨S_, .i32⟩ : BufTy).Contents (Elt F))
  v50 : A main_v50 = beta% (broadcastInDim S850000 ![] bcast_S_S850000 : (⟨S_, .i32⟩ : BufTy).Contents (Elt F) → (⟨S850000, .i32⟩ : BufTy).Contents (Elt F)) (A main_c_11)
  v51 : A main_v51 = beta% (cmpi .slt : (⟨S850000, .i32⟩ : BufTy).Contents (Elt F) → (⟨S850000, .i32⟩ : BufTy).Contents (Elt F) → (⟨S850000, .i1⟩ : BufTy).Contents (Elt F)) (A main_v6) (A main_v50)
  c_12 : A main_c_12 = (constantI S_ 32 50000#32 : (⟨S_, .i32⟩ : BufTy).Contents (Elt F))
  v52 : A main_v52 = beta% (broadcastInDim S850000 ![] bcast_S_S850000 : (⟨S_, .i32⟩ : BufTy).Contents (Elt F) → (⟨S850000, .i32⟩ : BufTy).Contents (Elt F)) (A main_c_12)
  v53 : A main_v53 = beta% (addi : (⟨S850000, .i32⟩ : BufTy).Contents (Elt F) → (⟨S850000, .i32⟩ : BufTy).Contents (Elt F) → (⟨S850000, .i32⟩ : BufTy).Contents (Elt F)) (A main_v6) (A main_v52)
  v54 : A main_v54 = beta% (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (A main_v51) (A main_v53) (A main_v6)
  v55 : A main_v55 = beta% (broadcastInDim S850000x1 ![0] bcast_S850000_S850000x1_0 : (⟨S850000, .i32⟩ : BufTy).Contents (Elt F) → (⟨S850000x1, .i32⟩ : BufTy).Contents (Elt F)) (A main_v54)

variable {A : (b : Ref sig .tc) → (Proc.devRef (τ := τ) .tc b).ty.Contents (Elt F)}

theorem KerHops.col0_eq (h : KerHops (F := F) A) : A main_v3 = col0 (A main_arg11) := col0_of h.v0 h.v1 h.v2 h.v3
theorem KerHops.col1_eq (h : KerHops (F := F) A) : A main_v6 = col1 (A main_arg11) := col1_of h.v0 h.v4 h.v5 h.v6
/-- The normalized first column this program gathers the features at. -/
theorem KerHops.src_eq (h : KerHops (F := F) A) : A main_v44 = norm (col0 (A main_arg11)) :=
  (norm_of h.c_8 h.v39 h.v40 h.c_9 h.v41 h.v42 h.v43 h.v44).trans (congrArg norm h.col0_eq)
/-- The normalized second column this program scatters the messages at. -/
theorem KerHops.tgt_eq (h : KerHops (F := F) A) : A main_v55 = norm (col1 (A main_arg11)) :=
  (norm_of h.c_11 h.v50 h.v51 h.c_12 h.v52 h.v53 h.v54 h.v55).trans (congrArg norm h.col1_eq)
theorem KerHops.deg_eq (h : KerHops (F := F) A) : A main_v15 = deg (A main_arg11) :=
  deg_of h.cst h.v7 ((norm_of h.c h.v8 h.v9 h.c_0 h.v10 h.v11 h.v12 h.v13).trans (congrArg norm h.col1_eq)) h.cst_1 h.v14 h.v15
theorem KerHops.dinv_eq (h : KerHops (F := F) A) : A main_v19 = dinv (A main_arg11) :=
  dinv_of h.deg_eq h.cst_2 h.v16 h.v17 h.v18 h.cst_3 h.call0_v0 h.call0_v1 h.v19
/-- The edge weights. -/
theorem KerHops.nrm_eq (h : KerHops (F := F) A) : A main_v34 = weights (A main_arg11) :=
  weights_of h.dinv_eq ((norm_of h.c_4 h.v20 h.v21 h.c_5 h.v22 h.v23 h.v24 h.v25).trans (congrArg norm h.col0_eq)) h.v26
    ((norm_of h.c_6 h.v27 h.v28 h.c_7 h.v29 h.v30 h.v31 h.v32).trans (congrArg norm h.col1_eq)) h.v33 h.v34

end Ker

/-! ## The two programs' edge columns and edge weights agree -/

section Agree

variable {AR : (b : Ref Cert.ReferenceIdeal.sig .tc) → (Proc.devRef (τ := Cert.ReferenceIdeal.τ) .tc b).ty.Contents (Elt F)}
  {AK : (b : Ref Cert.KernelIdeal.sig .tc) → (Proc.devRef (τ := Cert.KernelIdeal.τ) .tc b).ty.Contents (Elt F)}

/-- Contents that satisfy the two programs' one-step equations and agree on the edge list agree on the normalized
    first column, … -/
theorem src_eq_of (hR : RefHops (F := F) AR) (hK : KerHops (F := F) AK)
    (h11 : AR Cert.ReferenceIdeal.main_arg11 = AK Cert.KernelIdeal.main_arg11) :
    AR Cert.ReferenceIdeal.main_v41 = AK Cert.KernelIdeal.main_v44 :=
  hR.src_eq.trans ((congrArg (fun x => norm (col0 x)) h11).trans hK.src_eq.symm)

/-- … on the normalized second column, … -/
theorem tgt_eq_of (hR : RefHops (F := F) AR) (hK : KerHops (F := F) AK)
    (h11 : AR Cert.ReferenceIdeal.main_arg11 = AK Cert.KernelIdeal.main_arg11) :
    AR Cert.ReferenceIdeal.main_v52 = AK Cert.KernelIdeal.main_v55 :=
  hR.tgt_eq.trans ((congrArg (fun x => norm (col1 x)) h11).trans hK.tgt_eq.symm)

/-- … and on the edge weights. -/
theorem nrm_eq_of (hR : RefHops (F := F) AR) (hK : KerHops (F := F) AK)
    (h11 : AR Cert.ReferenceIdeal.main_arg11 = AK Cert.KernelIdeal.main_arg11) :
    AR Cert.ReferenceIdeal.main_v34 = AK Cert.KernelIdeal.main_v34 :=
  hR.nrm_eq.trans ((congrArg (fun x => weights (F := F) x) h11).trans hK.nrm_eq.symm)

end Agree

end Cert.SharedEdges

end
-- ==== Proof.SharedEdges.lean ====
/- The two records of SharedEdgesHops.lean filled, field by field, with the runs' own one-hop equations (the reference's
   `RefRun.st_main_<buffer>`, the kernel program's `Stages.A_<buffer>`), and the agreement theorems at the two runs. -/
import proofs.«172352_j22454089024045_1_alg».proof.Proof.SharedEdgesHops
import proofs.«172352_j22454089024045_1_alg».proof.Proof.RefRunStages
import proofs.«172352_j22454089024045_1_alg».proof.Proof.KernelStages0

noncomputable section

namespace Cert.SharedEdges

open Idealize.ShloMosaic Idealize.ShloMosaic.TcCoe

variable {F : FTy → Type} [FloatOps F] [Cert.KernelIdeal.Facts] [Cert.ReferenceIdeal.Facts]

/-- The reference's run satisfies its one-step equations. -/
theorem refHops (m' : (ℓ : Loc Cert.ReferenceIdeal.nD Cert.ReferenceIdeal.τ Cert.ReferenceIdeal.sig) → Buf (Elt F) ℓ) (c : Dev Cert.ReferenceIdeal.nD) :
    RefHops (F := F) (Cert.ReferenceIdeal.RefRun.A m' c) where
  v0 := Cert.ReferenceIdeal.RefRun.st_main_v0 m' c
  v1 := Cert.ReferenceIdeal.RefRun.st_main_v1 m' c
  v2 := Cert.ReferenceIdeal.RefRun.st_main_v2 m' c
  v3 := Cert.ReferenceIdeal.RefRun.st_main_v3 m' c
  v4 := Cert.ReferenceIdeal.RefRun.st_main_v4 m' c
  v5 := Cert.ReferenceIdeal.RefRun.st_main_v5 m' c
  v6 := Cert.ReferenceIdeal.RefRun.st_main_v6 m' c
  cst := Cert.ReferenceIdeal.RefRun.st_main_cst m' c
  v7 := Cert.ReferenceIdeal.RefRun.st_main_v7 m' c
  c := Cert.ReferenceIdeal.RefRun.st_main_c m' c
  v8 := Cert.ReferenceIdeal.RefRun.st_main_v8 m' c
  v9 := Cert.ReferenceIdeal.RefRun.st_main_v9 m' c
  c_0 := Cert.ReferenceIdeal.RefRun.st_main_c_0 m' c
  v10 := Cert.ReferenceIdeal.RefRun.st_main_v10 m' c
  v11 := Cert.ReferenceIdeal.RefRun.st_main_v11 m' c
  v12 := Cert.ReferenceIdeal.RefRun.st_main_v12 m' c
  v13 := Cert.ReferenceIdeal.RefRun.st_main_v13 m' c
  cst_1 := Cert.ReferenceIdeal.RefRun.st_main_cst_1 m' c
  v14 := Cert.ReferenceIdeal.RefRun.st_main_v14 m' c
  v15 := Cert.ReferenceIdeal.RefRun.st_main_v15 m' c
  cst_2 := Cert.ReferenceIdeal.RefRun.st_main_cst_2 m' c
  v16 := Cert.ReferenceIdeal.RefRun.st_main_v16 m' c
  v17 := Cert.ReferenceIdeal.RefRun.st_main_v17 m' c
  v18 := Cert.ReferenceIdeal.RefRun.st_main_v18 m' c
  cst_3 := Cert.ReferenceIdeal.RefRun.st_main_cst_3 m' c
  call0_v0 := Cert.ReferenceIdeal.RefRun.st_main_call0_v0 m' c
  call0_v1 := Cert.ReferenceIdeal.RefRun.st_main_call0_v1 m' c
  v19 := Cert.ReferenceIdeal.RefRun.st_main_v19 m' c
  c_4 := Cert.ReferenceIdeal.RefRun.st_main_c_4 m' c
  v20 := Cert.ReferenceIdeal.RefRun.st_main_v20 m' c
  v21 := Cert.ReferenceIdeal.RefRun.st_main_v21 m' c
  c_5 := Cert.ReferenceIdeal.RefRun.st_main_c_5 m' c
  v22 := Cert.ReferenceIdeal.RefRun.st_main_v22 m' c
  v23 := Cert.ReferenceIdeal.RefRun.st_main_v23 m' c
  v24 := Cert.ReferenceIdeal.RefRun.st_main_v24 m' c
  v25 := Cert.ReferenceIdeal.RefRun.st_main_v25 m' c
  v26 := Cert.ReferenceIdeal.RefRun.st_main_v26 m' c
  c_6 := Cert.ReferenceIdeal.RefRun.st_main_c_6 m' c
  v27 := Cert.ReferenceIdeal.RefRun.st_main_v27 m' c
  v28 := Cert.ReferenceIdeal.RefRun.st_main_v28 m' c
  c_7 := Cert.ReferenceIdeal.RefRun.st_main_c_7 m' c
  v29 := Cert.ReferenceIdeal.RefRun.st_main_v29 m' c
  v30 := Cert.ReferenceIdeal.RefRun.st_main_v30 m' c
  v31 := Cert.ReferenceIdeal.RefRun.st_main_v31 m' c
  v32 := Cert.ReferenceIdeal.RefRun.st_main_v32 m' c
  v33 := Cert.ReferenceIdeal.RefRun.st_main_v33 m' c
  v34 := Cert.ReferenceIdeal.RefRun.st_main_v34 m' c
  c_8 := Cert.ReferenceIdeal.RefRun.st_main_c_8 m' c
  v36 := Cert.ReferenceIdeal.RefRun.st_main_v36 m' c
  v37 := Cert.ReferenceIdeal.RefRun.st_main_v37 m' c
  c_9 := Cert.ReferenceIdeal.RefRun.st_main_c_9 m' c
  v38 := Cert.ReferenceIdeal.RefRun.st_main_v38 m' c
  v39 := Cert.ReferenceIdeal.RefRun.st_main_v39 m' c
  v40 := Cert.ReferenceIdeal.RefRun.st_main_v40 m' c
  v41 := Cert.ReferenceIdeal.RefRun.st_main_v41 m' c
  c_11 := Cert.ReferenceIdeal.RefRun.st_main_c_11 m' c
  v47 := Cert.ReferenceIdeal.RefRun.st_main_v47 m' c
  v48 := Cert.ReferenceIdeal.RefRun.st_main_v48 m' c
  c_12 := Cert.ReferenceIdeal.RefRun.st_main_c_12 m' c
  v49 := Cert.ReferenceIdeal.RefRun.st_main_v49 m' c
  v50 := Cert.ReferenceIdeal.RefRun.st_main_v50 m' c
  v51 := Cert.ReferenceIdeal.RefRun.st_main_v51 m' c
  v52 := Cert.ReferenceIdeal.RefRun.st_main_v52 m' c

/-- The kernel program's run satisfies its one-step equations. -/
theorem kerHops (m : (ℓ : Loc Cert.KernelIdeal.nD Cert.KernelIdeal.τ Cert.KernelIdeal.sig) → Buf (Elt F) ℓ) (ρ : Dev Cert.KernelIdeal.nD → PrngReg) (c : Dev Cert.KernelIdeal.nD) :
    KerHops (F := F) (Cert.KernelIdeal.Stages.A m ρ c) where
  v0 := Cert.KernelIdeal.Stages.A_v0 m ρ c
  v1 := Cert.KernelIdeal.Stages.A_v1 m ρ c
  v2 := Cert.KernelIdeal.Stages.A_v2 m ρ c
  v3 := Cert.KernelIdeal.Stages.A_v3 m ρ c
  v4 := Cert.KernelIdeal.Stages.A_v4 m ρ c
  v5 := Cert.KernelIdeal.Stages.A_v5 m ρ c
  v6 := Cert.KernelIdeal.Stages.A_v6 m ρ c
  cst := Cert.KernelIdeal.Stages.A_cst m ρ c
  v7 := Cert.KernelIdeal.Stages.A_v7 m ρ c
  c := Cert.KernelIdeal.Stages.A_c m ρ c
  v8 := Cert.KernelIdeal.Stages.A_v8 m ρ c
  v9 := Cert.KernelIdeal.Stages.A_v9 m ρ c
  c_0 := Cert.KernelIdeal.Stages.A_c_0 m ρ c
  v10 := Cert.KernelIdeal.Stages.A_v10 m ρ c
  v11 := Cert.KernelIdeal.Stages.A_v11 m ρ c
  v12 := Cert.KernelIdeal.Stages.A_v12 m ρ c
  v13 := Cert.KernelIdeal.Stages.A_v13 m ρ c
  cst_1 := Cert.KernelIdeal.Stages.A_cst_1 m ρ c
  v14 := Cert.KernelIdeal.Stages.A_v14 m ρ c
  v15 := Cert.KernelIdeal.Stages.A_v15 m ρ c
  cst_2 := Cert.KernelIdeal.Stages.A_cst_2 m ρ c
  v16 := Cert.KernelIdeal.Stages.A_v16 m ρ c
  v17 := Cert.KernelIdeal.Stages.A_v17 m ρ c
  v18 := Cert.KernelIdeal.Stages.A_v18 m ρ c
  cst_3 := Cert.KernelIdeal.Stages.A_cst_3 m ρ c
  call0_v0 := Cert.KernelIdeal.Stages.A_call0_v0 m ρ c
  call0_v1 := Cert.KernelIdeal.Stages.A_call0_v1 m ρ c
  v19 := Cert.KernelIdeal.Stages.A_v19 m ρ c
  c_4 := Cert.KernelIdeal.Stages.A_c_4 m ρ c
  v20 := Cert.KernelIdeal.Stages.A_v20 m ρ c
  v21 := Cert.KernelIdeal.Stages.A_v21 m ρ c
  c_5 := Cert.KernelIdeal.Stages.A_c_5 m ρ c
  v22 := Cert.KernelIdeal.Stages.A_v22 m ρ c
  v23 := Cert.KernelIdeal.Stages.A_v23 m ρ c
  v24 := Cert.KernelIdeal.Stages.A_v24 m ρ c
  v25 := Cert.KernelIdeal.Stages.A_v25 m ρ c
  v26 := Cert.KernelIdeal.Stages.A_v26 m ρ c
  c_6 := Cert.KernelIdeal.Stages.A_c_6 m ρ c
  v27 := Cert.KernelIdeal.Stages.A_v27 m ρ c
  v28 := Cert.KernelIdeal.Stages.A_v28 m ρ c
  c_7 := Cert.KernelIdeal.Stages.A_c_7 m ρ c
  v29 := Cert.KernelIdeal.Stages.A_v29 m ρ c
  v30 := Cert.KernelIdeal.Stages.A_v30 m ρ c
  v31 := Cert.KernelIdeal.Stages.A_v31 m ρ c
  v32 := Cert.KernelIdeal.Stages.A_v32 m ρ c
  v33 := Cert.KernelIdeal.Stages.A_v33 m ρ c
  v34 := Cert.KernelIdeal.Stages.A_v34 m ρ c
  c_8 := Cert.KernelIdeal.Stages.A_c_8 m ρ c
  v39 := Cert.KernelIdeal.Stages.A_v39 m ρ c
  v40 := Cert.KernelIdeal.Stages.A_v40 m ρ c
  c_9 := Cert.KernelIdeal.Stages.A_c_9 m ρ c
  v41 := Cert.KernelIdeal.Stages.A_v41 m ρ c
  v42 := Cert.KernelIdeal.Stages.A_v42 m ρ c
  v43 := Cert.KernelIdeal.Stages.A_v43 m ρ c
  v44 := Cert.KernelIdeal.Stages.A_v44 m ρ c
  c_11 := Cert.KernelIdeal.Stages.A_c_11 m ρ c
  v50 := Cert.KernelIdeal.Stages.A_v50 m ρ c
  v51 := Cert.KernelIdeal.Stages.A_v51 m ρ c
  c_12 := Cert.KernelIdeal.Stages.A_c_12 m ρ c
  v52 := Cert.KernelIdeal.Stages.A_v52 m ρ c
  v53 := Cert.KernelIdeal.Stages.A_v53 m ρ c
  v54 := Cert.KernelIdeal.Stages.A_v54 m ρ c
  v55 := Cert.KernelIdeal.Stages.A_v55 m ρ c

variable (m : (ℓ : Loc Cert.KernelIdeal.nD Cert.KernelIdeal.τ Cert.KernelIdeal.sig) → Buf (Elt F) ℓ) (ρ : Dev Cert.KernelIdeal.nD → PrngReg)
  (m' : (ℓ : Loc Cert.ReferenceIdeal.nD Cert.ReferenceIdeal.τ Cert.ReferenceIdeal.sig) → Buf (Elt F) ℓ) (c : Dev Cert.KernelIdeal.nD)
  (h11 : m' ((c.tc : Thread Cert.ReferenceIdeal.nD Cert.ReferenceIdeal.τ).loc Cert.ReferenceIdeal.main_arg11)
    = m ((c.tc : Thread Cert.KernelIdeal.nD Cert.KernelIdeal.τ).loc Cert.KernelIdeal.main_arg11))

include h11 in
/-- The two runs end with the same edge list in its argument buffer. -/
theorem arg11_eq : Cert.ReferenceIdeal.RefRun.A m' c Cert.ReferenceIdeal.main_arg11 = Cert.KernelIdeal.Stages.A m ρ c Cert.KernelIdeal.main_arg11 :=
  (Cert.ReferenceIdeal.RefRun.st_main_arg11 m' c).trans (h11.trans (Cert.KernelIdeal.Stages.A_arg11 m ρ c).symm)

include h11 in
/-- The normalized first column: the reference's `main_v41` is the kernel program's `main_v44`. -/
theorem src_eq : Cert.ReferenceIdeal.RefRun.A m' c Cert.ReferenceIdeal.main_v41 = Cert.KernelIdeal.Stages.A m ρ c Cert.KernelIdeal.main_v44 :=
  src_eq_of (refHops m' c) (kerHops m ρ c) (arg11_eq m ρ m' c h11)

include h11 in
/-- The normalized second column: the reference's `main_v52` is the kernel program's `main_v55`. -/
theorem tgt_eq : Cert.ReferenceIdeal.RefRun.A m' c Cert.ReferenceIdeal.main_v52 = Cert.KernelIdeal.Stages.A m ρ c Cert.KernelIdeal.main_v55 :=
  tgt_eq_of (refHops m' c) (kerHops m ρ c) (arg11_eq m ρ m' c h11)

include h11 in
/-- The edge weights: the two programs' `main_v34`. -/
theorem nrm_eq : Cert.ReferenceIdeal.RefRun.A m' c Cert.ReferenceIdeal.main_v34 = Cert.KernelIdeal.Stages.A m ρ c Cert.KernelIdeal.main_v34 :=
  nrm_eq_of (refHops m' c) (kerHops m ρ c) (arg11_eq m ρ m' c h11)

end Cert.SharedEdges

end
-- ==== Proof.lean ====
/-
  A three-layer graph convolution with batch normalization: tiled kernels for the three matrix products and the pointwise
  stages, against plain array code.

  Both programs compute, from the node features, the layer weights and the edge list, the same two results: the third
  convolution's output and the second convolution before its activation. They differ in layout — the kernel program keeps
  feature maps as `[2, 50000, C]` (flattened to `100000` rows for the products), the reference as `[1, 2, 50000, C]` and,
  inside its batch normalization, transposed — in the tiling of the kernels, in rounding to a shorter float on the way into
  the products (the identity on exact values), and in where the reciprocal square root is taken. Read over the extended
  reals, entry by entry, both are the specification `Cert.GcnSpec`: sums over the same index sets in another order,
  products and differences in the same association. No step needs the inputs to be finite.

  The three frames: the two kernel programs' are their runs with the results dropped; the reference is a list of host
  operations, and its run leaves every argument as launched. The kernel program's idealization rewrote nothing.
-/
import proofs.«172352_j22454089024045_1_alg».proof.Defs
import proofs.«172352_j22454089024045_1_alg».proof.Proof.Gen.Kernel
import proofs.«172352_j22454089024045_1_alg».proof.Proof.Gen.Kernel.Frame
import proofs.«172352_j22454089024045_1_alg».proof.Proof.Gen.KernelIdeal
import proofs.«172352_j22454089024045_1_alg».proof.Proof.Gen.KernelIdeal.Frame
import proofs.«172352_j22454089024045_1_alg».proof.Proof.Gen.ReferenceIdeal
import proofs.«172352_j22454089024045_1_alg».proof.Proof.Gen.Pre_finite_inputs
import proofs.«172352_j22454089024045_1_alg».proof.Proof.KernelRun
import proofs.«172352_j22454089024045_1_alg».proof.Proof.RefRun
import proofs.«172352_j22454089024045_1_alg».proof.Proof.RefRunStages
import proofs.«172352_j22454089024045_1_alg».proof.Proof.StepsFinal
import proofs.«172352_j22454089024045_1_alg».proof.Proof.KernelValue
import proofs.«172352_j22454089024045_1_alg».proof.Proof.RefValue
import proofs.«172352_j22454089024045_1_alg».proof.Proof.SharedEdges
import Idealize.ShloMosaic.Adequacy
import Idealize.ShloMosaic.Init

noncomputable section

namespace Cert.Proof

open Idealize.ShloMosaic Idealize.SL.Sem

variable [hK : Cert.Kernel.Facts] [hKI : Cert.KernelIdeal.Facts] [hRI : Cert.ReferenceIdeal.Facts]
  [hP : Cert.Pre_finite_inputs.Facts]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun r h c =>
    ⟨(h c _).trans (Cert.ReferenceIdeal.RefRun.st_main_arg0 m c),
     (h c _).trans (Cert.ReferenceIdeal.RefRun.st_main_arg1 m c),
     (h c _).trans (Cert.ReferenceIdeal.RefRun.st_main_arg2 m c),
     (h c _).trans (Cert.ReferenceIdeal.RefRun.st_main_arg3 m c),
     (h c _).trans (Cert.ReferenceIdeal.RefRun.st_main_arg4 m c),
     (h c _).trans (Cert.ReferenceIdeal.RefRun.st_main_arg5 m c),
     (h c _).trans (Cert.ReferenceIdeal.RefRun.st_main_arg6 m c),
     (h c _).trans (Cert.ReferenceIdeal.RefRun.st_main_arg7 m c),
     (h c _).trans (Cert.ReferenceIdeal.RefRun.st_main_arg8 m c),
     (h c _).trans (Cert.ReferenceIdeal.RefRun.st_main_arg9 m c),
     (h c _).trans (Cert.ReferenceIdeal.RefRun.st_main_arg10 m c),
     (h c _).trans (Cert.ReferenceIdeal.RefRun.st_main_arg11 m c)⟩)
    (Cert.ReferenceIdeal.RefRun.run_A (F := Ideal) m ρ)

theorem preserves : Cert.preserves_Kernel_KernelIdeal := trivial

/-- The specification's inputs read off the two launch memories agree: the arguments by hypothesis, the edge columns and
    weights because both programs compute them by the same operations from the last argument. -/
theorem algebraic : Cert.algebraic_KernelIdeal_ReferenceIdeal := by
  intro m ρ m' ρ' _ hagree
  refine ⟨fun c => Cert.KernelIdeal.Stages.A m ρ c Cert.KernelIdeal.main_v121, fun c => Cert.KernelIdeal.Stages.A m ρ c Cert.KernelIdeal.main_v122,
    Cert.KernelIdeal.KRun.run (F := Ideal) m ρ, ?_⟩
  refine (θ_run Cert.ReferenceIdeal.defs _ _).mono (fun r h c => ?_) (Cert.ReferenceIdeal.RefRun.run_A (F := Ideal) m' ρ')
  obtain ⟨a0, a1, a2, a3, a4, a5, a6, a7, a8, a9, a10, a11⟩ := hagree c
  have hsrc : Cert.ReferenceIdeal.RefValue.src m' c = Cert.KernelIdeal.KValue.src m ρ c := Cert.SharedEdges.src_eq m ρ m' c a11
  have htgt : Cert.ReferenceIdeal.RefValue.tgt m' c = Cert.KernelIdeal.KValue.tgt m ρ c := Cert.SharedEdges.tgt_eq m ρ m' c a11
  have hnrm : Cert.ReferenceIdeal.RefValue.nrm m' c = Cert.KernelIdeal.KValue.nrm m ρ c := by
    funext e; unfold Cert.ReferenceIdeal.RefValue.nrm Cert.KernelIdeal.KValue.nrm; rw [Cert.SharedEdges.nrm_eq m ρ m' c a11]
  have hx : Cert.ReferenceIdeal.RefValue.xF m' c = Cert.KernelIdeal.KValue.xF m c := by unfold Cert.ReferenceIdeal.RefValue.xF Cert.KernelIdeal.KValue.xF; rw [a0]
  have hW1 : Cert.ReferenceIdeal.RefValue.W1F m' c = Cert.KernelIdeal.KValue.W1F m c := by unfold Cert.ReferenceIdeal.RefValue.W1F Cert.KernelIdeal.KValue.W1F; rw [a1]
  have hb1 : Cert.ReferenceIdeal.RefValue.b1F m' c = Cert.KernelIdeal.KValue.b1F m c := by unfold Cert.ReferenceIdeal.RefValue.b1F Cert.KernelIdeal.KValue.b1F; rw [a2]
  have hg1 : Cert.ReferenceIdeal.RefValue.g1F m' c = Cert.KernelIdeal.KValue.g1F m c := by unfold Cert.ReferenceIdeal.RefValue.g1F Cert.KernelIdeal.KValue.g1F; rw [a3]
  have hbe1 : Cert.ReferenceIdeal.RefValue.be1F m' c = Cert.KernelIdeal.KValue.be1F m c := by unfold Cert.ReferenceIdeal.RefValue.be1F Cert.KernelIdeal.KValue.be1F; rw [a4]
  have hW2 : Cert.ReferenceIdeal.RefValue.W2F m' c = Cert.KernelIdeal.KValue.W2F m c := by unfold Cert.ReferenceIdeal.RefValue.W2F Cert.KernelIdeal.KValue.W2F; rw [a5]
  have hb2 : Cert.ReferenceIdeal.RefValue.b2F m' c = Cert.KernelIdeal.KValue.b2F m c := by unfold Cert.ReferenceIdeal.RefValue.b2F Cert.KernelIdeal.KValue.b2F; rw [a6]
  have hg2 : Cert.ReferenceIdeal.RefValue.g2F m' c = Cert.KernelIdeal.KValue.g2F m c := by unfold Cert.ReferenceIdeal.RefValue.g2F Cert.KernelIdeal.KValue.g2F; rw [a7]
  have hbe2 : Cert.ReferenceIdeal.RefValue.be2F m' c = Cert.KernelIdeal.KValue.be2F m c := by unfold Cert.ReferenceIdeal.RefValue.be2F Cert.KernelIdeal.KValue.be2F; rw [a8]
  have hW3 : Cert.ReferenceIdeal.RefValue.W3F m' c = Cert.KernelIdeal.KValue.W3F m c := by unfold Cert.ReferenceIdeal.RefValue.W3F Cert.KernelIdeal.KValue.W3F; rw [a9]
  have hb3 : Cert.ReferenceIdeal.RefValue.b3F m' c = Cert.KernelIdeal.KValue.b3F m c := by unfold Cert.ReferenceIdeal.RefValue.b3F Cert.KernelIdeal.KValue.b3F; rw [a10]
  refine ⟨(h c _).trans ?_, (h c _).trans ?_,
    (h c _).trans (Cert.ReferenceIdeal.RefRun.st_main_arg0 m' c),
    (h c _).trans (Cert.ReferenceIdeal.RefRun.st_main_arg1 m' c),
    (h c _).trans (Cert.ReferenceIdeal.RefRun.st_main_arg2 m' c),
    (h c _).trans (Cert.ReferenceIdeal.RefRun.st_main_arg3 m' c),
    (h c _).trans (Cert.ReferenceIdeal.RefRun.st_main_arg4 m' c),
    (h c _).trans (Cert.ReferenceIdeal.RefRun.st_main_arg5 m' c),
    (h c _).trans (Cert.ReferenceIdeal.RefRun.st_main_arg6 m' c),
    (h c _).trans (Cert.ReferenceIdeal.RefRun.st_main_arg7 m' c),
    (h c _).trans (Cert.ReferenceIdeal.RefRun.st_main_arg8 m' c),
    (h c _).trans (Cert.ReferenceIdeal.RefRun.st_main_arg9 m' c),
    (h c _).trans (Cert.ReferenceIdeal.RefRun.st_main_arg10 m' c),
    (h c _).trans (Cert.ReferenceIdeal.RefRun.st_main_arg11 m' c)⟩
  · exact Cert.GcnSteps.IsR.unique (Cert.ReferenceIdeal.RefValue.out_value m' c) (Cert.KernelIdeal.KValue.out_value m ρ c)
      (by rw [hsrc, htgt, hnrm, hx, hW1, hb1, hg1, hbe1, hW2, hb2, hg2, hbe2, hW3, hb3])
  · exact Cert.GcnSteps.IsR.unique (Cert.ReferenceIdeal.RefValue.x1_value m' c) (Cert.KernelIdeal.KValue.x1_value m ρ c)
      (by rw [hsrc, htgt, hnrm, hx, hW1, hb1, hg1, hbe1, hW2, hb2])

end Cert.Proof

namespace Cert.Proof

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
